-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v522)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v522) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v608) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S600000x1 : Shape := ⟨2, ![600000, 1]⟩
abbrev S50000x5 : Shape := ⟨2, ![50000, 5]⟩
abbrev S3 : Shape := ⟨1, ![3]⟩
abbrev S3x64 : Shape := ⟨2, ![3, 64]⟩
abbrev S64 : Shape := ⟨1, ![64]⟩
abbrev S64x64 : Shape := ⟨2, ![64, 64]⟩
abbrev S1 : Shape := ⟨1, ![1]⟩
abbrev S5 : Shape := ⟨1, ![5]⟩
abbrev S5x64 : Shape := ⟨2, ![5, 64]⟩
abbrev S4x129x64 : Shape := ⟨3, ![4, 129, 64]⟩
abbrev S4x64 : Shape := ⟨2, ![4, 64]⟩
abbrev S4x64x64 : Shape := ⟨3, ![4, 64, 64]⟩
abbrev S4x128x64 : Shape := ⟨3, ![4, 128, 64]⟩
abbrev S192x512 : Shape := ⟨2, ![192, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S2x600000 : Shape := ⟨2, ![2, 600000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S50000x5 : S_.BroadcastsInDim S50000x5 (![] : Fin 0 → Fin S50000x5.rank)
  reducesTo_S50000x5_S_d0_1 : S50000x5.ReducesTo [0, 1] S_
  bcast_S_S3 : S_.BroadcastsInDim S3 (![] : Fin 0 → Fin S3.rank)
  reducesTo_S3_S_d0 : S3.ReducesTo [0] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_
  bcast_S_S5 : S_.BroadcastsInDim S5 (![] : Fin 0 → Fin S5.rank)
  reducesTo_S5_S_d0 : S5.ReducesTo [0] S_
  bcast_S_S5x64 : S_.BroadcastsInDim S5x64 (![] : Fin 0 → Fin S5x64.rank)
  reducesTo_S5x64_S_d0_1 : S5x64.ReducesTo [0, 1] S_
  bcast_S_S4x129x64 : S_.BroadcastsInDim S4x129x64 (![] : Fin 0 → Fin S4x129x64.rank)
  reducesTo_S4x129x64_S_d0_1_2 : S4x129x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x128x64 : S_.BroadcastsInDim S4x128x64 (![] : Fin 0 → Fin S4x128x64.rank)
  reducesTo_S4x128x64_S_d0_1_2 : S4x128x64.ReducesTo [0, 1, 2] S_
  bcast_S_S192x512 : S_.BroadcastsInDim S192x512 (![] : Fin 0 → Fin S192x512.rank)
  reducesTo_S192x512_S_d0_1 : S192x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part10 {F : FTy → Type} [FloatOps F] (main_arg35 : FVec F S1 .f32) (main_v168 : IVec S_ 1) (main_v169 : FVec F S128x1 .f32) (main_v170 : FVec F S128x1 .f32) : IVec S_ 1 :=
  let main_v171 : IVec S128x1 1 := cmpf .olt main_v169 main_v170
  let main_c_67 : IVec S_ 1 := constantI S_ 1 1#1
  let main_v172 : IVec S_ 1 := (fun x v => Host.reduce IntOp.andi x v reducesTo_S128x1_S_d0_1 h_S_) main_v171 main_c_67
  let main_v173 : IVec S_ 1 := andi main_v168 main_v172
  let main_v174 : FVec F S1 .f32 := Host.absf main_arg35
  let main_cst_68 : FVec F S_ .f32 := constant S_ .f32 0x7F800000#32
  let main_v175 : FVec F S1 .f32 := broadcastInDim S1 ![] bcast_S_S1 main_cst_68
  let main_v176 : IVec S1 1 := cmpf .olt main_v174 main_v175
  let main_c_69 : IVec S_ 1 := constantI S_ 1 1#1
  let main_v177 : IVec S_ 1 := (fun x v => Host.reduce IntOp.andi x v reducesTo_S1_S_d0 h_S_) main_v176 main_c_69
  let main_v178 : IVec S_ 1 := andi main_v173 main_v177
  main_v178

def fn_part9 {F : FTy → Type} [FloatOps F] (main_arg31 : FVec F S512 .f32) (main_arg32 : FVec F S512x128 .f32) (main_arg33 : FVec F S128 .f32) (main_arg34 : FVec F S128x1 .f32) (main_arg35 : FVec F S1 .f32) (main_v153 : IVec S_ 1) : IVec S_ 1 :=
  let main_v154 : FVec F S512 .f32 := Host.absf main_arg31
  let main_cst_60 : FVec F S_ .f32 := constant S_ .f32 0x7F800000#32
  let main_v155 : FVec F S512 .f32 := broadcastInDim S512 ![] bcast_S_S512 main_cst_60
  let main_v156 : IVec S512 1 := cmpf .olt main_v154 main_v155
  let main_c_61 : IVec S_ 1 := constantI S_ 1 1#1
  let main_v157 : IVec S_ 1 := (fun x v => Host.reduce IntOp.andi x v reducesTo_S512_S_d0 h_S_) main_v156 main_c_61
  let main_v158 : IVec S_ 1 := andi main_v153 main_v157
  let main_v159 : FVec F S512x128 .f32 := Host.absf main_arg32
  let main_cst_62 : FVec F S_ .f32 := constant S_ .f32 0x7F800000#32
  let main_v160 : FVec F S512x128 .f32 := broadcastInDim S512x128 ![] bcast_S_S512x128 main_cst_62
  let main_v161 : IVec S512x128 1 := cmpf .olt main_v159 main_v160
  let main_c_63 : IVec S_ 1 := constantI S_ 1 1#1
  let main_v162 : IVec S_ 1 := (fun x v => Host.reduce IntOp.andi x v reducesTo_S512x128_S_d0_1 h_S_) main_v161 main_c_63
  let main_v163 : IVec S_ 1 := andi main_v158 main_v162
  let main_v164 : FVec F S128 .f32 := Host.absf main_arg33
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  let main_v169 : FVec F S128x1 .f32 := Host.absf main_arg34
  let main_cst_66 : FVec F S_ .f32 := constant S_ .f32 0x7F800000#32
  let main_v170 : FVec F S128x1 .f32 := broadcastInDim S128x1 ![] bcast_S_S128x1 main_cst_66
  fn_part10 (F := F) main_arg35 main_v168 main_v169 main_v170

def fn_part8 {F : FTy → Type} [FloatOps F] (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v133 : IVec S_ 1) (main_v136 : IVec S4x64 1) : IVec S_ 1 :=
  let main_c_53 : IVec S_ 1 := constantI S_ 1 1#1
  let main_v137 : IVec S_ 1 := (fun x v => Host.reduce IntOp.andi x v reducesTo_S4x64_S_d0_1 h_S_) main_v136 main_c_53
  let main_v138 : IVec S_ 1 := andi main_v133 main_v137
  let main_v139 : FVec F S4x64 .f32 := Host.absf main_arg28
  let main_cst_54 : FVec F S_ .f32 := constant S_ .f32 0x7F800000#32
  let main_v140 : FVec F S4x64 .f32 := broadcastInDim S4x64 ![] bcast_S_S4x64 main_cst_54
  let main_v141 : IVec S4x64 1 := cmpf .olt main_v139 main_v140
  let main_c_55 : IVec S_ 1 := constantI S_ 1 1#1
  let main_v142 : IVec S_ 1 := (fun x v => Host.reduce IntOp.andi x v reducesTo_S4x64_S_d0_1 h_S_) main_v141 main_c_55
  let main_v143 : IVec S_ 1 := andi main_v138 main_v142
  let main_v144 : FVec F S4x64 .f32 := Host.absf main_arg29
  let main_cst_56 : FVec F S_ .f32 := constant S_ .f32 0x7F800000#32
  let main_v145 : FVec F S4x64 .f32 := broadcastInDim S4x64 ![] bcast_S_S4x64 main_cst_56
  let main_v146 : IVec S4x64 1 := cmpf .olt main_v144 main_v145
  let main_c_57 : IVec S_ 1 := constantI S_ 1 1#1
  let main_v147 : IVec S_ 1 := (fun x v => Host.reduce IntOp.andi x v reducesTo_S4x64_S_d0_1 h_S_) main_v146 main_c_57
  let main_v148 : IVec S_ 1 := andi main_v143 main_v147
  let main_v149 : FVec F S192x512 .f32 := Host.absf main_arg30
  let main_cst_58 : FVec F S_ .f32 := constant S_ .f32 0x7F800000#32
  let main_v150 : FVec F S192x512 .f32 := broadcastInDim S192x512 ![] bcast_S_S192x512 main_cst_58
  let main_v151 : IVec S192x512 1 := cmpf .olt main_v149 main_v150
  let main_c_59 : IVec S_ 1 := constantI S_ 1 1#1
  let main_v152 : IVec S_ 1 := (fun x v => Host.reduce IntOp.andi x v reducesTo_S192x512_S_d0_1 h_S_) main_v151 main_c_59
  let main_v153 : IVec S_ 1 := andi main_v148 main_v152
  fn_part9 (F := F) main_arg31 main_arg32 main_arg33 main_arg34 main_arg35 main_v153

def fn_part7 {F : FTy → Type} [FloatOps F] (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v118 : IVec S_ 1) (main_v119 : FVec F S4x64 .f32) : IVec S_ 1 :=
  let main_cst_46 : FVec F S_ .f32 := constant S_ .f32 0x7F800000#32
  let main_v120 : FVec F S4x64 .f32 := broadcastInDim S4x64 ![] bcast_S_S4x64 main_cst_46
  let main_v121 : IVec S4x64 1 := cmpf .olt main_v119 main_v120
  let main_c_47 : IVec S_ 1 := constantI S_ 1 1#1
  let main_v122 : IVec S_ 1 := (fun x v => Host.reduce IntOp.andi x v reducesTo_S4x64_S_d0_1 h_S_) main_v121 main_c_47
  let main_v123 : IVec S_ 1 := andi main_v118 main_v122
  let main_v124 : FVec F S4x64x64 .f32 := Host.absf main_arg25
  let main_cst_48 : FVec F S_ .f32 := constant S_ .f32 0x7F800000#32
  let main_v125 : FVec F S4x64x64 .f32 := broadcastInDim S4x64x64 ![] bcast_S_S4x64x64 main_cst_48
  let main_v126 : IVec S4x64x64 1 := cmpf .olt main_v124 main_v125
  let main_c_49 : IVec S_ 1 := constantI S_ 1 1#1
  let main_v127 : IVec S_ 1 := (fun x v => Host.reduce IntOp.andi x v reducesTo_S4x64x64_S_d0_1_2 h_S_) main_v126 main_c_49
  let main_v128 : IVec S_ 1 := andi main_v123 main_v127
  let main_v129 : FVec F S4x64 .f32 := Host.absf main_arg26
  let main_cst_50 : FVec F S_ .f32 := constant S_ .f32 0x7F800000#32
  let main_v130 : FVec F S4x64 .f32 := broadcastInDim S4x64 ![] bcast_S_S4x64 main_cst_50
  let main_v131 : IVec S4x64 1 := cmpf .olt main_v129 main_v130
  let main_c_51 : IVec S_ 1 := constantI S_ 1 1#1
  let main_v132 : IVec S_ 1 := (fun x v => Host.reduce IntOp.andi x v reducesTo_S4x64_S_d0_1 h_S_) main_v131 main_c_51
  let main_v133 : IVec S_ 1 := andi main_v128 main_v132
  let main_v134 : FVec F S4x64 .f32 := Host.absf main_arg27
  let main_cst_52 : FVec F S_ .f32 := constant S_ .f32 0x7F800000#32
  let main_v135 : FVec F S4x64 .f32 := broadcastInDim S4x64 ![] bcast_S_S4x64 main_cst_52
  let main_v136 : IVec S4x64 1 := cmpf .olt main_v134 main_v135
  fn_part8 (F := F) main_arg28 main_arg29 main_arg30 main_arg31 main_arg32 main_arg33 main_arg34 main_arg35 main_v133 main_v136

def fn_part6 {F : FTy → Type} [FloatOps F] (main_arg21 : FVec F S4x64 .f32) (main_arg22 : FVec F S4x64 .f32) (main_arg23 : FVec F S4x128x64 .f32) (main_arg24 : FVec F S4x64 .f32) (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v98 : IVec S_ 1) (main_v101 : IVec S4x64 1) (main_c_39 : IVec S_ 1) : IVec S_ 1 :=
  let main_v102 : IVec S_ 1 := (fun x v => Host.reduce IntOp.andi x v reducesTo_S4x64_S_d0_1 h_S_) main_v101 main_c_39
  let main_v103 : IVec S_ 1 := andi main_v98 main_v102
  let main_v104 : FVec F S4x64 .f32 := Host.absf main_arg21
  let main_cst_40 : FVec F S_ .f32 := constant S_ .f32 0x7F800000#32
  let main_v105 : FVec F S4x64 .f32 := broadcastInDim S4x64 ![] bcast_S_S4x64 main_cst_40
  let main_v106 : IVec S4x64 1 := cmpf .olt main_v104 main_v105
  let main_c_41 : IVec S_ 1 := constantI S_ 1 1#1
  let main_v107 : IVec S_ 1 := (fun x v => Host.reduce IntOp.andi x v reducesTo_S4x64_S_d0_1 h_S_) main_v106 main_c_41
  let main_v108 : IVec S_ 1 := andi main_v103 main_v107
  let main_v109 : FVec F S4x64 .f32 := Host.absf main_arg22
  let main_cst_42 : FVec F S_ .f32 := constant S_ .f32 0x7F800000#32
  let main_v110 : FVec F S4x64 .f32 := broadcastInDim S4x64 ![] bcast_S_S4x64 main_cst_42
  let main_v111 : IVec S4x64 1 := cmpf .olt main_v109 main_v110
  let main_c_43 : IVec S_ 1 := constantI S_ 1 1#1
  let main_v112 : IVec S_ 1 := (fun x v => Host.reduce IntOp.andi x v reducesTo_S4x64_S_d0_1 h_S_) main_v111 main_c_43
  let main_v113 : IVec S_ 1 := andi main_v108 main_v112
  let main_v114 : FVec F S4x128x64 .f32 := Host.absf main_arg23
  let main_cst_44 : FVec F S_ .f32 := constant S_ .f32 0x7F800000#32
  let main_v115 : FVec F S4x128x64 .f32 := broadcastInDim S4x128x64 ![] bcast_S_S4x128x64 main_cst_44
  let main_v116 : IVec S4x128x64 1 := cmpf .olt main_v114 main_v115
  let main_c_45 : IVec S_ 1 := constantI S_ 1 1#1
  let main_v117 : IVec S_ 1 := (fun x v => Host.reduce IntOp.andi x v reducesTo_S4x128x64_S_d0_1_2 h_S_) main_v116 main_c_45
  let main_v118 : IVec S_ 1 := andi main_v113 main_v117
  let main_v119 : FVec F S4x64 .f32 := Host.absf main_arg24
  fn_part7 (F := F) main_arg25 main_arg26 main_arg27 main_arg28 main_arg29 main_arg30 main_arg31 main_arg32 main_arg33 main_arg34 main_arg35 main_v118 main_v119

def fn_part5 {F : FTy → Type} [FloatOps F] (main_arg18 : FVec F S4x64 .f32) (main_arg19 : FVec F S4x64x64 .f32) (main_arg20 : FVec F S4x64 .f32) (main_arg21 : FVec F S4x64 .f32) (main_arg22 : FVec F S4x64 .f32) (main_arg23 : FVec F S4x128x64 .f32) (main_arg24 : FVec F S4x64 .f32) (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v83 : IVec S_ 1) (main_v84 : FVec F S4x129x64 .f32) (main_cst_32 : FVec F S_ .f32) : IVec S_ 1 :=
  let main_v85 : FVec F S4x129x64 .f32 := broadcastInDim S4x129x64 ![] bcast_S_S4x129x64 main_cst_32
  let main_v86 : IVec S4x129x64 1 := cmpf .olt main_v84 main_v85
  let main_c_33 : IVec S_ 1 := constantI S_ 1 1#1
  let main_v87 : IVec S_ 1 := (fun x v => Host.reduce IntOp.andi x v reducesTo_S4x129x64_S_d0_1_2 h_S_) main_v86 main_c_33
  let main_v88 : IVec S_ 1 := andi main_v83 main_v87
  let main_v89 : FVec F S4x64 .f32 := Host.absf main_arg18
  let main_cst_34 : FVec F S_ .f32 := constant S_ .f32 0x7F800000#32
  let main_v90 : FVec F S4x64 .f32 := broadcastInDim S4x64 ![] bcast_S_S4x64 main_cst_34
  let main_v91 : IVec S4x64 1 := cmpf .olt main_v89 main_v90
  let main_c_35 : IVec S_ 1 := constantI S_ 1 1#1
  let main_v92 : IVec S_ 1 := (fun x v => Host.reduce IntOp.andi x v reducesTo_S4x64_S_d0_1 h_S_) main_v91 main_c_35
  let main_v93 : IVec S_ 1 := andi main_v88 main_v92
  let main_v94 : FVec F S4x64x64 .f32 := Host.absf main_arg19
  let main_cst_36 : FVec F S_ .f32 := constant S_ .f32 0x7F800000#32
  let main_v95 : FVec F S4x64x64 .f32 := broadcastInDim S4x64x64 ![] bcast_S_S4x64x64 main_cst_36
  let main_v96 : IVec S4x64x64 1 := cmpf .olt main_v94 main_v95
  let main_c_37 : IVec S_ 1 := constantI S_ 1 1#1
  let main_v97 : IVec S_ 1 := (fun x v => Host.reduce IntOp.andi x v reducesTo_S4x64x64_S_d0_1_2 h_S_) main_v96 main_c_37
  let main_v98 : IVec S_ 1 := andi main_v93 main_v97
  let main_v99 : FVec F S4x64 .f32 := Host.absf main_arg20
  let main_cst_38 : FVec F S_ .f32 := constant S_ .f32 0x7F800000#32
  let main_v100 : FVec F S4x64 .f32 := broadcastInDim S4x64 ![] bcast_S_S4x64 main_cst_38
  let main_v101 : IVec S4x64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg14 : FVec F S64 .f32) (main_arg15 : FVec F S64x64 .f32) (main_arg16 : FVec F S64 .f32) (main_arg17 : FVec F S4x129x64 .f32) (main_arg18 : FVec F S4x64 .f32) (main_arg19 : FVec F S4x64x64 .f32) (main_arg20 : FVec F S4x64 .f32) (main_arg21 : FVec F S4x64 .f32) (main_arg22 : FVec F S4x64 .f32) (main_arg23 : FVec F S4x128x64 .f32) (main_arg24 : FVec F S4x64 .f32) (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S4x129x64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg11 : FVec F S5 .f32) (main_arg12 : FVec F S5 .f32) (main_arg13 : FVec F S5x64 .f32) (main_arg14 : FVec F S64 .f32) (main_arg15 : FVec F S64x64 .f32) (main_arg16 : FVec F S64 .f32) (main_arg17 : FVec F S4x129x64 .f32) (main_arg18 : FVec F S4x64 .f32) (main_arg19 : FVec F S4x64x64 .f32) (main_arg20 : FVec F S4x64 .f32) (main_arg21 : FVec F S4x64 .f32) (main_arg22 : FVec F S4x64 .f32) (main_arg23 : FVec F S4x128x64 .f32) (main_arg24 : FVec F S4x64 .f32) (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S5 .f32 := Host.absf main_arg11
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S5 .f32 := Host.absf main_arg12
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_v64 : FVec F S5x64 .f32 := Host.absf main_arg13
  let main_cst_24 : FVec F S_ .f32 := constant S_ .f32 0x7F800000#32
  let main_v65 : FVec F S5x64 .f32 := broadcastInDim S5x64 ![] bcast_S_S5x64 main_cst_24
  let main_v66 : IVec S5x64 1 := cmpf .olt main_v64 main_v65
  let main_c_25 : IVec S_ 1 := constantI S_ 1 1#1
  let main_v67 : IVec S_ 1 := (fun x v => Host.reduce IntOp.andi x v reducesTo_S5x64_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg7 : FVec F S64x64 .f32) (main_arg8 : FVec F S64 .f32) (main_arg9 : FVec F S1 .f32) (main_arg10 : FVec F S1 .f32) (main_arg11 : FVec F S5 .f32) (main_arg12 : FVec F S5 .f32) (main_arg13 : FVec F S5x64 .f32) (main_arg14 : FVec F S64 .f32) (main_arg15 : FVec F S64x64 .f32) (main_arg16 : FVec F S64 .f32) (main_arg17 : FVec F S4x129x64 .f32) (main_arg18 : FVec F S4x64 .f32) (main_arg19 : FVec F S4x64x64 .f32) (main_arg20 : FVec F S4x64 .f32) (main_arg21 : FVec F S4x64 .f32) (main_arg22 : FVec F S4x64 .f32) (main_arg23 : FVec F S4x128x64 .f32) (main_arg24 : FVec F S4x64 .f32) (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg4 : FVec F S3 .f32) (main_arg5 : FVec F S3x64 .f32) (main_arg6 : FVec F S64 .f32) (main_arg7 : FVec F S64x64 .f32) (main_arg8 : FVec F S64 .f32) (main_arg9 : FVec F S1 .f32) (main_arg10 : FVec F S1 .f32) (main_arg11 : FVec F S5 .f32) (main_arg12 : FVec F S5 .f32) (main_arg13 : FVec F S5x64 .f32) (main_arg14 : FVec F S64 .f32) (main_arg15 : FVec F S64x64 .f32) (main_arg16 : FVec F S64 .f32) (main_arg17 : FVec F S4x129x64 .f32) (main_arg18 : FVec F S4x64 .f32) (main_arg19 : FVec F S4x64x64 .f32) (main_arg20 : FVec F S4x64 .f32) (main_arg21 : FVec F S4x64 .f32) (main_arg22 : FVec F S4x64 .f32) (main_arg23 : FVec F S4x128x64 .f32) (main_arg24 : FVec F S4x64 .f32) (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S50000x3 .f32) (main_arg1 : FVec F S600000x1 .f32) (main_arg2 : FVec F S50000x5 .f32) (main_arg3 : FVec F S3 .f32) (main_arg4 : FVec F S3 .f32) (main_arg5 : FVec F S3x64 .f32) (main_arg6 : FVec F S64 .f32) (main_arg7 : FVec F S64x64 .f32) (main_arg8 : FVec F S64 .f32) (main_arg9 : FVec F S1 .f32) (main_arg10 : FVec F S1 .f32) (main_arg11 : FVec F S5 .f32) (main_arg12 : FVec F S5 .f32) (main_arg13 : FVec F S5x64 .f32) (main_arg14 : FVec F S64 .f32) (main_arg15 : FVec F S64x64 .f32) (main_arg16 : FVec F S64 .f32) (main_arg17 : FVec F S4x129x64 .f32) (main_arg18 : FVec F S4x64 .f32) (main_arg19 : FVec F S4x64x64 .f32) (main_arg20 : FVec F S4x64 .f32) (main_arg21 : FVec F S4x64 .f32) (main_arg22 : FVec F S4x64 .f32) (main_arg23 : FVec F S4x128x64 .f32) (main_arg24 : FVec F S4x64 .f32) (main_arg25 : FVec F S4x64x64 .f32) (main_arg26 : FVec F S4x64 .f32) (main_arg27 : FVec F S4x64 .f32) (main_arg28 : FVec F S4x64 .f32) (main_arg29 : FVec F S4x64 .f32) (main_arg30 : FVec F S192x512 .f32) (main_arg31 : FVec F S512 .f32) (main_arg32 : FVec F S512x128 .f32) (main_arg33 : FVec F S128 .f32) (main_arg34 : FVec F S128x1 .f32) (main_arg35 : FVec F S1 .f32) (main_arg36 : IVec S2x600000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S600000x1 .f32 := Host.absf main_arg1
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S50000x5 .f32 := Host.absf main_arg2
  let main_cst_2 : FVec F S_ .f32 := constant S_ .f32 0x7F800000#32
  let main_v10 : FVec F S50000x5 .f32 := broadcastInDim S50000x5 ![] bcast_S_S50000x5 main_cst_2
  let main_v11 : IVec S50000x5 1 := cmpf .olt main_v9 main_v10
  let main_c_3 : IVec S_ 1 := constantI S_ 1 1#1
  let main_v12 : IVec S_ 1 := (fun x v => Host.reduce IntOp.andi x v reducesTo_S50000x5_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S50000x3 : Shape := ⟨2, ![50000, 3]⟩
abbrev S600000x1 : Shape := ⟨2, ![600000, 1]⟩
abbrev S50000x5 : Shape := ⟨2, ![50000, 5]⟩
abbrev S3 : Shape := ⟨1, ![3]⟩
abbrev S3x64 : Shape := ⟨2, ![3, 64]⟩
abbrev S64 : Shape := ⟨1, ![64]⟩
abbrev S64x64 : Shape := ⟨2, ![64, 64]⟩
abbrev S1 : Shape := ⟨1, ![1]⟩
abbrev S5 : Shape := ⟨1, ![5]⟩
abbrev S5x64 : Shape := ⟨2, ![5, 64]⟩
abbrev S4x129x64 : Shape := ⟨3, ![4, 129, 64]⟩
abbrev S4x64 : Shape := ⟨2, ![4, 64]⟩
abbrev S4x64x64 : Shape := ⟨3, ![4, 64, 64]⟩
abbrev S4x128x64 : Shape := ⟨3, ![4, 128, 64]⟩
abbrev S192x512 : Shape := ⟨2, ![192, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S2x600000 : Shape := ⟨2, ![2, 600000]⟩
abbrev S_ : Shape := ⟨0, ![]⟩
abbrev S1x3 : Shape := ⟨2, ![1, 3]⟩
abbrev S1x64 : Shape := ⟨2, ![1, 64]⟩
abbrev S50000x64 : Shape := ⟨2, ![50000, 64]⟩
abbrev S5000x3 : Shape := ⟨2, ![5000, 3]⟩
abbrev S5000x64 : Shape := ⟨2, ![5000, 64]⟩
abbrev S1x1 : Shape := ⟨2, ![1, 1]⟩
abbrev S1x5 : Shape := ⟨2, ![1, 5]⟩
abbrev S5000x5 : Shape := ⟨2, ![5000, 5]⟩
abbrev S1x600000 : Shape := ⟨2, ![1, 600000]⟩
abbrev S600000 : Shape := ⟨1, ![600000]⟩
abbrev S1x129x64 : Shape := ⟨3, ![1, 129, 64]⟩
abbrev S129x64 : Shape := ⟨2, ![129, 64]⟩
abbrev S1x64x64 : Shape := ⟨3, ![1, 64, 64]⟩
abbrev S1x128x64 : Shape := ⟨3, ![1, 128, 64]⟩
abbrev S128x64 : Shape := ⟨2, ![128, 64]⟩
abbrev S600000x64 : Shape := ⟨2, ![600000, 64]⟩
abbrev S600000x129 : Shape := ⟨2, ![600000, 129]⟩
abbrev S10000x129 : Shape := ⟨2, ![10000, 129]⟩
abbrev S10000x64 : Shape := ⟨2, ![10000, 64]⟩
abbrev S50000x1 : Shape := ⟨2, ![50000, 1]⟩
abbrev S50000x128 : Shape := ⟨2, ![50000, 128]⟩
abbrev S5000x128 : Shape := ⟨2, ![5000, 128]⟩
abbrev S50000x192 : Shape := ⟨2, ![50000, 192]⟩
abbrev S1x512 : Shape := ⟨2, ![1, 512]⟩
abbrev S1x128 : Shape := ⟨2, ![1, 128]⟩
abbrev S2000x192 : Shape := ⟨2, ![2000, 192]⟩
abbrev S2000x1 : Shape := ⟨2, ![2000, 1]⟩
abbrev S2000x512 : Shape := ⟨2, ![2000, 512]⟩
abbrev S2000x128 : Shape := ⟨2, ![2000, 128]⟩
abbrev S50000 : Shape := ⟨1, ![50000]⟩

abbrev nBuf : Space → Nat
  | .hbm => 647
  | .vmem => 90
  | .smem => 0
  | _ => 0

abbrev hbmTy0_0 (i : Nat) : BufTy := match i % 128 with
  | 0 => ⟨S50000x3, .f32⟩
  | 1 => ⟨S600000x1, .f32⟩
  | 2 => ⟨S50000x5, .f32⟩
  | 3 => ⟨S3, .f32⟩
  | 4 => ⟨S3, .f32⟩
  | 5 => ⟨S3x64, .f32⟩
  | 6 => ⟨S64, .f32⟩
  | 7 => ⟨S64x64, .f32⟩
  | 8 => ⟨S64, .f32⟩
  | 9 => ⟨S1, .f32⟩
  | 10 => ⟨S1, .f32⟩
  | 11 => ⟨S5, .f32⟩
  | 12 => ⟨S5, .f32⟩
  | 13 => ⟨S5x64, .f32⟩
  | 14 => ⟨S64, .f32⟩
  | 15 => ⟨S64x64, .f32⟩
  | 16 => ⟨S64, .f32⟩
  | 17 => ⟨S4x129x64, .f32⟩
  | 18 => ⟨S4x64, .f32⟩
  | 19 => ⟨S4x64x64, .f32⟩
  | 20 => ⟨S4x64, .f32⟩
  | 21 => ⟨S4x64, .f32⟩
  | 22 => ⟨S4x64, .f32⟩
  | 23 => ⟨S4x128x64, .f32⟩
  | 24 => ⟨S4x64, .f32⟩
  | 25 => ⟨S4x64x64, .f32⟩
  | 26 => ⟨S4x64, .f32⟩
  | 27 => ⟨S4x64, .f32⟩
  | 28 => ⟨S4x64, .f32⟩
  | 29 => ⟨S4x64, .f32⟩
  | 30 => ⟨S192x512, .f32⟩
  | 31 => ⟨S512, .f32⟩
  | 32 => ⟨S512x128, .f32⟩
  | 33 => ⟨S128, .f32⟩
  | 34 => ⟨S128x1, .f32⟩
  | 35 => ⟨S1, .f32⟩
  | 36 => ⟨S2x600000, .i32⟩
  | 37 => ⟨S_, .f32⟩
  | 38 => ⟨S3, .f32⟩
  | 39 => ⟨S_, .f32⟩
  | 40 => ⟨S3, .f32⟩
  | 41 => ⟨S3, .f32⟩
  | 42 => ⟨S1x3, .f32⟩
  | 43 => ⟨S50000x3, .f32⟩
  | 44 => ⟨S50000x3, .f32⟩
  | 45 => ⟨S50000x3, .f32⟩
  | 46 => ⟨S_, .f32⟩
  | 47 => ⟨S3, .f32⟩
  | 48 => ⟨S_, .f32⟩
  | 49 => ⟨S3, .f32⟩
  | 50 => ⟨S3, .f32⟩
  | 51 => ⟨S1x3, .f32⟩
  | 52 => ⟨S50000x3, .f32⟩
  | 53 => ⟨S50000x3, .f32⟩
  | 54 => ⟨S_, .f32⟩
  | 55 => ⟨S3, .f32⟩
  | 56 => ⟨S3, .f32⟩
  | 57 => ⟨S3, .f32⟩
  | 58 => ⟨S1x3, .f32⟩
  | 59 => ⟨S50000x3, .f32⟩
  | 60 => ⟨S50000x3, .f32⟩
  | 61 => ⟨S1x3, .f32⟩
  | 62 => ⟨S50000x3, .f32⟩
  | 63 => ⟨S50000x3, .f32⟩
  | 64 => ⟨S1x3, .f32⟩
  | 65 => ⟨S50000x3, .f32⟩
  | 66 => ⟨S50000x3, .f32⟩
  | 67 => ⟨S1x64, .f32⟩
  | 68 => ⟨S1x64, .f32⟩
  | 69 => ⟨S50000x64, .f32⟩
  | 70 => ⟨S_, .f32⟩
  | 71 => ⟨S1, .f32⟩
  | 72 => ⟨S_, .f32⟩
  | 73 => ⟨S1, .f32⟩
  | 74 => ⟨S1, .f32⟩
  | 75 => ⟨S1x1, .f32⟩
  | 76 => ⟨S600000x1, .f32⟩
  | 77 => ⟨S600000x1, .f32⟩
  | 78 => ⟨S600000x1, .f32⟩
  | 79 => ⟨S_, .f32⟩
  | 80 => ⟨S1, .f32⟩
  | 81 => ⟨S_, .f32⟩
  | 82 => ⟨S1, .f32⟩
  | 83 => ⟨S1, .f32⟩
  | 84 => ⟨S1x1, .f32⟩
  | 85 => ⟨S600000x1, .f32⟩
  | 86 => ⟨S600000x1, .f32⟩
  | 87 => ⟨S_, .f32⟩
  | 88 => ⟨S1, .f32⟩
  | 89 => ⟨S1, .f32⟩
  | 90 => ⟨S1, .f32⟩
  | 91 => ⟨S1x1, .f32⟩
  | 92 => ⟨S600000x1, .f32⟩
  | 93 => ⟨S600000x1, .f32⟩
  | 94 => ⟨S1x1, .f32⟩
  | 95 => ⟨S600000x1, .f32⟩
  | 96 => ⟨S600000x1, .f32⟩
  | 97 => ⟨S1x1, .f32⟩
  | 98 => ⟨S600000x1, .f32⟩
  | 99 => ⟨S600000x1, .f32⟩
  | 100 => ⟨S_, .f32⟩
  | 101 => ⟨S5, .f32⟩
  | 102 => ⟨S_, .f32⟩
  | 103 => ⟨S5, .f32⟩
  | 104 => ⟨S5, .f32⟩
  | 105 => ⟨S1x5, .f32⟩
  | 106 => ⟨S50000x5, .f32⟩
  | 107 => ⟨S50000x5, .f32⟩
  | 108 => ⟨S50000x5, .f32⟩
  | 109 => ⟨S_, .f32⟩
  | 110 => ⟨S5, .f32⟩
  | 111 => ⟨S_, .f32⟩
  | 112 => ⟨S5, .f32⟩
  | 113 => ⟨S5, .f32⟩
  | 114 => ⟨S1x5, .f32⟩
  | 115 => ⟨S50000x5, .f32⟩
  | 116 => ⟨S50000x5, .f32⟩
  | 117 => ⟨S_, .f32⟩
  | 118 => ⟨S5, .f32⟩
  | 119 => ⟨S5, .f32⟩
  | 120 => ⟨S5, .f32⟩
  | 121 => ⟨S1x5, .f32⟩
  | 122 => ⟨S50000x5, .f32⟩
  | 123 => ⟨S50000x5, .f32⟩
  | 124 => ⟨S1x5, .f32⟩
  | 125 => ⟨S50000x5, .f32⟩
  | 126 => ⟨S50000x5, .f32⟩
  | 127 => ⟨S1x5, .f32⟩
  | _ => ⟨S50000x3, .f32⟩

abbrev hbmTy0_1 (i : Nat) : BufTy := match i % 128 with
  | 0 => ⟨S50000x5, .f32⟩
  | 1 => ⟨S50000x5, .f32⟩
  | 2 => ⟨S1x64, .f32⟩
  | 3 => ⟨S1x64, .f32⟩
  | 4 => ⟨S50000x64, .f32⟩
  | 5 => ⟨S1x600000, .i32⟩
  | 6 => ⟨S600000, .i32⟩
  | 7 => ⟨S1x600000, .i32⟩
  | 8 => ⟨S600000, .i32⟩
  | 9 => ⟨S1x129x64, .f32⟩
  | 10 => ⟨S129x64, .f32⟩
  | 11 => ⟨S1x64, .f32⟩
  | 12 => ⟨S64, .f32⟩
  | 13 => ⟨S1x64x64, .f32⟩
  | 14 => ⟨S64x64, .f32⟩
  | 15 => ⟨S1x64, .f32⟩
  | 16 => ⟨S64, .f32⟩
  | 17 => ⟨S1x64, .f32⟩
  | 18 => ⟨S64, .f32⟩
  | 19 => ⟨S1x64, .f32⟩
  | 20 => ⟨S64, .f32⟩
  | 21 => ⟨S1x128x64, .f32⟩
  | 22 => ⟨S128x64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x64, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x64, .f32⟩
  | 47 => ⟨S600000x129, .f32⟩
  | 48 => ⟨S1x64, .f32⟩
  | 49 => ⟨S1x64, .f32⟩
  | 50 => ⟨S600000x64, .f32⟩
  | 51 => ⟨S_, .f32⟩
  | 52 => ⟨S50000x64, .f32⟩
  | 53 => ⟨S600000x1, .i32⟩
  | 54 => ⟨S50000x64, .f32⟩
  | 55 => ⟨S_, .f32⟩
  | 56 => ⟨S600000x1, .f32⟩
  | 57 => ⟨S_, .f32⟩
  | 58 => ⟨S50000x1, .f32⟩
  | 59 => ⟨S600000x1, .i32⟩
  | 60 => ⟨S50000x1, .f32⟩
  | 61 => ⟨S_, .f32⟩
  | 62 => ⟨S50000x1, .f32⟩
  | 63 => ⟨S50000x1, .f32⟩
  | 64 => ⟨S50000x64, .f32⟩
  | 65 => ⟨S50000x64, .f32⟩
  | 66 => ⟨S_, .f32⟩
  | 67 => ⟨S64, .f32⟩
  | 68 => ⟨S_, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S50000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S50000x64, .f32⟩
  | 82 => ⟨S50000x64, .f32⟩
  | 83 => ⟨S_, .f32⟩
  | 84 => ⟨S64, .f32⟩
  | 85 => ⟨S64, .f32⟩
  | 86 => ⟨S64, .f32⟩
  | 87 => ⟨S1x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S50000x128, .f32⟩
  | 97 => ⟨S1x64, .f32⟩
  | 98 => ⟨S1x64, .f32⟩
  | 99 => ⟨S50000x64, .f32⟩
  | 100 => ⟨S1x129x64, .f32⟩
  | 101 => ⟨S129x64, .f32⟩
  | 102 => ⟨S1x64, .f32⟩
  | 103 => ⟨S64, .f32⟩
  | 104 => ⟨S1x64x64, .f32⟩
  | 105 => ⟨S64x64, .f32⟩
  | 106 => ⟨S1x64, .f32⟩
  | 107 => ⟨S64, .f32⟩
  | 108 => ⟨S1x64, .f32⟩
  | 109 => ⟨S64, .f32⟩
  | 110 => ⟨S1x64, .f32⟩
  | 111 => ⟨S64, .f32⟩
  | 112 => ⟨S1x128x64, .f32⟩
  | 113 => ⟨S128x64, .f32⟩
  | 114 => ⟨S1x64, .f32⟩
  | 115 => ⟨S64, .f32⟩
  | 116 => ⟨S1x64x64, .f32⟩
  | 117 => ⟨S64x64, .f32⟩
  | 118 => ⟨S1x64, .f32⟩
  | 119 => ⟨S64, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x3, .f32⟩

abbrev hbmTy0_2 (i : Nat) : BufTy := match i % 128 with
  | 0 => ⟨S600000x64, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x64, .f32⟩
  | 10 => ⟨S600000x129, .f32⟩
  | 11 => ⟨S1x64, .f32⟩
  | 12 => ⟨S1x64, .f32⟩
  | 13 => ⟨S600000x64, .f32⟩
  | 14 => ⟨S_, .f32⟩
  | 15 => ⟨S50000x64, .f32⟩
  | 16 => ⟨S600000x1, .i32⟩
  | 17 => ⟨S50000x64, .f32⟩
  | 18 => ⟨S_, .f32⟩
  | 19 => ⟨S600000x1, .f32⟩
  | 20 => ⟨S_, .f32⟩
  | 21 => ⟨S50000x1, .f32⟩
  | 22 => ⟨S600000x1, .i32⟩
  | 23 => ⟨S50000x1, .f32⟩
  | 24 => ⟨S_, .f32⟩
  | 25 => ⟨S50000x1, .f32⟩
  | 26 => ⟨S50000x1, .f32⟩
  | 27 => ⟨S50000x64, .f32⟩
  | 28 => ⟨S50000x64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S50000x64, .f32⟩
  | 36 => ⟨S50000x64, .f32⟩
  | 37 => ⟨S50000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S_, .f32⟩
  | 47 => ⟨S64, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S50000x128, .f32⟩
  | 60 => ⟨S1x64, .f32⟩
  | 61 => ⟨S1x64, .f32⟩
  | 62 => ⟨S50000x64, .f32⟩
  | 63 => ⟨S1x64, .f32⟩
  | 64 => ⟨S64, .f32⟩
  | 65 => ⟨S1x64, .f32⟩
  | 66 => ⟨S64, .f32⟩
  | 67 => ⟨S1x64, .f32⟩
  | 68 => ⟨S64, .f32⟩
  | 69 => ⟨S_, .f32⟩
  | 70 => ⟨S64, .f32⟩
  | 71 => ⟨S1x64, .f32⟩
  | 72 => ⟨S_, .f32⟩
  | 73 => ⟨S1x64, .f32⟩
  | 74 => ⟨S1x64, .f32⟩
  | 75 => ⟨S1x64, .f32⟩
  | 76 => ⟨S1x64, .f32⟩
  | 77 => ⟨S50000x64, .f32⟩
  | 78 => ⟨S50000x64, .f32⟩
  | 79 => ⟨S50000x64, .f32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S1x64, .f32⟩
  | 87 => ⟨S50000x64, .f32⟩
  | 88 => ⟨S50000x64, .f32⟩
  | 89 => ⟨S_, .f32⟩
  | 90 => ⟨S1x64, .f32⟩
  | 91 => ⟨S1x64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S_, .f32⟩
  | 105 => ⟨S64, .f32⟩
  | 106 => ⟨S1x64, .f32⟩
  | 107 => ⟨S_, .f32⟩
  | 108 => ⟨S1x64, .f32⟩
  | 109 => ⟨S1x64, .f32⟩
  | 110 => ⟨S1x64, .f32⟩
  | 111 => ⟨S1x64, .f32⟩
  | 112 => ⟨S50000x64, .f32⟩
  | 113 => ⟨S50000x64, .f32⟩
  | 114 => ⟨S50000x64, .f32⟩
  | 115 => ⟨S_, .f32⟩
  | 116 => ⟨S64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S50000x64, .f32⟩
  | 123 => ⟨S50000x64, .f32⟩
  | 124 => ⟨S_, .f32⟩
  | 125 => ⟨S1x64, .f32⟩
  | 126 => ⟨S1x64, .f32⟩
  | 127 => ⟨S1x64, .f32⟩
  | _ => ⟨S50000x3, .f32⟩

abbrev hbmTy0_3 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S1x129x64, .f32⟩
  | 6 => ⟨S129x64, .f32⟩
  | 7 => ⟨S1x64, .f32⟩
  | 8 => ⟨S64, .f32⟩
  | 9 => ⟨S1x64x64, .f32⟩
  | 10 => ⟨S64x64, .f32⟩
  | 11 => ⟨S1x64, .f32⟩
  | 12 => ⟨S64, .f32⟩
  | 13 => ⟨S1x64, .f32⟩
  | 14 => ⟨S64, .f32⟩
  | 15 => ⟨S1x64, .f32⟩
  | 16 => ⟨S64, .f32⟩
  | 17 => ⟨S1x128x64, .f32⟩
  | 18 => ⟨S128x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x64, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x64, .f32⟩
  | 43 => ⟨S600000x129, .f32⟩
  | 44 => ⟨S1x64, .f32⟩
  | 45 => ⟨S1x64, .f32⟩
  | 46 => ⟨S600000x64, .f32⟩
  | 47 => ⟨S_, .f32⟩
  | 48 => ⟨S50000x64, .f32⟩
  | 49 => ⟨S600000x1, .i32⟩
  | 50 => ⟨S50000x64, .f32⟩
  | 51 => ⟨S_, .f32⟩
  | 52 => ⟨S600000x1, .f32⟩
  | 53 => ⟨S_, .f32⟩
  | 54 => ⟨S50000x1, .f32⟩
  | 55 => ⟨S600000x1, .i32⟩
  | 56 => ⟨S50000x1, .f32⟩
  | 57 => ⟨S_, .f32⟩
  | 58 => ⟨S50000x1, .f32⟩
  | 59 => ⟨S50000x1, .f32⟩
  | 60 => ⟨S50000x64, .f32⟩
  | 61 => ⟨S50000x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S50000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S_, .f32⟩
  | 80 => ⟨S64, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S50000x128, .f32⟩
  | 93 => ⟨S1x64, .f32⟩
  | 94 => ⟨S1x64, .f32⟩
  | 95 => ⟨S50000x64, .f32⟩
  | 96 => ⟨S1x129x64, .f32⟩
  | 97 => ⟨S129x64, .f32⟩
  | 98 => ⟨S1x64, .f32⟩
  | 99 => ⟨S64, .f32⟩
  | 100 => ⟨S1x64x64, .f32⟩
  | 101 => ⟨S64x64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S64, .f32⟩
  | 108 => ⟨S1x128x64, .f32⟩
  | 109 => ⟨S128x64, .f32⟩
  | 110 => ⟨S1x64, .f32⟩
  | 111 => ⟨S64, .f32⟩
  | 112 => ⟨S1x64x64, .f32⟩
  | 113 => ⟨S64x64, .f32⟩
  | 114 => ⟨S1x64, .f32⟩
  | 115 => ⟨S64, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x64, .f32⟩
  | 125 => ⟨S_, .i32⟩
  | 126 => ⟨S600000, .i32⟩
  | 127 => ⟨S600000, .i1⟩
  | _ => ⟨S50000x3, .f32⟩

abbrev hbmTy0_4 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x64, .f32⟩
  | 6 => ⟨S600000x129, .f32⟩
  | 7 => ⟨S1x64, .f32⟩
  | 8 => ⟨S1x64, .f32⟩
  | 9 => ⟨S600000x64, .f32⟩
  | 10 => ⟨S_, .f32⟩
  | 11 => ⟨S50000x64, .f32⟩
  | 12 => ⟨S600000x1, .i32⟩
  | 13 => ⟨S50000x64, .f32⟩
  | 14 => ⟨S_, .f32⟩
  | 15 => ⟨S600000x1, .f32⟩
  | 16 => ⟨S_, .f32⟩
  | 17 => ⟨S50000x1, .f32⟩
  | 18 => ⟨S600000x1, .i32⟩
  | 19 => ⟨S50000x1, .f32⟩
  | 20 => ⟨S_, .f32⟩
  | 21 => ⟨S50000x1, .f32⟩
  | 22 => ⟨S50000x1, .f32⟩
  | 23 => ⟨S50000x64, .f32⟩
  | 24 => ⟨S50000x64, .f32⟩
  | 25 => ⟨S_, .f32⟩
  | 26 => ⟨S64, .f32⟩
  | 27 => ⟨S_, .f32⟩
  | 28 => ⟨S64, .f32⟩
  | 29 => ⟨S64, .f32⟩
  | 30 => ⟨S1x64, .f32⟩
  | 31 => ⟨S50000x64, .f32⟩
  | 32 => ⟨S50000x64, .f32⟩
  | 33 => ⟨S50000x64, .f32⟩
  | 34 => ⟨S_, .f32⟩
  | 35 => ⟨S64, .f32⟩
  | 36 => ⟨S_, .f32⟩
  | 37 => ⟨S64, .f32⟩
  | 38 => ⟨S64, .f32⟩
  | 39 => ⟨S1x64, .f32⟩
  | 40 => ⟨S50000x64, .f32⟩
  | 41 => ⟨S50000x64, .f32⟩
  | 42 => ⟨S_, .f32⟩
  | 43 => ⟨S64, .f32⟩
  | 44 => ⟨S64, .f32⟩
  | 45 => ⟨S64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S50000x128, .f32⟩
  | 56 => ⟨S1x64, .f32⟩
  | 57 => ⟨S1x64, .f32⟩
  | 58 => ⟨S50000x64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S64, .f32⟩
  | 65 => ⟨S_, .f32⟩
  | 66 => ⟨S64, .f32⟩
  | 67 => ⟨S1x64, .f32⟩
  | 68 => ⟨S_, .f32⟩
  | 69 => ⟨S1x64, .f32⟩
  | 70 => ⟨S1x64, .f32⟩
  | 71 => ⟨S1x64, .f32⟩
  | 72 => ⟨S1x64, .f32⟩
  | 73 => ⟨S50000x64, .f32⟩
  | 74 => ⟨S50000x64, .f32⟩
  | 75 => ⟨S50000x64, .f32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S50000x64, .f32⟩
  | 84 => ⟨S50000x64, .f32⟩
  | 85 => ⟨S_, .f32⟩
  | 86 => ⟨S1x64, .f32⟩
  | 87 => ⟨S1x64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S64, .f32⟩
  | 96 => ⟨S1x64, .f32⟩
  | 97 => ⟨S64, .f32⟩
  | 98 => ⟨S1x64, .f32⟩
  | 99 => ⟨S64, .f32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S1x64, .f32⟩
  | 118 => ⟨S50000x64, .f32⟩
  | 119 => ⟨S50000x64, .f32⟩
  | 120 => ⟨S_, .f32⟩
  | 121 => ⟨S1x64, .f32⟩
  | 122 => ⟨S1x64, .f32⟩
  | 123 => ⟨S1x64, .f32⟩
  | 124 => ⟨S50000x64, .f32⟩
  | 125 => ⟨S50000x64, .f32⟩
  | 126 => ⟨S1x64, .f32⟩
  | 127 => ⟨S50000x64, .f32⟩
  | _ => ⟨S50000x3, .f32⟩

abbrev hbmTy0_5 (i : Nat) : BufTy := match i % 128 with
  | 0 => ⟨S50000x64, .f32⟩
  | 1 => ⟨S50000x192, .f32⟩
  | 2 => ⟨S1x512, .f32⟩
  | 3 => ⟨S1x128, .f32⟩
  | 4 => ⟨S1x1, .f32⟩
  | 5 => ⟨S50000x1, .f32⟩
  | 6 => ⟨S50000, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x5, .f32⟩
  | .local _ .vmem, ⟨9, _⟩ => ⟨S5000x5, .f32⟩
  | .local _ .vmem, ⟨10, _⟩ => ⟨S5x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S10000x129, .f32⟩
  | .local _ .vmem, ⟨17, _⟩ => ⟨S10000x129, .f32⟩
  | .local _ .vmem, ⟨18, _⟩ => ⟨S129x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S10000x129, .f32⟩
  | .local _ .vmem, ⟨33, _⟩ => ⟨S10000x129, .f32⟩
  | .local _ .vmem, ⟨34, _⟩ => ⟨S129x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S5000x128, .f32⟩
  | .local _ .vmem, ⟨41, _⟩ => ⟨S5000x128, .f32⟩
  | .local _ .vmem, ⟨42, _⟩ => ⟨S128x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S10000x129, .f32⟩
  | .local _ .vmem, ⟨49, _⟩ => ⟨S10000x129, .f32⟩
  | .local _ .vmem, ⟨50, _⟩ => ⟨S129x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S5000x128, .f32⟩
  | .local _ .vmem, ⟨57, _⟩ => ⟨S5000x128, .f32⟩
  | .local _ .vmem, ⟨58, _⟩ => ⟨S128x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S10000x129, .f32⟩
  | .local _ .vmem, ⟨65, _⟩ => ⟨S10000x129, .f32⟩
  | .local _ .vmem, ⟨66, _⟩ => ⟨S129x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S5000x128, .f32⟩
  | .local _ .vmem, ⟨73, _⟩ => ⟨S5000x128, .f32⟩
  | .local _ .vmem, ⟨74, _⟩ => ⟨S128x64, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | .local _ .vmem, ⟨80, _⟩ => ⟨S2000x192, .f32⟩
  | .local _ .vmem, ⟨81, _⟩ => ⟨S2000x192, .f32⟩
  | .local _ .vmem, ⟨82, _⟩ => ⟨S192x512, .f32⟩
  | .local _ .vmem, ⟨83, _⟩ => ⟨S1x512, .f32⟩
  | .local _ .vmem, ⟨84, _⟩ => ⟨S512x128, .f32⟩
  | .local _ .vmem, ⟨85, _⟩ => ⟨S1x128, .f32⟩
  | .local _ .vmem, ⟨86, _⟩ => ⟨S128x1, .f32⟩
  | .local _ .vmem, ⟨87, _⟩ => ⟨S1x1, .f32⟩
  | .local _ .vmem, ⟨88, _⟩ => ⟨S2000x1, .f32⟩
  | .local _ .vmem, ⟨89, _⟩ => ⟨S2000x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_cst_0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_cst_2 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_3 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_4 : Ref sig .tc := ⟨.hbm, 70, rfl⟩
abbrev main_v28 : Ref sig .tc := ⟨.hbm, 71, rfl⟩
abbrev main_cst_5 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_6 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_8 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_9 : Ref sig .tc := ⟨.hbm, 100, rfl⟩
abbrev main_v53 : Ref sig .tc := ⟨.hbm, 101, rfl⟩
abbrev main_cst_10 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_11 : Ref sig .tc := ⟨.hbm, 109, rfl⟩
abbrev main_v60 : Ref sig .tc := ⟨.hbm, 110, rfl⟩
abbrev main_cst_12 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_13 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c : Ref sig .tc := ⟨.hbm, 157, rfl⟩
abbrev main_v105 : Ref sig .tc := ⟨.hbm, 158, rfl⟩
abbrev main_v106 : Ref sig .tc := ⟨.hbm, 159, rfl⟩
abbrev main_c_14 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_15 : Ref sig .tc := ⟨.hbm, 166, rfl⟩
abbrev main_v112 : Ref sig .tc := ⟨.hbm, 167, rfl⟩
abbrev main_v113 : Ref sig .tc := ⟨.hbm, 168, rfl⟩
abbrev main_c_16 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_17 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_18 : Ref sig .tc := ⟨.hbm, 183, rfl⟩
abbrev main_v126 : Ref sig .tc := ⟨.hbm, 184, rfl⟩
abbrev main_cst_19 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_20 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_21 : Ref sig .tc := ⟨.hbm, 194, rfl⟩
abbrev main_v134 : Ref sig .tc := ⟨.hbm, 195, rfl⟩
abbrev main_cst_22 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_23 : Ref sig .tc := ⟨.hbm, 203, rfl⟩
abbrev main_v141 : Ref sig .tc := ⟨.hbm, 204, rfl⟩
abbrev main_cst_24 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_cst_25 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_26 : Ref sig .tc := ⟨.hbm, 248, rfl⟩
abbrev main_v183 : Ref sig .tc := ⟨.hbm, 249, rfl⟩
abbrev main_v184 : Ref sig .tc := ⟨.hbm, 250, rfl⟩
abbrev main_c_27 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_c_28 : Ref sig .tc := ⟨.hbm, 257, rfl⟩
abbrev main_v190 : Ref sig .tc := ⟨.hbm, 258, rfl⟩
abbrev main_v191 : Ref sig .tc := ⟨.hbm, 259, rfl⟩
abbrev main_c_29 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_cst_30 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_cst_31 : Ref sig .tc := ⟨.hbm, 274, rfl⟩
abbrev main_v204 : Ref sig .tc := ⟨.hbm, 275, rfl⟩
abbrev main_cst_32 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_33 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_cst_34 : Ref sig .tc := ⟨.hbm, 285, rfl⟩
abbrev main_v212 : Ref sig .tc := ⟨.hbm, 286, rfl⟩
abbrev main_cst_35 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_cst_36 : Ref sig .tc := ⟨.hbm, 294, rfl⟩
abbrev main_v219 : Ref sig .tc := ⟨.hbm, 295, rfl⟩
abbrev main_cst_37 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_38 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_cst_39 : Ref sig .tc := ⟨.hbm, 325, rfl⟩
abbrev main_v247 : Ref sig .tc := ⟨.hbm, 326, rfl⟩
abbrev main_v248 : Ref sig .tc := ⟨.hbm, 327, rfl⟩
abbrev main_cst_40 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_cst_41 : Ref sig .tc := ⟨.hbm, 336, rfl⟩
abbrev main_v256 : Ref sig .tc := ⟨.hbm, 337, rfl⟩
abbrev main_v257 : Ref sig .tc := ⟨.hbm, 338, rfl⟩
abbrev main_cst_42 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_cst_43 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_cst_44 : Ref sig .tc := ⟨.hbm, 360, rfl⟩
abbrev main_v277 : Ref sig .tc := ⟨.hbm, 361, rfl⟩
abbrev main_v278 : Ref sig .tc := ⟨.hbm, 362, rfl⟩
abbrev main_cst_45 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_cst_46 : Ref sig .tc := ⟨.hbm, 371, rfl⟩
abbrev main_v286 : Ref sig .tc := ⟨.hbm, 372, rfl⟩
abbrev main_v287 : Ref sig .tc := ⟨.hbm, 373, rfl⟩
abbrev main_cst_47 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_cst_48 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_c_49 : Ref sig .tc := ⟨.hbm, 409, rfl⟩
abbrev main_v321 : Ref sig .tc := ⟨.hbm, 410, rfl⟩
abbrev main_v322 : Ref sig .tc := ⟨.hbm, 411, rfl⟩
abbrev main_c_50 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_c_51 : Ref sig .tc := ⟨.hbm, 418, rfl⟩
abbrev main_v328 : Ref sig .tc := ⟨.hbm, 419, rfl⟩
abbrev main_v329 : Ref sig .tc := ⟨.hbm, 420, rfl⟩
abbrev main_c_52 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_cst_53 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_cst_54 : Ref sig .tc := ⟨.hbm, 435, rfl⟩
abbrev main_v342 : Ref sig .tc := ⟨.hbm, 436, rfl⟩
abbrev main_cst_55 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_cst_56 : Ref sig .tc := ⟨.hbm, 441, rfl⟩
abbrev main_v346 : Ref sig .tc := ⟨.hbm, 442, rfl⟩
abbrev main_v347 : Ref sig .tc := ⟨.hbm, 443, rfl⟩
abbrev main_v348 : Ref sig .tc := ⟨.hbm, 444, rfl⟩
abbrev main_v349 : Ref sig .tc := ⟨.hbm, 445, rfl⟩
abbrev main_cst_57 : Ref sig .tc := ⟨.hbm, 446, rfl⟩
abbrev main_v350 : Ref sig .tc := ⟨.hbm, 447, rfl⟩
abbrev main_cst_58 : Ref sig .tc := ⟨.hbm, 448, rfl⟩
abbrev main_v351 : Ref sig .tc := ⟨.hbm, 449, rfl⟩
abbrev main_v352 : Ref sig .tc := ⟨.hbm, 450, rfl⟩
abbrev main_v353 : Ref sig .tc := ⟨.hbm, 451, rfl⟩
abbrev main_v354 : Ref sig .tc := ⟨.hbm, 452, rfl⟩
abbrev main_v355 : Ref sig .tc := ⟨.hbm, 453, rfl⟩
abbrev main_v356 : Ref sig .tc := ⟨.hbm, 454, rfl⟩
abbrev main_cst_59 : Ref sig .tc := ⟨.hbm, 455, rfl⟩
abbrev main_v357 : Ref sig .tc := ⟨.hbm, 456, rfl⟩
abbrev main_cst_60 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_v361 : Ref sig .tc := ⟨.hbm, 461, rfl⟩
abbrev main_v362 : Ref sig .tc := ⟨.hbm, 462, rfl⟩
abbrev main_cst_61 : Ref sig .tc := ⟨.hbm, 463, rfl⟩
abbrev main_v363 : Ref sig .tc := ⟨.hbm, 464, rfl⟩
abbrev main_v364 : Ref sig .tc := ⟨.hbm, 465, rfl⟩
abbrev main_v365 : Ref sig .tc := ⟨.hbm, 466, rfl⟩
abbrev main_v366 : Ref sig .tc := ⟨.hbm, 467, rfl⟩
abbrev main_v367 : Ref sig .tc := ⟨.hbm, 468, rfl⟩
abbrev main_v368 : Ref sig .tc := ⟨.hbm, 469, rfl⟩
abbrev main_v369 : Ref sig .tc := ⟨.hbm, 470, rfl⟩
abbrev main_v370 : Ref sig .tc := ⟨.hbm, 471, rfl⟩
abbrev main_v371 : Ref sig .tc := ⟨.hbm, 472, rfl⟩
abbrev main_v372 : Ref sig .tc := ⟨.hbm, 473, rfl⟩
abbrev main_v373 : Ref sig .tc := ⟨.hbm, 474, rfl⟩
abbrev main_v374 : Ref sig .tc := ⟨.hbm, 475, rfl⟩
abbrev main_v375 : Ref sig .tc := ⟨.hbm, 476, rfl⟩
abbrev main_v376 : Ref sig .tc := ⟨.hbm, 477, rfl⟩
abbrev main_v377 : Ref sig .tc := ⟨.hbm, 478, rfl⟩
abbrev main_v378 : Ref sig .tc := ⟨.hbm, 479, rfl⟩
abbrev main_v379 : Ref sig .tc := ⟨.hbm, 480, rfl⟩
abbrev main_v380 : Ref sig .tc := ⟨.hbm, 481, rfl⟩
abbrev main_v381 : Ref sig .tc := ⟨.hbm, 482, rfl⟩
abbrev main_v382 : Ref sig .tc := ⟨.hbm, 483, rfl⟩
abbrev main_v383 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_v392 : Ref sig .tc := ⟨.hbm, 493, rfl⟩
abbrev main_v393 : Ref sig .tc := ⟨.hbm, 494, rfl⟩
abbrev main_v394 : Ref sig .tc := ⟨.hbm, 495, rfl⟩
abbrev main_v395 : Ref sig .tc := ⟨.hbm, 496, rfl⟩
abbrev main_v396 : Ref sig .tc := ⟨.hbm, 497, rfl⟩
abbrev main_v397 : Ref sig .tc := ⟨.hbm, 498, rfl⟩
abbrev main_v398 : Ref sig .tc := ⟨.hbm, 499, rfl⟩
abbrev main_c_62 : Ref sig .tc := ⟨.hbm, 500, rfl⟩
abbrev main_v399 : Ref sig .tc := ⟨.hbm, 501, rfl⟩
abbrev main_v400 : Ref sig .tc := ⟨.hbm, 502, rfl⟩
abbrev main_c_63 : Ref sig .tc := ⟨.hbm, 503, rfl⟩
abbrev main_v401 : Ref sig .tc := ⟨.hbm, 504, rfl⟩
abbrev main_v402 : Ref sig .tc := ⟨.hbm, 505, rfl⟩
abbrev main_v403 : Ref sig .tc := ⟨.hbm, 506, rfl⟩
abbrev main_v404 : Ref sig .tc := ⟨.hbm, 507, rfl⟩
abbrev main_v405 : Ref sig .tc := ⟨.hbm, 508, rfl⟩
abbrev main_c_64 : Ref sig .tc := ⟨.hbm, 509, rfl⟩
abbrev main_v406 : Ref sig .tc := ⟨.hbm, 510, rfl⟩
abbrev main_v407 : Ref sig .tc := ⟨.hbm, 511, rfl⟩
abbrev main_c_65 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_v413 : Ref sig .tc := ⟨.hbm, 518, rfl⟩
abbrev main_v414 : Ref sig .tc := ⟨.hbm, 519, rfl⟩
abbrev main_v415 : Ref sig .tc := ⟨.hbm, 520, rfl⟩
abbrev main_v416 : Ref sig .tc := ⟨.hbm, 521, rfl⟩
abbrev main_cst_66 : Ref sig .tc := ⟨.hbm, 522, rfl⟩
abbrev main_v417 : Ref sig .tc := ⟨.hbm, 523, rfl⟩
abbrev main_v418 : Ref sig .tc := ⟨.hbm, 524, rfl⟩
abbrev main_v419 : Ref sig .tc := ⟨.hbm, 525, rfl⟩
abbrev main_cst_67 : Ref sig .tc := ⟨.hbm, 526, rfl⟩
abbrev main_v420 : Ref sig .tc := ⟨.hbm, 527, rfl⟩
abbrev main_cst_68 : Ref sig .tc := ⟨.hbm, 528, rfl⟩
abbrev main_v421 : Ref sig .tc := ⟨.hbm, 529, rfl⟩
abbrev main_v422 : Ref sig .tc := ⟨.hbm, 530, rfl⟩
abbrev main_v423 : Ref sig .tc := ⟨.hbm, 531, rfl⟩
abbrev main_cst_69 : Ref sig .tc := ⟨.hbm, 532, rfl⟩
abbrev main_v424 : Ref sig .tc := ⟨.hbm, 533, rfl⟩
abbrev main_v425 : Ref sig .tc := ⟨.hbm, 534, rfl⟩
abbrev main_v426 : Ref sig .tc := ⟨.hbm, 535, rfl⟩
abbrev main_v427 : Ref sig .tc := ⟨.hbm, 536, rfl⟩
abbrev main_cst_70 : Ref sig .tc := ⟨.hbm, 537, rfl⟩
abbrev main_v428 : Ref sig .tc := ⟨.hbm, 538, rfl⟩
abbrev main_cst_71 : Ref sig .tc := ⟨.hbm, 539, rfl⟩
abbrev main_v429 : Ref sig .tc := ⟨.hbm, 540, rfl⟩
abbrev main_v430 : Ref sig .tc := ⟨.hbm, 541, rfl⟩
abbrev main_v431 : Ref sig .tc := ⟨.hbm, 542, rfl⟩
abbrev main_v432 : Ref sig .tc := ⟨.hbm, 543, rfl⟩
abbrev main_v433 : Ref sig .tc := ⟨.hbm, 544, rfl⟩
abbrev main_v434 : Ref sig .tc := ⟨.hbm, 545, rfl⟩
abbrev main_cst_72 : Ref sig .tc := ⟨.hbm, 546, rfl⟩
abbrev main_v435 : Ref sig .tc := ⟨.hbm, 547, rfl⟩
abbrev main_cst_73 : Ref sig .tc := ⟨.hbm, 548, rfl⟩
abbrev main_v436 : Ref sig .tc := ⟨.hbm, 549, rfl⟩
abbrev main_v437 : Ref sig .tc := ⟨.hbm, 550, rfl⟩
abbrev main_v438 : Ref sig .tc := ⟨.hbm, 551, rfl⟩
abbrev main_v439 : Ref sig .tc := ⟨.hbm, 552, rfl⟩
abbrev main_v440 : Ref sig .tc := ⟨.hbm, 553, rfl⟩
abbrev main_cst_74 : Ref sig .tc := ⟨.hbm, 554, rfl⟩
abbrev main_v441 : Ref sig .tc := ⟨.hbm, 555, rfl⟩
abbrev main_v442 : Ref sig .tc := ⟨.hbm, 556, rfl⟩
abbrev main_v443 : Ref sig .tc := ⟨.hbm, 557, rfl⟩
abbrev main_v444 : Ref sig .tc := ⟨.hbm, 558, rfl⟩
abbrev main_v445 : Ref sig .tc := ⟨.hbm, 559, rfl⟩
abbrev main_v446 : Ref sig .tc := ⟨.hbm, 560, rfl⟩
abbrev main_v447 : Ref sig .tc := ⟨.hbm, 561, rfl⟩
abbrev main_v448 : Ref sig .tc := ⟨.hbm, 562, rfl⟩
abbrev main_v449 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩
abbrev main_v454 : Ref sig .tc := ⟨.hbm, 568, rfl⟩
abbrev main_v455 : Ref sig .tc := ⟨.hbm, 569, rfl⟩
abbrev main_v456 : Ref sig .tc := ⟨.hbm, 570, rfl⟩
abbrev main_v457 : Ref sig .tc := ⟨.hbm, 571, rfl⟩
abbrev main_v458 : Ref sig .tc := ⟨.hbm, 572, rfl⟩
abbrev main_v459 : Ref sig .tc := ⟨.hbm, 573, rfl⟩
abbrev main_v460 : Ref sig .tc := ⟨.hbm, 574, rfl⟩
abbrev main_v461 : Ref sig .tc := ⟨.hbm, 575, rfl⟩
abbrev main_v462 : Ref sig .tc := ⟨.hbm, 576, rfl⟩
abbrev main_cst_75 : Ref sig .tc := ⟨.hbm, 577, rfl⟩
abbrev main_v463 : Ref sig .tc := ⟨.hbm, 578, rfl⟩
abbrev main_v464 : Ref sig .tc := ⟨.hbm, 579, rfl⟩
abbrev main_cst_76 : Ref sig .tc := ⟨.hbm, 580, rfl⟩
abbrev main_v465 : Ref sig .tc := ⟨.hbm, 581, rfl⟩
abbrev main_v466 : Ref sig .tc := ⟨.hbm, 582, rfl⟩
abbrev main_v467 : Ref sig .tc := ⟨.hbm, 583, rfl⟩
abbrev main_v468 : Ref sig .tc := ⟨.hbm, 584, rfl⟩
abbrev main_v469 : Ref sig .tc := ⟨.hbm, 585, rfl⟩
abbrev main_v470 : Ref sig .tc := ⟨.hbm, 586, rfl⟩
abbrev main_v471 : Ref sig .tc := ⟨.hbm, 587, rfl⟩
abbrev main_cst_77 : Ref sig .tc := ⟨.hbm, 588, rfl⟩
abbrev main_v472 : Ref sig .tc := ⟨.hbm, 589, rfl⟩
abbrev main_v473 : Ref sig .tc := ⟨.hbm, 590, rfl⟩
abbrev main_cst_78 : Ref sig .tc := ⟨.hbm, 591, rfl⟩
abbrev main_v474 : Ref sig .tc := ⟨.hbm, 592, rfl⟩
abbrev main_v475 : Ref sig .tc := ⟨.hbm, 593, rfl⟩
abbrev main_v476 : Ref sig .tc := ⟨.hbm, 594, rfl⟩
abbrev main_v477 : Ref sig .tc := ⟨.hbm, 595, rfl⟩
abbrev main_v478 : Ref sig .tc := ⟨.hbm, 596, rfl⟩
abbrev main_cst_79 : Ref sig .tc := ⟨.hbm, 597, rfl⟩
abbrev main_v479 : Ref sig .tc := ⟨.hbm, 598, rfl⟩
abbrev main_v480 : Ref sig .tc := ⟨.hbm, 599, rfl⟩
abbrev main_v481 : Ref sig .tc := ⟨.hbm, 600, rfl⟩
abbrev main_v482 : Ref sig .tc := ⟨.hbm, 601, rfl⟩
abbrev main_v483 : Ref sig .tc := ⟨.hbm, 602, rfl⟩
abbrev main_v484 : Ref sig .tc := ⟨.hbm, 603, rfl⟩
abbrev main_v485 : Ref sig .tc := ⟨.hbm, 604, rfl⟩
abbrev main_v486 : Ref sig .tc := ⟨.hbm, 605, rfl⟩
abbrev main_v487 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_v491 : Ref sig .tc := ⟨.hbm, 610, rfl⟩
abbrev main_v492 : Ref sig .tc := ⟨.hbm, 611, rfl⟩
abbrev main_cst_80 : Ref sig .tc := ⟨.hbm, 612, rfl⟩
abbrev main_v493 : Ref sig .tc := ⟨.hbm, 613, rfl⟩
abbrev main_v494 : Ref sig .tc := ⟨.hbm, 614, rfl⟩
abbrev main_cst_81 : Ref sig .tc := ⟨.hbm, 615, rfl⟩
abbrev main_v495 : Ref sig .tc := ⟨.hbm, 616, rfl⟩
abbrev main_v496 : Ref sig .tc := ⟨.hbm, 617, rfl⟩
abbrev main_v497 : Ref sig .tc := ⟨.hbm, 618, rfl⟩
abbrev main_v498 : Ref sig .tc := ⟨.hbm, 619, rfl⟩
abbrev main_v499 : Ref sig .tc := ⟨.hbm, 620, rfl⟩
abbrev main_v500 : Ref sig .tc := ⟨.hbm, 621, rfl⟩
abbrev main_v501 : Ref sig .tc := ⟨.hbm, 622, rfl⟩
abbrev main_cst_82 : Ref sig .tc := ⟨.hbm, 623, rfl⟩
abbrev main_v502 : Ref sig .tc := ⟨.hbm, 624, rfl⟩
abbrev main_v503 : Ref sig .tc := ⟨.hbm, 625, rfl⟩
abbrev main_cst_83 : Ref sig .tc := ⟨.hbm, 626, rfl⟩
abbrev main_v504 : Ref sig .tc := ⟨.hbm, 627, rfl⟩
abbrev main_v505 : Ref sig .tc := ⟨.hbm, 628, rfl⟩
abbrev main_v506 : Ref sig .tc := ⟨.hbm, 629, rfl⟩
abbrev main_v507 : Ref sig .tc := ⟨.hbm, 630, rfl⟩
abbrev main_v508 : Ref sig .tc := ⟨.hbm, 631, rfl⟩
abbrev main_cst_84 : Ref sig .tc := ⟨.hbm, 632, rfl⟩
abbrev main_v509 : Ref sig .tc := ⟨.hbm, 633, rfl⟩
abbrev main_v510 : Ref sig .tc := ⟨.hbm, 634, rfl⟩
abbrev main_v511 : Ref sig .tc := ⟨.hbm, 635, rfl⟩
abbrev main_v512 : Ref sig .tc := ⟨.hbm, 636, rfl⟩
abbrev main_v513 : Ref sig .tc := ⟨.hbm, 637, rfl⟩
abbrev main_v514 : Ref sig .tc := ⟨.hbm, 638, rfl⟩
abbrev main_v515 : Ref sig .tc := ⟨.hbm, 639, rfl⟩
abbrev main_v516 : Ref sig .tc := ⟨.hbm, 640, rfl⟩
abbrev main_v517 : Ref sig .tc := ⟨.hbm, 641, rfl⟩
abbrev main_v518 : Ref sig .tc := ⟨.hbm, 642, rfl⟩
abbrev main_v519 : Ref sig .tc := ⟨.hbm, 643, rfl⟩
abbrev main_v520 : Ref sig .tc := ⟨.hbm, 644, rfl⟩
abbrev main_v521 : Ref sig .tc := ⟨.hbm, 645, rfl⟩
abbrev main_v522 : Ref sig .tc := ⟨.hbm, 646, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg4_0 : Ref sig .tc := ⟨.vmem, 85, rfl⟩
abbrev cc10_stg5_0 : Ref sig .tc := ⟨.vmem, 86, rfl⟩
abbrev cc10_stg6_0 : Ref sig .tc := ⟨.vmem, 87, rfl⟩
abbrev cc10_stg7_0 : Ref sig .tc := ⟨.vmem, 88, rfl⟩
abbrev cc10_stg7_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem4_0 : DmaSem sig := 85
abbrev cc10_sem5_0 : DmaSem sig := 86
abbrev cc10_sem6_0 : DmaSem sig := 87
abbrev cc10_sem7_0 : DmaSem sig := 88
abbrev cc10_sem7_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x129 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S129x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![60], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x129 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S129x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![60], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x129 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S129x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![60], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x129 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S129x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x192 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S192x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S2000x1 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

class Facts₀ : Prop where
  reducesTo_S50000x3_S3_d0 : S50000x3.ReducesTo [0] S3
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  shapeCasts_S64_S1x64 : S64.ShapeCasts S1x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reducesTo_S600000x1_S1_d0 : S600000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S50000x5_S5_d0 : S50000x5.ReducesTo [0] S5
  bcast_S_S5 : S_.BroadcastsInDim S5 (![] : Fin 0 → Fin S5.rank)
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  inb_S5x64_S5x64_0_0 : ∀ a, (![0, 0] : Fin 2 → Nat) a + S5x64.size a ≤ S5x64.size a
  h_S5x64 : 0 < S5x64.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x129x64_S1x129x64_0_0_0 : S4x129x64.Slices ![0, 0, 0] S1x129x64
  shapeCasts_S1x129x64_S129x64 : S1x129x64.ShapeCasts S129x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  slices_S4x128x64_S1x128x64_0_0_0 : S4x128x64.Slices ![0, 0, 0] S1x128x64
  shapeCasts_S1x128x64_S128x64 : S1x128x64.ShapeCasts S128x64
  bcast_S_S600000 : S_.BroadcastsInDim S600000 (![] : Fin 0 → Fin S600000.rank)
  bcast_S600000_S600000x1_0 : S600000.BroadcastsInDim S600000x1 (![0] : Fin 1 → Fin S600000x1.rank)
  concatenates_S600000x64_S600000x1_S600000x64_S600000x129_d1 : Shape.Concatenates [S600000x64, S600000x1, S600000x64] S600000x129 1
  inb_S10000x129_S10000x129_0_0 : ∀ a, (![0, 0] : Fin 2 → Nat) a + S10000x129.size a ≤ S10000x129.size a
  h_S10000x129 : 0 < S10000x129.numel
  shapeCasts_S10000x129_S10000x129 : S10000x129.ShapeCasts S10000x129
  inb_S129x64_S129x64_0_0 : ∀ a, (![0, 0] : Fin 2 → Nat) a + S129x64.size a ≤ S129x64.size a
  h_S129x64 : 0 < S129x64.numel
  shapeCasts_S129x64_S129x64 : S129x64.ShapeCasts S129x64
  broadcasts_S1x64_S10000x64 : S1x64.Broadcasts S10000x64
  shapeCasts_S64x64_S64x64 : S64x64.ShapeCasts S64x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  slices_S4x129x64_S1x129x64_1_0_0 : S4x129x64.Slices ![1, 0, 0] S1x129x64
  slices_S4x64_S1x64_1_0 : S4x64.Slices ![1, 0] S1x64
  slices_S4x64x64_S1x64x64_1_0_0 : S4x64x64.Slices ![1, 0, 0] S1x64x64
  slices_S4x128x64_S1x128x64_1_0_0 : S4x128x64.Slices ![1, 0, 0] S1x128x64
  bcast_S_S1x64 : S_.BroadcastsInDim S1x64 (![] : Fin 0 → Fin S1x64.rank)
  slices_S4x129x64_S1x129x64_2_0_0 : S4x129x64.Slices ![2, 0, 0] S1x129x64
  slices_S4x64_S1x64_2_0 : S4x64.Slices ![2, 0] S1x64
  slices_S4x64x64_S1x64x64_2_0_0 : S4x64x64.Slices ![2, 0, 0] S1x64x64
  slices_S4x128x64_S1x128x64_2_0_0 : S4x128x64.Slices ![2, 0, 0] S1x128x64
  slices_S4x129x64_S1x129x64_3_0_0 : S4x129x64.Slices ![3, 0, 0] S1x129x64
  slices_S4x64_S1x64_3_0 : S4x64.Slices ![3, 0] S1x64
  slices_S4x64x64_S1x64x64_3_0_0 : S4x64x64.Slices ![3, 0, 0] S1x64x64
  slices_S4x128x64_S1x128x64_3_0_0 : S4x128x64.Slices ![3, 0, 0] S1x128x64
  concatenates_S50000x64_S50000x64_S50000x64_S50000x192_d1 : Shape.Concatenates [S50000x64, S50000x64, S50000x64] S50000x192 1
  shapeCasts_S512_S1x512 : S512.ShapeCasts S1x512
  shapeCasts_S128_S1x128 : S128.ShapeCasts S1x128
  shapeCasts_S1_S1x1 : S1.ShapeCasts S1x1
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  inb_S192x512_S192x512_0_0 : ∀ a, (![0, 0] : Fin 2 → Nat) a + S192x512.size a ≤ S192x512.size a
  h_S192x512 : 0 < S192x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  dot_S5000x3_S3x64_S5000x64_1_0_0_1_n_n_wf : DotDims.WF S5000x3 S3x64 S5000x64 [1] [0] [0] [1] [] []
  dot_S5000x64_S64x64_S5000x64_1_0_0_1_n_n_wf : DotDims.WF S5000x64 S64x64 S5000x64 [1] [0] [0] [1] [] []
  dot_S5000x5_S5x64_S5000x64_1_0_0_1_n_n_wf : DotDims.WF S5000x5 S5x64 S5000x64 [1] [0] [0] [1] [] []
  gather_S50000x64_S600000x1_S600000x64_1_0_n_n_0_1_164_wf : GatherDims.WF S50000x64 S600000x1 S600000x64 [1] [0] [] [0] [] 1 ![1, 64]
  dot_S10000x129_S129x64_S10000x64_1_0_0_1_n_n_wf : DotDims.WF S10000x129 S129x64 S10000x64 [1] [0] [0] [1] [] []
  dot_S10000x64_S64x64_S10000x64_1_0_0_1_n_n_wf : DotDims.WF S10000x64 S64x64 S10000x64 [1] [0] [0] [1] [] []
  scatter_S50000x64_S600000x1_S600000x64_1_0_0_1_wf : ScatterDims.WF S50000x64 S600000x1 S600000x64 [1] [0] [0] 1
  scatter_S50000x1_S600000x1_S600000x1_1_0_0_1_wf : ScatterDims.WF S50000x1 S600000x1 S600000x1 [1] [0] [0] 1
  dot_S5000x128_S128x64_S5000x64_1_0_0_1_n_n_wf : DotDims.WF S5000x128 S128x64 S5000x64 [1] [0] [0] [1] [] []
  dot_S2000x192_S192x512_S2000x512_1_0_0_1_n_n_wf : DotDims.WF S2000x192 S192x512 S2000x512 [1] [0] [0] [1] [] []
  dot_S2000x512_S512x128_S2000x128_1_0_0_1_n_n_wf : DotDims.WF S2000x512 S512x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x5.size a ≤ S50000x5.size a
  hwx1_0 : ∀ i : grid1.Coords, EltTy.bits .f32 = 32 ∨ (Rect.block (s := S50000x5) S5000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x64.size a ≤ S5x64.size a
  hwx1_1 : ∀ i : grid1.Coords, EltTy.bits .f32 = 32 ∨ (Rect.block (s := S5x64) S5x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x129.size a ≤ S600000x129.size a
  hwx2_0 : ∀ i : grid2.Coords, EltTy.bits .f32 = 32 ∨ (Rect.block (s := S600000x129) S10000x129.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S129x64.size a ≤ S129x64.size a
  hwx2_1 : ∀ i : grid2.Coords, EltTy.bits .f32 = 32 ∨ (Rect.block (s := S129x64) S129x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S600000x64.size a
  hwx2_5 : ∀ i : grid2.Coords, EltTy.bits .f32 = 32 ∨ (Rect.block (s := S600000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x129.size a ≤ S600000x129.size a
  hwx4_0 : ∀ i : grid4.Coords, EltTy.bits .f32 = 32 ∨ (Rect.block (s := S600000x129) S10000x129.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S129x64.size a ≤ S129x64.size a
  hwx4_1 : ∀ i : grid4.Coords, EltTy.bits .f32 = 32 ∨ (Rect.block (s := S129x64) S129x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S600000x64.size a
  hwx4_5 : ∀ i : grid4.Coords, EltTy.bits .f32 = 32 ∨ (Rect.block (s := S600000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x129.size a ≤ S600000x129.size a
  hwx6_0 : ∀ i : grid6.Coords, EltTy.bits .f32 = 32 ∨ (Rect.block (s := S600000x129) S10000x129.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S129x64.size a ≤ S129x64.size a
  hwx6_1 : ∀ i : grid6.Coords, EltTy.bits .f32 = 32 ∨ (Rect.block (s := S129x64) S129x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S600000x64.size a
  hwx6_5 : ∀ i : grid6.Coords, EltTy.bits .f32 = 32 ∨ (Rect.block (s := S600000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x129.size a ≤ S600000x129.size a
  hwx8_0 : ∀ i : grid8.Coords, EltTy.bits .f32 = 32 ∨ (Rect.block (s := S600000x129) S10000x129.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S129x64.size a ≤ S129x64.size a
  hwx8_1 : ∀ i : grid8.Coords, EltTy.bits .f32 = 32 ∨ (Rect.block (s := S129x64) S129x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S600000x64.size a
  hwx8_5 : ∀ i : grid8.Coords, EltTy.bits .f32 = 32 ∨ (Rect.block (s := S600000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x192.size a ≤ S50000x192.size a
  hwx10_0 : ∀ i : grid10.Coords, EltTy.bits .f32 = 32 ∨ (Rect.block (s := S50000x192) S2000x192.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S192x512.size a ≤ S192x512.size a
  hwx10_1 : ∀ i : grid10.Coords, EltTy.bits .f32 = 32 ∨ (Rect.block (s := S192x512) S192x512.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S512x128.size a ≤ S512x128.size a
  hwx10_3 : ∀ i : grid10.Coords, EltTy.bits .f32 = 32 ∨ (Rect.block (s := S512x128) S512x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x1.size a ≤ S128x1.size a
  hwx10_5 : ∀ i : grid10.Coords, EltTy.bits .f32 = 32 ∨ (Rect.block (s := S128x1) S128x1.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x1.size a ≤ S1x1.size a
  hwx10_6 : ∀ i : grid10.Coords, EltTy.bits .f32 = 32 ∨ (Rect.block (s := S1x1) S1x1.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S2000x1.size a ≤ S50000x1.size a
  hwx10_7 : ∀ i : grid10.Coords, EltTy.bits .f32 = 32 ∨ (Rect.block (s := S50000x1) S2000x1.size (cc10_transform_7 i) (hinb10_7 i)).WholeWords (EltTy.packing .f32)

variable [Facts₀]

def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S10000x129_S129x64_S10000x64_1_0_0_1_n_n : DotDims S10000x129 S129x64 S10000x64 where
  lhsContracting := [1]
  rhsContracting := [0]
  lhsNonContracting := [0]
  rhsNonContracting := [1]
  lhsBatch := []
  rhsBatch := []
  wf := dot_S10000x129_S129x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S2000x192_S192x512_S2000x512_1_0_0_1_n_n : DotDims S2000x192 S192x512 S2000x512 where
  lhsContracting := [1]
  rhsContracting := [0]
  lhsNonContracting := [0]
  rhsNonContracting := [1]
  lhsBatch := []
  rhsBatch := []
  wf := dot_S2000x192_S192x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v24) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v77) S5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S5x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v79) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v119) S10000x129.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S129x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v120) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v121) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v122) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v159) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v160) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v161) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v162) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v197) S10000x129.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v164) S129x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v198) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v168) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v199) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v200) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v237) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v176) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v238) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v180) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v239) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v240) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v335) S10000x129.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v302) S129x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v336) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v306) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v337) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v338) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v375) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v314) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v376) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v318) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v377) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v378) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v413) S10000x129.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v380) S129x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v414) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v384) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v415) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v416) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v453) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v392) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v454) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v396) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v455) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v456) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v517) S2000x192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg30) S192x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v518) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg32) S512x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v519) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg34) S128x1.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v520) S1x1.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v521) S2000x1.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

class Facts : Prop extends Facts₀ where

variable [Facts]
-- ==== ReferenceIdeal.lean ====
abbrev S50000x3 : Shape := ⟨2, ![50000, 3]⟩
abbrev S600000x1 : Shape := ⟨2, ![600000, 1]⟩
abbrev S50000x5 : Shape := ⟨2, ![50000, 5]⟩
abbrev S3 : Shape := ⟨1, ![3]⟩
abbrev S3x64 : Shape := ⟨2, ![3, 64]⟩
abbrev S64 : Shape := ⟨1, ![64]⟩
abbrev S64x64 : Shape := ⟨2, ![64, 64]⟩
abbrev S1 : Shape := ⟨1, ![1]⟩
abbrev S5 : Shape := ⟨1, ![5]⟩
abbrev S5x64 : Shape := ⟨2, ![5, 64]⟩
abbrev S4x129x64 : Shape := ⟨3, ![4, 129, 64]⟩
abbrev S4x64 : Shape := ⟨2, ![4, 64]⟩
abbrev S4x64x64 : Shape := ⟨3, ![4, 64, 64]⟩
abbrev S4x128x64 : Shape := ⟨3, ![4, 128, 64]⟩
abbrev S192x512 : Shape := ⟨2, ![192, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S2x600000 : Shape := ⟨2, ![2, 600000]⟩
abbrev S_ : Shape := ⟨0, ![]⟩
abbrev S1x3 : Shape := ⟨2, ![1, 3]⟩
abbrev S50000x64 : Shape := ⟨2, ![50000, 64]⟩
abbrev S1x64 : Shape := ⟨2, ![1, 64]⟩
abbrev S1x1 : Shape := ⟨2, ![1, 1]⟩
abbrev S1x5 : Shape := ⟨2, ![1, 5]⟩
abbrev S1x600000 : Shape := ⟨2, ![1, 600000]⟩
abbrev S600000 : Shape := ⟨1, ![600000]⟩
abbrev S1x129x64 : Shape := ⟨3, ![1, 129, 64]⟩
abbrev S129x64 : Shape := ⟨2, ![129, 64]⟩
abbrev S1x64x64 : Shape := ⟨3, ![1, 64, 64]⟩
abbrev S1x128x64 : Shape := ⟨3, ![1, 128, 64]⟩
abbrev S128x64 : Shape := ⟨2, ![128, 64]⟩
abbrev S600000x64 : Shape := ⟨2, ![600000, 64]⟩
abbrev S600000x129 : Shape := ⟨2, ![600000, 129]⟩
abbrev S50000x1 : Shape := ⟨2, ![50000, 1]⟩
abbrev S50000x128 : Shape := ⟨2, ![50000, 128]⟩
abbrev S50000x192 : Shape := ⟨2, ![50000, 192]⟩
abbrev S50000x512 : Shape := ⟨2, ![50000, 512]⟩
abbrev S1x512 : Shape := ⟨2, ![1, 512]⟩
abbrev S1x128 : Shape := ⟨2, ![1, 128]⟩
abbrev S50000 : Shape := ⟨1, ![50000]⟩

abbrev nBuf : Space → Nat
  | .hbm => 747
  | .vmem => 0
  | .smem => 0
  | _ => 0

abbrev hbmTy0_0 (i : Nat) : BufTy := match i % 128 with
  | 0 => ⟨S50000x3, .f32⟩
  | 1 => ⟨S600000x1, .f32⟩
  | 2 => ⟨S50000x5, .f32⟩
  | 3 => ⟨S3, .f32⟩
  | 4 => ⟨S3, .f32⟩
  | 5 => ⟨S3x64, .f32⟩
  | 6 => ⟨S64, .f32⟩
  | 7 => ⟨S64x64, .f32⟩
  | 8 => ⟨S64, .f32⟩
  | 9 => ⟨S1, .f32⟩
  | 10 => ⟨S1, .f32⟩
  | 11 => ⟨S5, .f32⟩
  | 12 => ⟨S5, .f32⟩
  | 13 => ⟨S5x64, .f32⟩
  | 14 => ⟨S64, .f32⟩
  | 15 => ⟨S64x64, .f32⟩
  | 16 => ⟨S64, .f32⟩
  | 17 => ⟨S4x129x64, .f32⟩
  | 18 => ⟨S4x64, .f32⟩
  | 19 => ⟨S4x64x64, .f32⟩
  | 20 => ⟨S4x64, .f32⟩
  | 21 => ⟨S4x64, .f32⟩
  | 22 => ⟨S4x64, .f32⟩
  | 23 => ⟨S4x128x64, .f32⟩
  | 24 => ⟨S4x64, .f32⟩
  | 25 => ⟨S4x64x64, .f32⟩
  | 26 => ⟨S4x64, .f32⟩
  | 27 => ⟨S4x64, .f32⟩
  | 28 => ⟨S4x64, .f32⟩
  | 29 => ⟨S4x64, .f32⟩
  | 30 => ⟨S192x512, .f32⟩
  | 31 => ⟨S512, .f32⟩
  | 32 => ⟨S512x128, .f32⟩
  | 33 => ⟨S128, .f32⟩
  | 34 => ⟨S128x1, .f32⟩
  | 35 => ⟨S1, .f32⟩
  | 36 => ⟨S2x600000, .i32⟩
  | 37 => ⟨S_, .f32⟩
  | 38 => ⟨S3, .f32⟩
  | 39 => ⟨S_, .f32⟩
  | 40 => ⟨S3, .f32⟩
  | 41 => ⟨S3, .f32⟩
  | 42 => ⟨S1x3, .f32⟩
  | 43 => ⟨S50000x3, .f32⟩
  | 44 => ⟨S50000x3, .f32⟩
  | 45 => ⟨S50000x3, .f32⟩
  | 46 => ⟨S_, .f32⟩
  | 47 => ⟨S3, .f32⟩
  | 48 => ⟨S_, .f32⟩
  | 49 => ⟨S3, .f32⟩
  | 50 => ⟨S3, .f32⟩
  | 51 => ⟨S1x3, .f32⟩
  | 52 => ⟨S50000x3, .f32⟩
  | 53 => ⟨S50000x3, .f32⟩
  | 54 => ⟨S_, .f32⟩
  | 55 => ⟨S3, .f32⟩
  | 56 => ⟨S3, .f32⟩
  | 57 => ⟨S3, .f32⟩
  | 58 => ⟨S1x3, .f32⟩
  | 59 => ⟨S50000x3, .f32⟩
  | 60 => ⟨S50000x3, .f32⟩
  | 61 => ⟨S1x3, .f32⟩
  | 62 => ⟨S50000x3, .f32⟩
  | 63 => ⟨S50000x3, .f32⟩
  | 64 => ⟨S1x3, .f32⟩
  | 65 => ⟨S50000x3, .f32⟩
  | 66 => ⟨S50000x3, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S_, .f32⟩
  | 82 => ⟨S1, .f32⟩
  | 83 => ⟨S_, .f32⟩
  | 84 => ⟨S1, .f32⟩
  | 85 => ⟨S1, .f32⟩
  | 86 => ⟨S1x1, .f32⟩
  | 87 => ⟨S600000x1, .f32⟩
  | 88 => ⟨S600000x1, .f32⟩
  | 89 => ⟨S600000x1, .f32⟩
  | 90 => ⟨S_, .f32⟩
  | 91 => ⟨S1, .f32⟩
  | 92 => ⟨S_, .f32⟩
  | 93 => ⟨S1, .f32⟩
  | 94 => ⟨S1, .f32⟩
  | 95 => ⟨S1x1, .f32⟩
  | 96 => ⟨S600000x1, .f32⟩
  | 97 => ⟨S600000x1, .f32⟩
  | 98 => ⟨S_, .f32⟩
  | 99 => ⟨S1, .f32⟩
  | 100 => ⟨S1, .f32⟩
  | 101 => ⟨S1, .f32⟩
  | 102 => ⟨S1x1, .f32⟩
  | 103 => ⟨S600000x1, .f32⟩
  | 104 => ⟨S600000x1, .f32⟩
  | 105 => ⟨S1x1, .f32⟩
  | 106 => ⟨S600000x1, .f32⟩
  | 107 => ⟨S600000x1, .f32⟩
  | 108 => ⟨S1x1, .f32⟩
  | 109 => ⟨S600000x1, .f32⟩
  | 110 => ⟨S600000x1, .f32⟩
  | 111 => ⟨S_, .f32⟩
  | 112 => ⟨S5, .f32⟩
  | 113 => ⟨S_, .f32⟩
  | 114 => ⟨S5, .f32⟩
  | 115 => ⟨S5, .f32⟩
  | 116 => ⟨S1x5, .f32⟩
  | 117 => ⟨S50000x5, .f32⟩
  | 118 => ⟨S50000x5, .f32⟩
  | 119 => ⟨S50000x5, .f32⟩
  | 120 => ⟨S_, .f32⟩
  | 121 => ⟨S5, .f32⟩
  | 122 => ⟨S_, .f32⟩
  | 123 => ⟨S5, .f32⟩
  | 124 => ⟨S5, .f32⟩
  | 125 => ⟨S1x5, .f32⟩
  | 126 => ⟨S50000x5, .f32⟩
  | 127 => ⟨S50000x5, .f32⟩
  | _ => ⟨S50000x3, .f32⟩

abbrev hbmTy0_1 (i : Nat) : BufTy := match i % 128 with
  | 0 => ⟨S_, .f32⟩
  | 1 => ⟨S5, .f32⟩
  | 2 => ⟨S5, .f32⟩
  | 3 => ⟨S5, .f32⟩
  | 4 => ⟨S1x5, .f32⟩
  | 5 => ⟨S50000x5, .f32⟩
  | 6 => ⟨S50000x5, .f32⟩
  | 7 => ⟨S1x5, .f32⟩
  | 8 => ⟨S50000x5, .f32⟩
  | 9 => ⟨S50000x5, .f32⟩
  | 10 => ⟨S1x5, .f32⟩
  | 11 => ⟨S50000x5, .f32⟩
  | 12 => ⟨S50000x5, .f32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S1x600000, .i32⟩
  | 28 => ⟨S600000, .i32⟩
  | 29 => ⟨S1x600000, .i32⟩
  | 30 => ⟨S600000, .i32⟩
  | 31 => ⟨S1x129x64, .f32⟩
  | 32 => ⟨S129x64, .f32⟩
  | 33 => ⟨S1x64, .f32⟩
  | 34 => ⟨S64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S64, .f32⟩
  | 41 => ⟨S1x64, .f32⟩
  | 42 => ⟨S64, .f32⟩
  | 43 => ⟨S1x128x64, .f32⟩
  | 44 => ⟨S128x64, .f32⟩
  | 45 => ⟨S1x64, .f32⟩
  | 46 => ⟨S64, .f32⟩
  | 47 => ⟨S1x64x64, .f32⟩
  | 48 => ⟨S64x64, .f32⟩
  | 49 => ⟨S1x64, .f32⟩
  | 50 => ⟨S64, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x64, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x64, .f32⟩
  | 69 => ⟨S600000x129, .f32⟩
  | 70 => ⟨S600000x64, .f32⟩
  | 71 => ⟨S1x64, .f32⟩
  | 72 => ⟨S600000x64, .f32⟩
  | 73 => ⟨S600000x64, .f32⟩
  | 74 => ⟨S_, .f32⟩
  | 75 => ⟨S600000x64, .f32⟩
  | 76 => ⟨S600000x64, .f32⟩
  | 77 => ⟨S600000x64, .f32⟩
  | 78 => ⟨S1x64, .f32⟩
  | 79 => ⟨S600000x64, .f32⟩
  | 80 => ⟨S600000x64, .f32⟩
  | 81 => ⟨S_, .f32⟩
  | 82 => ⟨S50000x64, .f32⟩
  | 83 => ⟨S600000x1, .i32⟩
  | 84 => ⟨S50000x64, .f32⟩
  | 85 => ⟨S_, .f32⟩
  | 86 => ⟨S600000x1, .f32⟩
  | 87 => ⟨S_, .f32⟩
  | 88 => ⟨S50000x1, .f32⟩
  | 89 => ⟨S600000x1, .i32⟩
  | 90 => ⟨S50000x1, .f32⟩
  | 91 => ⟨S_, .f32⟩
  | 92 => ⟨S50000x1, .f32⟩
  | 93 => ⟨S50000x1, .f32⟩
  | 94 => ⟨S50000x64, .f32⟩
  | 95 => ⟨S50000x64, .f32⟩
  | 96 => ⟨S_, .f32⟩
  | 97 => ⟨S64, .f32⟩
  | 98 => ⟨S_, .f32⟩
  | 99 => ⟨S64, .f32⟩
  | 100 => ⟨S64, .f32⟩
  | 101 => ⟨S1x64, .f32⟩
  | 102 => ⟨S50000x64, .f32⟩
  | 103 => ⟨S50000x64, .f32⟩
  | 104 => ⟨S50000x64, .f32⟩
  | 105 => ⟨S_, .f32⟩
  | 106 => ⟨S64, .f32⟩
  | 107 => ⟨S_, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S_, .f32⟩
  | 114 => ⟨S64, .f32⟩
  | 115 => ⟨S64, .f32⟩
  | 116 => ⟨S64, .f32⟩
  | 117 => ⟨S1x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S50000x128, .f32⟩
  | 127 => ⟨S50000x64, .f32⟩
  | _ => ⟨S50000x3, .f32⟩

abbrev hbmTy0_2 (i : Nat) : BufTy := match i % 128 with
  | 0 => ⟨S1x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S1x129x64, .f32⟩
  | 11 => ⟨S129x64, .f32⟩
  | 12 => ⟨S1x64, .f32⟩
  | 13 => ⟨S64, .f32⟩
  | 14 => ⟨S1x64x64, .f32⟩
  | 15 => ⟨S64x64, .f32⟩
  | 16 => ⟨S1x64, .f32⟩
  | 17 => ⟨S64, .f32⟩
  | 18 => ⟨S1x64, .f32⟩
  | 19 => ⟨S64, .f32⟩
  | 20 => ⟨S1x64, .f32⟩
  | 21 => ⟨S64, .f32⟩
  | 22 => ⟨S1x128x64, .f32⟩
  | 23 => ⟨S128x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x64, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x64, .f32⟩
  | 48 => ⟨S600000x129, .f32⟩
  | 49 => ⟨S600000x64, .f32⟩
  | 50 => ⟨S1x64, .f32⟩
  | 51 => ⟨S600000x64, .f32⟩
  | 52 => ⟨S600000x64, .f32⟩
  | 53 => ⟨S_, .f32⟩
  | 54 => ⟨S600000x64, .f32⟩
  | 55 => ⟨S600000x64, .f32⟩
  | 56 => ⟨S600000x64, .f32⟩
  | 57 => ⟨S1x64, .f32⟩
  | 58 => ⟨S600000x64, .f32⟩
  | 59 => ⟨S600000x64, .f32⟩
  | 60 => ⟨S_, .f32⟩
  | 61 => ⟨S50000x64, .f32⟩
  | 62 => ⟨S600000x1, .i32⟩
  | 63 => ⟨S50000x64, .f32⟩
  | 64 => ⟨S_, .f32⟩
  | 65 => ⟨S600000x1, .f32⟩
  | 66 => ⟨S_, .f32⟩
  | 67 => ⟨S50000x1, .f32⟩
  | 68 => ⟨S600000x1, .i32⟩
  | 69 => ⟨S50000x1, .f32⟩
  | 70 => ⟨S_, .f32⟩
  | 71 => ⟨S50000x1, .f32⟩
  | 72 => ⟨S50000x1, .f32⟩
  | 73 => ⟨S50000x64, .f32⟩
  | 74 => ⟨S50000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S50000x64, .f32⟩
  | 82 => ⟨S50000x64, .f32⟩
  | 83 => ⟨S50000x64, .f32⟩
  | 84 => ⟨S_, .f32⟩
  | 85 => ⟨S64, .f32⟩
  | 86 => ⟨S_, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S_, .f32⟩
  | 93 => ⟨S64, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S50000x128, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S_, .f32⟩
  | 124 => ⟨S64, .f32⟩
  | 125 => ⟨S1x64, .f32⟩
  | 126 => ⟨S_, .f32⟩
  | 127 => ⟨S1x64, .f32⟩
  | _ => ⟨S50000x3, .f32⟩

abbrev hbmTy0_3 (i : Nat) : BufTy := match i % 128 with
  | 0 => ⟨S1x64, .f32⟩
  | 1 => ⟨S1x64, .f32⟩
  | 2 => ⟨S1x64, .f32⟩
  | 3 => ⟨S50000x64, .f32⟩
  | 4 => ⟨S50000x64, .f32⟩
  | 5 => ⟨S50000x64, .f32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S1x64, .f32⟩
  | 13 => ⟨S50000x64, .f32⟩
  | 14 => ⟨S50000x64, .f32⟩
  | 15 => ⟨S_, .f32⟩
  | 16 => ⟨S1x64, .f32⟩
  | 17 => ⟨S1x64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S64, .f32⟩
  | 30 => ⟨S_, .f32⟩
  | 31 => ⟨S64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S1x64, .f32⟩
  | 38 => ⟨S50000x64, .f32⟩
  | 39 => ⟨S50000x64, .f32⟩
  | 40 => ⟨S50000x64, .f32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S1x64, .f32⟩
  | 48 => ⟨S50000x64, .f32⟩
  | 49 => ⟨S50000x64, .f32⟩
  | 50 => ⟨S_, .f32⟩
  | 51 => ⟨S1x64, .f32⟩
  | 52 => ⟨S1x64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S1x129x64, .f32⟩
  | 60 => ⟨S129x64, .f32⟩
  | 61 => ⟨S1x64, .f32⟩
  | 62 => ⟨S64, .f32⟩
  | 63 => ⟨S1x64x64, .f32⟩
  | 64 => ⟨S64x64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S64, .f32⟩
  | 71 => ⟨S1x128x64, .f32⟩
  | 72 => ⟨S128x64, .f32⟩
  | 73 => ⟨S1x64, .f32⟩
  | 74 => ⟨S64, .f32⟩
  | 75 => ⟨S1x64x64, .f32⟩
  | 76 => ⟨S64x64, .f32⟩
  | 77 => ⟨S1x64, .f32⟩
  | 78 => ⟨S64, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x64, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x64, .f32⟩
  | 97 => ⟨S600000x129, .f32⟩
  | 98 => ⟨S600000x64, .f32⟩
  | 99 => ⟨S1x64, .f32⟩
  | 100 => ⟨S600000x64, .f32⟩
  | 101 => ⟨S600000x64, .f32⟩
  | 102 => ⟨S_, .f32⟩
  | 103 => ⟨S600000x64, .f32⟩
  | 104 => ⟨S600000x64, .f32⟩
  | 105 => ⟨S600000x64, .f32⟩
  | 106 => ⟨S1x64, .f32⟩
  | 107 => ⟨S600000x64, .f32⟩
  | 108 => ⟨S600000x64, .f32⟩
  | 109 => ⟨S_, .f32⟩
  | 110 => ⟨S50000x64, .f32⟩
  | 111 => ⟨S600000x1, .i32⟩
  | 112 => ⟨S50000x64, .f32⟩
  | 113 => ⟨S_, .f32⟩
  | 114 => ⟨S600000x1, .f32⟩
  | 115 => ⟨S_, .f32⟩
  | 116 => ⟨S50000x1, .f32⟩
  | 117 => ⟨S600000x1, .i32⟩
  | 118 => ⟨S50000x1, .f32⟩
  | 119 => ⟨S_, .f32⟩
  | 120 => ⟨S50000x1, .f32⟩
  | 121 => ⟨S50000x1, .f32⟩
  | 122 => ⟨S50000x64, .f32⟩
  | 123 => ⟨S50000x64, .f32⟩
  | 124 => ⟨S_, .f32⟩
  | 125 => ⟨S64, .f32⟩
  | 126 => ⟨S_, .f32⟩
  | 127 => ⟨S64, .f32⟩
  | _ => ⟨S50000x3, .f32⟩

abbrev hbmTy0_4 (i : Nat) : BufTy := match i % 128 with
  | 0 => ⟨S64, .f32⟩
  | 1 => ⟨S1x64, .f32⟩
  | 2 => ⟨S50000x64, .f32⟩
  | 3 => ⟨S50000x64, .f32⟩
  | 4 => ⟨S50000x64, .f32⟩
  | 5 => ⟨S_, .f32⟩
  | 6 => ⟨S64, .f32⟩
  | 7 => ⟨S_, .f32⟩
  | 8 => ⟨S64, .f32⟩
  | 9 => ⟨S64, .f32⟩
  | 10 => ⟨S1x64, .f32⟩
  | 11 => ⟨S50000x64, .f32⟩
  | 12 => ⟨S50000x64, .f32⟩
  | 13 => ⟨S_, .f32⟩
  | 14 => ⟨S64, .f32⟩
  | 15 => ⟨S64, .f32⟩
  | 16 => ⟨S64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S50000x128, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S1x129x64, .f32⟩
  | 39 => ⟨S129x64, .f32⟩
  | 40 => ⟨S1x64, .f32⟩
  | 41 => ⟨S64, .f32⟩
  | 42 => ⟨S1x64x64, .f32⟩
  | 43 => ⟨S64x64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S64, .f32⟩
  | 50 => ⟨S1x128x64, .f32⟩
  | 51 => ⟨S128x64, .f32⟩
  | 52 => ⟨S1x64, .f32⟩
  | 53 => ⟨S64, .f32⟩
  | 54 => ⟨S1x64x64, .f32⟩
  | 55 => ⟨S64x64, .f32⟩
  | 56 => ⟨S1x64, .f32⟩
  | 57 => ⟨S64, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x64, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x64, .f32⟩
  | 76 => ⟨S600000x129, .f32⟩
  | 77 => ⟨S600000x64, .f32⟩
  | 78 => ⟨S1x64, .f32⟩
  | 79 => ⟨S600000x64, .f32⟩
  | 80 => ⟨S600000x64, .f32⟩
  | 81 => ⟨S_, .f32⟩
  | 82 => ⟨S600000x64, .f32⟩
  | 83 => ⟨S600000x64, .f32⟩
  | 84 => ⟨S600000x64, .f32⟩
  | 85 => ⟨S1x64, .f32⟩
  | 86 => ⟨S600000x64, .f32⟩
  | 87 => ⟨S600000x64, .f32⟩
  | 88 => ⟨S_, .f32⟩
  | 89 => ⟨S50000x64, .f32⟩
  | 90 => ⟨S600000x1, .i32⟩
  | 91 => ⟨S50000x64, .f32⟩
  | 92 => ⟨S_, .f32⟩
  | 93 => ⟨S600000x1, .f32⟩
  | 94 => ⟨S_, .f32⟩
  | 95 => ⟨S50000x1, .f32⟩
  | 96 => ⟨S600000x1, .i32⟩
  | 97 => ⟨S50000x1, .f32⟩
  | 98 => ⟨S_, .f32⟩
  | 99 => ⟨S50000x1, .f32⟩
  | 100 => ⟨S50000x1, .f32⟩
  | 101 => ⟨S50000x64, .f32⟩
  | 102 => ⟨S50000x64, .f32⟩
  | 103 => ⟨S_, .f32⟩
  | 104 => ⟨S64, .f32⟩
  | 105 => ⟨S_, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S64, .f32⟩
  | 114 => ⟨S_, .f32⟩
  | 115 => ⟨S64, .f32⟩
  | 116 => ⟨S64, .f32⟩
  | 117 => ⟨S1x64, .f32⟩
  | 118 => ⟨S50000x64, .f32⟩
  | 119 => ⟨S50000x64, .f32⟩
  | 120 => ⟨S_, .f32⟩
  | 121 => ⟨S64, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S1x64, .f32⟩
  | _ => ⟨S50000x3, .f32⟩

abbrev hbmTy0_5 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S50000x128, .f32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S1x64, .f32⟩
  | 18 => ⟨S64, .f32⟩
  | 19 => ⟨S1x64, .f32⟩
  | 20 => ⟨S64, .f32⟩
  | 21 => ⟨S1x64, .f32⟩
  | 22 => ⟨S64, .f32⟩
  | 23 => ⟨S_, .f32⟩
  | 24 => ⟨S64, .f32⟩
  | 25 => ⟨S1x64, .f32⟩
  | 26 => ⟨S_, .f32⟩
  | 27 => ⟨S1x64, .f32⟩
  | 28 => ⟨S1x64, .f32⟩
  | 29 => ⟨S1x64, .f32⟩
  | 30 => ⟨S1x64, .f32⟩
  | 31 => ⟨S50000x64, .f32⟩
  | 32 => ⟨S50000x64, .f32⟩
  | 33 => ⟨S50000x64, .f32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S50000x64, .f32⟩
  | 42 => ⟨S50000x64, .f32⟩
  | 43 => ⟨S_, .f32⟩
  | 44 => ⟨S1x64, .f32⟩
  | 45 => ⟨S1x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S1x64, .f32⟩
  | 65 => ⟨S1x64, .f32⟩
  | 66 => ⟨S50000x64, .f32⟩
  | 67 => ⟨S50000x64, .f32⟩
  | 68 => ⟨S50000x64, .f32⟩
  | 69 => ⟨S_, .f32⟩
  | 70 => ⟨S64, .f32⟩
  | 71 => ⟨S1x64, .f32⟩
  | 72 => ⟨S_, .f32⟩
  | 73 => ⟨S1x64, .f32⟩
  | 74 => ⟨S1x64, .f32⟩
  | 75 => ⟨S1x64, .f32⟩
  | 76 => ⟨S50000x64, .f32⟩
  | 77 => ⟨S50000x64, .f32⟩
  | 78 => ⟨S_, .f32⟩
  | 79 => ⟨S1x64, .f32⟩
  | 80 => ⟨S1x64, .f32⟩
  | 81 => ⟨S1x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S50000x192, .f32⟩
  | 88 => ⟨S50000x512, .f32⟩
  | 89 => ⟨S1x512, .f32⟩
  | 90 => ⟨S50000x512, .f32⟩
  | 91 => ⟨S50000x512, .f32⟩
  | 92 => ⟨S_, .f32⟩
  | 93 => ⟨S50000x512, .f32⟩
  | 94 => ⟨S50000x512, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x1, .f32⟩
  | 103 => ⟨S1x1, .f32⟩
  | 104 => ⟨S50000x1, .f32⟩
  | 105 => ⟨S50000x1, .f32⟩
  | 106 => ⟨S50000, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_cst_0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_cst_2 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_3 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_4 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_5 : Ref sig .tc := ⟨.hbm, 78, rfl⟩
abbrev main_v35 : Ref sig .tc := ⟨.hbm, 79, rfl⟩
abbrev main_v36 : Ref sig .tc := ⟨.hbm, 80, rfl⟩
abbrev main_cst_6 : Ref sig .tc := ⟨.hbm, 81, rfl⟩
abbrev main_v37 : Ref sig .tc := ⟨.hbm, 82, rfl⟩
abbrev main_cst_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_cst_9 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_10 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_11 : Ref sig .tc := ⟨.hbm, 111, rfl⟩
abbrev main_v62 : Ref sig .tc := ⟨.hbm, 112, rfl⟩
abbrev main_cst_12 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_13 : Ref sig .tc := ⟨.hbm, 120, rfl⟩
abbrev main_v69 : Ref sig .tc := ⟨.hbm, 121, rfl⟩
abbrev main_cst_14 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_15 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_16 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_17 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_c : Ref sig .tc := ⟨.hbm, 179, rfl⟩
abbrev main_v123 : Ref sig .tc := ⟨.hbm, 180, rfl⟩
abbrev main_v124 : Ref sig .tc := ⟨.hbm, 181, rfl⟩
abbrev main_c_18 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_c_19 : Ref sig .tc := ⟨.hbm, 188, rfl⟩
abbrev main_v130 : Ref sig .tc := ⟨.hbm, 189, rfl⟩
abbrev main_v131 : Ref sig .tc := ⟨.hbm, 190, rfl⟩
abbrev main_c_20 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_21 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_22 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_23 : Ref sig .tc := ⟨.hbm, 213, rfl⟩
abbrev main_v151 : Ref sig .tc := ⟨.hbm, 214, rfl⟩
abbrev main_cst_24 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_cst_25 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_cst_26 : Ref sig .tc := ⟨.hbm, 224, rfl⟩
abbrev main_v159 : Ref sig .tc := ⟨.hbm, 225, rfl⟩
abbrev main_cst_27 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_28 : Ref sig .tc := ⟨.hbm, 233, rfl⟩
abbrev main_v166 : Ref sig .tc := ⟨.hbm, 234, rfl⟩
abbrev main_cst_29 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_cst_30 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_cst_31 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_c_32 : Ref sig .tc := ⟨.hbm, 286, rfl⟩
abbrev main_v215 : Ref sig .tc := ⟨.hbm, 287, rfl⟩
abbrev main_v216 : Ref sig .tc := ⟨.hbm, 288, rfl⟩
abbrev main_c_33 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_c_34 : Ref sig .tc := ⟨.hbm, 295, rfl⟩
abbrev main_v222 : Ref sig .tc := ⟨.hbm, 296, rfl⟩
abbrev main_v223 : Ref sig .tc := ⟨.hbm, 297, rfl⟩
abbrev main_c_35 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_cst_36 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_cst_37 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_38 : Ref sig .tc := ⟨.hbm, 320, rfl⟩
abbrev main_v243 : Ref sig .tc := ⟨.hbm, 321, rfl⟩
abbrev main_cst_39 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_40 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_cst_41 : Ref sig .tc := ⟨.hbm, 331, rfl⟩
abbrev main_v251 : Ref sig .tc := ⟨.hbm, 332, rfl⟩
abbrev main_cst_42 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_cst_43 : Ref sig .tc := ⟨.hbm, 340, rfl⟩
abbrev main_v258 : Ref sig .tc := ⟨.hbm, 341, rfl⟩
abbrev main_cst_44 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_cst_45 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_cst_46 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_cst_47 : Ref sig .tc := ⟨.hbm, 379, rfl⟩
abbrev main_v293 : Ref sig .tc := ⟨.hbm, 380, rfl⟩
abbrev main_v294 : Ref sig .tc := ⟨.hbm, 381, rfl⟩
abbrev main_cst_48 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_cst_49 : Ref sig .tc := ⟨.hbm, 390, rfl⟩
abbrev main_v302 : Ref sig .tc := ⟨.hbm, 391, rfl⟩
abbrev main_v303 : Ref sig .tc := ⟨.hbm, 392, rfl⟩
abbrev main_cst_50 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_cst_51 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_v321 : Ref sig .tc := ⟨.hbm, 412, rfl⟩
abbrev main_v322 : Ref sig .tc := ⟨.hbm, 413, rfl⟩
abbrev main_cst_52 : Ref sig .tc := ⟨.hbm, 414, rfl⟩
abbrev main_v323 : Ref sig .tc := ⟨.hbm, 415, rfl⟩
abbrev main_v324 : Ref sig .tc := ⟨.hbm, 416, rfl⟩
abbrev main_cst_53 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_cst_54 : Ref sig .tc := ⟨.hbm, 425, rfl⟩
abbrev main_v332 : Ref sig .tc := ⟨.hbm, 426, rfl⟩
abbrev main_v333 : Ref sig .tc := ⟨.hbm, 427, rfl⟩
abbrev main_cst_55 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_cst_56 : Ref sig .tc := ⟨.hbm, 434, rfl⟩
abbrev main_v339 : Ref sig .tc := ⟨.hbm, 435, rfl⟩
abbrev main_v340 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_v345 : Ref sig .tc := ⟨.hbm, 441, rfl⟩
abbrev main_v346 : Ref sig .tc := ⟨.hbm, 442, rfl⟩
abbrev main_v347 : Ref sig .tc := ⟨.hbm, 443, rfl⟩
abbrev main_v348 : Ref sig .tc := ⟨.hbm, 444, rfl⟩
abbrev main_v349 : Ref sig .tc := ⟨.hbm, 445, rfl⟩
abbrev main_v350 : Ref sig .tc := ⟨.hbm, 446, rfl⟩
abbrev main_v351 : Ref sig .tc := ⟨.hbm, 447, rfl⟩
abbrev main_v352 : Ref sig .tc := ⟨.hbm, 448, rfl⟩
abbrev main_v353 : Ref sig .tc := ⟨.hbm, 449, rfl⟩
abbrev main_v354 : Ref sig .tc := ⟨.hbm, 450, rfl⟩
abbrev main_v355 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_c_57 : Ref sig .tc := ⟨.hbm, 463, rfl⟩
abbrev main_v367 : Ref sig .tc := ⟨.hbm, 464, rfl⟩
abbrev main_v368 : Ref sig .tc := ⟨.hbm, 465, rfl⟩
abbrev main_c_58 : Ref sig .tc := ⟨.hbm, 466, rfl⟩
abbrev main_v369 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_c_59 : Ref sig .tc := ⟨.hbm, 472, rfl⟩
abbrev main_v374 : Ref sig .tc := ⟨.hbm, 473, rfl⟩
abbrev main_v375 : Ref sig .tc := ⟨.hbm, 474, rfl⟩
abbrev main_c_60 : Ref sig .tc := ⟨.hbm, 475, rfl⟩
abbrev main_v376 : Ref sig .tc := ⟨.hbm, 476, rfl⟩
abbrev main_v377 : Ref sig .tc := ⟨.hbm, 477, rfl⟩
abbrev main_v378 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_v385 : Ref sig .tc := ⟨.hbm, 485, rfl⟩
abbrev main_cst_61 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_v390 : Ref sig .tc := ⟨.hbm, 491, rfl⟩
abbrev main_v391 : Ref sig .tc := ⟨.hbm, 492, rfl⟩
abbrev main_cst_62 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_cst_63 : Ref sig .tc := ⟨.hbm, 497, rfl⟩
abbrev main_v395 : Ref sig .tc := ⟨.hbm, 498, rfl⟩
abbrev main_cst_64 : Ref sig .tc := ⟨.hbm, 499, rfl⟩
abbrev main_v396 : Ref sig .tc := ⟨.hbm, 500, rfl⟩
abbrev main_v397 : Ref sig .tc := ⟨.hbm, 501, rfl⟩
abbrev main_v398 : Ref sig .tc := ⟨.hbm, 502, rfl⟩
abbrev main_cst_65 : Ref sig .tc := ⟨.hbm, 503, rfl⟩
abbrev main_v399 : Ref sig .tc := ⟨.hbm, 504, rfl⟩
abbrev main_v400 : Ref sig .tc := ⟨.hbm, 505, rfl⟩
abbrev main_v401 : Ref sig .tc := ⟨.hbm, 506, rfl⟩
abbrev main_v402 : Ref sig .tc := ⟨.hbm, 507, rfl⟩
abbrev main_cst_66 : Ref sig .tc := ⟨.hbm, 508, rfl⟩
abbrev main_v403 : Ref sig .tc := ⟨.hbm, 509, rfl⟩
abbrev main_cst_67 : Ref sig .tc := ⟨.hbm, 510, rfl⟩
abbrev main_v404 : Ref sig .tc := ⟨.hbm, 511, rfl⟩
abbrev main_v405 : Ref sig .tc := ⟨.hbm, 512, rfl⟩
abbrev main_v406 : Ref sig .tc := ⟨.hbm, 513, rfl⟩
abbrev main_v407 : Ref sig .tc := ⟨.hbm, 514, rfl⟩
abbrev main_v408 : Ref sig .tc := ⟨.hbm, 515, rfl⟩
abbrev main_v409 : Ref sig .tc := ⟨.hbm, 516, rfl⟩
abbrev main_cst_68 : Ref sig .tc := ⟨.hbm, 517, rfl⟩
abbrev main_v410 : Ref sig .tc := ⟨.hbm, 518, rfl⟩
abbrev main_cst_69 : Ref sig .tc := ⟨.hbm, 519, rfl⟩
abbrev main_v411 : Ref sig .tc := ⟨.hbm, 520, rfl⟩
abbrev main_v412 : Ref sig .tc := ⟨.hbm, 521, rfl⟩
abbrev main_v413 : Ref sig .tc := ⟨.hbm, 522, rfl⟩
abbrev main_v414 : Ref sig .tc := ⟨.hbm, 523, rfl⟩
abbrev main_v415 : Ref sig .tc := ⟨.hbm, 524, rfl⟩
abbrev main_cst_70 : Ref sig .tc := ⟨.hbm, 525, rfl⟩
abbrev main_v416 : Ref sig .tc := ⟨.hbm, 526, rfl⟩
abbrev main_v417 : Ref sig .tc := ⟨.hbm, 527, rfl⟩
abbrev main_v418 : Ref sig .tc := ⟨.hbm, 528, rfl⟩
abbrev main_v419 : Ref sig .tc := ⟨.hbm, 529, rfl⟩
abbrev main_v420 : Ref sig .tc := ⟨.hbm, 530, rfl⟩
abbrev main_v421 : Ref sig .tc := ⟨.hbm, 531, rfl⟩
abbrev main_v422 : Ref sig .tc := ⟨.hbm, 532, rfl⟩
abbrev main_v423 : Ref sig .tc := ⟨.hbm, 533, rfl⟩
abbrev main_v424 : Ref sig .tc := ⟨.hbm, 534, rfl⟩
abbrev main_v425 : Ref sig .tc := ⟨.hbm, 535, rfl⟩
abbrev main_v426 : Ref sig .tc := ⟨.hbm, 536, rfl⟩
abbrev main_v427 : Ref sig .tc := ⟨.hbm, 537, rfl⟩
abbrev main_v428 : Ref sig .tc := ⟨.hbm, 538, rfl⟩
abbrev main_v429 : Ref sig .tc := ⟨.hbm, 539, rfl⟩
abbrev main_v430 : Ref sig .tc := ⟨.hbm, 540, rfl⟩
abbrev main_v431 : Ref sig .tc := ⟨.hbm, 541, rfl⟩
abbrev main_v432 : Ref sig .tc := ⟨.hbm, 542, rfl⟩
abbrev main_cst_71 : Ref sig .tc := ⟨.hbm, 543, rfl⟩
abbrev main_v433 : Ref sig .tc := ⟨.hbm, 544, rfl⟩
abbrev main_v434 : Ref sig .tc := ⟨.hbm, 545, rfl⟩
abbrev main_v435 : Ref sig .tc := ⟨.hbm, 546, rfl⟩
abbrev main_v436 : Ref sig .tc := ⟨.hbm, 547, rfl⟩
abbrev main_v437 : Ref sig .tc := ⟨.hbm, 548, rfl⟩
abbrev main_v438 : Ref sig .tc := ⟨.hbm, 549, rfl⟩
abbrev main_v439 : Ref sig .tc := ⟨.hbm, 550, rfl⟩
abbrev main_v440 : Ref sig .tc := ⟨.hbm, 551, rfl⟩
abbrev main_v441 : Ref sig .tc := ⟨.hbm, 552, rfl⟩
abbrev main_v442 : Ref sig .tc := ⟨.hbm, 553, rfl⟩
abbrev main_v443 : Ref sig .tc := ⟨.hbm, 554, rfl⟩
abbrev main_v444 : Ref sig .tc := ⟨.hbm, 555, rfl⟩
abbrev main_v445 : Ref sig .tc := ⟨.hbm, 556, rfl⟩
abbrev main_v446 : Ref sig .tc := ⟨.hbm, 557, rfl⟩
abbrev main_v447 : Ref sig .tc := ⟨.hbm, 558, rfl⟩
abbrev main_v448 : Ref sig .tc := ⟨.hbm, 559, rfl⟩
abbrev main_v449 : Ref sig .tc := ⟨.hbm, 560, rfl⟩
abbrev main_v450 : Ref sig .tc := ⟨.hbm, 561, rfl⟩
abbrev main_v451 : Ref sig .tc := ⟨.hbm, 562, rfl⟩
abbrev main_v452 : Ref sig .tc := ⟨.hbm, 563, rfl⟩
abbrev main_v453 : Ref sig .tc := ⟨.hbm, 564, rfl⟩
abbrev main_v454 : Ref sig .tc := ⟨.hbm, 565, rfl⟩
abbrev main_v455 : Ref sig .tc := ⟨.hbm, 566, rfl⟩
abbrev main_v456 : Ref sig .tc := ⟨.hbm, 567, rfl⟩
abbrev main_v457 : Ref sig .tc := ⟨.hbm, 568, rfl⟩
abbrev main_v458 : Ref sig .tc := ⟨.hbm, 569, rfl⟩
abbrev main_c_72 : Ref sig .tc := ⟨.hbm, 570, rfl⟩
abbrev main_v459 : Ref sig .tc := ⟨.hbm, 571, rfl⟩
abbrev main_v460 : Ref sig .tc := ⟨.hbm, 572, rfl⟩
abbrev main_c_73 : Ref sig .tc := ⟨.hbm, 573, rfl⟩
abbrev main_v461 : Ref sig .tc := ⟨.hbm, 574, rfl⟩
abbrev main_v462 : Ref sig .tc := ⟨.hbm, 575, rfl⟩
abbrev main_v463 : Ref sig .tc := ⟨.hbm, 576, rfl⟩
abbrev main_v464 : Ref sig .tc := ⟨.hbm, 577, rfl⟩
abbrev main_v465 : Ref sig .tc := ⟨.hbm, 578, rfl⟩
abbrev main_c_74 : Ref sig .tc := ⟨.hbm, 579, rfl⟩
abbrev main_v466 : Ref sig .tc := ⟨.hbm, 580, rfl⟩
abbrev main_v467 : Ref sig .tc := ⟨.hbm, 581, rfl⟩
abbrev main_c_75 : Ref sig .tc := ⟨.hbm, 582, rfl⟩
abbrev main_v468 : Ref sig .tc := ⟨.hbm, 583, rfl⟩
abbrev main_v469 : Ref sig .tc := ⟨.hbm, 584, rfl⟩
abbrev main_v470 : Ref sig .tc := ⟨.hbm, 585, rfl⟩
abbrev main_v471 : Ref sig .tc := ⟨.hbm, 586, rfl⟩
abbrev main_v472 : Ref sig .tc := ⟨.hbm, 587, rfl⟩
abbrev main_v473 : Ref sig .tc := ⟨.hbm, 588, rfl⟩
abbrev main_v474 : Ref sig .tc := ⟨.hbm, 589, rfl⟩
abbrev main_v475 : Ref sig .tc := ⟨.hbm, 590, rfl⟩
abbrev main_v476 : Ref sig .tc := ⟨.hbm, 591, rfl⟩
abbrev main_v477 : Ref sig .tc := ⟨.hbm, 592, rfl⟩
abbrev main_cst_76 : Ref sig .tc := ⟨.hbm, 593, rfl⟩
abbrev main_v478 : Ref sig .tc := ⟨.hbm, 594, rfl⟩
abbrev main_v479 : Ref sig .tc := ⟨.hbm, 595, rfl⟩
abbrev main_v480 : Ref sig .tc := ⟨.hbm, 596, rfl⟩
abbrev main_v481 : Ref sig .tc := ⟨.hbm, 597, rfl⟩
abbrev main_v482 : Ref sig .tc := ⟨.hbm, 598, rfl⟩
abbrev main_v483 : Ref sig .tc := ⟨.hbm, 599, rfl⟩
abbrev main_cst_77 : Ref sig .tc := ⟨.hbm, 600, rfl⟩
abbrev main_v484 : Ref sig .tc := ⟨.hbm, 601, rfl⟩
abbrev main_v485 : Ref sig .tc := ⟨.hbm, 602, rfl⟩
abbrev main_v486 : Ref sig .tc := ⟨.hbm, 603, rfl⟩
abbrev main_cst_78 : Ref sig .tc := ⟨.hbm, 604, rfl⟩
abbrev main_v487 : Ref sig .tc := ⟨.hbm, 605, rfl⟩
abbrev main_cst_79 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_cst_80 : Ref sig .tc := ⟨.hbm, 610, rfl⟩
abbrev main_v491 : Ref sig .tc := ⟨.hbm, 611, rfl⟩
abbrev main_v492 : Ref sig .tc := ⟨.hbm, 612, rfl⟩
abbrev main_v493 : Ref sig .tc := ⟨.hbm, 613, rfl⟩
abbrev main_v494 : Ref sig .tc := ⟨.hbm, 614, rfl⟩
abbrev main_cst_81 : Ref sig .tc := ⟨.hbm, 615, rfl⟩
abbrev main_v495 : Ref sig .tc := ⟨.hbm, 616, rfl⟩
abbrev main_cst_82 : Ref sig .tc := ⟨.hbm, 617, rfl⟩
abbrev main_v496 : Ref sig .tc := ⟨.hbm, 618, rfl⟩
abbrev main_v497 : Ref sig .tc := ⟨.hbm, 619, rfl⟩
abbrev main_v498 : Ref sig .tc := ⟨.hbm, 620, rfl⟩
abbrev main_v499 : Ref sig .tc := ⟨.hbm, 621, rfl⟩
abbrev main_v500 : Ref sig .tc := ⟨.hbm, 622, rfl⟩
abbrev main_v501 : Ref sig .tc := ⟨.hbm, 623, rfl⟩
abbrev main_cst_83 : Ref sig .tc := ⟨.hbm, 624, rfl⟩
abbrev main_v502 : Ref sig .tc := ⟨.hbm, 625, rfl⟩
abbrev main_cst_84 : Ref sig .tc := ⟨.hbm, 626, rfl⟩
abbrev main_v503 : Ref sig .tc := ⟨.hbm, 627, rfl⟩
abbrev main_v504 : Ref sig .tc := ⟨.hbm, 628, rfl⟩
abbrev main_v505 : Ref sig .tc := ⟨.hbm, 629, rfl⟩
abbrev main_v506 : Ref sig .tc := ⟨.hbm, 630, rfl⟩
abbrev main_v507 : Ref sig .tc := ⟨.hbm, 631, rfl⟩
abbrev main_cst_85 : Ref sig .tc := ⟨.hbm, 632, rfl⟩
abbrev main_v508 : Ref sig .tc := ⟨.hbm, 633, rfl⟩
abbrev main_v509 : Ref sig .tc := ⟨.hbm, 634, rfl⟩
abbrev main_v510 : Ref sig .tc := ⟨.hbm, 635, rfl⟩
abbrev main_v511 : Ref sig .tc := ⟨.hbm, 636, rfl⟩
abbrev main_v512 : Ref sig .tc := ⟨.hbm, 637, rfl⟩
abbrev main_v513 : Ref sig .tc := ⟨.hbm, 638, rfl⟩
abbrev main_v514 : Ref sig .tc := ⟨.hbm, 639, rfl⟩
abbrev main_v515 : Ref sig .tc := ⟨.hbm, 640, rfl⟩
abbrev main_v516 : Ref sig .tc := ⟨.hbm, 641, rfl⟩
abbrev main_v517 : Ref sig .tc := ⟨.hbm, 642, rfl⟩
abbrev main_v518 : Ref sig .tc := ⟨.hbm, 643, rfl⟩
abbrev main_v519 : Ref sig .tc := ⟨.hbm, 644, rfl⟩
abbrev main_v520 : Ref sig .tc := ⟨.hbm, 645, rfl⟩
abbrev main_v521 : Ref sig .tc := ⟨.hbm, 646, rfl⟩
abbrev main_v522 : Ref sig .tc := ⟨.hbm, 647, rfl⟩
abbrev main_v523 : Ref sig .tc := ⟨.hbm, 648, rfl⟩
abbrev main_v524 : Ref sig .tc := ⟨.hbm, 649, rfl⟩
abbrev main_cst_86 : Ref sig .tc := ⟨.hbm, 650, rfl⟩
abbrev main_v525 : Ref sig .tc := ⟨.hbm, 651, rfl⟩
abbrev main_v526 : Ref sig .tc := ⟨.hbm, 652, rfl⟩
abbrev main_v527 : Ref sig .tc := ⟨.hbm, 653, rfl⟩
abbrev main_v528 : Ref sig .tc := ⟨.hbm, 654, rfl⟩
abbrev main_v529 : Ref sig .tc := ⟨.hbm, 655, rfl⟩
abbrev main_v530 : Ref sig .tc := ⟨.hbm, 656, rfl⟩
abbrev main_v531 : Ref sig .tc := ⟨.hbm, 657, rfl⟩
abbrev main_v532 : Ref sig .tc := ⟨.hbm, 658, rfl⟩
abbrev main_v533 : Ref sig .tc := ⟨.hbm, 659, rfl⟩
abbrev main_v534 : Ref sig .tc := ⟨.hbm, 660, rfl⟩
abbrev main_v535 : Ref sig .tc := ⟨.hbm, 661, rfl⟩
abbrev main_v536 : Ref sig .tc := ⟨.hbm, 662, rfl⟩
abbrev main_cst_87 : Ref sig .tc := ⟨.hbm, 663, rfl⟩
abbrev main_v537 : Ref sig .tc := ⟨.hbm, 664, rfl⟩
abbrev main_v538 : Ref sig .tc := ⟨.hbm, 665, rfl⟩
abbrev main_cst_88 : Ref sig .tc := ⟨.hbm, 666, rfl⟩
abbrev main_v539 : Ref sig .tc := ⟨.hbm, 667, rfl⟩
abbrev main_v540 : Ref sig .tc := ⟨.hbm, 668, rfl⟩
abbrev main_v541 : Ref sig .tc := ⟨.hbm, 669, rfl⟩
abbrev main_v542 : Ref sig .tc := ⟨.hbm, 670, rfl⟩
abbrev main_v543 : Ref sig .tc := ⟨.hbm, 671, rfl⟩
abbrev main_v544 : Ref sig .tc := ⟨.hbm, 672, rfl⟩
abbrev main_v545 : Ref sig .tc := ⟨.hbm, 673, rfl⟩
abbrev main_cst_89 : Ref sig .tc := ⟨.hbm, 674, rfl⟩
abbrev main_v546 : Ref sig .tc := ⟨.hbm, 675, rfl⟩
abbrev main_v547 : Ref sig .tc := ⟨.hbm, 676, rfl⟩
abbrev main_cst_90 : Ref sig .tc := ⟨.hbm, 677, rfl⟩
abbrev main_v548 : Ref sig .tc := ⟨.hbm, 678, rfl⟩
abbrev main_v549 : Ref sig .tc := ⟨.hbm, 679, rfl⟩
abbrev main_v550 : Ref sig .tc := ⟨.hbm, 680, rfl⟩
abbrev main_v551 : Ref sig .tc := ⟨.hbm, 681, rfl⟩
abbrev main_v552 : Ref sig .tc := ⟨.hbm, 682, rfl⟩
abbrev main_cst_91 : Ref sig .tc := ⟨.hbm, 683, rfl⟩
abbrev main_v553 : Ref sig .tc := ⟨.hbm, 684, rfl⟩
abbrev main_v554 : Ref sig .tc := ⟨.hbm, 685, rfl⟩
abbrev main_v555 : Ref sig .tc := ⟨.hbm, 686, rfl⟩
abbrev main_v556 : Ref sig .tc := ⟨.hbm, 687, rfl⟩
abbrev main_v557 : Ref sig .tc := ⟨.hbm, 688, rfl⟩
abbrev main_v558 : Ref sig .tc := ⟨.hbm, 689, rfl⟩
abbrev main_v559 : Ref sig .tc := ⟨.hbm, 690, rfl⟩
abbrev main_v560 : Ref sig .tc := ⟨.hbm, 691, rfl⟩
abbrev main_v561 : Ref sig .tc := ⟨.hbm, 692, rfl⟩
abbrev main_v562 : Ref sig .tc := ⟨.hbm, 693, rfl⟩
abbrev main_v563 : Ref sig .tc := ⟨.hbm, 694, rfl⟩
abbrev main_v564 : Ref sig .tc := ⟨.hbm, 695, rfl⟩
abbrev main_v565 : Ref sig .tc := ⟨.hbm, 696, rfl⟩
abbrev main_v566 : Ref sig .tc := ⟨.hbm, 697, rfl⟩
abbrev main_cst_92 : Ref sig .tc := ⟨.hbm, 698, rfl⟩
abbrev main_v567 : Ref sig .tc := ⟨.hbm, 699, rfl⟩
abbrev main_v568 : Ref sig .tc := ⟨.hbm, 700, rfl⟩
abbrev main_cst_93 : Ref sig .tc := ⟨.hbm, 701, rfl⟩
abbrev main_v569 : Ref sig .tc := ⟨.hbm, 702, rfl⟩
abbrev main_v570 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_cst_94 : Ref sig .tc := ⟨.hbm, 709, rfl⟩
abbrev main_v576 : Ref sig .tc := ⟨.hbm, 710, rfl⟩
abbrev main_v577 : Ref sig .tc := ⟨.hbm, 711, rfl⟩
abbrev main_cst_95 : Ref sig .tc := ⟨.hbm, 712, rfl⟩
abbrev main_v578 : Ref sig .tc := ⟨.hbm, 713, rfl⟩
abbrev main_v579 : Ref sig .tc := ⟨.hbm, 714, rfl⟩
abbrev main_v580 : Ref sig .tc := ⟨.hbm, 715, rfl⟩
abbrev main_v581 : Ref sig .tc := ⟨.hbm, 716, rfl⟩
abbrev main_v582 : Ref sig .tc := ⟨.hbm, 717, rfl⟩
abbrev main_cst_96 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_v588 : Ref sig .tc := ⟨.hbm, 724, rfl⟩
abbrev main_v589 : Ref sig .tc := ⟨.hbm, 725, rfl⟩
abbrev main_v590 : Ref sig .tc := ⟨.hbm, 726, rfl⟩
abbrev main_v591 : Ref sig .tc := ⟨.hbm, 727, rfl⟩
abbrev main_v592 : Ref sig .tc := ⟨.hbm, 728, rfl⟩
abbrev main_v593 : Ref sig .tc := ⟨.hbm, 729, rfl⟩
abbrev main_v594 : Ref sig .tc := ⟨.hbm, 730, rfl⟩
abbrev main_v595 : Ref sig .tc := ⟨.hbm, 731, rfl⟩
abbrev main_cst_97 : Ref sig .tc := ⟨.hbm, 732, rfl⟩
abbrev main_v596 : Ref sig .tc := ⟨.hbm, 733, rfl⟩
abbrev main_v597 : Ref sig .tc := ⟨.hbm, 734, rfl⟩
abbrev main_v598 : Ref sig .tc := ⟨.hbm, 735, rfl⟩
abbrev main_v599 : Ref sig .tc := ⟨.hbm, 736, rfl⟩
abbrev main_v600 : Ref sig .tc := ⟨.hbm, 737, rfl⟩
abbrev main_v601 : Ref sig .tc := ⟨.hbm, 738, rfl⟩
abbrev main_cst_98 : Ref sig .tc := ⟨.hbm, 739, rfl⟩
abbrev main_v602 : Ref sig .tc := ⟨.hbm, 740, rfl⟩
abbrev main_v603 : Ref sig .tc := ⟨.hbm, 741, rfl⟩
abbrev main_v604 : Ref sig .tc := ⟨.hbm, 742, rfl⟩
abbrev main_v605 : Ref sig .tc := ⟨.hbm, 743, rfl⟩
abbrev main_v606 : Ref sig .tc := ⟨.hbm, 744, rfl⟩
abbrev main_v607 : Ref sig .tc := ⟨.hbm, 745, rfl⟩
abbrev main_v608 : Ref sig .tc := ⟨.hbm, 746, rfl⟩

abbrev nD : Nat := 1
abbrev τ : Topo := Topo.v7x

variable {F : FTy → Type} [FloatOps F]

class Facts₀ : Prop where
  reducesTo_S50000x3_S3_d0 : S50000x3.ReducesTo [0] S3
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S600000x1_S1_d0 : S600000x1.ReducesTo [0] S1
  bcast_S_S1 : S_.BroadcastsInDim S1 (![] : Fin 0 → Fin S1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S50000x5_S5_d0 : S50000x5.ReducesTo [0] S5
  bcast_S_S5 : S_.BroadcastsInDim S5 (![] : Fin 0 → Fin S5.rank)
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x129x64_S1x129x64_0_0_0 : S4x129x64.Slices ![0, 0, 0] S1x129x64
  shapeCasts_S1x129x64_S129x64 : S1x129x64.ShapeCasts S129x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  slices_S4x128x64_S1x128x64_0_0_0 : S4x128x64.Slices ![0, 0, 0] S1x128x64
  shapeCasts_S1x128x64_S128x64 : S1x128x64.ShapeCasts S128x64
  bcast_S_S600000 : S_.BroadcastsInDim S600000 (![] : Fin 0 → Fin S600000.rank)
  bcast_S600000_S600000x1_0 : S600000.BroadcastsInDim S600000x1 (![0] : Fin 1 → Fin S600000x1.rank)
  concatenates_S600000x64_S600000x1_S600000x64_S600000x129_d1 : Shape.Concatenates [S600000x64, S600000x1, S600000x64] S600000x129 1
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  concatenates_S50000x64_S50000x64_S50000x128_d1 : Shape.Concatenates [S50000x64, S50000x64] S50000x128 1
  slices_S4x129x64_S1x129x64_1_0_0 : S4x129x64.Slices ![1, 0, 0] S1x129x64
  slices_S4x64_S1x64_1_0 : S4x64.Slices ![1, 0] S1x64
  slices_S4x64x64_S1x64x64_1_0_0 : S4x64x64.Slices ![1, 0, 0] S1x64x64
  slices_S4x128x64_S1x128x64_1_0_0 : S4x128x64.Slices ![1, 0, 0] S1x128x64
  bcast_S_S1x64 : S_.BroadcastsInDim S1x64 (![] : Fin 0 → Fin S1x64.rank)
  slices_S4x129x64_S1x129x64_2_0_0 : S4x129x64.Slices ![2, 0, 0] S1x129x64
  slices_S4x64_S1x64_2_0 : S4x64.Slices ![2, 0] S1x64
  slices_S4x64x64_S1x64x64_2_0_0 : S4x64x64.Slices ![2, 0, 0] S1x64x64
  slices_S4x128x64_S1x128x64_2_0_0 : S4x128x64.Slices ![2, 0, 0] S1x128x64
  slices_S4x129x64_S1x129x64_3_0_0 : S4x129x64.Slices ![3, 0, 0] S1x129x64
  slices_S4x64_S1x64_3_0 : S4x64.Slices ![3, 0] S1x64
  slices_S4x64x64_S1x64x64_3_0_0 : S4x64x64.Slices ![3, 0, 0] S1x64x64
  slices_S4x128x64_S1x128x64_3_0_0 : S4x128x64.Slices ![3, 0, 0] S1x128x64
  concatenates_S50000x64_S50000x64_S50000x64_S50000x192_d1 : Shape.Concatenates [S50000x64, S50000x64, S50000x64] S50000x192 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x1_S50000x1_0_1 : S1x1.BroadcastsInDim S50000x1 (![0, 1] : Fin 2 → Fin S50000x1.rank)
  shapeCasts_S50000x1_S50000 : S50000x1.ShapeCasts S50000
  dot_S50000x3_S3x64_S50000x64_1_0_0_1_n_n_wf : DotDims.WF S50000x3 S3x64 S50000x64 [1] [0] [0] [1] [] []
  dot_S50000x64_S64x64_S50000x64_1_0_0_1_n_n_wf : DotDims.WF S50000x64 S64x64 S50000x64 [1] [0] [0] [1] [] []
  dot_S50000x5_S5x64_S50000x64_1_0_0_1_n_n_wf : DotDims.WF S50000x5 S5x64 S50000x64 [1] [0] [0] [1] [] []
  gather_S50000x64_S600000x1_S600000x64_1_0_n_n_0_1_164_wf : GatherDims.WF S50000x64 S600000x1 S600000x64 [1] [0] [] [0] [] 1 ![1, 64]
  dot_S600000x129_S129x64_S600000x64_1_0_0_1_n_n_wf : DotDims.WF S600000x129 S129x64 S600000x64 [1] [0] [0] [1] [] []
  dot_S600000x64_S64x64_S600000x64_1_0_0_1_n_n_wf : DotDims.WF S600000x64 S64x64 S600000x64 [1] [0] [0] [1] [] []
  scatter_S50000x64_S600000x1_S600000x64_1_0_0_1_wf : ScatterDims.WF S50000x64 S600000x1 S600000x64 [1] [0] [0] 1
  scatter_S50000x1_S600000x1_S600000x1_1_0_0_1_wf : ScatterDims.WF S50000x1 S600000x1 S600000x1 [1] [0] [0] 1
  dot_S50000x128_S128x64_S50000x64_1_0_0_1_n_n_wf : DotDims.WF S50000x128 S128x64 S50000x64 [1] [0] [0] [1] [] []
  dot_S50000x192_S192x512_S50000x512_1_0_0_1_n_n_wf : DotDims.WF S50000x192 S192x512 S50000x512 [1] [0] [0] [1] [] []
  dot_S50000x512_S512x128_S50000x128_1_0_0_1_n_n_wf : DotDims.WF S50000x512 S512x128 S50000x128 [1] [0] [0] [1] [] []
  dot_S50000x128_S128x1_S50000x1_1_0_0_1_n_n_wf : DotDims.WF S50000x128 S128x1 S50000x1 [1] [0] [0] [1] [] []

variable [Facts₀]

def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x5_S5x64_S50000x64_1_0_0_1_n_n : DotDims S50000x5 S5x64 S50000x64 where
  lhsContracting := [1]
  rhsContracting := [0]
  lhsNonContracting := [0]
  rhsNonContracting := [1]
  lhsBatch := []
  rhsBatch := []
  wf := dot_S50000x5_S5x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S600000x129_S129x64_S600000x64_1_0_0_1_n_n : DotDims S600000x129 S129x64 S600000x64 where
  lhsContracting := [1]
  rhsContracting := [0]
  lhsNonContracting := [0]
  rhsNonContracting := [1]
  lhsBatch := []
  rhsBatch := []
  wf := dot_S600000x129_S129x64_S600000x64_1_0_0_1_n_n_wf
def dot_S600000x64_S64x64_S600000x64_1_0_0_1_n_n : DotDims S600000x64 S64x64 S600000x64 where
  lhsContracting := [1]
  rhsContracting := [0]
  lhsNonContracting := [0]
  rhsNonContracting := [1]
  lhsBatch := []
  rhsBatch := []
  wf := dot_S600000x64_S64x64_S600000x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x192_S192x512_S50000x512_1_0_0_1_n_n : DotDims S50000x192 S192x512 S50000x512 where
  lhsContracting := [1]
  rhsContracting := [0]
  lhsNonContracting := [0]
  rhsNonContracting := [1]
  lhsBatch := []
  rhsBatch := []
  wf := dot_S50000x192_S192x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.BitsRegion0.lean ====
/-
  Region 0 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: the one store, of the body's value of the input blocks, over the whole block. -/
def out0_5 (x0 : Vec F S5000x3 .f32) (x1 : Vec F S3x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k0_pay1 (View.ld x0 (Rect.unit (s := S5000x3) ![0, 0] S5000x3.size inb_S5000x3_S5000x3_0_0)) (View.ld x1 (Rect.unit (s := S3x64) ![0, 0] S3x64.size inb_S3x64_S3x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover0_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out0_5` of the inputs'. -/
theorem sound_kernel0 (c : Dev nD) (E : Set ℕ) (i : grid0.Coords) (arg1 : Memref sig .tc .vmem S5000x3 .f32) (harg1 : arg1.IsWhole) (arg2 : Memref sig .tc .vmem S3x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x3 .f32) (x1 : Vec F S3x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as the region finds them; after the body at point `t` each input's
    buffer at its block and the output's at the body's value of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.BitsRegion1.lean ====
/-
  Region 1 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: an unfetched window's
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: the one store, of the body's value of the input blocks, over the whole block. -/
def out1_5 (x0 : Vec F S5000x5 .f32) (x1 : Vec F S5x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k1_pay1 (View.ld x0 (Rect.unit (s := S5000x5) ![0, 0] S5000x5.size inb_S5000x5_S5000x5_0_0)) (View.ld x1 (Rect.unit (s := S5x64) ![0, 0] S5x64.size inb_S5x64_S5x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover1_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out1_5` of the inputs'. -/
theorem sound_kernel1 (c : Dev nD) (E : Set ℕ) (i : grid1.Coords) (arg1 : Memref sig .tc .vmem S5000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x5 .f32) (x1 : Vec F S5x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at the body's value of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.BitsRegion2.lean ====
/-
  Region 2 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: an unfetched window's
    block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: the one store, of the body's value of the input blocks, over the whole block. -/
def out2_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k2_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover2_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out2_5` of the inputs'. -/
theorem sound_kernel2 (c : Dev nD) (E : Set ℕ) (i : grid2.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The region's proof data on core `c`: the arrays as the region finds them; after the body at point `t` each input's
    buffer at its block and the output's at the body's value of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.BitsRegion3.lean ====
/-
  Region 3 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: an unfetched window's
    block index has not moved since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one store, of the body's value of the input blocks, over the whole block. -/
def out3_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k3_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover3_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out3_5` of the inputs'. -/
theorem sound_kernel3 (c : Dev nD) (E : Set ℕ) (i : grid3.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each input's
    buffer at its block and the output's at the body's value of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.BitsRegion4.lean ====
/-
  Region 4 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: an unfetched window's
    block index has not moved since the fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: the one store, of the body's value of the input blocks, over the whole block. -/
def out4_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k4_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover4_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out4_5` of the inputs'. -/
theorem sound_kernel4 (c : Dev nD) (E : Set ℕ) (i : grid4.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The region's proof data on core `c`: the arrays as the region finds them; after the body at point `t` each input's
    buffer at its block and the output's at the body's value of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.BitsRegion5.lean ====
/-
  Region 5 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: an unfetched window's
    block index has not moved since the fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: the one store, of the body's value of the input blocks, over the whole block. -/
def out5_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k5_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover5_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The region's proof data on core `c`: the arrays as the region finds them; after the body at point `t` each input's
    buffer at its block and the output's at the body's value of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.BitsRegion6.lean ====
/-
  Region 6 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: an unfetched window's
    block index has not moved since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: the one store, of the body's value of the input blocks, over the whole block. -/
def out6_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k6_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover6_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out6_5` of the inputs'. -/
theorem sound_kernel6 (c : Dev nD) (E : Set ℕ) (i : grid6.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The region's proof data on core `c`: the arrays as the region finds them; after the body at point `t` each input's
    buffer at its block and the output's at the body's value of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.BitsRegion7.lean ====
/-
  Region 7 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: an unfetched window's
    block index has not moved since the fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output block after the body: the one store, of the body's value of the input blocks, over the whole block. -/
def out7_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k7_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover7_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out7_5` of the inputs'. -/
theorem sound_kernel7 (c : Dev nD) (E : Set ℕ) (i : grid7.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The region's proof data on core `c`: the arrays as the region finds them; after the body at point `t` each input's
    buffer at its block and the output's at the body's value of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Frm

end
-- ==== Proof.BitsRegion8.lean ====
/-
  Region 8 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: an unfetched window's
    block index has not moved since the fetch. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The output block after the body: the one store, of the body's value of the input blocks, over the whole block. -/
def out8_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k8_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover8_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out8_5` of the inputs'. -/
theorem sound_kernel8 (c : Dev nD) (E : Set ℕ) (i : grid8.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The region's proof data on core `c`: the arrays as the region finds them; after the body at point `t` each input's
    buffer at its block and the output's at the body's value of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Frm

end
-- ==== Proof.BitsRegion9.lean ====
/-
  Region 9 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not: an unfetched window's
    block index has not moved since the fetch. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- The output block after the body: the one store, of the body's value of the input blocks, over the whole block. -/
def out9_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k9_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover9_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out9_5` of the inputs'. -/
theorem sound_kernel9 (c : Dev nD) (E : Set ℕ) (i : grid9.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9_kernel i arg1 harg1 arg2 harg2 arg3 harg3 arg4 harg4 arg5 harg5 arg6 harg6) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-- The region's proof data on core `c`: the arrays as the region finds them; after the body at point `t` each input's
    buffer at its block and the output's at the body's value of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' buffers hold their blocks, so the body's triple applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Frm

end
-- ==== Proof.BitsRegion10.lean ====
/-
  Region 10 of @main, at the buffer contents `V` the region is entered with.

  The body reads 7 blocks — a block of rows of the layer input, then each layer's weight matrix and one-row bias —
  and writes ONE block of rows of the result: the store covers the whole output block, so after the body the output's
  staging buffer holds the body's value of the 7 input blocks, whatever it held before (the body's own read of the
  output block is not used). The weight and bias windows have one block, the same at every point; the row windows
  advance one block per point. Stated for any float instance.
-/
import proofs.«181157_j5506148073958_2_alg».proof.Proof.Gen.Kernel.Launch
import proofs.«181157_j5506148073958_2_alg».proof.Proof.Gen.Kernel.Skeleton
import proofs.«181157_j5506148073958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not: an unfetched window's
    block index has not moved since the fetch. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- The output block after the body: the one store, of the body's value of the input blocks, over the whole block. -/
def out10_7 (x0 : Vec F S2000x192 .f32) (x1 : Vec F S192x512 .f32) (x2 : Vec F S1x512 .f32) (x3 : Vec F S512x128 .f32) (x4 : Vec F S1x128 .f32) (x5 : Vec F S128x1 .f32) (x6 : Vec F S1x1 .f32) : Vec F S2000x1 .f32 :=
  View.canon [⟨(Rect.unit (s := S2000x1) ![0, 0] S2000x1.size inb_S2000x1_S2000x1_0_0), k10_pay1 (View.ld x0 (Rect.unit (s := S2000x192) ![0, 0] S2000x192.size inb_S2000x192_S2000x192_0_0)) (View.ld x1 (Rect.unit (s := S192x512) ![0, 0] S192x512.size inb_S192x512_S192x512_0_0)) (View.ld x2 (Rect.unit (s := S1x512) ![0, 0] S1x512.size inb_S1x512_S1x512_0_0)) (View.ld x3 (Rect.unit (s := S512x128) ![0, 0] S512x128.size inb_S512x128_S512x128_0_0)) (View.ld x4 (Rect.unit (s := S1x128) ![0, 0] S1x128.size inb_S1x128_S1x128_0_0)) (View.ld x5 (Rect.unit (s := S128x1) ![0, 0] S128x1.size inb_S128x1_S128x1_0_0)) (View.ld x6 (Rect.unit (s := S1x1) ![0, 0] S1x1.size inb_S1x1_S1x1_0_0))⟩]

/-- The store's rectangle is the whole block. -/
theorem cover10_7 (p0 : Vec F S2000x1 .f32) (y : S2000x1.Idx) :
    ∃ pc ∈ ([⟨(Rect.unit (s := S2000x1) ![0, 0] S2000x1.size inb_S2000x1_S2000x1_0_0), p0⟩] : List (View.Piece (Elt F) S2000x1 .f32)), y ∈ pc.1.set :=
  View.cover_of_tiled [⟨(Rect.unit (s := S2000x1) ![0, 0] S2000x1.size inb_S2000x1_S2000x1_0_0), p0⟩] S2000x1.size (by rfl) y

set_option maxHeartbeats 1000000 in
/-- The body on whole staging buffers — the inputs' at given contents, the output's at anything — runs to the end, leaves
    the inputs' as they were and the output's at `out10_7` of the inputs'. -/
theorem sound_kernel10 (c : Dev nD) (E : Set ℕ) (i : grid10.Coords) (arg1 : Memref sig .tc .vmem S2000x192 .f32) (harg1 : arg1.IsWhole) (arg2 : Memref sig .tc .vmem S192x512 .f32) (harg2 : arg2.IsWhole) (arg3 : Memref sig .tc .vmem S1x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S2000x1 .f32) (harg8 : arg8.IsWhole)
    (x0 : Vec F S2000x192 .f32) (x1 : Vec F S192x512 .f32) (x2 : Vec F S1x512 .f32) (x3 : Vec F S512x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-- The region's proof data on core `c`: the arrays as the region finds them; after the body at point `t` each input's
    buffer at its block and the output's at the body's value of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so the body's triple applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Frm

end
-- ==== Proof.BitsBounds.lean ====
/-
  The buffer contents at each boundary of @main's run — a fold from the launch memory through the host stretches and the
  regions: a host stretch applies its operations; a region leaves each of its arrays at what its write-backs make of it
  and every other buffer as entered —, every region's proof data at its entry contents, and the thread state that rides
  through the segments: every unscoped buffer at the boundary's contents, the generator register at some state, nothing owed.
-/
import proofs.«181157_j5506148073958_2_alg».proof.Proof.BitsRegion0
import proofs.«181157_j5506148073958_2_alg».proof.Proof.BitsRegion1
import proofs.«181157_j5506148073958_2_alg».proof.Proof.BitsRegion2
import proofs.«181157_j5506148073958_2_alg».proof.Proof.BitsRegion3
import proofs.«181157_j5506148073958_2_alg».proof.Proof.BitsRegion4
import proofs.«181157_j5506148073958_2_alg».proof.Proof.BitsRegion5
import proofs.«181157_j5506148073958_2_alg».proof.Proof.BitsRegion6
import proofs.«181157_j5506148073958_2_alg».proof.Proof.BitsRegion7
import proofs.«181157_j5506148073958_2_alg».proof.Proof.BitsRegion8
import proofs.«181157_j5506148073958_2_alg».proof.Proof.BitsRegion9
import proofs.«181157_j5506148073958_2_alg».proof.Proof.BitsRegion10

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the write-backs leave, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the write-backs leave, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the write-backs leave, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its arrays at what the write-backs leave, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10 (region 10's entry). -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its arrays at what the write-backs leave, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the last host stretch: the contents @main returns with. -/
abbrev W23 : Dev nD → Valuation τ sig (Elt F) := fun c => StableHlo.after hostOps11 (W22 m ρ c)

/-! ## No host operation allocates a buffer -/

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem hostOps4_fresh : (hostOps4 : List (HloOp τ sig (Elt F))).Forall fun op => op.fresh = ∅ := by
  simp only [List.Forall]; repeat' constructor

theorem hostOps5_fresh : (hostOps5 : List (HloOp τ sig (Elt F))).Forall fun op => op.fresh = ∅ := by
  simp only [List.Forall]; repeat' constructor

theorem hostOps6_fresh : (hostOps6 : List (HloOp τ sig (Elt F))).Forall fun op => op.fresh = ∅ := by
  simp only [List.Forall]; repeat' constructor

theorem hostOps7_fresh : (hostOps7 : List (HloOp τ sig (Elt F))).Forall fun op => op.fresh = ∅ := by
  simp only [List.Forall]; repeat' constructor

theorem hostOps8_fresh : (hostOps8 : List (HloOp τ sig (Elt F))).Forall fun op => op.fresh = ∅ := by
  simp only [List.Forall]; repeat' constructor

theorem hostOps9_fresh : (hostOps9 : List (HloOp τ sig (Elt F))).Forall fun op => op.fresh = ∅ := by
  simp only [List.Forall]; repeat' constructor

theorem hostOps10_fresh : (hostOps10 : List (HloOp τ sig (Elt F))).Forall fun op => op.fresh = ∅ := by
  simp only [List.Forall]; repeat' constructor

theorem hostOps11_fresh : (hostOps11 : List (HloOp τ sig (Elt F))).Forall fun op => op.fresh = ∅ := by
  simp only [List.Forall]; repeat' constructor

/-! ## The proof data family and the thread state -/

/-- No region has a prefetched table. -/
abbrev adm : (p : Fin 11) → (pcfgs (F := F) p).Adm := fun p => (cfgs p).toPCfg_adm
/-- Every region's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the contents @main returns with, the
    generator register at some state. -/
abbrev Tₙ (c : Dev nD) : sProp 𝕄 := iprop(StableHlo.held (c : Thread nD τ) (Pipeline.ucRefs τ sig) (W23 m ρ c) ∗ ∃ r, prngReg c r)

end Cert.Kernel.Frm

end
-- ==== Proof.BitsSeg0.lean ====
/-
  Region 0 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 0: entered with every unscoped buffer at `W1`, left at `W2`. Its arrays are split out of the unscoped
    buffers at the entry and put back at their exit contents; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg1.lean ====
/-
  Region 1 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 1: entered with every unscoped buffer at `W3`, left at `W4`. Its arrays are split out of the unscoped
    buffers at the entry and put back at their exit contents; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg2.lean ====
/-
  Region 2 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 2: entered with every unscoped buffer at `W5`, left at `W6`. Its arrays are split out of the unscoped
    buffers at the entry and put back at their exit contents; the generator register goes into the region's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg3.lean ====
/-
  Region 3 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 3: entered with every unscoped buffer at `W7`, left at `W8`. Its arrays are split out of the unscoped
    buffers at the entry and put back at their exit contents; the generator register goes into the region's invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg4.lean ====
/-
  Region 4 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 4: entered with every unscoped buffer at `W9`, left at `W10`. Its arrays are split out of the unscoped
    buffers at the entry and put back at their exit contents; the generator register goes into the region's invariant
    and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg5.lean ====
/-
  Region 5 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 5: entered with every unscoped buffer at `W11`, left at `W12`. Its arrays are split out of the unscoped
    buffers at the entry and put back at their exit contents; the generator register goes into the region's invariant
    and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg6.lean ====
/-
  Region 6 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 6: entered with every unscoped buffer at `W13`, left at `W14`. Its arrays are split out of the unscoped
    buffers at the entry and put back at their exit contents; the generator register goes into the region's invariant
    and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg7.lean ====
/-
  Region 7 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 7: entered with every unscoped buffer at `W15`, left at `W16`. Its arrays are split out of the unscoped
    buffers at the entry and put back at their exit contents; the generator register goes into the region's invariant
    and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg8.lean ====
/-
  Region 8 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 8: entered with every unscoped buffer at `W17`, left at `W18`. Its arrays are split out of the unscoped
    buffers at the entry and put back at their exit contents; the generator register goes into the region's invariant
    and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg9.lean ====
/-
  Region 9 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 9: entered with every unscoped buffer at `W19`, left at `W20`. Its arrays are split out of the unscoped
    buffers at the entry and put back at their exit contents; the generator register goes into the region's invariant
    and comes back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsSeg10.lean ====
/-
  Region 10 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 10: entered with every unscoped buffer at `W21`, left at `W22`. Its arrays are split out of the unscoped
    buffers at the entry and put back at their exit contents; the generator register goes into the region's invariant
    and comes back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.BitsWrites.lean ====
/-
  What each host stretch writes — the list of its operations' result references — and so what it keeps: a reference outside
  the list holds after the stretch what it held before. An argument array is in no such list and is no region's output (a
  region reads it through an input window, whose array ends as entered, or does not touch it), so the fold of the boundary
  contents at an argument walks back to the launch memory.
-/
import proofs.«181157_j5506148073958_2_alg».proof.Proof.BitsBounds

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes, and what it therefore keeps -/

/-- The references host stretch 0's operations write. -/
abbrev hostOps0_W : List (Ref sig .tc) := [main_cst, main_v0, main_cst_0, main_v1, main_v2, main_v3, main_v4, main_v5, main_v6, main_cst_1, main_v7, main_cst_2, main_v8, main_v9, main_v10, main_v11, main_v12, main_cst_3, main_v13, main_v14, main_v15, main_v16, main_v17, main_v18, main_v19, main_v20, main_v21, main_v22, main_v23, main_v24, main_v25, main_v26]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The references host stretch 1's operations write. -/
abbrev hostOps1_W : List (Ref sig .tc) := [main_cst_4, main_v28, main_cst_5, main_v29, main_v30, main_v31, main_v32, main_v33, main_v34, main_cst_6, main_v35, main_cst_7, main_v36, main_v37, main_v38, main_v39, main_v40, main_cst_8, main_v41, main_v42, main_v43, main_v44, main_v45, main_v46, main_v47, main_v48, main_v49, main_v50, main_v51, main_v52, main_cst_9, main_v53, main_cst_10, main_v54, main_v55, main_v56, main_v57, main_v58, main_v59, main_cst_11, main_v60, main_cst_12, main_v61, main_v62, main_v63, main_v64, main_v65, main_cst_13, main_v66, main_v67, main_v68, main_v69, main_v70, main_v71, main_v72, main_v73, main_v74, main_v75, main_v76, main_v77, main_v78, main_v79]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The references host stretch 2's operations write. -/
abbrev hostOps2_W : List (Ref sig .tc) := [main_v81, main_v82, main_v83, main_v84, main_v85, main_v86, main_v87, main_v88, main_v89, main_v90, main_v91, main_v92, main_v93, main_v94, main_v95, main_v96, main_v97, main_v98, main_v99, main_v100, main_v101, main_v102, main_v103, main_v104, main_c, main_v105, main_v106, main_c_14, main_v107, main_v108, main_v109, main_v110, main_v111, main_c_15, main_v112, main_v113, main_c_16, main_v114, main_v115, main_v116, main_v117, main_v118, main_v119, main_v120, main_v121]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- The references host stretch 3's operations write. -/
abbrev hostOps3_W : List (Ref sig .tc) := [main_cst_17, main_v123, main_v124, main_v125, main_cst_18, main_v126, main_cst_19, main_v127, main_v128, main_v129, main_cst_20, main_v130, main_v131, main_v132, main_v133, main_cst_21, main_v134, main_cst_22, main_v135, main_v136, main_v137, main_v138, main_v139, main_v140, main_cst_23, main_v141, main_cst_24, main_v142, main_v143, main_v144, main_v145, main_v146, main_cst_25, main_v147, main_v148, main_v149, main_v150, main_v151, main_v152, main_v153, main_v154, main_v155, main_v156, main_v157, main_v158, main_v159, main_v160, main_v161]
theorem hostOps3_writes : (hostOps3 : List (HloOp τ sig (Elt F))).Forall fun op => op.writes ⊆ (hostOps3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- The references host stretch 4's operations write. -/
abbrev hostOps4_W : List (Ref sig .tc) := [main_v163, main_v164, main_v165, main_v166, main_v167, main_v168, main_v169, main_v170, main_v171, main_v172, main_v173, main_v174, main_v175, main_v176, main_v177, main_v178, main_v179, main_v180, main_v181, main_v182, main_c_26, main_v183, main_v184, main_c_27, main_v185, main_v186, main_v187, main_v188, main_v189, main_c_28, main_v190, main_v191, main_c_29, main_v192, main_v193, main_v194, main_v195, main_v196, main_v197, main_v198, main_v199]
theorem hostOps4_writes : (hostOps4 : List (HloOp τ sig (Elt F))).Forall fun op => op.writes ⊆ (hostOps4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- The references host stretch 5's operations write. -/
abbrev hostOps5_W : List (Ref sig .tc) := [main_cst_30, main_v201, main_v202, main_v203, main_cst_31, main_v204, main_cst_32, main_v205, main_v206, main_v207, main_cst_33, main_v208, main_v209, main_v210, main_v211, main_cst_34, main_v212, main_cst_35, main_v213, main_v214, main_v215, main_v216, main_v217, main_v218, main_cst_36, main_v219, main_cst_37, main_v220, main_v221, main_v222, main_v223, main_v224, main_cst_38, main_v225, main_v226, main_v227, main_v228, main_v229, main_v230, main_v231, main_v232, main_v233, main_v234, main_v235, main_v236, main_v237, main_v238, main_v239]
theorem hostOps5_writes : (hostOps5 : List (HloOp τ sig (Elt F))).Forall fun op => op.writes ⊆ (hostOps5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-- The references host stretch 6's operations write. -/
abbrev hostOps6_W : List (Ref sig .tc) := [main_v241, main_v242, main_v243, main_v244, main_v245, main_v246, main_cst_39, main_v247, main_v248, main_cst_40, main_v249, main_v250, main_v251, main_v252, main_v253, main_v254, main_v255, main_cst_41, main_v256, main_v257, main_cst_42, main_v258, main_v259, main_v260, main_v261, main_v262, main_cst_43, main_v263, main_v264, main_v265, main_v266, main_v267, main_v268, main_v269, main_v270, main_v271, main_v272, main_v273, main_v274, main_v275, main_v276, main_cst_44, main_v277, main_v278, main_cst_45, main_v279, main_v280, main_v281, main_v282, main_v283, main_v284, main_v285, main_cst_46, main_v286, main_v287, main_cst_47, main_v288, main_v289, main_v290, main_v291, main_v292, main_cst_48, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_c_49, main_v321, main_v322, main_c_50, main_v323, main_v324, main_v325, main_v326, main_v327, main_c_51, main_v328, main_v329, main_c_52, main_v330, main_v331, main_v332, main_v333, main_v334, main_v335, main_v336, main_v337]
theorem hostOps6_writes : (hostOps6 : List (HloOp τ sig (Elt F))).Forall fun op => op.writes ⊆ (hostOps6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h

/-- The references host stretch 7's operations write. -/
abbrev hostOps7_W : List (Ref sig .tc) := [main_cst_53, main_v339, main_v340, main_v341, main_cst_54, main_v342, main_cst_55, main_v343, main_v344, main_v345, main_cst_56, main_v346, main_v347, main_v348, main_v349, main_cst_57, main_v350, main_cst_58, main_v351, main_v352, main_v353, main_v354, main_v355, main_v356, main_cst_59, main_v357, main_cst_60, main_v358, main_v359, main_v360, main_v361, main_v362, main_cst_61, main_v363, main_v364, main_v365, main_v366, main_v367, main_v368, main_v369, main_v370, main_v371, main_v372, main_v373, main_v374, main_v375, main_v376, main_v377]
theorem hostOps7_writes : (hostOps7 : List (HloOp τ sig (Elt F))).Forall fun op => op.writes ⊆ (hostOps7_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h

/-- The references host stretch 8's operations write. -/
abbrev hostOps8_W : List (Ref sig .tc) := [main_v379, main_v380, main_v381, main_v382, main_v383, main_v384, main_v385, main_v386, main_v387, main_v388, main_v389, main_v390, main_v391, main_v392, main_v393, main_v394, main_v395, main_v396, main_v397, main_v398, main_c_62, main_v399, main_v400, main_c_63, main_v401, main_v402, main_v403, main_v404, main_v405, main_c_64, main_v406, main_v407, main_c_65, main_v408, main_v409, main_v410, main_v411, main_v412, main_v413, main_v414, main_v415]
theorem hostOps8_writes : (hostOps8 : List (HloOp τ sig (Elt F))).Forall fun op => op.writes ⊆ (hostOps8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W17_of (c : Dev nD) (r : Ref sig .tc) (h : r ∉ hostOps8_W) : W17 m ρ c (Proc.devRef .tc r) = W16 m ρ c (Proc.devRef .tc r) :=
  StableHlo.after_of_writes_sub hostOps8 _ hostOps8_writes h

/-- The references host stretch 9's operations write. -/
abbrev hostOps9_W : List (Ref sig .tc) := [main_cst_66, main_v417, main_v418, main_v419, main_cst_67, main_v420, main_cst_68, main_v421, main_v422, main_v423, main_cst_69, main_v424, main_v425, main_v426, main_v427, main_cst_70, main_v428, main_cst_71, main_v429, main_v430, main_v431, main_v432, main_v433, main_v434, main_cst_72, main_v435, main_cst_73, main_v436, main_v437, main_v438, main_v439, main_v440, main_cst_74, main_v441, main_v442, main_v443, main_v444, main_v445, main_v446, main_v447, main_v448, main_v449, main_v450, main_v451, main_v452, main_v453, main_v454, main_v455]
theorem hostOps9_writes : (hostOps9 : List (HloOp τ sig (Elt F))).Forall fun op => op.writes ⊆ (hostOps9_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W19_of (c : Dev nD) (r : Ref sig .tc) (h : r ∉ hostOps9_W) : W19 m ρ c (Proc.devRef .tc r) = W18 m ρ c (Proc.devRef .tc r) :=
  StableHlo.after_of_writes_sub hostOps9 _ hostOps9_writes h

/-- The references host stretch 10's operations write. -/
abbrev hostOps10_W : List (Ref sig .tc) := [main_v457, main_v458, main_v459, main_v460, main_v461, main_v462, main_cst_75, main_v463, main_v464, main_cst_76, main_v465, main_v466, main_v467, main_v468, main_v469, main_v470, main_v471, main_cst_77, main_v472, main_v473, main_cst_78, main_v474, main_v475, main_v476, main_v477, main_v478, main_cst_79, main_v479, main_v480, main_v481, main_v482, main_v483, main_v484, main_v485, main_v486, main_v487, main_v488, main_v489, main_v490, main_v491, main_v492, main_cst_80, main_v493, main_v494, main_cst_81, main_v495, main_v496, main_v497, main_v498, main_v499, main_v500, main_v501, main_cst_82, main_v502, main_v503, main_cst_83, main_v504, main_v505, main_v506, main_v507, main_v508, main_cst_84, main_v509, main_v510, main_v511, main_v512, main_v513, main_v514, main_v515, main_v516, main_v517, main_v518, main_v519, main_v520]
theorem hostOps10_writes : (hostOps10 : List (HloOp τ sig (Elt F))).Forall fun op => op.writes ⊆ (hostOps10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W21_of (c : Dev nD) (r : Ref sig .tc) (h : r ∉ hostOps10_W) : W21 m ρ c (Proc.devRef .tc r) = W20 m ρ c (Proc.devRef .tc r) :=
  StableHlo.after_of_writes_sub hostOps10 _ hostOps10_writes h

/-- The references host stretch 11's operations write. -/
abbrev hostOps11_W : List (Ref sig .tc) := [main_v522]
theorem hostOps11_writes : (hostOps11 : List (HloOp τ sig (Elt F))).Forall fun op => op.writes ⊆ (hostOps11_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W23_of (c : Dev nD) (r : Ref sig .tc) (h : r ∉ hostOps11_W) : W23 m ρ c (Proc.devRef .tc r) = W22 m ρ c (Proc.devRef .tc r) :=
  StableHlo.after_of_writes_sub hostOps11 _ hostOps11_writes h

/-! ## Each argument ends as launched -/

theorem W23_main_arg0 (c : Dev nD) : W23 m ρ c (Proc.devRef .tc main_arg0) = m ((c : Thread nD τ).loc main_arg0) :=
  (W23_of m ρ c main_arg0 (by decide)).trans <|
    (W22_of_ne m ρ c main_arg0 (by decide)).trans <|
    (W21_of m ρ c main_arg0 (by decide)).trans <|
    (W20_of_ne m ρ c main_arg0 (by decide)).trans <|
    (W19_of m ρ c main_arg0 (by decide)).trans <|
    (W18_of_ne m ρ c main_arg0 (by decide)).trans <|
    (W17_of m ρ c main_arg0 (by decide)).trans <|
    (W16_of_ne m ρ c main_arg0 (by decide)).trans <|
    (W15_of m ρ c main_arg0 (by decide)).trans <|
    (W14_of_ne m ρ c main_arg0 (by decide)).trans <|
    (W13_of m ρ c main_arg0 (by decide)).trans <|
    (W12_of_ne m ρ c main_arg0 (by decide)).trans <|
    (W11_of m ρ c main_arg0 (by decide)).trans <|
    (W10_of_ne m ρ c main_arg0 (by decide)).trans <|
    (W9_of m ρ c main_arg0 (by decide)).trans <|
    (W8_of_ne m ρ c main_arg0 (by decide)).trans <|
    (W7_of m ρ c main_arg0 (by decide)).trans <|
    (W6_of_ne m ρ c main_arg0 (by decide)).trans <|
    (W5_of m ρ c main_arg0 (by decide)).trans <|
    (W4_of_ne m ρ c main_arg0 (by decide)).trans <|
    (W3_of m ρ c main_arg0 (by decide)).trans <|
    (W2_of_ne m ρ c main_arg0 (by decide)).trans <|
    (W1_of m ρ c main_arg0 (by decide)).trans <| rfl

theorem W23_main_arg1 (c : Dev nD) : W23 m ρ c (Proc.devRef .tc main_arg1) = m ((c : Thread nD τ).loc main_arg1) :=
  (W23_of m ρ c main_arg1 (by decide)).trans <|
    (W22_of_ne m ρ c main_arg1 (by decide)).trans <|
    (W21_of m ρ c main_arg1 (by decide)).trans <|
    (W20_of_ne m ρ c main_arg1 (by decide)).trans <|
    (W19_of m ρ c main_arg1 (by decide)).trans <|
    (W18_of_ne m ρ c main_arg1 (by decide)).trans <|
    (W17_of m ρ c main_arg1 (by decide)).trans <|
    (W16_of_ne m ρ c main_arg1 (by decide)).trans <|
    (W15_of m ρ c main_arg1 (by decide)).trans <|
    (W14_of_ne m ρ c main_arg1 (by decide)).trans <|
    (W13_of m ρ c main_arg1 (by decide)).trans <|
    (W12_of_ne m ρ c main_arg1 (by decide)).trans <|
    (W11_of m ρ c main_arg1 (by decide)).trans <|
    (W10_of_ne m ρ c main_arg1 (by decide)).trans <|
    (W9_of m ρ c main_arg1 (by decide)).trans <|
    (W8_of_ne m ρ c main_arg1 (by decide)).trans <|
    (W7_of m ρ c main_arg1 (by decide)).trans <|
    (W6_of_ne m ρ c main_arg1 (by decide)).trans <|
    (W5_of m ρ c main_arg1 (by decide)).trans <|
    (W4_of_ne m ρ c main_arg1 (by decide)).trans <|
    (W3_of m ρ c main_arg1 (by decide)).trans <|
    (W2_of_ne m ρ c main_arg1 (by decide)).trans <|
    (W1_of m ρ c main_arg1 (by decide)).trans <| rfl

theorem W23_main_arg2 (c : Dev nD) : W23 m ρ c (Proc.devRef .tc main_arg2) = m ((c : Thread nD τ).loc main_arg2) :=
  (W23_of m ρ c main_arg2 (by decide)).trans <|
    (W22_of_ne m ρ c main_arg2 (by decide)).trans <|
    (W21_of m ρ c main_arg2 (by decide)).trans <|
    (W20_of_ne m ρ c main_arg2 (by decide)).trans <|
    (W19_of m ρ c main_arg2 (by decide)).trans <|
    (W18_of_ne m ρ c main_arg2 (by decide)).trans <|
    (W17_of m ρ c main_arg2 (by decide)).trans <|
    (W16_of_ne m ρ c main_arg2 (by decide)).trans <|
    (W15_of m ρ c main_arg2 (by decide)).trans <|
    (W14_of_ne m ρ c main_arg2 (by decide)).trans <|
    (W13_of m ρ c main_arg2 (by decide)).trans <|
    (W12_of_ne m ρ c main_arg2 (by decide)).trans <|
    (W11_of m ρ c main_arg2 (by decide)).trans <|
    (W10_of_ne m ρ c main_arg2 (by decide)).trans <|
    (W9_of m ρ c main_arg2 (by decide)).trans <|
    (W8_of_ne m ρ c main_arg2 (by decide)).trans <|
    (W7_of m ρ c main_arg2 (by decide)).trans <|
    (W6_of_ne m ρ c main_arg2 (by decide)).trans <|
    (W5_of m ρ c main_arg2 (by decide)).trans <|
    (W4_of_ne m ρ c main_arg2 (by decide)).trans <|
    (W3_of m ρ c main_arg2 (by decide)).trans <|
    (W2_of_ne m ρ c main_arg2 (by decide)).trans <|
    (W1_of m ρ c main_arg2 (by decide)).trans <| rfl

theorem W23_main_arg3 (c : Dev nD) : W23 m ρ c (Proc.devRef .tc main_arg3) = m ((c : Thread nD τ).loc main_arg3) :=
  (W23_of m ρ c main_arg3 (by decide)).trans <|
    (W22_of_ne m ρ c main_arg3 (by decide)).trans <|
    (W21_of m ρ c main_arg3 (by decide)).trans <|
    (W20_of_ne m ρ c main_arg3 (by decide)).trans <|
    (W19_of m ρ c main_arg3 (by decide)).trans <|
    (W18_of_ne m ρ c main_arg3 (by decide)).trans <|
    (W17_of m ρ c main_arg3 (by decide)).trans <|
    (W16_of_ne m ρ c main_arg3 (by decide)).trans <|
    (W15_of m ρ c main_arg3 (by decide)).trans <|
    (W14_of_ne m ρ c main_arg3 (by decide)).trans <|
    (W13_of m ρ c main_arg3 (by decide)).trans <|
    (W12_of_ne m ρ c main_arg3 (by decide)).trans <|
    (W11_of m ρ c main_arg3 (by decide)).trans <|
    (W10_of_ne m ρ c main_arg3 (by decide)).trans <|
    (W9_of m ρ c main_arg3 (by decide)).trans <|
    (W8_of_ne m ρ c main_arg3 (by decide)).trans <|
    (W7_of m ρ c main_arg3 (by decide)).trans <|
    (W6_of_ne m ρ c main_arg3 (by decide)).trans <|
    (W5_of m ρ c main_arg3 (by decide)).trans <|
    (W4_of_ne m ρ c main_arg3 (by decide)).trans <|
    (W3_of m ρ c main_arg3 (by decide)).trans <|
    (W2_of_ne m ρ c main_arg3 (by decide)).trans <|
    (W1_of m ρ c main_arg3 (by decide)).trans <| rfl

theorem W23_main_arg4 (c : Dev nD) : W23 m ρ c (Proc.devRef .tc main_arg4) = m ((c : Thread nD τ).loc main_arg4) :=
  (W23_of m ρ c main_arg4 (by decide)).trans <|
    (W22_of_ne m ρ c main_arg4 (by decide)).trans <|
    (W21_of m ρ c main_arg4 (by decide)).trans <|
    (W20_of_ne m ρ c main_arg4 (by decide)).trans <|
    (W19_of m ρ c main_arg4 (by decide)).trans <|
    (W18_of_ne m ρ c main_arg4 (by decide)).trans <|
    (W17_of m ρ c main_arg4 (by decide)).trans <|
    (W16_of_ne m ρ c main_arg4 (by decide)).trans <|
    (W15_of m ρ c main_arg4 (by decide)).trans <|
    (W14_of_ne m ρ c main_arg4 (by decide)).trans <|
    (W13_of m ρ c main_arg4 (by decide)).trans <|
    (W12_of_ne m ρ c main_arg4 (by decide)).trans <|
    (W11_of m ρ c main_arg4 (by decide)).trans <|
    (W10_of_ne m ρ c main_arg4 (by decide)).trans <|
    (W9_of m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide)).trans <| rfl

theorem W23_main_arg5 (c : Dev nD) : W23 m ρ c (Proc.devRef .tc main_arg5) = m ((c : Thread nD τ).loc main_arg5) :=
  (W23_of m ρ c main_arg5 (by decide)).trans <|
    (W22_of_ne m ρ c main_arg5 (by decide)).trans <|
    (W21_of m ρ c main_arg5 (by decide)).trans <|
    (W20_of_ne m ρ c main_arg5 (by decide)).trans <|
    (W19_of m ρ c main_arg5 (by decide)).trans <|
    (W18_of_ne m ρ c main_arg5 (by decide)).trans <|
    (W17_of m ρ c main_arg5 (by decide)).trans <|
    (W16_of_ne m ρ c main_arg5 (by decide)).trans <|
    (W15_of m ρ c main_arg5 (by decide)).trans <|
    (W14_of_ne m ρ c main_arg5 (by decide)).trans <|
    (W13_of m ρ c main_arg5 (by decide)).trans <|
    (W12_of_ne m ρ c main_arg5 (by decide)).trans <|
    (W11_of m ρ c main_arg5 (by decide)).trans <|
    (W10_of_ne m ρ c main_arg5 (by decide)).trans <|
    (W9_of m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    ((W2_arr m ρ c 1).trans (((dat0 (V1 m ρ) c).arrAt_in 1 rfl _).trans (A_eq0 (V1 m ρ) c 1))).trans <|
    (W1_of m ρ c main_arg5 (by decide)).trans <| rfl

theorem W23_main_arg6 (c : Dev nD) : W23 m ρ c (Proc.devRef .tc main_arg6) = m ((c : Thread nD τ).loc main_arg6) :=
  (W23_of m ρ c main_arg6 (by decide)).trans <|
    (W22_of_ne m ρ c main_arg6 (by decide)).trans <|
    (W21_of m ρ c main_arg6 (by decide)).trans <|
    (W20_of_ne m ρ c main_arg6 (by decide)).trans <|
    (W19_of m ρ c main_arg6 (by decide)).trans <|
    (W18_of_ne m ρ c main_arg6 (by decide)).trans <|
    (W17_of m ρ c main_arg6 (by decide)).trans <|
    (W16_of_ne m ρ c main_arg6 (by decide)).trans <|
    (W15_of m ρ c main_arg6 (by decide)).trans <|
    (W14_of_ne m ρ c main_arg6 (by decide)).trans <|
    (W13_of m ρ c main_arg6 (by decide)).trans <|
    (W12_of_ne m ρ c main_arg6 (by decide)).trans <|
    (W11_of m ρ c main_arg6 (by decide)).trans <|
    (W10_of_ne m ρ c main_arg6 (by decide)).trans <|
    (W9_of m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide)).trans <| rfl

theorem W23_main_arg7 (c : Dev nD) : W23 m ρ c (Proc.devRef .tc main_arg7) = m ((c : Thread nD τ).loc main_arg7) :=
  (W23_of m ρ c main_arg7 (by decide)).trans <|
    (W22_of_ne m ρ c main_arg7 (by decide)).trans <|
    (W21_of m ρ c main_arg7 (by decide)).trans <|
    (W20_of_ne m ρ c main_arg7 (by decide)).trans <|
    (W19_of m ρ c main_arg7 (by decide)).trans <|
    (W18_of_ne m ρ c main_arg7 (by decide)).trans <|
    (W17_of m ρ c main_arg7 (by decide)).trans <|
    (W16_of_ne m ρ c main_arg7 (by decide)).trans <|
    (W15_of m ρ c main_arg7 (by decide)).trans <|
    (W14_of_ne m ρ c main_arg7 (by decide)).trans <|
    (W13_of m ρ c main_arg7 (by decide)).trans <|
    (W12_of_ne m ρ c main_arg7 (by decide)).trans <|
    (W11_of m ρ c main_arg7 (by decide)).trans <|
    (W10_of_ne m ρ c main_arg7 (by decide)).trans <|
    (W9_of m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    ((W2_arr m ρ c 3).trans (((dat0 (V1 m ρ) c).arrAt_in 3 rfl _).trans (A_eq0 (V1 m ρ) c 3))).trans <|
    (W1_of m ρ c main_arg7 (by decide)).trans <| rfl

theorem W23_main_arg8 (c : Dev nD) : W23 m ρ c (Proc.devRef .tc main_arg8) = m ((c : Thread nD τ).loc main_arg8) :=
  (W23_of m ρ c main_arg8 (by decide)).trans <|
    (W22_of_ne m ρ c main_arg8 (by decide)).trans <|
    (W21_of m ρ c main_arg8 (by decide)).trans <|
    (W20_of_ne m ρ c main_arg8 (by decide)).trans <|
    (W19_of m ρ c main_arg8 (by decide)).trans <|
    (W18_of_ne m ρ c main_arg8 (by decide)).trans <|
    (W17_of m ρ c main_arg8 (by decide)).trans <|
    (W16_of_ne m ρ c main_arg8 (by decide)).trans <|
    (W15_of m ρ c main_arg8 (by decide)).trans <|
    (W14_of_ne m ρ c main_arg8 (by decide)).trans <|
    (W13_of m ρ c main_arg8 (by decide)).trans <|
    (W12_of_ne m ρ c main_arg8 (by decide)).trans <|
    (W11_of m ρ c main_arg8 (by decide)).trans <|
    (W10_of_ne m ρ c main_arg8 (by decide)).trans <|
    (W9_of m ρ c main_arg8 (by decide)).trans <|
    (W8_of_ne m ρ c main_arg8 (by decide)).trans <|
    (W7_of m ρ c main_arg8 (by decide)).trans <|
    (W6_of_ne m ρ c main_arg8 (by decide)).trans <|
    (W5_of m ρ c main_arg8 (by decide)).trans <|
    (W4_of_ne m ρ c main_arg8 (by decide)).trans <|
    (W3_of m ρ c main_arg8 (by decide)).trans <|
    (W2_of_ne m ρ c main_arg8 (by decide)).trans <|
    (W1_of m ρ c main_arg8 (by decide)).trans <| rfl

theorem W23_main_arg9 (c : Dev nD) : W23 m ρ c (Proc.devRef .tc main_arg9) = m ((c : Thread nD τ).loc main_arg9) :=
  (W23_of m ρ c main_arg9 (by decide)).trans <|
    (W22_of_ne m ρ c main_arg9 (by decide)).trans <|
    (W21_of m ρ c main_arg9 (by decide)).trans <|
    (W20_of_ne m ρ c main_arg9 (by decide)).trans <|
    (W19_of m ρ c main_arg9 (by decide)).trans <|
    (W18_of_ne m ρ c main_arg9 (by decide)).trans <|
    (W17_of m ρ c main_arg9 (by decide)).trans <|
    (W16_of_ne m ρ c main_arg9 (by decide)).trans <|
    (W15_of m ρ c main_arg9 (by decide)).trans <|
    (W14_of_ne m ρ c main_arg9 (by decide)).trans <|
    (W13_of m ρ c main_arg9 (by decide)).trans <|
    (W12_of_ne m ρ c main_arg9 (by decide)).trans <|
    (W11_of m ρ c main_arg9 (by decide)).trans <|
    (W10_of_ne m ρ c main_arg9 (by decide)).trans <|
    (W9_of m ρ c main_arg9 (by decide)).trans <|
    (W8_of_ne m ρ c main_arg9 (by decide)).trans <|
    (W7_of m ρ c main_arg9 (by decide)).trans <|
    (W6_of_ne m ρ c main_arg9 (by decide)).trans <|
    (W5_of m ρ c main_arg9 (by decide)).trans <|
    (W4_of_ne m ρ c main_arg9 (by decide)).trans <|
    (W3_of m ρ c main_arg9 (by decide)).trans <|
    (W2_of_ne m ρ c main_arg9 (by decide)).trans <|
    (W1_of m ρ c main_arg9 (by decide)).trans <| rfl

theorem W23_main_arg10 (c : Dev nD) : W23 m ρ c (Proc.devRef .tc main_arg10) = m ((c : Thread nD τ).loc main_arg10) :=
  (W23_of m ρ c main_arg10 (by decide)).trans <|
    (W22_of_ne m ρ c main_arg10 (by decide)).trans <|
    (W21_of m ρ c main_arg10 (by decide)).trans <|
    (W20_of_ne m ρ c main_arg10 (by decide)).trans <|
    (W19_of m ρ c main_arg10 (by decide)).trans <|
    (W18_of_ne m ρ c main_arg10 (by decide)).trans <|
    (W17_of m ρ c main_arg10 (by decide)).trans <|
    (W16_of_ne m ρ c main_arg10 (by decide)).trans <|
    (W15_of m ρ c main_arg10 (by decide)).trans <|
    (W14_of_ne m ρ c main_arg10 (by decide)).trans <|
    (W13_of m ρ c main_arg10 (by decide)).trans <|
    (W12_of_ne m ρ c main_arg10 (by decide)).trans <|
    (W11_of m ρ c main_arg10 (by decide)).trans <|
    (W10_of_ne m ρ c main_arg10 (by decide)).trans <|
    (W9_of m ρ c main_arg10 (by decide)).trans <|
    (W8_of_ne m ρ c main_arg10 (by decide)).trans <|
    (W7_of m ρ c main_arg10 (by decide)).trans <|
    (W6_of_ne m ρ c main_arg10 (by decide)).trans <|
    (W5_of m ρ c main_arg10 (by decide)).trans <|
    (W4_of_ne m ρ c main_arg10 (by decide)).trans <|
    (W3_of m ρ c main_arg10 (by decide)).trans <|
    (W2_of_ne m ρ c main_arg10 (by decide)).trans <|
    (W1_of m ρ c main_arg10 (by decide)).trans <| rfl

theorem W23_main_arg11 (c : Dev nD) : W23 m ρ c (Proc.devRef .tc main_arg11) = m ((c : Thread nD τ).loc main_arg11) :=
  (W23_of m ρ c main_arg11 (by decide)).trans <|
    (W22_of_ne m ρ c main_arg11 (by decide)).trans <|
    (W21_of m ρ c main_arg11 (by decide)).trans <|
    (W20_of_ne m ρ c main_arg11 (by decide)).trans <|
    (W19_of m ρ c main_arg11 (by decide)).trans <|
    (W18_of_ne m ρ c main_arg11 (by decide)).trans <|
    (W17_of m ρ c main_arg11 (by decide)).trans <|
    (W16_of_ne m ρ c main_arg11 (by decide)).trans <|
    (W15_of m ρ c main_arg11 (by decide)).trans <|
    (W14_of_ne m ρ c main_arg11 (by decide)).trans <|
    (W13_of m ρ c main_arg11 (by decide)).trans <|
    (W12_of_ne m ρ c main_arg11 (by decide)).trans <|
    (W11_of m ρ c main_arg11 (by decide)).trans <|
    (W10_of_ne m ρ c main_arg11 (by decide)).trans <|
    (W9_of m ρ c main_arg11 (by decide)).trans <|
    (W8_of_ne m ρ c main_arg11 (by decide)).trans <|
    (W7_of m ρ c main_arg11 (by decide)).trans <|
    (W6_of_ne m ρ c main_arg11 (by decide)).trans <|
    (W5_of m ρ c main_arg11 (by decide)).trans <|
    (W4_of_ne m ρ c main_arg11 (by decide)).trans <|
    (W3_of m ρ c main_arg11 (by decide)).trans <|
    (W2_of_ne m ρ c main_arg11 (by decide)).trans <|
    (W1_of m ρ c main_arg11 (by decide)).trans <| rfl

theorem W23_main_arg12 (c : Dev nD) : W23 m ρ c (Proc.devRef .tc main_arg12) = m ((c : Thread nD τ).loc main_arg12) :=
  (W23_of m ρ c main_arg12 (by decide)).trans <|
    (W22_of_ne m ρ c main_arg12 (by decide)).trans <|
    (W21_of m ρ c main_arg12 (by decide)).trans <|
    (W20_of_ne m ρ c main_arg12 (by decide)).trans <|
    (W19_of m ρ c main_arg12 (by decide)).trans <|
    (W18_of_ne m ρ c main_arg12 (by decide)).trans <|
    (W17_of m ρ c main_arg12 (by decide)).trans <|
    (W16_of_ne m ρ c main_arg12 (by decide)).trans <|
    (W15_of m ρ c main_arg12 (by decide)).trans <|
    (W14_of_ne m ρ c main_arg12 (by decide)).trans <|
    (W13_of m ρ c main_arg12 (by decide)).trans <|
    (W12_of_ne m ρ c main_arg12 (by decide)).trans <|
    (W11_of m ρ c main_arg12 (by decide)).trans <|
    (W10_of_ne m ρ c main_arg12 (by decide)).trans <|
    (W9_of m ρ c main_arg12 (by decide)).trans <|
    (W8_of_ne m ρ c main_arg12 (by decide)).trans <|
    (W7_of m ρ c main_arg12 (by decide)).trans <|
    (W6_of_ne m ρ c main_arg12 (by decide)).trans <|
    (W5_of m ρ c main_arg12 (by decide)).trans <|
    (W4_of_ne m ρ c main_arg12 (by decide)).trans <|
    (W3_of m ρ c main_arg12 (by decide)).trans <|
    (W2_of_ne m ρ c main_arg12 (by decide)).trans <|
    (W1_of m ρ c main_arg12 (by decide)).trans <| rfl

theorem W23_main_arg13 (c : Dev nD) : W23 m ρ c (Proc.devRef .tc main_arg13) = m ((c : Thread nD τ).loc main_arg13) :=
  (W23_of m ρ c main_arg13 (by decide)).trans <|
    (W22_of_ne m ρ c main_arg13 (by decide)).trans <|
    (W21_of m ρ c main_arg13 (by decide)).trans <|
    (W20_of_ne m ρ c main_arg13 (by decide)).trans <|
    (W19_of m ρ c main_arg13 (by decide)).trans <|
    (W18_of_ne m ρ c main_arg13 (by decide)).trans <|
    (W17_of m ρ c main_arg13 (by decide)).trans <|
    (W16_of_ne m ρ c main_arg13 (by decide)).trans <|
    (W15_of m ρ c main_arg13 (by decide)).trans <|
    (W14_of_ne m ρ c main_arg13 (by decide)).trans <|
    (W13_of m ρ c main_arg13 (by decide)).trans <|
    (W12_of_ne m ρ c main_arg13 (by decide)).trans <|
    (W11_of m ρ c main_arg13 (by decide)).trans <|
    (W10_of_ne m ρ c main_arg13 (by decide)).trans <|
    (W9_of m ρ c main_arg13 (by decide)).trans <|
    (W8_of_ne m ρ c main_arg13 (by decide)).trans <|
    (W7_of m ρ c main_arg13 (by decide)).trans <|
    (W6_of_ne m ρ c main_arg13 (by decide)).trans <|
    (W5_of m ρ c main_arg13 (by decide)).trans <|
    ((W4_arr m ρ c 1).trans (((dat1 (V3 m ρ) c).arrAt_in 1 rfl _).trans (A_eq1 (V3 m ρ) c 1))).trans <|
    (W3_of m ρ c main_arg13 (by decide)).trans <|
    (W2_of_ne m ρ c main_arg13 (by decide)).trans <|
    (W1_of m ρ c main_arg13 (by decide)).trans <| rfl

theorem W23_main_arg14 (c : Dev nD) : W23 m ρ c (Proc.devRef .tc main_arg14) = m ((c : Thread nD τ).loc main_arg14) :=
  (W23_of m ρ c main_arg14 (by decide)).trans <|
    (W22_of_ne m ρ c main_arg14 (by decide)).trans <|
    (W21_of m ρ c main_arg14 (by decide)).trans <|
    (W20_of_ne m ρ c main_arg14 (by decide)).trans <|
    (W19_of m ρ c main_arg14 (by decide)).trans <|
    (W18_of_ne m ρ c main_arg14 (by decide)).trans <|
    (W17_of m ρ c main_arg14 (by decide)).trans <|
    (W16_of_ne m ρ c main_arg14 (by decide)).trans <|
    (W15_of m ρ c main_arg14 (by decide)).trans <|
    (W14_of_ne m ρ c main_arg14 (by decide)).trans <|
    (W13_of m ρ c main_arg14 (by decide)).trans <|
    (W12_of_ne m ρ c main_arg14 (by decide)).trans <|
    (W11_of m ρ c main_arg14 (by decide)).trans <|
    (W10_of_ne m ρ c main_arg14 (by decide)).trans <|
    (W9_of m ρ c main_arg14 (by decide)).trans <|
    (W8_of_ne m ρ c main_arg14 (by decide)).trans <|
    (W7_of m ρ c main_arg14 (by decide)).trans <|
    (W6_of_ne m ρ c main_arg14 (by decide)).trans <|
    (W5_of m ρ c main_arg14 (by decide)).trans <|
    (W4_of_ne m ρ c main_arg14 (by decide)).trans <|
    (W3_of m ρ c main_arg14 (by decide)).trans <|
    (W2_of_ne m ρ c main_arg14 (by decide)).trans <|
    (W1_of m ρ c main_arg14 (by decide)).trans <| rfl

theorem W23_main_arg15 (c : Dev nD) : W23 m ρ c (Proc.devRef .tc main_arg15) = m ((c : Thread nD τ).loc main_arg15) :=
  (W23_of m ρ c main_arg15 (by decide)).trans <|
    (W22_of_ne m ρ c main_arg15 (by decide)).trans <|
    (W21_of m ρ c main_arg15 (by decide)).trans <|
    (W20_of_ne m ρ c main_arg15 (by decide)).trans <|
    (W19_of m ρ c main_arg15 (by decide)).trans <|
    (W18_of_ne m ρ c main_arg15 (by decide)).trans <|
    (W17_of m ρ c main_arg15 (by decide)).trans <|
    (W16_of_ne m ρ c main_arg15 (by decide)).trans <|
    (W15_of m ρ c main_arg15 (by decide)).trans <|
    (W14_of_ne m ρ c main_arg15 (by decide)).trans <|
    (W13_of m ρ c main_arg15 (by decide)).trans <|
    (W12_of_ne m ρ c main_arg15 (by decide)).trans <|
    (W11_of m ρ c main_arg15 (by decide)).trans <|
    (W10_of_ne m ρ c main_arg15 (by decide)).trans <|
    (W9_of m ρ c main_arg15 (by decide)).trans <|
    (W8_of_ne m ρ c main_arg15 (by decide)).trans <|
    (W7_of m ρ c main_arg15 (by decide)).trans <|
    (W6_of_ne m ρ c main_arg15 (by decide)).trans <|
    (W5_of m ρ c main_arg15 (by decide)).trans <|
    ((W4_arr m ρ c 3).trans (((dat1 (V3 m ρ) c).arrAt_in 3 rfl _).trans (A_eq1 (V3 m ρ) c 3))).trans <|
    (W3_of m ρ c main_arg15 (by decide)).trans <|
    (W2_of_ne m ρ c main_arg15 (by decide)).trans <|
    (W1_of m ρ c main_arg15 (by decide)).trans <| rfl

theorem W23_main_arg16 (c : Dev nD) : W23 m ρ c (Proc.devRef .tc main_arg16) = m ((c : Thread nD τ).loc main_arg16) :=
  (W23_of m ρ c main_arg16 (by decide)).trans <|
    (W22_of_ne m ρ c main_arg16 (by decide)).trans <|
    (W21_of m ρ c main_arg16 (by decide)).trans <|
    (W20_of_ne m ρ c main_arg16 (by decide)).trans <|
    (W19_of m ρ c main_arg16 (by decide)).trans <|
    (W18_of_ne m ρ c main_arg16 (by decide)).trans <|
    (W17_of m ρ c main_arg16 (by decide)).trans <|
    (W16_of_ne m ρ c main_arg16 (by decide)).trans <|
    (W15_of m ρ c main_arg16 (by decide)).trans <|
    (W14_of_ne m ρ c main_arg16 (by decide)).trans <|
    (W13_of m ρ c main_arg16 (by decide)).trans <|
    (W12_of_ne m ρ c main_arg16 (by decide)).trans <|
    (W11_of m ρ c main_arg16 (by decide)).trans <|
    (W10_of_ne m ρ c main_arg16 (by decide)).trans <|
    (W9_of m ρ c main_arg16 (by decide)).trans <|
    (W8_of_ne m ρ c main_arg16 (by decide)).trans <|
    (W7_of m ρ c main_arg16 (by decide)).trans <|
    (W6_of_ne m ρ c main_arg16 (by decide)).trans <|
    (W5_of m ρ c main_arg16 (by decide)).trans <|
    (W4_of_ne m ρ c main_arg16 (by decide)).trans <|
    (W3_of m ρ c main_arg16 (by decide)).trans <|
    (W2_of_ne m ρ c main_arg16 (by decide)).trans <|
    (W1_of m ρ c main_arg16 (by decide)).trans <| rfl

theorem W23_main_arg17 (c : Dev nD) : W23 m ρ c (Proc.devRef .tc main_arg17) = m ((c : Thread nD τ).loc main_arg17) :=
  (W23_of m ρ c main_arg17 (by decide)).trans <|
    (W22_of_ne m ρ c main_arg17 (by decide)).trans <|
    (W21_of m ρ c main_arg17 (by decide)).trans <|
    (W20_of_ne m ρ c main_arg17 (by decide)).trans <|
    (W19_of m ρ c main_arg17 (by decide)).trans <|
    (W18_of_ne m ρ c main_arg17 (by decide)).trans <|
    (W17_of m ρ c main_arg17 (by decide)).trans <|
    (W16_of_ne m ρ c main_arg17 (by decide)).trans <|
    (W15_of m ρ c main_arg17 (by decide)).trans <|
    (W14_of_ne m ρ c main_arg17 (by decide)).trans <|
    (W13_of m ρ c main_arg17 (by decide)).trans <|
    (W12_of_ne m ρ c main_arg17 (by decide)).trans <|
    (W11_of m ρ c main_arg17 (by decide)).trans <|
    (W10_of_ne m ρ c main_arg17 (by decide)).trans <|
    (W9_of m ρ c main_arg17 (by decide)).trans <|
    (W8_of_ne m ρ c main_arg17 (by decide)).trans <|
    (W7_of m ρ c main_arg17 (by decide)).trans <|
    (W6_of_ne m ρ c main_arg17 (by decide)).trans <|
    (W5_of m ρ c main_arg17 (by decide)).trans <|
    (W4_of_ne m ρ c main_arg17 (by decide)).trans <|
    (W3_of m ρ c main_arg17 (by decide)).trans <|
    (W2_of_ne m ρ c main_arg17 (by decide)).trans <|
    (W1_of m ρ c main_arg17 (by decide)).trans <| rfl

theorem W23_main_arg18 (c : Dev nD) : W23 m ρ c (Proc.devRef .tc main_arg18) = m ((c : Thread nD τ).loc main_arg18) :=
  (W23_of m ρ c main_arg18 (by decide)).trans <|
    (W22_of_ne m ρ c main_arg18 (by decide)).trans <|
    (W21_of m ρ c main_arg18 (by decide)).trans <|
    (W20_of_ne m ρ c main_arg18 (by decide)).trans <|
    (W19_of m ρ c main_arg18 (by decide)).trans <|
    (W18_of_ne m ρ c main_arg18 (by decide)).trans <|
    (W17_of m ρ c main_arg18 (by decide)).trans <|
    (W16_of_ne m ρ c main_arg18 (by decide)).trans <|
    (W15_of m ρ c main_arg18 (by decide)).trans <|
    (W14_of_ne m ρ c main_arg18 (by decide)).trans <|
    (W13_of m ρ c main_arg18 (by decide)).trans <|
    (W12_of_ne m ρ c main_arg18 (by decide)).trans <|
    (W11_of m ρ c main_arg18 (by decide)).trans <|
    (W10_of_ne m ρ c main_arg18 (by decide)).trans <|
    (W9_of m ρ c main_arg18 (by decide)).trans <|
    (W8_of_ne m ρ c main_arg18 (by decide)).trans <|
    (W7_of m ρ c main_arg18 (by decide)).trans <|
    (W6_of_ne m ρ c main_arg18 (by decide)).trans <|
    (W5_of m ρ c main_arg18 (by decide)).trans <|
    (W4_of_ne m ρ c main_arg18 (by decide)).trans <|
    (W3_of m ρ c main_arg18 (by decide)).trans <|
    (W2_of_ne m ρ c main_arg18 (by decide)).trans <|
    (W1_of m ρ c main_arg18 (by decide)).trans <| rfl

theorem W23_main_arg19 (c : Dev nD) : W23 m ρ c (Proc.devRef .tc main_arg19) = m ((c : Thread nD τ).loc main_arg19) :=
  (W23_of m ρ c main_arg19 (by decide)).trans <|
    (W22_of_ne m ρ c main_arg19 (by decide)).trans <|
    (W21_of m ρ c main_arg19 (by decide)).trans <|
    (W20_of_ne m ρ c main_arg19 (by decide)).trans <|
    (W19_of m ρ c main_arg19 (by decide)).trans <|
    (W18_of_ne m ρ c main_arg19 (by decide)).trans <|
    (W17_of m ρ c main_arg19 (by decide)).trans <|
    (W16_of_ne m ρ c main_arg19 (by decide)).trans <|
    (W15_of m ρ c main_arg19 (by decide)).trans <|
    (W14_of_ne m ρ c main_arg19 (by decide)).trans <|
    (W13_of m ρ c main_arg19 (by decide)).trans <|
    (W12_of_ne m ρ c main_arg19 (by decide)).trans <|
    (W11_of m ρ c main_arg19 (by decide)).trans <|
    (W10_of_ne m ρ c main_arg19 (by decide)).trans <|
    (W9_of m ρ c main_arg19 (by decide)).trans <|
    (W8_of_ne m ρ c main_arg19 (by decide)).trans <|
    (W7_of m ρ c main_arg19 (by decide)).trans <|
    (W6_of_ne m ρ c main_arg19 (by decide)).trans <|
    (W5_of m ρ c main_arg19 (by decide)).trans <|
    (W4_of_ne m ρ c main_arg19 (by decide)).trans <|
    (W3_of m ρ c main_arg19 (by decide)).trans <|
    (W2_of_ne m ρ c main_arg19 (by decide)).trans <|
    (W1_of m ρ c main_arg19 (by decide)).trans <| rfl

theorem W23_main_arg20 (c : Dev nD) : W23 m ρ c (Proc.devRef .tc main_arg20) = m ((c : Thread nD τ).loc main_arg20) :=
  (W23_of m ρ c main_arg20 (by decide)).trans <|
    (W22_of_ne m ρ c main_arg20 (by decide)).trans <|
    (W21_of m ρ c main_arg20 (by decide)).trans <|
    (W20_of_ne m ρ c main_arg20 (by decide)).trans <|
    (W19_of m ρ c main_arg20 (by decide)).trans <|
    (W18_of_ne m ρ c main_arg20 (by decide)).trans <|
    (W17_of m ρ c main_arg20 (by decide)).trans <|
    (W16_of_ne m ρ c main_arg20 (by decide)).trans <|
    (W15_of m ρ c main_arg20 (by decide)).trans <|
    (W14_of_ne m ρ c main_arg20 (by decide)).trans <|
    (W13_of m ρ c main_arg20 (by decide)).trans <|
    (W12_of_ne m ρ c main_arg20 (by decide)).trans <|
    (W11_of m ρ c main_arg20 (by decide)).trans <|
    (W10_of_ne m ρ c main_arg20 (by decide)).trans <|
    (W9_of m ρ c main_arg20 (by decide)).trans <|
    (W8_of_ne m ρ c main_arg20 (by decide)).trans <|
    (W7_of m ρ c main_arg20 (by decide)).trans <|
    (W6_of_ne m ρ c main_arg20 (by decide)).trans <|
    (W5_of m ρ c main_arg20 (by decide)).trans <|
    (W4_of_ne m ρ c main_arg20 (by decide)).trans <|
    (W3_of m ρ c main_arg20 (by decide)).trans <|
    (W2_of_ne m ρ c main_arg20 (by decide)).trans <|
    (W1_of m ρ c main_arg20 (by decide)).trans <| rfl

theorem W23_main_arg21 (c : Dev nD) : W23 m ρ c (Proc.devRef .tc main_arg21) = m ((c : Thread nD τ).loc main_arg21) :=
  (W23_of m ρ c main_arg21 (by decide)).trans <|
    (W22_of_ne m ρ c main_arg21 (by decide)).trans <|
    (W21_of m ρ c main_arg21 (by decide)).trans <|
    (W20_of_ne m ρ c main_arg21 (by decide)).trans <|
    (W19_of m ρ c main_arg21 (by decide)).trans <|
    (W18_of_ne m ρ c main_arg21 (by decide)).trans <|
    (W17_of m ρ c main_arg21 (by decide)).trans <|
    (W16_of_ne m ρ c main_arg21 (by decide)).trans <|
    (W15_of m ρ c main_arg21 (by decide)).trans <|
    (W14_of_ne m ρ c main_arg21 (by decide)).trans <|
    (W13_of m ρ c main_arg21 (by decide)).trans <|
    (W12_of_ne m ρ c main_arg21 (by decide)).trans <|
    (W11_of m ρ c main_arg21 (by decide)).trans <|
    (W10_of_ne m ρ c main_arg21 (by decide)).trans <|
    (W9_of m ρ c main_arg21 (by decide)).trans <|
    (W8_of_ne m ρ c main_arg21 (by decide)).trans <|
    (W7_of m ρ c main_arg21 (by decide)).trans <|
    (W6_of_ne m ρ c main_arg21 (by decide)).trans <|
    (W5_of m ρ c main_arg21 (by decide)).trans <|
    (W4_of_ne m ρ c main_arg21 (by decide)).trans <|
    (W3_of m ρ c main_arg21 (by decide)).trans <|
    (W2_of_ne m ρ c main_arg21 (by decide)).trans <|
    (W1_of m ρ c main_arg21 (by decide)).trans <| rfl

theorem W23_main_arg22 (c : Dev nD) : W23 m ρ c (Proc.devRef .tc main_arg22) = m ((c : Thread nD τ).loc main_arg22) :=
  (W23_of m ρ c main_arg22 (by decide)).trans <|
    (W22_of_ne m ρ c main_arg22 (by decide)).trans <|
    (W21_of m ρ c main_arg22 (by decide)).trans <|
    (W20_of_ne m ρ c main_arg22 (by decide)).trans <|
    (W19_of m ρ c main_arg22 (by decide)).trans <|
    (W18_of_ne m ρ c main_arg22 (by decide)).trans <|
    (W17_of m ρ c main_arg22 (by decide)).trans <|
    (W16_of_ne m ρ c main_arg22 (by decide)).trans <|
    (W15_of m ρ c main_arg22 (by decide)).trans <|
    (W14_of_ne m ρ c main_arg22 (by decide)).trans <|
    (W13_of m ρ c main_arg22 (by decide)).trans <|
    (W12_of_ne m ρ c main_arg22 (by decide)).trans <|
    (W11_of m ρ c main_arg22 (by decide)).trans <|
    (W10_of_ne m ρ c main_arg22 (by decide)).trans <|
    (W9_of m ρ c main_arg22 (by decide)).trans <|
    (W8_of_ne m ρ c main_arg22 (by decide)).trans <|
    (W7_of m ρ c main_arg22 (by decide)).trans <|
    (W6_of_ne m ρ c main_arg22 (by decide)).trans <|
    (W5_of m ρ c main_arg22 (by decide)).trans <|
    (W4_of_ne m ρ c main_arg22 (by decide)).trans <|
    (W3_of m ρ c main_arg22 (by decide)).trans <|
    (W2_of_ne m ρ c main_arg22 (by decide)).trans <|
    (W1_of m ρ c main_arg22 (by decide)).trans <| rfl

theorem W23_main_arg23 (c : Dev nD) : W23 m ρ c (Proc.devRef .tc main_arg23) = m ((c : Thread nD τ).loc main_arg23) :=
  (W23_of m ρ c main_arg23 (by decide)).trans <|
    (W22_of_ne m ρ c main_arg23 (by decide)).trans <|
    (W21_of m ρ c main_arg23 (by decide)).trans <|
    (W20_of_ne m ρ c main_arg23 (by decide)).trans <|
    (W19_of m ρ c main_arg23 (by decide)).trans <|
    (W18_of_ne m ρ c main_arg23 (by decide)).trans <|
    (W17_of m ρ c main_arg23 (by decide)).trans <|
    (W16_of_ne m ρ c main_arg23 (by decide)).trans <|
    (W15_of m ρ c main_arg23 (by decide)).trans <|
    (W14_of_ne m ρ c main_arg23 (by decide)).trans <|
    (W13_of m ρ c main_arg23 (by decide)).trans <|
    (W12_of_ne m ρ c main_arg23 (by decide)).trans <|
    (W11_of m ρ c main_arg23 (by decide)).trans <|
    (W10_of_ne m ρ c main_arg23 (by decide)).trans <|
    (W9_of m ρ c main_arg23 (by decide)).trans <|
    (W8_of_ne m ρ c main_arg23 (by decide)).trans <|
    (W7_of m ρ c main_arg23 (by decide)).trans <|
    (W6_of_ne m ρ c main_arg23 (by decide)).trans <|
    (W5_of m ρ c main_arg23 (by decide)).trans <|
    (W4_of_ne m ρ c main_arg23 (by decide)).trans <|
    (W3_of m ρ c main_arg23 (by decide)).trans <|
    (W2_of_ne m ρ c main_arg23 (by decide)).trans <|
    (W1_of m ρ c main_arg23 (by decide)).trans <| rfl

theorem W23_main_arg24 (c : Dev nD) : W23 m ρ c (Proc.devRef .tc main_arg24) = m ((c : Thread nD τ).loc main_arg24) :=
  (W23_of m ρ c main_arg24 (by decide)).trans <|
    (W22_of_ne m ρ c main_arg24 (by decide)).trans <|
    (W21_of m ρ c main_arg24 (by decide)).trans <|
    (W20_of_ne m ρ c main_arg24 (by decide)).trans <|
    (W19_of m ρ c main_arg24 (by decide)).trans <|
    (W18_of_ne m ρ c main_arg24 (by decide)).trans <|
    (W17_of m ρ c main_arg24 (by decide)).trans <|
    (W16_of_ne m ρ c main_arg24 (by decide)).trans <|
    (W15_of m ρ c main_arg24 (by decide)).trans <|
    (W14_of_ne m ρ c main_arg24 (by decide)).trans <|
    (W13_of m ρ c main_arg24 (by decide)).trans <|
    (W12_of_ne m ρ c main_arg24 (by decide)).trans <|
    (W11_of m ρ c main_arg24 (by decide)).trans <|
    (W10_of_ne m ρ c main_arg24 (by decide)).trans <|
    (W9_of m ρ c main_arg24 (by decide)).trans <|
    (W8_of_ne m ρ c main_arg24 (by decide)).trans <|
    (W7_of m ρ c main_arg24 (by decide)).trans <|
    (W6_of_ne m ρ c main_arg24 (by decide)).trans <|
    (W5_of m ρ c main_arg24 (by decide)).trans <|
    (W4_of_ne m ρ c main_arg24 (by decide)).trans <|
    (W3_of m ρ c main_arg24 (by decide)).trans <|
    (W2_of_ne m ρ c main_arg24 (by decide)).trans <|
    (W1_of m ρ c main_arg24 (by decide)).trans <| rfl

theorem W23_main_arg25 (c : Dev nD) : W23 m ρ c (Proc.devRef .tc main_arg25) = m ((c : Thread nD τ).loc main_arg25) :=
  (W23_of m ρ c main_arg25 (by decide)).trans <|
    (W22_of_ne m ρ c main_arg25 (by decide)).trans <|
    (W21_of m ρ c main_arg25 (by decide)).trans <|
    (W20_of_ne m ρ c main_arg25 (by decide)).trans <|
    (W19_of m ρ c main_arg25 (by decide)).trans <|
    (W18_of_ne m ρ c main_arg25 (by decide)).trans <|
    (W17_of m ρ c main_arg25 (by decide)).trans <|
    (W16_of_ne m ρ c main_arg25 (by decide)).trans <|
    (W15_of m ρ c main_arg25 (by decide)).trans <|
    (W14_of_ne m ρ c main_arg25 (by decide)).trans <|
    (W13_of m ρ c main_arg25 (by decide)).trans <|
    (W12_of_ne m ρ c main_arg25 (by decide)).trans <|
    (W11_of m ρ c main_arg25 (by decide)).trans <|
    (W10_of_ne m ρ c main_arg25 (by decide)).trans <|
    (W9_of m ρ c main_arg25 (by decide)).trans <|
    (W8_of_ne m ρ c main_arg25 (by decide)).trans <|
    (W7_of m ρ c main_arg25 (by decide)).trans <|
    (W6_of_ne m ρ c main_arg25 (by decide)).trans <|
    (W5_of m ρ c main_arg25 (by decide)).trans <|
    (W4_of_ne m ρ c main_arg25 (by decide)).trans <|
    (W3_of m ρ c main_arg25 (by decide)).trans <|
    (W2_of_ne m ρ c main_arg25 (by decide)).trans <|
    (W1_of m ρ c main_arg25 (by decide)).trans <| rfl

theorem W23_main_arg26 (c : Dev nD) : W23 m ρ c (Proc.devRef .tc main_arg26) = m ((c : Thread nD τ).loc main_arg26) :=
  (W23_of m ρ c main_arg26 (by decide)).trans <|
    (W22_of_ne m ρ c main_arg26 (by decide)).trans <|
    (W21_of m ρ c main_arg26 (by decide)).trans <|
    (W20_of_ne m ρ c main_arg26 (by decide)).trans <|
    (W19_of m ρ c main_arg26 (by decide)).trans <|
    (W18_of_ne m ρ c main_arg26 (by decide)).trans <|
    (W17_of m ρ c main_arg26 (by decide)).trans <|
    (W16_of_ne m ρ c main_arg26 (by decide)).trans <|
    (W15_of m ρ c main_arg26 (by decide)).trans <|
    (W14_of_ne m ρ c main_arg26 (by decide)).trans <|
    (W13_of m ρ c main_arg26 (by decide)).trans <|
    (W12_of_ne m ρ c main_arg26 (by decide)).trans <|
    (W11_of m ρ c main_arg26 (by decide)).trans <|
    (W10_of_ne m ρ c main_arg26 (by decide)).trans <|
    (W9_of m ρ c main_arg26 (by decide)).trans <|
    (W8_of_ne m ρ c main_arg26 (by decide)).trans <|
    (W7_of m ρ c main_arg26 (by decide)).trans <|
    (W6_of_ne m ρ c main_arg26 (by decide)).trans <|
    (W5_of m ρ c main_arg26 (by decide)).trans <|
    (W4_of_ne m ρ c main_arg26 (by decide)).trans <|
    (W3_of m ρ c main_arg26 (by decide)).trans <|
    (W2_of_ne m ρ c main_arg26 (by decide)).trans <|
    (W1_of m ρ c main_arg26 (by decide)).trans <| rfl

theorem W23_main_arg27 (c : Dev nD) : W23 m ρ c (Proc.devRef .tc main_arg27) = m ((c : Thread nD τ).loc main_arg27) :=
  (W23_of m ρ c main_arg27 (by decide)).trans <|
    (W22_of_ne m ρ c main_arg27 (by decide)).trans <|
    (W21_of m ρ c main_arg27 (by decide)).trans <|
    (W20_of_ne m ρ c main_arg27 (by decide)).trans <|
    (W19_of m ρ c main_arg27 (by decide)).trans <|
    (W18_of_ne m ρ c main_arg27 (by decide)).trans <|
    (W17_of m ρ c main_arg27 (by decide)).trans <|
    (W16_of_ne m ρ c main_arg27 (by decide)).trans <|
    (W15_of m ρ c main_arg27 (by decide)).trans <|
    (W14_of_ne m ρ c main_arg27 (by decide)).trans <|
    (W13_of m ρ c main_arg27 (by decide)).trans <|
    (W12_of_ne m ρ c main_arg27 (by decide)).trans <|
    (W11_of m ρ c main_arg27 (by decide)).trans <|
    (W10_of_ne m ρ c main_arg27 (by decide)).trans <|
    (W9_of m ρ c main_arg27 (by decide)).trans <|
    (W8_of_ne m ρ c main_arg27 (by decide)).trans <|
    (W7_of m ρ c main_arg27 (by decide)).trans <|
    (W6_of_ne m ρ c main_arg27 (by decide)).trans <|
    (W5_of m ρ c main_arg27 (by decide)).trans <|
    (W4_of_ne m ρ c main_arg27 (by decide)).trans <|
    (W3_of m ρ c main_arg27 (by decide)).trans <|
    (W2_of_ne m ρ c main_arg27 (by decide)).trans <|
    (W1_of m ρ c main_arg27 (by decide)).trans <| rfl

theorem W23_main_arg28 (c : Dev nD) : W23 m ρ c (Proc.devRef .tc main_arg28) = m ((c : Thread nD τ).loc main_arg28) :=
  (W23_of m ρ c main_arg28 (by decide)).trans <|
    (W22_of_ne m ρ c main_arg28 (by decide)).trans <|
    (W21_of m ρ c main_arg28 (by decide)).trans <|
    (W20_of_ne m ρ c main_arg28 (by decide)).trans <|
    (W19_of m ρ c main_arg28 (by decide)).trans <|
    (W18_of_ne m ρ c main_arg28 (by decide)).trans <|
    (W17_of m ρ c main_arg28 (by decide)).trans <|
    (W16_of_ne m ρ c main_arg28 (by decide)).trans <|
    (W15_of m ρ c main_arg28 (by decide)).trans <|
    (W14_of_ne m ρ c main_arg28 (by decide)).trans <|
    (W13_of m ρ c main_arg28 (by decide)).trans <|
    (W12_of_ne m ρ c main_arg28 (by decide)).trans <|
    (W11_of m ρ c main_arg28 (by decide)).trans <|
    (W10_of_ne m ρ c main_arg28 (by decide)).trans <|
    (W9_of m ρ c main_arg28 (by decide)).trans <|
    (W8_of_ne m ρ c main_arg28 (by decide)).trans <|
    (W7_of m ρ c main_arg28 (by decide)).trans <|
    (W6_of_ne m ρ c main_arg28 (by decide)).trans <|
    (W5_of m ρ c main_arg28 (by decide)).trans <|
    (W4_of_ne m ρ c main_arg28 (by decide)).trans <|
    (W3_of m ρ c main_arg28 (by decide)).trans <|
    (W2_of_ne m ρ c main_arg28 (by decide)).trans <|
    (W1_of m ρ c main_arg28 (by decide)).trans <| rfl

theorem W23_main_arg29 (c : Dev nD) : W23 m ρ c (Proc.devRef .tc main_arg29) = m ((c : Thread nD τ).loc main_arg29) :=
  (W23_of m ρ c main_arg29 (by decide)).trans <|
    (W22_of_ne m ρ c main_arg29 (by decide)).trans <|
    (W21_of m ρ c main_arg29 (by decide)).trans <|
    (W20_of_ne m ρ c main_arg29 (by decide)).trans <|
    (W19_of m ρ c main_arg29 (by decide)).trans <|
    (W18_of_ne m ρ c main_arg29 (by decide)).trans <|
    (W17_of m ρ c main_arg29 (by decide)).trans <|
    (W16_of_ne m ρ c main_arg29 (by decide)).trans <|
    (W15_of m ρ c main_arg29 (by decide)).trans <|
    (W14_of_ne m ρ c main_arg29 (by decide)).trans <|
    (W13_of m ρ c main_arg29 (by decide)).trans <|
    (W12_of_ne m ρ c main_arg29 (by decide)).trans <|
    (W11_of m ρ c main_arg29 (by decide)).trans <|
    (W10_of_ne m ρ c main_arg29 (by decide)).trans <|
    (W9_of m ρ c main_arg29 (by decide)).trans <|
    (W8_of_ne m ρ c main_arg29 (by decide)).trans <|
    (W7_of m ρ c main_arg29 (by decide)).trans <|
    (W6_of_ne m ρ c main_arg29 (by decide)).trans <|
    (W5_of m ρ c main_arg29 (by decide)).trans <|
    (W4_of_ne m ρ c main_arg29 (by decide)).trans <|
    (W3_of m ρ c main_arg29 (by decide)).trans <|
    (W2_of_ne m ρ c main_arg29 (by decide)).trans <|
    (W1_of m ρ c main_arg29 (by decide)).trans <| rfl

theorem W23_main_arg30 (c : Dev nD) : W23 m ρ c (Proc.devRef .tc main_arg30) = m ((c : Thread nD τ).loc main_arg30) :=
  (W23_of m ρ c main_arg30 (by decide)).trans <|
    ((W22_arr m ρ c 1).trans (((dat10 (V21 m ρ) c).arrAt_in 1 rfl _).trans (A_eq10 (V21 m ρ) c 1))).trans <|
    (W21_of m ρ c main_arg30 (by decide)).trans <|
    (W20_of_ne m ρ c main_arg30 (by decide)).trans <|
    (W19_of m ρ c main_arg30 (by decide)).trans <|
    (W18_of_ne m ρ c main_arg30 (by decide)).trans <|
    (W17_of m ρ c main_arg30 (by decide)).trans <|
    (W16_of_ne m ρ c main_arg30 (by decide)).trans <|
    (W15_of m ρ c main_arg30 (by decide)).trans <|
    (W14_of_ne m ρ c main_arg30 (by decide)).trans <|
    (W13_of m ρ c main_arg30 (by decide)).trans <|
    (W12_of_ne m ρ c main_arg30 (by decide)).trans <|
    (W11_of m ρ c main_arg30 (by decide)).trans <|
    (W10_of_ne m ρ c main_arg30 (by decide)).trans <|
    (W9_of m ρ c main_arg30 (by decide)).trans <|
    (W8_of_ne m ρ c main_arg30 (by decide)).trans <|
    (W7_of m ρ c main_arg30 (by decide)).trans <|
    (W6_of_ne m ρ c main_arg30 (by decide)).trans <|
    (W5_of m ρ c main_arg30 (by decide)).trans <|
    (W4_of_ne m ρ c main_arg30 (by decide)).trans <|
    (W3_of m ρ c main_arg30 (by decide)).trans <|
    (W2_of_ne m ρ c main_arg30 (by decide)).trans <|
    (W1_of m ρ c main_arg30 (by decide)).trans <| rfl

theorem W23_main_arg31 (c : Dev nD) : W23 m ρ c (Proc.devRef .tc main_arg31) = m ((c : Thread nD τ).loc main_arg31) :=
  (W23_of m ρ c main_arg31 (by decide)).trans <|
    (W22_of_ne m ρ c main_arg31 (by decide)).trans <|
    (W21_of m ρ c main_arg31 (by decide)).trans <|
    (W20_of_ne m ρ c main_arg31 (by decide)).trans <|
    (W19_of m ρ c main_arg31 (by decide)).trans <|
    (W18_of_ne m ρ c main_arg31 (by decide)).trans <|
    (W17_of m ρ c main_arg31 (by decide)).trans <|
    (W16_of_ne m ρ c main_arg31 (by decide)).trans <|
    (W15_of m ρ c main_arg31 (by decide)).trans <|
    (W14_of_ne m ρ c main_arg31 (by decide)).trans <|
    (W13_of m ρ c main_arg31 (by decide)).trans <|
    (W12_of_ne m ρ c main_arg31 (by decide)).trans <|
    (W11_of m ρ c main_arg31 (by decide)).trans <|
    (W10_of_ne m ρ c main_arg31 (by decide)).trans <|
    (W9_of m ρ c main_arg31 (by decide)).trans <|
    (W8_of_ne m ρ c main_arg31 (by decide)).trans <|
    (W7_of m ρ c main_arg31 (by decide)).trans <|
    (W6_of_ne m ρ c main_arg31 (by decide)).trans <|
    (W5_of m ρ c main_arg31 (by decide)).trans <|
    (W4_of_ne m ρ c main_arg31 (by decide)).trans <|
    (W3_of m ρ c main_arg31 (by decide)).trans <|
    (W2_of_ne m ρ c main_arg31 (by decide)).trans <|
    (W1_of m ρ c main_arg31 (by decide)).trans <| rfl

theorem W23_main_arg32 (c : Dev nD) : W23 m ρ c (Proc.devRef .tc main_arg32) = m ((c : Thread nD τ).loc main_arg32) :=
  (W23_of m ρ c main_arg32 (by decide)).trans <|
    ((W22_arr m ρ c 3).trans (((dat10 (V21 m ρ) c).arrAt_in 3 rfl _).trans (A_eq10 (V21 m ρ) c 3))).trans <|
    (W21_of m ρ c main_arg32 (by decide)).trans <|
    (W20_of_ne m ρ c main_arg32 (by decide)).trans <|
    (W19_of m ρ c main_arg32 (by decide)).trans <|
    (W18_of_ne m ρ c main_arg32 (by decide)).trans <|
    (W17_of m ρ c main_arg32 (by decide)).trans <|
    (W16_of_ne m ρ c main_arg32 (by decide)).trans <|
    (W15_of m ρ c main_arg32 (by decide)).trans <|
    (W14_of_ne m ρ c main_arg32 (by decide)).trans <|
    (W13_of m ρ c main_arg32 (by decide)).trans <|
    (W12_of_ne m ρ c main_arg32 (by decide)).trans <|
    (W11_of m ρ c main_arg32 (by decide)).trans <|
    (W10_of_ne m ρ c main_arg32 (by decide)).trans <|
    (W9_of m ρ c main_arg32 (by decide)).trans <|
    (W8_of_ne m ρ c main_arg32 (by decide)).trans <|
    (W7_of m ρ c main_arg32 (by decide)).trans <|
    (W6_of_ne m ρ c main_arg32 (by decide)).trans <|
    (W5_of m ρ c main_arg32 (by decide)).trans <|
    (W4_of_ne m ρ c main_arg32 (by decide)).trans <|
    (W3_of m ρ c main_arg32 (by decide)).trans <|
    (W2_of_ne m ρ c main_arg32 (by decide)).trans <|
    (W1_of m ρ c main_arg32 (by decide)).trans <| rfl

theorem W23_main_arg33 (c : Dev nD) : W23 m ρ c (Proc.devRef .tc main_arg33) = m ((c : Thread nD τ).loc main_arg33) :=
  (W23_of m ρ c main_arg33 (by decide)).trans <|
    (W22_of_ne m ρ c main_arg33 (by decide)).trans <|
    (W21_of m ρ c main_arg33 (by decide)).trans <|
    (W20_of_ne m ρ c main_arg33 (by decide)).trans <|
    (W19_of m ρ c main_arg33 (by decide)).trans <|
    (W18_of_ne m ρ c main_arg33 (by decide)).trans <|
    (W17_of m ρ c main_arg33 (by decide)).trans <|
    (W16_of_ne m ρ c main_arg33 (by decide)).trans <|
    (W15_of m ρ c main_arg33 (by decide)).trans <|
    (W14_of_ne m ρ c main_arg33 (by decide)).trans <|
    (W13_of m ρ c main_arg33 (by decide)).trans <|
    (W12_of_ne m ρ c main_arg33 (by decide)).trans <|
    (W11_of m ρ c main_arg33 (by decide)).trans <|
    (W10_of_ne m ρ c main_arg33 (by decide)).trans <|
    (W9_of m ρ c main_arg33 (by decide)).trans <|
    (W8_of_ne m ρ c main_arg33 (by decide)).trans <|
    (W7_of m ρ c main_arg33 (by decide)).trans <|
    (W6_of_ne m ρ c main_arg33 (by decide)).trans <|
    (W5_of m ρ c main_arg33 (by decide)).trans <|
    (W4_of_ne m ρ c main_arg33 (by decide)).trans <|
    (W3_of m ρ c main_arg33 (by decide)).trans <|
    (W2_of_ne m ρ c main_arg33 (by decide)).trans <|
    (W1_of m ρ c main_arg33 (by decide)).trans <| rfl

theorem W23_main_arg34 (c : Dev nD) : W23 m ρ c (Proc.devRef .tc main_arg34) = m ((c : Thread nD τ).loc main_arg34) :=
  (W23_of m ρ c main_arg34 (by decide)).trans <|
    ((W22_arr m ρ c 5).trans (((dat10 (V21 m ρ) c).arrAt_in 5 rfl _).trans (A_eq10 (V21 m ρ) c 5))).trans <|
    (W21_of m ρ c main_arg34 (by decide)).trans <|
    (W20_of_ne m ρ c main_arg34 (by decide)).trans <|
    (W19_of m ρ c main_arg34 (by decide)).trans <|
    (W18_of_ne m ρ c main_arg34 (by decide)).trans <|
    (W17_of m ρ c main_arg34 (by decide)).trans <|
    (W16_of_ne m ρ c main_arg34 (by decide)).trans <|
    (W15_of m ρ c main_arg34 (by decide)).trans <|
    (W14_of_ne m ρ c main_arg34 (by decide)).trans <|
    (W13_of m ρ c main_arg34 (by decide)).trans <|
    (W12_of_ne m ρ c main_arg34 (by decide)).trans <|
    (W11_of m ρ c main_arg34 (by decide)).trans <|
    (W10_of_ne m ρ c main_arg34 (by decide)).trans <|
    (W9_of m ρ c main_arg34 (by decide)).trans <|
    (W8_of_ne m ρ c main_arg34 (by decide)).trans <|
    (W7_of m ρ c main_arg34 (by decide)).trans <|
    (W6_of_ne m ρ c main_arg34 (by decide)).trans <|
    (W5_of m ρ c main_arg34 (by decide)).trans <|
    (W4_of_ne m ρ c main_arg34 (by decide)).trans <|
    (W3_of m ρ c main_arg34 (by decide)).trans <|
    (W2_of_ne m ρ c main_arg34 (by decide)).trans <|
    (W1_of m ρ c main_arg34 (by decide)).trans <| rfl

theorem W23_main_arg35 (c : Dev nD) : W23 m ρ c (Proc.devRef .tc main_arg35) = m ((c : Thread nD τ).loc main_arg35) :=
  (W23_of m ρ c main_arg35 (by decide)).trans <|
    (W22_of_ne m ρ c main_arg35 (by decide)).trans <|
    (W21_of m ρ c main_arg35 (by decide)).trans <|
    (W20_of_ne m ρ c main_arg35 (by decide)).trans <|
    (W19_of m ρ c main_arg35 (by decide)).trans <|
    (W18_of_ne m ρ c main_arg35 (by decide)).trans <|
    (W17_of m ρ c main_arg35 (by decide)).trans <|
    (W16_of_ne m ρ c main_arg35 (by decide)).trans <|
    (W15_of m ρ c main_arg35 (by decide)).trans <|
    (W14_of_ne m ρ c main_arg35 (by decide)).trans <|
    (W13_of m ρ c main_arg35 (by decide)).trans <|
    (W12_of_ne m ρ c main_arg35 (by decide)).trans <|
    (W11_of m ρ c main_arg35 (by decide)).trans <|
    (W10_of_ne m ρ c main_arg35 (by decide)).trans <|
    (W9_of m ρ c main_arg35 (by decide)).trans <|
    (W8_of_ne m ρ c main_arg35 (by decide)).trans <|
    (W7_of m ρ c main_arg35 (by decide)).trans <|
    (W6_of_ne m ρ c main_arg35 (by decide)).trans <|
    (W5_of m ρ c main_arg35 (by decide)).trans <|
    (W4_of_ne m ρ c main_arg35 (by decide)).trans <|
    (W3_of m ρ c main_arg35 (by decide)).trans <|
    (W2_of_ne m ρ c main_arg35 (by decide)).trans <|
    (W1_of m ρ c main_arg35 (by decide)).trans <| rfl

theorem W23_main_arg36 (c : Dev nD) : W23 m ρ c (Proc.devRef .tc main_arg36) = m ((c : Thread nD τ).loc main_arg36) :=
  (W23_of m ρ c main_arg36 (by decide)).trans <|
    (W22_of_ne m ρ c main_arg36 (by decide)).trans <|
    (W21_of m ρ c main_arg36 (by decide)).trans <|
    (W20_of_ne m ρ c main_arg36 (by decide)).trans <|
    (W19_of m ρ c main_arg36 (by decide)).trans <|
    (W18_of_ne m ρ c main_arg36 (by decide)).trans <|
    (W17_of m ρ c main_arg36 (by decide)).trans <|
    (W16_of_ne m ρ c main_arg36 (by decide)).trans <|
    (W15_of m ρ c main_arg36 (by decide)).trans <|
    (W14_of_ne m ρ c main_arg36 (by decide)).trans <|
    (W13_of m ρ c main_arg36 (by decide)).trans <|
    (W12_of_ne m ρ c main_arg36 (by decide)).trans <|
    (W11_of m ρ c main_arg36 (by decide)).trans <|
    (W10_of_ne m ρ c main_arg36 (by decide)).trans <|
    (W9_of m ρ c main_arg36 (by decide)).trans <|
    (W8_of_ne m ρ c main_arg36 (by decide)).trans <|
    (W7_of m ρ c main_arg36 (by decide)).trans <|
    (W6_of_ne m ρ c main_arg36 (by decide)).trans <|
    (W5_of m ρ c main_arg36 (by decide)).trans <|
    (W4_of_ne m ρ c main_arg36 (by decide)).trans <|
    (W3_of m ρ c main_arg36 (by decide)).trans <|
    (W2_of_ne m ρ c main_arg36 (by decide)).trans <|
    (W1_of m ρ c main_arg36 (by decide)).trans <| rfl

end Cert.Kernel.Frm

end
-- ==== Proof.BitsFrame.lean ====
/-
  @main is the run of its 23 segments in order, so the launch theorem for a list of segments applies: every weakly fair
  execution terminates, nothing faulting, and ends with every unscoped buffer at the last boundary's contents. The frame
  follows: each argument array's contents there are the launch memory's.
-/
import proofs.«181157_j5506148073958_2_alg».proof.Proof.BitsSeg0
import proofs.«181157_j5506148073958_2_alg».proof.Proof.BitsSeg1
import proofs.«181157_j5506148073958_2_alg».proof.Proof.BitsSeg2
import proofs.«181157_j5506148073958_2_alg».proof.Proof.BitsSeg3
import proofs.«181157_j5506148073958_2_alg».proof.Proof.BitsSeg4
import proofs.«181157_j5506148073958_2_alg».proof.Proof.BitsSeg5
import proofs.«181157_j5506148073958_2_alg».proof.Proof.BitsSeg6
import proofs.«181157_j5506148073958_2_alg».proof.Proof.BitsSeg7
import proofs.«181157_j5506148073958_2_alg».proof.Proof.BitsSeg8
import proofs.«181157_j5506148073958_2_alg».proof.Proof.BitsSeg9
import proofs.«181157_j5506148073958_2_alg».proof.Proof.BitsSeg10
import proofs.«181157_j5506148073958_2_alg».proof.Proof.BitsWrites

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 23 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the contents of the last boundary. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

/-- The frame: every execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c =>
    ⟨(h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c),
     (h c _ (mem_uc main_arg13 (by decide))).trans (W23_main_arg13 m ρ c),
     (h c _ (mem_uc main_arg14 (by decide))).trans (W23_main_arg14 m ρ c),
     (h c _ (mem_uc main_arg15 (by decide))).trans (W23_main_arg15 m ρ c),
     (h c _ (mem_uc main_arg16 (by decide))).trans (W23_main_arg16 m ρ c),
     (h c _ (mem_uc main_arg17 (by decide))).trans (W23_main_arg17 m ρ c),
     (h c _ (mem_uc main_arg18 (by decide))).trans (W23_main_arg18 m ρ c),
     (h c _ (mem_uc main_arg19 (by decide))).trans (W23_main_arg19 m ρ c),
     (h c _ (mem_uc main_arg20 (by decide))).trans (W23_main_arg20 m ρ c),
     (h c _ (mem_uc main_arg21 (by decide))).trans (W23_main_arg21 m ρ c),
     (h c _ (mem_uc main_arg22 (by decide))).trans (W23_main_arg22 m ρ c),
     (h c _ (mem_uc main_arg23 (by decide))).trans (W23_main_arg23 m ρ c),
     (h c _ (mem_uc main_arg24 (by decide))).trans (W23_main_arg24 m ρ c),
     (h c _ (mem_uc main_arg25 (by decide))).trans (W23_main_arg25 m ρ c),
     (h c _ (mem_uc main_arg26 (by decide))).trans (W23_main_arg26 m ρ c),
     (h c _ (mem_uc main_arg27 (by decide))).trans (W23_main_arg27 m ρ c),
     (h c _ (mem_uc main_arg28 (by decide))).trans (W23_main_arg28 m ρ c),
     (h c _ (mem_uc main_arg29 (by decide))).trans (W23_main_arg29 m ρ c),
     (h c _ (mem_uc main_arg30 (by decide))).trans (W23_main_arg30 m ρ c),
     (h c _ (mem_uc main_arg31 (by decide))).trans (W23_main_arg31 m ρ c),
     (h c _ (mem_uc main_arg32 (by decide))).trans (W23_main_arg32 m ρ c),
     (h c _ (mem_uc main_arg33 (by decide))).trans (W23_main_arg33 m ρ c),
     (h c _ (mem_uc main_arg34 (by decide))).trans (W23_main_arg34 m ρ c),
     (h c _ (mem_uc main_arg35 (by decide))).trans (W23_main_arg35 m ρ c),
     (h c _ (mem_uc main_arg36 (by decide))).trans (W23_main_arg36 m ρ c)⟩)
    (run_main m ρ)

end Cert.Kernel.Frm

end
-- ==== Proof.IdealRegion0.lean ====
/-
  Region 0 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not: an unfetched window's
    block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: the one store, of the body's value of the input blocks, over the whole block. -/
def out0_5 (x0 : Vec F S5000x3 .f32) (x1 : Vec F S3x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k0_pay1 (View.ld x0 (Rect.unit (s := S5000x3) ![0, 0] S5000x3.size inb_S5000x3_S5000x3_0_0)) (View.ld x1 (Rect.unit (s := S3x64) ![0, 0] S3x64.size inb_S3x64_S3x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover0_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out0_5` of the inputs'. -/
theorem sound_kernel0 (c : Dev nD) (E : Set ℕ) (i : grid0.Coords) (arg1 : Memref sig .tc .vmem S5000x3 .f32) (harg1 : arg1.IsWhole) (arg2 : Memref sig .tc .vmem S3x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x3 .f32) (x1 : Vec F S3x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core `c`: the arrays as the region finds them; after the body at point `t` each input's
    buffer at its block and the output's at the body's value of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.IdealRegion1.lean ====
/-
  Region 1 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: an unfetched window's
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not: an unfetched window's
    block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: the one store, of the body's value of the input blocks, over the whole block. -/
def out1_5 (x0 : Vec F S5000x5 .f32) (x1 : Vec F S5x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k1_pay1 (View.ld x0 (Rect.unit (s := S5000x5) ![0, 0] S5000x5.size inb_S5000x5_S5000x5_0_0)) (View.ld x1 (Rect.unit (s := S5x64) ![0, 0] S5x64.size inb_S5x64_S5x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover1_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out1_5` of the inputs'. -/
theorem sound_kernel1 (c : Dev nD) (E : Set ℕ) (i : grid1.Coords) (arg1 : Memref sig .tc .vmem S5000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x5 .f32) (x1 : Vec F S5x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at the body's value of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.IdealRegion2.lean ====
/-
  Region 2 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: an unfetched window's
    block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, fetched there or not: an unfetched window's
    block index has not moved since the fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: the one store, of the body's value of the input blocks, over the whole block. -/
def out2_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k2_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover2_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out2_5` of the inputs'. -/
theorem sound_kernel2 (c : Dev nD) (E : Set ℕ) (i : grid2.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The region's proof data on core `c`: the arrays as the region finds them; after the body at point `t` each input's
    buffer at its block and the output's at the body's value of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.IdealRegion3.lean ====
/-
  Region 3 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: an unfetched window's
    block index has not moved since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, fetched there or not: an unfetched window's
    block index has not moved since the fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one store, of the body's value of the input blocks, over the whole block. -/
def out3_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k3_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover3_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out3_5` of the inputs'. -/
theorem sound_kernel3 (c : Dev nD) (E : Set ℕ) (i : grid3.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each input's
    buffer at its block and the output's at the body's value of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.IdealRegion4.lean ====
/-
  Region 4 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not: an unfetched window's
    block index has not moved since the fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, fetched there or not: an unfetched window's
    block index has not moved since the fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: the one store, of the body's value of the input blocks, over the whole block. -/
def out4_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k4_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover4_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out4_5` of the inputs'. -/
theorem sound_kernel4 (c : Dev nD) (E : Set ℕ) (i : grid4.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The region's proof data on core `c`: the arrays as the region finds them; after the body at point `t` each input's
    buffer at its block and the output's at the body's value of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.IdealRegion5.lean ====
/-
  Region 5 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not: an unfetched window's
    block index has not moved since the fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, fetched there or not: an unfetched window's
    block index has not moved since the fetch. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: the one store, of the body's value of the input blocks, over the whole block. -/
def out5_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k5_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover5_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out5_5` of the inputs'. -/
theorem sound_kernel5 (c : Dev nD) (E : Set ℕ) (i : grid5.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The region's proof data on core `c`: the arrays as the region finds them; after the body at point `t` each input's
    buffer at its block and the output's at the body's value of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.IdealRegion6.lean ====
/-
  Region 6 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: an unfetched window's
    block index has not moved since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds its block at every point, fetched there or not: an unfetched window's
    block index has not moved since the fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: the one store, of the body's value of the input blocks, over the whole block. -/
def out6_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k6_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover6_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out6_5` of the inputs'. -/
theorem sound_kernel6 (c : Dev nD) (E : Set ℕ) (i : grid6.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The region's proof data on core `c`: the arrays as the region finds them; after the body at point `t` each input's
    buffer at its block and the output's at the body's value of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.IdealRegion7.lean ====
/-
  Region 7 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not: an unfetched window's
    block index has not moved since the fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds its block at every point, fetched there or not: an unfetched window's
    block index has not moved since the fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output block after the body: the one store, of the body's value of the input blocks, over the whole block. -/
def out7_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k7_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover7_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out7_5` of the inputs'. -/
theorem sound_kernel7 (c : Dev nD) (E : Set ℕ) (i : grid7.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The region's proof data on core `c`: the arrays as the region finds them; after the body at point `t` each input's
    buffer at its block and the output's at the body's value of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frm

end
-- ==== Proof.IdealRegion8.lean ====
/-
  Region 8 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds its block at every point, fetched there or not: an unfetched window's
    block index has not moved since the fetch. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- An input window's staging buffer holds its block at every point, fetched there or not: an unfetched window's
    block index has not moved since the fetch. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The output block after the body: the one store, of the body's value of the input blocks, over the whole block. -/
def out8_5 (x0 : Vec F S10000x129 .f32) (x1 : Vec F S129x64 .f32) (x2 : Vec F S1x64 .f32) (x3 : Vec F S64x64 .f32) (x4 : Vec F S1x64 .f32) : Vec F S10000x64 .f32 :=
  View.canon [⟨(Rect.unit (s := S10000x64) ![0, 0] S10000x64.size inb_S10000x64_S10000x64_0_0), k8_pay1 (View.ld x0 (Rect.unit (s := S10000x129) ![0, 0] S10000x129.size inb_S10000x129_S10000x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover8_5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging buffers — the inputs' at given contents, the output's at anything — runs to the end, leaves
    the inputs' as they were and the output's at `out8_5` of the inputs'. -/
theorem sound_kernel8 (c : Dev nD) (E : Set ℕ) (i : grid8.Coords) (arg1 : Memref sig .tc .vmem S10000x129 .f32) (harg1 : arg1.IsWhole) (arg2 : Memref sig .tc .vmem S129x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x129 .f32) (x1 : Vec F S129x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8_kernel i arg1 harg1 arg2 harg2 arg3 harg3 arg4 harg4 arg5 harg5 arg6 harg6) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The region's proof data on core `c`: the arrays as the region finds them; after the body at point `t` each input's
    buffer at its block and the output's at the body's value of the input blocks; nothing owed, full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Frm

end
-- ==== Proof.IdealRegion9.lean ====
/-
  Region 9 of @main, at the buffer contents `V` the region is entered with.

  The body reads 5 blocks — a block of rows of the layer input, then each layer's weight matrix and one-row bias —
  and writes ONE block of rows of the result: the store covers the whole output block, so after the body the output's
  staging buffer holds the body's value of the 5 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not: an unfetched window's
    block index has not moved since the fetch. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- An input window's staging buffer holds its block at every point, fetched there or not: an unfetched window's
    block index has not moved since the fetch. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- The output block after the body: the one store, of the body's value of the input blocks, over the whole block. -/
def out9_5 (x0 : Vec F S5000x128 .f32) (x1 : Vec F S128x64 .f32) (x2 : Vec F S1x64 .f32) (x3 : Vec F S64x64 .f32) (x4 : Vec F S1x64 .f32) : Vec F S5000x64 .f32 :=
  View.canon [⟨(Rect.unit (s := S5000x64) ![0, 0] S5000x64.size inb_S5000x64_S5000x64_0_0), k9_pay1 (View.ld x0 (Rect.unit (s := S5000x128) ![0, 0] S5000x128.size inb_S5000x128_S5000x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x64) ![0, 0] S64x64.size inb_S64x64_S64x64_0_0)) (View.ld x4 (Rect.unit (s := S1x64) ![0, 0] S1x64.size inb_S1x64_S1x64_0_0))⟩]

/-- The store's rectangle is the whole block. -/
theorem cover9_5 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 1000000 in
/-- The body on whole staging buffers — the inputs' at given contents, the output's at anything — runs to the end, leaves
    the inputs' as they were and the output's at `out9_5` of the inputs'. -/
theorem sound_kernel9 (c : Dev nD) (E : Set ℕ) (i : grid9.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9_kernel i arg1 harg1 arg2 harg2 arg3 harg3 arg4 harg4 arg5 harg5 arg6 harg6) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-- The region's proof data on core `c`: the arrays as the region finds them; after the body at point `t` each input's
    buffer at its block and the output's at the body's value of the input blocks; nothing owed, full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' buffers hold their blocks, so the body's triple applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Frm

end
-- ==== Proof.IdealRegion10.lean ====
/-
  Region 10 of @main, at the buffer contents `V` the region is entered with.

  The body reads 7 blocks — a block of rows of the layer input, then each layer's weight matrix and one-row bias —
  and writes ONE block of rows of the result: the store covers the whole output block, so after the body the output's
  staging buffer holds the body's value of the 7 input blocks, whatever it held before (the body's own read of the
  output block is not used). The weight and bias windows have one block, the same at every point; the row windows
  advance one block per point. Stated for any float instance.
-/
import proofs.«181157_j5506148073958_2_alg».proof.Proof.Gen.KernelIdeal.Launch
import proofs.«181157_j5506148073958_2_alg».proof.Proof.Gen.KernelIdeal.Skeleton
import proofs.«181157_j5506148073958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds its block at every point, fetched there or not: an unfetched window's
    block index has not moved since the fetch. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- An input window's staging buffer holds its block at every point, fetched there or not: an unfetched window's
    block index has not moved since the fetch. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- The output block after the body: the one store, of the body's value of the input blocks, over the whole block. -/
def out10_7 (x0 : Vec F S2000x192 .f32) (x1 : Vec F S192x512 .f32) (x2 : Vec F S1x512 .f32) (x3 : Vec F S512x128 .f32) (x4 : Vec F S1x128 .f32) (x5 : Vec F S128x1 .f32) (x6 : Vec F S1x1 .f32) : Vec F S2000x1 .f32 :=
  View.canon [⟨(Rect.unit (s := S2000x1) ![0, 0] S2000x1.size inb_S2000x1_S2000x1_0_0), k10_pay1 (View.ld x0 (Rect.unit (s := S2000x192) ![0, 0] S2000x192.size inb_S2000x192_S2000x192_0_0)) (View.ld x1 (Rect.unit (s := S192x512) ![0, 0] S192x512.size inb_S192x512_S192x512_0_0)) (View.ld x2 (Rect.unit (s := S1x512) ![0, 0] S1x512.size inb_S1x512_S1x512_0_0)) (View.ld x3 (Rect.unit (s := S512x128) ![0, 0] S512x128.size inb_S512x128_S512x128_0_0)) (View.ld x4 (Rect.unit (s := S1x128) ![0, 0] S1x128.size inb_S1x128_S1x128_0_0)) (View.ld x5 (Rect.unit (s := S128x1) ![0, 0] S128x1.size inb_S128x1_S128x1_0_0)) (View.ld x6 (Rect.unit (s := S1x1) ![0, 0] S1x1.size inb_S1x1_S1x1_0_0))⟩]

/-- The store's rectangle is the whole block. -/
theorem cover10_7 (p0 : Vec F S2000x1 .f32) (y : S2000x1.Idx) :
    ∃ pc ∈ ([⟨(Rect.unit (s := S2000x1) ![0, 0] S2000x1.size inb_S2000x1_S2000x1_0_0), p0⟩] : List (View.Piece (Elt F) S2000x1 .f32)), y ∈ pc.1.set :=
  View.cover_of_tiled [⟨(Rect.unit (s := S2000x1) ![0, 0] S2000x1.size inb_S2000x1_S2000x1_0_0), p0⟩] S2000x1.size (by rfl) y

set_option maxHeartbeats 1000000 in
/-- The body on whole staging buffers — the inputs' at given contents, the output's at anything — runs to the end, leaves
    the inputs' as they were and the output's at `out10_7` of the inputs'. -/
theorem sound_kernel10 (c : Dev nD) (E : Set ℕ) (i : grid10.Coords) (arg1 : Memref sig .tc .vmem S2000x192 .f32) (harg1 : arg1.IsWhole) (arg2 : Memref sig .tc .vmem S192x512 .f32) (harg2 : arg2.IsWhole) (arg3 : Memref sig .tc .vmem S1x512 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S2000x1 .f32) (harg8 : arg8.IsWhole)
    (x0 : Vec F S2000x192 .f32) (x1 : Vec F S192x512 .f32) (x2 : Vec F S1x512 .f32) (x3 : Vec F S512x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10_kernel i arg1 harg1 arg2 harg2 arg3 harg3 arg4 harg4 arg5 harg5 arg6 harg6 arg7 harg7 arg8 harg8) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-- The region's proof data on core `c`: the arrays as the region finds them; after the body at point `t` each input's
    buffer at its block and the output's at the body's value of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so the body's triple applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Frm

end
-- ==== Proof.IdealBounds.lean ====
/-
  The buffer contents at each boundary of @main's run — a fold from the launch memory through the host stretches and the
  regions: a host stretch applies its operations; a region leaves each of its arrays at what its write-backs make of it
  and every other buffer as entered —, every region's proof data at its entry contents, and the thread state that rides
  through the segments: every unscoped buffer at the boundary's contents, the generator register at some state, nothing owed.
-/
import proofs.«181157_j5506148073958_2_alg».proof.Proof.IdealRegion0
import proofs.«181157_j5506148073958_2_alg».proof.Proof.IdealRegion1
import proofs.«181157_j5506148073958_2_alg».proof.Proof.IdealRegion2
import proofs.«181157_j5506148073958_2_alg».proof.Proof.IdealRegion3
import proofs.«181157_j5506148073958_2_alg».proof.Proof.IdealRegion4
import proofs.«181157_j5506148073958_2_alg».proof.Proof.IdealRegion5
import proofs.«181157_j5506148073958_2_alg».proof.Proof.IdealRegion6
import proofs.«181157_j5506148073958_2_alg».proof.Proof.IdealRegion7
import proofs.«181157_j5506148073958_2_alg».proof.Proof.IdealRegion8
import proofs.«181157_j5506148073958_2_alg».proof.Proof.IdealRegion9
import proofs.«181157_j5506148073958_2_alg».proof.Proof.IdealRegion10

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the write-backs leave, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After host stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the write-backs leave, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After host stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the write-backs leave, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After host stretch 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its arrays at what the write-backs leave, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After host stretch 10 (region 10's entry). -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its arrays at what the write-backs leave, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the last host stretch: the contents @main returns with. -/
abbrev W23 : Dev nD → Valuation τ sig (Elt F) := fun c => StableHlo.after hostOps11 (W22 m ρ c)

/-! ## No host operation allocates a buffer -/

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem hostOps4_fresh : (hostOps4 : List (HloOp τ sig (Elt F))).Forall fun op => op.fresh = ∅ := by
  simp only [List.Forall]; repeat' constructor

theorem hostOps5_fresh : (hostOps5 : List (HloOp τ sig (Elt F))).Forall fun op => op.fresh = ∅ := by
  simp only [List.Forall]; repeat' constructor

theorem hostOps6_fresh : (hostOps6 : List (HloOp τ sig (Elt F))).Forall fun op => op.fresh = ∅ := by
  simp only [List.Forall]; repeat' constructor

theorem hostOps7_fresh : (hostOps7 : List (HloOp τ sig (Elt F))).Forall fun op => op.fresh = ∅ := by
  simp only [List.Forall]; repeat' constructor

theorem hostOps8_fresh : (hostOps8 : List (HloOp τ sig (Elt F))).Forall fun op => op.fresh = ∅ := by
  simp only [List.Forall]; repeat' constructor

theorem hostOps9_fresh : (hostOps9 : List (HloOp τ sig (Elt F))).Forall fun op => op.fresh = ∅ := by
  simp only [List.Forall]; repeat' constructor

theorem hostOps10_fresh : (hostOps10 : List (HloOp τ sig (Elt F))).Forall fun op => op.fresh = ∅ := by
  simp only [List.Forall]; repeat' constructor

theorem hostOps11_fresh : (hostOps11 : List (HloOp τ sig (Elt F))).Forall fun op => op.fresh = ∅ := by
  simp only [List.Forall]; repeat' constructor

/-! ## The proof data family and the thread state -/

/-- No region has a prefetched table. -/
abbrev adm : (p : Fin 11) → (pcfgs (F := F) p).Adm := fun p => (cfgs p).toPCfg_adm
/-- Every region's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the contents @main returns with, the
    generator register at some state. -/
abbrev Tₙ (c : Dev nD) : sProp 𝕄 := iprop(StableHlo.held (c : Thread nD τ) (Pipeline.ucRefs τ sig) (W23 m ρ c) ∗ ∃ r, prngReg c r)

end Cert.KernelIdeal.Frm

end
-- ==== Proof.IdealSeg0.lean ====
/-
  Region 0 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 0: entered with every unscoped buffer at `W1`, left at `W2`. Its arrays are split out of the unscoped
    buffers at the entry and put back at their exit contents; the generator register goes into the region's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg1.lean ====
/-
  Region 1 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 1: entered with every unscoped buffer at `W3`, left at `W4`. Its arrays are split out of the unscoped
    buffers at the entry and put back at their exit contents; the generator register goes into the region's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg2.lean ====
/-
  Region 2 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 2: entered with every unscoped buffer at `W5`, left at `W6`. Its arrays are split out of the unscoped
    buffers at the entry and put back at their exit contents; the generator register goes into the region's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg3.lean ====
/-
  Region 3 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 3: entered with every unscoped buffer at `W7`, left at `W8`. Its arrays are split out of the unscoped
    buffers at the entry and put back at their exit contents; the generator register goes into the region's invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg4.lean ====
/-
  Region 4 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 4: entered with every unscoped buffer at `W9`, left at `W10`. Its arrays are split out of the unscoped
    buffers at the entry and put back at their exit contents; the generator register goes into the region's invariant
    and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg5.lean ====
/-
  Region 5 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 5: entered with every unscoped buffer at `W11`, left at `W12`. Its arrays are split out of the unscoped
    buffers at the entry and put back at their exit contents; the generator register goes into the region's invariant
    and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg6.lean ====
/-
  Region 6 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 6: entered with every unscoped buffer at `W13`, left at `W14`. Its arrays are split out of the unscoped
    buffers at the entry and put back at their exit contents; the generator register goes into the region's invariant
    and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg7.lean ====
/-
  Region 7 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 7: entered with every unscoped buffer at `W15`, left at `W16`. Its arrays are split out of the unscoped
    buffers at the entry and put back at their exit contents; the generator register goes into the region's invariant
    and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg8.lean ====
/-
  Region 8 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 8: entered with every unscoped buffer at `W17`, left at `W18`. Its arrays are split out of the unscoped
    buffers at the entry and put back at their exit contents; the generator register goes into the region's invariant
    and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg9.lean ====
/-
  Region 9 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 9: entered with every unscoped buffer at `W19`, left at `W20`. Its arrays are split out of the unscoped
    buffers at the entry and put back at their exit contents; the generator register goes into the region's invariant
    and comes back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealSeg10.lean ====
/-
  Region 10 as a segment of @main's run: entered with every unscoped buffer at the boundary's contents and left with them
  at the next boundary's. At the entry the region's arrays are split out of the unscoped buffers; at the exit they are put
  back at what the write-backs left; the generator register goes into the region's invariant and comes back; nothing owed.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Region 10: entered with every unscoped buffer at `W21`, left at `W22`. Its arrays are split out of the unscoped
    buffers at the entry and put back at their exit contents; the generator register goes into the region's invariant
    and comes back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.IdealWrites.lean ====
/-
  What each host stretch writes — the list of its operations' result references — and so what it keeps: a reference outside
  the list holds after the stretch what it held before. An argument array is in no such list and is no region's output (a
  region reads it through an input window, whose array ends as entered, or does not touch it), so the fold of the boundary
  contents at an argument walks back to the launch memory.
-/
import proofs.«181157_j5506148073958_2_alg».proof.Proof.IdealBounds

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes, and what it therefore keeps -/

/-- The references host stretch 0's operations write. -/
abbrev hostOps0_W : List (Ref sig .tc) := [main_cst, main_v0, main_cst_0, main_v1, main_v2, main_v3, main_v4, main_v5, main_v6, main_cst_1, main_v7, main_cst_2, main_v8, main_v9, main_v10, main_v11, main_v12, main_cst_3, main_v13, main_v14, main_v15, main_v16, main_v17, main_v18, main_v19, main_v20, main_v21, main_v22, main_v23, main_v24, main_v25, main_v26]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The references host stretch 1's operations write. -/
abbrev hostOps1_W : List (Ref sig .tc) := [main_cst_4, main_v28, main_cst_5, main_v29, main_v30, main_v31, main_v32, main_v33, main_v34, main_cst_6, main_v35, main_cst_7, main_v36, main_v37, main_v38, main_v39, main_v40, main_cst_8, main_v41, main_v42, main_v43, main_v44, main_v45, main_v46, main_v47, main_v48, main_v49, main_v50, main_v51, main_v52, main_cst_9, main_v53, main_cst_10, main_v54, main_v55, main_v56, main_v57, main_v58, main_v59, main_cst_11, main_v60, main_cst_12, main_v61, main_v62, main_v63, main_v64, main_v65, main_cst_13, main_v66, main_v67, main_v68, main_v69, main_v70, main_v71, main_v72, main_v73, main_v74, main_v75, main_v76, main_v77, main_v78, main_v79]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The references host stretch 2's operations write. -/
abbrev hostOps2_W : List (Ref sig .tc) := [main_v81, main_v82, main_v83, main_v84, main_v85, main_v86, main_v87, main_v88, main_v89, main_v90, main_v91, main_v92, main_v93, main_v94, main_v95, main_v96, main_v97, main_v98, main_v99, main_v100, main_v101, main_v102, main_v103, main_v104, main_c, main_v105, main_v106, main_c_14, main_v107, main_v108, main_v109, main_v110, main_v111, main_c_15, main_v112, main_v113, main_c_16, main_v114, main_v115, main_v116, main_v117, main_v118, main_v119, main_v120, main_v121]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- The references host stretch 3's operations write. -/
abbrev hostOps3_W : List (Ref sig .tc) := [main_cst_17, main_v123, main_v124, main_v125, main_cst_18, main_v126, main_cst_19, main_v127, main_v128, main_v129, main_cst_20, main_v130, main_v131, main_v132, main_v133, main_cst_21, main_v134, main_cst_22, main_v135, main_v136, main_v137, main_v138, main_v139, main_v140, main_cst_23, main_v141, main_cst_24, main_v142, main_v143, main_v144, main_v145, main_v146, main_cst_25, main_v147, main_v148, main_v149, main_v150, main_v151, main_v152, main_v153, main_v154, main_v155, main_v156, main_v157, main_v158, main_v159, main_v160, main_v161]
theorem hostOps3_writes : (hostOps3 : List (HloOp τ sig (Elt F))).Forall fun op => op.writes ⊆ (hostOps3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- The references host stretch 4's operations write. -/
abbrev hostOps4_W : List (Ref sig .tc) := [main_v163, main_v164, main_v165, main_v166, main_v167, main_v168, main_v169, main_v170, main_v171, main_v172, main_v173, main_v174, main_v175, main_v176, main_v177, main_v178, main_v179, main_v180, main_v181, main_v182, main_c_26, main_v183, main_v184, main_c_27, main_v185, main_v186, main_v187, main_v188, main_v189, main_c_28, main_v190, main_v191, main_c_29, main_v192, main_v193, main_v194, main_v195, main_v196, main_v197, main_v198, main_v199]
theorem hostOps4_writes : (hostOps4 : List (HloOp τ sig (Elt F))).Forall fun op => op.writes ⊆ (hostOps4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- The references host stretch 5's operations write. -/
abbrev hostOps5_W : List (Ref sig .tc) := [main_cst_30, main_v201, main_v202, main_v203, main_cst_31, main_v204, main_cst_32, main_v205, main_v206, main_v207, main_cst_33, main_v208, main_v209, main_v210, main_v211, main_cst_34, main_v212, main_cst_35, main_v213, main_v214, main_v215, main_v216, main_v217, main_v218, main_cst_36, main_v219, main_cst_37, main_v220, main_v221, main_v222, main_v223, main_v224, main_cst_38, main_v225, main_v226, main_v227, main_v228, main_v229, main_v230, main_v231, main_v232, main_v233, main_v234, main_v235, main_v236, main_v237, main_v238, main_v239]
theorem hostOps5_writes : (hostOps5 : List (HloOp τ sig (Elt F))).Forall fun op => op.writes ⊆ (hostOps5_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h

/-- The references host stretch 6's operations write. -/
abbrev hostOps6_W : List (Ref sig .tc) := [main_v241, main_v242, main_v243, main_v244, main_v245, main_v246, main_cst_39, main_v247, main_v248, main_cst_40, main_v249, main_v250, main_v251, main_v252, main_v253, main_v254, main_v255, main_cst_41, main_v256, main_v257, main_cst_42, main_v258, main_v259, main_v260, main_v261, main_v262, main_cst_43, main_v263, main_v264, main_v265, main_v266, main_v267, main_v268, main_v269, main_v270, main_v271, main_v272, main_v273, main_v274, main_v275, main_v276, main_cst_44, main_v277, main_v278, main_cst_45, main_v279, main_v280, main_v281, main_v282, main_v283, main_v284, main_v285, main_cst_46, main_v286, main_v287, main_cst_47, main_v288, main_v289, main_v290, main_v291, main_v292, main_cst_48, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_c_49, main_v321, main_v322, main_c_50, main_v323, main_v324, main_v325, main_v326, main_v327, main_c_51, main_v328, main_v329, main_c_52, main_v330, main_v331, main_v332, main_v333, main_v334, main_v335, main_v336, main_v337]
theorem hostOps6_writes : (hostOps6 : List (HloOp τ sig (Elt F))).Forall fun op => op.writes ⊆ (hostOps6_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W13_of (c : Dev nD) (r : Ref sig .tc) (h : r ∉ hostOps6_W) : W13 m ρ c (Proc.devRef .tc r) = W12 m ρ c (Proc.devRef .tc r) :=
  StableHlo.after_of_writes_sub hostOps6 _ hostOps6_writes h

/-- The references host stretch 7's operations write. -/
abbrev hostOps7_W : List (Ref sig .tc) := [main_cst_53, main_v339, main_v340, main_v341, main_cst_54, main_v342, main_cst_55, main_v343, main_v344, main_v345, main_cst_56, main_v346, main_v347, main_v348, main_v349, main_cst_57, main_v350, main_cst_58, main_v351, main_v352, main_v353, main_v354, main_v355, main_v356, main_cst_59, main_v357, main_cst_60, main_v358, main_v359, main_v360, main_v361, main_v362, main_cst_61, main_v363, main_v364, main_v365, main_v366, main_v367, main_v368, main_v369, main_v370, main_v371, main_v372, main_v373, main_v374, main_v375, main_v376, main_v377]
theorem hostOps7_writes : (hostOps7 : List (HloOp τ sig (Elt F))).Forall fun op => op.writes ⊆ (hostOps7_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W15_of (c : Dev nD) (r : Ref sig .tc) (h : r ∉ hostOps7_W) : W15 m ρ c (Proc.devRef .tc r) = W14 m ρ c (Proc.devRef .tc r) :=
  StableHlo.after_of_writes_sub hostOps7 _ hostOps7_writes h

/-- The references host stretch 8's operations write. -/
abbrev hostOps8_W : List (Ref sig .tc) := [main_v379, main_v380, main_v381, main_v382, main_v383, main_v384, main_v385, main_v386, main_v387, main_v388, main_v389, main_v390, main_v391, main_v392, main_v393, main_v394, main_v395, main_v396, main_v397, main_v398, main_c_62, main_v399, main_v400, main_c_63, main_v401, main_v402, main_v403, main_v404, main_v405, main_c_64, main_v406, main_v407, main_c_65, main_v408, main_v409, main_v410, main_v411, main_v412, main_v413, main_v414, main_v415]
theorem hostOps8_writes : (hostOps8 : List (HloOp τ sig (Elt F))).Forall fun op => op.writes ⊆ (hostOps8_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W17_of (c : Dev nD) (r : Ref sig .tc) (h : r ∉ hostOps8_W) : W17 m ρ c (Proc.devRef .tc r) = W16 m ρ c (Proc.devRef .tc r) :=
  StableHlo.after_of_writes_sub hostOps8 _ hostOps8_writes h

/-- The references host stretch 9's operations write. -/
abbrev hostOps9_W : List (Ref sig .tc) := [main_cst_66, main_v417, main_v418, main_v419, main_cst_67, main_v420, main_cst_68, main_v421, main_v422, main_v423, main_cst_69, main_v424, main_v425, main_v426, main_v427, main_cst_70, main_v428, main_cst_71, main_v429, main_v430, main_v431, main_v432, main_v433, main_v434, main_cst_72, main_v435, main_cst_73, main_v436, main_v437, main_v438, main_v439, main_v440, main_cst_74, main_v441, main_v442, main_v443, main_v444, main_v445, main_v446, main_v447, main_v448, main_v449, main_v450, main_v451, main_v452, main_v453, main_v454, main_v455]
theorem hostOps9_writes : (hostOps9 : List (HloOp τ sig (Elt F))).Forall fun op => op.writes ⊆ (hostOps9_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W19_of (c : Dev nD) (r : Ref sig .tc) (h : r ∉ hostOps9_W) : W19 m ρ c (Proc.devRef .tc r) = W18 m ρ c (Proc.devRef .tc r) :=
  StableHlo.after_of_writes_sub hostOps9 _ hostOps9_writes h

/-- The references host stretch 10's operations write. -/
abbrev hostOps10_W : List (Ref sig .tc) := [main_v457, main_v458, main_v459, main_v460, main_v461, main_v462, main_cst_75, main_v463, main_v464, main_cst_76, main_v465, main_v466, main_v467, main_v468, main_v469, main_v470, main_v471, main_cst_77, main_v472, main_v473, main_cst_78, main_v474, main_v475, main_v476, main_v477, main_v478, main_cst_79, main_v479, main_v480, main_v481, main_v482, main_v483, main_v484, main_v485, main_v486, main_v487, main_v488, main_v489, main_v490, main_v491, main_v492, main_cst_80, main_v493, main_v494, main_cst_81, main_v495, main_v496, main_v497, main_v498, main_v499, main_v500, main_v501, main_cst_82, main_v502, main_v503, main_cst_83, main_v504, main_v505, main_v506, main_v507, main_v508, main_cst_84, main_v509, main_v510, main_v511, main_v512, main_v513, main_v514, main_v515, main_v516, main_v517, main_v518, main_v519, main_v520]
theorem hostOps10_writes : (hostOps10 : List (HloOp τ sig (Elt F))).Forall fun op => op.writes ⊆ (hostOps10_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide))
theorem W21_of (c : Dev nD) (r : Ref sig .tc) (h : r ∉ hostOps10_W) : W21 m ρ c (Proc.devRef .tc r) = W20 m ρ c (Proc.devRef .tc r) :=
  StableHlo.after_of_writes_sub hostOps10 _ hostOps10_writes h

/-- The references host stretch 11's operations write. -/
abbrev hostOps11_W : List (Ref sig .tc) := [main_v522]
theorem hostOps11_writes : (hostOps11 : List (HloOp τ sig (Elt F))).Forall fun op => op.writes ⊆ (hostOps11_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem W23_of (c : Dev nD) (r : Ref sig .tc) (h : r ∉ hostOps11_W) : W23 m ρ c (Proc.devRef .tc r) = W22 m ρ c (Proc.devRef .tc r) :=
  StableHlo.after_of_writes_sub hostOps11 _ hostOps11_writes h

/-! ## Each argument ends as launched -/

theorem W23_main_arg0 (c : Dev nD) : W23 m ρ c (Proc.devRef .tc main_arg0) = m ((c : Thread nD τ).loc main_arg0) :=
  (W23_of m ρ c main_arg0 (by decide)).trans <|
    (W22_of_ne m ρ c main_arg0 (by decide)).trans <|
    (W21_of m ρ c main_arg0 (by decide)).trans <|
    (W20_of_ne m ρ c main_arg0 (by decide)).trans <|
    (W19_of m ρ c main_arg0 (by decide)).trans <|
    (W18_of_ne m ρ c main_arg0 (by decide)).trans <|
    (W17_of m ρ c main_arg0 (by decide)).trans <|
    (W16_of_ne m ρ c main_arg0 (by decide)).trans <|
    (W15_of m ρ c main_arg0 (by decide)).trans <|
    (W14_of_ne m ρ c main_arg0 (by decide)).trans <|
    (W13_of m ρ c main_arg0 (by decide)).trans <|
    (W12_of_ne m ρ c main_arg0 (by decide)).trans <|
    (W11_of m ρ c main_arg0 (by decide)).trans <|
    (W10_of_ne m ρ c main_arg0 (by decide)).trans <|
    (W9_of m ρ c main_arg0 (by decide)).trans <|
    (W8_of_ne m ρ c main_arg0 (by decide)).trans <|
    (W7_of m ρ c main_arg0 (by decide)).trans <|
    (W6_of_ne m ρ c main_arg0 (by decide)).trans <|
    (W5_of m ρ c main_arg0 (by decide)).trans <|
    (W4_of_ne m ρ c main_arg0 (by decide)).trans <|
    (W3_of m ρ c main_arg0 (by decide)).trans <|
    (W2_of_ne m ρ c main_arg0 (by decide)).trans <|
    (W1_of m ρ c main_arg0 (by decide)).trans <| rfl

theorem W23_main_arg1 (c : Dev nD) : W23 m ρ c (Proc.devRef .tc main_arg1) = m ((c : Thread nD τ).loc main_arg1) :=
  (W23_of m ρ c main_arg1 (by decide)).trans <|
    (W22_of_ne m ρ c main_arg1 (by decide)).trans <|
    (W21_of m ρ c main_arg1 (by decide)).trans <|
    (W20_of_ne m ρ c main_arg1 (by decide)).trans <|
    (W19_of m ρ c main_arg1 (by decide)).trans <|
    (W18_of_ne m ρ c main_arg1 (by decide)).trans <|
    (W17_of m ρ c main_arg1 (by decide)).trans <|
    (W16_of_ne m ρ c main_arg1 (by decide)).trans <|
    (W15_of m ρ c main_arg1 (by decide)).trans <|
    (W14_of_ne m ρ c main_arg1 (by decide)).trans <|
    (W13_of m ρ c main_arg1 (by decide)).trans <|
    (W12_of_ne m ρ c main_arg1 (by decide)).trans <|
    (W11_of m ρ c main_arg1 (by decide)).trans <|
    (W10_of_ne m ρ c main_arg1 (by decide)).trans <|
    (W9_of m ρ c main_arg1 (by decide)).trans <|
    (W8_of_ne m ρ c main_arg1 (by decide)).trans <|
    (W7_of m ρ c main_arg1 (by decide)).trans <|
    (W6_of_ne m ρ c main_arg1 (by decide)).trans <|
    (W5_of m ρ c main_arg1 (by decide)).trans <|
    (W4_of_ne m ρ c main_arg1 (by decide)).trans <|
    (W3_of m ρ c main_arg1 (by decide)).trans <|
    (W2_of_ne m ρ c main_arg1 (by decide)).trans <|
    (W1_of m ρ c main_arg1 (by decide)).trans <| rfl

theorem W23_main_arg2 (c : Dev nD) : W23 m ρ c (Proc.devRef .tc main_arg2) = m ((c : Thread nD τ).loc main_arg2) :=
  (W23_of m ρ c main_arg2 (by decide)).trans <|
    (W22_of_ne m ρ c main_arg2 (by decide)).trans <|
    (W21_of m ρ c main_arg2 (by decide)).trans <|
    (W20_of_ne m ρ c main_arg2 (by decide)).trans <|
    (W19_of m ρ c main_arg2 (by decide)).trans <|
    (W18_of_ne m ρ c main_arg2 (by decide)).trans <|
    (W17_of m ρ c main_arg2 (by decide)).trans <|
    (W16_of_ne m ρ c main_arg2 (by decide)).trans <|
    (W15_of m ρ c main_arg2 (by decide)).trans <|
    (W14_of_ne m ρ c main_arg2 (by decide)).trans <|
    (W13_of m ρ c main_arg2 (by decide)).trans <|
    (W12_of_ne m ρ c main_arg2 (by decide)).trans <|
    (W11_of m ρ c main_arg2 (by decide)).trans <|
    (W10_of_ne m ρ c main_arg2 (by decide)).trans <|
    (W9_of m ρ c main_arg2 (by decide)).trans <|
    (W8_of_ne m ρ c main_arg2 (by decide)).trans <|
    (W7_of m ρ c main_arg2 (by decide)).trans <|
    (W6_of_ne m ρ c main_arg2 (by decide)).trans <|
    (W5_of m ρ c main_arg2 (by decide)).trans <|
    (W4_of_ne m ρ c main_arg2 (by decide)).trans <|
    (W3_of m ρ c main_arg2 (by decide)).trans <|
    (W2_of_ne m ρ c main_arg2 (by decide)).trans <|
    (W1_of m ρ c main_arg2 (by decide)).trans <| rfl

theorem W23_main_arg3 (c : Dev nD) : W23 m ρ c (Proc.devRef .tc main_arg3) = m ((c : Thread nD τ).loc main_arg3) :=
  (W23_of m ρ c main_arg3 (by decide)).trans <|
    (W22_of_ne m ρ c main_arg3 (by decide)).trans <|
    (W21_of m ρ c main_arg3 (by decide)).trans <|
    (W20_of_ne m ρ c main_arg3 (by decide)).trans <|
    (W19_of m ρ c main_arg3 (by decide)).trans <|
    (W18_of_ne m ρ c main_arg3 (by decide)).trans <|
    (W17_of m ρ c main_arg3 (by decide)).trans <|
    (W16_of_ne m ρ c main_arg3 (by decide)).trans <|
    (W15_of m ρ c main_arg3 (by decide)).trans <|
    (W14_of_ne m ρ c main_arg3 (by decide)).trans <|
    (W13_of m ρ c main_arg3 (by decide)).trans <|
    (W12_of_ne m ρ c main_arg3 (by decide)).trans <|
    (W11_of m ρ c main_arg3 (by decide)).trans <|
    (W10_of_ne m ρ c main_arg3 (by decide)).trans <|
    (W9_of m ρ c main_arg3 (by decide)).trans <|
    (W8_of_ne m ρ c main_arg3 (by decide)).trans <|
    (W7_of m ρ c main_arg3 (by decide)).trans <|
    (W6_of_ne m ρ c main_arg3 (by decide)).trans <|
    (W5_of m ρ c main_arg3 (by decide)).trans <|
    (W4_of_ne m ρ c main_arg3 (by decide)).trans <|
    (W3_of m ρ c main_arg3 (by decide)).trans <|
    (W2_of_ne m ρ c main_arg3 (by decide)).trans <|
    (W1_of m ρ c main_arg3 (by decide)).trans <| rfl

theorem W23_main_arg4 (c : Dev nD) : W23 m ρ c (Proc.devRef .tc main_arg4) = m ((c : Thread nD τ).loc main_arg4) :=
  (W23_of m ρ c main_arg4 (by decide)).trans <|
    (W22_of_ne m ρ c main_arg4 (by decide)).trans <|
    (W21_of m ρ c main_arg4 (by decide)).trans <|
    (W20_of_ne m ρ c main_arg4 (by decide)).trans <|
    (W19_of m ρ c main_arg4 (by decide)).trans <|
    (W18_of_ne m ρ c main_arg4 (by decide)).trans <|
    (W17_of m ρ c main_arg4 (by decide)).trans <|
    (W16_of_ne m ρ c main_arg4 (by decide)).trans <|
    (W15_of m ρ c main_arg4 (by decide)).trans <|
    (W14_of_ne m ρ c main_arg4 (by decide)).trans <|
    (W13_of m ρ c main_arg4 (by decide)).trans <|
    (W12_of_ne m ρ c main_arg4 (by decide)).trans <|
    (W11_of m ρ c main_arg4 (by decide)).trans <|
    (W10_of_ne m ρ c main_arg4 (by decide)).trans <|
    (W9_of m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide)).trans <| rfl

theorem W23_main_arg5 (c : Dev nD) : W23 m ρ c (Proc.devRef .tc main_arg5) = m ((c : Thread nD τ).loc main_arg5) :=
  (W23_of m ρ c main_arg5 (by decide)).trans <|
    (W22_of_ne m ρ c main_arg5 (by decide)).trans <|
    (W21_of m ρ c main_arg5 (by decide)).trans <|
    (W20_of_ne m ρ c main_arg5 (by decide)).trans <|
    (W19_of m ρ c main_arg5 (by decide)).trans <|
    (W18_of_ne m ρ c main_arg5 (by decide)).trans <|
    (W17_of m ρ c main_arg5 (by decide)).trans <|
    (W16_of_ne m ρ c main_arg5 (by decide)).trans <|
    (W15_of m ρ c main_arg5 (by decide)).trans <|
    (W14_of_ne m ρ c main_arg5 (by decide)).trans <|
    (W13_of m ρ c main_arg5 (by decide)).trans <|
    (W12_of_ne m ρ c main_arg5 (by decide)).trans <|
    (W11_of m ρ c main_arg5 (by decide)).trans <|
    (W10_of_ne m ρ c main_arg5 (by decide)).trans <|
    (W9_of m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    ((W2_arr m ρ c 1).trans (((dat0 (V1 m ρ) c).arrAt_in 1 rfl _).trans (A_eq0 (V1 m ρ) c 1))).trans <|
    (W1_of m ρ c main_arg5 (by decide)).trans <| rfl

theorem W23_main_arg6 (c : Dev nD) : W23 m ρ c (Proc.devRef .tc main_arg6) = m ((c : Thread nD τ).loc main_arg6) :=
  (W23_of m ρ c main_arg6 (by decide)).trans <|
    (W22_of_ne m ρ c main_arg6 (by decide)).trans <|
    (W21_of m ρ c main_arg6 (by decide)).trans <|
    (W20_of_ne m ρ c main_arg6 (by decide)).trans <|
    (W19_of m ρ c main_arg6 (by decide)).trans <|
    (W18_of_ne m ρ c main_arg6 (by decide)).trans <|
    (W17_of m ρ c main_arg6 (by decide)).trans <|
    (W16_of_ne m ρ c main_arg6 (by decide)).trans <|
    (W15_of m ρ c main_arg6 (by decide)).trans <|
    (W14_of_ne m ρ c main_arg6 (by decide)).trans <|
    (W13_of m ρ c main_arg6 (by decide)).trans <|
    (W12_of_ne m ρ c main_arg6 (by decide)).trans <|
    (W11_of m ρ c main_arg6 (by decide)).trans <|
    (W10_of_ne m ρ c main_arg6 (by decide)).trans <|
    (W9_of m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide)).trans <| rfl

theorem W23_main_arg7 (c : Dev nD) : W23 m ρ c (Proc.devRef .tc main_arg7) = m ((c : Thread nD τ).loc main_arg7) :=
  (W23_of m ρ c main_arg7 (by decide)).trans <|
    (W22_of_ne m ρ c main_arg7 (by decide)).trans <|
    (W21_of m ρ c main_arg7 (by decide)).trans <|
    (W20_of_ne m ρ c main_arg7 (by decide)).trans <|
    (W19_of m ρ c main_arg7 (by decide)).trans <|
    (W18_of_ne m ρ c main_arg7 (by decide)).trans <|
    (W17_of m ρ c main_arg7 (by decide)).trans <|
    (W16_of_ne m ρ c main_arg7 (by decide)).trans <|
    (W15_of m ρ c main_arg7 (by decide)).trans <|
    (W14_of_ne m ρ c main_arg7 (by decide)).trans <|
    (W13_of m ρ c main_arg7 (by decide)).trans <|
    (W12_of_ne m ρ c main_arg7 (by decide)).trans <|
    (W11_of m ρ c main_arg7 (by decide)).trans <|
    (W10_of_ne m ρ c main_arg7 (by decide)).trans <|
    (W9_of m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    ((W2_arr m ρ c 3).trans (((dat0 (V1 m ρ) c).arrAt_in 3 rfl _).trans (A_eq0 (V1 m ρ) c 3))).trans <|
    (W1_of m ρ c main_arg7 (by decide)).trans <| rfl

theorem W23_main_arg8 (c : Dev nD) : W23 m ρ c (Proc.devRef .tc main_arg8) = m ((c : Thread nD τ).loc main_arg8) :=
  (W23_of m ρ c main_arg8 (by decide)).trans <|
    (W22_of_ne m ρ c main_arg8 (by decide)).trans <|
    (W21_of m ρ c main_arg8 (by decide)).trans <|
    (W20_of_ne m ρ c main_arg8 (by decide)).trans <|
    (W19_of m ρ c main_arg8 (by decide)).trans <|
    (W18_of_ne m ρ c main_arg8 (by decide)).trans <|
    (W17_of m ρ c main_arg8 (by decide)).trans <|
    (W16_of_ne m ρ c main_arg8 (by decide)).trans <|
    (W15_of m ρ c main_arg8 (by decide)).trans <|
    (W14_of_ne m ρ c main_arg8 (by decide)).trans <|
    (W13_of m ρ c main_arg8 (by decide)).trans <|
    (W12_of_ne m ρ c main_arg8 (by decide)).trans <|
    (W11_of m ρ c main_arg8 (by decide)).trans <|
    (W10_of_ne m ρ c main_arg8 (by decide)).trans <|
    (W9_of m ρ c main_arg8 (by decide)).trans <|
    (W8_of_ne m ρ c main_arg8 (by decide)).trans <|
    (W7_of m ρ c main_arg8 (by decide)).trans <|
    (W6_of_ne m ρ c main_arg8 (by decide)).trans <|
    (W5_of m ρ c main_arg8 (by decide)).trans <|
    (W4_of_ne m ρ c main_arg8 (by decide)).trans <|
    (W3_of m ρ c main_arg8 (by decide)).trans <|
    (W2_of_ne m ρ c main_arg8 (by decide)).trans <|
    (W1_of m ρ c main_arg8 (by decide)).trans <| rfl

theorem W23_main_arg9 (c : Dev nD) : W23 m ρ c (Proc.devRef .tc main_arg9) = m ((c : Thread nD τ).loc main_arg9) :=
  (W23_of m ρ c main_arg9 (by decide)).trans <|
    (W22_of_ne m ρ c main_arg9 (by decide)).trans <|
    (W21_of m ρ c main_arg9 (by decide)).trans <|
    (W20_of_ne m ρ c main_arg9 (by decide)).trans <|
    (W19_of m ρ c main_arg9 (by decide)).trans <|
    (W18_of_ne m ρ c main_arg9 (by decide)).trans <|
    (W17_of m ρ c main_arg9 (by decide)).trans <|
    (W16_of_ne m ρ c main_arg9 (by decide)).trans <|
    (W15_of m ρ c main_arg9 (by decide)).trans <|
    (W14_of_ne m ρ c main_arg9 (by decide)).trans <|
    (W13_of m ρ c main_arg9 (by decide)).trans <|
    (W12_of_ne m ρ c main_arg9 (by decide)).trans <|
    (W11_of m ρ c main_arg9 (by decide)).trans <|
    (W10_of_ne m ρ c main_arg9 (by decide)).trans <|
    (W9_of m ρ c main_arg9 (by decide)).trans <|
    (W8_of_ne m ρ c main_arg9 (by decide)).trans <|
    (W7_of m ρ c main_arg9 (by decide)).trans <|
    (W6_of_ne m ρ c main_arg9 (by decide)).trans <|
    (W5_of m ρ c main_arg9 (by decide)).trans <|
    (W4_of_ne m ρ c main_arg9 (by decide)).trans <|
    (W3_of m ρ c main_arg9 (by decide)).trans <|
    (W2_of_ne m ρ c main_arg9 (by decide)).trans <|
    (W1_of m ρ c main_arg9 (by decide)).trans <| rfl

theorem W23_main_arg10 (c : Dev nD) : W23 m ρ c (Proc.devRef .tc main_arg10) = m ((c : Thread nD τ).loc main_arg10) :=
  (W23_of m ρ c main_arg10 (by decide)).trans <|
    (W22_of_ne m ρ c main_arg10 (by decide)).trans <|
    (W21_of m ρ c main_arg10 (by decide)).trans <|
    (W20_of_ne m ρ c main_arg10 (by decide)).trans <|
    (W19_of m ρ c main_arg10 (by decide)).trans <|
    (W18_of_ne m ρ c main_arg10 (by decide)).trans <|
    (W17_of m ρ c main_arg10 (by decide)).trans <|
    (W16_of_ne m ρ c main_arg10 (by decide)).trans <|
    (W15_of m ρ c main_arg10 (by decide)).trans <|
    (W14_of_ne m ρ c main_arg10 (by decide)).trans <|
    (W13_of m ρ c main_arg10 (by decide)).trans <|
    (W12_of_ne m ρ c main_arg10 (by decide)).trans <|
    (W11_of m ρ c main_arg10 (by decide)).trans <|
    (W10_of_ne m ρ c main_arg10 (by decide)).trans <|
    (W9_of m ρ c main_arg10 (by decide)).trans <|
    (W8_of_ne m ρ c main_arg10 (by decide)).trans <|
    (W7_of m ρ c main_arg10 (by decide)).trans <|
    (W6_of_ne m ρ c main_arg10 (by decide)).trans <|
    (W5_of m ρ c main_arg10 (by decide)).trans <|
    (W4_of_ne m ρ c main_arg10 (by decide)).trans <|
    (W3_of m ρ c main_arg10 (by decide)).trans <|
    (W2_of_ne m ρ c main_arg10 (by decide)).trans <|
    (W1_of m ρ c main_arg10 (by decide)).trans <| rfl

theorem W23_main_arg11 (c : Dev nD) : W23 m ρ c (Proc.devRef .tc main_arg11) = m ((c : Thread nD τ).loc main_arg11) :=
  (W23_of m ρ c main_arg11 (by decide)).trans <|
    (W22_of_ne m ρ c main_arg11 (by decide)).trans <|
    (W21_of m ρ c main_arg11 (by decide)).trans <|
    (W20_of_ne m ρ c main_arg11 (by decide)).trans <|
    (W19_of m ρ c main_arg11 (by decide)).trans <|
    (W18_of_ne m ρ c main_arg11 (by decide)).trans <|
    (W17_of m ρ c main_arg11 (by decide)).trans <|
    (W16_of_ne m ρ c main_arg11 (by decide)).trans <|
    (W15_of m ρ c main_arg11 (by decide)).trans <|
    (W14_of_ne m ρ c main_arg11 (by decide)).trans <|
    (W13_of m ρ c main_arg11 (by decide)).trans <|
    (W12_of_ne m ρ c main_arg11 (by decide)).trans <|
    (W11_of m ρ c main_arg11 (by decide)).trans <|
    (W10_of_ne m ρ c main_arg11 (by decide)).trans <|
    (W9_of m ρ c main_arg11 (by decide)).trans <|
    (W8_of_ne m ρ c main_arg11 (by decide)).trans <|
    (W7_of m ρ c main_arg11 (by decide)).trans <|
    (W6_of_ne m ρ c main_arg11 (by decide)).trans <|
    (W5_of m ρ c main_arg11 (by decide)).trans <|
    (W4_of_ne m ρ c main_arg11 (by decide)).trans <|
    (W3_of m ρ c main_arg11 (by decide)).trans <|
    (W2_of_ne m ρ c main_arg11 (by decide)).trans <|
    (W1_of m ρ c main_arg11 (by decide)).trans <| rfl

theorem W23_main_arg12 (c : Dev nD) : W23 m ρ c (Proc.devRef .tc main_arg12) = m ((c : Thread nD τ).loc main_arg12) :=
  (W23_of m ρ c main_arg12 (by decide)).trans <|
    (W22_of_ne m ρ c main_arg12 (by decide)).trans <|
    (W21_of m ρ c main_arg12 (by decide)).trans <|
    (W20_of_ne m ρ c main_arg12 (by decide)).trans <|
    (W19_of m ρ c main_arg12 (by decide)).trans <|
    (W18_of_ne m ρ c main_arg12 (by decide)).trans <|
    (W17_of m ρ c main_arg12 (by decide)).trans <|
    (W16_of_ne m ρ c main_arg12 (by decide)).trans <|
    (W15_of m ρ c main_arg12 (by decide)).trans <|
    (W14_of_ne m ρ c main_arg12 (by decide)).trans <|
    (W13_of m ρ c main_arg12 (by decide)).trans <|
    (W12_of_ne m ρ c main_arg12 (by decide)).trans <|
    (W11_of m ρ c main_arg12 (by decide)).trans <|
    (W10_of_ne m ρ c main_arg12 (by decide)).trans <|
    (W9_of m ρ c main_arg12 (by decide)).trans <|
    (W8_of_ne m ρ c main_arg12 (by decide)).trans <|
    (W7_of m ρ c main_arg12 (by decide)).trans <|
    (W6_of_ne m ρ c main_arg12 (by decide)).trans <|
    (W5_of m ρ c main_arg12 (by decide)).trans <|
    (W4_of_ne m ρ c main_arg12 (by decide)).trans <|
    (W3_of m ρ c main_arg12 (by decide)).trans <|
    (W2_of_ne m ρ c main_arg12 (by decide)).trans <|
    (W1_of m ρ c main_arg12 (by decide)).trans <| rfl

theorem W23_main_arg13 (c : Dev nD) : W23 m ρ c (Proc.devRef .tc main_arg13) = m ((c : Thread nD τ).loc main_arg13) :=
  (W23_of m ρ c main_arg13 (by decide)).trans <|
    (W22_of_ne m ρ c main_arg13 (by decide)).trans <|
    (W21_of m ρ c main_arg13 (by decide)).trans <|
    (W20_of_ne m ρ c main_arg13 (by decide)).trans <|
    (W19_of m ρ c main_arg13 (by decide)).trans <|
    (W18_of_ne m ρ c main_arg13 (by decide)).trans <|
    (W17_of m ρ c main_arg13 (by decide)).trans <|
    (W16_of_ne m ρ c main_arg13 (by decide)).trans <|
    (W15_of m ρ c main_arg13 (by decide)).trans <|
    (W14_of_ne m ρ c main_arg13 (by decide)).trans <|
    (W13_of m ρ c main_arg13 (by decide)).trans <|
    (W12_of_ne m ρ c main_arg13 (by decide)).trans <|
    (W11_of m ρ c main_arg13 (by decide)).trans <|
    (W10_of_ne m ρ c main_arg13 (by decide)).trans <|
    (W9_of m ρ c main_arg13 (by decide)).trans <|
    (W8_of_ne m ρ c main_arg13 (by decide)).trans <|
    (W7_of m ρ c main_arg13 (by decide)).trans <|
    (W6_of_ne m ρ c main_arg13 (by decide)).trans <|
    (W5_of m ρ c main_arg13 (by decide)).trans <|
    ((W4_arr m ρ c 1).trans (((dat1 (V3 m ρ) c).arrAt_in 1 rfl _).trans (A_eq1 (V3 m ρ) c 1))).trans <|
    (W3_of m ρ c main_arg13 (by decide)).trans <|
    (W2_of_ne m ρ c main_arg13 (by decide)).trans <|
    (W1_of m ρ c main_arg13 (by decide)).trans <| rfl

theorem W23_main_arg14 (c : Dev nD) : W23 m ρ c (Proc.devRef .tc main_arg14) = m ((c : Thread nD τ).loc main_arg14) :=
  (W23_of m ρ c main_arg14 (by decide)).trans <|
    (W22_of_ne m ρ c main_arg14 (by decide)).trans <|
    (W21_of m ρ c main_arg14 (by decide)).trans <|
    (W20_of_ne m ρ c main_arg14 (by decide)).trans <|
    (W19_of m ρ c main_arg14 (by decide)).trans <|
    (W18_of_ne m ρ c main_arg14 (by decide)).trans <|
    (W17_of m ρ c main_arg14 (by decide)).trans <|
    (W16_of_ne m ρ c main_arg14 (by decide)).trans <|
    (W15_of m ρ c main_arg14 (by decide)).trans <|
    (W14_of_ne m ρ c main_arg14 (by decide)).trans <|
    (W13_of m ρ c main_arg14 (by decide)).trans <|
    (W12_of_ne m ρ c main_arg14 (by decide)).trans <|
    (W11_of m ρ c main_arg14 (by decide)).trans <|
    (W10_of_ne m ρ c main_arg14 (by decide)).trans <|
    (W9_of m ρ c main_arg14 (by decide)).trans <|
    (W8_of_ne m ρ c main_arg14 (by decide)).trans <|
    (W7_of m ρ c main_arg14 (by decide)).trans <|
    (W6_of_ne m ρ c main_arg14 (by decide)).trans <|
    (W5_of m ρ c main_arg14 (by decide)).trans <|
    (W4_of_ne m ρ c main_arg14 (by decide)).trans <|
    (W3_of m ρ c main_arg14 (by decide)).trans <|
    (W2_of_ne m ρ c main_arg14 (by decide)).trans <|
    (W1_of m ρ c main_arg14 (by decide)).trans <| rfl

theorem W23_main_arg15 (c : Dev nD) : W23 m ρ c (Proc.devRef .tc main_arg15) = m ((c : Thread nD τ).loc main_arg15) :=
  (W23_of m ρ c main_arg15 (by decide)).trans <|
    (W22_of_ne m ρ c main_arg15 (by decide)).trans <|
    (W21_of m ρ c main_arg15 (by decide)).trans <|
    (W20_of_ne m ρ c main_arg15 (by decide)).trans <|
    (W19_of m ρ c main_arg15 (by decide)).trans <|
    (W18_of_ne m ρ c main_arg15 (by decide)).trans <|
    (W17_of m ρ c main_arg15 (by decide)).trans <|
    (W16_of_ne m ρ c main_arg15 (by decide)).trans <|
    (W15_of m ρ c main_arg15 (by decide)).trans <|
    (W14_of_ne m ρ c main_arg15 (by decide)).trans <|
    (W13_of m ρ c main_arg15 (by decide)).trans <|
    (W12_of_ne m ρ c main_arg15 (by decide)).trans <|
    (W11_of m ρ c main_arg15 (by decide)).trans <|
    (W10_of_ne m ρ c main_arg15 (by decide)).trans <|
    (W9_of m ρ c main_arg15 (by decide)).trans <|
    (W8_of_ne m ρ c main_arg15 (by decide)).trans <|
    (W7_of m ρ c main_arg15 (by decide)).trans <|
    (W6_of_ne m ρ c main_arg15 (by decide)).trans <|
    (W5_of m ρ c main_arg15 (by decide)).trans <|
    ((W4_arr m ρ c 3).trans (((dat1 (V3 m ρ) c).arrAt_in 3 rfl _).trans (A_eq1 (V3 m ρ) c 3))).trans <|
    (W3_of m ρ c main_arg15 (by decide)).trans <|
    (W2_of_ne m ρ c main_arg15 (by decide)).trans <|
    (W1_of m ρ c main_arg15 (by decide)).trans <| rfl

theorem W23_main_arg16 (c : Dev nD) : W23 m ρ c (Proc.devRef .tc main_arg16) = m ((c : Thread nD τ).loc main_arg16) :=
  (W23_of m ρ c main_arg16 (by decide)).trans <|
    (W22_of_ne m ρ c main_arg16 (by decide)).trans <|
    (W21_of m ρ c main_arg16 (by decide)).trans <|
    (W20_of_ne m ρ c main_arg16 (by decide)).trans <|
    (W19_of m ρ c main_arg16 (by decide)).trans <|
    (W18_of_ne m ρ c main_arg16 (by decide)).trans <|
    (W17_of m ρ c main_arg16 (by decide)).trans <|
    (W16_of_ne m ρ c main_arg16 (by decide)).trans <|
    (W15_of m ρ c main_arg16 (by decide)).trans <|
    (W14_of_ne m ρ c main_arg16 (by decide)).trans <|
    (W13_of m ρ c main_arg16 (by decide)).trans <|
    (W12_of_ne m ρ c main_arg16 (by decide)).trans <|
    (W11_of m ρ c main_arg16 (by decide)).trans <|
    (W10_of_ne m ρ c main_arg16 (by decide)).trans <|
    (W9_of m ρ c main_arg16 (by decide)).trans <|
    (W8_of_ne m ρ c main_arg16 (by decide)).trans <|
    (W7_of m ρ c main_arg16 (by decide)).trans <|
    (W6_of_ne m ρ c main_arg16 (by decide)).trans <|
    (W5_of m ρ c main_arg16 (by decide)).trans <|
    (W4_of_ne m ρ c main_arg16 (by decide)).trans <|
    (W3_of m ρ c main_arg16 (by decide)).trans <|
    (W2_of_ne m ρ c main_arg16 (by decide)).trans <|
    (W1_of m ρ c main_arg16 (by decide)).trans <| rfl

theorem W23_main_arg17 (c : Dev nD) : W23 m ρ c (Proc.devRef .tc main_arg17) = m ((c : Thread nD τ).loc main_arg17) :=
  (W23_of m ρ c main_arg17 (by decide)).trans <|
    (W22_of_ne m ρ c main_arg17 (by decide)).trans <|
    (W21_of m ρ c main_arg17 (by decide)).trans <|
    (W20_of_ne m ρ c main_arg17 (by decide)).trans <|
    (W19_of m ρ c main_arg17 (by decide)).trans <|
    (W18_of_ne m ρ c main_arg17 (by decide)).trans <|
    (W17_of m ρ c main_arg17 (by decide)).trans <|
    (W16_of_ne m ρ c main_arg17 (by decide)).trans <|
    (W15_of m ρ c main_arg17 (by decide)).trans <|
    (W14_of_ne m ρ c main_arg17 (by decide)).trans <|
    (W13_of m ρ c main_arg17 (by decide)).trans <|
    (W12_of_ne m ρ c main_arg17 (by decide)).trans <|
    (W11_of m ρ c main_arg17 (by decide)).trans <|
    (W10_of_ne m ρ c main_arg17 (by decide)).trans <|
    (W9_of m ρ c main_arg17 (by decide)).trans <|
    (W8_of_ne m ρ c main_arg17 (by decide)).trans <|
    (W7_of m ρ c main_arg17 (by decide)).trans <|
    (W6_of_ne m ρ c main_arg17 (by decide)).trans <|
    (W5_of m ρ c main_arg17 (by decide)).trans <|
    (W4_of_ne m ρ c main_arg17 (by decide)).trans <|
    (W3_of m ρ c main_arg17 (by decide)).trans <|
    (W2_of_ne m ρ c main_arg17 (by decide)).trans <|
    (W1_of m ρ c main_arg17 (by decide)).trans <| rfl

theorem W23_main_arg18 (c : Dev nD) : W23 m ρ c (Proc.devRef .tc main_arg18) = m ((c : Thread nD τ).loc main_arg18) :=
  (W23_of m ρ c main_arg18 (by decide)).trans <|
    (W22_of_ne m ρ c main_arg18 (by decide)).trans <|
    (W21_of m ρ c main_arg18 (by decide)).trans <|
    (W20_of_ne m ρ c main_arg18 (by decide)).trans <|
    (W19_of m ρ c main_arg18 (by decide)).trans <|
    (W18_of_ne m ρ c main_arg18 (by decide)).trans <|
    (W17_of m ρ c main_arg18 (by decide)).trans <|
    (W16_of_ne m ρ c main_arg18 (by decide)).trans <|
    (W15_of m ρ c main_arg18 (by decide)).trans <|
    (W14_of_ne m ρ c main_arg18 (by decide)).trans <|
    (W13_of m ρ c main_arg18 (by decide)).trans <|
    (W12_of_ne m ρ c main_arg18 (by decide)).trans <|
    (W11_of m ρ c main_arg18 (by decide)).trans <|
    (W10_of_ne m ρ c main_arg18 (by decide)).trans <|
    (W9_of m ρ c main_arg18 (by decide)).trans <|
    (W8_of_ne m ρ c main_arg18 (by decide)).trans <|
    (W7_of m ρ c main_arg18 (by decide)).trans <|
    (W6_of_ne m ρ c main_arg18 (by decide)).trans <|
    (W5_of m ρ c main_arg18 (by decide)).trans <|
    (W4_of_ne m ρ c main_arg18 (by decide)).trans <|
    (W3_of m ρ c main_arg18 (by decide)).trans <|
    (W2_of_ne m ρ c main_arg18 (by decide)).trans <|
    (W1_of m ρ c main_arg18 (by decide)).trans <| rfl

theorem W23_main_arg19 (c : Dev nD) : W23 m ρ c (Proc.devRef .tc main_arg19) = m ((c : Thread nD τ).loc main_arg19) :=
  (W23_of m ρ c main_arg19 (by decide)).trans <|
    (W22_of_ne m ρ c main_arg19 (by decide)).trans <|
    (W21_of m ρ c main_arg19 (by decide)).trans <|
    (W20_of_ne m ρ c main_arg19 (by decide)).trans <|
    (W19_of m ρ c main_arg19 (by decide)).trans <|
    (W18_of_ne m ρ c main_arg19 (by decide)).trans <|
    (W17_of m ρ c main_arg19 (by decide)).trans <|
    (W16_of_ne m ρ c main_arg19 (by decide)).trans <|
    (W15_of m ρ c main_arg19 (by decide)).trans <|
    (W14_of_ne m ρ c main_arg19 (by decide)).trans <|
    (W13_of m ρ c main_arg19 (by decide)).trans <|
    (W12_of_ne m ρ c main_arg19 (by decide)).trans <|
    (W11_of m ρ c main_arg19 (by decide)).trans <|
    (W10_of_ne m ρ c main_arg19 (by decide)).trans <|
    (W9_of m ρ c main_arg19 (by decide)).trans <|
    (W8_of_ne m ρ c main_arg19 (by decide)).trans <|
    (W7_of m ρ c main_arg19 (by decide)).trans <|
    (W6_of_ne m ρ c main_arg19 (by decide)).trans <|
    (W5_of m ρ c main_arg19 (by decide)).trans <|
    (W4_of_ne m ρ c main_arg19 (by decide)).trans <|
    (W3_of m ρ c main_arg19 (by decide)).trans <|
    (W2_of_ne m ρ c main_arg19 (by decide)).trans <|
    (W1_of m ρ c main_arg19 (by decide)).trans <| rfl

theorem W23_main_arg20 (c : Dev nD) : W23 m ρ c (Proc.devRef .tc main_arg20) = m ((c : Thread nD τ).loc main_arg20) :=
  (W23_of m ρ c main_arg20 (by decide)).trans <|
    (W22_of_ne m ρ c main_arg20 (by decide)).trans <|
    (W21_of m ρ c main_arg20 (by decide)).trans <|
    (W20_of_ne m ρ c main_arg20 (by decide)).trans <|
    (W19_of m ρ c main_arg20 (by decide)).trans <|
    (W18_of_ne m ρ c main_arg20 (by decide)).trans <|
    (W17_of m ρ c main_arg20 (by decide)).trans <|
    (W16_of_ne m ρ c main_arg20 (by decide)).trans <|
    (W15_of m ρ c main_arg20 (by decide)).trans <|
    (W14_of_ne m ρ c main_arg20 (by decide)).trans <|
    (W13_of m ρ c main_arg20 (by decide)).trans <|
    (W12_of_ne m ρ c main_arg20 (by decide)).trans <|
    (W11_of m ρ c main_arg20 (by decide)).trans <|
    (W10_of_ne m ρ c main_arg20 (by decide)).trans <|
    (W9_of m ρ c main_arg20 (by decide)).trans <|
    (W8_of_ne m ρ c main_arg20 (by decide)).trans <|
    (W7_of m ρ c main_arg20 (by decide)).trans <|
    (W6_of_ne m ρ c main_arg20 (by decide)).trans <|
    (W5_of m ρ c main_arg20 (by decide)).trans <|
    (W4_of_ne m ρ c main_arg20 (by decide)).trans <|
    (W3_of m ρ c main_arg20 (by decide)).trans <|
    (W2_of_ne m ρ c main_arg20 (by decide)).trans <|
    (W1_of m ρ c main_arg20 (by decide)).trans <| rfl

theorem W23_main_arg21 (c : Dev nD) : W23 m ρ c (Proc.devRef .tc main_arg21) = m ((c : Thread nD τ).loc main_arg21) :=
  (W23_of m ρ c main_arg21 (by decide)).trans <|
    (W22_of_ne m ρ c main_arg21 (by decide)).trans <|
    (W21_of m ρ c main_arg21 (by decide)).trans <|
    (W20_of_ne m ρ c main_arg21 (by decide)).trans <|
    (W19_of m ρ c main_arg21 (by decide)).trans <|
    (W18_of_ne m ρ c main_arg21 (by decide)).trans <|
    (W17_of m ρ c main_arg21 (by decide)).trans <|
    (W16_of_ne m ρ c main_arg21 (by decide)).trans <|
    (W15_of m ρ c main_arg21 (by decide)).trans <|
    (W14_of_ne m ρ c main_arg21 (by decide)).trans <|
    (W13_of m ρ c main_arg21 (by decide)).trans <|
    (W12_of_ne m ρ c main_arg21 (by decide)).trans <|
    (W11_of m ρ c main_arg21 (by decide)).trans <|
    (W10_of_ne m ρ c main_arg21 (by decide)).trans <|
    (W9_of m ρ c main_arg21 (by decide)).trans <|
    (W8_of_ne m ρ c main_arg21 (by decide)).trans <|
    (W7_of m ρ c main_arg21 (by decide)).trans <|
    (W6_of_ne m ρ c main_arg21 (by decide)).trans <|
    (W5_of m ρ c main_arg21 (by decide)).trans <|
    (W4_of_ne m ρ c main_arg21 (by decide)).trans <|
    (W3_of m ρ c main_arg21 (by decide)).trans <|
    (W2_of_ne m ρ c main_arg21 (by decide)).trans <|
    (W1_of m ρ c main_arg21 (by decide)).trans <| rfl

theorem W23_main_arg22 (c : Dev nD) : W23 m ρ c (Proc.devRef .tc main_arg22) = m ((c : Thread nD τ).loc main_arg22) :=
  (W23_of m ρ c main_arg22 (by decide)).trans <|
    (W22_of_ne m ρ c main_arg22 (by decide)).trans <|
    (W21_of m ρ c main_arg22 (by decide)).trans <|
    (W20_of_ne m ρ c main_arg22 (by decide)).trans <|
    (W19_of m ρ c main_arg22 (by decide)).trans <|
    (W18_of_ne m ρ c main_arg22 (by decide)).trans <|
    (W17_of m ρ c main_arg22 (by decide)).trans <|
    (W16_of_ne m ρ c main_arg22 (by decide)).trans <|
    (W15_of m ρ c main_arg22 (by decide)).trans <|
    (W14_of_ne m ρ c main_arg22 (by decide)).trans <|
    (W13_of m ρ c main_arg22 (by decide)).trans <|
    (W12_of_ne m ρ c main_arg22 (by decide)).trans <|
    (W11_of m ρ c main_arg22 (by decide)).trans <|
    (W10_of_ne m ρ c main_arg22 (by decide)).trans <|
    (W9_of m ρ c main_arg22 (by decide)).trans <|
    (W8_of_ne m ρ c main_arg22 (by decide)).trans <|
    (W7_of m ρ c main_arg22 (by decide)).trans <|
    (W6_of_ne m ρ c main_arg22 (by decide)).trans <|
    (W5_of m ρ c main_arg22 (by decide)).trans <|
    (W4_of_ne m ρ c main_arg22 (by decide)).trans <|
    (W3_of m ρ c main_arg22 (by decide)).trans <|
    (W2_of_ne m ρ c main_arg22 (by decide)).trans <|
    (W1_of m ρ c main_arg22 (by decide)).trans <| rfl

theorem W23_main_arg23 (c : Dev nD) : W23 m ρ c (Proc.devRef .tc main_arg23) = m ((c : Thread nD τ).loc main_arg23) :=
  (W23_of m ρ c main_arg23 (by decide)).trans <|
    (W22_of_ne m ρ c main_arg23 (by decide)).trans <|
    (W21_of m ρ c main_arg23 (by decide)).trans <|
    (W20_of_ne m ρ c main_arg23 (by decide)).trans <|
    (W19_of m ρ c main_arg23 (by decide)).trans <|
    (W18_of_ne m ρ c main_arg23 (by decide)).trans <|
    (W17_of m ρ c main_arg23 (by decide)).trans <|
    (W16_of_ne m ρ c main_arg23 (by decide)).trans <|
    (W15_of m ρ c main_arg23 (by decide)).trans <|
    (W14_of_ne m ρ c main_arg23 (by decide)).trans <|
    (W13_of m ρ c main_arg23 (by decide)).trans <|
    (W12_of_ne m ρ c main_arg23 (by decide)).trans <|
    (W11_of m ρ c main_arg23 (by decide)).trans <|
    (W10_of_ne m ρ c main_arg23 (by decide)).trans <|
    (W9_of m ρ c main_arg23 (by decide)).trans <|
    (W8_of_ne m ρ c main_arg23 (by decide)).trans <|
    (W7_of m ρ c main_arg23 (by decide)).trans <|
    (W6_of_ne m ρ c main_arg23 (by decide)).trans <|
    (W5_of m ρ c main_arg23 (by decide)).trans <|
    (W4_of_ne m ρ c main_arg23 (by decide)).trans <|
    (W3_of m ρ c main_arg23 (by decide)).trans <|
    (W2_of_ne m ρ c main_arg23 (by decide)).trans <|
    (W1_of m ρ c main_arg23 (by decide)).trans <| rfl

theorem W23_main_arg24 (c : Dev nD) : W23 m ρ c (Proc.devRef .tc main_arg24) = m ((c : Thread nD τ).loc main_arg24) :=
  (W23_of m ρ c main_arg24 (by decide)).trans <|
    (W22_of_ne m ρ c main_arg24 (by decide)).trans <|
    (W21_of m ρ c main_arg24 (by decide)).trans <|
    (W20_of_ne m ρ c main_arg24 (by decide)).trans <|
    (W19_of m ρ c main_arg24 (by decide)).trans <|
    (W18_of_ne m ρ c main_arg24 (by decide)).trans <|
    (W17_of m ρ c main_arg24 (by decide)).trans <|
    (W16_of_ne m ρ c main_arg24 (by decide)).trans <|
    (W15_of m ρ c main_arg24 (by decide)).trans <|
    (W14_of_ne m ρ c main_arg24 (by decide)).trans <|
    (W13_of m ρ c main_arg24 (by decide)).trans <|
    (W12_of_ne m ρ c main_arg24 (by decide)).trans <|
    (W11_of m ρ c main_arg24 (by decide)).trans <|
    (W10_of_ne m ρ c main_arg24 (by decide)).trans <|
    (W9_of m ρ c main_arg24 (by decide)).trans <|
    (W8_of_ne m ρ c main_arg24 (by decide)).trans <|
    (W7_of m ρ c main_arg24 (by decide)).trans <|
    (W6_of_ne m ρ c main_arg24 (by decide)).trans <|
    (W5_of m ρ c main_arg24 (by decide)).trans <|
    (W4_of_ne m ρ c main_arg24 (by decide)).trans <|
    (W3_of m ρ c main_arg24 (by decide)).trans <|
    (W2_of_ne m ρ c main_arg24 (by decide)).trans <|
    (W1_of m ρ c main_arg24 (by decide)).trans <| rfl

theorem W23_main_arg25 (c : Dev nD) : W23 m ρ c (Proc.devRef .tc main_arg25) = m ((c : Thread nD τ).loc main_arg25) :=
  (W23_of m ρ c main_arg25 (by decide)).trans <|
    (W22_of_ne m ρ c main_arg25 (by decide)).trans <|
    (W21_of m ρ c main_arg25 (by decide)).trans <|
    (W20_of_ne m ρ c main_arg25 (by decide)).trans <|
    (W19_of m ρ c main_arg25 (by decide)).trans <|
    (W18_of_ne m ρ c main_arg25 (by decide)).trans <|
    (W17_of m ρ c main_arg25 (by decide)).trans <|
    (W16_of_ne m ρ c main_arg25 (by decide)).trans <|
    (W15_of m ρ c main_arg25 (by decide)).trans <|
    (W14_of_ne m ρ c main_arg25 (by decide)).trans <|
    (W13_of m ρ c main_arg25 (by decide)).trans <|
    (W12_of_ne m ρ c main_arg25 (by decide)).trans <|
    (W11_of m ρ c main_arg25 (by decide)).trans <|
    (W10_of_ne m ρ c main_arg25 (by decide)).trans <|
    (W9_of m ρ c main_arg25 (by decide)).trans <|
    (W8_of_ne m ρ c main_arg25 (by decide)).trans <|
    (W7_of m ρ c main_arg25 (by decide)).trans <|
    (W6_of_ne m ρ c main_arg25 (by decide)).trans <|
    (W5_of m ρ c main_arg25 (by decide)).trans <|
    (W4_of_ne m ρ c main_arg25 (by decide)).trans <|
    (W3_of m ρ c main_arg25 (by decide)).trans <|
    (W2_of_ne m ρ c main_arg25 (by decide)).trans <|
    (W1_of m ρ c main_arg25 (by decide)).trans <| rfl

theorem W23_main_arg26 (c : Dev nD) : W23 m ρ c (Proc.devRef .tc main_arg26) = m ((c : Thread nD τ).loc main_arg26) :=
  (W23_of m ρ c main_arg26 (by decide)).trans <|
    (W22_of_ne m ρ c main_arg26 (by decide)).trans <|
    (W21_of m ρ c main_arg26 (by decide)).trans <|
    (W20_of_ne m ρ c main_arg26 (by decide)).trans <|
    (W19_of m ρ c main_arg26 (by decide)).trans <|
    (W18_of_ne m ρ c main_arg26 (by decide)).trans <|
    (W17_of m ρ c main_arg26 (by decide)).trans <|
    (W16_of_ne m ρ c main_arg26 (by decide)).trans <|
    (W15_of m ρ c main_arg26 (by decide)).trans <|
    (W14_of_ne m ρ c main_arg26 (by decide)).trans <|
    (W13_of m ρ c main_arg26 (by decide)).trans <|
    (W12_of_ne m ρ c main_arg26 (by decide)).trans <|
    (W11_of m ρ c main_arg26 (by decide)).trans <|
    (W10_of_ne m ρ c main_arg26 (by decide)).trans <|
    (W9_of m ρ c main_arg26 (by decide)).trans <|
    (W8_of_ne m ρ c main_arg26 (by decide)).trans <|
    (W7_of m ρ c main_arg26 (by decide)).trans <|
    (W6_of_ne m ρ c main_arg26 (by decide)).trans <|
    (W5_of m ρ c main_arg26 (by decide)).trans <|
    (W4_of_ne m ρ c main_arg26 (by decide)).trans <|
    (W3_of m ρ c main_arg26 (by decide)).trans <|
    (W2_of_ne m ρ c main_arg26 (by decide)).trans <|
    (W1_of m ρ c main_arg26 (by decide)).trans <| rfl

theorem W23_main_arg27 (c : Dev nD) : W23 m ρ c (Proc.devRef .tc main_arg27) = m ((c : Thread nD τ).loc main_arg27) :=
  (W23_of m ρ c main_arg27 (by decide)).trans <|
    (W22_of_ne m ρ c main_arg27 (by decide)).trans <|
    (W21_of m ρ c main_arg27 (by decide)).trans <|
    (W20_of_ne m ρ c main_arg27 (by decide)).trans <|
    (W19_of m ρ c main_arg27 (by decide)).trans <|
    (W18_of_ne m ρ c main_arg27 (by decide)).trans <|
    (W17_of m ρ c main_arg27 (by decide)).trans <|
    (W16_of_ne m ρ c main_arg27 (by decide)).trans <|
    (W15_of m ρ c main_arg27 (by decide)).trans <|
    (W14_of_ne m ρ c main_arg27 (by decide)).trans <|
    (W13_of m ρ c main_arg27 (by decide)).trans <|
    (W12_of_ne m ρ c main_arg27 (by decide)).trans <|
    (W11_of m ρ c main_arg27 (by decide)).trans <|
    (W10_of_ne m ρ c main_arg27 (by decide)).trans <|
    (W9_of m ρ c main_arg27 (by decide)).trans <|
    (W8_of_ne m ρ c main_arg27 (by decide)).trans <|
    (W7_of m ρ c main_arg27 (by decide)).trans <|
    (W6_of_ne m ρ c main_arg27 (by decide)).trans <|
    (W5_of m ρ c main_arg27 (by decide)).trans <|
    (W4_of_ne m ρ c main_arg27 (by decide)).trans <|
    (W3_of m ρ c main_arg27 (by decide)).trans <|
    (W2_of_ne m ρ c main_arg27 (by decide)).trans <|
    (W1_of m ρ c main_arg27 (by decide)).trans <| rfl

theorem W23_main_arg28 (c : Dev nD) : W23 m ρ c (Proc.devRef .tc main_arg28) = m ((c : Thread nD τ).loc main_arg28) :=
  (W23_of m ρ c main_arg28 (by decide)).trans <|
    (W22_of_ne m ρ c main_arg28 (by decide)).trans <|
    (W21_of m ρ c main_arg28 (by decide)).trans <|
    (W20_of_ne m ρ c main_arg28 (by decide)).trans <|
    (W19_of m ρ c main_arg28 (by decide)).trans <|
    (W18_of_ne m ρ c main_arg28 (by decide)).trans <|
    (W17_of m ρ c main_arg28 (by decide)).trans <|
    (W16_of_ne m ρ c main_arg28 (by decide)).trans <|
    (W15_of m ρ c main_arg28 (by decide)).trans <|
    (W14_of_ne m ρ c main_arg28 (by decide)).trans <|
    (W13_of m ρ c main_arg28 (by decide)).trans <|
    (W12_of_ne m ρ c main_arg28 (by decide)).trans <|
    (W11_of m ρ c main_arg28 (by decide)).trans <|
    (W10_of_ne m ρ c main_arg28 (by decide)).trans <|
    (W9_of m ρ c main_arg28 (by decide)).trans <|
    (W8_of_ne m ρ c main_arg28 (by decide)).trans <|
    (W7_of m ρ c main_arg28 (by decide)).trans <|
    (W6_of_ne m ρ c main_arg28 (by decide)).trans <|
    (W5_of m ρ c main_arg28 (by decide)).trans <|
    (W4_of_ne m ρ c main_arg28 (by decide)).trans <|
    (W3_of m ρ c main_arg28 (by decide)).trans <|
    (W2_of_ne m ρ c main_arg28 (by decide)).trans <|
    (W1_of m ρ c main_arg28 (by decide)).trans <| rfl

theorem W23_main_arg29 (c : Dev nD) : W23 m ρ c (Proc.devRef .tc main_arg29) = m ((c : Thread nD τ).loc main_arg29) :=
  (W23_of m ρ c main_arg29 (by decide)).trans <|
    (W22_of_ne m ρ c main_arg29 (by decide)).trans <|
    (W21_of m ρ c main_arg29 (by decide)).trans <|
    (W20_of_ne m ρ c main_arg29 (by decide)).trans <|
    (W19_of m ρ c main_arg29 (by decide)).trans <|
    (W18_of_ne m ρ c main_arg29 (by decide)).trans <|
    (W17_of m ρ c main_arg29 (by decide)).trans <|
    (W16_of_ne m ρ c main_arg29 (by decide)).trans <|
    (W15_of m ρ c main_arg29 (by decide)).trans <|
    (W14_of_ne m ρ c main_arg29 (by decide)).trans <|
    (W13_of m ρ c main_arg29 (by decide)).trans <|
    (W12_of_ne m ρ c main_arg29 (by decide)).trans <|
    (W11_of m ρ c main_arg29 (by decide)).trans <|
    (W10_of_ne m ρ c main_arg29 (by decide)).trans <|
    (W9_of m ρ c main_arg29 (by decide)).trans <|
    (W8_of_ne m ρ c main_arg29 (by decide)).trans <|
    (W7_of m ρ c main_arg29 (by decide)).trans <|
    (W6_of_ne m ρ c main_arg29 (by decide)).trans <|
    (W5_of m ρ c main_arg29 (by decide)).trans <|
    (W4_of_ne m ρ c main_arg29 (by decide)).trans <|
    (W3_of m ρ c main_arg29 (by decide)).trans <|
    (W2_of_ne m ρ c main_arg29 (by decide)).trans <|
    (W1_of m ρ c main_arg29 (by decide)).trans <| rfl

theorem W23_main_arg30 (c : Dev nD) : W23 m ρ c (Proc.devRef .tc main_arg30) = m ((c : Thread nD τ).loc main_arg30) :=
  (W23_of m ρ c main_arg30 (by decide)).trans <|
    ((W22_arr m ρ c 1).trans (((dat10 (V21 m ρ) c).arrAt_in 1 rfl _).trans (A_eq10 (V21 m ρ) c 1))).trans <|
    (W21_of m ρ c main_arg30 (by decide)).trans <|
    (W20_of_ne m ρ c main_arg30 (by decide)).trans <|
    (W19_of m ρ c main_arg30 (by decide)).trans <|
    (W18_of_ne m ρ c main_arg30 (by decide)).trans <|
    (W17_of m ρ c main_arg30 (by decide)).trans <|
    (W16_of_ne m ρ c main_arg30 (by decide)).trans <|
    (W15_of m ρ c main_arg30 (by decide)).trans <|
    (W14_of_ne m ρ c main_arg30 (by decide)).trans <|
    (W13_of m ρ c main_arg30 (by decide)).trans <|
    (W12_of_ne m ρ c main_arg30 (by decide)).trans <|
    (W11_of m ρ c main_arg30 (by decide)).trans <|
    (W10_of_ne m ρ c main_arg30 (by decide)).trans <|
    (W9_of m ρ c main_arg30 (by decide)).trans <|
    (W8_of_ne m ρ c main_arg30 (by decide)).trans <|
    (W7_of m ρ c main_arg30 (by decide)).trans <|
    (W6_of_ne m ρ c main_arg30 (by decide)).trans <|
    (W5_of m ρ c main_arg30 (by decide)).trans <|
    (W4_of_ne m ρ c main_arg30 (by decide)).trans <|
    (W3_of m ρ c main_arg30 (by decide)).trans <|
    (W2_of_ne m ρ c main_arg30 (by decide)).trans <|
    (W1_of m ρ c main_arg30 (by decide)).trans <| rfl

theorem W23_main_arg31 (c : Dev nD) : W23 m ρ c (Proc.devRef .tc main_arg31) = m ((c : Thread nD τ).loc main_arg31) :=
  (W23_of m ρ c main_arg31 (by decide)).trans <|
    (W22_of_ne m ρ c main_arg31 (by decide)).trans <|
    (W21_of m ρ c main_arg31 (by decide)).trans <|
    (W20_of_ne m ρ c main_arg31 (by decide)).trans <|
    (W19_of m ρ c main_arg31 (by decide)).trans <|
    (W18_of_ne m ρ c main_arg31 (by decide)).trans <|
    (W17_of m ρ c main_arg31 (by decide)).trans <|
    (W16_of_ne m ρ c main_arg31 (by decide)).trans <|
    (W15_of m ρ c main_arg31 (by decide)).trans <|
    (W14_of_ne m ρ c main_arg31 (by decide)).trans <|
    (W13_of m ρ c main_arg31 (by decide)).trans <|
    (W12_of_ne m ρ c main_arg31 (by decide)).trans <|
    (W11_of m ρ c main_arg31 (by decide)).trans <|
    (W10_of_ne m ρ c main_arg31 (by decide)).trans <|
    (W9_of m ρ c main_arg31 (by decide)).trans <|
    (W8_of_ne m ρ c main_arg31 (by decide)).trans <|
    (W7_of m ρ c main_arg31 (by decide)).trans <|
    (W6_of_ne m ρ c main_arg31 (by decide)).trans <|
    (W5_of m ρ c main_arg31 (by decide)).trans <|
    (W4_of_ne m ρ c main_arg31 (by decide)).trans <|
    (W3_of m ρ c main_arg31 (by decide)).trans <|
    (W2_of_ne m ρ c main_arg31 (by decide)).trans <|
    (W1_of m ρ c main_arg31 (by decide)).trans <| rfl

theorem W23_main_arg32 (c : Dev nD) : W23 m ρ c (Proc.devRef .tc main_arg32) = m ((c : Thread nD τ).loc main_arg32) :=
  (W23_of m ρ c main_arg32 (by decide)).trans <|
    ((W22_arr m ρ c 3).trans (((dat10 (V21 m ρ) c).arrAt_in 3 rfl _).trans (A_eq10 (V21 m ρ) c 3))).trans <|
    (W21_of m ρ c main_arg32 (by decide)).trans <|
    (W20_of_ne m ρ c main_arg32 (by decide)).trans <|
    (W19_of m ρ c main_arg32 (by decide)).trans <|
    (W18_of_ne m ρ c main_arg32 (by decide)).trans <|
    (W17_of m ρ c main_arg32 (by decide)).trans <|
    (W16_of_ne m ρ c main_arg32 (by decide)).trans <|
    (W15_of m ρ c main_arg32 (by decide)).trans <|
    (W14_of_ne m ρ c main_arg32 (by decide)).trans <|
    (W13_of m ρ c main_arg32 (by decide)).trans <|
    (W12_of_ne m ρ c main_arg32 (by decide)).trans <|
    (W11_of m ρ c main_arg32 (by decide)).trans <|
    (W10_of_ne m ρ c main_arg32 (by decide)).trans <|
    (W9_of m ρ c main_arg32 (by decide)).trans <|
    (W8_of_ne m ρ c main_arg32 (by decide)).trans <|
    (W7_of m ρ c main_arg32 (by decide)).trans <|
    (W6_of_ne m ρ c main_arg32 (by decide)).trans <|
    (W5_of m ρ c main_arg32 (by decide)).trans <|
    (W4_of_ne m ρ c main_arg32 (by decide)).trans <|
    (W3_of m ρ c main_arg32 (by decide)).trans <|
    (W2_of_ne m ρ c main_arg32 (by decide)).trans <|
    (W1_of m ρ c main_arg32 (by decide)).trans <| rfl

theorem W23_main_arg33 (c : Dev nD) : W23 m ρ c (Proc.devRef .tc main_arg33) = m ((c : Thread nD τ).loc main_arg33) :=
  (W23_of m ρ c main_arg33 (by decide)).trans <|
    (W22_of_ne m ρ c main_arg33 (by decide)).trans <|
    (W21_of m ρ c main_arg33 (by decide)).trans <|
    (W20_of_ne m ρ c main_arg33 (by decide)).trans <|
    (W19_of m ρ c main_arg33 (by decide)).trans <|
    (W18_of_ne m ρ c main_arg33 (by decide)).trans <|
    (W17_of m ρ c main_arg33 (by decide)).trans <|
    (W16_of_ne m ρ c main_arg33 (by decide)).trans <|
    (W15_of m ρ c main_arg33 (by decide)).trans <|
    (W14_of_ne m ρ c main_arg33 (by decide)).trans <|
    (W13_of m ρ c main_arg33 (by decide)).trans <|
    (W12_of_ne m ρ c main_arg33 (by decide)).trans <|
    (W11_of m ρ c main_arg33 (by decide)).trans <|
    (W10_of_ne m ρ c main_arg33 (by decide)).trans <|
    (W9_of m ρ c main_arg33 (by decide)).trans <|
    (W8_of_ne m ρ c main_arg33 (by decide)).trans <|
    (W7_of m ρ c main_arg33 (by decide)).trans <|
    (W6_of_ne m ρ c main_arg33 (by decide)).trans <|
    (W5_of m ρ c main_arg33 (by decide)).trans <|
    (W4_of_ne m ρ c main_arg33 (by decide)).trans <|
    (W3_of m ρ c main_arg33 (by decide)).trans <|
    (W2_of_ne m ρ c main_arg33 (by decide)).trans <|
    (W1_of m ρ c main_arg33 (by decide)).trans <| rfl

theorem W23_main_arg34 (c : Dev nD) : W23 m ρ c (Proc.devRef .tc main_arg34) = m ((c : Thread nD τ).loc main_arg34) :=
  (W23_of m ρ c main_arg34 (by decide)).trans <|
    ((W22_arr m ρ c 5).trans (((dat10 (V21 m ρ) c).arrAt_in 5 rfl _).trans (A_eq10 (V21 m ρ) c 5))).trans <|
    (W21_of m ρ c main_arg34 (by decide)).trans <|
    (W20_of_ne m ρ c main_arg34 (by decide)).trans <|
    (W19_of m ρ c main_arg34 (by decide)).trans <|
    (W18_of_ne m ρ c main_arg34 (by decide)).trans <|
    (W17_of m ρ c main_arg34 (by decide)).trans <|
    (W16_of_ne m ρ c main_arg34 (by decide)).trans <|
    (W15_of m ρ c main_arg34 (by decide)).trans <|
    (W14_of_ne m ρ c main_arg34 (by decide)).trans <|
    (W13_of m ρ c main_arg34 (by decide)).trans <|
    (W12_of_ne m ρ c main_arg34 (by decide)).trans <|
    (W11_of m ρ c main_arg34 (by decide)).trans <|
    (W10_of_ne m ρ c main_arg34 (by decide)).trans <|
    (W9_of m ρ c main_arg34 (by decide)).trans <|
    (W8_of_ne m ρ c main_arg34 (by decide)).trans <|
    (W7_of m ρ c main_arg34 (by decide)).trans <|
    (W6_of_ne m ρ c main_arg34 (by decide)).trans <|
    (W5_of m ρ c main_arg34 (by decide)).trans <|
    (W4_of_ne m ρ c main_arg34 (by decide)).trans <|
    (W3_of m ρ c main_arg34 (by decide)).trans <|
    (W2_of_ne m ρ c main_arg34 (by decide)).trans <|
    (W1_of m ρ c main_arg34 (by decide)).trans <| rfl

theorem W23_main_arg35 (c : Dev nD) : W23 m ρ c (Proc.devRef .tc main_arg35) = m ((c : Thread nD τ).loc main_arg35) :=
  (W23_of m ρ c main_arg35 (by decide)).trans <|
    (W22_of_ne m ρ c main_arg35 (by decide)).trans <|
    (W21_of m ρ c main_arg35 (by decide)).trans <|
    (W20_of_ne m ρ c main_arg35 (by decide)).trans <|
    (W19_of m ρ c main_arg35 (by decide)).trans <|
    (W18_of_ne m ρ c main_arg35 (by decide)).trans <|
    (W17_of m ρ c main_arg35 (by decide)).trans <|
    (W16_of_ne m ρ c main_arg35 (by decide)).trans <|
    (W15_of m ρ c main_arg35 (by decide)).trans <|
    (W14_of_ne m ρ c main_arg35 (by decide)).trans <|
    (W13_of m ρ c main_arg35 (by decide)).trans <|
    (W12_of_ne m ρ c main_arg35 (by decide)).trans <|
    (W11_of m ρ c main_arg35 (by decide)).trans <|
    (W10_of_ne m ρ c main_arg35 (by decide)).trans <|
    (W9_of m ρ c main_arg35 (by decide)).trans <|
    (W8_of_ne m ρ c main_arg35 (by decide)).trans <|
    (W7_of m ρ c main_arg35 (by decide)).trans <|
    (W6_of_ne m ρ c main_arg35 (by decide)).trans <|
    (W5_of m ρ c main_arg35 (by decide)).trans <|
    (W4_of_ne m ρ c main_arg35 (by decide)).trans <|
    (W3_of m ρ c main_arg35 (by decide)).trans <|
    (W2_of_ne m ρ c main_arg35 (by decide)).trans <|
    (W1_of m ρ c main_arg35 (by decide)).trans <| rfl

theorem W23_main_arg36 (c : Dev nD) : W23 m ρ c (Proc.devRef .tc main_arg36) = m ((c : Thread nD τ).loc main_arg36) :=
  (W23_of m ρ c main_arg36 (by decide)).trans <|
    (W22_of_ne m ρ c main_arg36 (by decide)).trans <|
    (W21_of m ρ c main_arg36 (by decide)).trans <|
    (W20_of_ne m ρ c main_arg36 (by decide)).trans <|
    (W19_of m ρ c main_arg36 (by decide)).trans <|
    (W18_of_ne m ρ c main_arg36 (by decide)).trans <|
    (W17_of m ρ c main_arg36 (by decide)).trans <|
    (W16_of_ne m ρ c main_arg36 (by decide)).trans <|
    (W15_of m ρ c main_arg36 (by decide)).trans <|
    (W14_of_ne m ρ c main_arg36 (by decide)).trans <|
    (W13_of m ρ c main_arg36 (by decide)).trans <|
    (W12_of_ne m ρ c main_arg36 (by decide)).trans <|
    (W11_of m ρ c main_arg36 (by decide)).trans <|
    (W10_of_ne m ρ c main_arg36 (by decide)).trans <|
    (W9_of m ρ c main_arg36 (by decide)).trans <|
    (W8_of_ne m ρ c main_arg36 (by decide)).trans <|
    (W7_of m ρ c main_arg36 (by decide)).trans <|
    (W6_of_ne m ρ c main_arg36 (by decide)).trans <|
    (W5_of m ρ c main_arg36 (by decide)).trans <|
    (W4_of_ne m ρ c main_arg36 (by decide)).trans <|
    (W3_of m ρ c main_arg36 (by decide)).trans <|
    (W2_of_ne m ρ c main_arg36 (by decide)).trans <|
    (W1_of m ρ c main_arg36 (by decide)).trans <| rfl

end Cert.KernelIdeal.Frm

end
-- ==== Proof.IdealFrame.lean ====
/-
  @main is the run of its 23 segments in order, so the launch theorem for a list of segments applies: every weakly fair
  execution terminates, nothing faulting, and ends with every unscoped buffer at the last boundary's contents. The frame
  follows: each argument array's contents there are the launch memory's.
-/
import proofs.«181157_j5506148073958_2_alg».proof.Proof.IdealSeg0
import proofs.«181157_j5506148073958_2_alg».proof.Proof.IdealSeg1
import proofs.«181157_j5506148073958_2_alg».proof.Proof.IdealSeg2
import proofs.«181157_j5506148073958_2_alg».proof.Proof.IdealSeg3
import proofs.«181157_j5506148073958_2_alg».proof.Proof.IdealSeg4
import proofs.«181157_j5506148073958_2_alg».proof.Proof.IdealSeg5
import proofs.«181157_j5506148073958_2_alg».proof.Proof.IdealSeg6
import proofs.«181157_j5506148073958_2_alg».proof.Proof.IdealSeg7
import proofs.«181157_j5506148073958_2_alg».proof.Proof.IdealSeg8
import proofs.«181157_j5506148073958_2_alg».proof.Proof.IdealSeg9
import proofs.«181157_j5506148073958_2_alg».proof.Proof.IdealSeg10
import proofs.«181157_j5506148073958_2_alg».proof.Proof.IdealWrites

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 23 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the contents of the last boundary. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

/-- The frame: every execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c =>
    ⟨(h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c),
     (h c _ (mem_uc main_arg13 (by decide))).trans (W23_main_arg13 m ρ c),
     (h c _ (mem_uc main_arg14 (by decide))).trans (W23_main_arg14 m ρ c),
     (h c _ (mem_uc main_arg15 (by decide))).trans (W23_main_arg15 m ρ c),
     (h c _ (mem_uc main_arg16 (by decide))).trans (W23_main_arg16 m ρ c),
     (h c _ (mem_uc main_arg17 (by decide))).trans (W23_main_arg17 m ρ c),
     (h c _ (mem_uc main_arg18 (by decide))).trans (W23_main_arg18 m ρ c),
     (h c _ (mem_uc main_arg19 (by decide))).trans (W23_main_arg19 m ρ c),
     (h c _ (mem_uc main_arg20 (by decide))).trans (W23_main_arg20 m ρ c),
     (h c _ (mem_uc main_arg21 (by decide))).trans (W23_main_arg21 m ρ c),
     (h c _ (mem_uc main_arg22 (by decide))).trans (W23_main_arg22 m ρ c),
     (h c _ (mem_uc main_arg23 (by decide))).trans (W23_main_arg23 m ρ c),
     (h c _ (mem_uc main_arg24 (by decide))).trans (W23_main_arg24 m ρ c),
     (h c _ (mem_uc main_arg25 (by decide))).trans (W23_main_arg25 m ρ c),
     (h c _ (mem_uc main_arg26 (by decide))).trans (W23_main_arg26 m ρ c),
     (h c _ (mem_uc main_arg27 (by decide))).trans (W23_main_arg27 m ρ c),
     (h c _ (mem_uc main_arg28 (by decide))).trans (W23_main_arg28 m ρ c),
     (h c _ (mem_uc main_arg29 (by decide))).trans (W23_main_arg29 m ρ c),
     (h c _ (mem_uc main_arg30 (by decide))).trans (W23_main_arg30 m ρ c),
     (h c _ (mem_uc main_arg31 (by decide))).trans (W23_main_arg31 m ρ c),
     (h c _ (mem_uc main_arg32 (by decide))).trans (W23_main_arg32 m ρ c),
     (h c _ (mem_uc main_arg33 (by decide))).trans (W23_main_arg33 m ρ c),
     (h c _ (mem_uc main_arg34 (by decide))).trans (W23_main_arg34 m ρ c),
     (h c _ (mem_uc main_arg35 (by decide))).trans (W23_main_arg35 m ρ c),
     (h c _ (mem_uc main_arg36 (by decide))).trans (W23_main_arg36 m ρ c)⟩)
    (run_main m ρ)

end Cert.KernelIdeal.Frm

end
-- ==== Proof.IdealValueRun.lean ====
/-
  The kernel's run with its result named: every execution terminates with the result buffer at the last boundary's contents
  and every argument as launched.
-/
import proofs.«181157_j5506148073958_2_alg».proof.Proof.IdealFrame

set_option maxRecDepth 16384

noncomputable section

namespace Cert.KernelIdeal.Frm

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v522) = W23 m ρ c (Proc.devRef .tc main_v522)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c =>
    ⟨h c _ (mem_uc main_v522 (by decide)),
     (h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c),
     (h c _ (mem_uc main_arg13 (by decide))).trans (W23_main_arg13 m ρ c),
     (h c _ (mem_uc main_arg14 (by decide))).trans (W23_main_arg14 m ρ c),
     (h c _ (mem_uc main_arg15 (by decide))).trans (W23_main_arg15 m ρ c),
     (h c _ (mem_uc main_arg16 (by decide))).trans (W23_main_arg16 m ρ c),
     (h c _ (mem_uc main_arg17 (by decide))).trans (W23_main_arg17 m ρ c),
     (h c _ (mem_uc main_arg18 (by decide))).trans (W23_main_arg18 m ρ c),
     (h c _ (mem_uc main_arg19 (by decide))).trans (W23_main_arg19 m ρ c),
     (h c _ (mem_uc main_arg20 (by decide))).trans (W23_main_arg20 m ρ c),
     (h c _ (mem_uc main_arg21 (by decide))).trans (W23_main_arg21 m ρ c),
     (h c _ (mem_uc main_arg22 (by decide))).trans (W23_main_arg22 m ρ c),
     (h c _ (mem_uc main_arg23 (by decide))).trans (W23_main_arg23 m ρ c),
     (h c _ (mem_uc main_arg24 (by decide))).trans (W23_main_arg24 m ρ c),
     (h c _ (mem_uc main_arg25 (by decide))).trans (W23_main_arg25 m ρ c),
     (h c _ (mem_uc main_arg26 (by decide))).trans (W23_main_arg26 m ρ c),
     (h c _ (mem_uc main_arg27 (by decide))).trans (W23_main_arg27 m ρ c),
     (h c _ (mem_uc main_arg28 (by decide))).trans (W23_main_arg28 m ρ c),
     (h c _ (mem_uc main_arg29 (by decide))).trans (W23_main_arg29 m ρ c),
     (h c _ (mem_uc main_arg30 (by decide))).trans (W23_main_arg30 m ρ c),
     (h c _ (mem_uc main_arg31 (by decide))).trans (W23_main_arg31 m ρ c),
     (h c _ (mem_uc main_arg32 (by decide))).trans (W23_main_arg32 m ρ c),
     (h c _ (mem_uc main_arg33 (by decide))).trans (W23_main_arg33 m ρ c),
     (h c _ (mem_uc main_arg34 (by decide))).trans (W23_main_arg34 m ρ c),
     (h c _ (mem_uc main_arg35 (by decide))).trans (W23_main_arg35 m ρ c),
     (h c _ (mem_uc main_arg36 (by decide))).trans (W23_main_arg36 m ρ c)⟩)
    (run_main m ρ)

end Cert.KernelIdeal.Frm

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«181157_j5506148073958_2_alg».proof.Proof.LibMatmulRows
import proofs.«181157_j5506148073958_2_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«181157_j5506148073958_2_alg».proof.Proof.LibMatmulRows
import proofs.«181157_j5506148073958_2_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibGatherLayers.lean ====
/-
  GENERAL LEMMAS: dense layers under a gather of rows, and a one-column projection computed at a padded width. Nothing here
  mentions a program; every extent is arbitrary.

  * bias_host_any: a vector of ANY length n (1 included) broadcast to one row [1, n] and then along R rows reads, at
    (r, c), the vector at c. (When n = 1 the one column is column 0 whichever way the broadcast reads it.)
  * affine_of_dot_any: a dot_general plus such a bias is the affine layer, for any number of output columns.
  * relu_host: the larger of each entry and a broadcast single-precision zero is the rectifier.
  * gather_stage1: ROWS GATHERED FROM A RECTIFIED DENSE LAYER ARE THE RECTIFIED DENSE LAYER OF THE GATHERED ROWS. Row e of
    either side is the layer's row number r(e), r the gather's source-row function, and that row depends only on row
    r(e) of the layer's input: gathering rows and applying a row-wise map commute.
  * stage1_of_host: the host's spelling of the rectified layer — dot_general, bias broadcast twice, larger with zero.
  * projection_padded: a projection onto ONE output column h · w + b computed as an affine layer of width C, the weight
    column w followed by C - 1 padding columns and the scalar bias followed by C - 1 padding entries, of which column 0
    is then sliced out. Column 0 of the padded weights is w and entry 0 of the padded bias is b, whatever the padding
    value, so column 0 of the wide layer is h · w + b.
  No law of extended-real arithmetic is used beyond re-indexing a finite sum, so nothing here needs finite entries.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost
import proofs.«181157_j5506148073958_2_alg».proof.Proof.LibMatmulRows
import proofs.«181157_j5506148073958_2_alg».proof.Proof.LibDenseLayers
import proofs.«181157_j5506148073958_2_alg».proof.Proof.LibRowBias
import proofs.«181157_j5506148073958_2_alg».proof.Proof.LibRowTable

noncomputable section

namespace Cert.LibGatherLayers

open Idealize.ShloMosaic Idealize.ShloMosaic.ValueIdx
open Cert.LibDenseLayers Cert.LibRowBias Cert.LibRowTable
open scoped BigOperators

/-- A vector of any length broadcast to one row and then along R rows reads, at (r, c), the vector at c. -/
theorem bias_host_any {α : Type} {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  have hc : c.val = if n = 1 then 0 else c.val := by
    split
    · have := c.isLt; omega
    · rfl
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => exact hc
  · match a with
    | ⟨0, _⟩ => exact hc

/-- The host's dot_general, plus a vector of any length broadcast to one row and then along the rows, is the affine layer. -/
theorem affine_of_dot_any {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, bias_host_any b h1 h2 p q]
  rfl

/-- The larger of each entry and a single-precision zero broadcast to the array's shape is the rectifier. -/
theorem relu_host {s : Shape} (a : FVec Ideal s .f32) (hb : (⟨0, ![]⟩ : Shape).BroadcastsInDim s (![] : Fin 0 → Fin s.rank)) :
    maximumf a (broadcastInDim s ![] hb (constant (F := Ideal) ⟨0, ![]⟩ .f32 0x00000000#32)) = relu a := rfl

/-- The host's spelling of a rectified dense layer. -/
theorem stage1_of_host {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (hz : (⟨0, ![]⟩ : Shape).BroadcastsInDim ⟨2, ![R, N]⟩ (![] : Fin 0 → Fin 2))
    (h : FVec Ideal ⟨2, ![R, K]⟩ .f32) (W : FVec Ideal ⟨2, ![K, N]⟩ .f32) (b : FVec Ideal ⟨1, ![N]⟩ .f32) :
    maximumf (addf (Host.dotGeneral d none h W)
        (broadcastInDim ⟨2, ![R, N]⟩ ![0, 1] h2 (broadcastInDim ⟨2, ![1, N]⟩ ![1] h1 b)))
      (broadcastInDim ⟨2, ![R, N]⟩ ![] hz (constant (F := Ideal) ⟨0, ![]⟩ .f32 0x00000000#32)) = stage1 h W b := by
  rw [affine_of_dot_any d hrank hsize hl0 hl1 hr0 hr1 h1 h2 h W b]
  rfl

/-- Rows gathered from a rectified dense layer are the rectified dense layer of the gathered rows. -/
theorem gather_stage1 {N K C E w : ℕ} (hN : 0 < N)
    (wfx : GatherDims.WF ⟨2, ![N, K]⟩ ⟨2, ![E, 1]⟩ ⟨2, ![E, K]⟩ [1] [0] [] [0] [] 1 ![1, K])
    (wfz : GatherDims.WF ⟨2, ![N, C]⟩ ⟨2, ![E, 1]⟩ ⟨2, ![E, C]⟩ [1] [0] [] [0] [] 1 ![1, C])
    (x : (⟨2, ![N, K]⟩ : Shape).Idx → EReal) (W : (⟨2, ![K, C]⟩ : Shape).Idx → EReal) (b : (⟨1, ![C]⟩ : Shape).Idx → EReal)
    (idx : IVec ⟨2, ![E, 1]⟩ w) :
    Host.gather (gatherRows N C E wfz) (stage1 x W b) idx = stage1 (Host.gather (gatherRows N K E wfx) x idx) W b := by
  funext j
  obtain ⟨e, q, rfl⟩ : ∃ (e : Fin E) (q : Fin C), j = ix2 e q := ⟨j 0, j 1, eq_ix2 j⟩
  rw [gatherRows_apply hN wfz (stage1 x W b) idx e q]
  exact stage1_row x (Host.gather (gatherRows N K E wfx) x idx) W b _ e
    (fun k => (gatherRows_apply hN wfx x idx e k).symm) q

/-- A one-column projection computed as an affine layer of padded width C, column 0 sliced out, is the projection. -/
theorem projection_padded {R K C : ℕ} (hC : 0 < C)
    (d : DotDims ⟨2, ![R, K]⟩ ⟨2, ![K, 1]⟩ ⟨2, ![R, 1]⟩)
    (hrank : d.contr.rank = 1) (hsize : d.contr.size ⟨0, by omega⟩ = K)
    (hl0 : ∀ (i : (⟨2, ![R, 1]⟩ : Shape).Idx) (s : d.contr.Idx), (d.lhsIdx i s 0).val = (i 0).val)
    (hl1 : ∀ (i : (⟨2, ![R, 1]⟩ : Shape).Idx) (s : d.contr.Idx), (d.lhsIdx i s 1).val = (s ⟨0, by omega⟩).val)
    (hr0 : ∀ (i : (⟨2, ![R, 1]⟩ : Shape).Idx) (s : d.contr.Idx), (d.rhsIdx i s 0).val = (s ⟨0, by omega⟩).val)
    (hr1 : ∀ (i : (⟨2, ![R, 1]⟩ : Shape).Idx) (s : d.contr.Idx), (d.rhsIdx i s 1).val = (i 1).val)
    (h1 : (⟨1, ![1]⟩ : Shape).BroadcastsInDim ⟨2, ![1, 1]⟩ (![1] : Fin 1 → Fin 2))
    (h2 : (⟨2, ![1, 1]⟩ : Shape).BroadcastsInDim ⟨2, ![R, 1]⟩ (![0, 1] : Fin 2 → Fin 2))
    (hiW : Fin 2 → ℕ) (hpW : (⟨2, ![K, 1]⟩ : Shape).Pads (![0, 0] : Fin 2 → ℕ) hiW ![0, 0] ⟨2, ![K, C]⟩)
    (hib : Fin 1 → ℕ) (hpb : (⟨1, ![1]⟩ : Shape).Pads (![0] : Fin 1 → ℕ) hib ![0] ⟨1, ![C]⟩)
    (hc : (⟨1, ![C]⟩ : Shape).ShapeCasts ⟨2, ![1, C]⟩)
    (hs : (⟨2, ![R, C]⟩ : Shape).Slices ![0, 0] ⟨2, ![R, 1]⟩)
    {u u' : Shape} (v : u.Idx → EReal) (hu : 0 < u.numel) (v' : u'.Idx → EReal) (hu' : 0 < u'.numel)
    (H : FVec Ideal ⟨2, ![R, K]⟩ .f32) (w : FVec Ideal ⟨2, ![K, 1]⟩ .f32) (b : FVec Ideal ⟨1, ![1]⟩ .f32) :
    extractStridedSlice ⟨2, ![R, 1]⟩ ![0, 0]
        (affine H (pad ⟨2, ![K, C]⟩ ![0, 0] hiW ![0, 0] w v hpW hu)
          (rowOf (shapeCast ⟨2, ![1, C]⟩ (pad ⟨1, ![C]⟩ ![0] hib ![0] b v' hpb hu') hc))) hs
      = addf (Host.dotGeneral d none H w)
          (broadcastInDim ⟨2, ![R, 1]⟩ ![0, 1] h2 (broadcastInDim ⟨2, ![1, 1]⟩ ![1] h1 b)) := by
  funext j
  obtain ⟨r, z, rfl⟩ : ∃ (r : Fin R) (z : Fin 1), j = ix2 r z := ⟨j 0, j 1, eq_ix2 j⟩
  obtain rfl : z = 0 := Subsingleton.elim _ _
  have hW0 : ∀ k : Fin K, pad ⟨2, ![K, C]⟩ ![0, 0] hiW ![0, 0] w v hpW hu (ix2 k (⟨0, hC⟩ : Fin C)) = w (ix2 k (0 : Fin 1)) :=
    fun k => pad_apply_of_inside ![0, 0] hiW ![0, 0] w v hpW hu (ix2 k (⟨0, hC⟩ : Fin C)) (ix2 k (0 : Fin 1)) (fun a => by
      match a with
      | ⟨0, _⟩ => show k.val = 0 + k.val * (0 + 1); omega
      | ⟨1, _⟩ => show (0 : ℕ) = 0 + 0 * (0 + 1); omega)
  have hb0 : pad ⟨1, ![C]⟩ ![0] hib ![0] b v' hpb hu' (ix1 (⟨0, hC⟩ : Fin C)) = b (ix1 (0 : Fin 1)) :=
    pad_apply_of_inside ![0] hib ![0] b v' hpb hu' (ix1 (⟨0, hC⟩ : Fin C)) (ix1 (0 : Fin 1)) (fun a => by
      match a with
      | ⟨0, _⟩ => show (0 : ℕ) = 0 + 0 * (0 + 1); omega)
  rw [extractStridedSlice_apply ![0, 0] _ hs (ix2 r (0 : Fin 1)) (ix2 r (⟨0, hC⟩ : Fin C)) (fun a => by
      match a with
      | ⟨0, _⟩ => show r.val = 0 + r.val; omega
      | ⟨1, _⟩ => show (0 : ℕ) = 0 + 0; omega)]
  rw [rowOf_shapeCast]
  show (∑ k : Fin K, H (ix2 r k) * pad ⟨2, ![K, C]⟩ ![0, 0] hiW ![0, 0] w v hpW hu (ix2 k (⟨0, hC⟩ : Fin C)))
        + pad ⟨1, ![C]⟩ ![0] hib ![0] b v' hpb hu' (ix1 (⟨0, hC⟩ : Fin C))
      = Host.dotGeneral d none H w (ix2 r (0 : Fin 1))
        + broadcastInDim ⟨2, ![R, 1]⟩ ![0, 1] h2 (broadcastInDim ⟨2, ![1, 1]⟩ ![1] h1 b) (ix2 r (0 : Fin 1))
  rw [Cert.LibMatmulRows.hostdot_rows d hrank hsize hl0 hl1 hr0 hr1 H w r (0 : Fin 1), bias_host_any b h1 h2 r (0 : Fin 1), hb0]
  exact congrArg (· + b (ix1 (0 : Fin 1))) (Finset.sum_congr rfl fun k _ => by rw [hW0 k])

end Cert.LibGatherLayers

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«181157_j5506148073958_2_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.Stages.lean ====
/-
  The dense stages of the network, on extended reals, and their two spellings.

  A layer is h · W + b; a stage is two or three layers, the earlier ones rectified: rr (both of two rectified), ra (the first
  of two), rra (the first two of three). Row p of a stage's result depends only on row p of its input, so a stage computed
  block of rows by block of rows is the stage of the whole matrix. The kernel spells a layer as a product into a zero
  accumulator plus a one-row bias block laid along the rows, the host as dot_general plus a bias vector broadcast to one row
  and then along the rows; both are h · W + b, for any extents, with no finiteness needed.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import proofs.«181157_j5506148073958_2_alg».proof.Proof.LibDenseLayers
import proofs.«181157_j5506148073958_2_alg».proof.Proof.LibRowBias
import proofs.«181157_j5506148073958_2_alg».proof.Proof.LibGatherLayers
import proofs.«181157_j5506148073958_2_alg».proof.Proof.LibPlainDot

noncomputable section

namespace Cert.Stages

open Idealize.ShloMosaic Idealize.ShloMosaic.ValueIdx
open Cert.LibDenseLayers Cert.LibRowBias Cert.LibPlainDot Cert.LibGatherLayers

variable {R R' K N M L : ℕ}

/-- Two layers, both rectified. -/
def rr (h : (⟨2, ![R, K]⟩ : Shape).Idx → EReal) (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal) : (⟨2, ![R, M]⟩ : Shape).Idx → EReal :=
  relu (affine (relu (affine h W1 b1)) W2 b2)

/-- Two layers, the first rectified. -/
def ra (h : (⟨2, ![R, K]⟩ : Shape).Idx → EReal) (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal) : (⟨2, ![R, M]⟩ : Shape).Idx → EReal :=
  affine (relu (affine h W1 b1)) W2 b2

/-- Three layers, the first two rectified. -/
def rra (h : (⟨2, ![R, K]⟩ : Shape).Idx → EReal) (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal)
    (W3 : (⟨2, ![M, L]⟩ : Shape).Idx → EReal) (b3 : (⟨1, ![L]⟩ : Shape).Idx → EReal) : (⟨2, ![R, L]⟩ : Shape).Idx → EReal :=
  affine (relu (affine (relu (affine h W1 b1)) W2 b2)) W3 b3

/-! ## Row-locality: row p of a stage of h is row p' of the stage of h' when row p of h is row p' of h' -/

theorem rr_row (h : (⟨2, ![R, K]⟩ : Shape).Idx → EReal) (h' : (⟨2, ![R', K]⟩ : Shape).Idx → EReal)
    (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal) (p : Fin R) (p' : Fin R')
    (hh : ∀ k : Fin K, h (ix2 p k) = h' (ix2 p' k)) (q : Fin M) :
    rr h W1 b1 W2 b2 (ix2 p q) = rr h' W1 b1 W2 b2 (ix2 p' q) := by
  show max (affineAt (relu (affine h W1 b1)) W2 b2 p q) _ = max (affineAt (relu (affine h' W1 b1)) W2 b2 p' q) _
  exact congrArg (fun u => max u (Ideal.ofBits .f32 0x00000000#32))
    (affineAt_congr (relu (affine h W1 b1)) (relu (affine h' W1 b1)) W2 b2 p p' (fun k => stage1_row h h' W1 b1 p p' hh k) q)

theorem ra_row (h : (⟨2, ![R, K]⟩ : Shape).Idx → EReal) (h' : (⟨2, ![R', K]⟩ : Shape).Idx → EReal)
    (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal) (p : Fin R) (p' : Fin R')
    (hh : ∀ k : Fin K, h (ix2 p k) = h' (ix2 p' k)) (q : Fin M) :
    ra h W1 b1 W2 b2 (ix2 p q) = ra h' W1 b1 W2 b2 (ix2 p' q) := by
  show affineAt (relu (affine h W1 b1)) W2 b2 p q = affineAt (relu (affine h' W1 b1)) W2 b2 p' q
  exact affineAt_congr _ _ W2 b2 p p' (fun k => stage1_row h h' W1 b1 p p' hh k) q

theorem rra_row (h : (⟨2, ![R, K]⟩ : Shape).Idx → EReal) (h' : (⟨2, ![R', K]⟩ : Shape).Idx → EReal)
    (W1 : (⟨2, ![K, N]⟩ : Shape).Idx → EReal) (b1 : (⟨1, ![N]⟩ : Shape).Idx → EReal)
    (W2 : (⟨2, ![N, M]⟩ : Shape).Idx → EReal) (b2 : (⟨1, ![M]⟩ : Shape).Idx → EReal)
    (W3 : (⟨2, ![M, L]⟩ : Shape).Idx → EReal) (b3 : (⟨1, ![L]⟩ : Shape).Idx → EReal) (p : Fin R) (p' : Fin R')
    (hh : ∀ k : Fin K, h (ix2 p k) = h' (ix2 p' k)) (q : Fin L) :
    rra h W1 b1 W2 b2 W3 b3 (ix2 p q) = rra h' W1 b1 W2 b2 W3 b3 (ix2 p' q) := by
  show affineAt (rr h W1 b1 W2 b2) W3 b3 p q = affineAt (rr h' W1 b1 W2 b2) W3 b3 p' q
  exact affineAt_congr _ _ W3 b3 p p' (fun k => rr_row h h' W1 b1 W2 b2 p p' hh k) q

/-! ## The kernel's spelling of a layer -/

/-- A product into a zero accumulator plus a one-row bias block cast to its own shape and laid along the rows. -/
def kAff {φ₁ φ₂ : FTy} (hc : (⟨2, ![1, N]⟩ : Shape).ShapeCasts ⟨2, ![1, N]⟩) (hb : (⟨2, ![1, N]⟩ : Shape).Broadcasts ⟨2, ![R, N]⟩)
    (h : FVec Ideal ⟨2, ![R, K]⟩ φ₁) (W : FVec Ideal ⟨2, ![K, N]⟩ φ₂) (B : FVec Ideal ⟨2, ![1, N]⟩ .f32) : FVec Ideal ⟨2, ![R, N]⟩ .f32 :=
  addf (matmul (DotDims.plain R K N) none h W (constant (F := Ideal) ⟨2, ![R, N]⟩ .f32 0x00000000#32))
    (broadcastTo ⟨2, ![R, N]⟩ (shapeCast ⟨2, ![1, N]⟩ B hc) hb)

theorem kAff_eq {φ₁ φ₂ : FTy} (hc : (⟨2, ![1, N]⟩ : Shape).ShapeCasts ⟨2, ![1, N]⟩) (hb : (⟨2, ![1, N]⟩ : Shape).Broadcasts ⟨2, ![R, N]⟩)
    (h : FVec Ideal ⟨2, ![R, K]⟩ φ₁) (W : FVec Ideal ⟨2, ![K, N]⟩ φ₂) (B : FVec Ideal ⟨2, ![1, N]⟩ .f32) :
    kAff hc hb h W B = affine h W (rowOf B) := by
  funext j
  obtain ⟨p, q, rfl⟩ : ∃ (p : Fin R) (q : Fin N), j = ix2 p q := ⟨j 0, j 1, eq_ix2 j⟩
  exact affineAt_of_matmul_row (DotDims.plain R K N) rfl rfl lhs0 lhs1 rhs0 rhs1 hc hb h W B p q

/-! ## The host's spelling of a layer and of the rectifier -/

/-- dot_general plus a bias vector broadcast to one row and then along the rows. -/
def hAff (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) : FVec Ideal ⟨2, ![R, N]⟩ .f32 :=
  addf (Host.dotGeneral (DotDims.plain R K N) none h W)
    (broadcastInDim ⟨2, ![R, N]⟩ ![0, 1] h2 (broadcastInDim ⟨2, ![1, N]⟩ ![1] h1 b))

theorem hAff_eq (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    hAff h1 h2 h W b = affine h W b :=
  affine_of_dot_any (DotDims.plain R K N) rfl rfl lhs0 lhs1 rhs0 rhs1 h1 h2 h W b

/-- The larger of each entry and a broadcast single-precision zero. -/
def hRelu {s : Shape} (hz : (⟨0, ![]⟩ : Shape).BroadcastsInDim s (![] : Fin 0 → Fin s.rank)) (a : FVec Ideal s .f32) : FVec Ideal s .f32 :=
  maximumf a (broadcastInDim s ![] hz (constant (F := Ideal) ⟨0, ![]⟩ .f32 0x00000000#32))

theorem hRelu_eq {s : Shape} (hz : (⟨0, ![]⟩ : Shape).BroadcastsInDim s (![] : Fin 0 → Fin s.rank)) (a : FVec Ideal s .f32) :
    hRelu hz a = relu a := relu_host a hz

end Cert.Stages

end
-- ==== Proof.RefValue.lean ====
/-
  The reference's values, named where the kernel's program needs them.

  The reference's run states its result through named intermediate values (the arguments' launch contents composed through
  the host operations). The kernel's program computes the same values in other buffers; this module names, on the
  reference's side, every value that the kernel's program carries from one of its host stretches or regions to a later
  one and that the reference's run leaves unnamed — each as the reference's own operations applied to the named values
  before it. Where the kernel calls a region, the reference spells the region's layers out: dot_general, a bias broadcast to
  one row and then along the rows, and the larger with a broadcast zero for a rectified layer. That spelling is the layers'
  stage (LibDenseLayers' affine and relu composed), so each stage's output value is the stage of its input values.
-/
import proofs.«181157_j5506148073958_2_alg».proof.Proof.RefRunPatched
import proofs.«181157_j5506148073958_2_alg».proof.Proof.Stages

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Cert.LibDenseLayers Cert.LibPlainDot Cert.LibGatherLayers Cert.Stages

/-! ## The arguments' launch contents -/
abbrev a0 (V0 : Valuation τ sig (Elt Ideal)) : (Proc.devRef .tc main_arg0 : DevRef τ sig).ty.Contents (Elt Ideal) := V0 (Proc.devRef .tc main_arg0)
abbrev a1 (V0 : Valuation τ sig (Elt Ideal)) : (Proc.devRef .tc main_arg1 : DevRef τ sig).ty.Contents (Elt Ideal) := V0 (Proc.devRef .tc main_arg1)
abbrev a2 (V0 : Valuation τ sig (Elt Ideal)) : (Proc.devRef .tc main_arg2 : DevRef τ sig).ty.Contents (Elt Ideal) := V0 (Proc.devRef .tc main_arg2)
abbrev a3 (V0 : Valuation τ sig (Elt Ideal)) : (Proc.devRef .tc main_arg3 : DevRef τ sig).ty.Contents (Elt Ideal) := V0 (Proc.devRef .tc main_arg3)
abbrev a4 (V0 : Valuation τ sig (Elt Ideal)) : (Proc.devRef .tc main_arg4 : DevRef τ sig).ty.Contents (Elt Ideal) := V0 (Proc.devRef .tc main_arg4)
abbrev a5 (V0 : Valuation τ sig (Elt Ideal)) : (Proc.devRef .tc main_arg5 : DevRef τ sig).ty.Contents (Elt Ideal) := V0 (Proc.devRef .tc main_arg5)
abbrev a6 (V0 : Valuation τ sig (Elt Ideal)) : (Proc.devRef .tc main_arg6 : DevRef τ sig).ty.Contents (Elt Ideal) := V0 (Proc.devRef .tc main_arg6)
abbrev a7 (V0 : Valuation τ sig (Elt Ideal)) : (Proc.devRef .tc main_arg7 : DevRef τ sig).ty.Contents (Elt Ideal) := V0 (Proc.devRef .tc main_arg7)
abbrev a8 (V0 : Valuation τ sig (Elt Ideal)) : (Proc.devRef .tc main_arg8 : DevRef τ sig).ty.Contents (Elt Ideal) := V0 (Proc.devRef .tc main_arg8)
abbrev a9 (V0 : Valuation τ sig (Elt Ideal)) : (Proc.devRef .tc main_arg9 : DevRef τ sig).ty.Contents (Elt Ideal) := V0 (Proc.devRef .tc main_arg9)
abbrev a10 (V0 : Valuation τ sig (Elt Ideal)) : (Proc.devRef .tc main_arg10 : DevRef τ sig).ty.Contents (Elt Ideal) := V0 (Proc.devRef .tc main_arg10)
abbrev a11 (V0 : Valuation τ sig (Elt Ideal)) : (Proc.devRef .tc main_arg11 : DevRef τ sig).ty.Contents (Elt Ideal) := V0 (Proc.devRef .tc main_arg11)
abbrev a12 (V0 : Valuation τ sig (Elt Ideal)) : (Proc.devRef .tc main_arg12 : DevRef τ sig).ty.Contents (Elt Ideal) := V0 (Proc.devRef .tc main_arg12)
abbrev a13 (V0 : Valuation τ sig (Elt Ideal)) : (Proc.devRef .tc main_arg13 : DevRef τ sig).ty.Contents (Elt Ideal) := V0 (Proc.devRef .tc main_arg13)
abbrev a14 (V0 : Valuation τ sig (Elt Ideal)) : (Proc.devRef .tc main_arg14 : DevRef τ sig).ty.Contents (Elt Ideal) := V0 (Proc.devRef .tc main_arg14)
abbrev a15 (V0 : Valuation τ sig (Elt Ideal)) : (Proc.devRef .tc main_arg15 : DevRef τ sig).ty.Contents (Elt Ideal) := V0 (Proc.devRef .tc main_arg15)
abbrev a16 (V0 : Valuation τ sig (Elt Ideal)) : (Proc.devRef .tc main_arg16 : DevRef τ sig).ty.Contents (Elt Ideal) := V0 (Proc.devRef .tc main_arg16)
abbrev a17 (V0 : Valuation τ sig (Elt Ideal)) : (Proc.devRef .tc main_arg17 : DevRef τ sig).ty.Contents (Elt Ideal) := V0 (Proc.devRef .tc main_arg17)
abbrev a18 (V0 : Valuation τ sig (Elt Ideal)) : (Proc.devRef .tc main_arg18 : DevRef τ sig).ty.Contents (Elt Ideal) := V0 (Proc.devRef .tc main_arg18)
abbrev a19 (V0 : Valuation τ sig (Elt Ideal)) : (Proc.devRef .tc main_arg19 : DevRef τ sig).ty.Contents (Elt Ideal) := V0 (Proc.devRef .tc main_arg19)
abbrev a20 (V0 : Valuation τ sig (Elt Ideal)) : (Proc.devRef .tc main_arg20 : DevRef τ sig).ty.Contents (Elt Ideal) := V0 (Proc.devRef .tc main_arg20)
abbrev a21 (V0 : Valuation τ sig (Elt Ideal)) : (Proc.devRef .tc main_arg21 : DevRef τ sig).ty.Contents (Elt Ideal) := V0 (Proc.devRef .tc main_arg21)
abbrev a22 (V0 : Valuation τ sig (Elt Ideal)) : (Proc.devRef .tc main_arg22 : DevRef τ sig).ty.Contents (Elt Ideal) := V0 (Proc.devRef .tc main_arg22)
abbrev a23 (V0 : Valuation τ sig (Elt Ideal)) : (Proc.devRef .tc main_arg23 : DevRef τ sig).ty.Contents (Elt Ideal) := V0 (Proc.devRef .tc main_arg23)
abbrev a24 (V0 : Valuation τ sig (Elt Ideal)) : (Proc.devRef .tc main_arg24 : DevRef τ sig).ty.Contents (Elt Ideal) := V0 (Proc.devRef .tc main_arg24)
abbrev a25 (V0 : Valuation τ sig (Elt Ideal)) : (Proc.devRef .tc main_arg25 : DevRef τ sig).ty.Contents (Elt Ideal) := V0 (Proc.devRef .tc main_arg25)
abbrev a26 (V0 : Valuation τ sig (Elt Ideal)) : (Proc.devRef .tc main_arg26 : DevRef τ sig).ty.Contents (Elt Ideal) := V0 (Proc.devRef .tc main_arg26)
abbrev a27 (V0 : Valuation τ sig (Elt Ideal)) : (Proc.devRef .tc main_arg27 : DevRef τ sig).ty.Contents (Elt Ideal) := V0 (Proc.devRef .tc main_arg27)
abbrev a28 (V0 : Valuation τ sig (Elt Ideal)) : (Proc.devRef .tc main_arg28 : DevRef τ sig).ty.Contents (Elt Ideal) := V0 (Proc.devRef .tc main_arg28)
abbrev a29 (V0 : Valuation τ sig (Elt Ideal)) : (Proc.devRef .tc main_arg29 : DevRef τ sig).ty.Contents (Elt Ideal) := V0 (Proc.devRef .tc main_arg29)
abbrev a30 (V0 : Valuation τ sig (Elt Ideal)) : (Proc.devRef .tc main_arg30 : DevRef τ sig).ty.Contents (Elt Ideal) := V0 (Proc.devRef .tc main_arg30)
abbrev a31 (V0 : Valuation τ sig (Elt Ideal)) : (Proc.devRef .tc main_arg31 : DevRef τ sig).ty.Contents (Elt Ideal) := V0 (Proc.devRef .tc main_arg31)
abbrev a32 (V0 : Valuation τ sig (Elt Ideal)) : (Proc.devRef .tc main_arg32 : DevRef τ sig).ty.Contents (Elt Ideal) := V0 (Proc.devRef .tc main_arg32)
abbrev a33 (V0 : Valuation τ sig (Elt Ideal)) : (Proc.devRef .tc main_arg33 : DevRef τ sig).ty.Contents (Elt Ideal) := V0 (Proc.devRef .tc main_arg33)
abbrev a34 (V0 : Valuation τ sig (Elt Ideal)) : (Proc.devRef .tc main_arg34 : DevRef τ sig).ty.Contents (Elt Ideal) := V0 (Proc.devRef .tc main_arg34)
abbrev a35 (V0 : Valuation τ sig (Elt Ideal)) : (Proc.devRef .tc main_arg35 : DevRef τ sig).ty.Contents (Elt Ideal) := V0 (Proc.devRef .tc main_arg35)
abbrev a36 (V0 : Valuation τ sig (Elt Ideal)) : (Proc.devRef .tc main_arg36 : DevRef τ sig).ty.Contents (Elt Ideal) := V0 (Proc.devRef .tc main_arg36)

/-! ## The regions' layers in the host's spelling -/

/-- The host's spelling of 2 layers over 50000 rows of width 3: dot_general, the bias broadcast to one row and along the
    rows, and for a rectified layer the larger with a broadcast zero. -/
def hostRR_50000_3 (X : FVec Ideal S50000x3 .f32) (W1 : FVec Ideal S3x64 .f32) (b1 : FVec Ideal S64 .f32) (W2 : FVec Ideal S64x64 .f32) (b2 : FVec Ideal S64 .f32) : FVec Ideal S50000x64 .f32 :=
  (maximumf (addf (Host.dotGeneral dot_S50000x64_S64x64_S50000x64_1_0_0_1_n_n none (maximumf (addf (Host.dotGeneral dot_S50000x3_S3x64_S50000x64_1_0_0_1_n_n none X W1) (broadcastInDim S50000x64 ![0, 1] bcast_S1x64_S50000x64_0_1 (broadcastInDim S1x64 ![1] bcast_S64_S1x64_1 b1))) (broadcastInDim S50000x64 ![] bcast_S_S50000x64 (constant (F := Ideal) S_ .f32 0x00000000#32))) W2) (broadcastInDim S50000x64 ![0, 1] bcast_S1x64_S50000x64_0_1 (broadcastInDim S1x64 ![1] bcast_S64_S1x64_1 b2))) (broadcastInDim S50000x64 ![] bcast_S_S50000x64 (constant (F := Ideal) S_ .f32 0x00000000#32)))

set_option maxHeartbeats 1000000 in
theorem hostRR_50000_3_eq (X : FVec Ideal S50000x3 .f32) (W1 : FVec Ideal S3x64 .f32) (b1 : FVec Ideal S64 .f32) (W2 : FVec Ideal S64x64 .f32) (b2 : FVec Ideal S64 .f32) :
    hostRR_50000_3 X W1 b1 W2 b2 = rr X W1 b1 W2 b2 := by
  unfold hostRR_50000_3 rr
  refine (relu_host _ bcast_S_S50000x64).trans ?_
  refine congrArg relu ?_
  refine (affine_of_dot_any dot_S50000x64_S64x64_S50000x64_1_0_0_1_n_n rfl rfl lhs0 lhs1 rhs0 rhs1 bcast_S64_S1x64_1 bcast_S1x64_S50000x64_0_1 _ W2 b2).trans ?_
  refine congrArg (fun u => affine u W2 b2) ?_
  refine (relu_host _ bcast_S_S50000x64).trans ?_
  refine congrArg relu ?_
  exact affine_of_dot_any dot_S50000x3_S3x64_S50000x64_1_0_0_1_n_n rfl rfl lhs0 lhs1 rhs0 rhs1 bcast_S64_S1x64_1 bcast_S1x64_S50000x64_0_1 _ W1 b1

/-- The host's spelling of 2 layers over 50000 rows of width 5: dot_general, the bias broadcast to one row and along the
    rows, and for a rectified layer the larger with a broadcast zero. -/
def hostRR_50000_5 (X : FVec Ideal S50000x5 .f32) (W1 : FVec Ideal S5x64 .f32) (b1 : FVec Ideal S64 .f32) (W2 : FVec Ideal S64x64 .f32) (b2 : FVec Ideal S64 .f32) : FVec Ideal S50000x64 .f32 :=
  (maximumf (addf (Host.dotGeneral dot_S50000x64_S64x64_S50000x64_1_0_0_1_n_n none (maximumf (addf (Host.dotGeneral dot_S50000x5_S5x64_S50000x64_1_0_0_1_n_n none X W1) (broadcastInDim S50000x64 ![0, 1] bcast_S1x64_S50000x64_0_1 (broadcastInDim S1x64 ![1] bcast_S64_S1x64_1 b1))) (broadcastInDim S50000x64 ![] bcast_S_S50000x64 (constant (F := Ideal) S_ .f32 0x00000000#32))) W2) (broadcastInDim S50000x64 ![0, 1] bcast_S1x64_S50000x64_0_1 (broadcastInDim S1x64 ![1] bcast_S64_S1x64_1 b2))) (broadcastInDim S50000x64 ![] bcast_S_S50000x64 (constant (F := Ideal) S_ .f32 0x00000000#32)))

set_option maxHeartbeats 1000000 in
theorem hostRR_50000_5_eq (X : FVec Ideal S50000x5 .f32) (W1 : FVec Ideal S5x64 .f32) (b1 : FVec Ideal S64 .f32) (W2 : FVec Ideal S64x64 .f32) (b2 : FVec Ideal S64 .f32) :
    hostRR_50000_5 X W1 b1 W2 b2 = rr X W1 b1 W2 b2 := by
  unfold hostRR_50000_5 rr
  refine (relu_host _ bcast_S_S50000x64).trans ?_
  refine congrArg relu ?_
  refine (affine_of_dot_any dot_S50000x64_S64x64_S50000x64_1_0_0_1_n_n rfl rfl lhs0 lhs1 rhs0 rhs1 bcast_S64_S1x64_1 bcast_S1x64_S50000x64_0_1 _ W2 b2).trans ?_
  refine congrArg (fun u => affine u W2 b2) ?_
  refine (relu_host _ bcast_S_S50000x64).trans ?_
  refine congrArg relu ?_
  exact affine_of_dot_any dot_S50000x5_S5x64_S50000x64_1_0_0_1_n_n rfl rfl lhs0 lhs1 rhs0 rhs1 bcast_S64_S1x64_1 bcast_S1x64_S50000x64_0_1 _ W1 b1

/-- The host's spelling of 2 layers over 600000 rows of width 129: dot_general, the bias broadcast to one row and along the
    rows, and for a rectified layer the larger with a broadcast zero. -/
def hostRA_600000_129 (X : FVec Ideal S600000x129 .f32) (W1 : FVec Ideal S129x64 .f32) (b1 : FVec Ideal S64 .f32) (W2 : FVec Ideal S64x64 .f32) (b2 : FVec Ideal S64 .f32) : FVec Ideal S600000x64 .f32 :=
  (addf (Host.dotGeneral dot_S600000x64_S64x64_S600000x64_1_0_0_1_n_n none (maximumf (addf (Host.dotGeneral dot_S600000x129_S129x64_S600000x64_1_0_0_1_n_n none X W1) (broadcastInDim S600000x64 ![0, 1] bcast_S1x64_S600000x64_0_1 (broadcastInDim S1x64 ![1] bcast_S64_S1x64_1 b1))) (broadcastInDim S600000x64 ![] bcast_S_S600000x64 (constant (F := Ideal) S_ .f32 0x00000000#32))) W2) (broadcastInDim S600000x64 ![0, 1] bcast_S1x64_S600000x64_0_1 (broadcastInDim S1x64 ![1] bcast_S64_S1x64_1 b2)))

set_option maxHeartbeats 1000000 in
theorem hostRA_600000_129_eq (X : FVec Ideal S600000x129 .f32) (W1 : FVec Ideal S129x64 .f32) (b1 : FVec Ideal S64 .f32) (W2 : FVec Ideal S64x64 .f32) (b2 : FVec Ideal S64 .f32) :
    hostRA_600000_129 X W1 b1 W2 b2 = ra X W1 b1 W2 b2 := by
  unfold hostRA_600000_129 ra
  refine (affine_of_dot_any dot_S600000x64_S64x64_S600000x64_1_0_0_1_n_n rfl rfl lhs0 lhs1 rhs0 rhs1 bcast_S64_S1x64_1 bcast_S1x64_S600000x64_0_1 _ W2 b2).trans ?_
  refine congrArg (fun u => affine u W2 b2) ?_
  refine (relu_host _ bcast_S_S600000x64).trans ?_
  refine congrArg relu ?_
  exact affine_of_dot_any dot_S600000x129_S129x64_S600000x64_1_0_0_1_n_n rfl rfl lhs0 lhs1 rhs0 rhs1 bcast_S64_S1x64_1 bcast_S1x64_S600000x64_0_1 _ W1 b1

/-- The host's spelling of 2 layers over 50000 rows of width 128: dot_general, the bias broadcast to one row and along the
    rows, and for a rectified layer the larger with a broadcast zero. -/
def hostRA_50000_128 (X : FVec Ideal S50000x128 .f32) (W1 : FVec Ideal S128x64 .f32) (b1 : FVec Ideal S64 .f32) (W2 : FVec Ideal S64x64 .f32) (b2 : FVec Ideal S64 .f32) : FVec Ideal S50000x64 .f32 :=
  (addf (Host.dotGeneral dot_S50000x64_S64x64_S50000x64_1_0_0_1_n_n none (maximumf (addf (Host.dotGeneral dot_S50000x128_S128x64_S50000x64_1_0_0_1_n_n none X W1) (broadcastInDim S50000x64 ![0, 1] bcast_S1x64_S50000x64_0_1 (broadcastInDim S1x64 ![1] bcast_S64_S1x64_1 b1))) (broadcastInDim S50000x64 ![] bcast_S_S50000x64 (constant (F := Ideal) S_ .f32 0x00000000#32))) W2) (broadcastInDim S50000x64 ![0, 1] bcast_S1x64_S50000x64_0_1 (broadcastInDim S1x64 ![1] bcast_S64_S1x64_1 b2)))

set_option maxHeartbeats 1000000 in
theorem hostRA_50000_128_eq (X : FVec Ideal S50000x128 .f32) (W1 : FVec Ideal S128x64 .f32) (b1 : FVec Ideal S64 .f32) (W2 : FVec Ideal S64x64 .f32) (b2 : FVec Ideal S64 .f32) :
    hostRA_50000_128 X W1 b1 W2 b2 = ra X W1 b1 W2 b2 := by
  unfold hostRA_50000_128 ra
  refine (affine_of_dot_any dot_S50000x64_S64x64_S50000x64_1_0_0_1_n_n rfl rfl lhs0 lhs1 rhs0 rhs1 bcast_S64_S1x64_1 bcast_S1x64_S50000x64_0_1 _ W2 b2).trans ?_
  refine congrArg (fun u => affine u W2 b2) ?_
  refine (relu_host _ bcast_S_S50000x64).trans ?_
  refine congrArg relu ?_
  exact affine_of_dot_any dot_S50000x128_S128x64_S50000x64_1_0_0_1_n_n rfl rfl lhs0 lhs1 rhs0 rhs1 bcast_S64_S1x64_1 bcast_S1x64_S50000x64_0_1 _ W1 b1

/-- The host's spelling of 3 layers over 50000 rows of width 192: dot_general, the bias broadcast to one row and along the
    rows, and for a rectified layer the larger with a broadcast zero. -/
def hostRRA_50000_192 (X : FVec Ideal S50000x192 .f32) (W1 : FVec Ideal S192x512 .f32) (b1 : FVec Ideal S512 .f32) (W2 : FVec Ideal S512x128 .f32) (b2 : FVec Ideal S128 .f32) (W3 : FVec Ideal S128x1 .f32) (b3 : FVec Ideal S1 .f32) : FVec Ideal S50000x1 .f32 :=
  (addf (Host.dotGeneral dot_S50000x128_S128x1_S50000x1_1_0_0_1_n_n none (maximumf (addf (Host.dotGeneral dot_S50000x512_S512x128_S50000x128_1_0_0_1_n_n none (maximumf (addf (Host.dotGeneral dot_S50000x192_S192x512_S50000x512_1_0_0_1_n_n none X W1) (broadcastInDim S50000x512 ![0, 1] bcast_S1x512_S50000x512_0_1 (broadcastInDim S1x512 ![1] bcast_S512_S1x512_1 b1))) (broadcastInDim S50000x512 ![] bcast_S_S50000x512 (constant (F := Ideal) S_ .f32 0x00000000#32))) W2) (broadcastInDim S50000x128 ![0, 1] bcast_S1x128_S50000x128_0_1 (broadcastInDim S1x128 ![1] bcast_S128_S1x128_1 b2))) (broadcastInDim S50000x128 ![] bcast_S_S50000x128 (constant (F := Ideal) S_ .f32 0x00000000#32))) W3) (broadcastInDim S50000x1 ![0, 1] bcast_S1x1_S50000x1_0_1 (broadcastInDim S1x1 ![1] bcast_S1_S1x1_1 b3)))

set_option maxHeartbeats 1000000 in
theorem hostRRA_50000_192_eq (X : FVec Ideal S50000x192 .f32) (W1 : FVec Ideal S192x512 .f32) (b1 : FVec Ideal S512 .f32) (W2 : FVec Ideal S512x128 .f32) (b2 : FVec Ideal S128 .f32) (W3 : FVec Ideal S128x1 .f32) (b3 : FVec Ideal S1 .f32) :
    hostRRA_50000_192 X W1 b1 W2 b2 W3 b3 = rra X W1 b1 W2 b2 W3 b3 := by
  unfold hostRRA_50000_192 rra
  refine (affine_of_dot_any dot_S50000x128_S128x1_S50000x1_1_0_0_1_n_n rfl rfl lhs0 lhs1 rhs0 rhs1 bcast_S1_S1x1_1 bcast_S1x1_S50000x1_0_1 _ W3 b3).trans ?_
  refine congrArg (fun u => affine u W3 b3) ?_
  refine (relu_host _ bcast_S_S50000x128).trans ?_
  refine congrArg relu ?_
  refine (affine_of_dot_any dot_S50000x512_S512x128_S50000x128_1_0_0_1_n_n rfl rfl lhs0 lhs1 rhs0 rhs1 bcast_S128_S1x128_1 bcast_S1x128_S50000x128_0_1 _ W2 b2).trans ?_
  refine congrArg (fun u => affine u W2 b2) ?_
  refine (relu_host _ bcast_S_S50000x512).trans ?_
  refine congrArg relu ?_
  exact affine_of_dot_any dot_S50000x192_S192x512_S50000x512_1_0_0_1_n_n rfl rfl lhs0 lhs1 rhs0 rhs1 bcast_S512_S1x512_1 bcast_S1x512_S50000x512_0_1 _ W1 b1

/-! ## The values the kernel's program carries across its boundaries -/

/-- The reference's value of `main_v24`, from the arguments' launch contents. -/
def t_main_v24 (V0 : Valuation τ sig (Elt Ideal)) : (Proc.devRef .tc main_v24 : DevRef τ sig).ty.Contents (Elt Ideal) :=
  (addf (mulf (mulf (subf (a0 V0) (broadcastInDim S50000x3 ![0, 1] bcast_S1x3_S50000x3_0_1 (broadcastInDim S1x3 ![1] bcast_S3_S1x3_1 (res_main_v2 V0)))) (broadcastInDim S50000x3 ![0, 1] bcast_S1x3_S50000x3_0_1 (broadcastInDim S1x3 ![1] bcast_S3_S1x3_1 (Host.rsqrt (addf (Host.divf (Host.reduceAdd (mulf (res_main_v5 V0) (res_main_v5 V0)) (constant (F := Ideal) S_ .f32 0x00000000#32) reducesTo_S50000x3_S3_d0 h_S_) (broadcastInDim S3 ![] bcast_S_S3 (constant (F := Ideal) S_ .f32 0x47435000#32))) (broadcastInDim S3 ![] bcast_S_S3 (constant (F := Ideal) S_ .f32 0x3727C5AC#32))))))) (broadcastInDim S50000x3 ![0, 1] bcast_S1x3_S50000x3_0_1 (broadcastInDim S1x3 ![1] bcast_S3_S1x3_1 (a3 V0)))) (broadcastInDim S50000x3 ![0, 1] bcast_S1x3_S50000x3_0_1 (broadcastInDim S1x3 ![1] bcast_S3_S1x3_1 (a4 V0))))

/-- The reference's value of `main_v86`, from the arguments' launch contents. -/
def t_main_v86 (V0 : Valuation τ sig (Elt Ideal)) : (Proc.devRef .tc main_v86 : DevRef τ sig).ty.Contents (Elt Ideal) :=
  (addf (mulf (mulf (subf (a2 V0) (broadcastInDim S50000x5 ![0, 1] bcast_S1x5_S50000x5_0_1 (broadcastInDim S1x5 ![1] bcast_S5_S1x5_1 (res_main_v64 V0)))) (broadcastInDim S50000x5 ![0, 1] bcast_S1x5_S50000x5_0_1 (broadcastInDim S1x5 ![1] bcast_S5_S1x5_1 (Host.rsqrt (addf (Host.divf (Host.reduceAdd (mulf (res_main_v67 V0) (res_main_v67 V0)) (constant (F := Ideal) S_ .f32 0x00000000#32) reducesTo_S50000x5_S5_d0 h_S_) (broadcastInDim S5 ![] bcast_S_S5 (constant (F := Ideal) S_ .f32 0x47435000#32))) (broadcastInDim S5 ![] bcast_S_S5 (constant (F := Ideal) S_ .f32 0x3727C5AC#32))))))) (broadcastInDim S50000x5 ![0, 1] bcast_S1x5_S50000x5_0_1 (broadcastInDim S1x5 ![1] bcast_S5_S1x5_1 (a11 V0)))) (broadcastInDim S50000x5 ![0, 1] bcast_S1x5_S50000x5_0_1 (broadcastInDim S1x5 ![1] bcast_S5_S1x5_1 (a12 V0))))

/-- The reference's value of `main_v104`, from the arguments' launch contents. -/
def t_main_v104 (V0 : Valuation τ sig (Elt Ideal)) : (Proc.devRef .tc main_v104 : DevRef τ sig).ty.Contents (Elt Ideal) :=
  (shapeCast _ (extractStridedSlice S1x129x64 ![0, 0, 0] (a17 V0) slices_S4x129x64_S1x129x64_0_0_0) shapeCasts_S1x129x64_S129x64)

/-- The reference's value of `main_v106`, from the arguments' launch contents. -/
def t_main_v106 (V0 : Valuation τ sig (Elt Ideal)) : (Proc.devRef .tc main_v106 : DevRef τ sig).ty.Contents (Elt Ideal) :=
  (shapeCast _ (extractStridedSlice S1x64 ![0, 0] (a18 V0) slices_S4x64_S1x64_0_0) shapeCasts_S1x64_S64)

/-- The reference's value of `main_v108`, from the arguments' launch contents. -/
def t_main_v108 (V0 : Valuation τ sig (Elt Ideal)) : (Proc.devRef .tc main_v108 : DevRef τ sig).ty.Contents (Elt Ideal) :=
  (shapeCast _ (extractStridedSlice S1x64x64 ![0, 0, 0] (a19 V0) slices_S4x64x64_S1x64x64_0_0_0) shapeCasts_S1x64x64_S64x64)

/-- The reference's value of `main_v110`, from the arguments' launch contents. -/
def t_main_v110 (V0 : Valuation τ sig (Elt Ideal)) : (Proc.devRef .tc main_v110 : DevRef τ sig).ty.Contents (Elt Ideal) :=
  (shapeCast _ (extractStridedSlice S1x64 ![0, 0] (a20 V0) slices_S4x64_S1x64_0_0) shapeCasts_S1x64_S64)

/-- The reference's value of `main_v112`, from the arguments' launch contents. -/
def t_main_v112 (V0 : Valuation τ sig (Elt Ideal)) : (Proc.devRef .tc main_v112 : DevRef τ sig).ty.Contents (Elt Ideal) :=
  (shapeCast _ (extractStridedSlice S1x64 ![0, 0] (a21 V0) slices_S4x64_S1x64_0_0) shapeCasts_S1x64_S64)

/-- The reference's value of `main_v114`, from the arguments' launch contents. -/
def t_main_v114 (V0 : Valuation τ sig (Elt Ideal)) : (Proc.devRef .tc main_v114 : DevRef τ sig).ty.Contents (Elt Ideal) :=
  (shapeCast _ (extractStridedSlice S1x64 ![0, 0] (a22 V0) slices_S4x64_S1x64_0_0) shapeCasts_S1x64_S64)

/-- The reference's value of `main_v116`, from the arguments' launch contents. -/
def t_main_v116 (V0 : Valuation τ sig (Elt Ideal)) : (Proc.devRef .tc main_v116 : DevRef τ sig).ty.Contents (Elt Ideal) :=
  (shapeCast _ (extractStridedSlice S1x128x64 ![0, 0, 0] (a23 V0) slices_S4x128x64_S1x128x64_0_0_0) shapeCasts_S1x128x64_S128x64)

/-- The reference's value of `main_v118`, from the arguments' launch contents. -/
def t_main_v118 (V0 : Valuation τ sig (Elt Ideal)) : (Proc.devRef .tc main_v118 : DevRef τ sig).ty.Contents (Elt Ideal) :=
  (shapeCast _ (extractStridedSlice S1x64 ![0, 0] (a24 V0) slices_S4x64_S1x64_0_0) shapeCasts_S1x64_S64)

/-- The reference's value of `main_v120`, from the arguments' launch contents. -/
def t_main_v120 (V0 : Valuation τ sig (Elt Ideal)) : (Proc.devRef .tc main_v120 : DevRef τ sig).ty.Contents (Elt Ideal) :=
  (shapeCast _ (extractStridedSlice S1x64x64 ![0, 0, 0] (a25 V0) slices_S4x64x64_S1x64x64_0_0_0) shapeCasts_S1x64x64_S64x64)

/-- The reference's value of `main_v122`, from the arguments' launch contents. -/
def t_main_v122 (V0 : Valuation τ sig (Elt Ideal)) : (Proc.devRef .tc main_v122 : DevRef τ sig).ty.Contents (Elt Ideal) :=
  (shapeCast _ (extractStridedSlice S1x64 ![0, 0] (a26 V0) slices_S4x64_S1x64_0_0) shapeCasts_S1x64_S64)

/-- The reference's value of `main_v137`, from the arguments' launch contents. -/
def t_main_v137 (V0 : Valuation τ sig (Elt Ideal)) : (Proc.devRef .tc main_v137 : DevRef τ sig).ty.Contents (Elt Ideal) :=
  (fn_main_v137 (F := Ideal) (Host.gather gather_S50000x64_S600000x1_S600000x64_1_0_n_n_0_1_164 (res_main_v36 V0) (broadcastInDim S600000x1 ![0] bcast_S600000_S600000x1_0 (select (cmpi .slt (res_main_v100 V0) (broadcastInDim S600000 ![] bcast_S_S600000 (constantI S_ 32 0#32))) (addi (res_main_v100 V0) (broadcastInDim S600000 ![] bcast_S_S600000 (constantI S_ 32 50000#32))) (res_main_v100 V0)))) (res_main_v61 V0) (Host.gather gather_S50000x64_S600000x1_S600000x64_1_0_n_n_0_1_164 (res_main_v98 V0) (broadcastInDim S600000x1 ![0] bcast_S600000_S600000x1_0 (select (cmpi .slt (res_main_v102 V0) (broadcastInDim S600000 ![] bcast_S_S600000 (constantI S_ 32 0#32))) (addi (res_main_v102 V0) (broadcastInDim S600000 ![] bcast_S_S600000 (constantI S_ 32 50000#32))) (res_main_v102 V0)))))

/-- The reference's value of `main_v147`, from the arguments' launch contents. -/
def t_main_v147 (V0 : Valuation τ sig (Elt Ideal)) : (Proc.devRef .tc main_v147 : DevRef τ sig).ty.Contents (Elt Ideal) :=
  hostRA_600000_129 (t_main_v137 V0) (t_main_v104 V0) (t_main_v106 V0) (t_main_v108 V0) (t_main_v110 V0)

/-- The reference's value of `main_v184`, from the arguments' launch contents. -/
def t_main_v184 (V0 : Valuation τ sig (Elt Ideal)) : (Proc.devRef .tc main_v184 : DevRef τ sig).ty.Contents (Elt Ideal) :=
  (fn_main_v184 (F := Ideal) (addf (mulf (mulf (subf (res_main_v158 V0) (broadcastInDim S50000x64 ![0, 1] bcast_S1x64_S50000x64_0_1 (broadcastInDim S1x64 ![1] bcast_S64_S1x64_1 (res_main_v161 V0)))) (broadcastInDim S50000x64 ![0, 1] bcast_S1x64_S50000x64_0_1 (broadcastInDim S1x64 ![1] bcast_S64_S1x64_1 (Host.rsqrt (addf (Host.divf (Host.reduceAdd (mulf (res_main_v164 V0) (res_main_v164 V0)) (constant (F := Ideal) S_ .f32 0x00000000#32) reducesTo_S50000x64_S64_d0 h_S_) (broadcastInDim S64 ![] bcast_S_S64 (constant (F := Ideal) S_ .f32 0x47435000#32))) (broadcastInDim S64 ![] bcast_S_S64 (constant (F := Ideal) S_ .f32 0x3727C5AC#32))))))) (broadcastInDim S50000x64 ![0, 1] bcast_S1x64_S50000x64_0_1 (broadcastInDim S1x64 ![1] bcast_S64_S1x64_1 (t_main_v112 V0)))) (broadcastInDim S50000x64 ![0, 1] bcast_S1x64_S50000x64_0_1 (broadcastInDim S1x64 ![1] bcast_S64_S1x64_1 (t_main_v114 V0)))) (res_main_v36 V0))

/-- The reference's value of `main_v196`, from the arguments' launch contents. -/
def t_main_v196 (V0 : Valuation τ sig (Elt Ideal)) : (Proc.devRef .tc main_v196 : DevRef τ sig).ty.Contents (Elt Ideal) :=
  (shapeCast _ (extractStridedSlice S1x129x64 ![1, 0, 0] (a17 V0) slices_S4x129x64_S1x129x64_1_0_0) shapeCasts_S1x129x64_S129x64)

/-- The reference's value of `main_v198`, from the arguments' launch contents. -/
def t_main_v198 (V0 : Valuation τ sig (Elt Ideal)) : (Proc.devRef .tc main_v198 : DevRef τ sig).ty.Contents (Elt Ideal) :=
  (shapeCast _ (extractStridedSlice S1x64 ![1, 0] (a18 V0) slices_S4x64_S1x64_1_0) shapeCasts_S1x64_S64)

/-- The reference's value of `main_v200`, from the arguments' launch contents. -/
def t_main_v200 (V0 : Valuation τ sig (Elt Ideal)) : (Proc.devRef .tc main_v200 : DevRef τ sig).ty.Contents (Elt Ideal) :=
  (shapeCast _ (extractStridedSlice S1x64x64 ![1, 0, 0] (a19 V0) slices_S4x64x64_S1x64x64_1_0_0) shapeCasts_S1x64x64_S64x64)

/-- The reference's value of `main_v202`, from the arguments' launch contents. -/
def t_main_v202 (V0 : Valuation τ sig (Elt Ideal)) : (Proc.devRef .tc main_v202 : DevRef τ sig).ty.Contents (Elt Ideal) :=
  (shapeCast _ (extractStridedSlice S1x64 ![1, 0] (a20 V0) slices_S4x64_S1x64_1_0) shapeCasts_S1x64_S64)

/-- The reference's value of `main_v204`, from the arguments' launch contents. -/
def t_main_v204 (V0 : Valuation τ sig (Elt Ideal)) : (Proc.devRef .tc main_v204 : DevRef τ sig).ty.Contents (Elt Ideal) :=
  (shapeCast _ (extractStridedSlice S1x64 ![1, 0] (a21 V0) slices_S4x64_S1x64_1_0) shapeCasts_S1x64_S64)

/-- The reference's value of `main_v206`, from the arguments' launch contents. -/
def t_main_v206 (V0 : Valuation τ sig (Elt Ideal)) : (Proc.devRef .tc main_v206 : DevRef τ sig).ty.Contents (Elt Ideal) :=
  (shapeCast _ (extractStridedSlice S1x64 ![1, 0] (a22 V0) slices_S4x64_S1x64_1_0) shapeCasts_S1x64_S64)

/-- The reference's value of `main_v208`, from the arguments' launch contents. -/
def t_main_v208 (V0 : Valuation τ sig (Elt Ideal)) : (Proc.devRef .tc main_v208 : DevRef τ sig).ty.Contents (Elt Ideal) :=
  (shapeCast _ (extractStridedSlice S1x128x64 ![1, 0, 0] (a23 V0) slices_S4x128x64_S1x128x64_1_0_0) shapeCasts_S1x128x64_S128x64)

/-- The reference's value of `main_v210`, from the arguments' launch contents. -/
def t_main_v210 (V0 : Valuation τ sig (Elt Ideal)) : (Proc.devRef .tc main_v210 : DevRef τ sig).ty.Contents (Elt Ideal) :=
  (shapeCast _ (extractStridedSlice S1x64 ![1, 0] (a24 V0) slices_S4x64_S1x64_1_0) shapeCasts_S1x64_S64)

/-- The reference's value of `main_v212`, from the arguments' launch contents. -/
def t_main_v212 (V0 : Valuation τ sig (Elt Ideal)) : (Proc.devRef .tc main_v212 : DevRef τ sig).ty.Contents (Elt Ideal) :=
  (shapeCast _ (extractStridedSlice S1x64x64 ![1, 0, 0] (a25 V0) slices_S4x64x64_S1x64x64_1_0_0) shapeCasts_S1x64x64_S64x64)

/-- The reference's value of `main_v214`, from the arguments' launch contents. -/
def t_main_v214 (V0 : Valuation τ sig (Elt Ideal)) : (Proc.devRef .tc main_v214 : DevRef τ sig).ty.Contents (Elt Ideal) :=
  (shapeCast _ (extractStridedSlice S1x64 ![1, 0] (a26 V0) slices_S4x64_S1x64_1_0) shapeCasts_S1x64_S64)

/-- The reference's value of `main_v229`, from the arguments' launch contents. -/
def t_main_v229 (V0 : Valuation τ sig (Elt Ideal)) : (Proc.devRef .tc main_v229 : DevRef τ sig).ty.Contents (Elt Ideal) :=
  (fn_main_v229 (F := Ideal) (Host.gather gather_S50000x64_S600000x1_S600000x64_1_0_n_n_0_1_164 (res_main_v98 V0) (broadcastInDim S600000x1 ![0] bcast_S600000_S600000x1_0 (select (cmpi .slt (res_main_v102 V0) (broadcastInDim S600000 ![] bcast_S_S600000 (constantI S_ 32 0#32))) (addi (res_main_v102 V0) (broadcastInDim S600000 ![] bcast_S_S600000 (constantI S_ 32 50000#32))) (res_main_v102 V0)))) (res_main_v61 V0) (Host.gather gather_S50000x64_S600000x1_S600000x64_1_0_n_n_0_1_164 (res_main_v194 V0) (broadcastInDim S600000x1 ![0] bcast_S600000_S600000x1_0 (select (cmpi .slt (res_main_v100 V0) (broadcastInDim S600000 ![] bcast_S_S600000 (constantI S_ 32 0#32))) (addi (res_main_v100 V0) (broadcastInDim S600000 ![] bcast_S_S600000 (constantI S_ 32 50000#32))) (res_main_v100 V0)))))

/-- The reference's value of `main_v239`, from the arguments' launch contents. -/
def t_main_v239 (V0 : Valuation τ sig (Elt Ideal)) : (Proc.devRef .tc main_v239 : DevRef τ sig).ty.Contents (Elt Ideal) :=
  hostRA_600000_129 (t_main_v229 V0) (t_main_v196 V0) (t_main_v198 V0) (t_main_v200 V0) (t_main_v202 V0)

/-- The reference's value of `main_v276`, from the arguments' launch contents. -/
def t_main_v276 (V0 : Valuation τ sig (Elt Ideal)) : (Proc.devRef .tc main_v276 : DevRef τ sig).ty.Contents (Elt Ideal) :=
  (fn_main_v276 (F := Ideal) (addf (mulf (mulf (subf (res_main_v250 V0) (broadcastInDim S50000x64 ![0, 1] bcast_S1x64_S50000x64_0_1 (broadcastInDim S1x64 ![1] bcast_S64_S1x64_1 (res_main_v253 V0)))) (broadcastInDim S50000x64 ![0, 1] bcast_S1x64_S50000x64_0_1 (broadcastInDim S1x64 ![1] bcast_S64_S1x64_1 (Host.rsqrt (addf (Host.divf (Host.reduceAdd (mulf (res_main_v256 V0) (res_main_v256 V0)) (constant (F := Ideal) S_ .f32 0x00000000#32) reducesTo_S50000x64_S64_d0 h_S_) (broadcastInDim S64 ![] bcast_S_S64 (constant (F := Ideal) S_ .f32 0x47435000#32))) (broadcastInDim S64 ![] bcast_S_S64 (constant (F := Ideal) S_ .f32 0x3727C5AC#32))))))) (broadcastInDim S50000x64 ![0, 1] bcast_S1x64_S50000x64_0_1 (broadcastInDim S1x64 ![1] bcast_S64_S1x64_1 (t_main_v204 V0)))) (broadcastInDim S50000x64 ![0, 1] bcast_S1x64_S50000x64_0_1 (broadcastInDim S1x64 ![1] bcast_S64_S1x64_1 (t_main_v206 V0)))) (res_main_v98 V0))

/-- The reference's value of `main_v348`, from the arguments' launch contents. -/
def t_main_v348 (V0 : Valuation τ sig (Elt Ideal)) : (Proc.devRef .tc main_v348 : DevRef τ sig).ty.Contents (Elt Ideal) :=
  (shapeCast _ (extractStridedSlice S1x129x64 ![2, 0, 0] (a17 V0) slices_S4x129x64_S1x129x64_2_0_0) shapeCasts_S1x129x64_S129x64)

/-- The reference's value of `main_v350`, from the arguments' launch contents. -/
def t_main_v350 (V0 : Valuation τ sig (Elt Ideal)) : (Proc.devRef .tc main_v350 : DevRef τ sig).ty.Contents (Elt Ideal) :=
  (shapeCast _ (extractStridedSlice S1x64 ![2, 0] (a18 V0) slices_S4x64_S1x64_2_0) shapeCasts_S1x64_S64)

/-- The reference's value of `main_v352`, from the arguments' launch contents. -/
def t_main_v352 (V0 : Valuation τ sig (Elt Ideal)) : (Proc.devRef .tc main_v352 : DevRef τ sig).ty.Contents (Elt Ideal) :=
  (shapeCast _ (extractStridedSlice S1x64x64 ![2, 0, 0] (a19 V0) slices_S4x64x64_S1x64x64_2_0_0) shapeCasts_S1x64x64_S64x64)

/-- The reference's value of `main_v354`, from the arguments' launch contents. -/
def t_main_v354 (V0 : Valuation τ sig (Elt Ideal)) : (Proc.devRef .tc main_v354 : DevRef τ sig).ty.Contents (Elt Ideal) :=
  (shapeCast _ (extractStridedSlice S1x64 ![2, 0] (a20 V0) slices_S4x64_S1x64_2_0) shapeCasts_S1x64_S64)

/-- The reference's value of `main_v356`, from the arguments' launch contents. -/
def t_main_v356 (V0 : Valuation τ sig (Elt Ideal)) : (Proc.devRef .tc main_v356 : DevRef τ sig).ty.Contents (Elt Ideal) :=
  (shapeCast _ (extractStridedSlice S1x64 ![2, 0] (a21 V0) slices_S4x64_S1x64_2_0) shapeCasts_S1x64_S64)

/-- The reference's value of `main_v358`, from the arguments' launch contents. -/
def t_main_v358 (V0 : Valuation τ sig (Elt Ideal)) : (Proc.devRef .tc main_v358 : DevRef τ sig).ty.Contents (Elt Ideal) :=
  (shapeCast _ (extractStridedSlice S1x64 ![2, 0] (a22 V0) slices_S4x64_S1x64_2_0) shapeCasts_S1x64_S64)

/-- The reference's value of `main_v360`, from the arguments' launch contents. -/
def t_main_v360 (V0 : Valuation τ sig (Elt Ideal)) : (Proc.devRef .tc main_v360 : DevRef τ sig).ty.Contents (Elt Ideal) :=
  (shapeCast _ (extractStridedSlice S1x128x64 ![2, 0, 0] (a23 V0) slices_S4x128x64_S1x128x64_2_0_0) shapeCasts_S1x128x64_S128x64)

/-- The reference's value of `main_v362`, from the arguments' launch contents. -/
def t_main_v362 (V0 : Valuation τ sig (Elt Ideal)) : (Proc.devRef .tc main_v362 : DevRef τ sig).ty.Contents (Elt Ideal) :=
  (shapeCast _ (extractStridedSlice S1x64 ![2, 0] (a24 V0) slices_S4x64_S1x64_2_0) shapeCasts_S1x64_S64)

/-- The reference's value of `main_v364`, from the arguments' launch contents. -/
def t_main_v364 (V0 : Valuation τ sig (Elt Ideal)) : (Proc.devRef .tc main_v364 : DevRef τ sig).ty.Contents (Elt Ideal) :=
  (shapeCast _ (extractStridedSlice S1x64x64 ![2, 0, 0] (a25 V0) slices_S4x64x64_S1x64x64_2_0_0) shapeCasts_S1x64x64_S64x64)

/-- The reference's value of `main_v366`, from the arguments' launch contents. -/
def t_main_v366 (V0 : Valuation τ sig (Elt Ideal)) : (Proc.devRef .tc main_v366 : DevRef τ sig).ty.Contents (Elt Ideal) :=
  (shapeCast _ (extractStridedSlice S1x64 ![2, 0] (a26 V0) slices_S4x64_S1x64_2_0) shapeCasts_S1x64_S64)

/-- The reference's value of `main_v381`, from the arguments' launch contents. -/
def t_main_v381 (V0 : Valuation τ sig (Elt Ideal)) : (Proc.devRef .tc main_v381 : DevRef τ sig).ty.Contents (Elt Ideal) :=
  (fn_main_v381 (F := Ideal) (Host.gather gather_S50000x64_S600000x1_S600000x64_1_0_n_n_0_1_164 (res_main_v316 V0) (broadcastInDim S600000x1 ![0] bcast_S600000_S600000x1_0 (select (cmpi .slt (res_main_v100 V0) (broadcastInDim S600000 ![] bcast_S_S600000 (constantI S_ 32 0#32))) (addi (res_main_v100 V0) (broadcastInDim S600000 ![] bcast_S_S600000 (constantI S_ 32 50000#32))) (res_main_v100 V0)))) (res_main_v61 V0) (Host.gather gather_S50000x64_S600000x1_S600000x64_1_0_n_n_0_1_164 (res_main_v346 V0) (broadcastInDim S600000x1 ![0] bcast_S600000_S600000x1_0 (select (cmpi .slt (res_main_v102 V0) (broadcastInDim S600000 ![] bcast_S_S600000 (constantI S_ 32 0#32))) (addi (res_main_v102 V0) (broadcastInDim S600000 ![] bcast_S_S600000 (constantI S_ 32 50000#32))) (res_main_v102 V0)))))

/-- The reference's value of `main_v391`, from the arguments' launch contents. -/
def t_main_v391 (V0 : Valuation τ sig (Elt Ideal)) : (Proc.devRef .tc main_v391 : DevRef τ sig).ty.Contents (Elt Ideal) :=
  hostRA_600000_129 (t_main_v381 V0) (t_main_v348 V0) (t_main_v350 V0) (t_main_v352 V0) (t_main_v354 V0)

/-- The reference's value of `main_v428`, from the arguments' launch contents. -/
def t_main_v428 (V0 : Valuation τ sig (Elt Ideal)) : (Proc.devRef .tc main_v428 : DevRef τ sig).ty.Contents (Elt Ideal) :=
  (fn_main_v428 (F := Ideal) (addf (mulf (mulf (subf (res_main_v402 V0) (broadcastInDim S50000x64 ![0, 1] bcast_S1x64_S50000x64_0_1 (broadcastInDim S1x64 ![1] bcast_S64_S1x64_1 (res_main_v405 V0)))) (broadcastInDim S50000x64 ![0, 1] bcast_S1x64_S50000x64_0_1 (broadcastInDim S1x64 ![1] bcast_S64_S1x64_1 (Host.rsqrt (addf (Host.divf (Host.reduceAdd (mulf (res_main_v408 V0) (res_main_v408 V0)) (constant (F := Ideal) S_ .f32 0x00000000#32) reducesTo_S50000x64_S64_d0 h_S_) (broadcastInDim S64 ![] bcast_S_S64 (constant (F := Ideal) S_ .f32 0x47435000#32))) (broadcastInDim S64 ![] bcast_S_S64 (constant (F := Ideal) S_ .f32 0x3727C5AC#32))))))) (broadcastInDim S50000x64 ![0, 1] bcast_S1x64_S50000x64_0_1 (broadcastInDim S1x64 ![1] bcast_S64_S1x64_1 (t_main_v356 V0)))) (broadcastInDim S50000x64 ![0, 1] bcast_S1x64_S50000x64_0_1 (broadcastInDim S1x64 ![1] bcast_S64_S1x64_1 (t_main_v358 V0)))) (res_main_v316 V0))

/-- The reference's value of `main_v440`, from the arguments' launch contents. -/
def t_main_v440 (V0 : Valuation τ sig (Elt Ideal)) : (Proc.devRef .tc main_v440 : DevRef τ sig).ty.Contents (Elt Ideal) :=
  (shapeCast _ (extractStridedSlice S1x129x64 ![3, 0, 0] (a17 V0) slices_S4x129x64_S1x129x64_3_0_0) shapeCasts_S1x129x64_S129x64)

/-- The reference's value of `main_v442`, from the arguments' launch contents. -/
def t_main_v442 (V0 : Valuation τ sig (Elt Ideal)) : (Proc.devRef .tc main_v442 : DevRef τ sig).ty.Contents (Elt Ideal) :=
  (shapeCast _ (extractStridedSlice S1x64 ![3, 0] (a18 V0) slices_S4x64_S1x64_3_0) shapeCasts_S1x64_S64)

/-- The reference's value of `main_v444`, from the arguments' launch contents. -/
def t_main_v444 (V0 : Valuation τ sig (Elt Ideal)) : (Proc.devRef .tc main_v444 : DevRef τ sig).ty.Contents (Elt Ideal) :=
  (shapeCast _ (extractStridedSlice S1x64x64 ![3, 0, 0] (a19 V0) slices_S4x64x64_S1x64x64_3_0_0) shapeCasts_S1x64x64_S64x64)

/-- The reference's value of `main_v446`, from the arguments' launch contents. -/
def t_main_v446 (V0 : Valuation τ sig (Elt Ideal)) : (Proc.devRef .tc main_v446 : DevRef τ sig).ty.Contents (Elt Ideal) :=
  (shapeCast _ (extractStridedSlice S1x64 ![3, 0] (a20 V0) slices_S4x64_S1x64_3_0) shapeCasts_S1x64_S64)

/-- The reference's value of `main_v448`, from the arguments' launch contents. -/
def t_main_v448 (V0 : Valuation τ sig (Elt Ideal)) : (Proc.devRef .tc main_v448 : DevRef τ sig).ty.Contents (Elt Ideal) :=
  (shapeCast _ (extractStridedSlice S1x64 ![3, 0] (a21 V0) slices_S4x64_S1x64_3_0) shapeCasts_S1x64_S64)

/-- The reference's value of `main_v450`, from the arguments' launch contents. -/
def t_main_v450 (V0 : Valuation τ sig (Elt Ideal)) : (Proc.devRef .tc main_v450 : DevRef τ sig).ty.Contents (Elt Ideal) :=
  (shapeCast _ (extractStridedSlice S1x64 ![3, 0] (a22 V0) slices_S4x64_S1x64_3_0) shapeCasts_S1x64_S64)

/-- The reference's value of `main_v452`, from the arguments' launch contents. -/
def t_main_v452 (V0 : Valuation τ sig (Elt Ideal)) : (Proc.devRef .tc main_v452 : DevRef τ sig).ty.Contents (Elt Ideal) :=
  (shapeCast _ (extractStridedSlice S1x128x64 ![3, 0, 0] (a23 V0) slices_S4x128x64_S1x128x64_3_0_0) shapeCasts_S1x128x64_S128x64)

/-- The reference's value of `main_v454`, from the arguments' launch contents. -/
def t_main_v454 (V0 : Valuation τ sig (Elt Ideal)) : (Proc.devRef .tc main_v454 : DevRef τ sig).ty.Contents (Elt Ideal) :=
  (shapeCast _ (extractStridedSlice S1x64 ![3, 0] (a24 V0) slices_S4x64_S1x64_3_0) shapeCasts_S1x64_S64)

/-- The reference's value of `main_v456`, from the arguments' launch contents. -/
def t_main_v456 (V0 : Valuation τ sig (Elt Ideal)) : (Proc.devRef .tc main_v456 : DevRef τ sig).ty.Contents (Elt Ideal) :=
  (shapeCast _ (extractStridedSlice S1x64x64 ![3, 0, 0] (a25 V0) slices_S4x64x64_S1x64x64_3_0_0) shapeCasts_S1x64x64_S64x64)

/-- The reference's value of `main_v458`, from the arguments' launch contents. -/
def t_main_v458 (V0 : Valuation τ sig (Elt Ideal)) : (Proc.devRef .tc main_v458 : DevRef τ sig).ty.Contents (Elt Ideal) :=
  (shapeCast _ (extractStridedSlice S1x64 ![3, 0] (a26 V0) slices_S4x64_S1x64_3_0) shapeCasts_S1x64_S64)

/-- The reference's value of `main_v473`, from the arguments' launch contents. -/
def t_main_v473 (V0 : Valuation τ sig (Elt Ideal)) : (Proc.devRef .tc main_v473 : DevRef τ sig).ty.Contents (Elt Ideal) :=
  (fn_main_v473 (F := Ideal) (Host.gather gather_S50000x64_S600000x1_S600000x64_1_0_n_n_0_1_164 (res_main_v346 V0) (broadcastInDim S600000x1 ![0] bcast_S600000_S600000x1_0 (select (cmpi .slt (res_main_v102 V0) (broadcastInDim S600000 ![] bcast_S_S600000 (constantI S_ 32 0#32))) (addi (res_main_v102 V0) (broadcastInDim S600000 ![] bcast_S_S600000 (constantI S_ 32 50000#32))) (res_main_v102 V0)))) (res_main_v61 V0) (Host.gather gather_S50000x64_S600000x1_S600000x64_1_0_n_n_0_1_164 (res_main_v438 V0) (broadcastInDim S600000x1 ![0] bcast_S600000_S600000x1_0 (select (cmpi .slt (res_main_v100 V0) (broadcastInDim S600000 ![] bcast_S_S600000 (constantI S_ 32 0#32))) (addi (res_main_v100 V0) (broadcastInDim S600000 ![] bcast_S_S600000 (constantI S_ 32 50000#32))) (res_main_v100 V0)))))

/-- The reference's value of `main_v483`, from the arguments' launch contents. -/
def t_main_v483 (V0 : Valuation τ sig (Elt Ideal)) : (Proc.devRef .tc main_v483 : DevRef τ sig).ty.Contents (Elt Ideal) :=
  hostRA_600000_129 (t_main_v473 V0) (t_main_v440 V0) (t_main_v442 V0) (t_main_v444 V0) (t_main_v446 V0)

/-- The reference's value of `main_v520`, from the arguments' launch contents. -/
def t_main_v520 (V0 : Valuation τ sig (Elt Ideal)) : (Proc.devRef .tc main_v520 : DevRef τ sig).ty.Contents (Elt Ideal) :=
  (fn_main_v520 (F := Ideal) (addf (mulf (mulf (subf (res_main_v494 V0) (broadcastInDim S50000x64 ![0, 1] bcast_S1x64_S50000x64_0_1 (broadcastInDim S1x64 ![1] bcast_S64_S1x64_1 (res_main_v497 V0)))) (broadcastInDim S50000x64 ![0, 1] bcast_S1x64_S50000x64_0_1 (broadcastInDim S1x64 ![1] bcast_S64_S1x64_1 (Host.rsqrt (addf (Host.divf (Host.reduceAdd (mulf (res_main_v500 V0) (res_main_v500 V0)) (constant (F := Ideal) S_ .f32 0x00000000#32) reducesTo_S50000x64_S64_d0 h_S_) (broadcastInDim S64 ![] bcast_S_S64 (constant (F := Ideal) S_ .f32 0x47435000#32))) (broadcastInDim S64 ![] bcast_S_S64 (constant (F := Ideal) S_ .f32 0x3727C5AC#32))))))) (broadcastInDim S50000x64 ![0, 1] bcast_S1x64_S50000x64_0_1 (broadcastInDim S1x64 ![1] bcast_S64_S1x64_1 (t_main_v448 V0)))) (broadcastInDim S50000x64 ![0, 1] bcast_S1x64_S50000x64_0_1 (broadcastInDim S1x64 ![1] bcast_S64_S1x64_1 (t_main_v450 V0)))) (res_main_v346 V0))

/-- The reference's value of `main_v591`, from the arguments' launch contents. -/
def t_main_v591 (V0 : Valuation τ sig (Elt Ideal)) : (Proc.devRef .tc main_v591 : DevRef τ sig).ty.Contents (Elt Ideal) :=
  (fn_main_v591 (F := Ideal) (res_main_v98 V0) (res_main_v346 V0) (addf (mulf (mulf (broadcastInDim S50000x64 ![0, 1] bcast_S1x64_S50000x64_0_1 (broadcastInDim S1x64 ![1] bcast_S64_S1x64_1 (shapeCast _ (extractStridedSlice S1x64 ![3, 0] (a27 V0) slices_S4x64_S1x64_3_0) shapeCasts_S1x64_S64))) (res_main_v574 V0)) (broadcastInDim S50000x64 ![0, 1] bcast_S1x64_S50000x64_0_1 (Host.rsqrt (addf (Host.divf (broadcastInDim S1x64 ![1] bcast_S64_S1x64_1 (Host.reduceAdd (mulf (res_main_v574 V0) (res_main_v574 V0)) (constant (F := Ideal) S_ .f32 0x00000000#32) reducesTo_S50000x64_S64_d0 h_S_)) (broadcastInDim S1x64 ![] bcast_S_S1x64 (constant (F := Ideal) S_ .f32 0x47435000#32))) (broadcastInDim S1x64 ![] bcast_S_S1x64 (constant (F := Ideal) S_ .f32 0x3727C5AC#32)))))) (broadcastInDim S50000x64 ![0, 1] bcast_S1x64_S50000x64_0_1 (broadcastInDim S1x64 ![1] bcast_S64_S1x64_1 (shapeCast _ (extractStridedSlice S1x64 ![3, 0] (a28 V0) slices_S4x64_S1x64_3_0) shapeCasts_S1x64_S64)))))

/-- The reference's value of `main_v607`, from the arguments' launch contents. -/
def t_main_v607 (V0 : Valuation τ sig (Elt Ideal)) : (Proc.devRef .tc main_v607 : DevRef τ sig).ty.Contents (Elt Ideal) :=
  hostRRA_50000_192 (t_main_v591 V0) (a30 V0) (a31 V0) (a32 V0) (a33 V0) (a34 V0) (a35 V0)

/-- The reference's value of `main_v608`, from the arguments' launch contents. -/
def t_main_v608 (V0 : Valuation τ sig (Elt Ideal)) : (Proc.devRef .tc main_v608 : DevRef τ sig).ty.Contents (Elt Ideal) :=
  (shapeCast _ (t_main_v607 V0) shapeCasts_S50000x1_S50000)

/-! ## Each stage's output is the stage of its inputs -/

set_option maxHeartbeats 1000000 in
/-- Stage 0: the reference's value of `main_v36` is the stage of its values of the stage's inputs. -/
theorem stage0_ref (V0 : Valuation τ sig (Elt Ideal)) :
    (res_main_v36 V0) = rr (t_main_v24 V0) (a5 V0) (a6 V0) (a7 V0) (a8 V0) :=
  (show (res_main_v36 V0) = hostRR_50000_3 (t_main_v24 V0) (a5 V0) (a6 V0) (a7 V0) (a8 V0) from rfl).trans (hostRR_50000_3_eq _ _ _ _ _)

set_option maxHeartbeats 1000000 in
/-- Stage 1: the reference's value of `main_v98` is the stage of its values of the stage's inputs. -/
theorem stage1_ref (V0 : Valuation τ sig (Elt Ideal)) :
    (res_main_v98 V0) = rr (t_main_v86 V0) (a13 V0) (a14 V0) (a15 V0) (a16 V0) :=
  (show (res_main_v98 V0) = hostRR_50000_5 (t_main_v86 V0) (a13 V0) (a14 V0) (a15 V0) (a16 V0) from rfl).trans (hostRR_50000_5_eq _ _ _ _ _)

set_option maxHeartbeats 1000000 in
/-- Stage 2: the reference's value of `main_v147` is the stage of its values of the stage's inputs. -/
theorem stage2_ref (V0 : Valuation τ sig (Elt Ideal)) :
    (t_main_v147 V0) = ra (t_main_v137 V0) (t_main_v104 V0) (t_main_v106 V0) (t_main_v108 V0) (t_main_v110 V0) :=
  (show (t_main_v147 V0) = hostRA_600000_129 (t_main_v137 V0) (t_main_v104 V0) (t_main_v106 V0) (t_main_v108 V0) (t_main_v110 V0) from rfl).trans (hostRA_600000_129_eq _ _ _ _ _)

set_option maxHeartbeats 1000000 in
/-- Stage 3: the reference's value of `main_v194` is the stage of its values of the stage's inputs. -/
theorem stage3_ref (V0 : Valuation τ sig (Elt Ideal)) :
    (res_main_v194 V0) = ra (t_main_v184 V0) (t_main_v116 V0) (t_main_v118 V0) (t_main_v120 V0) (t_main_v122 V0) :=
  (show (res_main_v194 V0) = hostRA_50000_128 (t_main_v184 V0) (t_main_v116 V0) (t_main_v118 V0) (t_main_v120 V0) (t_main_v122 V0) from rfl).trans (hostRA_50000_128_eq _ _ _ _ _)

set_option maxHeartbeats 1000000 in
/-- Stage 4: the reference's value of `main_v239` is the stage of its values of the stage's inputs. -/
theorem stage4_ref (V0 : Valuation τ sig (Elt Ideal)) :
    (t_main_v239 V0) = ra (t_main_v229 V0) (t_main_v196 V0) (t_main_v198 V0) (t_main_v200 V0) (t_main_v202 V0) :=
  (show (t_main_v239 V0) = hostRA_600000_129 (t_main_v229 V0) (t_main_v196 V0) (t_main_v198 V0) (t_main_v200 V0) (t_main_v202 V0) from rfl).trans (hostRA_600000_129_eq _ _ _ _ _)

set_option maxHeartbeats 1000000 in
/-- Stage 5: the reference's value of `main_v286` is the stage of its values of the stage's inputs. -/
theorem stage5_ref (V0 : Valuation τ sig (Elt Ideal)) :
    (res_main_v286 V0) = ra (t_main_v276 V0) (t_main_v208 V0) (t_main_v210 V0) (t_main_v212 V0) (t_main_v214 V0) :=
  (show (res_main_v286 V0) = hostRA_50000_128 (t_main_v276 V0) (t_main_v208 V0) (t_main_v210 V0) (t_main_v212 V0) (t_main_v214 V0) from rfl).trans (hostRA_50000_128_eq _ _ _ _ _)

set_option maxHeartbeats 1000000 in
/-- Stage 6: the reference's value of `main_v391` is the stage of its values of the stage's inputs. -/
theorem stage6_ref (V0 : Valuation τ sig (Elt Ideal)) :
    (t_main_v391 V0) = ra (t_main_v381 V0) (t_main_v348 V0) (t_main_v350 V0) (t_main_v352 V0) (t_main_v354 V0) :=
  (show (t_main_v391 V0) = hostRA_600000_129 (t_main_v381 V0) (t_main_v348 V0) (t_main_v350 V0) (t_main_v352 V0) (t_main_v354 V0) from rfl).trans (hostRA_600000_129_eq _ _ _ _ _)

set_option maxHeartbeats 1000000 in
/-- Stage 7: the reference's value of `main_v438` is the stage of its values of the stage's inputs. -/
theorem stage7_ref (V0 : Valuation τ sig (Elt Ideal)) :
    (res_main_v438 V0) = ra (t_main_v428 V0) (t_main_v360 V0) (t_main_v362 V0) (t_main_v364 V0) (t_main_v366 V0) :=
  (show (res_main_v438 V0) = hostRA_50000_128 (t_main_v428 V0) (t_main_v360 V0) (t_main_v362 V0) (t_main_v364 V0) (t_main_v366 V0) from rfl).trans (hostRA_50000_128_eq _ _ _ _ _)

set_option maxHeartbeats 1000000 in
/-- Stage 8: the reference's value of `main_v483` is the stage of its values of the stage's inputs. -/
theorem stage8_ref (V0 : Valuation τ sig (Elt Ideal)) :
    (t_main_v483 V0) = ra (t_main_v473 V0) (t_main_v440 V0) (t_main_v442 V0) (t_main_v444 V0) (t_main_v446 V0) :=
  (show (t_main_v483 V0) = hostRA_600000_129 (t_main_v473 V0) (t_main_v440 V0) (t_main_v442 V0) (t_main_v444 V0) (t_main_v446 V0) from rfl).trans (hostRA_600000_129_eq _ _ _ _ _)

set_option maxHeartbeats 1000000 in
/-- Stage 9: the reference's value of `main_v530` is the stage of its values of the stage's inputs. -/
theorem stage9_ref (V0 : Valuation τ sig (Elt Ideal)) :
    (res_main_v530 V0) = ra (t_main_v520 V0) (t_main_v452 V0) (t_main_v454 V0) (t_main_v456 V0) (t_main_v458 V0) :=
  (show (res_main_v530 V0) = hostRA_50000_128 (t_main_v520 V0) (t_main_v452 V0) (t_main_v454 V0) (t_main_v456 V0) (t_main_v458 V0) from rfl).trans (hostRA_50000_128_eq _ _ _ _ _)

set_option maxHeartbeats 1000000 in
/-- Stage 10: the reference's value of `main_v607` is the stage of its values of the stage's inputs. -/
theorem stage10_ref (V0 : Valuation τ sig (Elt Ideal)) :
    (t_main_v607 V0) = rra (t_main_v591 V0) (a30 V0) (a31 V0) (a32 V0) (a33 V0) (a34 V0) (a35 V0) :=
  (show (t_main_v607 V0) = hostRRA_50000_192 (t_main_v591 V0) (a30 V0) (a31 V0) (a32 V0) (a33 V0) (a34 V0) (a35 V0) from rfl).trans (hostRRA_50000_192_eq _ _ _ _ _ _ _)

end Cert.ReferenceIdeal.RefValue

end
-- ==== Proof.IdealAgree.lean ====
/-
  The two programs are launched on memories that agree on the arguments: on the kernel's side, every argument's buffer at
  launch holds what the reference's launch contents hold at the same argument.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-- The kernel's launch contents at argument 0 are the reference's. -/
def AgreeAt0 : Prop := W0 m ρ c (Proc.devRef .tc main_arg0) = Cert.ReferenceIdeal.RefValue.a0 V0'
/-- The kernel's launch contents at argument 1 are the reference's. -/
def AgreeAt1 : Prop := W0 m ρ c (Proc.devRef .tc main_arg1) = Cert.ReferenceIdeal.RefValue.a1 V0'
/-- The kernel's launch contents at argument 2 are the reference's. -/
def AgreeAt2 : Prop := W0 m ρ c (Proc.devRef .tc main_arg2) = Cert.ReferenceIdeal.RefValue.a2 V0'
/-- The kernel's launch contents at argument 3 are the reference's. -/
def AgreeAt3 : Prop := W0 m ρ c (Proc.devRef .tc main_arg3) = Cert.ReferenceIdeal.RefValue.a3 V0'
/-- The kernel's launch contents at argument 4 are the reference's. -/
def AgreeAt4 : Prop := W0 m ρ c (Proc.devRef .tc main_arg4) = Cert.ReferenceIdeal.RefValue.a4 V0'
/-- The kernel's launch contents at argument 5 are the reference's. -/
def AgreeAt5 : Prop := W0 m ρ c (Proc.devRef .tc main_arg5) = Cert.ReferenceIdeal.RefValue.a5 V0'
/-- The kernel's launch contents at argument 6 are the reference's. -/
def AgreeAt6 : Prop := W0 m ρ c (Proc.devRef .tc main_arg6) = Cert.ReferenceIdeal.RefValue.a6 V0'
/-- The kernel's launch contents at argument 7 are the reference's. -/
def AgreeAt7 : Prop := W0 m ρ c (Proc.devRef .tc main_arg7) = Cert.ReferenceIdeal.RefValue.a7 V0'
/-- The kernel's launch contents at argument 8 are the reference's. -/
def AgreeAt8 : Prop := W0 m ρ c (Proc.devRef .tc main_arg8) = Cert.ReferenceIdeal.RefValue.a8 V0'
/-- The kernel's launch contents at argument 9 are the reference's. -/
def AgreeAt9 : Prop := W0 m ρ c (Proc.devRef .tc main_arg9) = Cert.ReferenceIdeal.RefValue.a9 V0'
/-- The kernel's launch contents at argument 10 are the reference's. -/
def AgreeAt10 : Prop := W0 m ρ c (Proc.devRef .tc main_arg10) = Cert.ReferenceIdeal.RefValue.a10 V0'
/-- The kernel's launch contents at argument 11 are the reference's. -/
def AgreeAt11 : Prop := W0 m ρ c (Proc.devRef .tc main_arg11) = Cert.ReferenceIdeal.RefValue.a11 V0'
/-- The kernel's launch contents at argument 12 are the reference's. -/
def AgreeAt12 : Prop := W0 m ρ c (Proc.devRef .tc main_arg12) = Cert.ReferenceIdeal.RefValue.a12 V0'
/-- The kernel's launch contents at argument 13 are the reference's. -/
def AgreeAt13 : Prop := W0 m ρ c (Proc.devRef .tc main_arg13) = Cert.ReferenceIdeal.RefValue.a13 V0'
/-- The kernel's launch contents at argument 14 are the reference's. -/
def AgreeAt14 : Prop := W0 m ρ c (Proc.devRef .tc main_arg14) = Cert.ReferenceIdeal.RefValue.a14 V0'
/-- The kernel's launch contents at argument 15 are the reference's. -/
def AgreeAt15 : Prop := W0 m ρ c (Proc.devRef .tc main_arg15) = Cert.ReferenceIdeal.RefValue.a15 V0'
/-- The kernel's launch contents at argument 16 are the reference's. -/
def AgreeAt16 : Prop := W0 m ρ c (Proc.devRef .tc main_arg16) = Cert.ReferenceIdeal.RefValue.a16 V0'
/-- The kernel's launch contents at argument 17 are the reference's. -/
def AgreeAt17 : Prop := W0 m ρ c (Proc.devRef .tc main_arg17) = Cert.ReferenceIdeal.RefValue.a17 V0'
/-- The kernel's launch contents at argument 18 are the reference's. -/
def AgreeAt18 : Prop := W0 m ρ c (Proc.devRef .tc main_arg18) = Cert.ReferenceIdeal.RefValue.a18 V0'
/-- The kernel's launch contents at argument 19 are the reference's. -/
def AgreeAt19 : Prop := W0 m ρ c (Proc.devRef .tc main_arg19) = Cert.ReferenceIdeal.RefValue.a19 V0'
/-- The kernel's launch contents at argument 20 are the reference's. -/
def AgreeAt20 : Prop := W0 m ρ c (Proc.devRef .tc main_arg20) = Cert.ReferenceIdeal.RefValue.a20 V0'
/-- The kernel's launch contents at argument 21 are the reference's. -/
def AgreeAt21 : Prop := W0 m ρ c (Proc.devRef .tc main_arg21) = Cert.ReferenceIdeal.RefValue.a21 V0'
/-- The kernel's launch contents at argument 22 are the reference's. -/
def AgreeAt22 : Prop := W0 m ρ c (Proc.devRef .tc main_arg22) = Cert.ReferenceIdeal.RefValue.a22 V0'
/-- The kernel's launch contents at argument 23 are the reference's. -/
def AgreeAt23 : Prop := W0 m ρ c (Proc.devRef .tc main_arg23) = Cert.ReferenceIdeal.RefValue.a23 V0'
/-- The kernel's launch contents at argument 24 are the reference's. -/
def AgreeAt24 : Prop := W0 m ρ c (Proc.devRef .tc main_arg24) = Cert.ReferenceIdeal.RefValue.a24 V0'
/-- The kernel's launch contents at argument 25 are the reference's. -/
def AgreeAt25 : Prop := W0 m ρ c (Proc.devRef .tc main_arg25) = Cert.ReferenceIdeal.RefValue.a25 V0'
/-- The kernel's launch contents at argument 26 are the reference's. -/
def AgreeAt26 : Prop := W0 m ρ c (Proc.devRef .tc main_arg26) = Cert.ReferenceIdeal.RefValue.a26 V0'
/-- The kernel's launch contents at argument 27 are the reference's. -/
def AgreeAt27 : Prop := W0 m ρ c (Proc.devRef .tc main_arg27) = Cert.ReferenceIdeal.RefValue.a27 V0'
/-- The kernel's launch contents at argument 28 are the reference's. -/
def AgreeAt28 : Prop := W0 m ρ c (Proc.devRef .tc main_arg28) = Cert.ReferenceIdeal.RefValue.a28 V0'
/-- The kernel's launch contents at argument 29 are the reference's. -/
def AgreeAt29 : Prop := W0 m ρ c (Proc.devRef .tc main_arg29) = Cert.ReferenceIdeal.RefValue.a29 V0'
/-- The kernel's launch contents at argument 30 are the reference's. -/
def AgreeAt30 : Prop := W0 m ρ c (Proc.devRef .tc main_arg30) = Cert.ReferenceIdeal.RefValue.a30 V0'
/-- The kernel's launch contents at argument 31 are the reference's. -/
def AgreeAt31 : Prop := W0 m ρ c (Proc.devRef .tc main_arg31) = Cert.ReferenceIdeal.RefValue.a31 V0'
/-- The kernel's launch contents at argument 32 are the reference's. -/
def AgreeAt32 : Prop := W0 m ρ c (Proc.devRef .tc main_arg32) = Cert.ReferenceIdeal.RefValue.a32 V0'
/-- The kernel's launch contents at argument 33 are the reference's. -/
def AgreeAt33 : Prop := W0 m ρ c (Proc.devRef .tc main_arg33) = Cert.ReferenceIdeal.RefValue.a33 V0'
/-- The kernel's launch contents at argument 34 are the reference's. -/
def AgreeAt34 : Prop := W0 m ρ c (Proc.devRef .tc main_arg34) = Cert.ReferenceIdeal.RefValue.a34 V0'
/-- The kernel's launch contents at argument 35 are the reference's. -/
def AgreeAt35 : Prop := W0 m ρ c (Proc.devRef .tc main_arg35) = Cert.ReferenceIdeal.RefValue.a35 V0'
/-- The kernel's launch contents at argument 36 are the reference's. -/
def AgreeAt36 : Prop := W0 m ρ c (Proc.devRef .tc main_arg36) = Cert.ReferenceIdeal.RefValue.a36 V0'

/-- The kernel's launch contents at each argument are the reference's: the conjunction of the 37 named equations. -/
abbrev Agree : Prop :=
  AgreeAt0 m ρ c V0'
  ∧ AgreeAt1 m ρ c V0'
  ∧ AgreeAt2 m ρ c V0'
  ∧ AgreeAt3 m ρ c V0'
  ∧ AgreeAt4 m ρ c V0'
  ∧ AgreeAt5 m ρ c V0'
  ∧ AgreeAt6 m ρ c V0'
  ∧ AgreeAt7 m ρ c V0'
  ∧ AgreeAt8 m ρ c V0'
  ∧ AgreeAt9 m ρ c V0'
  ∧ AgreeAt10 m ρ c V0'
  ∧ AgreeAt11 m ρ c V0'
  ∧ AgreeAt12 m ρ c V0'
  ∧ AgreeAt13 m ρ c V0'
  ∧ AgreeAt14 m ρ c V0'
  ∧ AgreeAt15 m ρ c V0'
  ∧ AgreeAt16 m ρ c V0'
  ∧ AgreeAt17 m ρ c V0'
  ∧ AgreeAt18 m ρ c V0'
  ∧ AgreeAt19 m ρ c V0'
  ∧ AgreeAt20 m ρ c V0'
  ∧ AgreeAt21 m ρ c V0'
  ∧ AgreeAt22 m ρ c V0'
  ∧ AgreeAt23 m ρ c V0'
  ∧ AgreeAt24 m ρ c V0'
  ∧ AgreeAt25 m ρ c V0'
  ∧ AgreeAt26 m ρ c V0'
  ∧ AgreeAt27 m ρ c V0'
  ∧ AgreeAt28 m ρ c V0'
  ∧ AgreeAt29 m ρ c V0'
  ∧ AgreeAt30 m ρ c V0'
  ∧ AgreeAt31 m ρ c V0'
  ∧ AgreeAt32 m ρ c V0'
  ∧ AgreeAt33 m ρ c V0'
  ∧ AgreeAt34 m ρ c V0'
  ∧ AgreeAt35 m ρ c V0'
  ∧ AgreeAt36 m ρ c V0'

end Cert.KernelIdeal.Frm

end
-- ==== Proof.IdealStretch0.lean ====
/-
  Host stretch 0 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

set_option maxHeartbeats 4000000 in
/-- `main_v24` after the stretch, from the live-in buffers' values. -/
theorem s0_main_v24 (W : Valuation τ sig (Elt Ideal)) (V0' : Valuation Cert.ReferenceIdeal.τ Cert.ReferenceIdeal.sig (Elt Ideal))
    (h_main_arg4 : W (Proc.devRef .tc main_arg4) = Cert.ReferenceIdeal.RefValue.a4 V0')
    (h_main_arg3 : W (Proc.devRef .tc main_arg3) = Cert.ReferenceIdeal.RefValue.a3 V0')
    (h_main_arg0 : W (Proc.devRef .tc main_arg0) = Cert.ReferenceIdeal.RefValue.a0 V0') :
    StableHlo.after (hostOps0 (F := Ideal)) W (Proc.devRef .tc main_v24) = Cert.ReferenceIdeal.RefValue.t_main_v24 V0' := by
  simp only [hostOps0]
  after_results_simp
  try dsimp only [Matrix.cons_val]
  try after_results_simp
  simp only [h_main_arg4, h_main_arg3, h_main_arg0] <;> rfl

set_option maxHeartbeats 4000000 in
/-- `main_v25` after the stretch, from the live-in buffers' values. -/
theorem s0_main_v25 (W : Valuation τ sig (Elt Ideal)) (V0' : Valuation Cert.ReferenceIdeal.τ Cert.ReferenceIdeal.sig (Elt Ideal))
    (h_main_arg6 : W (Proc.devRef .tc main_arg6) = Cert.ReferenceIdeal.RefValue.a6 V0') :
    StableHlo.after (hostOps0 (F := Ideal)) W (Proc.devRef .tc main_v25) = shapeCast _ (Cert.ReferenceIdeal.RefValue.a6 V0') shapeCasts_S64_S1x64 := by
  simp only [hostOps0]
  after_results_simp
  try dsimp only [Matrix.cons_val]
  try after_results_simp
  simp only [h_main_arg6] <;> rfl

set_option maxHeartbeats 4000000 in
/-- `main_v26` after the stretch, from the live-in buffers' values. -/
theorem s0_main_v26 (W : Valuation τ sig (Elt Ideal)) (V0' : Valuation Cert.ReferenceIdeal.τ Cert.ReferenceIdeal.sig (Elt Ideal))
    (h_main_arg8 : W (Proc.devRef .tc main_arg8) = Cert.ReferenceIdeal.RefValue.a8 V0') :
    StableHlo.after (hostOps0 (F := Ideal)) W (Proc.devRef .tc main_v26) = shapeCast _ (Cert.ReferenceIdeal.RefValue.a8 V0') shapeCasts_S64_S1x64 := by
  simp only [hostOps0]
  after_results_simp
  try dsimp only [Matrix.cons_val]
  try after_results_simp
  simp only [h_main_arg8] <;> rfl

end Cert.KernelIdeal.Frm

end
-- ==== Proof.IdealChain0.lean ====
/-
  The kernel's buffers at the boundaries 0 and 1 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealAgree
import proofs.«181157_j5506148073958_2_alg».proof.Proof.IdealWrites
import proofs.«181157_j5506148073958_2_alg».proof.Proof.IdealStretch0

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 0 -/

theorem L0_main_arg0 (hag : Agree m ρ c V0') : W0 m ρ c (Proc.devRef .tc main_arg0) = Cert.ReferenceIdeal.RefValue.a0 V0' := hag.1

theorem L0_main_arg3 (hag : Agree m ρ c V0') : W0 m ρ c (Proc.devRef .tc main_arg3) = Cert.ReferenceIdeal.RefValue.a3 V0' := hag.2.2.2.1

theorem L0_main_arg4 (hag : Agree m ρ c V0') : W0 m ρ c (Proc.devRef .tc main_arg4) = Cert.ReferenceIdeal.RefValue.a4 V0' := hag.2.2.2.2.1

theorem L0_main_arg6 (hag : Agree m ρ c V0') : W0 m ρ c (Proc.devRef .tc main_arg6) = Cert.ReferenceIdeal.RefValue.a6 V0' := hag.2.2.2.2.2.2.1

theorem L0_main_arg8 (hag : Agree m ρ c V0') : W0 m ρ c (Proc.devRef .tc main_arg8) = Cert.ReferenceIdeal.RefValue.a8 V0' := hag.2.2.2.2.2.2.2.2.1

theorem L0_main_arg5 (hag : Agree m ρ c V0') : W0 m ρ c (Proc.devRef .tc main_arg5) = Cert.ReferenceIdeal.RefValue.a5 V0' := hag.2.2.2.2.2.1

theorem L0_main_arg7 (hag : Agree m ρ c V0') : W0 m ρ c (Proc.devRef .tc main_arg7) = Cert.ReferenceIdeal.RefValue.a7 V0' := hag.2.2.2.2.2.2.2.1

theorem L0_main_arg1 (hag : Agree m ρ c V0') : W0 m ρ c (Proc.devRef .tc main_arg1) = Cert.ReferenceIdeal.RefValue.a1 V0' := hag.2.1

theorem L0_main_arg9 (hag : Agree m ρ c V0') : W0 m ρ c (Proc.devRef .tc main_arg9) = Cert.ReferenceIdeal.RefValue.a9 V0' := hag.2.2.2.2.2.2.2.2.2.1

theorem L0_main_arg10 (hag : Agree m ρ c V0') : W0 m ρ c (Proc.devRef .tc main_arg10) = Cert.ReferenceIdeal.RefValue.a10 V0' := hag.2.2.2.2.2.2.2.2.2.2.1

theorem L0_main_arg2 (hag : Agree m ρ c V0') : W0 m ρ c (Proc.devRef .tc main_arg2) = Cert.ReferenceIdeal.RefValue.a2 V0' := hag.2.2.1

theorem L0_main_arg11 (hag : Agree m ρ c V0') : W0 m ρ c (Proc.devRef .tc main_arg11) = Cert.ReferenceIdeal.RefValue.a11 V0' := hag.2.2.2.2.2.2.2.2.2.2.2.1

theorem L0_main_arg12 (hag : Agree m ρ c V0') : W0 m ρ c (Proc.devRef .tc main_arg12) = Cert.ReferenceIdeal.RefValue.a12 V0' := hag.2.2.2.2.2.2.2.2.2.2.2.2.1

theorem L0_main_arg14 (hag : Agree m ρ c V0') : W0 m ρ c (Proc.devRef .tc main_arg14) = Cert.ReferenceIdeal.RefValue.a14 V0' := hag.2.2.2.2.2.2.2.2.2.2.2.2.2.2.1

theorem L0_main_arg16 (hag : Agree m ρ c V0') : W0 m ρ c (Proc.devRef .tc main_arg16) = Cert.ReferenceIdeal.RefValue.a16 V0' := hag.2.2.2.2.2.2.2.2.2.2.2.2.2.2.2.2.1

theorem L0_main_arg13 (hag : Agree m ρ c V0') : W0 m ρ c (Proc.devRef .tc main_arg13) = Cert.ReferenceIdeal.RefValue.a13 V0' := hag.2.2.2.2.2.2.2.2.2.2.2.2.2.1

theorem L0_main_arg15 (hag : Agree m ρ c V0') : W0 m ρ c (Proc.devRef .tc main_arg15) = Cert.ReferenceIdeal.RefValue.a15 V0' := hag.2.2.2.2.2.2.2.2.2.2.2.2.2.2.2.1

theorem L0_main_arg36 (hag : Agree m ρ c V0') : W0 m ρ c (Proc.devRef .tc main_arg36) = Cert.ReferenceIdeal.RefValue.a36 V0' := hag.2.2.2.2.2.2.2.2.2.2.2.2.2.2.2.2.2.2.2.2.2.2.2.2.2.2.2.2.2.2.2.2.2.2.2.2

theorem L0_main_arg17 (hag : Agree m ρ c V0') : W0 m ρ c (Proc.devRef .tc main_arg17) = Cert.ReferenceIdeal.RefValue.a17 V0' := hag.2.2.2.2.2.2.2.2.2.2.2.2.2.2.2.2.2.1

theorem L0_main_arg18 (hag : Agree m ρ c V0') : W0 m ρ c (Proc.devRef .tc main_arg18) = Cert.ReferenceIdeal.RefValue.a18 V0' := hag.2.2.2.2.2.2.2.2.2.2.2.2.2.2.2.2.2.2.1

theorem L0_main_arg19 (hag : Agree m ρ c V0') : W0 m ρ c (Proc.devRef .tc main_arg19) = Cert.ReferenceIdeal.RefValue.a19 V0' := hag.2.2.2.2.2.2.2.2.2.2.2.2.2.2.2.2.2.2.2.1

theorem L0_main_arg20 (hag : Agree m ρ c V0') : W0 m ρ c (Proc.devRef .tc main_arg20) = Cert.ReferenceIdeal.RefValue.a20 V0' := hag.2.2.2.2.2.2.2.2.2.2.2.2.2.2.2.2.2.2.2.2.1

theorem L0_main_arg21 (hag : Agree m ρ c V0') : W0 m ρ c (Proc.devRef .tc main_arg21) = Cert.ReferenceIdeal.RefValue.a21 V0' := hag.2.2.2.2.2.2.2.2.2.2.2.2.2.2.2.2.2.2.2.2.2.1

theorem L0_main_arg22 (hag : Agree m ρ c V0') : W0 m ρ c (Proc.devRef .tc main_arg22) = Cert.ReferenceIdeal.RefValue.a22 V0' := hag.2.2.2.2.2.2.2.2.2.2.2.2.2.2.2.2.2.2.2.2.2.2.1

theorem L0_main_arg23 (hag : Agree m ρ c V0') : W0 m ρ c (Proc.devRef .tc main_arg23) = Cert.ReferenceIdeal.RefValue.a23 V0' := hag.2.2.2.2.2.2.2.2.2.2.2.2.2.2.2.2.2.2.2.2.2.2.2.1

theorem L0_main_arg24 (hag : Agree m ρ c V0') : W0 m ρ c (Proc.devRef .tc main_arg24) = Cert.ReferenceIdeal.RefValue.a24 V0' := hag.2.2.2.2.2.2.2.2.2.2.2.2.2.2.2.2.2.2.2.2.2.2.2.2.1

theorem L0_main_arg25 (hag : Agree m ρ c V0') : W0 m ρ c (Proc.devRef .tc main_arg25) = Cert.ReferenceIdeal.RefValue.a25 V0' := hag.2.2.2.2.2.2.2.2.2.2.2.2.2.2.2.2.2.2.2.2.2.2.2.2.2.1

theorem L0_main_arg26 (hag : Agree m ρ c V0') : W0 m ρ c (Proc.devRef .tc main_arg26) = Cert.ReferenceIdeal.RefValue.a26 V0' := hag.2.2.2.2.2.2.2.2.2.2.2.2.2.2.2.2.2.2.2.2.2.2.2.2.2.2.1

theorem L0_main_arg27 (hag : Agree m ρ c V0') : W0 m ρ c (Proc.devRef .tc main_arg27) = Cert.ReferenceIdeal.RefValue.a27 V0' := hag.2.2.2.2.2.2.2.2.2.2.2.2.2.2.2.2.2.2.2.2.2.2.2.2.2.2.2.1

theorem L0_main_arg28 (hag : Agree m ρ c V0') : W0 m ρ c (Proc.devRef .tc main_arg28) = Cert.ReferenceIdeal.RefValue.a28 V0' := hag.2.2.2.2.2.2.2.2.2.2.2.2.2.2.2.2.2.2.2.2.2.2.2.2.2.2.2.2.1

theorem L0_main_arg29 (hag : Agree m ρ c V0') : W0 m ρ c (Proc.devRef .tc main_arg29) = Cert.ReferenceIdeal.RefValue.a29 V0' := hag.2.2.2.2.2.2.2.2.2.2.2.2.2.2.2.2.2.2.2.2.2.2.2.2.2.2.2.2.2.1

theorem L0_main_arg31 (hag : Agree m ρ c V0') : W0 m ρ c (Proc.devRef .tc main_arg31) = Cert.ReferenceIdeal.RefValue.a31 V0' := hag.2.2.2.2.2.2.2.2.2.2.2.2.2.2.2.2.2.2.2.2.2.2.2.2.2.2.2.2.2.2.2.1

theorem L0_main_arg33 (hag : Agree m ρ c V0') : W0 m ρ c (Proc.devRef .tc main_arg33) = Cert.ReferenceIdeal.RefValue.a33 V0' := hag.2.2.2.2.2.2.2.2.2.2.2.2.2.2.2.2.2.2.2.2.2.2.2.2.2.2.2.2.2.2.2.2.2.1

theorem L0_main_arg35 (hag : Agree m ρ c V0') : W0 m ρ c (Proc.devRef .tc main_arg35) = Cert.ReferenceIdeal.RefValue.a35 V0' := hag.2.2.2.2.2.2.2.2.2.2.2.2.2.2.2.2.2.2.2.2.2.2.2.2.2.2.2.2.2.2.2.2.2.2.2.1

theorem L0_main_arg30 (hag : Agree m ρ c V0') : W0 m ρ c (Proc.devRef .tc main_arg30) = Cert.ReferenceIdeal.RefValue.a30 V0' := hag.2.2.2.2.2.2.2.2.2.2.2.2.2.2.2.2.2.2.2.2.2.2.2.2.2.2.2.2.2.2.1

theorem L0_main_arg32 (hag : Agree m ρ c V0') : W0 m ρ c (Proc.devRef .tc main_arg32) = Cert.ReferenceIdeal.RefValue.a32 V0' := hag.2.2.2.2.2.2.2.2.2.2.2.2.2.2.2.2.2.2.2.2.2.2.2.2.2.2.2.2.2.2.2.2.1

theorem L0_main_arg34 (hag : Agree m ρ c V0') : W0 m ρ c (Proc.devRef .tc main_arg34) = Cert.ReferenceIdeal.RefValue.a34 V0' := hag.2.2.2.2.2.2.2.2.2.2.2.2.2.2.2.2.2.2.2.2.2.2.2.2.2.2.2.2.2.2.2.2.2.2.1

/-! ## Boundary 1 -/

theorem L1_main_v24 (hag : Agree m ρ c V0') : W1 m ρ c (Proc.devRef .tc main_v24) = Cert.ReferenceIdeal.RefValue.t_main_v24 V0' := s0_main_v24 (W0 m ρ c) V0' (L0_main_arg4 m ρ c V0' hag) (L0_main_arg3 m ρ c V0' hag) (L0_main_arg0 m ρ c V0' hag)

theorem L1_main_arg5 (hag : Agree m ρ c V0') : W1 m ρ c (Proc.devRef .tc main_arg5) = Cert.ReferenceIdeal.RefValue.a5 V0' := (W1_of m ρ c main_arg5 (by decide)).trans (L0_main_arg5 m ρ c V0' hag)

theorem L1_main_v25 (hag : Agree m ρ c V0') : W1 m ρ c (Proc.devRef .tc main_v25) = shapeCast _ (Cert.ReferenceIdeal.RefValue.a6 V0') shapeCasts_S64_S1x64 := s0_main_v25 (W0 m ρ c) V0' (L0_main_arg6 m ρ c V0' hag)

theorem L1_main_arg7 (hag : Agree m ρ c V0') : W1 m ρ c (Proc.devRef .tc main_arg7) = Cert.ReferenceIdeal.RefValue.a7 V0' := (W1_of m ρ c main_arg7 (by decide)).trans (L0_main_arg7 m ρ c V0' hag)

theorem L1_main_v26 (hag : Agree m ρ c V0') : W1 m ρ c (Proc.devRef .tc main_v26) = shapeCast _ (Cert.ReferenceIdeal.RefValue.a8 V0') shapeCasts_S64_S1x64 := s0_main_v26 (W0 m ρ c) V0' (L0_main_arg8 m ρ c V0' hag)

theorem L1_main_arg1 (hag : Agree m ρ c V0') : W1 m ρ c (Proc.devRef .tc main_arg1) = Cert.ReferenceIdeal.RefValue.a1 V0' := (W1_of m ρ c main_arg1 (by decide)).trans (L0_main_arg1 m ρ c V0' hag)

theorem L1_main_arg9 (hag : Agree m ρ c V0') : W1 m ρ c (Proc.devRef .tc main_arg9) = Cert.ReferenceIdeal.RefValue.a9 V0' := (W1_of m ρ c main_arg9 (by decide)).trans (L0_main_arg9 m ρ c V0' hag)

theorem L1_main_arg10 (hag : Agree m ρ c V0') : W1 m ρ c (Proc.devRef .tc main_arg10) = Cert.ReferenceIdeal.RefValue.a10 V0' := (W1_of m ρ c main_arg10 (by decide)).trans (L0_main_arg10 m ρ c V0' hag)

theorem L1_main_arg2 (hag : Agree m ρ c V0') : W1 m ρ c (Proc.devRef .tc main_arg2) = Cert.ReferenceIdeal.RefValue.a2 V0' := (W1_of m ρ c main_arg2 (by decide)).trans (L0_main_arg2 m ρ c V0' hag)

theorem L1_main_arg11 (hag : Agree m ρ c V0') : W1 m ρ c (Proc.devRef .tc main_arg11) = Cert.ReferenceIdeal.RefValue.a11 V0' := (W1_of m ρ c main_arg11 (by decide)).trans (L0_main_arg11 m ρ c V0' hag)

theorem L1_main_arg12 (hag : Agree m ρ c V0') : W1 m ρ c (Proc.devRef .tc main_arg12) = Cert.ReferenceIdeal.RefValue.a12 V0' := (W1_of m ρ c main_arg12 (by decide)).trans (L0_main_arg12 m ρ c V0' hag)

theorem L1_main_arg14 (hag : Agree m ρ c V0') : W1 m ρ c (Proc.devRef .tc main_arg14) = Cert.ReferenceIdeal.RefValue.a14 V0' := (W1_of m ρ c main_arg14 (by decide)).trans (L0_main_arg14 m ρ c V0' hag)

theorem L1_main_arg16 (hag : Agree m ρ c V0') : W1 m ρ c (Proc.devRef .tc main_arg16) = Cert.ReferenceIdeal.RefValue.a16 V0' := (W1_of m ρ c main_arg16 (by decide)).trans (L0_main_arg16 m ρ c V0' hag)

theorem L1_main_arg13 (hag : Agree m ρ c V0') : W1 m ρ c (Proc.devRef .tc main_arg13) = Cert.ReferenceIdeal.RefValue.a13 V0' := (W1_of m ρ c main_arg13 (by decide)).trans (L0_main_arg13 m ρ c V0' hag)

theorem L1_main_arg15 (hag : Agree m ρ c V0') : W1 m ρ c (Proc.devRef .tc main_arg15) = Cert.ReferenceIdeal.RefValue.a15 V0' := (W1_of m ρ c main_arg15 (by decide)).trans (L0_main_arg15 m ρ c V0' hag)

theorem L1_main_arg36 (hag : Agree m ρ c V0') : W1 m ρ c (Proc.devRef .tc main_arg36) = Cert.ReferenceIdeal.RefValue.a36 V0' := (W1_of m ρ c main_arg36 (by decide)).trans (L0_main_arg36 m ρ c V0' hag)

theorem L1_main_arg17 (hag : Agree m ρ c V0') : W1 m ρ c (Proc.devRef .tc main_arg17) = Cert.ReferenceIdeal.RefValue.a17 V0' := (W1_of m ρ c main_arg17 (by decide)).trans (L0_main_arg17 m ρ c V0' hag)

theorem L1_main_arg18 (hag : Agree m ρ c V0') : W1 m ρ c (Proc.devRef .tc main_arg18) = Cert.ReferenceIdeal.RefValue.a18 V0' := (W1_of m ρ c main_arg18 (by decide)).trans (L0_main_arg18 m ρ c V0' hag)

theorem L1_main_arg19 (hag : Agree m ρ c V0') : W1 m ρ c (Proc.devRef .tc main_arg19) = Cert.ReferenceIdeal.RefValue.a19 V0' := (W1_of m ρ c main_arg19 (by decide)).trans (L0_main_arg19 m ρ c V0' hag)

theorem L1_main_arg20 (hag : Agree m ρ c V0') : W1 m ρ c (Proc.devRef .tc main_arg20) = Cert.ReferenceIdeal.RefValue.a20 V0' := (W1_of m ρ c main_arg20 (by decide)).trans (L0_main_arg20 m ρ c V0' hag)

theorem L1_main_arg21 (hag : Agree m ρ c V0') : W1 m ρ c (Proc.devRef .tc main_arg21) = Cert.ReferenceIdeal.RefValue.a21 V0' := (W1_of m ρ c main_arg21 (by decide)).trans (L0_main_arg21 m ρ c V0' hag)

theorem L1_main_arg22 (hag : Agree m ρ c V0') : W1 m ρ c (Proc.devRef .tc main_arg22) = Cert.ReferenceIdeal.RefValue.a22 V0' := (W1_of m ρ c main_arg22 (by decide)).trans (L0_main_arg22 m ρ c V0' hag)

theorem L1_main_arg23 (hag : Agree m ρ c V0') : W1 m ρ c (Proc.devRef .tc main_arg23) = Cert.ReferenceIdeal.RefValue.a23 V0' := (W1_of m ρ c main_arg23 (by decide)).trans (L0_main_arg23 m ρ c V0' hag)

theorem L1_main_arg24 (hag : Agree m ρ c V0') : W1 m ρ c (Proc.devRef .tc main_arg24) = Cert.ReferenceIdeal.RefValue.a24 V0' := (W1_of m ρ c main_arg24 (by decide)).trans (L0_main_arg24 m ρ c V0' hag)

theorem L1_main_arg25 (hag : Agree m ρ c V0') : W1 m ρ c (Proc.devRef .tc main_arg25) = Cert.ReferenceIdeal.RefValue.a25 V0' := (W1_of m ρ c main_arg25 (by decide)).trans (L0_main_arg25 m ρ c V0' hag)

theorem L1_main_arg26 (hag : Agree m ρ c V0') : W1 m ρ c (Proc.devRef .tc main_arg26) = Cert.ReferenceIdeal.RefValue.a26 V0' := (W1_of m ρ c main_arg26 (by decide)).trans (L0_main_arg26 m ρ c V0' hag)

theorem L1_main_arg27 (hag : Agree m ρ c V0') : W1 m ρ c (Proc.devRef .tc main_arg27) = Cert.ReferenceIdeal.RefValue.a27 V0' := (W1_of m ρ c main_arg27 (by decide)).trans (L0_main_arg27 m ρ c V0' hag)

theorem L1_main_arg28 (hag : Agree m ρ c V0') : W1 m ρ c (Proc.devRef .tc main_arg28) = Cert.ReferenceIdeal.RefValue.a28 V0' := (W1_of m ρ c main_arg28 (by decide)).trans (L0_main_arg28 m ρ c V0' hag)

theorem L1_main_arg29 (hag : Agree m ρ c V0') : W1 m ρ c (Proc.devRef .tc main_arg29) = Cert.ReferenceIdeal.RefValue.a29 V0' := (W1_of m ρ c main_arg29 (by decide)).trans (L0_main_arg29 m ρ c V0' hag)

theorem L1_main_arg31 (hag : Agree m ρ c V0') : W1 m ρ c (Proc.devRef .tc main_arg31) = Cert.ReferenceIdeal.RefValue.a31 V0' := (W1_of m ρ c main_arg31 (by decide)).trans (L0_main_arg31 m ρ c V0' hag)

theorem L1_main_arg33 (hag : Agree m ρ c V0') : W1 m ρ c (Proc.devRef .tc main_arg33) = Cert.ReferenceIdeal.RefValue.a33 V0' := (W1_of m ρ c main_arg33 (by decide)).trans (L0_main_arg33 m ρ c V0' hag)

theorem L1_main_arg35 (hag : Agree m ρ c V0') : W1 m ρ c (Proc.devRef .tc main_arg35) = Cert.ReferenceIdeal.RefValue.a35 V0' := (W1_of m ρ c main_arg35 (by decide)).trans (L0_main_arg35 m ρ c V0' hag)

theorem L1_main_arg30 (hag : Agree m ρ c V0') : W1 m ρ c (Proc.devRef .tc main_arg30) = Cert.ReferenceIdeal.RefValue.a30 V0' := (W1_of m ρ c main_arg30 (by decide)).trans (L0_main_arg30 m ρ c V0' hag)

theorem L1_main_arg32 (hag : Agree m ρ c V0') : W1 m ρ c (Proc.devRef .tc main_arg32) = Cert.ReferenceIdeal.RefValue.a32 V0' := (W1_of m ρ c main_arg32 (by decide)).trans (L0_main_arg32 m ρ c V0' hag)

theorem L1_main_arg34 (hag : Agree m ρ c V0') : W1 m ρ c (Proc.devRef .tc main_arg34) = Cert.ReferenceIdeal.RefValue.a34 V0' := (W1_of m ρ c main_arg34 (by decide)).trans (L0_main_arg34 m ρ c V0' hag)

end Cert.KernelIdeal.Frm

end
-- ==== Proof.IdealStagePay.lean ====
/-
  Each region's body value, read at a row and a column of its block of rows: the region's stage — two or three layers, the
  earlier ones rectified — of the blocks it loads.
-/
import proofs.«181157_j5506148073958_2_alg».proof.Proof.Stages
import proofs.«181157_j5506148073958_2_alg».proof.Proof.Gen.KernelIdeal.Skeleton

noncomputable section

namespace Cert.Stages

open Idealize.ShloMosaic Idealize.ShloMosaic.ValueIdx
open Cert.LibDenseLayers Cert.LibRowBias Cert.LibPlainDot Cert.LibGatherLayers
open Cert.KernelIdeal Cert.KernelIdeal.Gen

set_option maxHeartbeats 1000000 in
/-- Region 0's body value at row p and column q of its block: its stage of the blocks it loads. Each layer is a product into a
    zero accumulator plus a one-row bias; narrowing a product's operands to a shorter float format is no change here. -/
theorem pay0_apply (x0 : Vec Ideal S5000x3 .f32) (x1 : Vec Ideal S3x64 .f32) (x2 : Vec Ideal S1x64 .f32) (x3 : Vec Ideal S64x64 .f32) (x4 : Vec Ideal S1x64 .f32) (p : Fin 5000) (q : Fin 64) :
    Cert.KernelIdeal.Gen.k0_pay1 (F := Ideal) x0 x1 x2 x3 x4 (ix2 p q) = rr x0 x1 (rowOf x2) x3 (rowOf x4) (ix2 p q) := by
  unfold Cert.KernelIdeal.Gen.k0_pay1
  simp only [shapeCast_self x0]
  refine congrArg (fun u => max u (Ideal.ofBits .f32 0x00000000#32)) ?_
  refine (affineAt_of_matmul_row dot_S5000x64_S64x64_S5000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S5000x3_S3x64_S5000x64_1_0_0_1_n_n rfl rfl lhs0 lhs1 rhs0 rhs1 _ _ _ _ x2 p k).trans ?_
  rfl

set_option maxHeartbeats 1000000 in
/-- Region 1's body value at row p and column q of its block: its stage of the blocks it loads. Each layer is a product into a
    zero accumulator plus a one-row bias; narrowing a product's operands to a shorter float format is no change here. -/
theorem pay1_apply (x0 : Vec Ideal S5000x5 .f32) (x1 : Vec Ideal S5x64 .f32) (x2 : Vec Ideal S1x64 .f32) (x3 : Vec Ideal S64x64 .f32) (x4 : Vec Ideal S1x64 .f32) (p : Fin 5000) (q : Fin 64) :
    Cert.KernelIdeal.Gen.k1_pay1 (F := Ideal) x0 x1 x2 x3 x4 (ix2 p q) = rr x0 x1 (rowOf x2) x3 (rowOf x4) (ix2 p q) := by
  unfold Cert.KernelIdeal.Gen.k1_pay1
  simp only [shapeCast_self x0]
  refine congrArg (fun u => max u (Ideal.ofBits .f32 0x00000000#32)) ?_
  refine (affineAt_of_matmul_row dot_S5000x64_S64x64_S5000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S5000x5_S5x64_S5000x64_1_0_0_1_n_n rfl rfl lhs0 lhs1 rhs0 rhs1 _ _ _ _ x2 p k).trans ?_
  rfl

set_option maxHeartbeats 1000000 in
/-- Region 2's body value at row p and column q of its block: its stage of the blocks it loads. Each layer is a product into a
    zero accumulator plus a one-row bias; narrowing a product's operands to a shorter float format is no change here. -/
theorem pay2_apply (x0 : Vec Ideal S10000x129 .f32) (x1 : Vec Ideal S129x64 .f32) (x2 : Vec Ideal S1x64 .f32) (x3 : Vec Ideal S64x64 .f32) (x4 : Vec Ideal S1x64 .f32) (p : Fin 10000) (q : Fin 64) :
    Cert.KernelIdeal.Gen.k2_pay1 (F := Ideal) x0 x1 x2 x3 x4 (ix2 p q) = ra x0 x1 (rowOf x2) x3 (rowOf x4) (ix2 p q) := by
  unfold Cert.KernelIdeal.Gen.k2_pay1
  simp only [shapeCast_self x0, shapeCast_self x1, shapeCast_self x3]
  refine (affineAt_of_matmul_row dot_S10000x64_S64x64_S10000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S10000x129_S129x64_S10000x64_1_0_0_1_n_n rfl rfl lhs0 lhs1 rhs0 rhs1 _ _ _ _ x2 p k).trans ?_
  rfl

set_option maxHeartbeats 1000000 in
/-- Region 3's body value at row p and column q of its block: its stage of the blocks it loads. Each layer is a product into a
    zero accumulator plus a one-row bias; narrowing a product's operands to a shorter float format is no change here. -/
theorem pay3_apply (x0 : Vec Ideal S5000x128 .f32) (x1 : Vec Ideal S128x64 .f32) (x2 : Vec Ideal S1x64 .f32) (x3 : Vec Ideal S64x64 .f32) (x4 : Vec Ideal S1x64 .f32) (p : Fin 5000) (q : Fin 64) :
    Cert.KernelIdeal.Gen.k3_pay1 (F := Ideal) x0 x1 x2 x3 x4 (ix2 p q) = ra x0 x1 (rowOf x2) x3 (rowOf x4) (ix2 p q) := by
  unfold Cert.KernelIdeal.Gen.k3_pay1
  simp only [shapeCast_self x0, shapeCast_self x1, shapeCast_self x3]
  refine (affineAt_of_matmul_row dot_S5000x64_S64x64_S5000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S5000x128_S128x64_S5000x64_1_0_0_1_n_n rfl rfl lhs0 lhs1 rhs0 rhs1 _ _ _ _ x2 p k).trans ?_
  rfl

set_option maxHeartbeats 1000000 in
/-- Region 4's body value at row p and column q of its block: its stage of the blocks it loads. Each layer is a product into a
    zero accumulator plus a one-row bias; narrowing a product's operands to a shorter float format is no change here. -/
theorem pay4_apply (x0 : Vec Ideal S10000x129 .f32) (x1 : Vec Ideal S129x64 .f32) (x2 : Vec Ideal S1x64 .f32) (x3 : Vec Ideal S64x64 .f32) (x4 : Vec Ideal S1x64 .f32) (p : Fin 10000) (q : Fin 64) :
    Cert.KernelIdeal.Gen.k4_pay1 (F := Ideal) x0 x1 x2 x3 x4 (ix2 p q) = ra x0 x1 (rowOf x2) x3 (rowOf x4) (ix2 p q) := by
  unfold Cert.KernelIdeal.Gen.k4_pay1
  simp only [shapeCast_self x0, shapeCast_self x1, shapeCast_self x3]
  refine (affineAt_of_matmul_row dot_S10000x64_S64x64_S10000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S10000x129_S129x64_S10000x64_1_0_0_1_n_n rfl rfl lhs0 lhs1 rhs0 rhs1 _ _ _ _ x2 p k).trans ?_
  rfl

set_option maxHeartbeats 1000000 in
/-- Region 5's body value at row p and column q of its block: its stage of the blocks it loads. Each layer is a product into a
    zero accumulator plus a one-row bias; narrowing a product's operands to a shorter float format is no change here. -/
theorem pay5_apply (x0 : Vec Ideal S5000x128 .f32) (x1 : Vec Ideal S128x64 .f32) (x2 : Vec Ideal S1x64 .f32) (x3 : Vec Ideal S64x64 .f32) (x4 : Vec Ideal S1x64 .f32) (p : Fin 5000) (q : Fin 64) :
    Cert.KernelIdeal.Gen.k5_pay1 (F := Ideal) x0 x1 x2 x3 x4 (ix2 p q) = ra x0 x1 (rowOf x2) x3 (rowOf x4) (ix2 p q) := by
  unfold Cert.KernelIdeal.Gen.k5_pay1
  simp only [shapeCast_self x0, shapeCast_self x1, shapeCast_self x3]
  refine (affineAt_of_matmul_row dot_S5000x64_S64x64_S5000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S5000x128_S128x64_S5000x64_1_0_0_1_n_n rfl rfl lhs0 lhs1 rhs0 rhs1 _ _ _ _ x2 p k).trans ?_
  rfl

set_option maxHeartbeats 1000000 in
/-- Region 6's body value at row p and column q of its block: its stage of the blocks it loads. Each layer is a product into a
    zero accumulator plus a one-row bias; narrowing a product's operands to a shorter float format is no change here. -/
theorem pay6_apply (x0 : Vec Ideal S10000x129 .f32) (x1 : Vec Ideal S129x64 .f32) (x2 : Vec Ideal S1x64 .f32) (x3 : Vec Ideal S64x64 .f32) (x4 : Vec Ideal S1x64 .f32) (p : Fin 10000) (q : Fin 64) :
    Cert.KernelIdeal.Gen.k6_pay1 (F := Ideal) x0 x1 x2 x3 x4 (ix2 p q) = ra x0 x1 (rowOf x2) x3 (rowOf x4) (ix2 p q) := by
  unfold Cert.KernelIdeal.Gen.k6_pay1
  simp only [shapeCast_self x0, shapeCast_self x1, shapeCast_self x3]
  refine (affineAt_of_matmul_row dot_S10000x64_S64x64_S10000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S10000x129_S129x64_S10000x64_1_0_0_1_n_n rfl rfl lhs0 lhs1 rhs0 rhs1 _ _ _ _ x2 p k).trans ?_
  rfl

set_option maxHeartbeats 1000000 in
/-- Region 7's body value at row p and column q of its block: its stage of the blocks it loads. Each layer is a product into a
    zero accumulator plus a one-row bias; narrowing a product's operands to a shorter float format is no change here. -/
theorem pay7_apply (x0 : Vec Ideal S5000x128 .f32) (x1 : Vec Ideal S128x64 .f32) (x2 : Vec Ideal S1x64 .f32) (x3 : Vec Ideal S64x64 .f32) (x4 : Vec Ideal S1x64 .f32) (p : Fin 5000) (q : Fin 64) :
    Cert.KernelIdeal.Gen.k7_pay1 (F := Ideal) x0 x1 x2 x3 x4 (ix2 p q) = ra x0 x1 (rowOf x2) x3 (rowOf x4) (ix2 p q) := by
  unfold Cert.KernelIdeal.Gen.k7_pay1
  simp only [shapeCast_self x0, shapeCast_self x1, shapeCast_self x3]
  refine (affineAt_of_matmul_row dot_S5000x64_S64x64_S5000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S5000x128_S128x64_S5000x64_1_0_0_1_n_n rfl rfl lhs0 lhs1 rhs0 rhs1 _ _ _ _ x2 p k).trans ?_
  rfl

set_option maxHeartbeats 1000000 in
/-- Region 8's body value at row p and column q of its block: its stage of the blocks it loads. Each layer is a product into a
    zero accumulator plus a one-row bias; narrowing a product's operands to a shorter float format is no change here. -/
theorem pay8_apply (x0 : Vec Ideal S10000x129 .f32) (x1 : Vec Ideal S129x64 .f32) (x2 : Vec Ideal S1x64 .f32) (x3 : Vec Ideal S64x64 .f32) (x4 : Vec Ideal S1x64 .f32) (p : Fin 10000) (q : Fin 64) :
    Cert.KernelIdeal.Gen.k8_pay1 (F := Ideal) x0 x1 x2 x3 x4 (ix2 p q) = ra x0 x1 (rowOf x2) x3 (rowOf x4) (ix2 p q) := by
  unfold Cert.KernelIdeal.Gen.k8_pay1
  simp only [shapeCast_self x0, shapeCast_self x1, shapeCast_self x3]
  refine (affineAt_of_matmul_row dot_S10000x64_S64x64_S10000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S10000x129_S129x64_S10000x64_1_0_0_1_n_n rfl rfl lhs0 lhs1 rhs0 rhs1 _ _ _ _ x2 p k).trans ?_
  rfl

set_option maxHeartbeats 1000000 in
/-- Region 9's body value at row p and column q of its block: its stage of the blocks it loads. Each layer is a product into a
    zero accumulator plus a one-row bias; narrowing a product's operands to a shorter float format is no change here. -/
theorem pay9_apply (x0 : Vec Ideal S5000x128 .f32) (x1 : Vec Ideal S128x64 .f32) (x2 : Vec Ideal S1x64 .f32) (x3 : Vec Ideal S64x64 .f32) (x4 : Vec Ideal S1x64 .f32) (p : Fin 5000) (q : Fin 64) :
    Cert.KernelIdeal.Gen.k9_pay1 (F := Ideal) x0 x1 x2 x3 x4 (ix2 p q) = ra x0 x1 (rowOf x2) x3 (rowOf x4) (ix2 p q) := by
  unfold Cert.KernelIdeal.Gen.k9_pay1
  simp only [shapeCast_self x0, shapeCast_self x1, shapeCast_self x3]
  refine (affineAt_of_matmul_row dot_S5000x64_S64x64_S5000x64_1_0_0_1_n_n rfl rfl lhs0 lhs1 rhs0 rhs1 _ _ _ _ x4 p q).trans ?_
  show affineAt _ _ (rowOf x4) p q = affineAt (relu (affine x0 x1 (rowOf x2))) x3 (rowOf x4) p q
  refine affineAt_congr _ _ x3 (rowOf x4) p p (fun k => ?_) q
  refine congrArg (fun u => max u (Ideal.ofBits .f32 0x00000000#32)) ?_
  refine (affineAt_of_matmul_row dot_S5000x128_S128x64_S5000x64_1_0_0_1_n_n rfl rfl lhs0 lhs1 rhs0 rhs1 _ _ _ _ x2 p k).trans ?_
  rfl

set_option maxHeartbeats 1000000 in
/-- Region 10's body value at row p and column q of its block: its stage of the blocks it loads. Each layer is a product into a
    zero accumulator plus a one-row bias; narrowing a product's operands to a shorter float format is no change here. -/
theorem pay10_apply (x0 : Vec Ideal S2000x192 .f32) (x1 : Vec Ideal S192x512 .f32) (x2 : Vec Ideal S1x512 .f32) (x3 : Vec Ideal S512x128 .f32) (x4 : Vec Ideal S1x128 .f32) (x5 : Vec Ideal S128x1 .f32) (x6 : Vec Ideal S1x1 .f32) (p : Fin 2000) (q : Fin 1) :
    Cert.KernelIdeal.Gen.k10_pay1 (F := Ideal) x0 x1 x2 x3 x4 x5 x6 (ix2 p q) = rra x0 x1 (rowOf x2) x3 (rowOf x4) x5 (rowOf x6) (ix2 p q) := by
  unfold Cert.KernelIdeal.Gen.k10_pay1
  simp only [shapeCast_self x0]
  refine (affineAt_of_matmul_row dot_S2000x128_S128x1_S2000x1_1_0_0_1_n_n rfl rfl lhs0 lhs1 rhs0 rhs1 _ _ _ _ x6 p q).trans ?_
  show affineAt _ _ (rowOf x6) p q = affineAt (relu (affine (relu (affine x0 x1 (rowOf x2))) x3 (rowOf x4))) x5 (rowOf x6) p q
  refine affineAt_congr _ _ x5 (rowOf x6) p p (fun k2 => ?_) q
  refine congrArg (fun u => max u (Ideal.ofBits .f32 0x00000000#32)) ?_
  refine (affineAt_of_matmul_row dot_S2000x512_S512x128_S2000x128_1_0_0_1_n_n rfl rfl lhs0 lhs1 rhs0 rhs1 _ _ _ _ x4 p k2).trans ?_
  show affineAt _ _ (rowOf x4) p k2 = affineAt (relu (affine x0 x1 (rowOf x2))) x3 (rowOf x4) p k2
  refine affineAt_congr _ _ x3 (rowOf x4) p p (fun k => ?_) k2
  refine congrArg (fun u => max u (Ideal.ofBits .f32 0x00000000#32)) ?_
  refine (affineAt_of_matmul_row dot_S2000x192_S192x512_S2000x512_1_0_0_1_n_n rfl rfl lhs0 lhs1 rhs0 rhs1 _ _ _ _ x2 p k).trans ?_
  rfl

end Cert.Stages

end
-- ==== Proof.IdealFinal0.lean ====
/-
  What region 0 leaves in its output array, at the extended reals: the two rectified layers of the
  WHOLE input array. Point t loads rows 5000·t … 5000·t + 4999 of the input and the whole weight matrices and one-row biases,
  and writes back the stage of that block of rows; row p of a stage depends only on row p of its input, so what point t
  writes back is rows 5000·t … of the stage of the whole array; the 10 blocks tile the 50000 rows.
-/
import proofs.«181157_j5506148073958_2_alg».proof.Proof.IdealRegion0
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz0 : (![0, 0] : Fin 2 → Nat) = fun _ => 0 := funext fun a => by fin_cases a <;> rfl

/-- The stage of the whole arrays as the region finds them. -/
def G0 (c : Dev nD) : S50000x64.Idx → EReal :=
  rr (V c main_v24) (V c main_arg5) (rowOf (V c main_v25)) (V c main_arg7) (rowOf (V c main_v26))

/-- The printed index maps, decided over the grid: the input rows' window moves with the output's, every other window
    stays at block 0, and the output's block index stays in range. -/
theorem idx_facts0 : ∀ t : Fin cfg0.N, win0_0.index t (0 : Fin 2) = win0_5.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (1 : Fin 2) = 0
    ∧ win0_5.index t (0 : Fin 2) ≤ 9 :=
  (by decide +kernel : ∀ t : Fin grid0.N, _)

/-- Every block of rows is some point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- What point t writes back is block t of the stage of the whole arrays. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz0]
  simp only [View.ld_unit_zero (S := S5000x3) hz0, View.ld_unit_zero (S := S3x64) hz0, View.ld_unit_zero (S := S1x64) hz0, View.ld_unit_zero (S := S64x64) hz0]
  obtain ⟨e0, e1, e2, e3, e4, e5, e6, e7, e8, e9, e10, e11⟩ := idx_facts0 t
  have hw1 : iblk0 V c 1 t = V c main_arg5 := by
    funext y
    show V c main_arg5 (((cfg0.win 1).blk t).view.emb y) = V c main_arg5 y
    refine congrArg _ ?_
    funext a; apply Fin.ext
    match a with
    | ⟨0, _⟩ => show win0_1.index t (0 : Fin 2) * 3 + 1 * (y 0).val = (y 0).val; omega
    | ⟨1, _⟩ => show win0_1.index t (1 : Fin 2) * 64 + 1 * (y 1).val = (y 1).val; omega
  have hw2 : iblk0 V c 2 t = V c main_v25 := by
    funext y
    show V c main_v25 (((cfg0.win 2).blk t).view.emb y) = V c main_v25 y
    refine congrArg _ ?_
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  have hw3 : iblk0 V c 3 t = V c main_arg7 := by
    funext y
    show V c main_arg7 (((cfg0.win 3).blk t).view.emb y) = V c main_arg7 y
    refine congrArg _ ?_
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  have hw4 : iblk0 V c 4 t = V c main_v26 := by
    funext y
    show V c main_v26 (((cfg0.win 4).blk t).view.emb y) = V c main_v26 y
    refine congrArg _ ?_
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  funext j
  obtain ⟨p, q, rfl⟩ : ∃ (p : Fin 5000) (q : Fin 64), j = ix2 p q := ⟨j 0, j 1, eq_ix2 j⟩
  refine (pay0_apply (iblk0 V c 0 t) (iblk0 V c 1 t) (iblk0 V c 2 t) (iblk0 V c 3 t) (iblk0 V c 4 t) p q).trans ?_
  rw [hw1, hw2, hw3, hw4]
  have hp : p.val < 5000 := p.isLt
  have hrow : win0_5.index t (0 : Fin 2) * 5000 + p.val < 50000 := by omega
  have hemb : ((cfg0.win 5).blk t).view.emb (ix2 p q) = ix2 (⟨win0_5.index t (0 : Fin 2) * 5000 + p.val, hrow⟩ : Fin 50000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 64 + 1 * q.val = q.val; omega
  show rr (iblk0 V c 0 t) _ _ _ _ (ix2 p q) = G0 V c (((cfg0.win 5).blk t).view.emb (ix2 p q))
  rw [hemb]
  refine rr_row _ _ _ _ _ _ p _ (fun k => ?_) q
  show V c main_v24 (((cfg0.win 0).blk t).view.emb (ix2 p k)) = V c main_v24 (ix2 (⟨win0_5.index t (0 : Fin 2) * 5000 + p.val, hrow⟩ : Fin 50000) k)
  refine congrArg _ ?_
  funext a; apply Fin.ext
  match a with
  | ⟨0, _⟩ => show win0_0.index t (0 : Fin 2) * 5000 + 1 * p.val = win0_5.index t (0 : Fin 2) * 5000 + p.val; omega
  | ⟨1, _⟩ => show win0_0.index t (1 : Fin 2) * 3 + 1 * k.val = k.val; omega

/-- An index of the output array is in point t's block iff its row is in the block's range. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v27).slice (win0_5.rect t)).set ↔ _
  rw [View.set_slice_whole, Rect.mem_set_unit]
  exact Iff.rfl

/-- The blocks cover the output array. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the region: the stage of the whole arrays. -/
theorem final0 (c : Dev nD) : (dat0 (F := Ideal) V c).arrAt 5 cfg0.N = G0 V c :=
  (dat0 (F := Ideal) V c).arrAt_eq_of_cover 5 (G0 V c) (fun t _ => flushed0_eq V c t) (cover0)

end Cert.KernelIdeal.Frm

end
-- ==== Proof.IdealStretch1.lean ====
/-
  Host stretch 1 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

set_option maxHeartbeats 4000000 in
/-- `main_v77` after the stretch, from the live-in buffers' values. -/
theorem s1_main_v77 (W : Valuation τ sig (Elt Ideal)) (V0' : Valuation Cert.ReferenceIdeal.τ Cert.ReferenceIdeal.sig (Elt Ideal))
    (h_main_arg12 : W (Proc.devRef .tc main_arg12) = Cert.ReferenceIdeal.RefValue.a12 V0')
    (h_main_arg11 : W (Proc.devRef .tc main_arg11) = Cert.ReferenceIdeal.RefValue.a11 V0')
    (h_main_arg2 : W (Proc.devRef .tc main_arg2) = Cert.ReferenceIdeal.RefValue.a2 V0') :
    StableHlo.after (hostOps1 (F := Ideal)) W (Proc.devRef .tc main_v77) = Cert.ReferenceIdeal.RefValue.t_main_v86 V0' := by
  simp only [hostOps1]
  after_results_simp
  try dsimp only [Matrix.cons_val]
  try after_results_simp
  simp only [h_main_arg12, h_main_arg11, h_main_arg2] <;> rfl

set_option maxHeartbeats 4000000 in
/-- `main_v78` after the stretch, from the live-in buffers' values. -/
theorem s1_main_v78 (W : Valuation τ sig (Elt Ideal)) (V0' : Valuation Cert.ReferenceIdeal.τ Cert.ReferenceIdeal.sig (Elt Ideal))
    (h_main_arg14 : W (Proc.devRef .tc main_arg14) = Cert.ReferenceIdeal.RefValue.a14 V0') :
    StableHlo.after (hostOps1 (F := Ideal)) W (Proc.devRef .tc main_v78) = shapeCast _ (Cert.ReferenceIdeal.RefValue.a14 V0') shapeCasts_S64_S1x64 := by
  simp only [hostOps1]
  after_results_simp
  try dsimp only [Matrix.cons_val]
  try after_results_simp
  simp only [h_main_arg14] <;> rfl

set_option maxHeartbeats 4000000 in
/-- `main_v79` after the stretch, from the live-in buffers' values. -/
theorem s1_main_v79 (W : Valuation τ sig (Elt Ideal)) (V0' : Valuation Cert.ReferenceIdeal.τ Cert.ReferenceIdeal.sig (Elt Ideal))
    (h_main_arg16 : W (Proc.devRef .tc main_arg16) = Cert.ReferenceIdeal.RefValue.a16 V0') :
    StableHlo.after (hostOps1 (F := Ideal)) W (Proc.devRef .tc main_v79) = shapeCast _ (Cert.ReferenceIdeal.RefValue.a16 V0') shapeCasts_S64_S1x64 := by
  simp only [hostOps1]
  after_results_simp
  try dsimp only [Matrix.cons_val]
  try after_results_simp
  simp only [h_main_arg16] <;> rfl

set_option maxHeartbeats 4000000 in
/-- `main_v52` after the stretch, from the live-in buffers' values. -/
theorem s1_main_v52 (W : Valuation τ sig (Elt Ideal)) (V0' : Valuation Cert.ReferenceIdeal.τ Cert.ReferenceIdeal.sig (Elt Ideal))
    (h_main_arg10 : W (Proc.devRef .tc main_arg10) = Cert.ReferenceIdeal.RefValue.a10 V0')
    (h_main_arg9 : W (Proc.devRef .tc main_arg9) = Cert.ReferenceIdeal.RefValue.a9 V0')
    (h_main_arg1 : W (Proc.devRef .tc main_arg1) = Cert.ReferenceIdeal.RefValue.a1 V0') :
    StableHlo.after (hostOps1 (F := Ideal)) W (Proc.devRef .tc main_v52) = Cert.ReferenceIdeal.Value.res_main_v61 V0' := by
  simp only [hostOps1]
  after_results_simp
  try dsimp only [Matrix.cons_val]
  try after_results_simp
  simp only [h_main_arg10, h_main_arg9, h_main_arg1] <;> rfl

end Cert.KernelIdeal.Frm

end
-- ==== Proof.IdealChain1.lean ====
/-
  The kernel's buffers at the boundaries 2 and 3 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain0
import proofs.«181157_j5506148073958_2_alg».proof.Proof.IdealFinal0
import proofs.«181157_j5506148073958_2_alg».proof.Proof.IdealStretch1

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 2 -/

theorem L2_main_arg1 (hag : Agree m ρ c V0') : W2 m ρ c (Proc.devRef .tc main_arg1) = Cert.ReferenceIdeal.RefValue.a1 V0' := (W2_of_ne m ρ c main_arg1 (by decide)).trans (L1_main_arg1 m ρ c V0' hag)

theorem L2_main_arg9 (hag : Agree m ρ c V0') : W2 m ρ c (Proc.devRef .tc main_arg9) = Cert.ReferenceIdeal.RefValue.a9 V0' := (W2_of_ne m ρ c main_arg9 (by decide)).trans (L1_main_arg9 m ρ c V0' hag)

theorem L2_main_arg10 (hag : Agree m ρ c V0') : W2 m ρ c (Proc.devRef .tc main_arg10) = Cert.ReferenceIdeal.RefValue.a10 V0' := (W2_of_ne m ρ c main_arg10 (by decide)).trans (L1_main_arg10 m ρ c V0' hag)

theorem L2_main_arg2 (hag : Agree m ρ c V0') : W2 m ρ c (Proc.devRef .tc main_arg2) = Cert.ReferenceIdeal.RefValue.a2 V0' := (W2_of_ne m ρ c main_arg2 (by decide)).trans (L1_main_arg2 m ρ c V0' hag)

theorem L2_main_arg11 (hag : Agree m ρ c V0') : W2 m ρ c (Proc.devRef .tc main_arg11) = Cert.ReferenceIdeal.RefValue.a11 V0' := (W2_of_ne m ρ c main_arg11 (by decide)).trans (L1_main_arg11 m ρ c V0' hag)

theorem L2_main_arg12 (hag : Agree m ρ c V0') : W2 m ρ c (Proc.devRef .tc main_arg12) = Cert.ReferenceIdeal.RefValue.a12 V0' := (W2_of_ne m ρ c main_arg12 (by decide)).trans (L1_main_arg12 m ρ c V0' hag)

theorem L2_main_arg14 (hag : Agree m ρ c V0') : W2 m ρ c (Proc.devRef .tc main_arg14) = Cert.ReferenceIdeal.RefValue.a14 V0' := (W2_of_ne m ρ c main_arg14 (by decide)).trans (L1_main_arg14 m ρ c V0' hag)

theorem L2_main_arg16 (hag : Agree m ρ c V0') : W2 m ρ c (Proc.devRef .tc main_arg16) = Cert.ReferenceIdeal.RefValue.a16 V0' := (W2_of_ne m ρ c main_arg16 (by decide)).trans (L1_main_arg16 m ρ c V0' hag)

theorem L2_main_arg13 (hag : Agree m ρ c V0') : W2 m ρ c (Proc.devRef .tc main_arg13) = Cert.ReferenceIdeal.RefValue.a13 V0' := (W2_of_ne m ρ c main_arg13 (by decide)).trans (L1_main_arg13 m ρ c V0' hag)

theorem L2_main_arg15 (hag : Agree m ρ c V0') : W2 m ρ c (Proc.devRef .tc main_arg15) = Cert.ReferenceIdeal.RefValue.a15 V0' := (W2_of_ne m ρ c main_arg15 (by decide)).trans (L1_main_arg15 m ρ c V0' hag)

theorem L2_main_arg36 (hag : Agree m ρ c V0') : W2 m ρ c (Proc.devRef .tc main_arg36) = Cert.ReferenceIdeal.RefValue.a36 V0' := (W2_of_ne m ρ c main_arg36 (by decide)).trans (L1_main_arg36 m ρ c V0' hag)

theorem L2_main_arg17 (hag : Agree m ρ c V0') : W2 m ρ c (Proc.devRef .tc main_arg17) = Cert.ReferenceIdeal.RefValue.a17 V0' := (W2_of_ne m ρ c main_arg17 (by decide)).trans (L1_main_arg17 m ρ c V0' hag)

theorem L2_main_arg18 (hag : Agree m ρ c V0') : W2 m ρ c (Proc.devRef .tc main_arg18) = Cert.ReferenceIdeal.RefValue.a18 V0' := (W2_of_ne m ρ c main_arg18 (by decide)).trans (L1_main_arg18 m ρ c V0' hag)

theorem L2_main_arg19 (hag : Agree m ρ c V0') : W2 m ρ c (Proc.devRef .tc main_arg19) = Cert.ReferenceIdeal.RefValue.a19 V0' := (W2_of_ne m ρ c main_arg19 (by decide)).trans (L1_main_arg19 m ρ c V0' hag)

theorem L2_main_arg20 (hag : Agree m ρ c V0') : W2 m ρ c (Proc.devRef .tc main_arg20) = Cert.ReferenceIdeal.RefValue.a20 V0' := (W2_of_ne m ρ c main_arg20 (by decide)).trans (L1_main_arg20 m ρ c V0' hag)

theorem L2_main_arg21 (hag : Agree m ρ c V0') : W2 m ρ c (Proc.devRef .tc main_arg21) = Cert.ReferenceIdeal.RefValue.a21 V0' := (W2_of_ne m ρ c main_arg21 (by decide)).trans (L1_main_arg21 m ρ c V0' hag)

theorem L2_main_arg22 (hag : Agree m ρ c V0') : W2 m ρ c (Proc.devRef .tc main_arg22) = Cert.ReferenceIdeal.RefValue.a22 V0' := (W2_of_ne m ρ c main_arg22 (by decide)).trans (L1_main_arg22 m ρ c V0' hag)

theorem L2_main_arg23 (hag : Agree m ρ c V0') : W2 m ρ c (Proc.devRef .tc main_arg23) = Cert.ReferenceIdeal.RefValue.a23 V0' := (W2_of_ne m ρ c main_arg23 (by decide)).trans (L1_main_arg23 m ρ c V0' hag)

theorem L2_main_arg24 (hag : Agree m ρ c V0') : W2 m ρ c (Proc.devRef .tc main_arg24) = Cert.ReferenceIdeal.RefValue.a24 V0' := (W2_of_ne m ρ c main_arg24 (by decide)).trans (L1_main_arg24 m ρ c V0' hag)

theorem L2_main_arg25 (hag : Agree m ρ c V0') : W2 m ρ c (Proc.devRef .tc main_arg25) = Cert.ReferenceIdeal.RefValue.a25 V0' := (W2_of_ne m ρ c main_arg25 (by decide)).trans (L1_main_arg25 m ρ c V0' hag)

theorem L2_main_arg26 (hag : Agree m ρ c V0') : W2 m ρ c (Proc.devRef .tc main_arg26) = Cert.ReferenceIdeal.RefValue.a26 V0' := (W2_of_ne m ρ c main_arg26 (by decide)).trans (L1_main_arg26 m ρ c V0' hag)

theorem L2_main_v27 (hag : Agree m ρ c V0') : W2 m ρ c (Proc.devRef .tc main_v27) = Cert.ReferenceIdeal.Value.res_main_v36 V0' := by
  refine (W2_arr m ρ c 5).trans ?_
  refine (final0 (V1 m ρ) c).trans ?_
  unfold G0
  have h0 : V1 m ρ c main_v24 = Cert.ReferenceIdeal.RefValue.t_main_v24 V0' := (L1_main_v24 m ρ c V0' hag)
  have hW0 : V1 m ρ c main_arg5 = Cert.ReferenceIdeal.RefValue.a5 V0' := (L1_main_arg5 m ρ c V0' hag)
  have hb0 : Cert.LibRowBias.rowOf (V1 m ρ c main_v25) = Cert.ReferenceIdeal.RefValue.a6 V0' := by
    rw [show V1 m ρ c main_v25 = shapeCast _ (Cert.ReferenceIdeal.RefValue.a6 V0') shapeCasts_S64_S1x64 from (L1_main_v25 m ρ c V0' hag)]
    exact Cert.LibRowBias.rowOf_shapeCast _ _
  have hW1 : V1 m ρ c main_arg7 = Cert.ReferenceIdeal.RefValue.a7 V0' := (L1_main_arg7 m ρ c V0' hag)
  have hb1 : Cert.LibRowBias.rowOf (V1 m ρ c main_v26) = Cert.ReferenceIdeal.RefValue.a8 V0' := by
    rw [show V1 m ρ c main_v26 = shapeCast _ (Cert.ReferenceIdeal.RefValue.a8 V0') shapeCasts_S64_S1x64 from (L1_main_v26 m ρ c V0' hag)]
    exact Cert.LibRowBias.rowOf_shapeCast _ _
  rw [h0, hW0, hb0, hW1, hb1]
  exact (Cert.ReferenceIdeal.RefValue.stage0_ref V0').symm

theorem L2_main_arg27 (hag : Agree m ρ c V0') : W2 m ρ c (Proc.devRef .tc main_arg27) = Cert.ReferenceIdeal.RefValue.a27 V0' := (W2_of_ne m ρ c main_arg27 (by decide)).trans (L1_main_arg27 m ρ c V0' hag)

theorem L2_main_arg28 (hag : Agree m ρ c V0') : W2 m ρ c (Proc.devRef .tc main_arg28) = Cert.ReferenceIdeal.RefValue.a28 V0' := (W2_of_ne m ρ c main_arg28 (by decide)).trans (L1_main_arg28 m ρ c V0' hag)

theorem L2_main_arg29 (hag : Agree m ρ c V0') : W2 m ρ c (Proc.devRef .tc main_arg29) = Cert.ReferenceIdeal.RefValue.a29 V0' := (W2_of_ne m ρ c main_arg29 (by decide)).trans (L1_main_arg29 m ρ c V0' hag)

theorem L2_main_arg31 (hag : Agree m ρ c V0') : W2 m ρ c (Proc.devRef .tc main_arg31) = Cert.ReferenceIdeal.RefValue.a31 V0' := (W2_of_ne m ρ c main_arg31 (by decide)).trans (L1_main_arg31 m ρ c V0' hag)

theorem L2_main_arg33 (hag : Agree m ρ c V0') : W2 m ρ c (Proc.devRef .tc main_arg33) = Cert.ReferenceIdeal.RefValue.a33 V0' := (W2_of_ne m ρ c main_arg33 (by decide)).trans (L1_main_arg33 m ρ c V0' hag)

theorem L2_main_arg35 (hag : Agree m ρ c V0') : W2 m ρ c (Proc.devRef .tc main_arg35) = Cert.ReferenceIdeal.RefValue.a35 V0' := (W2_of_ne m ρ c main_arg35 (by decide)).trans (L1_main_arg35 m ρ c V0' hag)

theorem L2_main_arg30 (hag : Agree m ρ c V0') : W2 m ρ c (Proc.devRef .tc main_arg30) = Cert.ReferenceIdeal.RefValue.a30 V0' := (W2_of_ne m ρ c main_arg30 (by decide)).trans (L1_main_arg30 m ρ c V0' hag)

theorem L2_main_arg32 (hag : Agree m ρ c V0') : W2 m ρ c (Proc.devRef .tc main_arg32) = Cert.ReferenceIdeal.RefValue.a32 V0' := (W2_of_ne m ρ c main_arg32 (by decide)).trans (L1_main_arg32 m ρ c V0' hag)

theorem L2_main_arg34 (hag : Agree m ρ c V0') : W2 m ρ c (Proc.devRef .tc main_arg34) = Cert.ReferenceIdeal.RefValue.a34 V0' := (W2_of_ne m ρ c main_arg34 (by decide)).trans (L1_main_arg34 m ρ c V0' hag)

/-! ## Boundary 3 -/

theorem L3_main_v77 (hag : Agree m ρ c V0') : W3 m ρ c (Proc.devRef .tc main_v77) = Cert.ReferenceIdeal.RefValue.t_main_v86 V0' := s1_main_v77 (W2 m ρ c) V0' (L2_main_arg12 m ρ c V0' hag) (L2_main_arg11 m ρ c V0' hag) (L2_main_arg2 m ρ c V0' hag)

theorem L3_main_arg13 (hag : Agree m ρ c V0') : W3 m ρ c (Proc.devRef .tc main_arg13) = Cert.ReferenceIdeal.RefValue.a13 V0' := (W3_of m ρ c main_arg13 (by decide)).trans (L2_main_arg13 m ρ c V0' hag)

theorem L3_main_v78 (hag : Agree m ρ c V0') : W3 m ρ c (Proc.devRef .tc main_v78) = shapeCast _ (Cert.ReferenceIdeal.RefValue.a14 V0') shapeCasts_S64_S1x64 := s1_main_v78 (W2 m ρ c) V0' (L2_main_arg14 m ρ c V0' hag)

theorem L3_main_arg15 (hag : Agree m ρ c V0') : W3 m ρ c (Proc.devRef .tc main_arg15) = Cert.ReferenceIdeal.RefValue.a15 V0' := (W3_of m ρ c main_arg15 (by decide)).trans (L2_main_arg15 m ρ c V0' hag)

theorem L3_main_v79 (hag : Agree m ρ c V0') : W3 m ρ c (Proc.devRef .tc main_v79) = shapeCast _ (Cert.ReferenceIdeal.RefValue.a16 V0') shapeCasts_S64_S1x64 := s1_main_v79 (W2 m ρ c) V0' (L2_main_arg16 m ρ c V0' hag)

theorem L3_main_arg36 (hag : Agree m ρ c V0') : W3 m ρ c (Proc.devRef .tc main_arg36) = Cert.ReferenceIdeal.RefValue.a36 V0' := (W3_of m ρ c main_arg36 (by decide)).trans (L2_main_arg36 m ρ c V0' hag)

theorem L3_main_arg17 (hag : Agree m ρ c V0') : W3 m ρ c (Proc.devRef .tc main_arg17) = Cert.ReferenceIdeal.RefValue.a17 V0' := (W3_of m ρ c main_arg17 (by decide)).trans (L2_main_arg17 m ρ c V0' hag)

theorem L3_main_arg18 (hag : Agree m ρ c V0') : W3 m ρ c (Proc.devRef .tc main_arg18) = Cert.ReferenceIdeal.RefValue.a18 V0' := (W3_of m ρ c main_arg18 (by decide)).trans (L2_main_arg18 m ρ c V0' hag)

theorem L3_main_arg19 (hag : Agree m ρ c V0') : W3 m ρ c (Proc.devRef .tc main_arg19) = Cert.ReferenceIdeal.RefValue.a19 V0' := (W3_of m ρ c main_arg19 (by decide)).trans (L2_main_arg19 m ρ c V0' hag)

theorem L3_main_arg20 (hag : Agree m ρ c V0') : W3 m ρ c (Proc.devRef .tc main_arg20) = Cert.ReferenceIdeal.RefValue.a20 V0' := (W3_of m ρ c main_arg20 (by decide)).trans (L2_main_arg20 m ρ c V0' hag)

theorem L3_main_arg21 (hag : Agree m ρ c V0') : W3 m ρ c (Proc.devRef .tc main_arg21) = Cert.ReferenceIdeal.RefValue.a21 V0' := (W3_of m ρ c main_arg21 (by decide)).trans (L2_main_arg21 m ρ c V0' hag)

theorem L3_main_arg22 (hag : Agree m ρ c V0') : W3 m ρ c (Proc.devRef .tc main_arg22) = Cert.ReferenceIdeal.RefValue.a22 V0' := (W3_of m ρ c main_arg22 (by decide)).trans (L2_main_arg22 m ρ c V0' hag)

theorem L3_main_arg23 (hag : Agree m ρ c V0') : W3 m ρ c (Proc.devRef .tc main_arg23) = Cert.ReferenceIdeal.RefValue.a23 V0' := (W3_of m ρ c main_arg23 (by decide)).trans (L2_main_arg23 m ρ c V0' hag)

theorem L3_main_arg24 (hag : Agree m ρ c V0') : W3 m ρ c (Proc.devRef .tc main_arg24) = Cert.ReferenceIdeal.RefValue.a24 V0' := (W3_of m ρ c main_arg24 (by decide)).trans (L2_main_arg24 m ρ c V0' hag)

theorem L3_main_arg25 (hag : Agree m ρ c V0') : W3 m ρ c (Proc.devRef .tc main_arg25) = Cert.ReferenceIdeal.RefValue.a25 V0' := (W3_of m ρ c main_arg25 (by decide)).trans (L2_main_arg25 m ρ c V0' hag)

theorem L3_main_arg26 (hag : Agree m ρ c V0') : W3 m ρ c (Proc.devRef .tc main_arg26) = Cert.ReferenceIdeal.RefValue.a26 V0' := (W3_of m ρ c main_arg26 (by decide)).trans (L2_main_arg26 m ρ c V0' hag)

theorem L3_main_v27 (hag : Agree m ρ c V0') : W3 m ρ c (Proc.devRef .tc main_v27) = Cert.ReferenceIdeal.Value.res_main_v36 V0' := (W3_of m ρ c main_v27 (by decide)).trans (L2_main_v27 m ρ c V0' hag)

theorem L3_main_v52 (hag : Agree m ρ c V0') : W3 m ρ c (Proc.devRef .tc main_v52) = Cert.ReferenceIdeal.Value.res_main_v61 V0' := s1_main_v52 (W2 m ρ c) V0' (L2_main_arg10 m ρ c V0' hag) (L2_main_arg9 m ρ c V0' hag) (L2_main_arg1 m ρ c V0' hag)

theorem L3_main_arg27 (hag : Agree m ρ c V0') : W3 m ρ c (Proc.devRef .tc main_arg27) = Cert.ReferenceIdeal.RefValue.a27 V0' := (W3_of m ρ c main_arg27 (by decide)).trans (L2_main_arg27 m ρ c V0' hag)

theorem L3_main_arg28 (hag : Agree m ρ c V0') : W3 m ρ c (Proc.devRef .tc main_arg28) = Cert.ReferenceIdeal.RefValue.a28 V0' := (W3_of m ρ c main_arg28 (by decide)).trans (L2_main_arg28 m ρ c V0' hag)

theorem L3_main_arg29 (hag : Agree m ρ c V0') : W3 m ρ c (Proc.devRef .tc main_arg29) = Cert.ReferenceIdeal.RefValue.a29 V0' := (W3_of m ρ c main_arg29 (by decide)).trans (L2_main_arg29 m ρ c V0' hag)

theorem L3_main_arg31 (hag : Agree m ρ c V0') : W3 m ρ c (Proc.devRef .tc main_arg31) = Cert.ReferenceIdeal.RefValue.a31 V0' := (W3_of m ρ c main_arg31 (by decide)).trans (L2_main_arg31 m ρ c V0' hag)

theorem L3_main_arg33 (hag : Agree m ρ c V0') : W3 m ρ c (Proc.devRef .tc main_arg33) = Cert.ReferenceIdeal.RefValue.a33 V0' := (W3_of m ρ c main_arg33 (by decide)).trans (L2_main_arg33 m ρ c V0' hag)

theorem L3_main_arg35 (hag : Agree m ρ c V0') : W3 m ρ c (Proc.devRef .tc main_arg35) = Cert.ReferenceIdeal.RefValue.a35 V0' := (W3_of m ρ c main_arg35 (by decide)).trans (L2_main_arg35 m ρ c V0' hag)

theorem L3_main_arg30 (hag : Agree m ρ c V0') : W3 m ρ c (Proc.devRef .tc main_arg30) = Cert.ReferenceIdeal.RefValue.a30 V0' := (W3_of m ρ c main_arg30 (by decide)).trans (L2_main_arg30 m ρ c V0' hag)

theorem L3_main_arg32 (hag : Agree m ρ c V0') : W3 m ρ c (Proc.devRef .tc main_arg32) = Cert.ReferenceIdeal.RefValue.a32 V0' := (W3_of m ρ c main_arg32 (by decide)).trans (L2_main_arg32 m ρ c V0' hag)

theorem L3_main_arg34 (hag : Agree m ρ c V0') : W3 m ρ c (Proc.devRef .tc main_arg34) = Cert.ReferenceIdeal.RefValue.a34 V0' := (W3_of m ρ c main_arg34 (by decide)).trans (L2_main_arg34 m ρ c V0' hag)

end Cert.KernelIdeal.Frm

end
-- ==== Proof.IdealFinal1.lean ====
/-
  What region 1 leaves in its output array, at the extended reals: the two rectified layers of the
  WHOLE input array. Point t loads rows 5000·t … 5000·t + 4999 of the input and the whole weight matrices and one-row biases,
  and writes back the stage of that block of rows; row p of a stage depends only on row p of its input, so what point t
  writes back is rows 5000·t … of the stage of the whole array; the 10 blocks tile the 50000 rows.
-/
import proofs.«181157_j5506148073958_2_alg».proof.Proof.IdealRegion1
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz1 : (![0, 0] : Fin 2 → Nat) = fun _ => 0 := funext fun a => by fin_cases a <;> rfl

/-- The stage of the whole arrays as the region finds them. -/
def G1 (c : Dev nD) : S50000x64.Idx → EReal :=
  rr (V c main_v77) (V c main_arg13) (rowOf (V c main_v78)) (V c main_arg15) (rowOf (V c main_v79))

/-- The printed index maps, decided over the grid: the input rows' window moves with the output's, every other window
    stays at block 0, and the output's block index stays in range. -/
theorem idx_facts1 : ∀ t : Fin cfg1.N, win1_0.index t (0 : Fin 2) = win1_5.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (1 : Fin 2) = 0
    ∧ win1_5.index t (0 : Fin 2) ≤ 9 :=
  (by decide +kernel : ∀ t : Fin grid1.N, _)

/-- Every block of rows is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- What point t writes back is block t of the stage of the whole arrays. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz1]
  simp only [View.ld_unit_zero (S := S5000x5) hz1, View.ld_unit_zero (S := S5x64) hz1, View.ld_unit_zero (S := S1x64) hz1, View.ld_unit_zero (S := S64x64) hz1]
  obtain ⟨e0, e1, e2, e3, e4, e5, e6, e7, e8, e9, e10, e11⟩ := idx_facts1 t
  have hw1 : iblk1 V c 1 t = V c main_arg13 := by
    funext y
    show V c main_arg13 (((cfg1.win 1).blk t).view.emb y) = V c main_arg13 y
    refine congrArg _ ?_
    funext a; apply Fin.ext
    match a with
    | ⟨0, _⟩ => show win1_1.index t (0 : Fin 2) * 5 + 1 * (y 0).val = (y 0).val; omega
    | ⟨1, _⟩ => show win1_1.index t (1 : Fin 2) * 64 + 1 * (y 1).val = (y 1).val; omega
  have hw2 : iblk1 V c 2 t = V c main_v78 := by
    funext y
    show V c main_v78 (((cfg1.win 2).blk t).view.emb y) = V c main_v78 y
    refine congrArg _ ?_
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  have hw3 : iblk1 V c 3 t = V c main_arg15 := by
    funext y
    show V c main_arg15 (((cfg1.win 3).blk t).view.emb y) = V c main_arg15 y
    refine congrArg _ ?_
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  have hw4 : iblk1 V c 4 t = V c main_v79 := by
    funext y
    show V c main_v79 (((cfg1.win 4).blk t).view.emb y) = V c main_v79 y
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 64 + 1 * (y 1).val = (y 1).val; omega
  funext j
  obtain ⟨p, q, rfl⟩ : ∃ (p : Fin 5000) (q : Fin 64), j = ix2 p q := ⟨j 0, j 1, eq_ix2 j⟩
  refine (pay1_apply (iblk1 V c 0 t) (iblk1 V c 1 t) (iblk1 V c 2 t) (iblk1 V c 3 t) (iblk1 V c 4 t) p q).trans ?_
  rw [hw1, hw2, hw3, hw4]
  have hp : p.val < 5000 := p.isLt
  have hrow : win1_5.index t (0 : Fin 2) * 5000 + p.val < 50000 := by omega
  have hemb : ((cfg1.win 5).blk t).view.emb (ix2 p q) = ix2 (⟨win1_5.index t (0 : Fin 2) * 5000 + p.val, hrow⟩ : Fin 50000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 64 + 1 * q.val = q.val; omega
  show rr (iblk1 V c 0 t) _ _ _ _ (ix2 p q) = G1 V c (((cfg1.win 5).blk t).view.emb (ix2 p q))
  rw [hemb]
  refine rr_row _ _ _ _ _ _ p _ (fun k => ?_) q
  show V c main_v77 (((cfg1.win 0).blk t).view.emb (ix2 p k)) = V c main_v77 (ix2 (⟨win1_5.index t (0 : Fin 2) * 5000 + p.val, hrow⟩ : Fin 50000) k)
  refine congrArg _ ?_
  funext a; apply Fin.ext
  match a with
  | ⟨0, _⟩ => show win1_0.index t (0 : Fin 2) * 5000 + 1 * p.val = win1_5.index t (0 : Fin 2) * 5000 + p.val; omega
  | ⟨1, _⟩ => show win1_0.index t (1 : Fin 2) * 5 + 1 * k.val = k.val; omega

/-- An index of the output array is in point t's block iff its row is in the block's range. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v80).slice (win1_5.rect t)).set ↔ _
  rw [View.set_slice_whole, Rect.mem_set_unit]
  exact Iff.rfl

/-- The blocks cover the output array. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region: the stage of the whole arrays. -/
theorem final1 (c : Dev nD) : (dat1 (F := Ideal) V c).arrAt 5 cfg1.N = G1 V c :=
  (dat1 (F := Ideal) V c).arrAt_eq_of_cover 5 (G1 V c) (fun t _ => flushed1_eq V c t) (cover1)

end Cert.KernelIdeal.Frm

end
-- ==== Proof.IdealStretch2.lean ====
/-
  Host stretch 2 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

/-- The concatenation that writes `main_v119`, as a function of its 3 operands. -/
def cat_main_v119 (a : (main_v111 : Ref sig .tc).ty.Contents (Elt Ideal)) (b : (main_v52 : Ref sig .tc).ty.Contents (Elt Ideal)) (c : (main_v118 : Ref sig .tc).ty.Contents (Elt Ideal)) : (main_v119 : Ref sig .tc).ty.Contents (Elt Ideal) :=
  concatenate S600000x129 1 [⟨S600000x64, a⟩, ⟨S600000x1, b⟩, ⟨S600000x64, c⟩] concatenates_S600000x64_S600000x1_S600000x64_S600000x129_d1

/-- The stretch's operations with each concatenation's function named (evaluation then goes on into a concatenation's
    operands instead of stopping at the list of pairs that holds them). -/
abbrev hostOps2n : List (HloOp τ sig (Elt Ideal)) :=
  ( StableHlo.unary main_arg36 main_v81 ((extractStridedSlice S1x600000 ![0, 0] · slices_S2x600000_S1x600000_0_0) : (⟨S2x600000, .i32⟩ : BufTy).Contents (Elt Ideal) → (⟨S1x600000, .i32⟩ : BufTy).Contents (Elt Ideal))
  :: StableHlo.reshape main_v81 main_v82 rfl shapeCasts_S1x600000_S600000
  :: StableHlo.unary main_arg36 main_v83 ((extractStridedSlice S1x600000 ![1, 0] · slices_S2x600000_S1x600000_1_0) : (⟨S2x600000, .i32⟩ : BufTy).Contents (Elt Ideal) → (⟨S1x600000, .i32⟩ : BufTy).Contents (Elt Ideal))
  :: StableHlo.reshape main_v83 main_v84 rfl shapeCasts_S1x600000_S600000
  :: StableHlo.unary main_arg17 main_v85 ((extractStridedSlice S1x129x64 ![0, 0, 0] · slices_S4x129x64_S1x129x64_0_0_0) : (⟨S4x129x64, .f32⟩ : BufTy).Contents (Elt Ideal) → (⟨S1x129x64, .f32⟩ : BufTy).Contents (Elt Ideal))
  :: StableHlo.reshape main_v85 main_v86 rfl shapeCasts_S1x129x64_S129x64
  :: StableHlo.unary main_arg18 main_v87 ((extractStridedSlice S1x64 ![0, 0] · slices_S4x64_S1x64_0_0) : (⟨S4x64, .f32⟩ : BufTy).Contents (Elt Ideal) → (⟨S1x64, .f32⟩ : BufTy).Contents (Elt Ideal))
  :: StableHlo.reshape main_v87 main_v88 rfl shapeCasts_S1x64_S64
  :: StableHlo.unary main_arg19 main_v89 ((extractStridedSlice S1x64x64 ![0, 0, 0] · slices_S4x64x64_S1x64x64_0_0_0) : (⟨S4x64x64, .f32⟩ : BufTy).Contents (Elt Ideal) → (⟨S1x64x64, .f32⟩ : BufTy).Contents (Elt Ideal))
  :: StableHlo.reshape main_v89 main_v90 rfl shapeCasts_S1x64x64_S64x64
  :: StableHlo.unary main_arg20 main_v91 ((extractStridedSlice S1x64 ![0, 0] · slices_S4x64_S1x64_0_0) : (⟨S4x64, .f32⟩ : BufTy).Contents (Elt Ideal) → (⟨S1x64, .f32⟩ : BufTy).Contents (Elt Ideal))
  :: StableHlo.reshape main_v91 main_v92 rfl shapeCasts_S1x64_S64
  :: StableHlo.unary main_arg21 main_v93 ((extractStridedSlice S1x64 ![0, 0] · slices_S4x64_S1x64_0_0) : (⟨S4x64, .f32⟩ : BufTy).Contents (Elt Ideal) → (⟨S1x64, .f32⟩ : BufTy).Contents (Elt Ideal))
  :: StableHlo.reshape main_v93 main_v94 rfl shapeCasts_S1x64_S64
  :: StableHlo.unary main_arg22 main_v95 ((extractStridedSlice S1x64 ![0, 0] · slices_S4x64_S1x64_0_0) : (⟨S4x64, .f32⟩ : BufTy).Contents (Elt Ideal) → (⟨S1x64, .f32⟩ : BufTy).Contents (Elt Ideal))
  :: StableHlo.reshape main_v95 main_v96 rfl shapeCasts_S1x64_S64
  :: StableHlo.unary main_arg23 main_v97 ((extractStridedSlice S1x128x64 ![0, 0, 0] · slices_S4x128x64_S1x128x64_0_0_0) : (⟨S4x128x64, .f32⟩ : BufTy).Contents (Elt Ideal) → (⟨S1x128x64, .f32⟩ : BufTy).Contents (Elt Ideal))
  :: StableHlo.reshape main_v97 main_v98 rfl shapeCasts_S1x128x64_S128x64
  :: StableHlo.unary main_arg24 main_v99 ((extractStridedSlice S1x64 ![0, 0] · slices_S4x64_S1x64_0_0) : (⟨S4x64, .f32⟩ : BufTy).Contents (Elt Ideal) → (⟨S1x64, .f32⟩ : BufTy).Contents (Elt Ideal))
  :: StableHlo.reshape main_v99 main_v100 rfl shapeCasts_S1x64_S64
  :: StableHlo.unary main_arg25 main_v101 ((extractStridedSlice S1x64x64 ![0, 0, 0] · slices_S4x64x64_S1x64x64_0_0_0) : (⟨S4x64x64, .f32⟩ : BufTy).Contents (Elt Ideal) → (⟨S1x64x64, .f32⟩ : BufTy).Contents (Elt Ideal))
  :: StableHlo.reshape main_v101 main_v102 rfl shapeCasts_S1x64x64_S64x64
  :: StableHlo.unary main_arg26 main_v103 ((extractStridedSlice S1x64 ![0, 0] · slices_S4x64_S1x64_0_0) : (⟨S4x64, .f32⟩ : BufTy).Contents (Elt Ideal) → (⟨S1x64, .f32⟩ : BufTy).Contents (Elt Ideal))
  :: StableHlo.reshape main_v103 main_v104 rfl shapeCasts_S1x64_S64
  :: StableHlo.nullary main_c (constantI S_ 32 0#32)
  :: StableHlo.unary main_c main_v105 (broadcastInDim S600000 ![] bcast_S_S600000 : (⟨S_, .i32⟩ : BufTy).Contents (Elt Ideal) → (⟨S600000, .i32⟩ : BufTy).Contents (Elt Ideal))
  :: StableHlo.binary main_v82 main_v105 main_v106 (cmpi .slt : (⟨S600000, .i32⟩ : BufTy).Contents (Elt Ideal) → (⟨S600000, .i32⟩ : BufTy).Contents (Elt Ideal) → (⟨S600000, .i1⟩ : BufTy).Contents (Elt Ideal))
  :: StableHlo.nullary main_c_14 (constantI S_ 32 50000#32)
  :: StableHlo.unary main_c_14 main_v107 (broadcastInDim S600000 ![] bcast_S_S600000 : (⟨S_, .i32⟩ : BufTy).Contents (Elt Ideal) → (⟨S600000, .i32⟩ : BufTy).Contents (Elt Ideal))
  :: StableHlo.binary main_v82 main_v107 main_v108 (addi : (⟨S600000, .i32⟩ : BufTy).Contents (Elt Ideal) → (⟨S600000, .i32⟩ : BufTy).Contents (Elt Ideal) → (⟨S600000, .i32⟩ : BufTy).Contents (Elt Ideal))
  :: StableHlo.ternary main_v106 main_v108 main_v82 main_v109 (select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal))
  :: StableHlo.unary main_v109 main_v110 (broadcastInDim S600000x1 ![0] bcast_S600000_S600000x1_0 : (⟨S600000, .i32⟩ : BufTy).Contents (Elt Ideal) → (⟨S600000x1, .i32⟩ : BufTy).Contents (Elt Ideal))
  :: StableHlo.binary main_v27 main_v110 main_v111 ((fun x i => Host.gather gather_S50000x64_S600000x1_S600000x64_1_0_n_n_0_1_164 x i) : (⟨S50000x64, .f32⟩ : BufTy).Contents (Elt Ideal) → (⟨S600000x1, .i32⟩ : BufTy).Contents (Elt Ideal) → (⟨S600000x64, .f32⟩ : BufTy).Contents (Elt Ideal))
  :: StableHlo.nullary main_c_15 (constantI S_ 32 0#32)
  :: StableHlo.unary main_c_15 main_v112 (broadcastInDim S600000 ![] bcast_S_S600000 : (⟨S_, .i32⟩ : BufTy).Contents (Elt Ideal) → (⟨S600000, .i32⟩ : BufTy).Contents (Elt Ideal))
  :: StableHlo.binary main_v84 main_v112 main_v113 (cmpi .slt : (⟨S600000, .i32⟩ : BufTy).Contents (Elt Ideal) → (⟨S600000, .i32⟩ : BufTy).Contents (Elt Ideal) → (⟨S600000, .i1⟩ : BufTy).Contents (Elt Ideal))
  :: StableHlo.nullary main_c_16 (constantI S_ 32 50000#32)
  :: StableHlo.unary main_c_16 main_v114 (broadcastInDim S600000 ![] bcast_S_S600000 : (⟨S_, .i32⟩ : BufTy).Contents (Elt Ideal) → (⟨S600000, .i32⟩ : BufTy).Contents (Elt Ideal))
  :: StableHlo.binary main_v84 main_v114 main_v115 (addi : (⟨S600000, .i32⟩ : BufTy).Contents (Elt Ideal) → (⟨S600000, .i32⟩ : BufTy).Contents (Elt Ideal) → (⟨S600000, .i32⟩ : BufTy).Contents (Elt Ideal))
  :: StableHlo.ternary main_v113 main_v115 main_v84 main_v116 (select : (⟨S600000, .i1⟩ : BufTy).Contents (Elt Ideal) → (⟨S600000, .i32⟩ : BufTy).Contents (Elt Ideal) → (⟨S600000, .i32⟩ : BufTy).Contents (Elt Ideal) → (⟨S600000, .i32⟩ : BufTy).Contents (Elt Ideal))
  :: StableHlo.unary main_v116 main_v117 (broadcastInDim S600000x1 ![0] bcast_S600000_S600000x1_0 : (⟨S600000, .i32⟩ : BufTy).Contents (Elt Ideal) → (⟨S600000x1, .i32⟩ : BufTy).Contents (Elt Ideal))
  :: StableHlo.binary main_v80 main_v117 main_v118 ((fun x i => Host.gather gather_S50000x64_S600000x1_S600000x64_1_0_n_n_0_1_164 x i) : (⟨S50000x64, .f32⟩ : BufTy).Contents (Elt Ideal) → (⟨S600000x1, .i32⟩ : BufTy).Contents (Elt Ideal) → (⟨S600000x64, .f32⟩ : BufTy).Contents (Elt Ideal))
  :: StableHlo.nary ![main_v111, main_v52, main_v118] main_v119 (fun u => cat_main_v119 (u 0) (u 1) (u 2))
  :: StableHlo.reshape main_v88 main_v120 rfl shapeCasts_S64_S1x64
  :: StableHlo.reshape main_v92 main_v121 rfl shapeCasts_S64_S1x64
  :: [] )

theorem hostOps2n_eq : (hostOps2 (F := Ideal)) = hostOps2n := rfl

set_option maxHeartbeats 4000000 in
/-- `main_v119` after the stretch, from the live-in buffers' values. -/
theorem s2_main_v119 (W : Valuation τ sig (Elt Ideal)) (V0' : Valuation Cert.ReferenceIdeal.τ Cert.ReferenceIdeal.sig (Elt Ideal))
    (h_main_arg36 : W (Proc.devRef .tc main_arg36) = Cert.ReferenceIdeal.RefValue.a36 V0')
    (h_main_v80 : W (Proc.devRef .tc main_v80) = Cert.ReferenceIdeal.Value.res_main_v98 V0')
    (h_main_v52 : W (Proc.devRef .tc main_v52) = Cert.ReferenceIdeal.Value.res_main_v61 V0')
    (h_main_v27 : W (Proc.devRef .tc main_v27) = Cert.ReferenceIdeal.Value.res_main_v36 V0') :
    StableHlo.after (hostOps2 (F := Ideal)) W (Proc.devRef .tc main_v119) = Cert.ReferenceIdeal.RefValue.t_main_v137 V0' := by
  rw [hostOps2n_eq]
  simp only [hostOps2n]
  after_results_simp
  try dsimp only [Matrix.cons_val]
  try after_results_simp
  simp only [h_main_arg36, h_main_v80, h_main_v52, h_main_v27] <;> rfl

set_option maxHeartbeats 4000000 in
/-- `main_v86` after the stretch, from the live-in buffers' values. -/
theorem s2_main_v86 (W : Valuation τ sig (Elt Ideal)) (V0' : Valuation Cert.ReferenceIdeal.τ Cert.ReferenceIdeal.sig (Elt Ideal))
    (h_main_arg17 : W (Proc.devRef .tc main_arg17) = Cert.ReferenceIdeal.RefValue.a17 V0') :
    StableHlo.after (hostOps2 (F := Ideal)) W (Proc.devRef .tc main_v86) = Cert.ReferenceIdeal.RefValue.t_main_v104 V0' := by
  rw [hostOps2n_eq]
  simp only [hostOps2n]
  after_results_simp
  try dsimp only [Matrix.cons_val]
  try after_results_simp
  simp only [h_main_arg17] <;> rfl

set_option maxHeartbeats 4000000 in
/-- `main_v120` after the stretch, from the live-in buffers' values. -/
theorem s2_main_v120 (W : Valuation τ sig (Elt Ideal)) (V0' : Valuation Cert.ReferenceIdeal.τ Cert.ReferenceIdeal.sig (Elt Ideal))
    (h_main_arg18 : W (Proc.devRef .tc main_arg18) = Cert.ReferenceIdeal.RefValue.a18 V0') :
    StableHlo.after (hostOps2 (F := Ideal)) W (Proc.devRef .tc main_v120) = shapeCast _ (Cert.ReferenceIdeal.RefValue.t_main_v106 V0') shapeCasts_S64_S1x64 := by
  rw [hostOps2n_eq]
  simp only [hostOps2n]
  after_results_simp
  try dsimp only [Matrix.cons_val]
  try after_results_simp
  simp only [h_main_arg18] <;> rfl

set_option maxHeartbeats 4000000 in
/-- `main_v90` after the stretch, from the live-in buffers' values. -/
theorem s2_main_v90 (W : Valuation τ sig (Elt Ideal)) (V0' : Valuation Cert.ReferenceIdeal.τ Cert.ReferenceIdeal.sig (Elt Ideal))
    (h_main_arg19 : W (Proc.devRef .tc main_arg19) = Cert.ReferenceIdeal.RefValue.a19 V0') :
    StableHlo.after (hostOps2 (F := Ideal)) W (Proc.devRef .tc main_v90) = Cert.ReferenceIdeal.RefValue.t_main_v108 V0' := by
  rw [hostOps2n_eq]
  simp only [hostOps2n]
  after_results_simp
  try dsimp only [Matrix.cons_val]
  try after_results_simp
  simp only [h_main_arg19] <;> rfl

set_option maxHeartbeats 4000000 in
/-- `main_v121` after the stretch, from the live-in buffers' values. -/
theorem s2_main_v121 (W : Valuation τ sig (Elt Ideal)) (V0' : Valuation Cert.ReferenceIdeal.τ Cert.ReferenceIdeal.sig (Elt Ideal))
    (h_main_arg20 : W (Proc.devRef .tc main_arg20) = Cert.ReferenceIdeal.RefValue.a20 V0') :
    StableHlo.after (hostOps2 (F := Ideal)) W (Proc.devRef .tc main_v121) = shapeCast _ (Cert.ReferenceIdeal.RefValue.t_main_v110 V0') shapeCasts_S64_S1x64 := by
  rw [hostOps2n_eq]
  simp only [hostOps2n]
  after_results_simp
  try dsimp only [Matrix.cons_val]
  try after_results_simp
  simp only [h_main_arg20] <;> rfl

set_option maxHeartbeats 4000000 in
/-- `main_v82` after the stretch, from the live-in buffers' values. -/
theorem s2_main_v82 (W : Valuation τ sig (Elt Ideal)) (V0' : Valuation Cert.ReferenceIdeal.τ Cert.ReferenceIdeal.sig (Elt Ideal))
    (h_main_arg36 : W (Proc.devRef .tc main_arg36) = Cert.ReferenceIdeal.RefValue.a36 V0') :
    StableHlo.after (hostOps2 (F := Ideal)) W (Proc.devRef .tc main_v82) = Cert.ReferenceIdeal.Value.res_main_v100 V0' := by
  rw [hostOps2n_eq]
  simp only [hostOps2n]
  after_results_simp
  try dsimp only [Matrix.cons_val]
  try after_results_simp
  simp only [h_main_arg36] <;> rfl

set_option maxHeartbeats 4000000 in
/-- `main_v94` after the stretch, from the live-in buffers' values. -/
theorem s2_main_v94 (W : Valuation τ sig (Elt Ideal)) (V0' : Valuation Cert.ReferenceIdeal.τ Cert.ReferenceIdeal.sig (Elt Ideal))
    (h_main_arg21 : W (Proc.devRef .tc main_arg21) = Cert.ReferenceIdeal.RefValue.a21 V0') :
    StableHlo.after (hostOps2 (F := Ideal)) W (Proc.devRef .tc main_v94) = Cert.ReferenceIdeal.RefValue.t_main_v112 V0' := by
  rw [hostOps2n_eq]
  simp only [hostOps2n]
  after_results_simp
  try dsimp only [Matrix.cons_val]
  try after_results_simp
  simp only [h_main_arg21] <;> rfl

set_option maxHeartbeats 4000000 in
/-- `main_v96` after the stretch, from the live-in buffers' values. -/
theorem s2_main_v96 (W : Valuation τ sig (Elt Ideal)) (V0' : Valuation Cert.ReferenceIdeal.τ Cert.ReferenceIdeal.sig (Elt Ideal))
    (h_main_arg22 : W (Proc.devRef .tc main_arg22) = Cert.ReferenceIdeal.RefValue.a22 V0') :
    StableHlo.after (hostOps2 (F := Ideal)) W (Proc.devRef .tc main_v96) = Cert.ReferenceIdeal.RefValue.t_main_v114 V0' := by
  rw [hostOps2n_eq]
  simp only [hostOps2n]
  after_results_simp
  try dsimp only [Matrix.cons_val]
  try after_results_simp
  simp only [h_main_arg22] <;> rfl

set_option maxHeartbeats 4000000 in
/-- `main_v100` after the stretch, from the live-in buffers' values. -/
theorem s2_main_v100 (W : Valuation τ sig (Elt Ideal)) (V0' : Valuation Cert.ReferenceIdeal.τ Cert.ReferenceIdeal.sig (Elt Ideal))
    (h_main_arg24 : W (Proc.devRef .tc main_arg24) = Cert.ReferenceIdeal.RefValue.a24 V0') :
    StableHlo.after (hostOps2 (F := Ideal)) W (Proc.devRef .tc main_v100) = Cert.ReferenceIdeal.RefValue.t_main_v118 V0' := by
  rw [hostOps2n_eq]
  simp only [hostOps2n]
  after_results_simp
  try dsimp only [Matrix.cons_val]
  try after_results_simp
  simp only [h_main_arg24] <;> rfl

set_option maxHeartbeats 4000000 in
/-- `main_v104` after the stretch, from the live-in buffers' values. -/
theorem s2_main_v104 (W : Valuation τ sig (Elt Ideal)) (V0' : Valuation Cert.ReferenceIdeal.τ Cert.ReferenceIdeal.sig (Elt Ideal))
    (h_main_arg26 : W (Proc.devRef .tc main_arg26) = Cert.ReferenceIdeal.RefValue.a26 V0') :
    StableHlo.after (hostOps2 (F := Ideal)) W (Proc.devRef .tc main_v104) = Cert.ReferenceIdeal.RefValue.t_main_v122 V0' := by
  rw [hostOps2n_eq]
  simp only [hostOps2n]
  after_results_simp
  try dsimp only [Matrix.cons_val]
  try after_results_simp
  simp only [h_main_arg26] <;> rfl

set_option maxHeartbeats 4000000 in
/-- `main_v98` after the stretch, from the live-in buffers' values. -/
theorem s2_main_v98 (W : Valuation τ sig (Elt Ideal)) (V0' : Valuation Cert.ReferenceIdeal.τ Cert.ReferenceIdeal.sig (Elt Ideal))
    (h_main_arg23 : W (Proc.devRef .tc main_arg23) = Cert.ReferenceIdeal.RefValue.a23 V0') :
    StableHlo.after (hostOps2 (F := Ideal)) W (Proc.devRef .tc main_v98) = Cert.ReferenceIdeal.RefValue.t_main_v116 V0' := by
  rw [hostOps2n_eq]
  simp only [hostOps2n]
  after_results_simp
  try dsimp only [Matrix.cons_val]
  try after_results_simp
  simp only [h_main_arg23] <;> rfl

set_option maxHeartbeats 4000000 in
/-- `main_v102` after the stretch, from the live-in buffers' values. -/
theorem s2_main_v102 (W : Valuation τ sig (Elt Ideal)) (V0' : Valuation Cert.ReferenceIdeal.τ Cert.ReferenceIdeal.sig (Elt Ideal))
    (h_main_arg25 : W (Proc.devRef .tc main_arg25) = Cert.ReferenceIdeal.RefValue.a25 V0') :
    StableHlo.after (hostOps2 (F := Ideal)) W (Proc.devRef .tc main_v102) = Cert.ReferenceIdeal.RefValue.t_main_v120 V0' := by
  rw [hostOps2n_eq]
  simp only [hostOps2n]
  after_results_simp
  try dsimp only [Matrix.cons_val]
  try after_results_simp
  simp only [h_main_arg25] <;> rfl

set_option maxHeartbeats 4000000 in
/-- `main_v84` after the stretch, from the live-in buffers' values. -/
theorem s2_main_v84 (W : Valuation τ sig (Elt Ideal)) (V0' : Valuation Cert.ReferenceIdeal.τ Cert.ReferenceIdeal.sig (Elt Ideal))
    (h_main_arg36 : W (Proc.devRef .tc main_arg36) = Cert.ReferenceIdeal.RefValue.a36 V0') :
    StableHlo.after (hostOps2 (F := Ideal)) W (Proc.devRef .tc main_v84) = Cert.ReferenceIdeal.Value.res_main_v102 V0' := by
  rw [hostOps2n_eq]
  simp only [hostOps2n]
  after_results_simp
  try dsimp only [Matrix.cons_val]
  try after_results_simp
  simp only [h_main_arg36] <;> rfl

end Cert.KernelIdeal.Frm

end
-- ==== Proof.IdealChain2.lean ====
/-
  The kernel's buffers at the boundaries 4 and 5 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain1
import proofs.«181157_j5506148073958_2_alg».proof.Proof.IdealFinal1
import proofs.«181157_j5506148073958_2_alg».proof.Proof.IdealStretch2

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 4 -/

theorem L4_main_arg36 (hag : Agree m ρ c V0') : W4 m ρ c (Proc.devRef .tc main_arg36) = Cert.ReferenceIdeal.RefValue.a36 V0' := (W4_of_ne m ρ c main_arg36 (by decide)).trans (L3_main_arg36 m ρ c V0' hag)

theorem L4_main_arg17 (hag : Agree m ρ c V0') : W4 m ρ c (Proc.devRef .tc main_arg17) = Cert.ReferenceIdeal.RefValue.a17 V0' := (W4_of_ne m ρ c main_arg17 (by decide)).trans (L3_main_arg17 m ρ c V0' hag)

theorem L4_main_arg18 (hag : Agree m ρ c V0') : W4 m ρ c (Proc.devRef .tc main_arg18) = Cert.ReferenceIdeal.RefValue.a18 V0' := (W4_of_ne m ρ c main_arg18 (by decide)).trans (L3_main_arg18 m ρ c V0' hag)

theorem L4_main_arg19 (hag : Agree m ρ c V0') : W4 m ρ c (Proc.devRef .tc main_arg19) = Cert.ReferenceIdeal.RefValue.a19 V0' := (W4_of_ne m ρ c main_arg19 (by decide)).trans (L3_main_arg19 m ρ c V0' hag)

theorem L4_main_arg20 (hag : Agree m ρ c V0') : W4 m ρ c (Proc.devRef .tc main_arg20) = Cert.ReferenceIdeal.RefValue.a20 V0' := (W4_of_ne m ρ c main_arg20 (by decide)).trans (L3_main_arg20 m ρ c V0' hag)

theorem L4_main_arg21 (hag : Agree m ρ c V0') : W4 m ρ c (Proc.devRef .tc main_arg21) = Cert.ReferenceIdeal.RefValue.a21 V0' := (W4_of_ne m ρ c main_arg21 (by decide)).trans (L3_main_arg21 m ρ c V0' hag)

theorem L4_main_arg22 (hag : Agree m ρ c V0') : W4 m ρ c (Proc.devRef .tc main_arg22) = Cert.ReferenceIdeal.RefValue.a22 V0' := (W4_of_ne m ρ c main_arg22 (by decide)).trans (L3_main_arg22 m ρ c V0' hag)

theorem L4_main_arg23 (hag : Agree m ρ c V0') : W4 m ρ c (Proc.devRef .tc main_arg23) = Cert.ReferenceIdeal.RefValue.a23 V0' := (W4_of_ne m ρ c main_arg23 (by decide)).trans (L3_main_arg23 m ρ c V0' hag)

theorem L4_main_arg24 (hag : Agree m ρ c V0') : W4 m ρ c (Proc.devRef .tc main_arg24) = Cert.ReferenceIdeal.RefValue.a24 V0' := (W4_of_ne m ρ c main_arg24 (by decide)).trans (L3_main_arg24 m ρ c V0' hag)

theorem L4_main_arg25 (hag : Agree m ρ c V0') : W4 m ρ c (Proc.devRef .tc main_arg25) = Cert.ReferenceIdeal.RefValue.a25 V0' := (W4_of_ne m ρ c main_arg25 (by decide)).trans (L3_main_arg25 m ρ c V0' hag)

theorem L4_main_arg26 (hag : Agree m ρ c V0') : W4 m ρ c (Proc.devRef .tc main_arg26) = Cert.ReferenceIdeal.RefValue.a26 V0' := (W4_of_ne m ρ c main_arg26 (by decide)).trans (L3_main_arg26 m ρ c V0' hag)

theorem L4_main_v27 (hag : Agree m ρ c V0') : W4 m ρ c (Proc.devRef .tc main_v27) = Cert.ReferenceIdeal.Value.res_main_v36 V0' := (W4_of_ne m ρ c main_v27 (by decide)).trans (L3_main_v27 m ρ c V0' hag)

theorem L4_main_v80 (hag : Agree m ρ c V0') : W4 m ρ c (Proc.devRef .tc main_v80) = Cert.ReferenceIdeal.Value.res_main_v98 V0' := by
  refine (W4_arr m ρ c 5).trans ?_
  refine (final1 (V3 m ρ) c).trans ?_
  unfold G1
  have h0 : V3 m ρ c main_v77 = Cert.ReferenceIdeal.RefValue.t_main_v86 V0' := (L3_main_v77 m ρ c V0' hag)
  have hW0 : V3 m ρ c main_arg13 = Cert.ReferenceIdeal.RefValue.a13 V0' := (L3_main_arg13 m ρ c V0' hag)
  have hb0 : Cert.LibRowBias.rowOf (V3 m ρ c main_v78) = Cert.ReferenceIdeal.RefValue.a14 V0' := by
    rw [show V3 m ρ c main_v78 = shapeCast _ (Cert.ReferenceIdeal.RefValue.a14 V0') shapeCasts_S64_S1x64 from (L3_main_v78 m ρ c V0' hag)]
    exact Cert.LibRowBias.rowOf_shapeCast _ _
  have hW1 : V3 m ρ c main_arg15 = Cert.ReferenceIdeal.RefValue.a15 V0' := (L3_main_arg15 m ρ c V0' hag)
  have hb1 : Cert.LibRowBias.rowOf (V3 m ρ c main_v79) = Cert.ReferenceIdeal.RefValue.a16 V0' := by
    rw [show V3 m ρ c main_v79 = shapeCast _ (Cert.ReferenceIdeal.RefValue.a16 V0') shapeCasts_S64_S1x64 from (L3_main_v79 m ρ c V0' hag)]
    exact Cert.LibRowBias.rowOf_shapeCast _ _
  rw [h0, hW0, hb0, hW1, hb1]
  exact (Cert.ReferenceIdeal.RefValue.stage1_ref V0').symm

theorem L4_main_v52 (hag : Agree m ρ c V0') : W4 m ρ c (Proc.devRef .tc main_v52) = Cert.ReferenceIdeal.Value.res_main_v61 V0' := (W4_of_ne m ρ c main_v52 (by decide)).trans (L3_main_v52 m ρ c V0' hag)

theorem L4_main_arg27 (hag : Agree m ρ c V0') : W4 m ρ c (Proc.devRef .tc main_arg27) = Cert.ReferenceIdeal.RefValue.a27 V0' := (W4_of_ne m ρ c main_arg27 (by decide)).trans (L3_main_arg27 m ρ c V0' hag)

theorem L4_main_arg28 (hag : Agree m ρ c V0') : W4 m ρ c (Proc.devRef .tc main_arg28) = Cert.ReferenceIdeal.RefValue.a28 V0' := (W4_of_ne m ρ c main_arg28 (by decide)).trans (L3_main_arg28 m ρ c V0' hag)

theorem L4_main_arg29 (hag : Agree m ρ c V0') : W4 m ρ c (Proc.devRef .tc main_arg29) = Cert.ReferenceIdeal.RefValue.a29 V0' := (W4_of_ne m ρ c main_arg29 (by decide)).trans (L3_main_arg29 m ρ c V0' hag)

theorem L4_main_arg31 (hag : Agree m ρ c V0') : W4 m ρ c (Proc.devRef .tc main_arg31) = Cert.ReferenceIdeal.RefValue.a31 V0' := (W4_of_ne m ρ c main_arg31 (by decide)).trans (L3_main_arg31 m ρ c V0' hag)

theorem L4_main_arg33 (hag : Agree m ρ c V0') : W4 m ρ c (Proc.devRef .tc main_arg33) = Cert.ReferenceIdeal.RefValue.a33 V0' := (W4_of_ne m ρ c main_arg33 (by decide)).trans (L3_main_arg33 m ρ c V0' hag)

theorem L4_main_arg35 (hag : Agree m ρ c V0') : W4 m ρ c (Proc.devRef .tc main_arg35) = Cert.ReferenceIdeal.RefValue.a35 V0' := (W4_of_ne m ρ c main_arg35 (by decide)).trans (L3_main_arg35 m ρ c V0' hag)

theorem L4_main_arg30 (hag : Agree m ρ c V0') : W4 m ρ c (Proc.devRef .tc main_arg30) = Cert.ReferenceIdeal.RefValue.a30 V0' := (W4_of_ne m ρ c main_arg30 (by decide)).trans (L3_main_arg30 m ρ c V0' hag)

theorem L4_main_arg32 (hag : Agree m ρ c V0') : W4 m ρ c (Proc.devRef .tc main_arg32) = Cert.ReferenceIdeal.RefValue.a32 V0' := (W4_of_ne m ρ c main_arg32 (by decide)).trans (L3_main_arg32 m ρ c V0' hag)

theorem L4_main_arg34 (hag : Agree m ρ c V0') : W4 m ρ c (Proc.devRef .tc main_arg34) = Cert.ReferenceIdeal.RefValue.a34 V0' := (W4_of_ne m ρ c main_arg34 (by decide)).trans (L3_main_arg34 m ρ c V0' hag)

/-! ## Boundary 5 -/

theorem L5_main_arg17 (hag : Agree m ρ c V0') : W5 m ρ c (Proc.devRef .tc main_arg17) = Cert.ReferenceIdeal.RefValue.a17 V0' := (W5_of m ρ c main_arg17 (by decide)).trans (L4_main_arg17 m ρ c V0' hag)

theorem L5_main_arg18 (hag : Agree m ρ c V0') : W5 m ρ c (Proc.devRef .tc main_arg18) = Cert.ReferenceIdeal.RefValue.a18 V0' := (W5_of m ρ c main_arg18 (by decide)).trans (L4_main_arg18 m ρ c V0' hag)

theorem L5_main_arg19 (hag : Agree m ρ c V0') : W5 m ρ c (Proc.devRef .tc main_arg19) = Cert.ReferenceIdeal.RefValue.a19 V0' := (W5_of m ρ c main_arg19 (by decide)).trans (L4_main_arg19 m ρ c V0' hag)

theorem L5_main_arg20 (hag : Agree m ρ c V0') : W5 m ρ c (Proc.devRef .tc main_arg20) = Cert.ReferenceIdeal.RefValue.a20 V0' := (W5_of m ρ c main_arg20 (by decide)).trans (L4_main_arg20 m ρ c V0' hag)

theorem L5_main_arg21 (hag : Agree m ρ c V0') : W5 m ρ c (Proc.devRef .tc main_arg21) = Cert.ReferenceIdeal.RefValue.a21 V0' := (W5_of m ρ c main_arg21 (by decide)).trans (L4_main_arg21 m ρ c V0' hag)

theorem L5_main_arg22 (hag : Agree m ρ c V0') : W5 m ρ c (Proc.devRef .tc main_arg22) = Cert.ReferenceIdeal.RefValue.a22 V0' := (W5_of m ρ c main_arg22 (by decide)).trans (L4_main_arg22 m ρ c V0' hag)

theorem L5_main_arg23 (hag : Agree m ρ c V0') : W5 m ρ c (Proc.devRef .tc main_arg23) = Cert.ReferenceIdeal.RefValue.a23 V0' := (W5_of m ρ c main_arg23 (by decide)).trans (L4_main_arg23 m ρ c V0' hag)

theorem L5_main_arg24 (hag : Agree m ρ c V0') : W5 m ρ c (Proc.devRef .tc main_arg24) = Cert.ReferenceIdeal.RefValue.a24 V0' := (W5_of m ρ c main_arg24 (by decide)).trans (L4_main_arg24 m ρ c V0' hag)

theorem L5_main_arg25 (hag : Agree m ρ c V0') : W5 m ρ c (Proc.devRef .tc main_arg25) = Cert.ReferenceIdeal.RefValue.a25 V0' := (W5_of m ρ c main_arg25 (by decide)).trans (L4_main_arg25 m ρ c V0' hag)

theorem L5_main_arg26 (hag : Agree m ρ c V0') : W5 m ρ c (Proc.devRef .tc main_arg26) = Cert.ReferenceIdeal.RefValue.a26 V0' := (W5_of m ρ c main_arg26 (by decide)).trans (L4_main_arg26 m ρ c V0' hag)

theorem L5_main_v27 (hag : Agree m ρ c V0') : W5 m ρ c (Proc.devRef .tc main_v27) = Cert.ReferenceIdeal.Value.res_main_v36 V0' := (W5_of m ρ c main_v27 (by decide)).trans (L4_main_v27 m ρ c V0' hag)

theorem L5_main_v80 (hag : Agree m ρ c V0') : W5 m ρ c (Proc.devRef .tc main_v80) = Cert.ReferenceIdeal.Value.res_main_v98 V0' := (W5_of m ρ c main_v80 (by decide)).trans (L4_main_v80 m ρ c V0' hag)

theorem L5_main_v52 (hag : Agree m ρ c V0') : W5 m ρ c (Proc.devRef .tc main_v52) = Cert.ReferenceIdeal.Value.res_main_v61 V0' := (W5_of m ρ c main_v52 (by decide)).trans (L4_main_v52 m ρ c V0' hag)

theorem L5_main_v119 (hag : Agree m ρ c V0') : W5 m ρ c (Proc.devRef .tc main_v119) = Cert.ReferenceIdeal.RefValue.t_main_v137 V0' := s2_main_v119 (W4 m ρ c) V0' (L4_main_arg36 m ρ c V0' hag) (L4_main_v80 m ρ c V0' hag) (L4_main_v52 m ρ c V0' hag) (L4_main_v27 m ρ c V0' hag)

theorem L5_main_v86 (hag : Agree m ρ c V0') : W5 m ρ c (Proc.devRef .tc main_v86) = Cert.ReferenceIdeal.RefValue.t_main_v104 V0' := s2_main_v86 (W4 m ρ c) V0' (L4_main_arg17 m ρ c V0' hag)

theorem L5_main_v120 (hag : Agree m ρ c V0') : W5 m ρ c (Proc.devRef .tc main_v120) = shapeCast _ (Cert.ReferenceIdeal.RefValue.t_main_v106 V0') shapeCasts_S64_S1x64 := s2_main_v120 (W4 m ρ c) V0' (L4_main_arg18 m ρ c V0' hag)

theorem L5_main_v90 (hag : Agree m ρ c V0') : W5 m ρ c (Proc.devRef .tc main_v90) = Cert.ReferenceIdeal.RefValue.t_main_v108 V0' := s2_main_v90 (W4 m ρ c) V0' (L4_main_arg19 m ρ c V0' hag)

theorem L5_main_v121 (hag : Agree m ρ c V0') : W5 m ρ c (Proc.devRef .tc main_v121) = shapeCast _ (Cert.ReferenceIdeal.RefValue.t_main_v110 V0') shapeCasts_S64_S1x64 := s2_main_v121 (W4 m ρ c) V0' (L4_main_arg20 m ρ c V0' hag)

theorem L5_main_v82 (hag : Agree m ρ c V0') : W5 m ρ c (Proc.devRef .tc main_v82) = Cert.ReferenceIdeal.Value.res_main_v100 V0' := s2_main_v82 (W4 m ρ c) V0' (L4_main_arg36 m ρ c V0' hag)

theorem L5_main_v94 (hag : Agree m ρ c V0') : W5 m ρ c (Proc.devRef .tc main_v94) = Cert.ReferenceIdeal.RefValue.t_main_v112 V0' := s2_main_v94 (W4 m ρ c) V0' (L4_main_arg21 m ρ c V0' hag)

theorem L5_main_v96 (hag : Agree m ρ c V0') : W5 m ρ c (Proc.devRef .tc main_v96) = Cert.ReferenceIdeal.RefValue.t_main_v114 V0' := s2_main_v96 (W4 m ρ c) V0' (L4_main_arg22 m ρ c V0' hag)

theorem L5_main_v100 (hag : Agree m ρ c V0') : W5 m ρ c (Proc.devRef .tc main_v100) = Cert.ReferenceIdeal.RefValue.t_main_v118 V0' := s2_main_v100 (W4 m ρ c) V0' (L4_main_arg24 m ρ c V0' hag)

theorem L5_main_v104 (hag : Agree m ρ c V0') : W5 m ρ c (Proc.devRef .tc main_v104) = Cert.ReferenceIdeal.RefValue.t_main_v122 V0' := s2_main_v104 (W4 m ρ c) V0' (L4_main_arg26 m ρ c V0' hag)

theorem L5_main_v98 (hag : Agree m ρ c V0') : W5 m ρ c (Proc.devRef .tc main_v98) = Cert.ReferenceIdeal.RefValue.t_main_v116 V0' := s2_main_v98 (W4 m ρ c) V0' (L4_main_arg23 m ρ c V0' hag)

theorem L5_main_v102 (hag : Agree m ρ c V0') : W5 m ρ c (Proc.devRef .tc main_v102) = Cert.ReferenceIdeal.RefValue.t_main_v120 V0' := s2_main_v102 (W4 m ρ c) V0' (L4_main_arg25 m ρ c V0' hag)

theorem L5_main_v84 (hag : Agree m ρ c V0') : W5 m ρ c (Proc.devRef .tc main_v84) = Cert.ReferenceIdeal.Value.res_main_v102 V0' := s2_main_v84 (W4 m ρ c) V0' (L4_main_arg36 m ρ c V0' hag)

theorem L5_main_arg27 (hag : Agree m ρ c V0') : W5 m ρ c (Proc.devRef .tc main_arg27) = Cert.ReferenceIdeal.RefValue.a27 V0' := (W5_of m ρ c main_arg27 (by decide)).trans (L4_main_arg27 m ρ c V0' hag)

theorem L5_main_arg28 (hag : Agree m ρ c V0') : W5 m ρ c (Proc.devRef .tc main_arg28) = Cert.ReferenceIdeal.RefValue.a28 V0' := (W5_of m ρ c main_arg28 (by decide)).trans (L4_main_arg28 m ρ c V0' hag)

theorem L5_main_arg29 (hag : Agree m ρ c V0') : W5 m ρ c (Proc.devRef .tc main_arg29) = Cert.ReferenceIdeal.RefValue.a29 V0' := (W5_of m ρ c main_arg29 (by decide)).trans (L4_main_arg29 m ρ c V0' hag)

theorem L5_main_arg31 (hag : Agree m ρ c V0') : W5 m ρ c (Proc.devRef .tc main_arg31) = Cert.ReferenceIdeal.RefValue.a31 V0' := (W5_of m ρ c main_arg31 (by decide)).trans (L4_main_arg31 m ρ c V0' hag)

theorem L5_main_arg33 (hag : Agree m ρ c V0') : W5 m ρ c (Proc.devRef .tc main_arg33) = Cert.ReferenceIdeal.RefValue.a33 V0' := (W5_of m ρ c main_arg33 (by decide)).trans (L4_main_arg33 m ρ c V0' hag)

theorem L5_main_arg35 (hag : Agree m ρ c V0') : W5 m ρ c (Proc.devRef .tc main_arg35) = Cert.ReferenceIdeal.RefValue.a35 V0' := (W5_of m ρ c main_arg35 (by decide)).trans (L4_main_arg35 m ρ c V0' hag)

theorem L5_main_arg30 (hag : Agree m ρ c V0') : W5 m ρ c (Proc.devRef .tc main_arg30) = Cert.ReferenceIdeal.RefValue.a30 V0' := (W5_of m ρ c main_arg30 (by decide)).trans (L4_main_arg30 m ρ c V0' hag)

theorem L5_main_arg32 (hag : Agree m ρ c V0') : W5 m ρ c (Proc.devRef .tc main_arg32) = Cert.ReferenceIdeal.RefValue.a32 V0' := (W5_of m ρ c main_arg32 (by decide)).trans (L4_main_arg32 m ρ c V0' hag)

theorem L5_main_arg34 (hag : Agree m ρ c V0') : W5 m ρ c (Proc.devRef .tc main_arg34) = Cert.ReferenceIdeal.RefValue.a34 V0' := (W5_of m ρ c main_arg34 (by decide)).trans (L4_main_arg34 m ρ c V0' hag)

end Cert.KernelIdeal.Frm

end
-- ==== Proof.IdealFinal2.lean ====
/-
  What region 2 leaves in its output array, at the extended reals: the rectified layer followed by a layer of the
  WHOLE input array. Point t loads rows 10000·t … 10000·t + 9999 of the input and the whole weight matrices and one-row biases,
  and writes back the stage of that block of rows; row p of a stage depends only on row p of its input, so what point t
  writes back is rows 10000·t … of the stage of the whole array; the 60 blocks tile the 600000 rows.
-/
import proofs.«181157_j5506148073958_2_alg».proof.Proof.IdealRegion2
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz2 : (![0, 0] : Fin 2 → Nat) = fun _ => 0 := funext fun a => by fin_cases a <;> rfl

/-- The stage of the whole arrays as the region finds them. -/
def G2 (c : Dev nD) : S600000x64.Idx → EReal :=
  ra (V c main_v119) (V c main_v86) (rowOf (V c main_v120)) (V c main_v90) (rowOf (V c main_v121))

/-- The printed index maps, decided over the grid: the input rows' window moves with the output's, every other window
    stays at block 0, and the output's block index stays in range. -/
theorem idx_facts2 : ∀ t : Fin cfg2.N, win2_0.index t (0 : Fin 2) = win2_5.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (1 : Fin 2) = 0
    ∧ win2_5.index t (0 : Fin 2) ≤ 59 :=
  (by decide +kernel : ∀ t : Fin grid2.N, _)

/-- Every block of rows is some point's. -/
theorem idx_onto2 : ∀ q0 : Fin 60, ∃ t : Fin cfg2.N, win2_5.index t = ![q0.val, 0] :=
  (by decide +kernel : ∀ q0 : Fin 60, ∃ t : Fin grid2.N, win2_5.index t = ![q0.val, 0])

/-- What point t writes back is block t of the stage of the whole arrays. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero hz2]
  simp only [View.ld_unit_zero (S := S10000x129) hz2, View.ld_unit_zero (S := S129x64) hz2, View.ld_unit_zero (S := S1x64) hz2, View.ld_unit_zero (S := S64x64) hz2]
  obtain ⟨e0, e1, e2, e3, e4, e5, e6, e7, e8, e9, e10, e11⟩ := idx_facts2 t
  have hw1 : iblk2 V c 1 t = V c main_v86 := by
    funext y
    show V c main_v86 (((cfg2.win 1).blk t).view.emb y) = V c main_v86 y
    refine congrArg _ ?_
    funext a; apply Fin.ext
    match a with
    | ⟨0, _⟩ => show win2_1.index t (0 : Fin 2) * 129 + 1 * (y 0).val = (y 0).val; omega
    | ⟨1, _⟩ => show win2_1.index t (1 : Fin 2) * 64 + 1 * (y 1).val = (y 1).val; omega
  have hw2 : iblk2 V c 2 t = V c main_v120 := by
    funext y
    show V c main_v120 (((cfg2.win 2).blk t).view.emb y) = V c main_v120 y
    refine congrArg _ ?_
    funext a; apply Fin.ext
    match a with
    | ⟨0, _⟩ => show win2_2.index t (0 : Fin 2) * 1 + 1 * (y 0).val = (y 0).val; omega
    | ⟨1, _⟩ => show win2_2.index t (1 : Fin 2) * 64 + 1 * (y 1).val = (y 1).val; omega
  have hw3 : iblk2 V c 3 t = V c main_v90 := by
    funext y
    show V c main_v90 (((cfg2.win 3).blk t).view.emb y) = V c main_v90 y
    refine congrArg _ ?_
    funext a; apply Fin.ext
    match a with
    | ⟨0, _⟩ => show win2_3.index t (0 : Fin 2) * 64 + 1 * (y 0).val = (y 0).val; omega
    | ⟨1, _⟩ => show win2_3.index t (1 : Fin 2) * 64 + 1 * (y 1).val = (y 1).val; omega
  have hw4 : iblk2 V c 4 t = V c main_v121 := by
    funext y
    show V c main_v121 (((cfg2.win 4).blk t).view.emb y) = V c main_v121 y
    refine congrArg _ ?_
    funext a; apply Fin.ext
    match a with
    | ⟨0, _⟩ => show win2_4.index t (0 : Fin 2) * 1 + 1 * (y 0).val = (y 0).val; omega
    | ⟨1, _⟩ => show win2_4.index t (1 : Fin 2) * 64 + 1 * (y 1).val = (y 1).val; omega
  funext j
  obtain ⟨p, q, rfl⟩ : ∃ (p : Fin 10000) (q : Fin 64), j = ix2 p q := ⟨j 0, j 1, eq_ix2 j⟩
  refine (pay2_apply (iblk2 V c 0 t) (iblk2 V c 1 t) (iblk2 V c 2 t) (iblk2 V c 3 t) (iblk2 V c 4 t) p q).trans ?_
  rw [hw1, hw2, hw3, hw4]
  have hp : p.val < 10000 := p.isLt
  have hrow : win2_5.index t (0 : Fin 2) * 10000 + p.val < 600000 := by omega
  have hemb : ((cfg2.win 5).blk t).view.emb (ix2 p q) = ix2 (⟨win2_5.index t (0 : Fin 2) * 10000 + p.val, hrow⟩ : Fin 600000) q := by
    funext a; apply Fin.ext
    match a with
    | ⟨0, _⟩ => show win2_5.index t (0 : Fin 2) * 10000 + 1 * p.val = win2_5.index t (0 : Fin 2) * 10000 + p.val; omega
    | ⟨1, _⟩ => show win2_5.index t (1 : Fin 2) * 64 + 1 * q.val = q.val; omega
  show ra (iblk2 V c 0 t) _ _ _ _ (ix2 p q) = G2 V c (((cfg2.win 5).blk t).view.emb (ix2 p q))
  rw [hemb]
  refine ra_row _ _ _ _ _ _ p _ (fun k => ?_) q
  show V c main_v119 (((cfg2.win 0).blk t).view.emb (ix2 p k)) = V c main_v119 (ix2 (⟨win2_5.index t (0 : Fin 2) * 10000 + p.val, hrow⟩ : Fin 600000) k)
  refine congrArg _ ?_
  funext a; apply Fin.ext
  match a with
  | ⟨0, _⟩ => show win2_0.index t (0 : Fin 2) * 10000 + 1 * p.val = win2_5.index t (0 : Fin 2) * 10000 + p.val; omega
  | ⟨1, _⟩ => show win2_0.index t (1 : Fin 2) * 129 + 1 * k.val = k.val; omega

/-- An index of the output array is in point t's block iff its row is in the block's range. -/
theorem mem_blk2 (t : Fin cfg2.N) (i : S600000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v122).slice (win2_5.rect t)).set ↔ _
  rw [View.set_slice_whole, Rect.mem_set_unit]
  exact Iff.rfl

/-- The blocks cover the output array. -/
theorem cover2 (i : S600000x64.Idx) :
    ∃ t : Fin cfg2.N, (cfg2.win 5).flush t = true ∧ i ∈ ((cfg2.win 5).blk t).view.set := by
  have hi0 : (i 0).val < 600000 := (i 0).isLt
  have hi1 : (i 1).val < 64 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output array after the region: the stage of the whole arrays. -/
theorem final2 (c : Dev nD) : (dat2 (F := Ideal) V c).arrAt 5 cfg2.N = G2 V c :=
  (dat2 (F := Ideal) V c).arrAt_eq_of_cover 5 (G2 V c) (fun t _ => flushed2_eq V c t) (cover2)

end Cert.KernelIdeal.Frm

end
-- ==== Proof.IdealStretch3.lean ====
/-
  Host stretch 3 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v159`, as a function of its two operands. -/
def cat_main_v159 : (⟨S50000x64, .f32⟩ : BufTy).Contents (Elt F) → (⟨S50000x64, .f32⟩ : BufTy).Contents (Elt F) → (⟨S50000x128, .f32⟩ : BufTy).Contents (Elt F) :=
  fun a b => concatenate S50000x128 1 [⟨S50000x64, a⟩, ⟨S50000x64, b⟩] concatenates_S50000x64_S50000x64_S50000x128_d1

/-- The stretch's operations with each concatenation's function named (evaluation then goes on into a concatenation's
    operands instead of stopping at the list of pairs that holds them). -/
abbrev hostOps3n : List (HloOp τ sig (Elt F)) :=
  ( StableHlo.nullary main_cst_17 (constant S_ .f32 0x00000000#32)
  :: StableHlo.unary main_cst_17 main_v123 (broadcastInDim S50000x64 ![] bcast_S_S50000x64 : (⟨S_, .f32⟩ : BufTy).Contents (Elt F) → (⟨S50000x64, .f32⟩ : BufTy).Contents (Elt F))
  :: StableHlo.unary main_v82 main_v124 (broadcastInDim S600000x1 ![0] bcast_S600000_S600000x1_0 : (⟨S600000, .i32⟩ : BufTy).Contents (Elt F) → (⟨S600000x1, .i32⟩ : BufTy).Contents (Elt F))
  :: StableHlo.ternary main_v123 main_v124 main_v122 main_v125 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F))
  :: StableHlo.nullary main_cst_18 (constant S_ .f32 0x3F800000#32)
  :: StableHlo.unary main_cst_18 main_v126 (broadcastInDim S600000x1 ![] bcast_S_S600000x1 : (⟨S_, .f32⟩ : BufTy).Contents (Elt F) → (⟨S600000x1, .f32⟩ : BufTy).Contents (Elt F))
  :: StableHlo.nullary main_cst_19 (constant S_ .f32 0x00000000#32)
  :: StableHlo.unary main_cst_19 main_v127 (broadcastInDim S50000x1 ![] bcast_S_S50000x1 : (⟨S_, .f32⟩ : BufTy).Contents (Elt F) → (⟨S50000x1, .f32⟩ : BufTy).Contents (Elt F))
  :: StableHlo.unary main_v82 main_v128 (broadcastInDim S600000x1 ![0] bcast_S600000_S600000x1_0 : (⟨S600000, .i32⟩ : BufTy).Contents (Elt F) → (⟨S600000x1, .i32⟩ : BufTy).Contents (Elt F))
  :: StableHlo.ternary main_v127 main_v128 main_v126 main_v129 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F))
  :: StableHlo.nullary main_cst_20 (constant S_ .f32 0x3F800000#32)
  :: StableHlo.unary main_cst_20 main_v130 (broadcastInDim S50000x1 ![] bcast_S_S50000x1 : (⟨S_, .f32⟩ : BufTy).Contents (Elt F) → (⟨S50000x1, .f32⟩ : BufTy).Contents (Elt F))
  :: StableHlo.binary main_v129 main_v130 main_v131 (maximumf : (⟨S50000x1, .f32⟩ : BufTy).Contents (Elt F) → (⟨S50000x1, .f32⟩ : BufTy).Contents (Elt F) → (⟨S50000x1, .f32⟩ : BufTy).Contents (Elt F))
  :: StableHlo.unary main_v131 main_v132 (broadcastInDim S50000x64 ![0, 1] bcast_S50000x1_S50000x64_0_1 : (⟨S50000x1, .f32⟩ : BufTy).Contents (Elt F) → (⟨S50000x64, .f32⟩ : BufTy).Contents (Elt F))
  :: StableHlo.binary main_v125 main_v132 main_v133 (Host.divf : (⟨S50000x64, .f32⟩ : BufTy).Contents (Elt F) → (⟨S50000x64, .f32⟩ : BufTy).Contents (Elt F) → (⟨S50000x64, .f32⟩ : BufTy).Contents (Elt F))
  :: StableHlo.nullary main_cst_21 (constant S_ .f32 0x00000000#32)
  :: StableHlo.binary main_v133 main_cst_21 main_v134 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_22 (constant S_ .f32 0x47435000#32)
  :: StableHlo.unary main_cst_22 main_v135 (broadcastInDim S64 ![] bcast_S_S64 : (⟨S_, .f32⟩ : BufTy).Contents (Elt F) → (⟨S64, .f32⟩ : BufTy).Contents (Elt F))
  :: StableHlo.binary main_v134 main_v135 main_v136 (Host.divf : (⟨S64, .f32⟩ : BufTy).Contents (Elt F) → (⟨S64, .f32⟩ : BufTy).Contents (Elt F) → (⟨S64, .f32⟩ : BufTy).Contents (Elt F))
  :: StableHlo.unary main_v136 main_v137 (broadcastInDim S1x64 ![1] bcast_S64_S1x64_1 : (⟨S64, .f32⟩ : BufTy).Contents (Elt F) → (⟨S1x64, .f32⟩ : BufTy).Contents (Elt F))
  :: StableHlo.unary main_v137 main_v138 (broadcastInDim S50000x64 ![0, 1] bcast_S1x64_S50000x64_0_1 : (⟨S1x64, .f32⟩ : BufTy).Contents (Elt F) → (⟨S50000x64, .f32⟩ : BufTy).Contents (Elt F))
  :: StableHlo.binary main_v133 main_v138 main_v139 (subf : (⟨S50000x64, .f32⟩ : BufTy).Contents (Elt F) → (⟨S50000x64, .f32⟩ : BufTy).Contents (Elt F) → (⟨S50000x64, .f32⟩ : BufTy).Contents (Elt F))
  :: StableHlo.binary main_v139 main_v139 main_v140 (mulf : (⟨S50000x64, .f32⟩ : BufTy).Contents (Elt F) → (⟨S50000x64, .f32⟩ : BufTy).Contents (Elt F) → (⟨S50000x64, .f32⟩ : BufTy).Contents (Elt F))
  :: StableHlo.nullary main_cst_23 (constant S_ .f32 0x00000000#32)
  :: StableHlo.binary main_v140 main_cst_23 main_v141 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_24 (constant S_ .f32 0x47435000#32)
  :: StableHlo.unary main_cst_24 main_v142 (broadcastInDim S64 ![] bcast_S_S64 : (⟨S_, .f32⟩ : BufTy).Contents (Elt F) → (⟨S64, .f32⟩ : BufTy).Contents (Elt F))
  :: StableHlo.binary main_v141 main_v142 main_v143 (Host.divf : (⟨S64, .f32⟩ : BufTy).Contents (Elt F) → (⟨S64, .f32⟩ : BufTy).Contents (Elt F) → (⟨S64, .f32⟩ : BufTy).Contents (Elt F))
  :: StableHlo.unary main_v136 main_v144 (broadcastInDim S1x64 ![1] bcast_S64_S1x64_1 : (⟨S64, .f32⟩ : BufTy).Contents (Elt F) → (⟨S1x64, .f32⟩ : BufTy).Contents (Elt F))
  :: StableHlo.unary main_v144 main_v145 (broadcastInDim S50000x64 ![0, 1] bcast_S1x64_S50000x64_0_1 : (⟨S1x64, .f32⟩ : BufTy).Contents (Elt F) → (⟨S50000x64, .f32⟩ : BufTy).Contents (Elt F))
  :: StableHlo.binary main_v133 main_v145 main_v146 (subf : (⟨S50000x64, .f32⟩ : BufTy).Contents (Elt F) → (⟨S50000x64, .f32⟩ : BufTy).Contents (Elt F) → (⟨S50000x64, .f32⟩ : BufTy).Contents (Elt F))
  :: StableHlo.nullary main_cst_25 (constant S_ .f32 0x3727C5AC#32)
  :: StableHlo.unary main_cst_25 main_v147 (broadcastInDim S64 ![] bcast_S_S64 : (⟨S_, .f32⟩ : BufTy).Contents (Elt F) → (⟨S64, .f32⟩ : BufTy).Contents (Elt F))
  :: StableHlo.binary main_v143 main_v147 main_v148 (addf : (⟨S64, .f32⟩ : BufTy).Contents (Elt F) → (⟨S64, .f32⟩ : BufTy).Contents (Elt F) → (⟨S64, .f32⟩ : BufTy).Contents (Elt F))
  :: StableHlo.unary main_v148 main_v149 (Host.rsqrt : (⟨S64, .f32⟩ : BufTy).Contents (Elt F) → (⟨S64, .f32⟩ : BufTy).Contents (Elt F))
  :: StableHlo.unary main_v149 main_v150 (broadcastInDim S1x64 ![1] bcast_S64_S1x64_1 : (⟨S64, .f32⟩ : BufTy).Contents (Elt F) → (⟨S1x64, .f32⟩ : BufTy).Contents (Elt F))
  :: StableHlo.unary main_v150 main_v151 (broadcastInDim S50000x64 ![0, 1] bcast_S1x64_S50000x64_0_1 : (⟨S1x64, .f32⟩ : BufTy).Contents (Elt F) → (⟨S50000x64, .f32⟩ : BufTy).Contents (Elt F))
  :: StableHlo.binary main_v146 main_v151 main_v152 (mulf : (⟨S50000x64, .f32⟩ : BufTy).Contents (Elt F) → (⟨S50000x64, .f32⟩ : BufTy).Contents (Elt F) → (⟨S50000x64, .f32⟩ : BufTy).Contents (Elt F))
  :: StableHlo.unary main_v94 main_v153 (broadcastInDim S1x64 ![1] bcast_S64_S1x64_1 : (⟨S64, .f32⟩ : BufTy).Contents (Elt F) → (⟨S1x64, .f32⟩ : BufTy).Contents (Elt F))
  :: StableHlo.unary main_v153 main_v154 (broadcastInDim S50000x64 ![0, 1] bcast_S1x64_S50000x64_0_1 : (⟨S1x64, .f32⟩ : BufTy).Contents (Elt F) → (⟨S50000x64, .f32⟩ : BufTy).Contents (Elt F))
  :: StableHlo.binary main_v152 main_v154 main_v155 (mulf : (⟨S50000x64, .f32⟩ : BufTy).Contents (Elt F) → (⟨S50000x64, .f32⟩ : BufTy).Contents (Elt F) → (⟨S50000x64, .f32⟩ : BufTy).Contents (Elt F))
  :: StableHlo.unary main_v96 main_v156 (broadcastInDim S1x64 ![1] bcast_S64_S1x64_1 : (⟨S64, .f32⟩ : BufTy).Contents (Elt F) → (⟨S1x64, .f32⟩ : BufTy).Contents (Elt F))
  :: StableHlo.unary main_v156 main_v157 (broadcastInDim S50000x64 ![0, 1] bcast_S1x64_S50000x64_0_1 : (⟨S1x64, .f32⟩ : BufTy).Contents (Elt F) → (⟨S50000x64, .f32⟩ : BufTy).Contents (Elt F))
  :: StableHlo.binary main_v155 main_v157 main_v158 (addf : (⟨S50000x64, .f32⟩ : BufTy).Contents (Elt F) → (⟨S50000x64, .f32⟩ : BufTy).Contents (Elt F) → (⟨S50000x64, .f32⟩ : BufTy).Contents (Elt F))
  :: StableHlo.binary main_v158 main_v27 main_v159 (cat_main_v159 : (⟨S50000x64, .f32⟩ : BufTy).Contents (Elt F) → (⟨S50000x64, .f32⟩ : BufTy).Contents (Elt F) → (⟨S50000x128, .f32⟩ : BufTy).Contents (Elt F))
  :: StableHlo.reshape main_v100 main_v160 rfl shapeCasts_S64_S1x64
  :: StableHlo.reshape main_v104 main_v161 rfl shapeCasts_S64_S1x64
  :: [] )

theorem hostOps3n_eq : (hostOps3 (F := F)) = hostOps3n := rfl

set_option maxHeartbeats 4000000 in
/-- `main_v159` after the stretch, from the live-in buffers' values. -/
theorem s3_main_v159 (W : Valuation τ sig (Elt Ideal)) (V0' : Valuation Cert.ReferenceIdeal.τ Cert.ReferenceIdeal.sig (Elt Ideal))
    (h_main_v27 : W (Proc.devRef .tc main_v27) = Cert.ReferenceIdeal.Value.res_main_v36 V0')
    (h_main_v96 : W (Proc.devRef .tc main_v96) = Cert.ReferenceIdeal.RefValue.t_main_v114 V0')
    (h_main_v94 : W (Proc.devRef .tc main_v94) = Cert.ReferenceIdeal.RefValue.t_main_v112 V0')
    (h_main_v82 : W (Proc.devRef .tc main_v82) = Cert.ReferenceIdeal.Value.res_main_v100 V0')
    (h_main_v122 : W (Proc.devRef .tc main_v122) = Cert.ReferenceIdeal.RefValue.t_main_v147 V0') :
    StableHlo.after (hostOps3 (F := Ideal)) W (Proc.devRef .tc main_v159) = Cert.ReferenceIdeal.RefValue.t_main_v184 V0' := by
  rw [hostOps3n_eq]
  simp only [hostOps3n]
  after_results_simp
  try dsimp only [Matrix.cons_val]
  try after_results_simp
  simp only [h_main_v27, h_main_v96, h_main_v94, h_main_v82, h_main_v122] <;> rfl

set_option maxHeartbeats 4000000 in
/-- `main_v160` after the stretch, from the live-in buffers' values. -/
theorem s3_main_v160 (W : Valuation τ sig (Elt Ideal)) (V0' : Valuation Cert.ReferenceIdeal.τ Cert.ReferenceIdeal.sig (Elt Ideal))
    (h_main_v100 : W (Proc.devRef .tc main_v100) = Cert.ReferenceIdeal.RefValue.t_main_v118 V0') :
    StableHlo.after (hostOps3 (F := Ideal)) W (Proc.devRef .tc main_v160) = shapeCast _ (Cert.ReferenceIdeal.RefValue.t_main_v118 V0') shapeCasts_S64_S1x64 := by
  rw [hostOps3n_eq]
  simp only [hostOps3n]
  after_results_simp
  try dsimp only [Matrix.cons_val]
  try after_results_simp
  simp only [h_main_v100] <;> rfl

set_option maxHeartbeats 4000000 in
/-- `main_v161` after the stretch, from the live-in buffers' values. -/
theorem s3_main_v161 (W : Valuation τ sig (Elt Ideal)) (V0' : Valuation Cert.ReferenceIdeal.τ Cert.ReferenceIdeal.sig (Elt Ideal))
    (h_main_v104 : W (Proc.devRef .tc main_v104) = Cert.ReferenceIdeal.RefValue.t_main_v122 V0') :
    StableHlo.after (hostOps3 (F := Ideal)) W (Proc.devRef .tc main_v161) = shapeCast _ (Cert.ReferenceIdeal.RefValue.t_main_v122 V0') shapeCasts_S64_S1x64 := by
  rw [hostOps3n_eq]
  simp only [hostOps3n]
  after_results_simp
  try dsimp only [Matrix.cons_val]
  try after_results_simp
  simp only [h_main_v104] <;> rfl

end Cert.KernelIdeal.Frm

end
-- ==== Proof.IdealChain3.lean ====
/-
  The kernel's buffers at the boundaries 6 and 7 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain2
import proofs.«181157_j5506148073958_2_alg».proof.Proof.IdealFinal2
import proofs.«181157_j5506148073958_2_alg».proof.Proof.IdealStretch3

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 6 -/

theorem L6_main_arg17 (hag : Agree m ρ c V0') : W6 m ρ c (Proc.devRef .tc main_arg17) = Cert.ReferenceIdeal.RefValue.a17 V0' := (W6_of_ne m ρ c main_arg17 (by decide)).trans (L5_main_arg17 m ρ c V0' hag)

theorem L6_main_arg18 (hag : Agree m ρ c V0') : W6 m ρ c (Proc.devRef .tc main_arg18) = Cert.ReferenceIdeal.RefValue.a18 V0' := (W6_of_ne m ρ c main_arg18 (by decide)).trans (L5_main_arg18 m ρ c V0' hag)

theorem L6_main_arg19 (hag : Agree m ρ c V0') : W6 m ρ c (Proc.devRef .tc main_arg19) = Cert.ReferenceIdeal.RefValue.a19 V0' := (W6_of_ne m ρ c main_arg19 (by decide)).trans (L5_main_arg19 m ρ c V0' hag)

theorem L6_main_arg20 (hag : Agree m ρ c V0') : W6 m ρ c (Proc.devRef .tc main_arg20) = Cert.ReferenceIdeal.RefValue.a20 V0' := (W6_of_ne m ρ c main_arg20 (by decide)).trans (L5_main_arg20 m ρ c V0' hag)

theorem L6_main_arg21 (hag : Agree m ρ c V0') : W6 m ρ c (Proc.devRef .tc main_arg21) = Cert.ReferenceIdeal.RefValue.a21 V0' := (W6_of_ne m ρ c main_arg21 (by decide)).trans (L5_main_arg21 m ρ c V0' hag)

theorem L6_main_arg22 (hag : Agree m ρ c V0') : W6 m ρ c (Proc.devRef .tc main_arg22) = Cert.ReferenceIdeal.RefValue.a22 V0' := (W6_of_ne m ρ c main_arg22 (by decide)).trans (L5_main_arg22 m ρ c V0' hag)

theorem L6_main_arg23 (hag : Agree m ρ c V0') : W6 m ρ c (Proc.devRef .tc main_arg23) = Cert.ReferenceIdeal.RefValue.a23 V0' := (W6_of_ne m ρ c main_arg23 (by decide)).trans (L5_main_arg23 m ρ c V0' hag)

theorem L6_main_arg24 (hag : Agree m ρ c V0') : W6 m ρ c (Proc.devRef .tc main_arg24) = Cert.ReferenceIdeal.RefValue.a24 V0' := (W6_of_ne m ρ c main_arg24 (by decide)).trans (L5_main_arg24 m ρ c V0' hag)

theorem L6_main_arg25 (hag : Agree m ρ c V0') : W6 m ρ c (Proc.devRef .tc main_arg25) = Cert.ReferenceIdeal.RefValue.a25 V0' := (W6_of_ne m ρ c main_arg25 (by decide)).trans (L5_main_arg25 m ρ c V0' hag)

theorem L6_main_arg26 (hag : Agree m ρ c V0') : W6 m ρ c (Proc.devRef .tc main_arg26) = Cert.ReferenceIdeal.RefValue.a26 V0' := (W6_of_ne m ρ c main_arg26 (by decide)).trans (L5_main_arg26 m ρ c V0' hag)

theorem L6_main_v27 (hag : Agree m ρ c V0') : W6 m ρ c (Proc.devRef .tc main_v27) = Cert.ReferenceIdeal.Value.res_main_v36 V0' := (W6_of_ne m ρ c main_v27 (by decide)).trans (L5_main_v27 m ρ c V0' hag)

theorem L6_main_v80 (hag : Agree m ρ c V0') : W6 m ρ c (Proc.devRef .tc main_v80) = Cert.ReferenceIdeal.Value.res_main_v98 V0' := (W6_of_ne m ρ c main_v80 (by decide)).trans (L5_main_v80 m ρ c V0' hag)

theorem L6_main_v52 (hag : Agree m ρ c V0') : W6 m ρ c (Proc.devRef .tc main_v52) = Cert.ReferenceIdeal.Value.res_main_v61 V0' := (W6_of_ne m ρ c main_v52 (by decide)).trans (L5_main_v52 m ρ c V0' hag)

theorem L6_main_v82 (hag : Agree m ρ c V0') : W6 m ρ c (Proc.devRef .tc main_v82) = Cert.ReferenceIdeal.Value.res_main_v100 V0' := (W6_of_ne m ρ c main_v82 (by decide)).trans (L5_main_v82 m ρ c V0' hag)

theorem L6_main_v122 (hag : Agree m ρ c V0') : W6 m ρ c (Proc.devRef .tc main_v122) = Cert.ReferenceIdeal.RefValue.t_main_v147 V0' := by
  refine (W6_arr m ρ c 5).trans ?_
  refine (final2 (V5 m ρ) c).trans ?_
  unfold G2
  have h0 : V5 m ρ c main_v119 = Cert.ReferenceIdeal.RefValue.t_main_v137 V0' := (L5_main_v119 m ρ c V0' hag)
  have hW0 : V5 m ρ c main_v86 = Cert.ReferenceIdeal.RefValue.t_main_v104 V0' := (L5_main_v86 m ρ c V0' hag)
  have hb0 : Cert.LibRowBias.rowOf (V5 m ρ c main_v120) = Cert.ReferenceIdeal.RefValue.t_main_v106 V0' := by
    rw [show V5 m ρ c main_v120 = shapeCast _ (Cert.ReferenceIdeal.RefValue.t_main_v106 V0') shapeCasts_S64_S1x64 from (L5_main_v120 m ρ c V0' hag)]
    exact Cert.LibRowBias.rowOf_shapeCast _ _
  have hW1 : V5 m ρ c main_v90 = Cert.ReferenceIdeal.RefValue.t_main_v108 V0' := (L5_main_v90 m ρ c V0' hag)
  have hb1 : Cert.LibRowBias.rowOf (V5 m ρ c main_v121) = Cert.ReferenceIdeal.RefValue.t_main_v110 V0' := by
    rw [show V5 m ρ c main_v121 = shapeCast _ (Cert.ReferenceIdeal.RefValue.t_main_v110 V0') shapeCasts_S64_S1x64 from (L5_main_v121 m ρ c V0' hag)]
    exact Cert.LibRowBias.rowOf_shapeCast _ _
  rw [h0, hW0, hb0, hW1, hb1]
  exact (Cert.ReferenceIdeal.RefValue.stage2_ref V0').symm

theorem L6_main_v94 (hag : Agree m ρ c V0') : W6 m ρ c (Proc.devRef .tc main_v94) = Cert.ReferenceIdeal.RefValue.t_main_v112 V0' := (W6_of_ne m ρ c main_v94 (by decide)).trans (L5_main_v94 m ρ c V0' hag)

theorem L6_main_v96 (hag : Agree m ρ c V0') : W6 m ρ c (Proc.devRef .tc main_v96) = Cert.ReferenceIdeal.RefValue.t_main_v114 V0' := (W6_of_ne m ρ c main_v96 (by decide)).trans (L5_main_v96 m ρ c V0' hag)

theorem L6_main_v100 (hag : Agree m ρ c V0') : W6 m ρ c (Proc.devRef .tc main_v100) = Cert.ReferenceIdeal.RefValue.t_main_v118 V0' := (W6_of_ne m ρ c main_v100 (by decide)).trans (L5_main_v100 m ρ c V0' hag)

theorem L6_main_v104 (hag : Agree m ρ c V0') : W6 m ρ c (Proc.devRef .tc main_v104) = Cert.ReferenceIdeal.RefValue.t_main_v122 V0' := (W6_of_ne m ρ c main_v104 (by decide)).trans (L5_main_v104 m ρ c V0' hag)

theorem L6_main_v98 (hag : Agree m ρ c V0') : W6 m ρ c (Proc.devRef .tc main_v98) = Cert.ReferenceIdeal.RefValue.t_main_v116 V0' := (W6_of_ne m ρ c main_v98 (by decide)).trans (L5_main_v98 m ρ c V0' hag)

theorem L6_main_v102 (hag : Agree m ρ c V0') : W6 m ρ c (Proc.devRef .tc main_v102) = Cert.ReferenceIdeal.RefValue.t_main_v120 V0' := (W6_of_ne m ρ c main_v102 (by decide)).trans (L5_main_v102 m ρ c V0' hag)

theorem L6_main_v84 (hag : Agree m ρ c V0') : W6 m ρ c (Proc.devRef .tc main_v84) = Cert.ReferenceIdeal.Value.res_main_v102 V0' := (W6_of_ne m ρ c main_v84 (by decide)).trans (L5_main_v84 m ρ c V0' hag)

theorem L6_main_arg27 (hag : Agree m ρ c V0') : W6 m ρ c (Proc.devRef .tc main_arg27) = Cert.ReferenceIdeal.RefValue.a27 V0' := (W6_of_ne m ρ c main_arg27 (by decide)).trans (L5_main_arg27 m ρ c V0' hag)

theorem L6_main_arg28 (hag : Agree m ρ c V0') : W6 m ρ c (Proc.devRef .tc main_arg28) = Cert.ReferenceIdeal.RefValue.a28 V0' := (W6_of_ne m ρ c main_arg28 (by decide)).trans (L5_main_arg28 m ρ c V0' hag)

theorem L6_main_arg29 (hag : Agree m ρ c V0') : W6 m ρ c (Proc.devRef .tc main_arg29) = Cert.ReferenceIdeal.RefValue.a29 V0' := (W6_of_ne m ρ c main_arg29 (by decide)).trans (L5_main_arg29 m ρ c V0' hag)

theorem L6_main_arg31 (hag : Agree m ρ c V0') : W6 m ρ c (Proc.devRef .tc main_arg31) = Cert.ReferenceIdeal.RefValue.a31 V0' := (W6_of_ne m ρ c main_arg31 (by decide)).trans (L5_main_arg31 m ρ c V0' hag)

theorem L6_main_arg33 (hag : Agree m ρ c V0') : W6 m ρ c (Proc.devRef .tc main_arg33) = Cert.ReferenceIdeal.RefValue.a33 V0' := (W6_of_ne m ρ c main_arg33 (by decide)).trans (L5_main_arg33 m ρ c V0' hag)

theorem L6_main_arg35 (hag : Agree m ρ c V0') : W6 m ρ c (Proc.devRef .tc main_arg35) = Cert.ReferenceIdeal.RefValue.a35 V0' := (W6_of_ne m ρ c main_arg35 (by decide)).trans (L5_main_arg35 m ρ c V0' hag)

theorem L6_main_arg30 (hag : Agree m ρ c V0') : W6 m ρ c (Proc.devRef .tc main_arg30) = Cert.ReferenceIdeal.RefValue.a30 V0' := (W6_of_ne m ρ c main_arg30 (by decide)).trans (L5_main_arg30 m ρ c V0' hag)

theorem L6_main_arg32 (hag : Agree m ρ c V0') : W6 m ρ c (Proc.devRef .tc main_arg32) = Cert.ReferenceIdeal.RefValue.a32 V0' := (W6_of_ne m ρ c main_arg32 (by decide)).trans (L5_main_arg32 m ρ c V0' hag)

theorem L6_main_arg34 (hag : Agree m ρ c V0') : W6 m ρ c (Proc.devRef .tc main_arg34) = Cert.ReferenceIdeal.RefValue.a34 V0' := (W6_of_ne m ρ c main_arg34 (by decide)).trans (L5_main_arg34 m ρ c V0' hag)

/-! ## Boundary 7 -/

theorem L7_main_arg17 (hag : Agree m ρ c V0') : W7 m ρ c (Proc.devRef .tc main_arg17) = Cert.ReferenceIdeal.RefValue.a17 V0' := (W7_of m ρ c main_arg17 (by decide)).trans (L6_main_arg17 m ρ c V0' hag)

theorem L7_main_arg18 (hag : Agree m ρ c V0') : W7 m ρ c (Proc.devRef .tc main_arg18) = Cert.ReferenceIdeal.RefValue.a18 V0' := (W7_of m ρ c main_arg18 (by decide)).trans (L6_main_arg18 m ρ c V0' hag)

theorem L7_main_arg19 (hag : Agree m ρ c V0') : W7 m ρ c (Proc.devRef .tc main_arg19) = Cert.ReferenceIdeal.RefValue.a19 V0' := (W7_of m ρ c main_arg19 (by decide)).trans (L6_main_arg19 m ρ c V0' hag)

theorem L7_main_arg20 (hag : Agree m ρ c V0') : W7 m ρ c (Proc.devRef .tc main_arg20) = Cert.ReferenceIdeal.RefValue.a20 V0' := (W7_of m ρ c main_arg20 (by decide)).trans (L6_main_arg20 m ρ c V0' hag)

theorem L7_main_arg21 (hag : Agree m ρ c V0') : W7 m ρ c (Proc.devRef .tc main_arg21) = Cert.ReferenceIdeal.RefValue.a21 V0' := (W7_of m ρ c main_arg21 (by decide)).trans (L6_main_arg21 m ρ c V0' hag)

theorem L7_main_arg22 (hag : Agree m ρ c V0') : W7 m ρ c (Proc.devRef .tc main_arg22) = Cert.ReferenceIdeal.RefValue.a22 V0' := (W7_of m ρ c main_arg22 (by decide)).trans (L6_main_arg22 m ρ c V0' hag)

theorem L7_main_arg23 (hag : Agree m ρ c V0') : W7 m ρ c (Proc.devRef .tc main_arg23) = Cert.ReferenceIdeal.RefValue.a23 V0' := (W7_of m ρ c main_arg23 (by decide)).trans (L6_main_arg23 m ρ c V0' hag)

theorem L7_main_arg24 (hag : Agree m ρ c V0') : W7 m ρ c (Proc.devRef .tc main_arg24) = Cert.ReferenceIdeal.RefValue.a24 V0' := (W7_of m ρ c main_arg24 (by decide)).trans (L6_main_arg24 m ρ c V0' hag)

theorem L7_main_arg25 (hag : Agree m ρ c V0') : W7 m ρ c (Proc.devRef .tc main_arg25) = Cert.ReferenceIdeal.RefValue.a25 V0' := (W7_of m ρ c main_arg25 (by decide)).trans (L6_main_arg25 m ρ c V0' hag)

theorem L7_main_arg26 (hag : Agree m ρ c V0') : W7 m ρ c (Proc.devRef .tc main_arg26) = Cert.ReferenceIdeal.RefValue.a26 V0' := (W7_of m ρ c main_arg26 (by decide)).trans (L6_main_arg26 m ρ c V0' hag)

theorem L7_main_v80 (hag : Agree m ρ c V0') : W7 m ρ c (Proc.devRef .tc main_v80) = Cert.ReferenceIdeal.Value.res_main_v98 V0' := (W7_of m ρ c main_v80 (by decide)).trans (L6_main_v80 m ρ c V0' hag)

theorem L7_main_v52 (hag : Agree m ρ c V0') : W7 m ρ c (Proc.devRef .tc main_v52) = Cert.ReferenceIdeal.Value.res_main_v61 V0' := (W7_of m ρ c main_v52 (by decide)).trans (L6_main_v52 m ρ c V0' hag)

theorem L7_main_v82 (hag : Agree m ρ c V0') : W7 m ρ c (Proc.devRef .tc main_v82) = Cert.ReferenceIdeal.Value.res_main_v100 V0' := (W7_of m ρ c main_v82 (by decide)).trans (L6_main_v82 m ρ c V0' hag)

theorem L7_main_v159 (hag : Agree m ρ c V0') : W7 m ρ c (Proc.devRef .tc main_v159) = Cert.ReferenceIdeal.RefValue.t_main_v184 V0' := s3_main_v159 (W6 m ρ c) V0' (L6_main_v27 m ρ c V0' hag) (L6_main_v96 m ρ c V0' hag) (L6_main_v94 m ρ c V0' hag) (L6_main_v82 m ρ c V0' hag) (L6_main_v122 m ρ c V0' hag)

theorem L7_main_v98 (hag : Agree m ρ c V0') : W7 m ρ c (Proc.devRef .tc main_v98) = Cert.ReferenceIdeal.RefValue.t_main_v116 V0' := (W7_of m ρ c main_v98 (by decide)).trans (L6_main_v98 m ρ c V0' hag)

theorem L7_main_v160 (hag : Agree m ρ c V0') : W7 m ρ c (Proc.devRef .tc main_v160) = shapeCast _ (Cert.ReferenceIdeal.RefValue.t_main_v118 V0') shapeCasts_S64_S1x64 := s3_main_v160 (W6 m ρ c) V0' (L6_main_v100 m ρ c V0' hag)

theorem L7_main_v102 (hag : Agree m ρ c V0') : W7 m ρ c (Proc.devRef .tc main_v102) = Cert.ReferenceIdeal.RefValue.t_main_v120 V0' := (W7_of m ρ c main_v102 (by decide)).trans (L6_main_v102 m ρ c V0' hag)

theorem L7_main_v161 (hag : Agree m ρ c V0') : W7 m ρ c (Proc.devRef .tc main_v161) = shapeCast _ (Cert.ReferenceIdeal.RefValue.t_main_v122 V0') shapeCasts_S64_S1x64 := s3_main_v161 (W6 m ρ c) V0' (L6_main_v104 m ρ c V0' hag)

theorem L7_main_v84 (hag : Agree m ρ c V0') : W7 m ρ c (Proc.devRef .tc main_v84) = Cert.ReferenceIdeal.Value.res_main_v102 V0' := (W7_of m ρ c main_v84 (by decide)).trans (L6_main_v84 m ρ c V0' hag)

theorem L7_main_arg27 (hag : Agree m ρ c V0') : W7 m ρ c (Proc.devRef .tc main_arg27) = Cert.ReferenceIdeal.RefValue.a27 V0' := (W7_of m ρ c main_arg27 (by decide)).trans (L6_main_arg27 m ρ c V0' hag)

theorem L7_main_arg28 (hag : Agree m ρ c V0') : W7 m ρ c (Proc.devRef .tc main_arg28) = Cert.ReferenceIdeal.RefValue.a28 V0' := (W7_of m ρ c main_arg28 (by decide)).trans (L6_main_arg28 m ρ c V0' hag)

theorem L7_main_arg29 (hag : Agree m ρ c V0') : W7 m ρ c (Proc.devRef .tc main_arg29) = Cert.ReferenceIdeal.RefValue.a29 V0' := (W7_of m ρ c main_arg29 (by decide)).trans (L6_main_arg29 m ρ c V0' hag)

theorem L7_main_arg31 (hag : Agree m ρ c V0') : W7 m ρ c (Proc.devRef .tc main_arg31) = Cert.ReferenceIdeal.RefValue.a31 V0' := (W7_of m ρ c main_arg31 (by decide)).trans (L6_main_arg31 m ρ c V0' hag)

theorem L7_main_arg33 (hag : Agree m ρ c V0') : W7 m ρ c (Proc.devRef .tc main_arg33) = Cert.ReferenceIdeal.RefValue.a33 V0' := (W7_of m ρ c main_arg33 (by decide)).trans (L6_main_arg33 m ρ c V0' hag)

theorem L7_main_arg35 (hag : Agree m ρ c V0') : W7 m ρ c (Proc.devRef .tc main_arg35) = Cert.ReferenceIdeal.RefValue.a35 V0' := (W7_of m ρ c main_arg35 (by decide)).trans (L6_main_arg35 m ρ c V0' hag)

theorem L7_main_arg30 (hag : Agree m ρ c V0') : W7 m ρ c (Proc.devRef .tc main_arg30) = Cert.ReferenceIdeal.RefValue.a30 V0' := (W7_of m ρ c main_arg30 (by decide)).trans (L6_main_arg30 m ρ c V0' hag)

theorem L7_main_arg32 (hag : Agree m ρ c V0') : W7 m ρ c (Proc.devRef .tc main_arg32) = Cert.ReferenceIdeal.RefValue.a32 V0' := (W7_of m ρ c main_arg32 (by decide)).trans (L6_main_arg32 m ρ c V0' hag)

theorem L7_main_arg34 (hag : Agree m ρ c V0') : W7 m ρ c (Proc.devRef .tc main_arg34) = Cert.ReferenceIdeal.RefValue.a34 V0' := (W7_of m ρ c main_arg34 (by decide)).trans (L6_main_arg34 m ρ c V0' hag)

end Cert.KernelIdeal.Frm

end
-- ==== Proof.IdealFinal3.lean ====
/-
  What region 3 leaves in its output array, at the extended reals: the rectified layer followed by a layer of the
  WHOLE input array. Point t loads rows 5000·t … 5000·t + 4999 of the input and the whole weight matrices and one-row biases,
  and writes back the stage of that block of rows; row p of a stage depends only on row p of its input, so what point t
  writes back is rows 5000·t … of the stage of the whole array; the 10 blocks tile the 50000 rows.
-/
import proofs.«181157_j5506148073958_2_alg».proof.Proof.IdealRegion3
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz3 : (![0, 0] : Fin 2 → Nat) = fun _ => 0 := funext fun a => by fin_cases a <;> rfl

/-- The stage of the whole arrays as the region finds them. -/
def G3 (c : Dev nD) : S50000x64.Idx → EReal :=
  ra (V c main_v159) (V c main_v98) (rowOf (V c main_v160)) (V c main_v102) (rowOf (V c main_v161))

/-- The printed index maps, decided over the grid: the input rows' window moves with the output's, every other window
    stays at block 0, and the output's block index stays in range. -/
theorem idx_facts3 : ∀ t : Fin cfg3.N, win3_0.index t (0 : Fin 2) = win3_5.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (1 : Fin 2) = 0
    ∧ win3_5.index t (0 : Fin 2) ≤ 9 :=
  (by decide +kernel : ∀ t : Fin grid3.N, _)

/-- Every block of rows is some point's. -/
theorem idx_onto3 : ∀ q0 : Fin 10, ∃ t : Fin cfg3.N, win3_5.index t = ![q0.val, 0] :=
  (by decide +kernel : ∀ q0 : Fin 10, ∃ t : Fin grid3.N, win3_5.index t = ![q0.val, 0])

/-- What point t writes back is block t of the stage of the whole arrays. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero hz3]
  simp only [View.ld_unit_zero (S := S5000x128) hz3, View.ld_unit_zero (S := S128x64) hz3, View.ld_unit_zero (S := S1x64) hz3, View.ld_unit_zero (S := S64x64) hz3]
  obtain ⟨e0, e1, e2, e3, e4, e5, e6, e7, e8, e9, e10, e11⟩ := idx_facts3 t
  have hw1 : iblk3 V c 1 t = V c main_v98 := by
    funext y
    show V c main_v98 (((cfg3.win 1).blk t).view.emb y) = V c main_v98 y
    refine congrArg _ ?_
    funext a; apply Fin.ext
    match a with
    | ⟨0, _⟩ => show win3_1.index t (0 : Fin 2) * 128 + 1 * (y 0).val = (y 0).val; omega
    | ⟨1, _⟩ => show win3_1.index t (1 : Fin 2) * 64 + 1 * (y 1).val = (y 1).val; omega
  have hw2 : iblk3 V c 2 t = V c main_v160 := by
    funext y
    show V c main_v160 (((cfg3.win 2).blk t).view.emb y) = V c main_v160 y
    refine congrArg _ ?_
    funext a; apply Fin.ext
    match a with
    | ⟨0, _⟩ => show win3_2.index t (0 : Fin 2) * 1 + 1 * (y 0).val = (y 0).val; omega
    | ⟨1, _⟩ => show win3_2.index t (1 : Fin 2) * 64 + 1 * (y 1).val = (y 1).val; omega
  have hw3 : iblk3 V c 3 t = V c main_v102 := by
    funext y
    show V c main_v102 (((cfg3.win 3).blk t).view.emb y) = V c main_v102 y
    refine congrArg _ ?_
    funext a; apply Fin.ext
    match a with
    | ⟨0, _⟩ => show win3_3.index t (0 : Fin 2) * 64 + 1 * (y 0).val = (y 0).val; omega
    | ⟨1, _⟩ => show win3_3.index t (1 : Fin 2) * 64 + 1 * (y 1).val = (y 1).val; omega
  have hw4 : iblk3 V c 4 t = V c main_v161 := by
    funext y
    show V c main_v161 (((cfg3.win 4).blk t).view.emb y) = V c main_v161 y
    refine congrArg _ ?_
    funext a; apply Fin.ext
    match a with
    | ⟨0, _⟩ => show win3_4.index t (0 : Fin 2) * 1 + 1 * (y 0).val = (y 0).val; omega
    | ⟨1, _⟩ => show win3_4.index t (1 : Fin 2) * 64 + 1 * (y 1).val = (y 1).val; omega
  funext j
  obtain ⟨p, q, rfl⟩ : ∃ (p : Fin 5000) (q : Fin 64), j = ix2 p q := ⟨j 0, j 1, eq_ix2 j⟩
  refine (pay3_apply (iblk3 V c 0 t) (iblk3 V c 1 t) (iblk3 V c 2 t) (iblk3 V c 3 t) (iblk3 V c 4 t) p q).trans ?_
  rw [hw1, hw2, hw3, hw4]
  have hp : p.val < 5000 := p.isLt
  have hrow : win3_5.index t (0 : Fin 2) * 5000 + p.val < 50000 := by omega
  have hemb : ((cfg3.win 5).blk t).view.emb (ix2 p q) = ix2 (⟨win3_5.index t (0 : Fin 2) * 5000 + p.val, hrow⟩ : Fin 50000) q := by
    funext a; apply Fin.ext
    match a with
    | ⟨0, _⟩ => show win3_5.index t (0 : Fin 2) * 5000 + 1 * p.val = win3_5.index t (0 : Fin 2) * 5000 + p.val; omega
    | ⟨1, _⟩ => show win3_5.index t (1 : Fin 2) * 64 + 1 * q.val = q.val; omega
  show ra (iblk3 V c 0 t) _ _ _ _ (ix2 p q) = G3 V c (((cfg3.win 5).blk t).view.emb (ix2 p q))
  rw [hemb]
  refine ra_row _ _ _ _ _ _ p _ (fun k => ?_) q
  show V c main_v159 (((cfg3.win 0).blk t).view.emb (ix2 p k)) = V c main_v159 (ix2 (⟨win3_5.index t (0 : Fin 2) * 5000 + p.val, hrow⟩ : Fin 50000) k)
  refine congrArg _ ?_
  funext a; apply Fin.ext
  match a with
  | ⟨0, _⟩ => show win3_0.index t (0 : Fin 2) * 5000 + 1 * p.val = win3_5.index t (0 : Fin 2) * 5000 + p.val; omega
  | ⟨1, _⟩ => show win3_0.index t (1 : Fin 2) * 128 + 1 * k.val = k.val; omega

/-- An index of the output array is in point t's block iff its row is in the block's range. -/
theorem mem_blk3 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v162).slice (win3_5.rect t)).set ↔ _
  rw [View.set_slice_whole, Rect.mem_set_unit]
  exact Iff.rfl

/-- The blocks cover the output array. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The output array after the region: the stage of the whole arrays. -/
theorem final3 (c : Dev nD) : (dat3 (F := Ideal) V c).arrAt 5 cfg3.N = G3 V c :=
  (dat3 (F := Ideal) V c).arrAt_eq_of_cover 5 (G3 V c) (fun t _ => flushed3_eq V c t) (cover3)

end Cert.KernelIdeal.Frm

end
-- ==== Proof.IdealStretch4.lean ====
/-
  Host stretch 4 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v197`, as a function of its 3 operands. -/
def cat_main_v197 (a : (main_v189 : Ref sig .tc).ty.Contents (Elt F)) (b : (main_v52 : Ref sig .tc).ty.Contents (Elt F)) (c : (main_v196 : Ref sig .tc).ty.Contents (Elt F)) : (main_v197 : Ref sig .tc).ty.Contents (Elt F) :=
  concatenate S600000x129 1 [⟨S600000x64, a⟩, ⟨S600000x1, b⟩, ⟨S600000x64, c⟩] concatenates_S600000x64_S600000x1_S600000x64_S600000x129_d1

/-- The stretch's operations with each concatenation's function named (evaluation then goes on into a concatenation's
    operands instead of stopping at the list of pairs that holds them). -/
abbrev hostOps4n : List (HloOp τ sig (Elt F)) :=
  ( StableHlo.unary main_arg17 main_v163 ((extractStridedSlice S1x129x64 ![1, 0, 0] · slices_S4x129x64_S1x129x64_1_0_0) : (⟨S4x129x64, .f32⟩ : BufTy).Contents (Elt F) → (⟨S1x129x64, .f32⟩ : BufTy).Contents (Elt F))
  :: StableHlo.reshape main_v163 main_v164 rfl shapeCasts_S1x129x64_S129x64
  :: StableHlo.unary main_arg18 main_v165 ((extractStridedSlice S1x64 ![1, 0] · slices_S4x64_S1x64_1_0) : (⟨S4x64, .f32⟩ : BufTy).Contents (Elt F) → (⟨S1x64, .f32⟩ : BufTy).Contents (Elt F))
  :: StableHlo.reshape main_v165 main_v166 rfl shapeCasts_S1x64_S64
  :: StableHlo.unary main_arg19 main_v167 ((extractStridedSlice S1x64x64 ![1, 0, 0] · slices_S4x64x64_S1x64x64_1_0_0) : (⟨S4x64x64, .f32⟩ : BufTy).Contents (Elt F) → (⟨S1x64x64, .f32⟩ : BufTy).Contents (Elt F))
  :: StableHlo.reshape main_v167 main_v168 rfl shapeCasts_S1x64x64_S64x64
  :: StableHlo.unary main_arg20 main_v169 ((extractStridedSlice S1x64 ![1, 0] · slices_S4x64_S1x64_1_0) : (⟨S4x64, .f32⟩ : BufTy).Contents (Elt F) → (⟨S1x64, .f32⟩ : BufTy).Contents (Elt F))
  :: StableHlo.reshape main_v169 main_v170 rfl shapeCasts_S1x64_S64
  :: StableHlo.unary main_arg21 main_v171 ((extractStridedSlice S1x64 ![1, 0] · slices_S4x64_S1x64_1_0) : (⟨S4x64, .f32⟩ : BufTy).Contents (Elt F) → (⟨S1x64, .f32⟩ : BufTy).Contents (Elt F))
  :: StableHlo.reshape main_v171 main_v172 rfl shapeCasts_S1x64_S64
  :: StableHlo.unary main_arg22 main_v173 ((extractStridedSlice S1x64 ![1, 0] · slices_S4x64_S1x64_1_0) : (⟨S4x64, .f32⟩ : BufTy).Contents (Elt F) → (⟨S1x64, .f32⟩ : BufTy).Contents (Elt F))
  :: StableHlo.reshape main_v173 main_v174 rfl shapeCasts_S1x64_S64
  :: StableHlo.unary main_arg23 main_v175 ((extractStridedSlice S1x128x64 ![1, 0, 0] · slices_S4x128x64_S1x128x64_1_0_0) : (⟨S4x128x64, .f32⟩ : BufTy).Contents (Elt F) → (⟨S1x128x64, .f32⟩ : BufTy).Contents (Elt F))
  :: StableHlo.reshape main_v175 main_v176 rfl shapeCasts_S1x128x64_S128x64
  :: StableHlo.unary main_arg24 main_v177 ((extractStridedSlice S1x64 ![1, 0] · slices_S4x64_S1x64_1_0) : (⟨S4x64, .f32⟩ : BufTy).Contents (Elt F) → (⟨S1x64, .f32⟩ : BufTy).Contents (Elt F))
  :: StableHlo.reshape main_v177 main_v178 rfl shapeCasts_S1x64_S64
  :: StableHlo.unary main_arg25 main_v179 ((extractStridedSlice S1x64x64 ![1, 0, 0] · slices_S4x64x64_S1x64x64_1_0_0) : (⟨S4x64x64, .f32⟩ : BufTy).Contents (Elt F) → (⟨S1x64x64, .f32⟩ : BufTy).Contents (Elt F))
  :: StableHlo.reshape main_v179 main_v180 rfl shapeCasts_S1x64x64_S64x64
  :: StableHlo.unary main_arg26 main_v181 ((extractStridedSlice S1x64 ![1, 0] · slices_S4x64_S1x64_1_0) : (⟨S4x64, .f32⟩ : BufTy).Contents (Elt F) → (⟨S1x64, .f32⟩ : BufTy).Contents (Elt F))
  :: StableHlo.reshape main_v181 main_v182 rfl shapeCasts_S1x64_S64
  :: StableHlo.nullary main_c_26 (constantI S_ 32 0#32)
  :: StableHlo.unary main_c_26 main_v183 (broadcastInDim S600000 ![] bcast_S_S600000 : (⟨S_, .i32⟩ : BufTy).Contents (Elt F) → (⟨S600000, .i32⟩ : BufTy).Contents (Elt F))
  :: StableHlo.binary main_v84 main_v183 main_v184 (cmpi .slt : (⟨S600000, .i32⟩ : BufTy).Contents (Elt F) → (⟨S600000, .i32⟩ : BufTy).Contents (Elt F) → (⟨S600000, .i1⟩ : BufTy).Contents (Elt F))
  :: StableHlo.nullary main_c_27 (constantI S_ 32 50000#32)
  :: StableHlo.unary main_c_27 main_v185 (broadcastInDim S600000 ![] bcast_S_S600000 : (⟨S_, .i32⟩ : BufTy).Contents (Elt F) → (⟨S600000, .i32⟩ : BufTy).Contents (Elt F))
  :: StableHlo.binary main_v84 main_v185 main_v186 (addi : (⟨S600000, .i32⟩ : BufTy).Contents (Elt F) → (⟨S600000, .i32⟩ : BufTy).Contents (Elt F) → (⟨S600000, .i32⟩ : BufTy).Contents (Elt F))
  :: StableHlo.ternary main_v184 main_v186 main_v84 main_v187 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v187 main_v188 (broadcastInDim S600000x1 ![0] bcast_S600000_S600000x1_0 : (⟨S600000, .i32⟩ : BufTy).Contents (Elt F) → (⟨S600000x1, .i32⟩ : BufTy).Contents (Elt F))
  :: StableHlo.binary main_v80 main_v188 main_v189 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F))
  :: StableHlo.nullary main_c_28 (constantI S_ 32 0#32)
  :: StableHlo.unary main_c_28 main_v190 (broadcastInDim S600000 ![] bcast_S_S600000 : (⟨S_, .i32⟩ : BufTy).Contents (Elt F) → (⟨S600000, .i32⟩ : BufTy).Contents (Elt F))
  :: StableHlo.binary main_v82 main_v190 main_v191 (cmpi .slt : (⟨S600000, .i32⟩ : BufTy).Contents (Elt F) → (⟨S600000, .i32⟩ : BufTy).Contents (Elt F) → (⟨S600000, .i1⟩ : BufTy).Contents (Elt F))
  :: StableHlo.nullary main_c_29 (constantI S_ 32 50000#32)
  :: StableHlo.unary main_c_29 main_v192 (broadcastInDim S600000 ![] bcast_S_S600000 : (⟨S_, .i32⟩ : BufTy).Contents (Elt F) → (⟨S600000, .i32⟩ : BufTy).Contents (Elt F))
  :: StableHlo.binary main_v82 main_v192 main_v193 (addi : (⟨S600000, .i32⟩ : BufTy).Contents (Elt F) → (⟨S600000, .i32⟩ : BufTy).Contents (Elt F) → (⟨S600000, .i32⟩ : BufTy).Contents (Elt F))
  :: StableHlo.ternary main_v191 main_v193 main_v82 main_v194 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v194 main_v195 (broadcastInDim S600000x1 ![0] bcast_S600000_S600000x1_0 : (⟨S600000, .i32⟩ : BufTy).Contents (Elt F) → (⟨S600000x1, .i32⟩ : BufTy).Contents (Elt F))
  :: StableHlo.binary main_v162 main_v195 main_v196 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F))
  :: StableHlo.nary ![main_v189, main_v52, main_v196] main_v197 (fun u => cat_main_v197 (u 0) (u 1) (u 2))
  :: StableHlo.reshape main_v166 main_v198 rfl shapeCasts_S64_S1x64
  :: StableHlo.reshape main_v170 main_v199 rfl shapeCasts_S64_S1x64
  :: [] )

theorem hostOps4n_eq : (hostOps4 (F := F)) = hostOps4n := rfl

set_option maxHeartbeats 4000000 in
/-- `main_v197` after the stretch, from the live-in buffers' values. -/
theorem s4_main_v197 (W : Valuation τ sig (Elt Ideal)) (V0' : Valuation Cert.ReferenceIdeal.τ Cert.ReferenceIdeal.sig (Elt Ideal))
    (h_main_v82 : W (Proc.devRef .tc main_v82) = Cert.ReferenceIdeal.Value.res_main_v100 V0')
    (h_main_v162 : W (Proc.devRef .tc main_v162) = Cert.ReferenceIdeal.Value.res_main_v194 V0')
    (h_main_v52 : W (Proc.devRef .tc main_v52) = Cert.ReferenceIdeal.Value.res_main_v61 V0')
    (h_main_v84 : W (Proc.devRef .tc main_v84) = Cert.ReferenceIdeal.Value.res_main_v102 V0')
    (h_main_v80 : W (Proc.devRef .tc main_v80) = Cert.ReferenceIdeal.Value.res_main_v98 V0') :
    StableHlo.after (hostOps4 (F := Ideal)) W (Proc.devRef .tc main_v197) = Cert.ReferenceIdeal.RefValue.t_main_v229 V0' := by
  rw [hostOps4n_eq]
  simp only [hostOps4n]
  after_results_simp
  try dsimp only [Matrix.cons_val]
  try after_results_simp
  simp only [h_main_v82, h_main_v162, h_main_v52, h_main_v84, h_main_v80] <;> rfl

set_option maxHeartbeats 4000000 in
/-- `main_v164` after the stretch, from the live-in buffers' values. -/
theorem s4_main_v164 (W : Valuation τ sig (Elt Ideal)) (V0' : Valuation Cert.ReferenceIdeal.τ Cert.ReferenceIdeal.sig (Elt Ideal))
    (h_main_arg17 : W (Proc.devRef .tc main_arg17) = Cert.ReferenceIdeal.RefValue.a17 V0') :
    StableHlo.after (hostOps4 (F := Ideal)) W (Proc.devRef .tc main_v164) = Cert.ReferenceIdeal.RefValue.t_main_v196 V0' := by
  rw [hostOps4n_eq]
  simp only [hostOps4n]
  after_results_simp
  try dsimp only [Matrix.cons_val]
  try after_results_simp
  simp only [h_main_arg17] <;> rfl

set_option maxHeartbeats 4000000 in
/-- `main_v198` after the stretch, from the live-in buffers' values. -/
theorem s4_main_v198 (W : Valuation τ sig (Elt Ideal)) (V0' : Valuation Cert.ReferenceIdeal.τ Cert.ReferenceIdeal.sig (Elt Ideal))
    (h_main_arg18 : W (Proc.devRef .tc main_arg18) = Cert.ReferenceIdeal.RefValue.a18 V0') :
    StableHlo.after (hostOps4 (F := Ideal)) W (Proc.devRef .tc main_v198) = shapeCast _ (Cert.ReferenceIdeal.RefValue.t_main_v198 V0') shapeCasts_S64_S1x64 := by
  rw [hostOps4n_eq]
  simp only [hostOps4n]
  after_results_simp
  try dsimp only [Matrix.cons_val]
  try after_results_simp
  simp only [h_main_arg18] <;> rfl

set_option maxHeartbeats 4000000 in
/-- `main_v168` after the stretch, from the live-in buffers' values. -/
theorem s4_main_v168 (W : Valuation τ sig (Elt Ideal)) (V0' : Valuation Cert.ReferenceIdeal.τ Cert.ReferenceIdeal.sig (Elt Ideal))
    (h_main_arg19 : W (Proc.devRef .tc main_arg19) = Cert.ReferenceIdeal.RefValue.a19 V0') :
    StableHlo.after (hostOps4 (F := Ideal)) W (Proc.devRef .tc main_v168) = Cert.ReferenceIdeal.RefValue.t_main_v200 V0' := by
  rw [hostOps4n_eq]
  simp only [hostOps4n]
  after_results_simp
  try dsimp only [Matrix.cons_val]
  try after_results_simp
  simp only [h_main_arg19] <;> rfl

set_option maxHeartbeats 4000000 in
/-- `main_v199` after the stretch, from the live-in buffers' values. -/
theorem s4_main_v199 (W : Valuation τ sig (Elt Ideal)) (V0' : Valuation Cert.ReferenceIdeal.τ Cert.ReferenceIdeal.sig (Elt Ideal))
    (h_main_arg20 : W (Proc.devRef .tc main_arg20) = Cert.ReferenceIdeal.RefValue.a20 V0') :
    StableHlo.after (hostOps4 (F := Ideal)) W (Proc.devRef .tc main_v199) = shapeCast _ (Cert.ReferenceIdeal.RefValue.t_main_v202 V0') shapeCasts_S64_S1x64 := by
  rw [hostOps4n_eq]
  simp only [hostOps4n]
  after_results_simp
  try dsimp only [Matrix.cons_val]
  try after_results_simp
  simp only [h_main_arg20] <;> rfl

set_option maxHeartbeats 4000000 in
/-- `main_v172` after the stretch, from the live-in buffers' values. -/
theorem s4_main_v172 (W : Valuation τ sig (Elt Ideal)) (V0' : Valuation Cert.ReferenceIdeal.τ Cert.ReferenceIdeal.sig (Elt Ideal))
    (h_main_arg21 : W (Proc.devRef .tc main_arg21) = Cert.ReferenceIdeal.RefValue.a21 V0') :
    StableHlo.after (hostOps4 (F := Ideal)) W (Proc.devRef .tc main_v172) = Cert.ReferenceIdeal.RefValue.t_main_v204 V0' := by
  rw [hostOps4n_eq]
  simp only [hostOps4n]
  after_results_simp
  try dsimp only [Matrix.cons_val]
  try after_results_simp
  simp only [h_main_arg21] <;> rfl

set_option maxHeartbeats 4000000 in
/-- `main_v174` after the stretch, from the live-in buffers' values. -/
theorem s4_main_v174 (W : Valuation τ sig (Elt Ideal)) (V0' : Valuation Cert.ReferenceIdeal.τ Cert.ReferenceIdeal.sig (Elt Ideal))
    (h_main_arg22 : W (Proc.devRef .tc main_arg22) = Cert.ReferenceIdeal.RefValue.a22 V0') :
    StableHlo.after (hostOps4 (F := Ideal)) W (Proc.devRef .tc main_v174) = Cert.ReferenceIdeal.RefValue.t_main_v206 V0' := by
  rw [hostOps4n_eq]
  simp only [hostOps4n]
  after_results_simp
  try dsimp only [Matrix.cons_val]
  try after_results_simp
  simp only [h_main_arg22] <;> rfl

set_option maxHeartbeats 4000000 in
/-- `main_v178` after the stretch, from the live-in buffers' values. -/
theorem s4_main_v178 (W : Valuation τ sig (Elt Ideal)) (V0' : Valuation Cert.ReferenceIdeal.τ Cert.ReferenceIdeal.sig (Elt Ideal))
    (h_main_arg24 : W (Proc.devRef .tc main_arg24) = Cert.ReferenceIdeal.RefValue.a24 V0') :
    StableHlo.after (hostOps4 (F := Ideal)) W (Proc.devRef .tc main_v178) = Cert.ReferenceIdeal.RefValue.t_main_v210 V0' := by
  rw [hostOps4n_eq]
  simp only [hostOps4n]
  after_results_simp
  try dsimp only [Matrix.cons_val]
  try after_results_simp
  simp only [h_main_arg24] <;> rfl

set_option maxHeartbeats 4000000 in
/-- `main_v182` after the stretch, from the live-in buffers' values. -/
theorem s4_main_v182 (W : Valuation τ sig (Elt Ideal)) (V0' : Valuation Cert.ReferenceIdeal.τ Cert.ReferenceIdeal.sig (Elt Ideal))
    (h_main_arg26 : W (Proc.devRef .tc main_arg26) = Cert.ReferenceIdeal.RefValue.a26 V0') :
    StableHlo.after (hostOps4 (F := Ideal)) W (Proc.devRef .tc main_v182) = Cert.ReferenceIdeal.RefValue.t_main_v214 V0' := by
  rw [hostOps4n_eq]
  simp only [hostOps4n]
  after_results_simp
  try dsimp only [Matrix.cons_val]
  try after_results_simp
  simp only [h_main_arg26] <;> rfl

set_option maxHeartbeats 4000000 in
/-- `main_v176` after the stretch, from the live-in buffers' values. -/
theorem s4_main_v176 (W : Valuation τ sig (Elt Ideal)) (V0' : Valuation Cert.ReferenceIdeal.τ Cert.ReferenceIdeal.sig (Elt Ideal))
    (h_main_arg23 : W (Proc.devRef .tc main_arg23) = Cert.ReferenceIdeal.RefValue.a23 V0') :
    StableHlo.after (hostOps4 (F := Ideal)) W (Proc.devRef .tc main_v176) = Cert.ReferenceIdeal.RefValue.t_main_v208 V0' := by
  rw [hostOps4n_eq]
  simp only [hostOps4n]
  after_results_simp
  try dsimp only [Matrix.cons_val]
  try after_results_simp
  simp only [h_main_arg23] <;> rfl

set_option maxHeartbeats 4000000 in
/-- `main_v180` after the stretch, from the live-in buffers' values. -/
theorem s4_main_v180 (W : Valuation τ sig (Elt Ideal)) (V0' : Valuation Cert.ReferenceIdeal.τ Cert.ReferenceIdeal.sig (Elt Ideal))
    (h_main_arg25 : W (Proc.devRef .tc main_arg25) = Cert.ReferenceIdeal.RefValue.a25 V0') :
    StableHlo.after (hostOps4 (F := Ideal)) W (Proc.devRef .tc main_v180) = Cert.ReferenceIdeal.RefValue.t_main_v212 V0' := by
  rw [hostOps4n_eq]
  simp only [hostOps4n]
  after_results_simp
  try dsimp only [Matrix.cons_val]
  try after_results_simp
  simp only [h_main_arg25] <;> rfl

end Cert.KernelIdeal.Frm

end
-- ==== Proof.IdealChain4.lean ====
/-
  The kernel's buffers at the boundaries 8 and 9 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain3
import proofs.«181157_j5506148073958_2_alg».proof.Proof.IdealFinal3
import proofs.«181157_j5506148073958_2_alg».proof.Proof.IdealStretch4

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 8 -/

theorem L8_main_arg17 (hag : Agree m ρ c V0') : W8 m ρ c (Proc.devRef .tc main_arg17) = Cert.ReferenceIdeal.RefValue.a17 V0' := (W8_of_ne m ρ c main_arg17 (by decide)).trans (L7_main_arg17 m ρ c V0' hag)

theorem L8_main_arg18 (hag : Agree m ρ c V0') : W8 m ρ c (Proc.devRef .tc main_arg18) = Cert.ReferenceIdeal.RefValue.a18 V0' := (W8_of_ne m ρ c main_arg18 (by decide)).trans (L7_main_arg18 m ρ c V0' hag)

theorem L8_main_arg19 (hag : Agree m ρ c V0') : W8 m ρ c (Proc.devRef .tc main_arg19) = Cert.ReferenceIdeal.RefValue.a19 V0' := (W8_of_ne m ρ c main_arg19 (by decide)).trans (L7_main_arg19 m ρ c V0' hag)

theorem L8_main_arg20 (hag : Agree m ρ c V0') : W8 m ρ c (Proc.devRef .tc main_arg20) = Cert.ReferenceIdeal.RefValue.a20 V0' := (W8_of_ne m ρ c main_arg20 (by decide)).trans (L7_main_arg20 m ρ c V0' hag)

theorem L8_main_arg21 (hag : Agree m ρ c V0') : W8 m ρ c (Proc.devRef .tc main_arg21) = Cert.ReferenceIdeal.RefValue.a21 V0' := (W8_of_ne m ρ c main_arg21 (by decide)).trans (L7_main_arg21 m ρ c V0' hag)

theorem L8_main_arg22 (hag : Agree m ρ c V0') : W8 m ρ c (Proc.devRef .tc main_arg22) = Cert.ReferenceIdeal.RefValue.a22 V0' := (W8_of_ne m ρ c main_arg22 (by decide)).trans (L7_main_arg22 m ρ c V0' hag)

theorem L8_main_arg23 (hag : Agree m ρ c V0') : W8 m ρ c (Proc.devRef .tc main_arg23) = Cert.ReferenceIdeal.RefValue.a23 V0' := (W8_of_ne m ρ c main_arg23 (by decide)).trans (L7_main_arg23 m ρ c V0' hag)

theorem L8_main_arg24 (hag : Agree m ρ c V0') : W8 m ρ c (Proc.devRef .tc main_arg24) = Cert.ReferenceIdeal.RefValue.a24 V0' := (W8_of_ne m ρ c main_arg24 (by decide)).trans (L7_main_arg24 m ρ c V0' hag)

theorem L8_main_arg25 (hag : Agree m ρ c V0') : W8 m ρ c (Proc.devRef .tc main_arg25) = Cert.ReferenceIdeal.RefValue.a25 V0' := (W8_of_ne m ρ c main_arg25 (by decide)).trans (L7_main_arg25 m ρ c V0' hag)

theorem L8_main_arg26 (hag : Agree m ρ c V0') : W8 m ρ c (Proc.devRef .tc main_arg26) = Cert.ReferenceIdeal.RefValue.a26 V0' := (W8_of_ne m ρ c main_arg26 (by decide)).trans (L7_main_arg26 m ρ c V0' hag)

theorem L8_main_v80 (hag : Agree m ρ c V0') : W8 m ρ c (Proc.devRef .tc main_v80) = Cert.ReferenceIdeal.Value.res_main_v98 V0' := (W8_of_ne m ρ c main_v80 (by decide)).trans (L7_main_v80 m ρ c V0' hag)

theorem L8_main_v52 (hag : Agree m ρ c V0') : W8 m ρ c (Proc.devRef .tc main_v52) = Cert.ReferenceIdeal.Value.res_main_v61 V0' := (W8_of_ne m ρ c main_v52 (by decide)).trans (L7_main_v52 m ρ c V0' hag)

theorem L8_main_v82 (hag : Agree m ρ c V0') : W8 m ρ c (Proc.devRef .tc main_v82) = Cert.ReferenceIdeal.Value.res_main_v100 V0' := (W8_of_ne m ρ c main_v82 (by decide)).trans (L7_main_v82 m ρ c V0' hag)

theorem L8_main_v84 (hag : Agree m ρ c V0') : W8 m ρ c (Proc.devRef .tc main_v84) = Cert.ReferenceIdeal.Value.res_main_v102 V0' := (W8_of_ne m ρ c main_v84 (by decide)).trans (L7_main_v84 m ρ c V0' hag)

theorem L8_main_v162 (hag : Agree m ρ c V0') : W8 m ρ c (Proc.devRef .tc main_v162) = Cert.ReferenceIdeal.Value.res_main_v194 V0' := by
  refine (W8_arr m ρ c 5).trans ?_
  refine (final3 (V7 m ρ) c).trans ?_
  unfold G3
  have h0 : V7 m ρ c main_v159 = Cert.ReferenceIdeal.RefValue.t_main_v184 V0' := (L7_main_v159 m ρ c V0' hag)
  have hW0 : V7 m ρ c main_v98 = Cert.ReferenceIdeal.RefValue.t_main_v116 V0' := (L7_main_v98 m ρ c V0' hag)
  have hb0 : Cert.LibRowBias.rowOf (V7 m ρ c main_v160) = Cert.ReferenceIdeal.RefValue.t_main_v118 V0' := by
    rw [show V7 m ρ c main_v160 = shapeCast _ (Cert.ReferenceIdeal.RefValue.t_main_v118 V0') shapeCasts_S64_S1x64 from (L7_main_v160 m ρ c V0' hag)]
    exact Cert.LibRowBias.rowOf_shapeCast _ _
  have hW1 : V7 m ρ c main_v102 = Cert.ReferenceIdeal.RefValue.t_main_v120 V0' := (L7_main_v102 m ρ c V0' hag)
  have hb1 : Cert.LibRowBias.rowOf (V7 m ρ c main_v161) = Cert.ReferenceIdeal.RefValue.t_main_v122 V0' := by
    rw [show V7 m ρ c main_v161 = shapeCast _ (Cert.ReferenceIdeal.RefValue.t_main_v122 V0') shapeCasts_S64_S1x64 from (L7_main_v161 m ρ c V0' hag)]
    exact Cert.LibRowBias.rowOf_shapeCast _ _
  rw [h0, hW0, hb0, hW1, hb1]
  exact (Cert.ReferenceIdeal.RefValue.stage3_ref V0').symm

theorem L8_main_arg27 (hag : Agree m ρ c V0') : W8 m ρ c (Proc.devRef .tc main_arg27) = Cert.ReferenceIdeal.RefValue.a27 V0' := (W8_of_ne m ρ c main_arg27 (by decide)).trans (L7_main_arg27 m ρ c V0' hag)

theorem L8_main_arg28 (hag : Agree m ρ c V0') : W8 m ρ c (Proc.devRef .tc main_arg28) = Cert.ReferenceIdeal.RefValue.a28 V0' := (W8_of_ne m ρ c main_arg28 (by decide)).trans (L7_main_arg28 m ρ c V0' hag)

theorem L8_main_arg29 (hag : Agree m ρ c V0') : W8 m ρ c (Proc.devRef .tc main_arg29) = Cert.ReferenceIdeal.RefValue.a29 V0' := (W8_of_ne m ρ c main_arg29 (by decide)).trans (L7_main_arg29 m ρ c V0' hag)

theorem L8_main_arg31 (hag : Agree m ρ c V0') : W8 m ρ c (Proc.devRef .tc main_arg31) = Cert.ReferenceIdeal.RefValue.a31 V0' := (W8_of_ne m ρ c main_arg31 (by decide)).trans (L7_main_arg31 m ρ c V0' hag)

theorem L8_main_arg33 (hag : Agree m ρ c V0') : W8 m ρ c (Proc.devRef .tc main_arg33) = Cert.ReferenceIdeal.RefValue.a33 V0' := (W8_of_ne m ρ c main_arg33 (by decide)).trans (L7_main_arg33 m ρ c V0' hag)

theorem L8_main_arg35 (hag : Agree m ρ c V0') : W8 m ρ c (Proc.devRef .tc main_arg35) = Cert.ReferenceIdeal.RefValue.a35 V0' := (W8_of_ne m ρ c main_arg35 (by decide)).trans (L7_main_arg35 m ρ c V0' hag)

theorem L8_main_arg30 (hag : Agree m ρ c V0') : W8 m ρ c (Proc.devRef .tc main_arg30) = Cert.ReferenceIdeal.RefValue.a30 V0' := (W8_of_ne m ρ c main_arg30 (by decide)).trans (L7_main_arg30 m ρ c V0' hag)

theorem L8_main_arg32 (hag : Agree m ρ c V0') : W8 m ρ c (Proc.devRef .tc main_arg32) = Cert.ReferenceIdeal.RefValue.a32 V0' := (W8_of_ne m ρ c main_arg32 (by decide)).trans (L7_main_arg32 m ρ c V0' hag)

theorem L8_main_arg34 (hag : Agree m ρ c V0') : W8 m ρ c (Proc.devRef .tc main_arg34) = Cert.ReferenceIdeal.RefValue.a34 V0' := (W8_of_ne m ρ c main_arg34 (by decide)).trans (L7_main_arg34 m ρ c V0' hag)

/-! ## Boundary 9 -/

theorem L9_main_arg17 (hag : Agree m ρ c V0') : W9 m ρ c (Proc.devRef .tc main_arg17) = Cert.ReferenceIdeal.RefValue.a17 V0' := (W9_of m ρ c main_arg17 (by decide)).trans (L8_main_arg17 m ρ c V0' hag)

theorem L9_main_arg18 (hag : Agree m ρ c V0') : W9 m ρ c (Proc.devRef .tc main_arg18) = Cert.ReferenceIdeal.RefValue.a18 V0' := (W9_of m ρ c main_arg18 (by decide)).trans (L8_main_arg18 m ρ c V0' hag)

theorem L9_main_arg19 (hag : Agree m ρ c V0') : W9 m ρ c (Proc.devRef .tc main_arg19) = Cert.ReferenceIdeal.RefValue.a19 V0' := (W9_of m ρ c main_arg19 (by decide)).trans (L8_main_arg19 m ρ c V0' hag)

theorem L9_main_arg20 (hag : Agree m ρ c V0') : W9 m ρ c (Proc.devRef .tc main_arg20) = Cert.ReferenceIdeal.RefValue.a20 V0' := (W9_of m ρ c main_arg20 (by decide)).trans (L8_main_arg20 m ρ c V0' hag)

theorem L9_main_arg21 (hag : Agree m ρ c V0') : W9 m ρ c (Proc.devRef .tc main_arg21) = Cert.ReferenceIdeal.RefValue.a21 V0' := (W9_of m ρ c main_arg21 (by decide)).trans (L8_main_arg21 m ρ c V0' hag)

theorem L9_main_arg22 (hag : Agree m ρ c V0') : W9 m ρ c (Proc.devRef .tc main_arg22) = Cert.ReferenceIdeal.RefValue.a22 V0' := (W9_of m ρ c main_arg22 (by decide)).trans (L8_main_arg22 m ρ c V0' hag)

theorem L9_main_arg23 (hag : Agree m ρ c V0') : W9 m ρ c (Proc.devRef .tc main_arg23) = Cert.ReferenceIdeal.RefValue.a23 V0' := (W9_of m ρ c main_arg23 (by decide)).trans (L8_main_arg23 m ρ c V0' hag)

theorem L9_main_arg24 (hag : Agree m ρ c V0') : W9 m ρ c (Proc.devRef .tc main_arg24) = Cert.ReferenceIdeal.RefValue.a24 V0' := (W9_of m ρ c main_arg24 (by decide)).trans (L8_main_arg24 m ρ c V0' hag)

theorem L9_main_arg25 (hag : Agree m ρ c V0') : W9 m ρ c (Proc.devRef .tc main_arg25) = Cert.ReferenceIdeal.RefValue.a25 V0' := (W9_of m ρ c main_arg25 (by decide)).trans (L8_main_arg25 m ρ c V0' hag)

theorem L9_main_arg26 (hag : Agree m ρ c V0') : W9 m ρ c (Proc.devRef .tc main_arg26) = Cert.ReferenceIdeal.RefValue.a26 V0' := (W9_of m ρ c main_arg26 (by decide)).trans (L8_main_arg26 m ρ c V0' hag)

theorem L9_main_v80 (hag : Agree m ρ c V0') : W9 m ρ c (Proc.devRef .tc main_v80) = Cert.ReferenceIdeal.Value.res_main_v98 V0' := (W9_of m ρ c main_v80 (by decide)).trans (L8_main_v80 m ρ c V0' hag)

theorem L9_main_v52 (hag : Agree m ρ c V0') : W9 m ρ c (Proc.devRef .tc main_v52) = Cert.ReferenceIdeal.Value.res_main_v61 V0' := (W9_of m ρ c main_v52 (by decide)).trans (L8_main_v52 m ρ c V0' hag)

theorem L9_main_v82 (hag : Agree m ρ c V0') : W9 m ρ c (Proc.devRef .tc main_v82) = Cert.ReferenceIdeal.Value.res_main_v100 V0' := (W9_of m ρ c main_v82 (by decide)).trans (L8_main_v82 m ρ c V0' hag)

theorem L9_main_v84 (hag : Agree m ρ c V0') : W9 m ρ c (Proc.devRef .tc main_v84) = Cert.ReferenceIdeal.Value.res_main_v102 V0' := (W9_of m ρ c main_v84 (by decide)).trans (L8_main_v84 m ρ c V0' hag)

theorem L9_main_v162 (hag : Agree m ρ c V0') : W9 m ρ c (Proc.devRef .tc main_v162) = Cert.ReferenceIdeal.Value.res_main_v194 V0' := (W9_of m ρ c main_v162 (by decide)).trans (L8_main_v162 m ρ c V0' hag)

theorem L9_main_v197 (hag : Agree m ρ c V0') : W9 m ρ c (Proc.devRef .tc main_v197) = Cert.ReferenceIdeal.RefValue.t_main_v229 V0' := s4_main_v197 (W8 m ρ c) V0' (L8_main_v82 m ρ c V0' hag) (L8_main_v162 m ρ c V0' hag) (L8_main_v52 m ρ c V0' hag) (L8_main_v84 m ρ c V0' hag) (L8_main_v80 m ρ c V0' hag)

theorem L9_main_v164 (hag : Agree m ρ c V0') : W9 m ρ c (Proc.devRef .tc main_v164) = Cert.ReferenceIdeal.RefValue.t_main_v196 V0' := s4_main_v164 (W8 m ρ c) V0' (L8_main_arg17 m ρ c V0' hag)

theorem L9_main_v198 (hag : Agree m ρ c V0') : W9 m ρ c (Proc.devRef .tc main_v198) = shapeCast _ (Cert.ReferenceIdeal.RefValue.t_main_v198 V0') shapeCasts_S64_S1x64 := s4_main_v198 (W8 m ρ c) V0' (L8_main_arg18 m ρ c V0' hag)

theorem L9_main_v168 (hag : Agree m ρ c V0') : W9 m ρ c (Proc.devRef .tc main_v168) = Cert.ReferenceIdeal.RefValue.t_main_v200 V0' := s4_main_v168 (W8 m ρ c) V0' (L8_main_arg19 m ρ c V0' hag)

theorem L9_main_v199 (hag : Agree m ρ c V0') : W9 m ρ c (Proc.devRef .tc main_v199) = shapeCast _ (Cert.ReferenceIdeal.RefValue.t_main_v202 V0') shapeCasts_S64_S1x64 := s4_main_v199 (W8 m ρ c) V0' (L8_main_arg20 m ρ c V0' hag)

theorem L9_main_v172 (hag : Agree m ρ c V0') : W9 m ρ c (Proc.devRef .tc main_v172) = Cert.ReferenceIdeal.RefValue.t_main_v204 V0' := s4_main_v172 (W8 m ρ c) V0' (L8_main_arg21 m ρ c V0' hag)

theorem L9_main_v174 (hag : Agree m ρ c V0') : W9 m ρ c (Proc.devRef .tc main_v174) = Cert.ReferenceIdeal.RefValue.t_main_v206 V0' := s4_main_v174 (W8 m ρ c) V0' (L8_main_arg22 m ρ c V0' hag)

theorem L9_main_v178 (hag : Agree m ρ c V0') : W9 m ρ c (Proc.devRef .tc main_v178) = Cert.ReferenceIdeal.RefValue.t_main_v210 V0' := s4_main_v178 (W8 m ρ c) V0' (L8_main_arg24 m ρ c V0' hag)

theorem L9_main_v182 (hag : Agree m ρ c V0') : W9 m ρ c (Proc.devRef .tc main_v182) = Cert.ReferenceIdeal.RefValue.t_main_v214 V0' := s4_main_v182 (W8 m ρ c) V0' (L8_main_arg26 m ρ c V0' hag)

theorem L9_main_v176 (hag : Agree m ρ c V0') : W9 m ρ c (Proc.devRef .tc main_v176) = Cert.ReferenceIdeal.RefValue.t_main_v208 V0' := s4_main_v176 (W8 m ρ c) V0' (L8_main_arg23 m ρ c V0' hag)

theorem L9_main_v180 (hag : Agree m ρ c V0') : W9 m ρ c (Proc.devRef .tc main_v180) = Cert.ReferenceIdeal.RefValue.t_main_v212 V0' := s4_main_v180 (W8 m ρ c) V0' (L8_main_arg25 m ρ c V0' hag)

theorem L9_main_arg27 (hag : Agree m ρ c V0') : W9 m ρ c (Proc.devRef .tc main_arg27) = Cert.ReferenceIdeal.RefValue.a27 V0' := (W9_of m ρ c main_arg27 (by decide)).trans (L8_main_arg27 m ρ c V0' hag)

theorem L9_main_arg28 (hag : Agree m ρ c V0') : W9 m ρ c (Proc.devRef .tc main_arg28) = Cert.ReferenceIdeal.RefValue.a28 V0' := (W9_of m ρ c main_arg28 (by decide)).trans (L8_main_arg28 m ρ c V0' hag)

theorem L9_main_arg29 (hag : Agree m ρ c V0') : W9 m ρ c (Proc.devRef .tc main_arg29) = Cert.ReferenceIdeal.RefValue.a29 V0' := (W9_of m ρ c main_arg29 (by decide)).trans (L8_main_arg29 m ρ c V0' hag)

theorem L9_main_arg31 (hag : Agree m ρ c V0') : W9 m ρ c (Proc.devRef .tc main_arg31) = Cert.ReferenceIdeal.RefValue.a31 V0' := (W9_of m ρ c main_arg31 (by decide)).trans (L8_main_arg31 m ρ c V0' hag)

theorem L9_main_arg33 (hag : Agree m ρ c V0') : W9 m ρ c (Proc.devRef .tc main_arg33) = Cert.ReferenceIdeal.RefValue.a33 V0' := (W9_of m ρ c main_arg33 (by decide)).trans (L8_main_arg33 m ρ c V0' hag)

theorem L9_main_arg35 (hag : Agree m ρ c V0') : W9 m ρ c (Proc.devRef .tc main_arg35) = Cert.ReferenceIdeal.RefValue.a35 V0' := (W9_of m ρ c main_arg35 (by decide)).trans (L8_main_arg35 m ρ c V0' hag)

theorem L9_main_arg30 (hag : Agree m ρ c V0') : W9 m ρ c (Proc.devRef .tc main_arg30) = Cert.ReferenceIdeal.RefValue.a30 V0' := (W9_of m ρ c main_arg30 (by decide)).trans (L8_main_arg30 m ρ c V0' hag)

theorem L9_main_arg32 (hag : Agree m ρ c V0') : W9 m ρ c (Proc.devRef .tc main_arg32) = Cert.ReferenceIdeal.RefValue.a32 V0' := (W9_of m ρ c main_arg32 (by decide)).trans (L8_main_arg32 m ρ c V0' hag)

theorem L9_main_arg34 (hag : Agree m ρ c V0') : W9 m ρ c (Proc.devRef .tc main_arg34) = Cert.ReferenceIdeal.RefValue.a34 V0' := (W9_of m ρ c main_arg34 (by decide)).trans (L8_main_arg34 m ρ c V0' hag)

end Cert.KernelIdeal.Frm

end
-- ==== Proof.IdealFinal4.lean ====
/-
  What region 4 leaves in its output array, at the extended reals: the rectified layer followed by a layer of the
  WHOLE input array. Point t loads rows 10000·t … 10000·t + 9999 of the input and the whole weight matrices and one-row biases,
  and writes back the stage of that block of rows; row p of a stage depends only on row p of its input, so what point t
  writes back is rows 10000·t … of the stage of the whole array; the 60 blocks tile the 600000 rows.
-/
import proofs.«181157_j5506148073958_2_alg».proof.Proof.IdealRegion4
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz4 : (![0, 0] : Fin 2 → Nat) = fun _ => 0 := funext fun a => by fin_cases a <;> rfl

/-- The stage of the whole arrays as the region finds them. -/
def G4 (c : Dev nD) : S600000x64.Idx → EReal :=
  ra (V c main_v197) (V c main_v164) (rowOf (V c main_v198)) (V c main_v168) (rowOf (V c main_v199))

/-- The printed index maps, decided over the grid: the input rows' window moves with the output's, every other window
    stays at block 0, and the output's block index stays in range. -/
theorem idx_facts4 : ∀ t : Fin cfg4.N, win4_0.index t (0 : Fin 2) = win4_5.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (1 : Fin 2) = 0
    ∧ win4_5.index t (0 : Fin 2) ≤ 59 :=
  (by decide +kernel : ∀ t : Fin grid4.N, _)

/-- Every block of rows is some point's. -/
theorem idx_onto4 : ∀ q0 : Fin 60, ∃ t : Fin cfg4.N, win4_5.index t = ![q0.val, 0] :=
  (by decide +kernel : ∀ q0 : Fin 60, ∃ t : Fin grid4.N, win4_5.index t = ![q0.val, 0])

/-- What point t writes back is block t of the stage of the whole arrays. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 (F := Ideal) V c).after 5 t) = _
  rw [after4_5]
  unfold out4_5
  rw [View.canon_unit_zero hz4]
  simp only [View.ld_unit_zero (S := S10000x129) hz4, View.ld_unit_zero (S := S129x64) hz4, View.ld_unit_zero (S := S1x64) hz4, View.ld_unit_zero (S := S64x64) hz4]
  obtain ⟨e0, e1, e2, e3, e4, e5, e6, e7, e8, e9, e10, e11⟩ := idx_facts4 t
  have hw1 : iblk4 V c 1 t = V c main_v164 := by
    funext y
    show V c main_v164 (((cfg4.win 1).blk t).view.emb y) = V c main_v164 y
    refine congrArg _ ?_
    funext a; apply Fin.ext
    match a with
    | ⟨0, _⟩ => show win4_1.index t (0 : Fin 2) * 129 + 1 * (y 0).val = (y 0).val; omega
    | ⟨1, _⟩ => show win4_1.index t (1 : Fin 2) * 64 + 1 * (y 1).val = (y 1).val; omega
  have hw2 : iblk4 V c 2 t = V c main_v198 := by
    funext y
    show V c main_v198 (((cfg4.win 2).blk t).view.emb y) = V c main_v198 y
    refine congrArg _ ?_
    funext a; apply Fin.ext
    match a with
    | ⟨0, _⟩ => show win4_2.index t (0 : Fin 2) * 1 + 1 * (y 0).val = (y 0).val; omega
    | ⟨1, _⟩ => show win4_2.index t (1 : Fin 2) * 64 + 1 * (y 1).val = (y 1).val; omega
  have hw3 : iblk4 V c 3 t = V c main_v168 := by
    funext y
    show V c main_v168 (((cfg4.win 3).blk t).view.emb y) = V c main_v168 y
    refine congrArg _ ?_
    funext a; apply Fin.ext
    match a with
    | ⟨0, _⟩ => show win4_3.index t (0 : Fin 2) * 64 + 1 * (y 0).val = (y 0).val; omega
    | ⟨1, _⟩ => show win4_3.index t (1 : Fin 2) * 64 + 1 * (y 1).val = (y 1).val; omega
  have hw4 : iblk4 V c 4 t = V c main_v199 := by
    funext y
    show V c main_v199 (((cfg4.win 4).blk t).view.emb y) = V c main_v199 y
    refine congrArg _ ?_
    funext a; apply Fin.ext
    match a with
    | ⟨0, _⟩ => show win4_4.index t (0 : Fin 2) * 1 + 1 * (y 0).val = (y 0).val; omega
    | ⟨1, _⟩ => show win4_4.index t (1 : Fin 2) * 64 + 1 * (y 1).val = (y 1).val; omega
  funext j
  obtain ⟨p, q, rfl⟩ : ∃ (p : Fin 10000) (q : Fin 64), j = ix2 p q := ⟨j 0, j 1, eq_ix2 j⟩
  refine (pay4_apply (iblk4 V c 0 t) (iblk4 V c 1 t) (iblk4 V c 2 t) (iblk4 V c 3 t) (iblk4 V c 4 t) p q).trans ?_
  rw [hw1, hw2, hw3, hw4]
  have hp : p.val < 10000 := p.isLt
  have hrow : win4_5.index t (0 : Fin 2) * 10000 + p.val < 600000 := by omega
  have hemb : ((cfg4.win 5).blk t).view.emb (ix2 p q) = ix2 (⟨win4_5.index t (0 : Fin 2) * 10000 + p.val, hrow⟩ : Fin 600000) q := by
    funext a; apply Fin.ext
    match a with
    | ⟨0, _⟩ => show win4_5.index t (0 : Fin 2) * 10000 + 1 * p.val = win4_5.index t (0 : Fin 2) * 10000 + p.val; omega
    | ⟨1, _⟩ => show win4_5.index t (1 : Fin 2) * 64 + 1 * q.val = q.val; omega
  show ra (iblk4 V c 0 t) _ _ _ _ (ix2 p q) = G4 V c (((cfg4.win 5).blk t).view.emb (ix2 p q))
  rw [hemb]
  refine ra_row _ _ _ _ _ _ p _ (fun k => ?_) q
  show V c main_v197 (((cfg4.win 0).blk t).view.emb (ix2 p k)) = V c main_v197 (ix2 (⟨win4_5.index t (0 : Fin 2) * 10000 + p.val, hrow⟩ : Fin 600000) k)
  refine congrArg _ ?_
  funext a; apply Fin.ext
  match a with
  | ⟨0, _⟩ => show win4_0.index t (0 : Fin 2) * 10000 + 1 * p.val = win4_5.index t (0 : Fin 2) * 10000 + p.val; omega
  | ⟨1, _⟩ => show win4_0.index t (1 : Fin 2) * 129 + 1 * k.val = k.val; omega

/-- An index of the output array is in point t's block iff its row is in the block's range. -/
theorem mem_blk4 (t : Fin cfg4.N) (i : S600000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v200).slice (win4_5.rect t)).set ↔ _
  rw [View.set_slice_whole, Rect.mem_set_unit]
  exact Iff.rfl

/-- The blocks cover the output array. -/
theorem cover4 (i : S600000x64.Idx) :
    ∃ t : Fin cfg4.N, (cfg4.win 5).flush t = true ∧ i ∈ ((cfg4.win 5).blk t).view.set := by
  have hi0 : (i 0).val < 600000 := (i 0).isLt
  have hi1 : (i 1).val < 64 := (i 1).isLt
  obtain ⟨t, ht⟩ := idx_onto4 ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- The output array after the region: the stage of the whole arrays. -/
theorem final4 (c : Dev nD) : (dat4 (F := Ideal) V c).arrAt 5 cfg4.N = G4 V c :=
  (dat4 (F := Ideal) V c).arrAt_eq_of_cover 5 (G4 V c) (fun t _ => flushed4_eq V c t) (cover4)

end Cert.KernelIdeal.Frm

end
-- ==== Proof.IdealStretch5.lean ====
/-
  Host stretch 5 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v237`, as a function of its two operands. -/
def cat_main_v237 : (⟨S50000x64, .f32⟩ : BufTy).Contents (Elt F) → (⟨S50000x64, .f32⟩ : BufTy).Contents (Elt F) → (⟨S50000x128, .f32⟩ : BufTy).Contents (Elt F) :=
  fun a b => concatenate S50000x128 1 [⟨S50000x64, a⟩, ⟨S50000x64, b⟩] concatenates_S50000x64_S50000x64_S50000x128_d1

/-- The stretch's operations with each concatenation's function named (evaluation then goes on into a concatenation's
    operands instead of stopping at the list of pairs that holds them). -/
abbrev hostOps5n : List (HloOp τ sig (Elt F)) :=
  ( StableHlo.nullary main_cst_30 (constant S_ .f32 0x00000000#32)
  :: StableHlo.unary main_cst_30 main_v201 (broadcastInDim S50000x64 ![] bcast_S_S50000x64 : (⟨S_, .f32⟩ : BufTy).Contents (Elt F) → (⟨S50000x64, .f32⟩ : BufTy).Contents (Elt F))
  :: StableHlo.unary main_v84 main_v202 (broadcastInDim S600000x1 ![0] bcast_S600000_S600000x1_0 : (⟨S600000, .i32⟩ : BufTy).Contents (Elt F) → (⟨S600000x1, .i32⟩ : BufTy).Contents (Elt F))
  :: StableHlo.ternary main_v201 main_v202 main_v200 main_v203 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F))
  :: StableHlo.nullary main_cst_31 (constant S_ .f32 0x3F800000#32)
  :: StableHlo.unary main_cst_31 main_v204 (broadcastInDim S600000x1 ![] bcast_S_S600000x1 : (⟨S_, .f32⟩ : BufTy).Contents (Elt F) → (⟨S600000x1, .f32⟩ : BufTy).Contents (Elt F))
  :: StableHlo.nullary main_cst_32 (constant S_ .f32 0x00000000#32)
  :: StableHlo.unary main_cst_32 main_v205 (broadcastInDim S50000x1 ![] bcast_S_S50000x1 : (⟨S_, .f32⟩ : BufTy).Contents (Elt F) → (⟨S50000x1, .f32⟩ : BufTy).Contents (Elt F))
  :: StableHlo.unary main_v84 main_v206 (broadcastInDim S600000x1 ![0] bcast_S600000_S600000x1_0 : (⟨S600000, .i32⟩ : BufTy).Contents (Elt F) → (⟨S600000x1, .i32⟩ : BufTy).Contents (Elt F))
  :: StableHlo.ternary main_v205 main_v206 main_v204 main_v207 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F))
  :: StableHlo.nullary main_cst_33 (constant S_ .f32 0x3F800000#32)
  :: StableHlo.unary main_cst_33 main_v208 (broadcastInDim S50000x1 ![] bcast_S_S50000x1 : (⟨S_, .f32⟩ : BufTy).Contents (Elt F) → (⟨S50000x1, .f32⟩ : BufTy).Contents (Elt F))
  :: StableHlo.binary main_v207 main_v208 main_v209 (maximumf : (⟨S50000x1, .f32⟩ : BufTy).Contents (Elt F) → (⟨S50000x1, .f32⟩ : BufTy).Contents (Elt F) → (⟨S50000x1, .f32⟩ : BufTy).Contents (Elt F))
  :: StableHlo.unary main_v209 main_v210 (broadcastInDim S50000x64 ![0, 1] bcast_S50000x1_S50000x64_0_1 : (⟨S50000x1, .f32⟩ : BufTy).Contents (Elt F) → (⟨S50000x64, .f32⟩ : BufTy).Contents (Elt F))
  :: StableHlo.binary main_v203 main_v210 main_v211 (Host.divf : (⟨S50000x64, .f32⟩ : BufTy).Contents (Elt F) → (⟨S50000x64, .f32⟩ : BufTy).Contents (Elt F) → (⟨S50000x64, .f32⟩ : BufTy).Contents (Elt F))
  :: StableHlo.nullary main_cst_34 (constant S_ .f32 0x00000000#32)
  :: StableHlo.binary main_v211 main_cst_34 main_v212 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_35 (constant S_ .f32 0x47435000#32)
  :: StableHlo.unary main_cst_35 main_v213 (broadcastInDim S64 ![] bcast_S_S64 : (⟨S_, .f32⟩ : BufTy).Contents (Elt F) → (⟨S64, .f32⟩ : BufTy).Contents (Elt F))
  :: StableHlo.binary main_v212 main_v213 main_v214 (Host.divf : (⟨S64, .f32⟩ : BufTy).Contents (Elt F) → (⟨S64, .f32⟩ : BufTy).Contents (Elt F) → (⟨S64, .f32⟩ : BufTy).Contents (Elt F))
  :: StableHlo.unary main_v214 main_v215 (broadcastInDim S1x64 ![1] bcast_S64_S1x64_1 : (⟨S64, .f32⟩ : BufTy).Contents (Elt F) → (⟨S1x64, .f32⟩ : BufTy).Contents (Elt F))
  :: StableHlo.unary main_v215 main_v216 (broadcastInDim S50000x64 ![0, 1] bcast_S1x64_S50000x64_0_1 : (⟨S1x64, .f32⟩ : BufTy).Contents (Elt F) → (⟨S50000x64, .f32⟩ : BufTy).Contents (Elt F))
  :: StableHlo.binary main_v211 main_v216 main_v217 (subf : (⟨S50000x64, .f32⟩ : BufTy).Contents (Elt F) → (⟨S50000x64, .f32⟩ : BufTy).Contents (Elt F) → (⟨S50000x64, .f32⟩ : BufTy).Contents (Elt F))
  :: StableHlo.binary main_v217 main_v217 main_v218 (mulf : (⟨S50000x64, .f32⟩ : BufTy).Contents (Elt F) → (⟨S50000x64, .f32⟩ : BufTy).Contents (Elt F) → (⟨S50000x64, .f32⟩ : BufTy).Contents (Elt F))
  :: StableHlo.nullary main_cst_36 (constant S_ .f32 0x00000000#32)
  :: StableHlo.binary main_v218 main_cst_36 main_v219 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_37 (constant S_ .f32 0x47435000#32)
  :: StableHlo.unary main_cst_37 main_v220 (broadcastInDim S64 ![] bcast_S_S64 : (⟨S_, .f32⟩ : BufTy).Contents (Elt F) → (⟨S64, .f32⟩ : BufTy).Contents (Elt F))
  :: StableHlo.binary main_v219 main_v220 main_v221 (Host.divf : (⟨S64, .f32⟩ : BufTy).Contents (Elt F) → (⟨S64, .f32⟩ : BufTy).Contents (Elt F) → (⟨S64, .f32⟩ : BufTy).Contents (Elt F))
  :: StableHlo.unary main_v214 main_v222 (broadcastInDim S1x64 ![1] bcast_S64_S1x64_1 : (⟨S64, .f32⟩ : BufTy).Contents (Elt F) → (⟨S1x64, .f32⟩ : BufTy).Contents (Elt F))
  :: StableHlo.unary main_v222 main_v223 (broadcastInDim S50000x64 ![0, 1] bcast_S1x64_S50000x64_0_1 : (⟨S1x64, .f32⟩ : BufTy).Contents (Elt F) → (⟨S50000x64, .f32⟩ : BufTy).Contents (Elt F))
  :: StableHlo.binary main_v211 main_v223 main_v224 (subf : (⟨S50000x64, .f32⟩ : BufTy).Contents (Elt F) → (⟨S50000x64, .f32⟩ : BufTy).Contents (Elt F) → (⟨S50000x64, .f32⟩ : BufTy).Contents (Elt F))
  :: StableHlo.nullary main_cst_38 (constant S_ .f32 0x3727C5AC#32)
  :: StableHlo.unary main_cst_38 main_v225 (broadcastInDim S64 ![] bcast_S_S64 : (⟨S_, .f32⟩ : BufTy).Contents (Elt F) → (⟨S64, .f32⟩ : BufTy).Contents (Elt F))
  :: StableHlo.binary main_v221 main_v225 main_v226 (addf : (⟨S64, .f32⟩ : BufTy).Contents (Elt F) → (⟨S64, .f32⟩ : BufTy).Contents (Elt F) → (⟨S64, .f32⟩ : BufTy).Contents (Elt F))
  :: StableHlo.unary main_v226 main_v227 (Host.rsqrt : (⟨S64, .f32⟩ : BufTy).Contents (Elt F) → (⟨S64, .f32⟩ : BufTy).Contents (Elt F))
  :: StableHlo.unary main_v227 main_v228 (broadcastInDim S1x64 ![1] bcast_S64_S1x64_1 : (⟨S64, .f32⟩ : BufTy).Contents (Elt F) → (⟨S1x64, .f32⟩ : BufTy).Contents (Elt F))
  :: StableHlo.unary main_v228 main_v229 (broadcastInDim S50000x64 ![0, 1] bcast_S1x64_S50000x64_0_1 : (⟨S1x64, .f32⟩ : BufTy).Contents (Elt F) → (⟨S50000x64, .f32⟩ : BufTy).Contents (Elt F))
  :: StableHlo.binary main_v224 main_v229 main_v230 (mulf : (⟨S50000x64, .f32⟩ : BufTy).Contents (Elt F) → (⟨S50000x64, .f32⟩ : BufTy).Contents (Elt F) → (⟨S50000x64, .f32⟩ : BufTy).Contents (Elt F))
  :: StableHlo.unary main_v172 main_v231 (broadcastInDim S1x64 ![1] bcast_S64_S1x64_1 : (⟨S64, .f32⟩ : BufTy).Contents (Elt F) → (⟨S1x64, .f32⟩ : BufTy).Contents (Elt F))
  :: StableHlo.unary main_v231 main_v232 (broadcastInDim S50000x64 ![0, 1] bcast_S1x64_S50000x64_0_1 : (⟨S1x64, .f32⟩ : BufTy).Contents (Elt F) → (⟨S50000x64, .f32⟩ : BufTy).Contents (Elt F))
  :: StableHlo.binary main_v230 main_v232 main_v233 (mulf : (⟨S50000x64, .f32⟩ : BufTy).Contents (Elt F) → (⟨S50000x64, .f32⟩ : BufTy).Contents (Elt F) → (⟨S50000x64, .f32⟩ : BufTy).Contents (Elt F))
  :: StableHlo.unary main_v174 main_v234 (broadcastInDim S1x64 ![1] bcast_S64_S1x64_1 : (⟨S64, .f32⟩ : BufTy).Contents (Elt F) → (⟨S1x64, .f32⟩ : BufTy).Contents (Elt F))
  :: StableHlo.unary main_v234 main_v235 (broadcastInDim S50000x64 ![0, 1] bcast_S1x64_S50000x64_0_1 : (⟨S1x64, .f32⟩ : BufTy).Contents (Elt F) → (⟨S50000x64, .f32⟩ : BufTy).Contents (Elt F))
  :: StableHlo.binary main_v233 main_v235 main_v236 (addf : (⟨S50000x64, .f32⟩ : BufTy).Contents (Elt F) → (⟨S50000x64, .f32⟩ : BufTy).Contents (Elt F) → (⟨S50000x64, .f32⟩ : BufTy).Contents (Elt F))
  :: StableHlo.binary main_v236 main_v80 main_v237 (cat_main_v237 : (⟨S50000x64, .f32⟩ : BufTy).Contents (Elt F) → (⟨S50000x64, .f32⟩ : BufTy).Contents (Elt F) → (⟨S50000x128, .f32⟩ : BufTy).Contents (Elt F))
  :: StableHlo.reshape main_v178 main_v238 rfl shapeCasts_S64_S1x64
  :: StableHlo.reshape main_v182 main_v239 rfl shapeCasts_S64_S1x64
  :: [] )

theorem hostOps5n_eq : (hostOps5 (F := F)) = hostOps5n := rfl

set_option maxHeartbeats 4000000 in
/-- `main_v237` after the stretch, from the live-in buffers' values. -/
theorem s5_main_v237 (W : Valuation τ sig (Elt Ideal)) (V0' : Valuation Cert.ReferenceIdeal.τ Cert.ReferenceIdeal.sig (Elt Ideal))
    (h_main_v80 : W (Proc.devRef .tc main_v80) = Cert.ReferenceIdeal.Value.res_main_v98 V0')
    (h_main_v174 : W (Proc.devRef .tc main_v174) = Cert.ReferenceIdeal.RefValue.t_main_v206 V0')
    (h_main_v172 : W (Proc.devRef .tc main_v172) = Cert.ReferenceIdeal.RefValue.t_main_v204 V0')
    (h_main_v84 : W (Proc.devRef .tc main_v84) = Cert.ReferenceIdeal.Value.res_main_v102 V0')
    (h_main_v200 : W (Proc.devRef .tc main_v200) = Cert.ReferenceIdeal.RefValue.t_main_v239 V0') :
    StableHlo.after (hostOps5 (F := Ideal)) W (Proc.devRef .tc main_v237) = Cert.ReferenceIdeal.RefValue.t_main_v276 V0' := by
  rw [hostOps5n_eq]
  simp only [hostOps5n]
  after_results_simp
  try dsimp only [Matrix.cons_val]
  try after_results_simp
  simp only [h_main_v80, h_main_v174, h_main_v172, h_main_v84, h_main_v200] <;> rfl

set_option maxHeartbeats 4000000 in
/-- `main_v238` after the stretch, from the live-in buffers' values. -/
theorem s5_main_v238 (W : Valuation τ sig (Elt Ideal)) (V0' : Valuation Cert.ReferenceIdeal.τ Cert.ReferenceIdeal.sig (Elt Ideal))
    (h_main_v178 : W (Proc.devRef .tc main_v178) = Cert.ReferenceIdeal.RefValue.t_main_v210 V0') :
    StableHlo.after (hostOps5 (F := Ideal)) W (Proc.devRef .tc main_v238) = shapeCast _ (Cert.ReferenceIdeal.RefValue.t_main_v210 V0') shapeCasts_S64_S1x64 := by
  rw [hostOps5n_eq]
  simp only [hostOps5n]
  after_results_simp
  try dsimp only [Matrix.cons_val]
  try after_results_simp
  simp only [h_main_v178] <;> rfl

set_option maxHeartbeats 4000000 in
/-- `main_v239` after the stretch, from the live-in buffers' values. -/
theorem s5_main_v239 (W : Valuation τ sig (Elt Ideal)) (V0' : Valuation Cert.ReferenceIdeal.τ Cert.ReferenceIdeal.sig (Elt Ideal))
    (h_main_v182 : W (Proc.devRef .tc main_v182) = Cert.ReferenceIdeal.RefValue.t_main_v214 V0') :
    StableHlo.after (hostOps5 (F := Ideal)) W (Proc.devRef .tc main_v239) = shapeCast _ (Cert.ReferenceIdeal.RefValue.t_main_v214 V0') shapeCasts_S64_S1x64 := by
  rw [hostOps5n_eq]
  simp only [hostOps5n]
  after_results_simp
  try dsimp only [Matrix.cons_val]
  try after_results_simp
  simp only [h_main_v182] <;> rfl

end Cert.KernelIdeal.Frm

end
-- ==== Proof.IdealChain5.lean ====
/-
  The kernel's buffers at the boundaries 10 and 11 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain4
import proofs.«181157_j5506148073958_2_alg».proof.Proof.IdealFinal4
import proofs.«181157_j5506148073958_2_alg».proof.Proof.IdealStretch5

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 10 -/

theorem L10_main_arg17 (hag : Agree m ρ c V0') : W10 m ρ c (Proc.devRef .tc main_arg17) = Cert.ReferenceIdeal.RefValue.a17 V0' := (W10_of_ne m ρ c main_arg17 (by decide)).trans (L9_main_arg17 m ρ c V0' hag)

theorem L10_main_arg18 (hag : Agree m ρ c V0') : W10 m ρ c (Proc.devRef .tc main_arg18) = Cert.ReferenceIdeal.RefValue.a18 V0' := (W10_of_ne m ρ c main_arg18 (by decide)).trans (L9_main_arg18 m ρ c V0' hag)

theorem L10_main_arg19 (hag : Agree m ρ c V0') : W10 m ρ c (Proc.devRef .tc main_arg19) = Cert.ReferenceIdeal.RefValue.a19 V0' := (W10_of_ne m ρ c main_arg19 (by decide)).trans (L9_main_arg19 m ρ c V0' hag)

theorem L10_main_arg20 (hag : Agree m ρ c V0') : W10 m ρ c (Proc.devRef .tc main_arg20) = Cert.ReferenceIdeal.RefValue.a20 V0' := (W10_of_ne m ρ c main_arg20 (by decide)).trans (L9_main_arg20 m ρ c V0' hag)

theorem L10_main_arg21 (hag : Agree m ρ c V0') : W10 m ρ c (Proc.devRef .tc main_arg21) = Cert.ReferenceIdeal.RefValue.a21 V0' := (W10_of_ne m ρ c main_arg21 (by decide)).trans (L9_main_arg21 m ρ c V0' hag)

theorem L10_main_arg22 (hag : Agree m ρ c V0') : W10 m ρ c (Proc.devRef .tc main_arg22) = Cert.ReferenceIdeal.RefValue.a22 V0' := (W10_of_ne m ρ c main_arg22 (by decide)).trans (L9_main_arg22 m ρ c V0' hag)

theorem L10_main_arg23 (hag : Agree m ρ c V0') : W10 m ρ c (Proc.devRef .tc main_arg23) = Cert.ReferenceIdeal.RefValue.a23 V0' := (W10_of_ne m ρ c main_arg23 (by decide)).trans (L9_main_arg23 m ρ c V0' hag)

theorem L10_main_arg24 (hag : Agree m ρ c V0') : W10 m ρ c (Proc.devRef .tc main_arg24) = Cert.ReferenceIdeal.RefValue.a24 V0' := (W10_of_ne m ρ c main_arg24 (by decide)).trans (L9_main_arg24 m ρ c V0' hag)

theorem L10_main_arg25 (hag : Agree m ρ c V0') : W10 m ρ c (Proc.devRef .tc main_arg25) = Cert.ReferenceIdeal.RefValue.a25 V0' := (W10_of_ne m ρ c main_arg25 (by decide)).trans (L9_main_arg25 m ρ c V0' hag)

theorem L10_main_arg26 (hag : Agree m ρ c V0') : W10 m ρ c (Proc.devRef .tc main_arg26) = Cert.ReferenceIdeal.RefValue.a26 V0' := (W10_of_ne m ρ c main_arg26 (by decide)).trans (L9_main_arg26 m ρ c V0' hag)

theorem L10_main_v80 (hag : Agree m ρ c V0') : W10 m ρ c (Proc.devRef .tc main_v80) = Cert.ReferenceIdeal.Value.res_main_v98 V0' := (W10_of_ne m ρ c main_v80 (by decide)).trans (L9_main_v80 m ρ c V0' hag)

theorem L10_main_v52 (hag : Agree m ρ c V0') : W10 m ρ c (Proc.devRef .tc main_v52) = Cert.ReferenceIdeal.Value.res_main_v61 V0' := (W10_of_ne m ρ c main_v52 (by decide)).trans (L9_main_v52 m ρ c V0' hag)

theorem L10_main_v82 (hag : Agree m ρ c V0') : W10 m ρ c (Proc.devRef .tc main_v82) = Cert.ReferenceIdeal.Value.res_main_v100 V0' := (W10_of_ne m ρ c main_v82 (by decide)).trans (L9_main_v82 m ρ c V0' hag)

theorem L10_main_v84 (hag : Agree m ρ c V0') : W10 m ρ c (Proc.devRef .tc main_v84) = Cert.ReferenceIdeal.Value.res_main_v102 V0' := (W10_of_ne m ρ c main_v84 (by decide)).trans (L9_main_v84 m ρ c V0' hag)

theorem L10_main_v162 (hag : Agree m ρ c V0') : W10 m ρ c (Proc.devRef .tc main_v162) = Cert.ReferenceIdeal.Value.res_main_v194 V0' := (W10_of_ne m ρ c main_v162 (by decide)).trans (L9_main_v162 m ρ c V0' hag)

theorem L10_main_v200 (hag : Agree m ρ c V0') : W10 m ρ c (Proc.devRef .tc main_v200) = Cert.ReferenceIdeal.RefValue.t_main_v239 V0' := by
  refine (W10_arr m ρ c 5).trans ?_
  refine (final4 (V9 m ρ) c).trans ?_
  unfold G4
  have h0 : V9 m ρ c main_v197 = Cert.ReferenceIdeal.RefValue.t_main_v229 V0' := (L9_main_v197 m ρ c V0' hag)
  have hW0 : V9 m ρ c main_v164 = Cert.ReferenceIdeal.RefValue.t_main_v196 V0' := (L9_main_v164 m ρ c V0' hag)
  have hb0 : Cert.LibRowBias.rowOf (V9 m ρ c main_v198) = Cert.ReferenceIdeal.RefValue.t_main_v198 V0' := by
    rw [show V9 m ρ c main_v198 = shapeCast _ (Cert.ReferenceIdeal.RefValue.t_main_v198 V0') shapeCasts_S64_S1x64 from (L9_main_v198 m ρ c V0' hag)]
    exact Cert.LibRowBias.rowOf_shapeCast _ _
  have hW1 : V9 m ρ c main_v168 = Cert.ReferenceIdeal.RefValue.t_main_v200 V0' := (L9_main_v168 m ρ c V0' hag)
  have hb1 : Cert.LibRowBias.rowOf (V9 m ρ c main_v199) = Cert.ReferenceIdeal.RefValue.t_main_v202 V0' := by
    rw [show V9 m ρ c main_v199 = shapeCast _ (Cert.ReferenceIdeal.RefValue.t_main_v202 V0') shapeCasts_S64_S1x64 from (L9_main_v199 m ρ c V0' hag)]
    exact Cert.LibRowBias.rowOf_shapeCast _ _
  rw [h0, hW0, hb0, hW1, hb1]
  exact (Cert.ReferenceIdeal.RefValue.stage4_ref V0').symm

theorem L10_main_v172 (hag : Agree m ρ c V0') : W10 m ρ c (Proc.devRef .tc main_v172) = Cert.ReferenceIdeal.RefValue.t_main_v204 V0' := (W10_of_ne m ρ c main_v172 (by decide)).trans (L9_main_v172 m ρ c V0' hag)

theorem L10_main_v174 (hag : Agree m ρ c V0') : W10 m ρ c (Proc.devRef .tc main_v174) = Cert.ReferenceIdeal.RefValue.t_main_v206 V0' := (W10_of_ne m ρ c main_v174 (by decide)).trans (L9_main_v174 m ρ c V0' hag)

theorem L10_main_v178 (hag : Agree m ρ c V0') : W10 m ρ c (Proc.devRef .tc main_v178) = Cert.ReferenceIdeal.RefValue.t_main_v210 V0' := (W10_of_ne m ρ c main_v178 (by decide)).trans (L9_main_v178 m ρ c V0' hag)

theorem L10_main_v182 (hag : Agree m ρ c V0') : W10 m ρ c (Proc.devRef .tc main_v182) = Cert.ReferenceIdeal.RefValue.t_main_v214 V0' := (W10_of_ne m ρ c main_v182 (by decide)).trans (L9_main_v182 m ρ c V0' hag)

theorem L10_main_v176 (hag : Agree m ρ c V0') : W10 m ρ c (Proc.devRef .tc main_v176) = Cert.ReferenceIdeal.RefValue.t_main_v208 V0' := (W10_of_ne m ρ c main_v176 (by decide)).trans (L9_main_v176 m ρ c V0' hag)

theorem L10_main_v180 (hag : Agree m ρ c V0') : W10 m ρ c (Proc.devRef .tc main_v180) = Cert.ReferenceIdeal.RefValue.t_main_v212 V0' := (W10_of_ne m ρ c main_v180 (by decide)).trans (L9_main_v180 m ρ c V0' hag)

theorem L10_main_arg27 (hag : Agree m ρ c V0') : W10 m ρ c (Proc.devRef .tc main_arg27) = Cert.ReferenceIdeal.RefValue.a27 V0' := (W10_of_ne m ρ c main_arg27 (by decide)).trans (L9_main_arg27 m ρ c V0' hag)

theorem L10_main_arg28 (hag : Agree m ρ c V0') : W10 m ρ c (Proc.devRef .tc main_arg28) = Cert.ReferenceIdeal.RefValue.a28 V0' := (W10_of_ne m ρ c main_arg28 (by decide)).trans (L9_main_arg28 m ρ c V0' hag)

theorem L10_main_arg29 (hag : Agree m ρ c V0') : W10 m ρ c (Proc.devRef .tc main_arg29) = Cert.ReferenceIdeal.RefValue.a29 V0' := (W10_of_ne m ρ c main_arg29 (by decide)).trans (L9_main_arg29 m ρ c V0' hag)

theorem L10_main_arg31 (hag : Agree m ρ c V0') : W10 m ρ c (Proc.devRef .tc main_arg31) = Cert.ReferenceIdeal.RefValue.a31 V0' := (W10_of_ne m ρ c main_arg31 (by decide)).trans (L9_main_arg31 m ρ c V0' hag)

theorem L10_main_arg33 (hag : Agree m ρ c V0') : W10 m ρ c (Proc.devRef .tc main_arg33) = Cert.ReferenceIdeal.RefValue.a33 V0' := (W10_of_ne m ρ c main_arg33 (by decide)).trans (L9_main_arg33 m ρ c V0' hag)

theorem L10_main_arg35 (hag : Agree m ρ c V0') : W10 m ρ c (Proc.devRef .tc main_arg35) = Cert.ReferenceIdeal.RefValue.a35 V0' := (W10_of_ne m ρ c main_arg35 (by decide)).trans (L9_main_arg35 m ρ c V0' hag)

theorem L10_main_arg30 (hag : Agree m ρ c V0') : W10 m ρ c (Proc.devRef .tc main_arg30) = Cert.ReferenceIdeal.RefValue.a30 V0' := (W10_of_ne m ρ c main_arg30 (by decide)).trans (L9_main_arg30 m ρ c V0' hag)

theorem L10_main_arg32 (hag : Agree m ρ c V0') : W10 m ρ c (Proc.devRef .tc main_arg32) = Cert.ReferenceIdeal.RefValue.a32 V0' := (W10_of_ne m ρ c main_arg32 (by decide)).trans (L9_main_arg32 m ρ c V0' hag)

theorem L10_main_arg34 (hag : Agree m ρ c V0') : W10 m ρ c (Proc.devRef .tc main_arg34) = Cert.ReferenceIdeal.RefValue.a34 V0' := (W10_of_ne m ρ c main_arg34 (by decide)).trans (L9_main_arg34 m ρ c V0' hag)

/-! ## Boundary 11 -/

theorem L11_main_arg17 (hag : Agree m ρ c V0') : W11 m ρ c (Proc.devRef .tc main_arg17) = Cert.ReferenceIdeal.RefValue.a17 V0' := (W11_of m ρ c main_arg17 (by decide)).trans (L10_main_arg17 m ρ c V0' hag)

theorem L11_main_arg18 (hag : Agree m ρ c V0') : W11 m ρ c (Proc.devRef .tc main_arg18) = Cert.ReferenceIdeal.RefValue.a18 V0' := (W11_of m ρ c main_arg18 (by decide)).trans (L10_main_arg18 m ρ c V0' hag)

theorem L11_main_arg19 (hag : Agree m ρ c V0') : W11 m ρ c (Proc.devRef .tc main_arg19) = Cert.ReferenceIdeal.RefValue.a19 V0' := (W11_of m ρ c main_arg19 (by decide)).trans (L10_main_arg19 m ρ c V0' hag)

theorem L11_main_arg20 (hag : Agree m ρ c V0') : W11 m ρ c (Proc.devRef .tc main_arg20) = Cert.ReferenceIdeal.RefValue.a20 V0' := (W11_of m ρ c main_arg20 (by decide)).trans (L10_main_arg20 m ρ c V0' hag)

theorem L11_main_arg21 (hag : Agree m ρ c V0') : W11 m ρ c (Proc.devRef .tc main_arg21) = Cert.ReferenceIdeal.RefValue.a21 V0' := (W11_of m ρ c main_arg21 (by decide)).trans (L10_main_arg21 m ρ c V0' hag)

theorem L11_main_arg22 (hag : Agree m ρ c V0') : W11 m ρ c (Proc.devRef .tc main_arg22) = Cert.ReferenceIdeal.RefValue.a22 V0' := (W11_of m ρ c main_arg22 (by decide)).trans (L10_main_arg22 m ρ c V0' hag)

theorem L11_main_arg23 (hag : Agree m ρ c V0') : W11 m ρ c (Proc.devRef .tc main_arg23) = Cert.ReferenceIdeal.RefValue.a23 V0' := (W11_of m ρ c main_arg23 (by decide)).trans (L10_main_arg23 m ρ c V0' hag)

theorem L11_main_arg24 (hag : Agree m ρ c V0') : W11 m ρ c (Proc.devRef .tc main_arg24) = Cert.ReferenceIdeal.RefValue.a24 V0' := (W11_of m ρ c main_arg24 (by decide)).trans (L10_main_arg24 m ρ c V0' hag)

theorem L11_main_arg25 (hag : Agree m ρ c V0') : W11 m ρ c (Proc.devRef .tc main_arg25) = Cert.ReferenceIdeal.RefValue.a25 V0' := (W11_of m ρ c main_arg25 (by decide)).trans (L10_main_arg25 m ρ c V0' hag)

theorem L11_main_arg26 (hag : Agree m ρ c V0') : W11 m ρ c (Proc.devRef .tc main_arg26) = Cert.ReferenceIdeal.RefValue.a26 V0' := (W11_of m ρ c main_arg26 (by decide)).trans (L10_main_arg26 m ρ c V0' hag)

theorem L11_main_v80 (hag : Agree m ρ c V0') : W11 m ρ c (Proc.devRef .tc main_v80) = Cert.ReferenceIdeal.Value.res_main_v98 V0' := (W11_of m ρ c main_v80 (by decide)).trans (L10_main_v80 m ρ c V0' hag)

theorem L11_main_v52 (hag : Agree m ρ c V0') : W11 m ρ c (Proc.devRef .tc main_v52) = Cert.ReferenceIdeal.Value.res_main_v61 V0' := (W11_of m ρ c main_v52 (by decide)).trans (L10_main_v52 m ρ c V0' hag)

theorem L11_main_v82 (hag : Agree m ρ c V0') : W11 m ρ c (Proc.devRef .tc main_v82) = Cert.ReferenceIdeal.Value.res_main_v100 V0' := (W11_of m ρ c main_v82 (by decide)).trans (L10_main_v82 m ρ c V0' hag)

theorem L11_main_v84 (hag : Agree m ρ c V0') : W11 m ρ c (Proc.devRef .tc main_v84) = Cert.ReferenceIdeal.Value.res_main_v102 V0' := (W11_of m ρ c main_v84 (by decide)).trans (L10_main_v84 m ρ c V0' hag)

theorem L11_main_v162 (hag : Agree m ρ c V0') : W11 m ρ c (Proc.devRef .tc main_v162) = Cert.ReferenceIdeal.Value.res_main_v194 V0' := (W11_of m ρ c main_v162 (by decide)).trans (L10_main_v162 m ρ c V0' hag)

theorem L11_main_v237 (hag : Agree m ρ c V0') : W11 m ρ c (Proc.devRef .tc main_v237) = Cert.ReferenceIdeal.RefValue.t_main_v276 V0' := s5_main_v237 (W10 m ρ c) V0' (L10_main_v80 m ρ c V0' hag) (L10_main_v174 m ρ c V0' hag) (L10_main_v172 m ρ c V0' hag) (L10_main_v84 m ρ c V0' hag) (L10_main_v200 m ρ c V0' hag)

theorem L11_main_v176 (hag : Agree m ρ c V0') : W11 m ρ c (Proc.devRef .tc main_v176) = Cert.ReferenceIdeal.RefValue.t_main_v208 V0' := (W11_of m ρ c main_v176 (by decide)).trans (L10_main_v176 m ρ c V0' hag)

theorem L11_main_v238 (hag : Agree m ρ c V0') : W11 m ρ c (Proc.devRef .tc main_v238) = shapeCast _ (Cert.ReferenceIdeal.RefValue.t_main_v210 V0') shapeCasts_S64_S1x64 := s5_main_v238 (W10 m ρ c) V0' (L10_main_v178 m ρ c V0' hag)

theorem L11_main_v180 (hag : Agree m ρ c V0') : W11 m ρ c (Proc.devRef .tc main_v180) = Cert.ReferenceIdeal.RefValue.t_main_v212 V0' := (W11_of m ρ c main_v180 (by decide)).trans (L10_main_v180 m ρ c V0' hag)

theorem L11_main_v239 (hag : Agree m ρ c V0') : W11 m ρ c (Proc.devRef .tc main_v239) = shapeCast _ (Cert.ReferenceIdeal.RefValue.t_main_v214 V0') shapeCasts_S64_S1x64 := s5_main_v239 (W10 m ρ c) V0' (L10_main_v182 m ρ c V0' hag)

theorem L11_main_arg27 (hag : Agree m ρ c V0') : W11 m ρ c (Proc.devRef .tc main_arg27) = Cert.ReferenceIdeal.RefValue.a27 V0' := (W11_of m ρ c main_arg27 (by decide)).trans (L10_main_arg27 m ρ c V0' hag)

theorem L11_main_arg28 (hag : Agree m ρ c V0') : W11 m ρ c (Proc.devRef .tc main_arg28) = Cert.ReferenceIdeal.RefValue.a28 V0' := (W11_of m ρ c main_arg28 (by decide)).trans (L10_main_arg28 m ρ c V0' hag)

theorem L11_main_arg29 (hag : Agree m ρ c V0') : W11 m ρ c (Proc.devRef .tc main_arg29) = Cert.ReferenceIdeal.RefValue.a29 V0' := (W11_of m ρ c main_arg29 (by decide)).trans (L10_main_arg29 m ρ c V0' hag)

theorem L11_main_arg31 (hag : Agree m ρ c V0') : W11 m ρ c (Proc.devRef .tc main_arg31) = Cert.ReferenceIdeal.RefValue.a31 V0' := (W11_of m ρ c main_arg31 (by decide)).trans (L10_main_arg31 m ρ c V0' hag)

theorem L11_main_arg33 (hag : Agree m ρ c V0') : W11 m ρ c (Proc.devRef .tc main_arg33) = Cert.ReferenceIdeal.RefValue.a33 V0' := (W11_of m ρ c main_arg33 (by decide)).trans (L10_main_arg33 m ρ c V0' hag)

theorem L11_main_arg35 (hag : Agree m ρ c V0') : W11 m ρ c (Proc.devRef .tc main_arg35) = Cert.ReferenceIdeal.RefValue.a35 V0' := (W11_of m ρ c main_arg35 (by decide)).trans (L10_main_arg35 m ρ c V0' hag)

theorem L11_main_arg30 (hag : Agree m ρ c V0') : W11 m ρ c (Proc.devRef .tc main_arg30) = Cert.ReferenceIdeal.RefValue.a30 V0' := (W11_of m ρ c main_arg30 (by decide)).trans (L10_main_arg30 m ρ c V0' hag)

theorem L11_main_arg32 (hag : Agree m ρ c V0') : W11 m ρ c (Proc.devRef .tc main_arg32) = Cert.ReferenceIdeal.RefValue.a32 V0' := (W11_of m ρ c main_arg32 (by decide)).trans (L10_main_arg32 m ρ c V0' hag)

theorem L11_main_arg34 (hag : Agree m ρ c V0') : W11 m ρ c (Proc.devRef .tc main_arg34) = Cert.ReferenceIdeal.RefValue.a34 V0' := (W11_of m ρ c main_arg34 (by decide)).trans (L10_main_arg34 m ρ c V0' hag)

end Cert.KernelIdeal.Frm

end
-- ==== Proof.IdealFinal5.lean ====
/-
  What region 5 leaves in its output array, at the extended reals: the rectified layer followed by a layer of the
  WHOLE input array. Point t loads rows 5000·t … 5000·t + 4999 of the input and the whole weight matrices and one-row biases,
  and writes back the stage of that block of rows; row p of a stage depends only on row p of its input, so what point t
  writes back is rows 5000·t … of the stage of the whole array; the 10 blocks tile the 50000 rows.
-/
import proofs.«181157_j5506148073958_2_alg».proof.Proof.IdealRegion5
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz5 : (![0, 0] : Fin 2 → Nat) = fun _ => 0 := funext fun a => by fin_cases a <;> rfl

/-- The stage of the whole arrays as the region finds them. -/
def G5 (c : Dev nD) : S50000x64.Idx → EReal :=
  ra (V c main_v237) (V c main_v176) (rowOf (V c main_v238)) (V c main_v180) (rowOf (V c main_v239))

/-- The printed index maps, decided over the grid: the input rows' window moves with the output's, every other window
    stays at block 0, and the output's block index stays in range. -/
theorem idx_facts5 : ∀ t : Fin cfg5.N, win5_0.index t (0 : Fin 2) = win5_5.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (1 : Fin 2) = 0
    ∧ win5_5.index t (0 : Fin 2) ≤ 9 :=
  (by decide +kernel : ∀ t : Fin grid5.N, _)

/-- Every block of rows is some point's. -/
theorem idx_onto5 : ∀ q0 : Fin 10, ∃ t : Fin cfg5.N, win5_5.index t = ![q0.val, 0] :=
  (by decide +kernel : ∀ q0 : Fin 10, ∃ t : Fin grid5.N, win5_5.index t = ![q0.val, 0])

/-- What point t writes back is block t of the stage of the whole arrays. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [after5_5]
  unfold out5_5
  rw [View.canon_unit_zero hz5]
  simp only [View.ld_unit_zero (S := S5000x128) hz5, View.ld_unit_zero (S := S128x64) hz5, View.ld_unit_zero (S := S1x64) hz5, View.ld_unit_zero (S := S64x64) hz5]
  obtain ⟨e0, e1, e2, e3, e4, e5, e6, e7, e8, e9, e10, e11⟩ := idx_facts5 t
  have hw1 : iblk5 V c 1 t = V c main_v176 := by
    funext y
    show V c main_v176 (((cfg5.win 1).blk t).view.emb y) = V c main_v176 y
    refine congrArg _ ?_
    funext a; apply Fin.ext
    match a with
    | ⟨0, _⟩ => show win5_1.index t (0 : Fin 2) * 128 + 1 * (y 0).val = (y 0).val; omega
    | ⟨1, _⟩ => show win5_1.index t (1 : Fin 2) * 64 + 1 * (y 1).val = (y 1).val; omega
  have hw2 : iblk5 V c 2 t = V c main_v238 := by
    funext y
    show V c main_v238 (((cfg5.win 2).blk t).view.emb y) = V c main_v238 y
    refine congrArg _ ?_
    funext a; apply Fin.ext
    match a with
    | ⟨0, _⟩ => show win5_2.index t (0 : Fin 2) * 1 + 1 * (y 0).val = (y 0).val; omega
    | ⟨1, _⟩ => show win5_2.index t (1 : Fin 2) * 64 + 1 * (y 1).val = (y 1).val; omega
  have hw3 : iblk5 V c 3 t = V c main_v180 := by
    funext y
    show V c main_v180 (((cfg5.win 3).blk t).view.emb y) = V c main_v180 y
    refine congrArg _ ?_
    funext a; apply Fin.ext
    match a with
    | ⟨0, _⟩ => show win5_3.index t (0 : Fin 2) * 64 + 1 * (y 0).val = (y 0).val; omega
    | ⟨1, _⟩ => show win5_3.index t (1 : Fin 2) * 64 + 1 * (y 1).val = (y 1).val; omega
  have hw4 : iblk5 V c 4 t = V c main_v239 := by
    funext y
    show V c main_v239 (((cfg5.win 4).blk t).view.emb y) = V c main_v239 y
    refine congrArg _ ?_
    funext a; apply Fin.ext
    match a with
    | ⟨0, _⟩ => show win5_4.index t (0 : Fin 2) * 1 + 1 * (y 0).val = (y 0).val; omega
    | ⟨1, _⟩ => show win5_4.index t (1 : Fin 2) * 64 + 1 * (y 1).val = (y 1).val; omega
  funext j
  obtain ⟨p, q, rfl⟩ : ∃ (p : Fin 5000) (q : Fin 64), j = ix2 p q := ⟨j 0, j 1, eq_ix2 j⟩
  refine (pay5_apply (iblk5 V c 0 t) (iblk5 V c 1 t) (iblk5 V c 2 t) (iblk5 V c 3 t) (iblk5 V c 4 t) p q).trans ?_
  rw [hw1, hw2, hw3, hw4]
  have hp : p.val < 5000 := p.isLt
  have hrow : win5_5.index t (0 : Fin 2) * 5000 + p.val < 50000 := by omega
  have hemb : ((cfg5.win 5).blk t).view.emb (ix2 p q) = ix2 (⟨win5_5.index t (0 : Fin 2) * 5000 + p.val, hrow⟩ : Fin 50000) q := by
    funext a; apply Fin.ext
    match a with
    | ⟨0, _⟩ => show win5_5.index t (0 : Fin 2) * 5000 + 1 * p.val = win5_5.index t (0 : Fin 2) * 5000 + p.val; omega
    | ⟨1, _⟩ => show win5_5.index t (1 : Fin 2) * 64 + 1 * q.val = q.val; omega
  show ra (iblk5 V c 0 t) _ _ _ _ (ix2 p q) = G5 V c (((cfg5.win 5).blk t).view.emb (ix2 p q))
  rw [hemb]
  refine ra_row _ _ _ _ _ _ p _ (fun k => ?_) q
  show V c main_v237 (((cfg5.win 0).blk t).view.emb (ix2 p k)) = V c main_v237 (ix2 (⟨win5_5.index t (0 : Fin 2) * 5000 + p.val, hrow⟩ : Fin 50000) k)
  refine congrArg _ ?_
  funext a; apply Fin.ext
  match a with
  | ⟨0, _⟩ => show win5_0.index t (0 : Fin 2) * 5000 + 1 * p.val = win5_5.index t (0 : Fin 2) * 5000 + p.val; omega
  | ⟨1, _⟩ => show win5_0.index t (1 : Fin 2) * 128 + 1 * k.val = k.val; omega

/-- An index of the output array is in point t's block iff its row is in the block's range. -/
theorem mem_blk5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v240).slice (win5_5.rect t)).set ↔ _
  rw [View.set_slice_whole, Rect.mem_set_unit]
  exact Iff.rfl

/-- The blocks cover the output array. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, ht⟩ := idx_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-- The output array after the region: the stage of the whole arrays. -/
theorem final5 (c : Dev nD) : (dat5 (F := Ideal) V c).arrAt 5 cfg5.N = G5 V c :=
  (dat5 (F := Ideal) V c).arrAt_eq_of_cover 5 (G5 V c) (fun t _ => flushed5_eq V c t) (cover5)

end Cert.KernelIdeal.Frm

end
-- ==== Proof.IdealStretch6.lean ====
/-
  Host stretch 6 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v335`, as a function of its 3 operands. -/
def cat_main_v335 (a : (main_v327 : Ref sig .tc).ty.Contents (Elt F)) (b : (main_v52 : Ref sig .tc).ty.Contents (Elt F)) (c : (main_v334 : Ref sig .tc).ty.Contents (Elt F)) : (main_v335 : Ref sig .tc).ty.Contents (Elt F) :=
  concatenate S600000x129 1 [⟨S600000x64, a⟩, ⟨S600000x1, b⟩, ⟨S600000x64, c⟩] concatenates_S600000x64_S600000x1_S600000x64_S600000x129_d1

/-- The stretch's operations with each concatenation's function named (evaluation then goes on into a concatenation's
    operands instead of stopping at the list of pairs that holds them). -/
abbrev hostOps6n : List (HloOp τ sig (Elt F)) :=
  ( StableHlo.unary main_arg27 main_v241 ((extractStridedSlice S1x64 ![0, 0] · slices_S4x64_S1x64_0_0) : (⟨S4x64, .f32⟩ : BufTy).Contents (Elt F) → (⟨S1x64, .f32⟩ : BufTy).Contents (Elt F))
  :: StableHlo.reshape main_v241 main_v242 rfl shapeCasts_S1x64_S64
  :: StableHlo.unary main_arg28 main_v243 ((extractStridedSlice S1x64 ![0, 0] · slices_S4x64_S1x64_0_0) : (⟨S4x64, .f32⟩ : BufTy).Contents (Elt F) → (⟨S1x64, .f32⟩ : BufTy).Contents (Elt F))
  :: StableHlo.reshape main_v243 main_v244 rfl shapeCasts_S1x64_S64
  :: StableHlo.unary main_arg29 main_v245 ((extractStridedSlice S1x64 ![0, 0] · slices_S4x64_S1x64_0_0) : (⟨S4x64, .f32⟩ : BufTy).Contents (Elt F) → (⟨S1x64, .f32⟩ : BufTy).Contents (Elt F))
  :: StableHlo.reshape main_v245 main_v246 rfl shapeCasts_S1x64_S64
  :: StableHlo.nullary main_cst_39 (constant S_ .f32 0x00000000#32)
  :: StableHlo.binary main_v162 main_cst_39 main_v247 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v247 main_v248 (broadcastInDim S1x64 ![1] bcast_S64_S1x64_1 : (⟨S64, .f32⟩ : BufTy).Contents (Elt F) → (⟨S1x64, .f32⟩ : BufTy).Contents (Elt F))
  :: StableHlo.nullary main_cst_40 (constant S_ .f32 0x47435000#32)
  :: StableHlo.unary main_cst_40 main_v249 (broadcastInDim S1x64 ![] bcast_S_S1x64 : (⟨S_, .f32⟩ : BufTy).Contents (Elt F) → (⟨S1x64, .f32⟩ : BufTy).Contents (Elt F))
  :: StableHlo.binary main_v248 main_v249 main_v250 (Host.divf : (⟨S1x64, .f32⟩ : BufTy).Contents (Elt F) → (⟨S1x64, .f32⟩ : BufTy).Contents (Elt F) → (⟨S1x64, .f32⟩ : BufTy).Contents (Elt F))
  :: StableHlo.unary main_v246 main_v251 (broadcastInDim S1x64 ![1] bcast_S64_S1x64_1 : (⟨S64, .f32⟩ : BufTy).Contents (Elt F) → (⟨S1x64, .f32⟩ : BufTy).Contents (Elt F))
  :: StableHlo.binary main_v251 main_v250 main_v252 (mulf : (⟨S1x64, .f32⟩ : BufTy).Contents (Elt F) → (⟨S1x64, .f32⟩ : BufTy).Contents (Elt F) → (⟨S1x64, .f32⟩ : BufTy).Contents (Elt F))
  :: StableHlo.unary main_v252 main_v253 (broadcastInDim S50000x64 ![0, 1] bcast_S1x64_S50000x64_0_1 : (⟨S1x64, .f32⟩ : BufTy).Contents (Elt F) → (⟨S50000x64, .f32⟩ : BufTy).Contents (Elt F))
  :: StableHlo.binary main_v162 main_v253 main_v254 (subf : (⟨S50000x64, .f32⟩ : BufTy).Contents (Elt F) → (⟨S50000x64, .f32⟩ : BufTy).Contents (Elt F) → (⟨S50000x64, .f32⟩ : BufTy).Contents (Elt F))
  :: StableHlo.binary main_v254 main_v254 main_v255 (mulf : (⟨S50000x64, .f32⟩ : BufTy).Contents (Elt F) → (⟨S50000x64, .f32⟩ : BufTy).Contents (Elt F) → (⟨S50000x64, .f32⟩ : BufTy).Contents (Elt F))
  :: StableHlo.nullary main_cst_41 (constant S_ .f32 0x00000000#32)
  :: StableHlo.binary main_v255 main_cst_41 main_v256 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v256 main_v257 (broadcastInDim S1x64 ![1] bcast_S64_S1x64_1 : (⟨S64, .f32⟩ : BufTy).Contents (Elt F) → (⟨S1x64, .f32⟩ : BufTy).Contents (Elt F))
  :: StableHlo.nullary main_cst_42 (constant S_ .f32 0x47435000#32)
  :: StableHlo.unary main_cst_42 main_v258 (broadcastInDim S1x64 ![] bcast_S_S1x64 : (⟨S_, .f32⟩ : BufTy).Contents (Elt F) → (⟨S1x64, .f32⟩ : BufTy).Contents (Elt F))
  :: StableHlo.binary main_v257 main_v258 main_v259 (Host.divf : (⟨S1x64, .f32⟩ : BufTy).Contents (Elt F) → (⟨S1x64, .f32⟩ : BufTy).Contents (Elt F) → (⟨S1x64, .f32⟩ : BufTy).Contents (Elt F))
  :: StableHlo.unary main_v242 main_v260 (broadcastInDim S1x64 ![1] bcast_S64_S1x64_1 : (⟨S64, .f32⟩ : BufTy).Contents (Elt F) → (⟨S1x64, .f32⟩ : BufTy).Contents (Elt F))
  :: StableHlo.unary main_v260 main_v261 (broadcastInDim S50000x64 ![0, 1] bcast_S1x64_S50000x64_0_1 : (⟨S1x64, .f32⟩ : BufTy).Contents (Elt F) → (⟨S50000x64, .f32⟩ : BufTy).Contents (Elt F))
  :: StableHlo.binary main_v261 main_v254 main_v262 (mulf : (⟨S50000x64, .f32⟩ : BufTy).Contents (Elt F) → (⟨S50000x64, .f32⟩ : BufTy).Contents (Elt F) → (⟨S50000x64, .f32⟩ : BufTy).Contents (Elt F))
  :: StableHlo.nullary main_cst_43 (constant S_ .f32 0x3727C5AC#32)
  :: StableHlo.unary main_cst_43 main_v263 (broadcastInDim S1x64 ![] bcast_S_S1x64 : (⟨S_, .f32⟩ : BufTy).Contents (Elt F) → (⟨S1x64, .f32⟩ : BufTy).Contents (Elt F))
  :: StableHlo.binary main_v259 main_v263 main_v264 (addf : (⟨S1x64, .f32⟩ : BufTy).Contents (Elt F) → (⟨S1x64, .f32⟩ : BufTy).Contents (Elt F) → (⟨S1x64, .f32⟩ : BufTy).Contents (Elt F))
  :: StableHlo.unary main_v264 main_v265 (Host.rsqrt : (⟨S1x64, .f32⟩ : BufTy).Contents (Elt F) → (⟨S1x64, .f32⟩ : BufTy).Contents (Elt F))
  :: StableHlo.unary main_v265 main_v266 (broadcastInDim S50000x64 ![0, 1] bcast_S1x64_S50000x64_0_1 : (⟨S1x64, .f32⟩ : BufTy).Contents (Elt F) → (⟨S50000x64, .f32⟩ : BufTy).Contents (Elt F))
  :: StableHlo.binary main_v262 main_v266 main_v267 (mulf : (⟨S50000x64, .f32⟩ : BufTy).Contents (Elt F) → (⟨S50000x64, .f32⟩ : BufTy).Contents (Elt F) → (⟨S50000x64, .f32⟩ : BufTy).Contents (Elt F))
  :: StableHlo.unary main_v244 main_v268 (broadcastInDim S1x64 ![1] bcast_S64_S1x64_1 : (⟨S64, .f32⟩ : BufTy).Contents (Elt F) → (⟨S1x64, .f32⟩ : BufTy).Contents (Elt F))
  :: StableHlo.unary main_v268 main_v269 (broadcastInDim S50000x64 ![0, 1] bcast_S1x64_S50000x64_0_1 : (⟨S1x64, .f32⟩ : BufTy).Contents (Elt F) → (⟨S50000x64, .f32⟩ : BufTy).Contents (Elt F))
  :: StableHlo.binary main_v267 main_v269 main_v270 (addf : (⟨S50000x64, .f32⟩ : BufTy).Contents (Elt F) → (⟨S50000x64, .f32⟩ : BufTy).Contents (Elt F) → (⟨S50000x64, .f32⟩ : BufTy).Contents (Elt F))
  :: StableHlo.unary main_arg27 main_v271 ((extractStridedSlice S1x64 ![1, 0] · slices_S4x64_S1x64_1_0) : (⟨S4x64, .f32⟩ : BufTy).Contents (Elt F) → (⟨S1x64, .f32⟩ : BufTy).Contents (Elt F))
  :: StableHlo.reshape main_v271 main_v272 rfl shapeCasts_S1x64_S64
  :: StableHlo.unary main_arg28 main_v273 ((extractStridedSlice S1x64 ![1, 0] · slices_S4x64_S1x64_1_0) : (⟨S4x64, .f32⟩ : BufTy).Contents (Elt F) → (⟨S1x64, .f32⟩ : BufTy).Contents (Elt F))
  :: StableHlo.reshape main_v273 main_v274 rfl shapeCasts_S1x64_S64
  :: StableHlo.unary main_arg29 main_v275 ((extractStridedSlice S1x64 ![1, 0] · slices_S4x64_S1x64_1_0) : (⟨S4x64, .f32⟩ : BufTy).Contents (Elt F) → (⟨S1x64, .f32⟩ : BufTy).Contents (Elt F))
  :: StableHlo.reshape main_v275 main_v276 rfl shapeCasts_S1x64_S64
  :: StableHlo.nullary main_cst_44 (constant S_ .f32 0x00000000#32)
  :: StableHlo.binary main_v240 main_cst_44 main_v277 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v277 main_v278 (broadcastInDim S1x64 ![1] bcast_S64_S1x64_1 : (⟨S64, .f32⟩ : BufTy).Contents (Elt F) → (⟨S1x64, .f32⟩ : BufTy).Contents (Elt F))
  :: StableHlo.nullary main_cst_45 (constant S_ .f32 0x47435000#32)
  :: StableHlo.unary main_cst_45 main_v279 (broadcastInDim S1x64 ![] bcast_S_S1x64 : (⟨S_, .f32⟩ : BufTy).Contents (Elt F) → (⟨S1x64, .f32⟩ : BufTy).Contents (Elt F))
  :: StableHlo.binary main_v278 main_v279 main_v280 (Host.divf : (⟨S1x64, .f32⟩ : BufTy).Contents (Elt F) → (⟨S1x64, .f32⟩ : BufTy).Contents (Elt F) → (⟨S1x64, .f32⟩ : BufTy).Contents (Elt F))
  :: StableHlo.unary main_v276 main_v281 (broadcastInDim S1x64 ![1] bcast_S64_S1x64_1 : (⟨S64, .f32⟩ : BufTy).Contents (Elt F) → (⟨S1x64, .f32⟩ : BufTy).Contents (Elt F))
  :: StableHlo.binary main_v281 main_v280 main_v282 (mulf : (⟨S1x64, .f32⟩ : BufTy).Contents (Elt F) → (⟨S1x64, .f32⟩ : BufTy).Contents (Elt F) → (⟨S1x64, .f32⟩ : BufTy).Contents (Elt F))
  :: StableHlo.unary main_v282 main_v283 (broadcastInDim S50000x64 ![0, 1] bcast_S1x64_S50000x64_0_1 : (⟨S1x64, .f32⟩ : BufTy).Contents (Elt F) → (⟨S50000x64, .f32⟩ : BufTy).Contents (Elt F))
  :: StableHlo.binary main_v240 main_v283 main_v284 (subf : (⟨S50000x64, .f32⟩ : BufTy).Contents (Elt F) → (⟨S50000x64, .f32⟩ : BufTy).Contents (Elt F) → (⟨S50000x64, .f32⟩ : BufTy).Contents (Elt F))
  :: StableHlo.binary main_v284 main_v284 main_v285 (mulf : (⟨S50000x64, .f32⟩ : BufTy).Contents (Elt F) → (⟨S50000x64, .f32⟩ : BufTy).Contents (Elt F) → (⟨S50000x64, .f32⟩ : BufTy).Contents (Elt F))
  :: StableHlo.nullary main_cst_46 (constant S_ .f32 0x00000000#32)
  :: StableHlo.binary main_v285 main_cst_46 main_v286 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v286 main_v287 (broadcastInDim S1x64 ![1] bcast_S64_S1x64_1 : (⟨S64, .f32⟩ : BufTy).Contents (Elt F) → (⟨S1x64, .f32⟩ : BufTy).Contents (Elt F))
  :: StableHlo.nullary main_cst_47 (constant S_ .f32 0x47435000#32)
  :: StableHlo.unary main_cst_47 main_v288 (broadcastInDim S1x64 ![] bcast_S_S1x64 : (⟨S_, .f32⟩ : BufTy).Contents (Elt F) → (⟨S1x64, .f32⟩ : BufTy).Contents (Elt F))
  :: StableHlo.binary main_v287 main_v288 main_v289 (Host.divf : (⟨S1x64, .f32⟩ : BufTy).Contents (Elt F) → (⟨S1x64, .f32⟩ : BufTy).Contents (Elt F) → (⟨S1x64, .f32⟩ : BufTy).Contents (Elt F))
  :: StableHlo.unary main_v272 main_v290 (broadcastInDim S1x64 ![1] bcast_S64_S1x64_1 : (⟨S64, .f32⟩ : BufTy).Contents (Elt F) → (⟨S1x64, .f32⟩ : BufTy).Contents (Elt F))
  :: StableHlo.unary main_v290 main_v291 (broadcastInDim S50000x64 ![0, 1] bcast_S1x64_S50000x64_0_1 : (⟨S1x64, .f32⟩ : BufTy).Contents (Elt F) → (⟨S50000x64, .f32⟩ : BufTy).Contents (Elt F))
  :: StableHlo.binary main_v291 main_v284 main_v292 (mulf : (⟨S50000x64, .f32⟩ : BufTy).Contents (Elt F) → (⟨S50000x64, .f32⟩ : BufTy).Contents (Elt F) → (⟨S50000x64, .f32⟩ : BufTy).Contents (Elt F))
  :: StableHlo.nullary main_cst_48 (constant S_ .f32 0x3727C5AC#32)
  :: StableHlo.unary main_cst_48 main_v293 (broadcastInDim S1x64 ![] bcast_S_S1x64 : (⟨S_, .f32⟩ : BufTy).Contents (Elt F) → (⟨S1x64, .f32⟩ : BufTy).Contents (Elt F))
  :: StableHlo.binary main_v289 main_v293 main_v294 (addf : (⟨S1x64, .f32⟩ : BufTy).Contents (Elt F) → (⟨S1x64, .f32⟩ : BufTy).Contents (Elt F) → (⟨S1x64, .f32⟩ : BufTy).Contents (Elt F))
  :: StableHlo.unary main_v294 main_v295 (Host.rsqrt : (⟨S1x64, .f32⟩ : BufTy).Contents (Elt F) → (⟨S1x64, .f32⟩ : BufTy).Contents (Elt F))
  :: StableHlo.unary main_v295 main_v296 (broadcastInDim S50000x64 ![0, 1] bcast_S1x64_S50000x64_0_1 : (⟨S1x64, .f32⟩ : BufTy).Contents (Elt F) → (⟨S50000x64, .f32⟩ : BufTy).Contents (Elt F))
  :: StableHlo.binary main_v292 main_v296 main_v297 (mulf : (⟨S50000x64, .f32⟩ : BufTy).Contents (Elt F) → (⟨S50000x64, .f32⟩ : BufTy).Contents (Elt F) → (⟨S50000x64, .f32⟩ : BufTy).Contents (Elt F))
  :: StableHlo.unary main_v274 main_v298 (broadcastInDim S1x64 ![1] bcast_S64_S1x64_1 : (⟨S64, .f32⟩ : BufTy).Contents (Elt F) → (⟨S1x64, .f32⟩ : BufTy).Contents (Elt F))
  :: StableHlo.unary main_v298 main_v299 (broadcastInDim S50000x64 ![0, 1] bcast_S1x64_S50000x64_0_1 : (⟨S1x64, .f32⟩ : BufTy).Contents (Elt F) → (⟨S50000x64, .f32⟩ : BufTy).Contents (Elt F))
  :: StableHlo.binary main_v297 main_v299 main_v300 (addf : (⟨S50000x64, .f32⟩ : BufTy).Contents (Elt F) → (⟨S50000x64, .f32⟩ : BufTy).Contents (Elt F) → (⟨S50000x64, .f32⟩ : BufTy).Contents (Elt F))
  :: StableHlo.unary main_arg17 main_v301 ((extractStridedSlice S1x129x64 ![2, 0, 0] · slices_S4x129x64_S1x129x64_2_0_0) : (⟨S4x129x64, .f32⟩ : BufTy).Contents (Elt F) → (⟨S1x129x64, .f32⟩ : BufTy).Contents (Elt F))
  :: StableHlo.reshape main_v301 main_v302 rfl shapeCasts_S1x129x64_S129x64
  :: StableHlo.unary main_arg18 main_v303 ((extractStridedSlice S1x64 ![2, 0] · slices_S4x64_S1x64_2_0) : (⟨S4x64, .f32⟩ : BufTy).Contents (Elt F) → (⟨S1x64, .f32⟩ : BufTy).Contents (Elt F))
  :: StableHlo.reshape main_v303 main_v304 rfl shapeCasts_S1x64_S64
  :: StableHlo.unary main_arg19 main_v305 ((extractStridedSlice S1x64x64 ![2, 0, 0] · slices_S4x64x64_S1x64x64_2_0_0) : (⟨S4x64x64, .f32⟩ : BufTy).Contents (Elt F) → (⟨S1x64x64, .f32⟩ : BufTy).Contents (Elt F))
  :: StableHlo.reshape main_v305 main_v306 rfl shapeCasts_S1x64x64_S64x64
  :: StableHlo.unary main_arg20 main_v307 ((extractStridedSlice S1x64 ![2, 0] · slices_S4x64_S1x64_2_0) : (⟨S4x64, .f32⟩ : BufTy).Contents (Elt F) → (⟨S1x64, .f32⟩ : BufTy).Contents (Elt F))
  :: StableHlo.reshape main_v307 main_v308 rfl shapeCasts_S1x64_S64
  :: StableHlo.unary main_arg21 main_v309 ((extractStridedSlice S1x64 ![2, 0] · slices_S4x64_S1x64_2_0) : (⟨S4x64, .f32⟩ : BufTy).Contents (Elt F) → (⟨S1x64, .f32⟩ : BufTy).Contents (Elt F))
  :: StableHlo.reshape main_v309 main_v310 rfl shapeCasts_S1x64_S64
  :: StableHlo.unary main_arg22 main_v311 ((extractStridedSlice S1x64 ![2, 0] · slices_S4x64_S1x64_2_0) : (⟨S4x64, .f32⟩ : BufTy).Contents (Elt F) → (⟨S1x64, .f32⟩ : BufTy).Contents (Elt F))
  :: StableHlo.reshape main_v311 main_v312 rfl shapeCasts_S1x64_S64
  :: StableHlo.unary main_arg23 main_v313 ((extractStridedSlice S1x128x64 ![2, 0, 0] · slices_S4x128x64_S1x128x64_2_0_0) : (⟨S4x128x64, .f32⟩ : BufTy).Contents (Elt F) → (⟨S1x128x64, .f32⟩ : BufTy).Contents (Elt F))
  :: StableHlo.reshape main_v313 main_v314 rfl shapeCasts_S1x128x64_S128x64
  :: StableHlo.unary main_arg24 main_v315 ((extractStridedSlice S1x64 ![2, 0] · slices_S4x64_S1x64_2_0) : (⟨S4x64, .f32⟩ : BufTy).Contents (Elt F) → (⟨S1x64, .f32⟩ : BufTy).Contents (Elt F))
  :: StableHlo.reshape main_v315 main_v316 rfl shapeCasts_S1x64_S64
  :: StableHlo.unary main_arg25 main_v317 ((extractStridedSlice S1x64x64 ![2, 0, 0] · slices_S4x64x64_S1x64x64_2_0_0) : (⟨S4x64x64, .f32⟩ : BufTy).Contents (Elt F) → (⟨S1x64x64, .f32⟩ : BufTy).Contents (Elt F))
  :: StableHlo.reshape main_v317 main_v318 rfl shapeCasts_S1x64x64_S64x64
  :: StableHlo.unary main_arg26 main_v319 ((extractStridedSlice S1x64 ![2, 0] · slices_S4x64_S1x64_2_0) : (⟨S4x64, .f32⟩ : BufTy).Contents (Elt F) → (⟨S1x64, .f32⟩ : BufTy).Contents (Elt F))
  :: StableHlo.reshape main_v319 main_v320 rfl shapeCasts_S1x64_S64
  :: StableHlo.nullary main_c_49 (constantI S_ 32 0#32)
  :: StableHlo.unary main_c_49 main_v321 (broadcastInDim S600000 ![] bcast_S_S600000 : (⟨S_, .i32⟩ : BufTy).Contents (Elt F) → (⟨S600000, .i32⟩ : BufTy).Contents (Elt F))
  :: StableHlo.binary main_v82 main_v321 main_v322 (cmpi .slt : (⟨S600000, .i32⟩ : BufTy).Contents (Elt F) → (⟨S600000, .i32⟩ : BufTy).Contents (Elt F) → (⟨S600000, .i1⟩ : BufTy).Contents (Elt F))
  :: StableHlo.nullary main_c_50 (constantI S_ 32 50000#32)
  :: StableHlo.unary main_c_50 main_v323 (broadcastInDim S600000 ![] bcast_S_S600000 : (⟨S_, .i32⟩ : BufTy).Contents (Elt F) → (⟨S600000, .i32⟩ : BufTy).Contents (Elt F))
  :: StableHlo.binary main_v82 main_v323 main_v324 (addi : (⟨S600000, .i32⟩ : BufTy).Contents (Elt F) → (⟨S600000, .i32⟩ : BufTy).Contents (Elt F) → (⟨S600000, .i32⟩ : BufTy).Contents (Elt F))
  :: StableHlo.ternary main_v322 main_v324 main_v82 main_v325 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v325 main_v326 (broadcastInDim S600000x1 ![0] bcast_S600000_S600000x1_0 : (⟨S600000, .i32⟩ : BufTy).Contents (Elt F) → (⟨S600000x1, .i32⟩ : BufTy).Contents (Elt F))
  :: StableHlo.binary main_v270 main_v326 main_v327 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F))
  :: StableHlo.nullary main_c_51 (constantI S_ 32 0#32)
  :: StableHlo.unary main_c_51 main_v328 (broadcastInDim S600000 ![] bcast_S_S600000 : (⟨S_, .i32⟩ : BufTy).Contents (Elt F) → (⟨S600000, .i32⟩ : BufTy).Contents (Elt F))
  :: StableHlo.binary main_v84 main_v328 main_v329 (cmpi .slt : (⟨S600000, .i32⟩ : BufTy).Contents (Elt F) → (⟨S600000, .i32⟩ : BufTy).Contents (Elt F) → (⟨S600000, .i1⟩ : BufTy).Contents (Elt F))
  :: StableHlo.nullary main_c_52 (constantI S_ 32 50000#32)
  :: StableHlo.unary main_c_52 main_v330 (broadcastInDim S600000 ![] bcast_S_S600000 : (⟨S_, .i32⟩ : BufTy).Contents (Elt F) → (⟨S600000, .i32⟩ : BufTy).Contents (Elt F))
  :: StableHlo.binary main_v84 main_v330 main_v331 (addi : (⟨S600000, .i32⟩ : BufTy).Contents (Elt F) → (⟨S600000, .i32⟩ : BufTy).Contents (Elt F) → (⟨S600000, .i32⟩ : BufTy).Contents (Elt F))
  :: StableHlo.ternary main_v329 main_v331 main_v84 main_v332 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v332 main_v333 (broadcastInDim S600000x1 ![0] bcast_S600000_S600000x1_0 : (⟨S600000, .i32⟩ : BufTy).Contents (Elt F) → (⟨S600000x1, .i32⟩ : BufTy).Contents (Elt F))
  :: StableHlo.binary main_v300 main_v333 main_v334 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F))
  :: StableHlo.nary ![main_v327, main_v52, main_v334] main_v335 (fun u => cat_main_v335 (u 0) (u 1) (u 2))
  :: StableHlo.reshape main_v304 main_v336 rfl shapeCasts_S64_S1x64
  :: StableHlo.reshape main_v308 main_v337 rfl shapeCasts_S64_S1x64
  :: [] )
set_option maxHeartbeats 40000000 in  -- a long stretch: its list (or the term over it) exceeds the default budget

theorem hostOps6n_eq : (hostOps6 (F := F)) = hostOps6n := rfl

set_option maxHeartbeats 4000000 in
/-- `main_v335` after the stretch, from the live-in buffers' values. -/
theorem s6_main_v335 (W : Valuation τ sig (Elt Ideal)) (V0' : Valuation Cert.ReferenceIdeal.τ Cert.ReferenceIdeal.sig (Elt Ideal))
    (h_main_v84 : W (Proc.devRef .tc main_v84) = Cert.ReferenceIdeal.Value.res_main_v102 V0')
    (h_main_arg28 : W (Proc.devRef .tc main_arg28) = Cert.ReferenceIdeal.RefValue.a28 V0')
    (h_main_v240 : W (Proc.devRef .tc main_v240) = Cert.ReferenceIdeal.Value.res_main_v286 V0')
    (h_main_arg29 : W (Proc.devRef .tc main_arg29) = Cert.ReferenceIdeal.RefValue.a29 V0')
    (h_main_arg27 : W (Proc.devRef .tc main_arg27) = Cert.ReferenceIdeal.RefValue.a27 V0')
    (h_main_v52 : W (Proc.devRef .tc main_v52) = Cert.ReferenceIdeal.Value.res_main_v61 V0')
    (h_main_v82 : W (Proc.devRef .tc main_v82) = Cert.ReferenceIdeal.Value.res_main_v100 V0')
    (h_main_v162 : W (Proc.devRef .tc main_v162) = Cert.ReferenceIdeal.Value.res_main_v194 V0') :
    StableHlo.after (hostOps6 (F := Ideal)) W (Proc.devRef .tc main_v335) = Cert.ReferenceIdeal.RefValue.t_main_v381 V0' := by
  rw [hostOps6n_eq]
  simp only [hostOps6n]
  after_results_simp
  try dsimp only [Matrix.cons_val]
  try after_results_simp
  simp only [h_main_v84, h_main_arg28, h_main_v240, h_main_arg29, h_main_arg27, h_main_v52, h_main_v82, h_main_v162] <;> rfl

set_option maxHeartbeats 4000000 in
/-- `main_v302` after the stretch, from the live-in buffers' values. -/
theorem s6_main_v302 (W : Valuation τ sig (Elt Ideal)) (V0' : Valuation Cert.ReferenceIdeal.τ Cert.ReferenceIdeal.sig (Elt Ideal))
    (h_main_arg17 : W (Proc.devRef .tc main_arg17) = Cert.ReferenceIdeal.RefValue.a17 V0') :
    StableHlo.after (hostOps6 (F := Ideal)) W (Proc.devRef .tc main_v302) = Cert.ReferenceIdeal.RefValue.t_main_v348 V0' := by
  rw [hostOps6n_eq]
  simp only [hostOps6n]
  after_results_simp
  try dsimp only [Matrix.cons_val]
  try after_results_simp
  simp only [h_main_arg17] <;> rfl

set_option maxHeartbeats 4000000 in
/-- `main_v336` after the stretch, from the live-in buffers' values. -/
theorem s6_main_v336 (W : Valuation τ sig (Elt Ideal)) (V0' : Valuation Cert.ReferenceIdeal.τ Cert.ReferenceIdeal.sig (Elt Ideal))
    (h_main_arg18 : W (Proc.devRef .tc main_arg18) = Cert.ReferenceIdeal.RefValue.a18 V0') :
    StableHlo.after (hostOps6 (F := Ideal)) W (Proc.devRef .tc main_v336) = shapeCast _ (Cert.ReferenceIdeal.RefValue.t_main_v350 V0') shapeCasts_S64_S1x64 := by
  rw [hostOps6n_eq]
  simp only [hostOps6n]
  after_results_simp
  try dsimp only [Matrix.cons_val]
  try after_results_simp
  simp only [h_main_arg18] <;> rfl

set_option maxHeartbeats 4000000 in
/-- `main_v306` after the stretch, from the live-in buffers' values. -/
theorem s6_main_v306 (W : Valuation τ sig (Elt Ideal)) (V0' : Valuation Cert.ReferenceIdeal.τ Cert.ReferenceIdeal.sig (Elt Ideal))
    (h_main_arg19 : W (Proc.devRef .tc main_arg19) = Cert.ReferenceIdeal.RefValue.a19 V0') :
    StableHlo.after (hostOps6 (F := Ideal)) W (Proc.devRef .tc main_v306) = Cert.ReferenceIdeal.RefValue.t_main_v352 V0' := by
  rw [hostOps6n_eq]
  simp only [hostOps6n]
  after_results_simp
  try dsimp only [Matrix.cons_val]
  try after_results_simp
  simp only [h_main_arg19] <;> rfl

set_option maxHeartbeats 4000000 in
/-- `main_v337` after the stretch, from the live-in buffers' values. -/
theorem s6_main_v337 (W : Valuation τ sig (Elt Ideal)) (V0' : Valuation Cert.ReferenceIdeal.τ Cert.ReferenceIdeal.sig (Elt Ideal))
    (h_main_arg20 : W (Proc.devRef .tc main_arg20) = Cert.ReferenceIdeal.RefValue.a20 V0') :
    StableHlo.after (hostOps6 (F := Ideal)) W (Proc.devRef .tc main_v337) = shapeCast _ (Cert.ReferenceIdeal.RefValue.t_main_v354 V0') shapeCasts_S64_S1x64 := by
  rw [hostOps6n_eq]
  simp only [hostOps6n]
  after_results_simp
  try dsimp only [Matrix.cons_val]
  try after_results_simp
  simp only [h_main_arg20] <;> rfl

set_option maxHeartbeats 4000000 in
/-- `main_v310` after the stretch, from the live-in buffers' values. -/
theorem s6_main_v310 (W : Valuation τ sig (Elt Ideal)) (V0' : Valuation Cert.ReferenceIdeal.τ Cert.ReferenceIdeal.sig (Elt Ideal))
    (h_main_arg21 : W (Proc.devRef .tc main_arg21) = Cert.ReferenceIdeal.RefValue.a21 V0') :
    StableHlo.after (hostOps6 (F := Ideal)) W (Proc.devRef .tc main_v310) = Cert.ReferenceIdeal.RefValue.t_main_v356 V0' := by
  rw [hostOps6n_eq]
  simp only [hostOps6n]
  after_results_simp
  try dsimp only [Matrix.cons_val]
  try after_results_simp
  simp only [h_main_arg21] <;> rfl

set_option maxHeartbeats 4000000 in
/-- `main_v312` after the stretch, from the live-in buffers' values. -/
theorem s6_main_v312 (W : Valuation τ sig (Elt Ideal)) (V0' : Valuation Cert.ReferenceIdeal.τ Cert.ReferenceIdeal.sig (Elt Ideal))
    (h_main_arg22 : W (Proc.devRef .tc main_arg22) = Cert.ReferenceIdeal.RefValue.a22 V0') :
    StableHlo.after (hostOps6 (F := Ideal)) W (Proc.devRef .tc main_v312) = Cert.ReferenceIdeal.RefValue.t_main_v358 V0' := by
  rw [hostOps6n_eq]
  simp only [hostOps6n]
  after_results_simp
  try dsimp only [Matrix.cons_val]
  try after_results_simp
  simp only [h_main_arg22] <;> rfl

set_option maxHeartbeats 4000000 in
/-- `main_v270` after the stretch, from the live-in buffers' values. -/
theorem s6_main_v270 (W : Valuation τ sig (Elt Ideal)) (V0' : Valuation Cert.ReferenceIdeal.τ Cert.ReferenceIdeal.sig (Elt Ideal))
    (h_main_arg28 : W (Proc.devRef .tc main_arg28) = Cert.ReferenceIdeal.RefValue.a28 V0')
    (h_main_v162 : W (Proc.devRef .tc main_v162) = Cert.ReferenceIdeal.Value.res_main_v194 V0')
    (h_main_arg29 : W (Proc.devRef .tc main_arg29) = Cert.ReferenceIdeal.RefValue.a29 V0')
    (h_main_arg27 : W (Proc.devRef .tc main_arg27) = Cert.ReferenceIdeal.RefValue.a27 V0') :
    StableHlo.after (hostOps6 (F := Ideal)) W (Proc.devRef .tc main_v270) = Cert.ReferenceIdeal.Value.res_main_v316 V0' := by
  rw [hostOps6n_eq]
  simp only [hostOps6n]
  after_results_simp
  try dsimp only [Matrix.cons_val]
  try after_results_simp
  simp only [h_main_arg28, h_main_v162, h_main_arg29, h_main_arg27] <;> rfl

set_option maxHeartbeats 4000000 in
/-- `main_v316` after the stretch, from the live-in buffers' values. -/
theorem s6_main_v316 (W : Valuation τ sig (Elt Ideal)) (V0' : Valuation Cert.ReferenceIdeal.τ Cert.ReferenceIdeal.sig (Elt Ideal))
    (h_main_arg24 : W (Proc.devRef .tc main_arg24) = Cert.ReferenceIdeal.RefValue.a24 V0') :
    StableHlo.after (hostOps6 (F := Ideal)) W (Proc.devRef .tc main_v316) = Cert.ReferenceIdeal.RefValue.t_main_v362 V0' := by
  rw [hostOps6n_eq]
  simp only [hostOps6n]
  after_results_simp
  try dsimp only [Matrix.cons_val]
  try after_results_simp
  simp only [h_main_arg24] <;> rfl

set_option maxHeartbeats 4000000 in
/-- `main_v320` after the stretch, from the live-in buffers' values. -/
theorem s6_main_v320 (W : Valuation τ sig (Elt Ideal)) (V0' : Valuation Cert.ReferenceIdeal.τ Cert.ReferenceIdeal.sig (Elt Ideal))
    (h_main_arg26 : W (Proc.devRef .tc main_arg26) = Cert.ReferenceIdeal.RefValue.a26 V0') :
    StableHlo.after (hostOps6 (F := Ideal)) W (Proc.devRef .tc main_v320) = Cert.ReferenceIdeal.RefValue.t_main_v366 V0' := by
  rw [hostOps6n_eq]
  simp only [hostOps6n]
  after_results_simp
  try dsimp only [Matrix.cons_val]
  try after_results_simp
  simp only [h_main_arg26] <;> rfl

set_option maxHeartbeats 4000000 in
/-- `main_v314` after the stretch, from the live-in buffers' values. -/
theorem s6_main_v314 (W : Valuation τ sig (Elt Ideal)) (V0' : Valuation Cert.ReferenceIdeal.τ Cert.ReferenceIdeal.sig (Elt Ideal))
    (h_main_arg23 : W (Proc.devRef .tc main_arg23) = Cert.ReferenceIdeal.RefValue.a23 V0') :
    StableHlo.after (hostOps6 (F := Ideal)) W (Proc.devRef .tc main_v314) = Cert.ReferenceIdeal.RefValue.t_main_v360 V0' := by
  rw [hostOps6n_eq]
  simp only [hostOps6n]
  after_results_simp
  try dsimp only [Matrix.cons_val]
  try after_results_simp
  simp only [h_main_arg23] <;> rfl

set_option maxHeartbeats 4000000 in
/-- `main_v318` after the stretch, from the live-in buffers' values. -/
theorem s6_main_v318 (W : Valuation τ sig (Elt Ideal)) (V0' : Valuation Cert.ReferenceIdeal.τ Cert.ReferenceIdeal.sig (Elt Ideal))
    (h_main_arg25 : W (Proc.devRef .tc main_arg25) = Cert.ReferenceIdeal.RefValue.a25 V0') :
    StableHlo.after (hostOps6 (F := Ideal)) W (Proc.devRef .tc main_v318) = Cert.ReferenceIdeal.RefValue.t_main_v364 V0' := by
  rw [hostOps6n_eq]
  simp only [hostOps6n]
  after_results_simp
  try dsimp only [Matrix.cons_val]
  try after_results_simp
  simp only [h_main_arg25] <;> rfl

set_option maxHeartbeats 4000000 in
/-- `main_v300` after the stretch, from the live-in buffers' values. -/
theorem s6_main_v300 (W : Valuation τ sig (Elt Ideal)) (V0' : Valuation Cert.ReferenceIdeal.τ Cert.ReferenceIdeal.sig (Elt Ideal))
    (h_main_arg28 : W (Proc.devRef .tc main_arg28) = Cert.ReferenceIdeal.RefValue.a28 V0')
    (h_main_v240 : W (Proc.devRef .tc main_v240) = Cert.ReferenceIdeal.Value.res_main_v286 V0')
    (h_main_arg29 : W (Proc.devRef .tc main_arg29) = Cert.ReferenceIdeal.RefValue.a29 V0')
    (h_main_arg27 : W (Proc.devRef .tc main_arg27) = Cert.ReferenceIdeal.RefValue.a27 V0') :
    StableHlo.after (hostOps6 (F := Ideal)) W (Proc.devRef .tc main_v300) = Cert.ReferenceIdeal.Value.res_main_v346 V0' := by
  rw [hostOps6n_eq]
  simp only [hostOps6n]
  after_results_simp
  try dsimp only [Matrix.cons_val]
  try after_results_simp
  simp only [h_main_arg28, h_main_v240, h_main_arg29, h_main_arg27] <;> rfl

end Cert.KernelIdeal.Frm

end
-- ==== Proof.IdealChain6.lean ====
/-
  The kernel's buffers at the boundaries 12 and 13 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain5
import proofs.«181157_j5506148073958_2_alg».proof.Proof.IdealFinal5
import proofs.«181157_j5506148073958_2_alg».proof.Proof.IdealStretch6

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 12 -/

theorem L12_main_arg17 (hag : Agree m ρ c V0') : W12 m ρ c (Proc.devRef .tc main_arg17) = Cert.ReferenceIdeal.RefValue.a17 V0' := (W12_of_ne m ρ c main_arg17 (by decide)).trans (L11_main_arg17 m ρ c V0' hag)

theorem L12_main_arg18 (hag : Agree m ρ c V0') : W12 m ρ c (Proc.devRef .tc main_arg18) = Cert.ReferenceIdeal.RefValue.a18 V0' := (W12_of_ne m ρ c main_arg18 (by decide)).trans (L11_main_arg18 m ρ c V0' hag)

theorem L12_main_arg19 (hag : Agree m ρ c V0') : W12 m ρ c (Proc.devRef .tc main_arg19) = Cert.ReferenceIdeal.RefValue.a19 V0' := (W12_of_ne m ρ c main_arg19 (by decide)).trans (L11_main_arg19 m ρ c V0' hag)

theorem L12_main_arg20 (hag : Agree m ρ c V0') : W12 m ρ c (Proc.devRef .tc main_arg20) = Cert.ReferenceIdeal.RefValue.a20 V0' := (W12_of_ne m ρ c main_arg20 (by decide)).trans (L11_main_arg20 m ρ c V0' hag)

theorem L12_main_arg21 (hag : Agree m ρ c V0') : W12 m ρ c (Proc.devRef .tc main_arg21) = Cert.ReferenceIdeal.RefValue.a21 V0' := (W12_of_ne m ρ c main_arg21 (by decide)).trans (L11_main_arg21 m ρ c V0' hag)

theorem L12_main_arg22 (hag : Agree m ρ c V0') : W12 m ρ c (Proc.devRef .tc main_arg22) = Cert.ReferenceIdeal.RefValue.a22 V0' := (W12_of_ne m ρ c main_arg22 (by decide)).trans (L11_main_arg22 m ρ c V0' hag)

theorem L12_main_arg23 (hag : Agree m ρ c V0') : W12 m ρ c (Proc.devRef .tc main_arg23) = Cert.ReferenceIdeal.RefValue.a23 V0' := (W12_of_ne m ρ c main_arg23 (by decide)).trans (L11_main_arg23 m ρ c V0' hag)

theorem L12_main_arg24 (hag : Agree m ρ c V0') : W12 m ρ c (Proc.devRef .tc main_arg24) = Cert.ReferenceIdeal.RefValue.a24 V0' := (W12_of_ne m ρ c main_arg24 (by decide)).trans (L11_main_arg24 m ρ c V0' hag)

theorem L12_main_arg25 (hag : Agree m ρ c V0') : W12 m ρ c (Proc.devRef .tc main_arg25) = Cert.ReferenceIdeal.RefValue.a25 V0' := (W12_of_ne m ρ c main_arg25 (by decide)).trans (L11_main_arg25 m ρ c V0' hag)

theorem L12_main_arg26 (hag : Agree m ρ c V0') : W12 m ρ c (Proc.devRef .tc main_arg26) = Cert.ReferenceIdeal.RefValue.a26 V0' := (W12_of_ne m ρ c main_arg26 (by decide)).trans (L11_main_arg26 m ρ c V0' hag)

theorem L12_main_v80 (hag : Agree m ρ c V0') : W12 m ρ c (Proc.devRef .tc main_v80) = Cert.ReferenceIdeal.Value.res_main_v98 V0' := (W12_of_ne m ρ c main_v80 (by decide)).trans (L11_main_v80 m ρ c V0' hag)

theorem L12_main_v52 (hag : Agree m ρ c V0') : W12 m ρ c (Proc.devRef .tc main_v52) = Cert.ReferenceIdeal.Value.res_main_v61 V0' := (W12_of_ne m ρ c main_v52 (by decide)).trans (L11_main_v52 m ρ c V0' hag)

theorem L12_main_v82 (hag : Agree m ρ c V0') : W12 m ρ c (Proc.devRef .tc main_v82) = Cert.ReferenceIdeal.Value.res_main_v100 V0' := (W12_of_ne m ρ c main_v82 (by decide)).trans (L11_main_v82 m ρ c V0' hag)

theorem L12_main_v84 (hag : Agree m ρ c V0') : W12 m ρ c (Proc.devRef .tc main_v84) = Cert.ReferenceIdeal.Value.res_main_v102 V0' := (W12_of_ne m ρ c main_v84 (by decide)).trans (L11_main_v84 m ρ c V0' hag)

theorem L12_main_v162 (hag : Agree m ρ c V0') : W12 m ρ c (Proc.devRef .tc main_v162) = Cert.ReferenceIdeal.Value.res_main_v194 V0' := (W12_of_ne m ρ c main_v162 (by decide)).trans (L11_main_v162 m ρ c V0' hag)

theorem L12_main_arg27 (hag : Agree m ρ c V0') : W12 m ρ c (Proc.devRef .tc main_arg27) = Cert.ReferenceIdeal.RefValue.a27 V0' := (W12_of_ne m ρ c main_arg27 (by decide)).trans (L11_main_arg27 m ρ c V0' hag)

theorem L12_main_arg28 (hag : Agree m ρ c V0') : W12 m ρ c (Proc.devRef .tc main_arg28) = Cert.ReferenceIdeal.RefValue.a28 V0' := (W12_of_ne m ρ c main_arg28 (by decide)).trans (L11_main_arg28 m ρ c V0' hag)

theorem L12_main_arg29 (hag : Agree m ρ c V0') : W12 m ρ c (Proc.devRef .tc main_arg29) = Cert.ReferenceIdeal.RefValue.a29 V0' := (W12_of_ne m ρ c main_arg29 (by decide)).trans (L11_main_arg29 m ρ c V0' hag)

theorem L12_main_v240 (hag : Agree m ρ c V0') : W12 m ρ c (Proc.devRef .tc main_v240) = Cert.ReferenceIdeal.Value.res_main_v286 V0' := by
  refine (W12_arr m ρ c 5).trans ?_
  refine (final5 (V11 m ρ) c).trans ?_
  unfold G5
  have h0 : V11 m ρ c main_v237 = Cert.ReferenceIdeal.RefValue.t_main_v276 V0' := (L11_main_v237 m ρ c V0' hag)
  have hW0 : V11 m ρ c main_v176 = Cert.ReferenceIdeal.RefValue.t_main_v208 V0' := (L11_main_v176 m ρ c V0' hag)
  have hb0 : Cert.LibRowBias.rowOf (V11 m ρ c main_v238) = Cert.ReferenceIdeal.RefValue.t_main_v210 V0' := by
    rw [show V11 m ρ c main_v238 = shapeCast _ (Cert.ReferenceIdeal.RefValue.t_main_v210 V0') shapeCasts_S64_S1x64 from (L11_main_v238 m ρ c V0' hag)]
    exact Cert.LibRowBias.rowOf_shapeCast _ _
  have hW1 : V11 m ρ c main_v180 = Cert.ReferenceIdeal.RefValue.t_main_v212 V0' := (L11_main_v180 m ρ c V0' hag)
  have hb1 : Cert.LibRowBias.rowOf (V11 m ρ c main_v239) = Cert.ReferenceIdeal.RefValue.t_main_v214 V0' := by
    rw [show V11 m ρ c main_v239 = shapeCast _ (Cert.ReferenceIdeal.RefValue.t_main_v214 V0') shapeCasts_S64_S1x64 from (L11_main_v239 m ρ c V0' hag)]
    exact Cert.LibRowBias.rowOf_shapeCast _ _
  rw [h0, hW0, hb0, hW1, hb1]
  exact (Cert.ReferenceIdeal.RefValue.stage5_ref V0').symm

theorem L12_main_arg31 (hag : Agree m ρ c V0') : W12 m ρ c (Proc.devRef .tc main_arg31) = Cert.ReferenceIdeal.RefValue.a31 V0' := (W12_of_ne m ρ c main_arg31 (by decide)).trans (L11_main_arg31 m ρ c V0' hag)

theorem L12_main_arg33 (hag : Agree m ρ c V0') : W12 m ρ c (Proc.devRef .tc main_arg33) = Cert.ReferenceIdeal.RefValue.a33 V0' := (W12_of_ne m ρ c main_arg33 (by decide)).trans (L11_main_arg33 m ρ c V0' hag)

theorem L12_main_arg35 (hag : Agree m ρ c V0') : W12 m ρ c (Proc.devRef .tc main_arg35) = Cert.ReferenceIdeal.RefValue.a35 V0' := (W12_of_ne m ρ c main_arg35 (by decide)).trans (L11_main_arg35 m ρ c V0' hag)

theorem L12_main_arg30 (hag : Agree m ρ c V0') : W12 m ρ c (Proc.devRef .tc main_arg30) = Cert.ReferenceIdeal.RefValue.a30 V0' := (W12_of_ne m ρ c main_arg30 (by decide)).trans (L11_main_arg30 m ρ c V0' hag)

theorem L12_main_arg32 (hag : Agree m ρ c V0') : W12 m ρ c (Proc.devRef .tc main_arg32) = Cert.ReferenceIdeal.RefValue.a32 V0' := (W12_of_ne m ρ c main_arg32 (by decide)).trans (L11_main_arg32 m ρ c V0' hag)

theorem L12_main_arg34 (hag : Agree m ρ c V0') : W12 m ρ c (Proc.devRef .tc main_arg34) = Cert.ReferenceIdeal.RefValue.a34 V0' := (W12_of_ne m ρ c main_arg34 (by decide)).trans (L11_main_arg34 m ρ c V0' hag)

/-! ## Boundary 13 -/

theorem L13_main_arg17 (hag : Agree m ρ c V0') : W13 m ρ c (Proc.devRef .tc main_arg17) = Cert.ReferenceIdeal.RefValue.a17 V0' := (W13_of m ρ c main_arg17 (by decide)).trans (L12_main_arg17 m ρ c V0' hag)

theorem L13_main_arg18 (hag : Agree m ρ c V0') : W13 m ρ c (Proc.devRef .tc main_arg18) = Cert.ReferenceIdeal.RefValue.a18 V0' := (W13_of m ρ c main_arg18 (by decide)).trans (L12_main_arg18 m ρ c V0' hag)

theorem L13_main_arg19 (hag : Agree m ρ c V0') : W13 m ρ c (Proc.devRef .tc main_arg19) = Cert.ReferenceIdeal.RefValue.a19 V0' := (W13_of m ρ c main_arg19 (by decide)).trans (L12_main_arg19 m ρ c V0' hag)

theorem L13_main_arg20 (hag : Agree m ρ c V0') : W13 m ρ c (Proc.devRef .tc main_arg20) = Cert.ReferenceIdeal.RefValue.a20 V0' := (W13_of m ρ c main_arg20 (by decide)).trans (L12_main_arg20 m ρ c V0' hag)

theorem L13_main_arg21 (hag : Agree m ρ c V0') : W13 m ρ c (Proc.devRef .tc main_arg21) = Cert.ReferenceIdeal.RefValue.a21 V0' := (W13_of m ρ c main_arg21 (by decide)).trans (L12_main_arg21 m ρ c V0' hag)

theorem L13_main_arg22 (hag : Agree m ρ c V0') : W13 m ρ c (Proc.devRef .tc main_arg22) = Cert.ReferenceIdeal.RefValue.a22 V0' := (W13_of m ρ c main_arg22 (by decide)).trans (L12_main_arg22 m ρ c V0' hag)

theorem L13_main_arg23 (hag : Agree m ρ c V0') : W13 m ρ c (Proc.devRef .tc main_arg23) = Cert.ReferenceIdeal.RefValue.a23 V0' := (W13_of m ρ c main_arg23 (by decide)).trans (L12_main_arg23 m ρ c V0' hag)

theorem L13_main_arg24 (hag : Agree m ρ c V0') : W13 m ρ c (Proc.devRef .tc main_arg24) = Cert.ReferenceIdeal.RefValue.a24 V0' := (W13_of m ρ c main_arg24 (by decide)).trans (L12_main_arg24 m ρ c V0' hag)

theorem L13_main_arg25 (hag : Agree m ρ c V0') : W13 m ρ c (Proc.devRef .tc main_arg25) = Cert.ReferenceIdeal.RefValue.a25 V0' := (W13_of m ρ c main_arg25 (by decide)).trans (L12_main_arg25 m ρ c V0' hag)

theorem L13_main_arg26 (hag : Agree m ρ c V0') : W13 m ρ c (Proc.devRef .tc main_arg26) = Cert.ReferenceIdeal.RefValue.a26 V0' := (W13_of m ρ c main_arg26 (by decide)).trans (L12_main_arg26 m ρ c V0' hag)

theorem L13_main_v80 (hag : Agree m ρ c V0') : W13 m ρ c (Proc.devRef .tc main_v80) = Cert.ReferenceIdeal.Value.res_main_v98 V0' := (W13_of m ρ c main_v80 (by decide)).trans (L12_main_v80 m ρ c V0' hag)

theorem L13_main_v52 (hag : Agree m ρ c V0') : W13 m ρ c (Proc.devRef .tc main_v52) = Cert.ReferenceIdeal.Value.res_main_v61 V0' := (W13_of m ρ c main_v52 (by decide)).trans (L12_main_v52 m ρ c V0' hag)

theorem L13_main_v82 (hag : Agree m ρ c V0') : W13 m ρ c (Proc.devRef .tc main_v82) = Cert.ReferenceIdeal.Value.res_main_v100 V0' := (W13_of m ρ c main_v82 (by decide)).trans (L12_main_v82 m ρ c V0' hag)

theorem L13_main_v84 (hag : Agree m ρ c V0') : W13 m ρ c (Proc.devRef .tc main_v84) = Cert.ReferenceIdeal.Value.res_main_v102 V0' := (W13_of m ρ c main_v84 (by decide)).trans (L12_main_v84 m ρ c V0' hag)

theorem L13_main_arg27 (hag : Agree m ρ c V0') : W13 m ρ c (Proc.devRef .tc main_arg27) = Cert.ReferenceIdeal.RefValue.a27 V0' := (W13_of m ρ c main_arg27 (by decide)).trans (L12_main_arg27 m ρ c V0' hag)

theorem L13_main_arg28 (hag : Agree m ρ c V0') : W13 m ρ c (Proc.devRef .tc main_arg28) = Cert.ReferenceIdeal.RefValue.a28 V0' := (W13_of m ρ c main_arg28 (by decide)).trans (L12_main_arg28 m ρ c V0' hag)

theorem L13_main_arg29 (hag : Agree m ρ c V0') : W13 m ρ c (Proc.devRef .tc main_arg29) = Cert.ReferenceIdeal.RefValue.a29 V0' := (W13_of m ρ c main_arg29 (by decide)).trans (L12_main_arg29 m ρ c V0' hag)

theorem L13_main_v335 (hag : Agree m ρ c V0') : W13 m ρ c (Proc.devRef .tc main_v335) = Cert.ReferenceIdeal.RefValue.t_main_v381 V0' := s6_main_v335 (W12 m ρ c) V0' (L12_main_v84 m ρ c V0' hag) (L12_main_arg28 m ρ c V0' hag) (L12_main_v240 m ρ c V0' hag) (L12_main_arg29 m ρ c V0' hag) (L12_main_arg27 m ρ c V0' hag) (L12_main_v52 m ρ c V0' hag) (L12_main_v82 m ρ c V0' hag) (L12_main_v162 m ρ c V0' hag)

theorem L13_main_v302 (hag : Agree m ρ c V0') : W13 m ρ c (Proc.devRef .tc main_v302) = Cert.ReferenceIdeal.RefValue.t_main_v348 V0' := s6_main_v302 (W12 m ρ c) V0' (L12_main_arg17 m ρ c V0' hag)

theorem L13_main_v336 (hag : Agree m ρ c V0') : W13 m ρ c (Proc.devRef .tc main_v336) = shapeCast _ (Cert.ReferenceIdeal.RefValue.t_main_v350 V0') shapeCasts_S64_S1x64 := s6_main_v336 (W12 m ρ c) V0' (L12_main_arg18 m ρ c V0' hag)

theorem L13_main_v306 (hag : Agree m ρ c V0') : W13 m ρ c (Proc.devRef .tc main_v306) = Cert.ReferenceIdeal.RefValue.t_main_v352 V0' := s6_main_v306 (W12 m ρ c) V0' (L12_main_arg19 m ρ c V0' hag)

theorem L13_main_v337 (hag : Agree m ρ c V0') : W13 m ρ c (Proc.devRef .tc main_v337) = shapeCast _ (Cert.ReferenceIdeal.RefValue.t_main_v354 V0') shapeCasts_S64_S1x64 := s6_main_v337 (W12 m ρ c) V0' (L12_main_arg20 m ρ c V0' hag)

theorem L13_main_v310 (hag : Agree m ρ c V0') : W13 m ρ c (Proc.devRef .tc main_v310) = Cert.ReferenceIdeal.RefValue.t_main_v356 V0' := s6_main_v310 (W12 m ρ c) V0' (L12_main_arg21 m ρ c V0' hag)

theorem L13_main_v312 (hag : Agree m ρ c V0') : W13 m ρ c (Proc.devRef .tc main_v312) = Cert.ReferenceIdeal.RefValue.t_main_v358 V0' := s6_main_v312 (W12 m ρ c) V0' (L12_main_arg22 m ρ c V0' hag)

theorem L13_main_v270 (hag : Agree m ρ c V0') : W13 m ρ c (Proc.devRef .tc main_v270) = Cert.ReferenceIdeal.Value.res_main_v316 V0' := s6_main_v270 (W12 m ρ c) V0' (L12_main_arg28 m ρ c V0' hag) (L12_main_v162 m ρ c V0' hag) (L12_main_arg29 m ρ c V0' hag) (L12_main_arg27 m ρ c V0' hag)

theorem L13_main_v316 (hag : Agree m ρ c V0') : W13 m ρ c (Proc.devRef .tc main_v316) = Cert.ReferenceIdeal.RefValue.t_main_v362 V0' := s6_main_v316 (W12 m ρ c) V0' (L12_main_arg24 m ρ c V0' hag)

theorem L13_main_v320 (hag : Agree m ρ c V0') : W13 m ρ c (Proc.devRef .tc main_v320) = Cert.ReferenceIdeal.RefValue.t_main_v366 V0' := s6_main_v320 (W12 m ρ c) V0' (L12_main_arg26 m ρ c V0' hag)

theorem L13_main_v314 (hag : Agree m ρ c V0') : W13 m ρ c (Proc.devRef .tc main_v314) = Cert.ReferenceIdeal.RefValue.t_main_v360 V0' := s6_main_v314 (W12 m ρ c) V0' (L12_main_arg23 m ρ c V0' hag)

theorem L13_main_v318 (hag : Agree m ρ c V0') : W13 m ρ c (Proc.devRef .tc main_v318) = Cert.ReferenceIdeal.RefValue.t_main_v364 V0' := s6_main_v318 (W12 m ρ c) V0' (L12_main_arg25 m ρ c V0' hag)

theorem L13_main_v300 (hag : Agree m ρ c V0') : W13 m ρ c (Proc.devRef .tc main_v300) = Cert.ReferenceIdeal.Value.res_main_v346 V0' := s6_main_v300 (W12 m ρ c) V0' (L12_main_arg28 m ρ c V0' hag) (L12_main_v240 m ρ c V0' hag) (L12_main_arg29 m ρ c V0' hag) (L12_main_arg27 m ρ c V0' hag)

theorem L13_main_arg31 (hag : Agree m ρ c V0') : W13 m ρ c (Proc.devRef .tc main_arg31) = Cert.ReferenceIdeal.RefValue.a31 V0' := (W13_of m ρ c main_arg31 (by decide)).trans (L12_main_arg31 m ρ c V0' hag)

theorem L13_main_arg33 (hag : Agree m ρ c V0') : W13 m ρ c (Proc.devRef .tc main_arg33) = Cert.ReferenceIdeal.RefValue.a33 V0' := (W13_of m ρ c main_arg33 (by decide)).trans (L12_main_arg33 m ρ c V0' hag)

theorem L13_main_arg35 (hag : Agree m ρ c V0') : W13 m ρ c (Proc.devRef .tc main_arg35) = Cert.ReferenceIdeal.RefValue.a35 V0' := (W13_of m ρ c main_arg35 (by decide)).trans (L12_main_arg35 m ρ c V0' hag)

theorem L13_main_arg30 (hag : Agree m ρ c V0') : W13 m ρ c (Proc.devRef .tc main_arg30) = Cert.ReferenceIdeal.RefValue.a30 V0' := (W13_of m ρ c main_arg30 (by decide)).trans (L12_main_arg30 m ρ c V0' hag)

theorem L13_main_arg32 (hag : Agree m ρ c V0') : W13 m ρ c (Proc.devRef .tc main_arg32) = Cert.ReferenceIdeal.RefValue.a32 V0' := (W13_of m ρ c main_arg32 (by decide)).trans (L12_main_arg32 m ρ c V0' hag)

theorem L13_main_arg34 (hag : Agree m ρ c V0') : W13 m ρ c (Proc.devRef .tc main_arg34) = Cert.ReferenceIdeal.RefValue.a34 V0' := (W13_of m ρ c main_arg34 (by decide)).trans (L12_main_arg34 m ρ c V0' hag)

end Cert.KernelIdeal.Frm

end
-- ==== Proof.IdealFinal6.lean ====
/-
  What region 6 leaves in its output array, at the extended reals: the rectified layer followed by a layer of the
  WHOLE input array. Point t loads rows 10000·t … 10000·t + 9999 of the input and the whole weight matrices and one-row biases,
  and writes back the stage of that block of rows; row p of a stage depends only on row p of its input, so what point t
  writes back is rows 10000·t … of the stage of the whole array; the 60 blocks tile the 600000 rows.
-/
import proofs.«181157_j5506148073958_2_alg».proof.Proof.IdealRegion6
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz6 : (![0, 0] : Fin 2 → Nat) = fun _ => 0 := funext fun a => by fin_cases a <;> rfl

/-- The stage of the whole arrays as the region finds them. -/
def G6 (c : Dev nD) : S600000x64.Idx → EReal :=
  ra (V c main_v335) (V c main_v302) (rowOf (V c main_v336)) (V c main_v306) (rowOf (V c main_v337))

/-- The printed index maps, decided over the grid: the input rows' window moves with the output's, every other window
    stays at block 0, and the output's block index stays in range. -/
theorem idx_facts6 : ∀ t : Fin cfg6.N, win6_0.index t (0 : Fin 2) = win6_5.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (1 : Fin 2) = 0
    ∧ win6_5.index t (0 : Fin 2) ≤ 59 :=
  (by decide +kernel : ∀ t : Fin grid6.N, _)

/-- Every block of rows is some point's. -/
theorem idx_onto6 : ∀ q0 : Fin 60, ∃ t : Fin cfg6.N, win6_5.index t = ![q0.val, 0] :=
  (by decide +kernel : ∀ q0 : Fin 60, ∃ t : Fin grid6.N, win6_5.index t = ![q0.val, 0])

/-- What point t writes back is block t of the stage of the whole arrays. -/
theorem flushed6_eq (c : Dev nD) (t : Fin cfg6.N) :
    (dat6 (F := Ideal) V c).flushed 5 t = ((cfg6.win 5).blk t).view.read (Elt Ideal) (G6 V c) := by
  show (cfg6.win 5).cut (grid6.coords t) ((dat6 (F := Ideal) V c).after 5 t) = _
  rw [after6_5]
  unfold out6_5
  rw [View.canon_unit_zero hz6]
  simp only [View.ld_unit_zero (S := S10000x129) hz6, View.ld_unit_zero (S := S129x64) hz6, View.ld_unit_zero (S := S1x64) hz6, View.ld_unit_zero (S := S64x64) hz6]
  obtain ⟨e0, e1, e2, e3, e4, e5, e6, e7, e8, e9, e10, e11⟩ := idx_facts6 t
  have hw1 : iblk6 V c 1 t = V c main_v302 := by
    funext y
    show V c main_v302 (((cfg6.win 1).blk t).view.emb y) = V c main_v302 y
    refine congrArg _ ?_
    funext a; apply Fin.ext
    match a with
    | ⟨0, _⟩ => show win6_1.index t (0 : Fin 2) * 129 + 1 * (y 0).val = (y 0).val; omega
    | ⟨1, _⟩ => show win6_1.index t (1 : Fin 2) * 64 + 1 * (y 1).val = (y 1).val; omega
  have hw2 : iblk6 V c 2 t = V c main_v336 := by
    funext y
    show V c main_v336 (((cfg6.win 2).blk t).view.emb y) = V c main_v336 y
    refine congrArg _ ?_
    funext a; apply Fin.ext
    match a with
    | ⟨0, _⟩ => show win6_2.index t (0 : Fin 2) * 1 + 1 * (y 0).val = (y 0).val; omega
    | ⟨1, _⟩ => show win6_2.index t (1 : Fin 2) * 64 + 1 * (y 1).val = (y 1).val; omega
  have hw3 : iblk6 V c 3 t = V c main_v306 := by
    funext y
    show V c main_v306 (((cfg6.win 3).blk t).view.emb y) = V c main_v306 y
    refine congrArg _ ?_
    funext a; apply Fin.ext
    match a with
    | ⟨0, _⟩ => show win6_3.index t (0 : Fin 2) * 64 + 1 * (y 0).val = (y 0).val; omega
    | ⟨1, _⟩ => show win6_3.index t (1 : Fin 2) * 64 + 1 * (y 1).val = (y 1).val; omega
  have hw4 : iblk6 V c 4 t = V c main_v337 := by
    funext y
    show V c main_v337 (((cfg6.win 4).blk t).view.emb y) = V c main_v337 y
    refine congrArg _ ?_
    funext a; apply Fin.ext
    match a with
    | ⟨0, _⟩ => show win6_4.index t (0 : Fin 2) * 1 + 1 * (y 0).val = (y 0).val; omega
    | ⟨1, _⟩ => show win6_4.index t (1 : Fin 2) * 64 + 1 * (y 1).val = (y 1).val; omega
  funext j
  obtain ⟨p, q, rfl⟩ : ∃ (p : Fin 10000) (q : Fin 64), j = ix2 p q := ⟨j 0, j 1, eq_ix2 j⟩
  refine (pay6_apply (iblk6 V c 0 t) (iblk6 V c 1 t) (iblk6 V c 2 t) (iblk6 V c 3 t) (iblk6 V c 4 t) p q).trans ?_
  rw [hw1, hw2, hw3, hw4]
  have hp : p.val < 10000 := p.isLt
  have hrow : win6_5.index t (0 : Fin 2) * 10000 + p.val < 600000 := by omega
  have hemb : ((cfg6.win 5).blk t).view.emb (ix2 p q) = ix2 (⟨win6_5.index t (0 : Fin 2) * 10000 + p.val, hrow⟩ : Fin 600000) q := by
    funext a; apply Fin.ext
    match a with
    | ⟨0, _⟩ => show win6_5.index t (0 : Fin 2) * 10000 + 1 * p.val = win6_5.index t (0 : Fin 2) * 10000 + p.val; omega
    | ⟨1, _⟩ => show win6_5.index t (1 : Fin 2) * 64 + 1 * q.val = q.val; omega
  show ra (iblk6 V c 0 t) _ _ _ _ (ix2 p q) = G6 V c (((cfg6.win 5).blk t).view.emb (ix2 p q))
  rw [hemb]
  refine ra_row _ _ _ _ _ _ p _ (fun k => ?_) q
  show V c main_v335 (((cfg6.win 0).blk t).view.emb (ix2 p k)) = V c main_v335 (ix2 (⟨win6_5.index t (0 : Fin 2) * 10000 + p.val, hrow⟩ : Fin 600000) k)
  refine congrArg _ ?_
  funext a; apply Fin.ext
  match a with
  | ⟨0, _⟩ => show win6_0.index t (0 : Fin 2) * 10000 + 1 * p.val = win6_5.index t (0 : Fin 2) * 10000 + p.val; omega
  | ⟨1, _⟩ => show win6_0.index t (1 : Fin 2) * 129 + 1 * k.val = k.val; omega

/-- An index of the output array is in point t's block iff its row is in the block's range. -/
theorem mem_blk6 (t : Fin cfg6.N) (i : S600000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v338).slice (win6_5.rect t)).set ↔ _
  rw [View.set_slice_whole, Rect.mem_set_unit]
  exact Iff.rfl

/-- The blocks cover the output array. -/
theorem cover6 (i : S600000x64.Idx) :
    ∃ t : Fin cfg6.N, (cfg6.win 5).flush t = true ∧ i ∈ ((cfg6.win 5).blk t).view.set := by
  have hi0 : (i 0).val < 600000 := (i 0).isLt
  have hi1 : (i 1).val < 64 := (i 1).isLt
  obtain ⟨t, ht⟩ := idx_onto6 ⟨(i 0).val / 10000, by omega⟩
  have q0 : win6_5.index t (0 : Fin 2) = (i 0).val / 10000 := congrFun ht 0
  have q1 : win6_5.index t (1 : Fin 2) = 0 := congrFun ht 1
  refine ⟨t, flush6_5 t, ?_⟩
  rw [mem_blk6]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- The output array after the region: the stage of the whole arrays. -/
theorem final6 (c : Dev nD) : (dat6 (F := Ideal) V c).arrAt 5 cfg6.N = G6 V c :=
  (dat6 (F := Ideal) V c).arrAt_eq_of_cover 5 (G6 V c) (fun t _ => flushed6_eq V c t) (cover6)

end Cert.KernelIdeal.Frm

end
-- ==== Proof.IdealStretch7.lean ====
/-
  Host stretch 7 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v375`, as a function of its two operands. -/
def cat_main_v375 : (⟨S50000x64, .f32⟩ : BufTy).Contents (Elt F) → (⟨S50000x64, .f32⟩ : BufTy).Contents (Elt F) → (⟨S50000x128, .f32⟩ : BufTy).Contents (Elt F) :=
  fun a b => concatenate S50000x128 1 [⟨S50000x64, a⟩, ⟨S50000x64, b⟩] concatenates_S50000x64_S50000x64_S50000x128_d1

/-- The stretch's operations with each concatenation's function named (evaluation then goes on into a concatenation's
    operands instead of stopping at the list of pairs that holds them). -/
abbrev hostOps7n : List (HloOp τ sig (Elt F)) :=
  ( StableHlo.nullary main_cst_53 (constant S_ .f32 0x00000000#32)
  :: StableHlo.unary main_cst_53 main_v339 (broadcastInDim S50000x64 ![] bcast_S_S50000x64 : (⟨S_, .f32⟩ : BufTy).Contents (Elt F) → (⟨S50000x64, .f32⟩ : BufTy).Contents (Elt F))
  :: StableHlo.unary main_v82 main_v340 (broadcastInDim S600000x1 ![0] bcast_S600000_S600000x1_0 : (⟨S600000, .i32⟩ : BufTy).Contents (Elt F) → (⟨S600000x1, .i32⟩ : BufTy).Contents (Elt F))
  :: StableHlo.ternary main_v339 main_v340 main_v338 main_v341 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F))
  :: StableHlo.nullary main_cst_54 (constant S_ .f32 0x3F800000#32)
  :: StableHlo.unary main_cst_54 main_v342 (broadcastInDim S600000x1 ![] bcast_S_S600000x1 : (⟨S_, .f32⟩ : BufTy).Contents (Elt F) → (⟨S600000x1, .f32⟩ : BufTy).Contents (Elt F))
  :: StableHlo.nullary main_cst_55 (constant S_ .f32 0x00000000#32)
  :: StableHlo.unary main_cst_55 main_v343 (broadcastInDim S50000x1 ![] bcast_S_S50000x1 : (⟨S_, .f32⟩ : BufTy).Contents (Elt F) → (⟨S50000x1, .f32⟩ : BufTy).Contents (Elt F))
  :: StableHlo.unary main_v82 main_v344 (broadcastInDim S600000x1 ![0] bcast_S600000_S600000x1_0 : (⟨S600000, .i32⟩ : BufTy).Contents (Elt F) → (⟨S600000x1, .i32⟩ : BufTy).Contents (Elt F))
  :: StableHlo.ternary main_v343 main_v344 main_v342 main_v345 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F))
  :: StableHlo.nullary main_cst_56 (constant S_ .f32 0x3F800000#32)
  :: StableHlo.unary main_cst_56 main_v346 (broadcastInDim S50000x1 ![] bcast_S_S50000x1 : (⟨S_, .f32⟩ : BufTy).Contents (Elt F) → (⟨S50000x1, .f32⟩ : BufTy).Contents (Elt F))
  :: StableHlo.binary main_v345 main_v346 main_v347 (maximumf : (⟨S50000x1, .f32⟩ : BufTy).Contents (Elt F) → (⟨S50000x1, .f32⟩ : BufTy).Contents (Elt F) → (⟨S50000x1, .f32⟩ : BufTy).Contents (Elt F))
  :: StableHlo.unary main_v347 main_v348 (broadcastInDim S50000x64 ![0, 1] bcast_S50000x1_S50000x64_0_1 : (⟨S50000x1, .f32⟩ : BufTy).Contents (Elt F) → (⟨S50000x64, .f32⟩ : BufTy).Contents (Elt F))
  :: StableHlo.binary main_v341 main_v348 main_v349 (Host.divf : (⟨S50000x64, .f32⟩ : BufTy).Contents (Elt F) → (⟨S50000x64, .f32⟩ : BufTy).Contents (Elt F) → (⟨S50000x64, .f32⟩ : BufTy).Contents (Elt F))
  :: StableHlo.nullary main_cst_57 (constant S_ .f32 0x00000000#32)
  :: StableHlo.binary main_v349 main_cst_57 main_v350 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_58 (constant S_ .f32 0x47435000#32)
  :: StableHlo.unary main_cst_58 main_v351 (broadcastInDim S64 ![] bcast_S_S64 : (⟨S_, .f32⟩ : BufTy).Contents (Elt F) → (⟨S64, .f32⟩ : BufTy).Contents (Elt F))
  :: StableHlo.binary main_v350 main_v351 main_v352 (Host.divf : (⟨S64, .f32⟩ : BufTy).Contents (Elt F) → (⟨S64, .f32⟩ : BufTy).Contents (Elt F) → (⟨S64, .f32⟩ : BufTy).Contents (Elt F))
  :: StableHlo.unary main_v352 main_v353 (broadcastInDim S1x64 ![1] bcast_S64_S1x64_1 : (⟨S64, .f32⟩ : BufTy).Contents (Elt F) → (⟨S1x64, .f32⟩ : BufTy).Contents (Elt F))
  :: StableHlo.unary main_v353 main_v354 (broadcastInDim S50000x64 ![0, 1] bcast_S1x64_S50000x64_0_1 : (⟨S1x64, .f32⟩ : BufTy).Contents (Elt F) → (⟨S50000x64, .f32⟩ : BufTy).Contents (Elt F))
  :: StableHlo.binary main_v349 main_v354 main_v355 (subf : (⟨S50000x64, .f32⟩ : BufTy).Contents (Elt F) → (⟨S50000x64, .f32⟩ : BufTy).Contents (Elt F) → (⟨S50000x64, .f32⟩ : BufTy).Contents (Elt F))
  :: StableHlo.binary main_v355 main_v355 main_v356 (mulf : (⟨S50000x64, .f32⟩ : BufTy).Contents (Elt F) → (⟨S50000x64, .f32⟩ : BufTy).Contents (Elt F) → (⟨S50000x64, .f32⟩ : BufTy).Contents (Elt F))
  :: StableHlo.nullary main_cst_59 (constant S_ .f32 0x00000000#32)
  :: StableHlo.binary main_v356 main_cst_59 main_v357 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_60 (constant S_ .f32 0x47435000#32)
  :: StableHlo.unary main_cst_60 main_v358 (broadcastInDim S64 ![] bcast_S_S64 : (⟨S_, .f32⟩ : BufTy).Contents (Elt F) → (⟨S64, .f32⟩ : BufTy).Contents (Elt F))
  :: StableHlo.binary main_v357 main_v358 main_v359 (Host.divf : (⟨S64, .f32⟩ : BufTy).Contents (Elt F) → (⟨S64, .f32⟩ : BufTy).Contents (Elt F) → (⟨S64, .f32⟩ : BufTy).Contents (Elt F))
  :: StableHlo.unary main_v352 main_v360 (broadcastInDim S1x64 ![1] bcast_S64_S1x64_1 : (⟨S64, .f32⟩ : BufTy).Contents (Elt F) → (⟨S1x64, .f32⟩ : BufTy).Contents (Elt F))
  :: StableHlo.unary main_v360 main_v361 (broadcastInDim S50000x64 ![0, 1] bcast_S1x64_S50000x64_0_1 : (⟨S1x64, .f32⟩ : BufTy).Contents (Elt F) → (⟨S50000x64, .f32⟩ : BufTy).Contents (Elt F))
  :: StableHlo.binary main_v349 main_v361 main_v362 (subf : (⟨S50000x64, .f32⟩ : BufTy).Contents (Elt F) → (⟨S50000x64, .f32⟩ : BufTy).Contents (Elt F) → (⟨S50000x64, .f32⟩ : BufTy).Contents (Elt F))
  :: StableHlo.nullary main_cst_61 (constant S_ .f32 0x3727C5AC#32)
  :: StableHlo.unary main_cst_61 main_v363 (broadcastInDim S64 ![] bcast_S_S64 : (⟨S_, .f32⟩ : BufTy).Contents (Elt F) → (⟨S64, .f32⟩ : BufTy).Contents (Elt F))
  :: StableHlo.binary main_v359 main_v363 main_v364 (addf : (⟨S64, .f32⟩ : BufTy).Contents (Elt F) → (⟨S64, .f32⟩ : BufTy).Contents (Elt F) → (⟨S64, .f32⟩ : BufTy).Contents (Elt F))
  :: StableHlo.unary main_v364 main_v365 (Host.rsqrt : (⟨S64, .f32⟩ : BufTy).Contents (Elt F) → (⟨S64, .f32⟩ : BufTy).Contents (Elt F))
  :: StableHlo.unary main_v365 main_v366 (broadcastInDim S1x64 ![1] bcast_S64_S1x64_1 : (⟨S64, .f32⟩ : BufTy).Contents (Elt F) → (⟨S1x64, .f32⟩ : BufTy).Contents (Elt F))
  :: StableHlo.unary main_v366 main_v367 (broadcastInDim S50000x64 ![0, 1] bcast_S1x64_S50000x64_0_1 : (⟨S1x64, .f32⟩ : BufTy).Contents (Elt F) → (⟨S50000x64, .f32⟩ : BufTy).Contents (Elt F))
  :: StableHlo.binary main_v362 main_v367 main_v368 (mulf : (⟨S50000x64, .f32⟩ : BufTy).Contents (Elt F) → (⟨S50000x64, .f32⟩ : BufTy).Contents (Elt F) → (⟨S50000x64, .f32⟩ : BufTy).Contents (Elt F))
  :: StableHlo.unary main_v310 main_v369 (broadcastInDim S1x64 ![1] bcast_S64_S1x64_1 : (⟨S64, .f32⟩ : BufTy).Contents (Elt F) → (⟨S1x64, .f32⟩ : BufTy).Contents (Elt F))
  :: StableHlo.unary main_v369 main_v370 (broadcastInDim S50000x64 ![0, 1] bcast_S1x64_S50000x64_0_1 : (⟨S1x64, .f32⟩ : BufTy).Contents (Elt F) → (⟨S50000x64, .f32⟩ : BufTy).Contents (Elt F))
  :: StableHlo.binary main_v368 main_v370 main_v371 (mulf : (⟨S50000x64, .f32⟩ : BufTy).Contents (Elt F) → (⟨S50000x64, .f32⟩ : BufTy).Contents (Elt F) → (⟨S50000x64, .f32⟩ : BufTy).Contents (Elt F))
  :: StableHlo.unary main_v312 main_v372 (broadcastInDim S1x64 ![1] bcast_S64_S1x64_1 : (⟨S64, .f32⟩ : BufTy).Contents (Elt F) → (⟨S1x64, .f32⟩ : BufTy).Contents (Elt F))
  :: StableHlo.unary main_v372 main_v373 (broadcastInDim S50000x64 ![0, 1] bcast_S1x64_S50000x64_0_1 : (⟨S1x64, .f32⟩ : BufTy).Contents (Elt F) → (⟨S50000x64, .f32⟩ : BufTy).Contents (Elt F))
  :: StableHlo.binary main_v371 main_v373 main_v374 (addf : (⟨S50000x64, .f32⟩ : BufTy).Contents (Elt F) → (⟨S50000x64, .f32⟩ : BufTy).Contents (Elt F) → (⟨S50000x64, .f32⟩ : BufTy).Contents (Elt F))
  :: StableHlo.binary main_v374 main_v270 main_v375 (cat_main_v375 : (⟨S50000x64, .f32⟩ : BufTy).Contents (Elt F) → (⟨S50000x64, .f32⟩ : BufTy).Contents (Elt F) → (⟨S50000x128, .f32⟩ : BufTy).Contents (Elt F))
  :: StableHlo.reshape main_v316 main_v376 rfl shapeCasts_S64_S1x64
  :: StableHlo.reshape main_v320 main_v377 rfl shapeCasts_S64_S1x64
  :: [] )

theorem hostOps7n_eq : (hostOps7 (F := F)) = hostOps7n := rfl

set_option maxHeartbeats 4000000 in
/-- `main_v375` after the stretch, from the live-in buffers' values. -/
theorem s7_main_v375 (W : Valuation τ sig (Elt Ideal)) (V0' : Valuation Cert.ReferenceIdeal.τ Cert.ReferenceIdeal.sig (Elt Ideal))
    (h_main_v270 : W (Proc.devRef .tc main_v270) = Cert.ReferenceIdeal.Value.res_main_v316 V0')
    (h_main_v312 : W (Proc.devRef .tc main_v312) = Cert.ReferenceIdeal.RefValue.t_main_v358 V0')
    (h_main_v310 : W (Proc.devRef .tc main_v310) = Cert.ReferenceIdeal.RefValue.t_main_v356 V0')
    (h_main_v82 : W (Proc.devRef .tc main_v82) = Cert.ReferenceIdeal.Value.res_main_v100 V0')
    (h_main_v338 : W (Proc.devRef .tc main_v338) = Cert.ReferenceIdeal.RefValue.t_main_v391 V0') :
    StableHlo.after (hostOps7 (F := Ideal)) W (Proc.devRef .tc main_v375) = Cert.ReferenceIdeal.RefValue.t_main_v428 V0' := by
  rw [hostOps7n_eq]
  simp only [hostOps7n]
  after_results_simp
  try dsimp only [Matrix.cons_val]
  try after_results_simp
  simp only [h_main_v270, h_main_v312, h_main_v310, h_main_v82, h_main_v338] <;> rfl

set_option maxHeartbeats 4000000 in
/-- `main_v376` after the stretch, from the live-in buffers' values. -/
theorem s7_main_v376 (W : Valuation τ sig (Elt Ideal)) (V0' : Valuation Cert.ReferenceIdeal.τ Cert.ReferenceIdeal.sig (Elt Ideal))
    (h_main_v316 : W (Proc.devRef .tc main_v316) = Cert.ReferenceIdeal.RefValue.t_main_v362 V0') :
    StableHlo.after (hostOps7 (F := Ideal)) W (Proc.devRef .tc main_v376) = shapeCast _ (Cert.ReferenceIdeal.RefValue.t_main_v362 V0') shapeCasts_S64_S1x64 := by
  rw [hostOps7n_eq]
  simp only [hostOps7n]
  after_results_simp
  try dsimp only [Matrix.cons_val]
  try after_results_simp
  simp only [h_main_v316] <;> rfl

set_option maxHeartbeats 4000000 in
/-- `main_v377` after the stretch, from the live-in buffers' values. -/
theorem s7_main_v377 (W : Valuation τ sig (Elt Ideal)) (V0' : Valuation Cert.ReferenceIdeal.τ Cert.ReferenceIdeal.sig (Elt Ideal))
    (h_main_v320 : W (Proc.devRef .tc main_v320) = Cert.ReferenceIdeal.RefValue.t_main_v366 V0') :
    StableHlo.after (hostOps7 (F := Ideal)) W (Proc.devRef .tc main_v377) = shapeCast _ (Cert.ReferenceIdeal.RefValue.t_main_v366 V0') shapeCasts_S64_S1x64 := by
  rw [hostOps7n_eq]
  simp only [hostOps7n]
  after_results_simp
  try dsimp only [Matrix.cons_val]
  try after_results_simp
  simp only [h_main_v320] <;> rfl

end Cert.KernelIdeal.Frm

end
-- ==== Proof.IdealChain7.lean ====
/-
  The kernel's buffers at the boundaries 14 and 15 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain6
import proofs.«181157_j5506148073958_2_alg».proof.Proof.IdealFinal6
import proofs.«181157_j5506148073958_2_alg».proof.Proof.IdealStretch7

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 14 -/

theorem L14_main_arg17 (hag : Agree m ρ c V0') : W14 m ρ c (Proc.devRef .tc main_arg17) = Cert.ReferenceIdeal.RefValue.a17 V0' := (W14_of_ne m ρ c main_arg17 (by decide)).trans (L13_main_arg17 m ρ c V0' hag)

theorem L14_main_arg18 (hag : Agree m ρ c V0') : W14 m ρ c (Proc.devRef .tc main_arg18) = Cert.ReferenceIdeal.RefValue.a18 V0' := (W14_of_ne m ρ c main_arg18 (by decide)).trans (L13_main_arg18 m ρ c V0' hag)

theorem L14_main_arg19 (hag : Agree m ρ c V0') : W14 m ρ c (Proc.devRef .tc main_arg19) = Cert.ReferenceIdeal.RefValue.a19 V0' := (W14_of_ne m ρ c main_arg19 (by decide)).trans (L13_main_arg19 m ρ c V0' hag)

theorem L14_main_arg20 (hag : Agree m ρ c V0') : W14 m ρ c (Proc.devRef .tc main_arg20) = Cert.ReferenceIdeal.RefValue.a20 V0' := (W14_of_ne m ρ c main_arg20 (by decide)).trans (L13_main_arg20 m ρ c V0' hag)

theorem L14_main_arg21 (hag : Agree m ρ c V0') : W14 m ρ c (Proc.devRef .tc main_arg21) = Cert.ReferenceIdeal.RefValue.a21 V0' := (W14_of_ne m ρ c main_arg21 (by decide)).trans (L13_main_arg21 m ρ c V0' hag)

theorem L14_main_arg22 (hag : Agree m ρ c V0') : W14 m ρ c (Proc.devRef .tc main_arg22) = Cert.ReferenceIdeal.RefValue.a22 V0' := (W14_of_ne m ρ c main_arg22 (by decide)).trans (L13_main_arg22 m ρ c V0' hag)

theorem L14_main_arg23 (hag : Agree m ρ c V0') : W14 m ρ c (Proc.devRef .tc main_arg23) = Cert.ReferenceIdeal.RefValue.a23 V0' := (W14_of_ne m ρ c main_arg23 (by decide)).trans (L13_main_arg23 m ρ c V0' hag)

theorem L14_main_arg24 (hag : Agree m ρ c V0') : W14 m ρ c (Proc.devRef .tc main_arg24) = Cert.ReferenceIdeal.RefValue.a24 V0' := (W14_of_ne m ρ c main_arg24 (by decide)).trans (L13_main_arg24 m ρ c V0' hag)

theorem L14_main_arg25 (hag : Agree m ρ c V0') : W14 m ρ c (Proc.devRef .tc main_arg25) = Cert.ReferenceIdeal.RefValue.a25 V0' := (W14_of_ne m ρ c main_arg25 (by decide)).trans (L13_main_arg25 m ρ c V0' hag)

theorem L14_main_arg26 (hag : Agree m ρ c V0') : W14 m ρ c (Proc.devRef .tc main_arg26) = Cert.ReferenceIdeal.RefValue.a26 V0' := (W14_of_ne m ρ c main_arg26 (by decide)).trans (L13_main_arg26 m ρ c V0' hag)

theorem L14_main_v80 (hag : Agree m ρ c V0') : W14 m ρ c (Proc.devRef .tc main_v80) = Cert.ReferenceIdeal.Value.res_main_v98 V0' := (W14_of_ne m ρ c main_v80 (by decide)).trans (L13_main_v80 m ρ c V0' hag)

theorem L14_main_v52 (hag : Agree m ρ c V0') : W14 m ρ c (Proc.devRef .tc main_v52) = Cert.ReferenceIdeal.Value.res_main_v61 V0' := (W14_of_ne m ρ c main_v52 (by decide)).trans (L13_main_v52 m ρ c V0' hag)

theorem L14_main_v82 (hag : Agree m ρ c V0') : W14 m ρ c (Proc.devRef .tc main_v82) = Cert.ReferenceIdeal.Value.res_main_v100 V0' := (W14_of_ne m ρ c main_v82 (by decide)).trans (L13_main_v82 m ρ c V0' hag)

theorem L14_main_v84 (hag : Agree m ρ c V0') : W14 m ρ c (Proc.devRef .tc main_v84) = Cert.ReferenceIdeal.Value.res_main_v102 V0' := (W14_of_ne m ρ c main_v84 (by decide)).trans (L13_main_v84 m ρ c V0' hag)

theorem L14_main_arg27 (hag : Agree m ρ c V0') : W14 m ρ c (Proc.devRef .tc main_arg27) = Cert.ReferenceIdeal.RefValue.a27 V0' := (W14_of_ne m ρ c main_arg27 (by decide)).trans (L13_main_arg27 m ρ c V0' hag)

theorem L14_main_arg28 (hag : Agree m ρ c V0') : W14 m ρ c (Proc.devRef .tc main_arg28) = Cert.ReferenceIdeal.RefValue.a28 V0' := (W14_of_ne m ρ c main_arg28 (by decide)).trans (L13_main_arg28 m ρ c V0' hag)

theorem L14_main_arg29 (hag : Agree m ρ c V0') : W14 m ρ c (Proc.devRef .tc main_arg29) = Cert.ReferenceIdeal.RefValue.a29 V0' := (W14_of_ne m ρ c main_arg29 (by decide)).trans (L13_main_arg29 m ρ c V0' hag)

theorem L14_main_v338 (hag : Agree m ρ c V0') : W14 m ρ c (Proc.devRef .tc main_v338) = Cert.ReferenceIdeal.RefValue.t_main_v391 V0' := by
  refine (W14_arr m ρ c 5).trans ?_
  refine (final6 (V13 m ρ) c).trans ?_
  unfold G6
  have h0 : V13 m ρ c main_v335 = Cert.ReferenceIdeal.RefValue.t_main_v381 V0' := (L13_main_v335 m ρ c V0' hag)
  have hW0 : V13 m ρ c main_v302 = Cert.ReferenceIdeal.RefValue.t_main_v348 V0' := (L13_main_v302 m ρ c V0' hag)
  have hb0 : Cert.LibRowBias.rowOf (V13 m ρ c main_v336) = Cert.ReferenceIdeal.RefValue.t_main_v350 V0' := by
    rw [show V13 m ρ c main_v336 = shapeCast _ (Cert.ReferenceIdeal.RefValue.t_main_v350 V0') shapeCasts_S64_S1x64 from (L13_main_v336 m ρ c V0' hag)]
    exact Cert.LibRowBias.rowOf_shapeCast _ _
  have hW1 : V13 m ρ c main_v306 = Cert.ReferenceIdeal.RefValue.t_main_v352 V0' := (L13_main_v306 m ρ c V0' hag)
  have hb1 : Cert.LibRowBias.rowOf (V13 m ρ c main_v337) = Cert.ReferenceIdeal.RefValue.t_main_v354 V0' := by
    rw [show V13 m ρ c main_v337 = shapeCast _ (Cert.ReferenceIdeal.RefValue.t_main_v354 V0') shapeCasts_S64_S1x64 from (L13_main_v337 m ρ c V0' hag)]
    exact Cert.LibRowBias.rowOf_shapeCast _ _
  rw [h0, hW0, hb0, hW1, hb1]
  exact (Cert.ReferenceIdeal.RefValue.stage6_ref V0').symm

theorem L14_main_v310 (hag : Agree m ρ c V0') : W14 m ρ c (Proc.devRef .tc main_v310) = Cert.ReferenceIdeal.RefValue.t_main_v356 V0' := (W14_of_ne m ρ c main_v310 (by decide)).trans (L13_main_v310 m ρ c V0' hag)

theorem L14_main_v312 (hag : Agree m ρ c V0') : W14 m ρ c (Proc.devRef .tc main_v312) = Cert.ReferenceIdeal.RefValue.t_main_v358 V0' := (W14_of_ne m ρ c main_v312 (by decide)).trans (L13_main_v312 m ρ c V0' hag)

theorem L14_main_v270 (hag : Agree m ρ c V0') : W14 m ρ c (Proc.devRef .tc main_v270) = Cert.ReferenceIdeal.Value.res_main_v316 V0' := (W14_of_ne m ρ c main_v270 (by decide)).trans (L13_main_v270 m ρ c V0' hag)

theorem L14_main_v316 (hag : Agree m ρ c V0') : W14 m ρ c (Proc.devRef .tc main_v316) = Cert.ReferenceIdeal.RefValue.t_main_v362 V0' := (W14_of_ne m ρ c main_v316 (by decide)).trans (L13_main_v316 m ρ c V0' hag)

theorem L14_main_v320 (hag : Agree m ρ c V0') : W14 m ρ c (Proc.devRef .tc main_v320) = Cert.ReferenceIdeal.RefValue.t_main_v366 V0' := (W14_of_ne m ρ c main_v320 (by decide)).trans (L13_main_v320 m ρ c V0' hag)

theorem L14_main_v314 (hag : Agree m ρ c V0') : W14 m ρ c (Proc.devRef .tc main_v314) = Cert.ReferenceIdeal.RefValue.t_main_v360 V0' := (W14_of_ne m ρ c main_v314 (by decide)).trans (L13_main_v314 m ρ c V0' hag)

theorem L14_main_v318 (hag : Agree m ρ c V0') : W14 m ρ c (Proc.devRef .tc main_v318) = Cert.ReferenceIdeal.RefValue.t_main_v364 V0' := (W14_of_ne m ρ c main_v318 (by decide)).trans (L13_main_v318 m ρ c V0' hag)

theorem L14_main_v300 (hag : Agree m ρ c V0') : W14 m ρ c (Proc.devRef .tc main_v300) = Cert.ReferenceIdeal.Value.res_main_v346 V0' := (W14_of_ne m ρ c main_v300 (by decide)).trans (L13_main_v300 m ρ c V0' hag)

theorem L14_main_arg31 (hag : Agree m ρ c V0') : W14 m ρ c (Proc.devRef .tc main_arg31) = Cert.ReferenceIdeal.RefValue.a31 V0' := (W14_of_ne m ρ c main_arg31 (by decide)).trans (L13_main_arg31 m ρ c V0' hag)

theorem L14_main_arg33 (hag : Agree m ρ c V0') : W14 m ρ c (Proc.devRef .tc main_arg33) = Cert.ReferenceIdeal.RefValue.a33 V0' := (W14_of_ne m ρ c main_arg33 (by decide)).trans (L13_main_arg33 m ρ c V0' hag)

theorem L14_main_arg35 (hag : Agree m ρ c V0') : W14 m ρ c (Proc.devRef .tc main_arg35) = Cert.ReferenceIdeal.RefValue.a35 V0' := (W14_of_ne m ρ c main_arg35 (by decide)).trans (L13_main_arg35 m ρ c V0' hag)

theorem L14_main_arg30 (hag : Agree m ρ c V0') : W14 m ρ c (Proc.devRef .tc main_arg30) = Cert.ReferenceIdeal.RefValue.a30 V0' := (W14_of_ne m ρ c main_arg30 (by decide)).trans (L13_main_arg30 m ρ c V0' hag)

theorem L14_main_arg32 (hag : Agree m ρ c V0') : W14 m ρ c (Proc.devRef .tc main_arg32) = Cert.ReferenceIdeal.RefValue.a32 V0' := (W14_of_ne m ρ c main_arg32 (by decide)).trans (L13_main_arg32 m ρ c V0' hag)

theorem L14_main_arg34 (hag : Agree m ρ c V0') : W14 m ρ c (Proc.devRef .tc main_arg34) = Cert.ReferenceIdeal.RefValue.a34 V0' := (W14_of_ne m ρ c main_arg34 (by decide)).trans (L13_main_arg34 m ρ c V0' hag)

/-! ## Boundary 15 -/

theorem L15_main_arg17 (hag : Agree m ρ c V0') : W15 m ρ c (Proc.devRef .tc main_arg17) = Cert.ReferenceIdeal.RefValue.a17 V0' := (W15_of m ρ c main_arg17 (by decide)).trans (L14_main_arg17 m ρ c V0' hag)

theorem L15_main_arg18 (hag : Agree m ρ c V0') : W15 m ρ c (Proc.devRef .tc main_arg18) = Cert.ReferenceIdeal.RefValue.a18 V0' := (W15_of m ρ c main_arg18 (by decide)).trans (L14_main_arg18 m ρ c V0' hag)

theorem L15_main_arg19 (hag : Agree m ρ c V0') : W15 m ρ c (Proc.devRef .tc main_arg19) = Cert.ReferenceIdeal.RefValue.a19 V0' := (W15_of m ρ c main_arg19 (by decide)).trans (L14_main_arg19 m ρ c V0' hag)

theorem L15_main_arg20 (hag : Agree m ρ c V0') : W15 m ρ c (Proc.devRef .tc main_arg20) = Cert.ReferenceIdeal.RefValue.a20 V0' := (W15_of m ρ c main_arg20 (by decide)).trans (L14_main_arg20 m ρ c V0' hag)

theorem L15_main_arg21 (hag : Agree m ρ c V0') : W15 m ρ c (Proc.devRef .tc main_arg21) = Cert.ReferenceIdeal.RefValue.a21 V0' := (W15_of m ρ c main_arg21 (by decide)).trans (L14_main_arg21 m ρ c V0' hag)

theorem L15_main_arg22 (hag : Agree m ρ c V0') : W15 m ρ c (Proc.devRef .tc main_arg22) = Cert.ReferenceIdeal.RefValue.a22 V0' := (W15_of m ρ c main_arg22 (by decide)).trans (L14_main_arg22 m ρ c V0' hag)

theorem L15_main_arg23 (hag : Agree m ρ c V0') : W15 m ρ c (Proc.devRef .tc main_arg23) = Cert.ReferenceIdeal.RefValue.a23 V0' := (W15_of m ρ c main_arg23 (by decide)).trans (L14_main_arg23 m ρ c V0' hag)

theorem L15_main_arg24 (hag : Agree m ρ c V0') : W15 m ρ c (Proc.devRef .tc main_arg24) = Cert.ReferenceIdeal.RefValue.a24 V0' := (W15_of m ρ c main_arg24 (by decide)).trans (L14_main_arg24 m ρ c V0' hag)

theorem L15_main_arg25 (hag : Agree m ρ c V0') : W15 m ρ c (Proc.devRef .tc main_arg25) = Cert.ReferenceIdeal.RefValue.a25 V0' := (W15_of m ρ c main_arg25 (by decide)).trans (L14_main_arg25 m ρ c V0' hag)

theorem L15_main_arg26 (hag : Agree m ρ c V0') : W15 m ρ c (Proc.devRef .tc main_arg26) = Cert.ReferenceIdeal.RefValue.a26 V0' := (W15_of m ρ c main_arg26 (by decide)).trans (L14_main_arg26 m ρ c V0' hag)

theorem L15_main_v80 (hag : Agree m ρ c V0') : W15 m ρ c (Proc.devRef .tc main_v80) = Cert.ReferenceIdeal.Value.res_main_v98 V0' := (W15_of m ρ c main_v80 (by decide)).trans (L14_main_v80 m ρ c V0' hag)

theorem L15_main_v52 (hag : Agree m ρ c V0') : W15 m ρ c (Proc.devRef .tc main_v52) = Cert.ReferenceIdeal.Value.res_main_v61 V0' := (W15_of m ρ c main_v52 (by decide)).trans (L14_main_v52 m ρ c V0' hag)

theorem L15_main_v82 (hag : Agree m ρ c V0') : W15 m ρ c (Proc.devRef .tc main_v82) = Cert.ReferenceIdeal.Value.res_main_v100 V0' := (W15_of m ρ c main_v82 (by decide)).trans (L14_main_v82 m ρ c V0' hag)

theorem L15_main_v84 (hag : Agree m ρ c V0') : W15 m ρ c (Proc.devRef .tc main_v84) = Cert.ReferenceIdeal.Value.res_main_v102 V0' := (W15_of m ρ c main_v84 (by decide)).trans (L14_main_v84 m ρ c V0' hag)

theorem L15_main_arg27 (hag : Agree m ρ c V0') : W15 m ρ c (Proc.devRef .tc main_arg27) = Cert.ReferenceIdeal.RefValue.a27 V0' := (W15_of m ρ c main_arg27 (by decide)).trans (L14_main_arg27 m ρ c V0' hag)

theorem L15_main_arg28 (hag : Agree m ρ c V0') : W15 m ρ c (Proc.devRef .tc main_arg28) = Cert.ReferenceIdeal.RefValue.a28 V0' := (W15_of m ρ c main_arg28 (by decide)).trans (L14_main_arg28 m ρ c V0' hag)

theorem L15_main_arg29 (hag : Agree m ρ c V0') : W15 m ρ c (Proc.devRef .tc main_arg29) = Cert.ReferenceIdeal.RefValue.a29 V0' := (W15_of m ρ c main_arg29 (by decide)).trans (L14_main_arg29 m ρ c V0' hag)

theorem L15_main_v375 (hag : Agree m ρ c V0') : W15 m ρ c (Proc.devRef .tc main_v375) = Cert.ReferenceIdeal.RefValue.t_main_v428 V0' := s7_main_v375 (W14 m ρ c) V0' (L14_main_v270 m ρ c V0' hag) (L14_main_v312 m ρ c V0' hag) (L14_main_v310 m ρ c V0' hag) (L14_main_v82 m ρ c V0' hag) (L14_main_v338 m ρ c V0' hag)

theorem L15_main_v314 (hag : Agree m ρ c V0') : W15 m ρ c (Proc.devRef .tc main_v314) = Cert.ReferenceIdeal.RefValue.t_main_v360 V0' := (W15_of m ρ c main_v314 (by decide)).trans (L14_main_v314 m ρ c V0' hag)

theorem L15_main_v376 (hag : Agree m ρ c V0') : W15 m ρ c (Proc.devRef .tc main_v376) = shapeCast _ (Cert.ReferenceIdeal.RefValue.t_main_v362 V0') shapeCasts_S64_S1x64 := s7_main_v376 (W14 m ρ c) V0' (L14_main_v316 m ρ c V0' hag)

theorem L15_main_v318 (hag : Agree m ρ c V0') : W15 m ρ c (Proc.devRef .tc main_v318) = Cert.ReferenceIdeal.RefValue.t_main_v364 V0' := (W15_of m ρ c main_v318 (by decide)).trans (L14_main_v318 m ρ c V0' hag)

theorem L15_main_v377 (hag : Agree m ρ c V0') : W15 m ρ c (Proc.devRef .tc main_v377) = shapeCast _ (Cert.ReferenceIdeal.RefValue.t_main_v366 V0') shapeCasts_S64_S1x64 := s7_main_v377 (W14 m ρ c) V0' (L14_main_v320 m ρ c V0' hag)

theorem L15_main_v300 (hag : Agree m ρ c V0') : W15 m ρ c (Proc.devRef .tc main_v300) = Cert.ReferenceIdeal.Value.res_main_v346 V0' := (W15_of m ρ c main_v300 (by decide)).trans (L14_main_v300 m ρ c V0' hag)

theorem L15_main_arg31 (hag : Agree m ρ c V0') : W15 m ρ c (Proc.devRef .tc main_arg31) = Cert.ReferenceIdeal.RefValue.a31 V0' := (W15_of m ρ c main_arg31 (by decide)).trans (L14_main_arg31 m ρ c V0' hag)

theorem L15_main_arg33 (hag : Agree m ρ c V0') : W15 m ρ c (Proc.devRef .tc main_arg33) = Cert.ReferenceIdeal.RefValue.a33 V0' := (W15_of m ρ c main_arg33 (by decide)).trans (L14_main_arg33 m ρ c V0' hag)

theorem L15_main_arg35 (hag : Agree m ρ c V0') : W15 m ρ c (Proc.devRef .tc main_arg35) = Cert.ReferenceIdeal.RefValue.a35 V0' := (W15_of m ρ c main_arg35 (by decide)).trans (L14_main_arg35 m ρ c V0' hag)

theorem L15_main_arg30 (hag : Agree m ρ c V0') : W15 m ρ c (Proc.devRef .tc main_arg30) = Cert.ReferenceIdeal.RefValue.a30 V0' := (W15_of m ρ c main_arg30 (by decide)).trans (L14_main_arg30 m ρ c V0' hag)

theorem L15_main_arg32 (hag : Agree m ρ c V0') : W15 m ρ c (Proc.devRef .tc main_arg32) = Cert.ReferenceIdeal.RefValue.a32 V0' := (W15_of m ρ c main_arg32 (by decide)).trans (L14_main_arg32 m ρ c V0' hag)

theorem L15_main_arg34 (hag : Agree m ρ c V0') : W15 m ρ c (Proc.devRef .tc main_arg34) = Cert.ReferenceIdeal.RefValue.a34 V0' := (W15_of m ρ c main_arg34 (by decide)).trans (L14_main_arg34 m ρ c V0' hag)

end Cert.KernelIdeal.Frm

end
-- ==== Proof.IdealFinal7.lean ====
/-
  What region 7 leaves in its output array, at the extended reals: the rectified layer followed by a layer of the
  WHOLE input array. Point t loads rows 5000·t … 5000·t + 4999 of the input and the whole weight matrices and one-row biases,
  and writes back the stage of that block of rows; row p of a stage depends only on row p of its input, so what point t
  writes back is rows 5000·t … of the stage of the whole array; the 10 blocks tile the 50000 rows.
-/
import proofs.«181157_j5506148073958_2_alg».proof.Proof.IdealRegion7
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz7 : (![0, 0] : Fin 2 → Nat) = fun _ => 0 := funext fun a => by fin_cases a <;> rfl

/-- The stage of the whole arrays as the region finds them. -/
def G7 (c : Dev nD) : S50000x64.Idx → EReal :=
  ra (V c main_v375) (V c main_v314) (rowOf (V c main_v376)) (V c main_v318) (rowOf (V c main_v377))

/-- The printed index maps, decided over the grid: the input rows' window moves with the output's, every other window
    stays at block 0, and the output's block index stays in range. -/
theorem idx_facts7 : ∀ t : Fin cfg7.N, win7_0.index t (0 : Fin 2) = win7_5.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (1 : Fin 2) = 0
    ∧ win7_5.index t (0 : Fin 2) ≤ 9 :=
  (by decide +kernel : ∀ t : Fin grid7.N, _)

/-- Every block of rows is some point's. -/
theorem idx_onto7 : ∀ q0 : Fin 10, ∃ t : Fin cfg7.N, win7_5.index t = ![q0.val, 0] :=
  (by decide +kernel : ∀ q0 : Fin 10, ∃ t : Fin grid7.N, win7_5.index t = ![q0.val, 0])

/-- What point t writes back is block t of the stage of the whole arrays. -/
theorem flushed7_eq (c : Dev nD) (t : Fin cfg7.N) :
    (dat7 (F := Ideal) V c).flushed 5 t = ((cfg7.win 5).blk t).view.read (Elt Ideal) (G7 V c) := by
  show (cfg7.win 5).cut (grid7.coords t) ((dat7 (F := Ideal) V c).after 5 t) = _
  rw [after7_5]
  unfold out7_5
  rw [View.canon_unit_zero hz7]
  simp only [View.ld_unit_zero (S := S5000x128) hz7, View.ld_unit_zero (S := S128x64) hz7, View.ld_unit_zero (S := S1x64) hz7, View.ld_unit_zero (S := S64x64) hz7]
  obtain ⟨e0, e1, e2, e3, e4, e5, e6, e7, e8, e9, e10, e11⟩ := idx_facts7 t
  have hw1 : iblk7 V c 1 t = V c main_v314 := by
    funext y
    show V c main_v314 (((cfg7.win 1).blk t).view.emb y) = V c main_v314 y
    refine congrArg _ ?_
    funext a; apply Fin.ext
    match a with
    | ⟨0, _⟩ => show win7_1.index t (0 : Fin 2) * 128 + 1 * (y 0).val = (y 0).val; omega
    | ⟨1, _⟩ => show win7_1.index t (1 : Fin 2) * 64 + 1 * (y 1).val = (y 1).val; omega
  have hw2 : iblk7 V c 2 t = V c main_v376 := by
    funext y
    show V c main_v376 (((cfg7.win 2).blk t).view.emb y) = V c main_v376 y
    refine congrArg _ ?_
    funext a; apply Fin.ext
    match a with
    | ⟨0, _⟩ => show win7_2.index t (0 : Fin 2) * 1 + 1 * (y 0).val = (y 0).val; omega
    | ⟨1, _⟩ => show win7_2.index t (1 : Fin 2) * 64 + 1 * (y 1).val = (y 1).val; omega
  have hw3 : iblk7 V c 3 t = V c main_v318 := by
    funext y
    show V c main_v318 (((cfg7.win 3).blk t).view.emb y) = V c main_v318 y
    refine congrArg _ ?_
    funext a; apply Fin.ext
    match a with
    | ⟨0, _⟩ => show win7_3.index t (0 : Fin 2) * 64 + 1 * (y 0).val = (y 0).val; omega
    | ⟨1, _⟩ => show win7_3.index t (1 : Fin 2) * 64 + 1 * (y 1).val = (y 1).val; omega
  have hw4 : iblk7 V c 4 t = V c main_v377 := by
    funext y
    show V c main_v377 (((cfg7.win 4).blk t).view.emb y) = V c main_v377 y
    refine congrArg _ ?_
    funext a; apply Fin.ext
    match a with
    | ⟨0, _⟩ => show win7_4.index t (0 : Fin 2) * 1 + 1 * (y 0).val = (y 0).val; omega
    | ⟨1, _⟩ => show win7_4.index t (1 : Fin 2) * 64 + 1 * (y 1).val = (y 1).val; omega
  funext j
  obtain ⟨p, q, rfl⟩ : ∃ (p : Fin 5000) (q : Fin 64), j = ix2 p q := ⟨j 0, j 1, eq_ix2 j⟩
  refine (pay7_apply (iblk7 V c 0 t) (iblk7 V c 1 t) (iblk7 V c 2 t) (iblk7 V c 3 t) (iblk7 V c 4 t) p q).trans ?_
  rw [hw1, hw2, hw3, hw4]
  have hp : p.val < 5000 := p.isLt
  have hrow : win7_5.index t (0 : Fin 2) * 5000 + p.val < 50000 := by omega
  have hemb : ((cfg7.win 5).blk t).view.emb (ix2 p q) = ix2 (⟨win7_5.index t (0 : Fin 2) * 5000 + p.val, hrow⟩ : Fin 50000) q := by
    funext a; apply Fin.ext
    match a with
    | ⟨0, _⟩ => show win7_5.index t (0 : Fin 2) * 5000 + 1 * p.val = win7_5.index t (0 : Fin 2) * 5000 + p.val; omega
    | ⟨1, _⟩ => show win7_5.index t (1 : Fin 2) * 64 + 1 * q.val = q.val; omega
  show ra (iblk7 V c 0 t) _ _ _ _ (ix2 p q) = G7 V c (((cfg7.win 5).blk t).view.emb (ix2 p q))
  rw [hemb]
  refine ra_row _ _ _ _ _ _ p _ (fun k => ?_) q
  show V c main_v375 (((cfg7.win 0).blk t).view.emb (ix2 p k)) = V c main_v375 (ix2 (⟨win7_5.index t (0 : Fin 2) * 5000 + p.val, hrow⟩ : Fin 50000) k)
  refine congrArg _ ?_
  funext a; apply Fin.ext
  match a with
  | ⟨0, _⟩ => show win7_0.index t (0 : Fin 2) * 5000 + 1 * p.val = win7_5.index t (0 : Fin 2) * 5000 + p.val; omega
  | ⟨1, _⟩ => show win7_0.index t (1 : Fin 2) * 128 + 1 * k.val = k.val; omega

/-- An index of the output array is in point t's block iff its row is in the block's range. -/
theorem mem_blk7 (t : Fin cfg7.N) (i : S50000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v378).slice (win7_5.rect t)).set ↔ _
  rw [View.set_slice_whole, Rect.mem_set_unit]
  exact Iff.rfl

/-- The blocks cover the output array. -/
theorem cover7 (i : S50000x64.Idx) :
    ∃ t : Fin cfg7.N, (cfg7.win 5).flush t = true ∧ i ∈ ((cfg7.win 5).blk t).view.set := by
  have hi0 : (i 0).val < 50000 := (i 0).isLt
  have hi1 : (i 1).val < 64 := (i 1).isLt
  obtain ⟨t, ht⟩ := idx_onto7 ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem_blk7]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 64 ≤ (i 1).val ∧ (i 1).val < win7_5.index t (1 : Fin 2) * 64 + 64; omega

/-- The output array after the region: the stage of the whole arrays. -/
theorem final7 (c : Dev nD) : (dat7 (F := Ideal) V c).arrAt 5 cfg7.N = G7 V c :=
  (dat7 (F := Ideal) V c).arrAt_eq_of_cover 5 (G7 V c) (fun t _ => flushed7_eq V c t) (cover7)

end Cert.KernelIdeal.Frm

end
-- ==== Proof.IdealStretch8.lean ====
/-
  Host stretch 8 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v413`, as a function of its 3 operands. -/
def cat_main_v413 (a : (main_v405 : Ref sig .tc).ty.Contents (Elt F)) (b : (main_v52 : Ref sig .tc).ty.Contents (Elt F)) (c : (main_v412 : Ref sig .tc).ty.Contents (Elt F)) : (main_v413 : Ref sig .tc).ty.Contents (Elt F) :=
  concatenate S600000x129 1 [⟨S600000x64, a⟩, ⟨S600000x1, b⟩, ⟨S600000x64, c⟩] concatenates_S600000x64_S600000x1_S600000x64_S600000x129_d1

/-- The stretch's operations with each concatenation's function named (evaluation then goes on into a concatenation's
    operands instead of stopping at the list of pairs that holds them). -/
abbrev hostOps8n : List (HloOp τ sig (Elt F)) :=
  ( StableHlo.unary main_arg17 main_v379 ((extractStridedSlice S1x129x64 ![3, 0, 0] · slices_S4x129x64_S1x129x64_3_0_0) : (⟨S4x129x64, .f32⟩ : BufTy).Contents (Elt F) → (⟨S1x129x64, .f32⟩ : BufTy).Contents (Elt F))
  :: StableHlo.reshape main_v379 main_v380 rfl shapeCasts_S1x129x64_S129x64
  :: StableHlo.unary main_arg18 main_v381 ((extractStridedSlice S1x64 ![3, 0] · slices_S4x64_S1x64_3_0) : (⟨S4x64, .f32⟩ : BufTy).Contents (Elt F) → (⟨S1x64, .f32⟩ : BufTy).Contents (Elt F))
  :: StableHlo.reshape main_v381 main_v382 rfl shapeCasts_S1x64_S64
  :: StableHlo.unary main_arg19 main_v383 ((extractStridedSlice S1x64x64 ![3, 0, 0] · slices_S4x64x64_S1x64x64_3_0_0) : (⟨S4x64x64, .f32⟩ : BufTy).Contents (Elt F) → (⟨S1x64x64, .f32⟩ : BufTy).Contents (Elt F))
  :: StableHlo.reshape main_v383 main_v384 rfl shapeCasts_S1x64x64_S64x64
  :: StableHlo.unary main_arg20 main_v385 ((extractStridedSlice S1x64 ![3, 0] · slices_S4x64_S1x64_3_0) : (⟨S4x64, .f32⟩ : BufTy).Contents (Elt F) → (⟨S1x64, .f32⟩ : BufTy).Contents (Elt F))
  :: StableHlo.reshape main_v385 main_v386 rfl shapeCasts_S1x64_S64
  :: StableHlo.unary main_arg21 main_v387 ((extractStridedSlice S1x64 ![3, 0] · slices_S4x64_S1x64_3_0) : (⟨S4x64, .f32⟩ : BufTy).Contents (Elt F) → (⟨S1x64, .f32⟩ : BufTy).Contents (Elt F))
  :: StableHlo.reshape main_v387 main_v388 rfl shapeCasts_S1x64_S64
  :: StableHlo.unary main_arg22 main_v389 ((extractStridedSlice S1x64 ![3, 0] · slices_S4x64_S1x64_3_0) : (⟨S4x64, .f32⟩ : BufTy).Contents (Elt F) → (⟨S1x64, .f32⟩ : BufTy).Contents (Elt F))
  :: StableHlo.reshape main_v389 main_v390 rfl shapeCasts_S1x64_S64
  :: StableHlo.unary main_arg23 main_v391 ((extractStridedSlice S1x128x64 ![3, 0, 0] · slices_S4x128x64_S1x128x64_3_0_0) : (⟨S4x128x64, .f32⟩ : BufTy).Contents (Elt F) → (⟨S1x128x64, .f32⟩ : BufTy).Contents (Elt F))
  :: StableHlo.reshape main_v391 main_v392 rfl shapeCasts_S1x128x64_S128x64
  :: StableHlo.unary main_arg24 main_v393 ((extractStridedSlice S1x64 ![3, 0] · slices_S4x64_S1x64_3_0) : (⟨S4x64, .f32⟩ : BufTy).Contents (Elt F) → (⟨S1x64, .f32⟩ : BufTy).Contents (Elt F))
  :: StableHlo.reshape main_v393 main_v394 rfl shapeCasts_S1x64_S64
  :: StableHlo.unary main_arg25 main_v395 ((extractStridedSlice S1x64x64 ![3, 0, 0] · slices_S4x64x64_S1x64x64_3_0_0) : (⟨S4x64x64, .f32⟩ : BufTy).Contents (Elt F) → (⟨S1x64x64, .f32⟩ : BufTy).Contents (Elt F))
  :: StableHlo.reshape main_v395 main_v396 rfl shapeCasts_S1x64x64_S64x64
  :: StableHlo.unary main_arg26 main_v397 ((extractStridedSlice S1x64 ![3, 0] · slices_S4x64_S1x64_3_0) : (⟨S4x64, .f32⟩ : BufTy).Contents (Elt F) → (⟨S1x64, .f32⟩ : BufTy).Contents (Elt F))
  :: StableHlo.reshape main_v397 main_v398 rfl shapeCasts_S1x64_S64
  :: StableHlo.nullary main_c_62 (constantI S_ 32 0#32)
  :: StableHlo.unary main_c_62 main_v399 (broadcastInDim S600000 ![] bcast_S_S600000 : (⟨S_, .i32⟩ : BufTy).Contents (Elt F) → (⟨S600000, .i32⟩ : BufTy).Contents (Elt F))
  :: StableHlo.binary main_v84 main_v399 main_v400 (cmpi .slt : (⟨S600000, .i32⟩ : BufTy).Contents (Elt F) → (⟨S600000, .i32⟩ : BufTy).Contents (Elt F) → (⟨S600000, .i1⟩ : BufTy).Contents (Elt F))
  :: StableHlo.nullary main_c_63 (constantI S_ 32 50000#32)
  :: StableHlo.unary main_c_63 main_v401 (broadcastInDim S600000 ![] bcast_S_S600000 : (⟨S_, .i32⟩ : BufTy).Contents (Elt F) → (⟨S600000, .i32⟩ : BufTy).Contents (Elt F))
  :: StableHlo.binary main_v84 main_v401 main_v402 (addi : (⟨S600000, .i32⟩ : BufTy).Contents (Elt F) → (⟨S600000, .i32⟩ : BufTy).Contents (Elt F) → (⟨S600000, .i32⟩ : BufTy).Contents (Elt F))
  :: StableHlo.ternary main_v400 main_v402 main_v84 main_v403 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v403 main_v404 (broadcastInDim S600000x1 ![0] bcast_S600000_S600000x1_0 : (⟨S600000, .i32⟩ : BufTy).Contents (Elt F) → (⟨S600000x1, .i32⟩ : BufTy).Contents (Elt F))
  :: StableHlo.binary main_v300 main_v404 main_v405 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F))
  :: StableHlo.nullary main_c_64 (constantI S_ 32 0#32)
  :: StableHlo.unary main_c_64 main_v406 (broadcastInDim S600000 ![] bcast_S_S600000 : (⟨S_, .i32⟩ : BufTy).Contents (Elt F) → (⟨S600000, .i32⟩ : BufTy).Contents (Elt F))
  :: StableHlo.binary main_v82 main_v406 main_v407 (cmpi .slt : (⟨S600000, .i32⟩ : BufTy).Contents (Elt F) → (⟨S600000, .i32⟩ : BufTy).Contents (Elt F) → (⟨S600000, .i1⟩ : BufTy).Contents (Elt F))
  :: StableHlo.nullary main_c_65 (constantI S_ 32 50000#32)
  :: StableHlo.unary main_c_65 main_v408 (broadcastInDim S600000 ![] bcast_S_S600000 : (⟨S_, .i32⟩ : BufTy).Contents (Elt F) → (⟨S600000, .i32⟩ : BufTy).Contents (Elt F))
  :: StableHlo.binary main_v82 main_v408 main_v409 (addi : (⟨S600000, .i32⟩ : BufTy).Contents (Elt F) → (⟨S600000, .i32⟩ : BufTy).Contents (Elt F) → (⟨S600000, .i32⟩ : BufTy).Contents (Elt F))
  :: StableHlo.ternary main_v407 main_v409 main_v82 main_v410 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v410 main_v411 (broadcastInDim S600000x1 ![0] bcast_S600000_S600000x1_0 : (⟨S600000, .i32⟩ : BufTy).Contents (Elt F) → (⟨S600000x1, .i32⟩ : BufTy).Contents (Elt F))
  :: StableHlo.binary main_v378 main_v411 main_v412 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F))
  :: StableHlo.nary ![main_v405, main_v52, main_v412] main_v413 (fun u => cat_main_v413 (u 0) (u 1) (u 2))
  :: StableHlo.reshape main_v382 main_v414 rfl shapeCasts_S64_S1x64
  :: StableHlo.reshape main_v386 main_v415 rfl shapeCasts_S64_S1x64
  :: [] )

theorem hostOps8n_eq : (hostOps8 (F := F)) = hostOps8n := rfl

set_option maxHeartbeats 4000000 in
/-- `main_v413` after the stretch, from the live-in buffers' values. -/
theorem s8_main_v413 (W : Valuation τ sig (Elt Ideal)) (V0' : Valuation Cert.ReferenceIdeal.τ Cert.ReferenceIdeal.sig (Elt Ideal))
    (h_main_v82 : W (Proc.devRef .tc main_v82) = Cert.ReferenceIdeal.Value.res_main_v100 V0')
    (h_main_v378 : W (Proc.devRef .tc main_v378) = Cert.ReferenceIdeal.Value.res_main_v438 V0')
    (h_main_v52 : W (Proc.devRef .tc main_v52) = Cert.ReferenceIdeal.Value.res_main_v61 V0')
    (h_main_v84 : W (Proc.devRef .tc main_v84) = Cert.ReferenceIdeal.Value.res_main_v102 V0')
    (h_main_v300 : W (Proc.devRef .tc main_v300) = Cert.ReferenceIdeal.Value.res_main_v346 V0') :
    StableHlo.after (hostOps8 (F := Ideal)) W (Proc.devRef .tc main_v413) = Cert.ReferenceIdeal.RefValue.t_main_v473 V0' := by
  rw [hostOps8n_eq]
  simp only [hostOps8n]
  after_results_simp
  try dsimp only [Matrix.cons_val]
  try after_results_simp
  simp only [h_main_v82, h_main_v378, h_main_v52, h_main_v84, h_main_v300] <;> rfl

set_option maxHeartbeats 4000000 in
/-- `main_v380` after the stretch, from the live-in buffers' values. -/
theorem s8_main_v380 (W : Valuation τ sig (Elt Ideal)) (V0' : Valuation Cert.ReferenceIdeal.τ Cert.ReferenceIdeal.sig (Elt Ideal))
    (h_main_arg17 : W (Proc.devRef .tc main_arg17) = Cert.ReferenceIdeal.RefValue.a17 V0') :
    StableHlo.after (hostOps8 (F := Ideal)) W (Proc.devRef .tc main_v380) = Cert.ReferenceIdeal.RefValue.t_main_v440 V0' := by
  rw [hostOps8n_eq]
  simp only [hostOps8n]
  after_results_simp
  try dsimp only [Matrix.cons_val]
  try after_results_simp
  simp only [h_main_arg17] <;> rfl

set_option maxHeartbeats 4000000 in
/-- `main_v414` after the stretch, from the live-in buffers' values. -/
theorem s8_main_v414 (W : Valuation τ sig (Elt Ideal)) (V0' : Valuation Cert.ReferenceIdeal.τ Cert.ReferenceIdeal.sig (Elt Ideal))
    (h_main_arg18 : W (Proc.devRef .tc main_arg18) = Cert.ReferenceIdeal.RefValue.a18 V0') :
    StableHlo.after (hostOps8 (F := Ideal)) W (Proc.devRef .tc main_v414) = shapeCast _ (Cert.ReferenceIdeal.RefValue.t_main_v442 V0') shapeCasts_S64_S1x64 := by
  rw [hostOps8n_eq]
  simp only [hostOps8n]
  after_results_simp
  try dsimp only [Matrix.cons_val]
  try after_results_simp
  simp only [h_main_arg18] <;> rfl

set_option maxHeartbeats 4000000 in
/-- `main_v384` after the stretch, from the live-in buffers' values. -/
theorem s8_main_v384 (W : Valuation τ sig (Elt Ideal)) (V0' : Valuation Cert.ReferenceIdeal.τ Cert.ReferenceIdeal.sig (Elt Ideal))
    (h_main_arg19 : W (Proc.devRef .tc main_arg19) = Cert.ReferenceIdeal.RefValue.a19 V0') :
    StableHlo.after (hostOps8 (F := Ideal)) W (Proc.devRef .tc main_v384) = Cert.ReferenceIdeal.RefValue.t_main_v444 V0' := by
  rw [hostOps8n_eq]
  simp only [hostOps8n]
  after_results_simp
  try dsimp only [Matrix.cons_val]
  try after_results_simp
  simp only [h_main_arg19] <;> rfl

set_option maxHeartbeats 4000000 in
/-- `main_v415` after the stretch, from the live-in buffers' values. -/
theorem s8_main_v415 (W : Valuation τ sig (Elt Ideal)) (V0' : Valuation Cert.ReferenceIdeal.τ Cert.ReferenceIdeal.sig (Elt Ideal))
    (h_main_arg20 : W (Proc.devRef .tc main_arg20) = Cert.ReferenceIdeal.RefValue.a20 V0') :
    StableHlo.after (hostOps8 (F := Ideal)) W (Proc.devRef .tc main_v415) = shapeCast _ (Cert.ReferenceIdeal.RefValue.t_main_v446 V0') shapeCasts_S64_S1x64 := by
  rw [hostOps8n_eq]
  simp only [hostOps8n]
  after_results_simp
  try dsimp only [Matrix.cons_val]
  try after_results_simp
  simp only [h_main_arg20] <;> rfl

set_option maxHeartbeats 4000000 in
/-- `main_v388` after the stretch, from the live-in buffers' values. -/
theorem s8_main_v388 (W : Valuation τ sig (Elt Ideal)) (V0' : Valuation Cert.ReferenceIdeal.τ Cert.ReferenceIdeal.sig (Elt Ideal))
    (h_main_arg21 : W (Proc.devRef .tc main_arg21) = Cert.ReferenceIdeal.RefValue.a21 V0') :
    StableHlo.after (hostOps8 (F := Ideal)) W (Proc.devRef .tc main_v388) = Cert.ReferenceIdeal.RefValue.t_main_v448 V0' := by
  rw [hostOps8n_eq]
  simp only [hostOps8n]
  after_results_simp
  try dsimp only [Matrix.cons_val]
  try after_results_simp
  simp only [h_main_arg21] <;> rfl

set_option maxHeartbeats 4000000 in
/-- `main_v390` after the stretch, from the live-in buffers' values. -/
theorem s8_main_v390 (W : Valuation τ sig (Elt Ideal)) (V0' : Valuation Cert.ReferenceIdeal.τ Cert.ReferenceIdeal.sig (Elt Ideal))
    (h_main_arg22 : W (Proc.devRef .tc main_arg22) = Cert.ReferenceIdeal.RefValue.a22 V0') :
    StableHlo.after (hostOps8 (F := Ideal)) W (Proc.devRef .tc main_v390) = Cert.ReferenceIdeal.RefValue.t_main_v450 V0' := by
  rw [hostOps8n_eq]
  simp only [hostOps8n]
  after_results_simp
  try dsimp only [Matrix.cons_val]
  try after_results_simp
  simp only [h_main_arg22] <;> rfl

set_option maxHeartbeats 4000000 in
/-- `main_v394` after the stretch, from the live-in buffers' values. -/
theorem s8_main_v394 (W : Valuation τ sig (Elt Ideal)) (V0' : Valuation Cert.ReferenceIdeal.τ Cert.ReferenceIdeal.sig (Elt Ideal))
    (h_main_arg24 : W (Proc.devRef .tc main_arg24) = Cert.ReferenceIdeal.RefValue.a24 V0') :
    StableHlo.after (hostOps8 (F := Ideal)) W (Proc.devRef .tc main_v394) = Cert.ReferenceIdeal.RefValue.t_main_v454 V0' := by
  rw [hostOps8n_eq]
  simp only [hostOps8n]
  after_results_simp
  try dsimp only [Matrix.cons_val]
  try after_results_simp
  simp only [h_main_arg24] <;> rfl

set_option maxHeartbeats 4000000 in
/-- `main_v398` after the stretch, from the live-in buffers' values. -/
theorem s8_main_v398 (W : Valuation τ sig (Elt Ideal)) (V0' : Valuation Cert.ReferenceIdeal.τ Cert.ReferenceIdeal.sig (Elt Ideal))
    (h_main_arg26 : W (Proc.devRef .tc main_arg26) = Cert.ReferenceIdeal.RefValue.a26 V0') :
    StableHlo.after (hostOps8 (F := Ideal)) W (Proc.devRef .tc main_v398) = Cert.ReferenceIdeal.RefValue.t_main_v458 V0' := by
  rw [hostOps8n_eq]
  simp only [hostOps8n]
  after_results_simp
  try dsimp only [Matrix.cons_val]
  try after_results_simp
  simp only [h_main_arg26] <;> rfl

set_option maxHeartbeats 4000000 in
/-- `main_v392` after the stretch, from the live-in buffers' values. -/
theorem s8_main_v392 (W : Valuation τ sig (Elt Ideal)) (V0' : Valuation Cert.ReferenceIdeal.τ Cert.ReferenceIdeal.sig (Elt Ideal))
    (h_main_arg23 : W (Proc.devRef .tc main_arg23) = Cert.ReferenceIdeal.RefValue.a23 V0') :
    StableHlo.after (hostOps8 (F := Ideal)) W (Proc.devRef .tc main_v392) = Cert.ReferenceIdeal.RefValue.t_main_v452 V0' := by
  rw [hostOps8n_eq]
  simp only [hostOps8n]
  after_results_simp
  try dsimp only [Matrix.cons_val]
  try after_results_simp
  simp only [h_main_arg23] <;> rfl

set_option maxHeartbeats 4000000 in
/-- `main_v396` after the stretch, from the live-in buffers' values. -/
theorem s8_main_v396 (W : Valuation τ sig (Elt Ideal)) (V0' : Valuation Cert.ReferenceIdeal.τ Cert.ReferenceIdeal.sig (Elt Ideal))
    (h_main_arg25 : W (Proc.devRef .tc main_arg25) = Cert.ReferenceIdeal.RefValue.a25 V0') :
    StableHlo.after (hostOps8 (F := Ideal)) W (Proc.devRef .tc main_v396) = Cert.ReferenceIdeal.RefValue.t_main_v456 V0' := by
  rw [hostOps8n_eq]
  simp only [hostOps8n]
  after_results_simp
  try dsimp only [Matrix.cons_val]
  try after_results_simp
  simp only [h_main_arg25] <;> rfl

end Cert.KernelIdeal.Frm

end
-- ==== Proof.IdealChain8.lean ====
/-
  The kernel's buffers at the boundaries 16 and 17 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain7
import proofs.«181157_j5506148073958_2_alg».proof.Proof.IdealFinal7
import proofs.«181157_j5506148073958_2_alg».proof.Proof.IdealStretch8

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 16 -/

theorem L16_main_arg17 (hag : Agree m ρ c V0') : W16 m ρ c (Proc.devRef .tc main_arg17) = Cert.ReferenceIdeal.RefValue.a17 V0' := (W16_of_ne m ρ c main_arg17 (by decide)).trans (L15_main_arg17 m ρ c V0' hag)

theorem L16_main_arg18 (hag : Agree m ρ c V0') : W16 m ρ c (Proc.devRef .tc main_arg18) = Cert.ReferenceIdeal.RefValue.a18 V0' := (W16_of_ne m ρ c main_arg18 (by decide)).trans (L15_main_arg18 m ρ c V0' hag)

theorem L16_main_arg19 (hag : Agree m ρ c V0') : W16 m ρ c (Proc.devRef .tc main_arg19) = Cert.ReferenceIdeal.RefValue.a19 V0' := (W16_of_ne m ρ c main_arg19 (by decide)).trans (L15_main_arg19 m ρ c V0' hag)

theorem L16_main_arg20 (hag : Agree m ρ c V0') : W16 m ρ c (Proc.devRef .tc main_arg20) = Cert.ReferenceIdeal.RefValue.a20 V0' := (W16_of_ne m ρ c main_arg20 (by decide)).trans (L15_main_arg20 m ρ c V0' hag)

theorem L16_main_arg21 (hag : Agree m ρ c V0') : W16 m ρ c (Proc.devRef .tc main_arg21) = Cert.ReferenceIdeal.RefValue.a21 V0' := (W16_of_ne m ρ c main_arg21 (by decide)).trans (L15_main_arg21 m ρ c V0' hag)

theorem L16_main_arg22 (hag : Agree m ρ c V0') : W16 m ρ c (Proc.devRef .tc main_arg22) = Cert.ReferenceIdeal.RefValue.a22 V0' := (W16_of_ne m ρ c main_arg22 (by decide)).trans (L15_main_arg22 m ρ c V0' hag)

theorem L16_main_arg23 (hag : Agree m ρ c V0') : W16 m ρ c (Proc.devRef .tc main_arg23) = Cert.ReferenceIdeal.RefValue.a23 V0' := (W16_of_ne m ρ c main_arg23 (by decide)).trans (L15_main_arg23 m ρ c V0' hag)

theorem L16_main_arg24 (hag : Agree m ρ c V0') : W16 m ρ c (Proc.devRef .tc main_arg24) = Cert.ReferenceIdeal.RefValue.a24 V0' := (W16_of_ne m ρ c main_arg24 (by decide)).trans (L15_main_arg24 m ρ c V0' hag)

theorem L16_main_arg25 (hag : Agree m ρ c V0') : W16 m ρ c (Proc.devRef .tc main_arg25) = Cert.ReferenceIdeal.RefValue.a25 V0' := (W16_of_ne m ρ c main_arg25 (by decide)).trans (L15_main_arg25 m ρ c V0' hag)

theorem L16_main_arg26 (hag : Agree m ρ c V0') : W16 m ρ c (Proc.devRef .tc main_arg26) = Cert.ReferenceIdeal.RefValue.a26 V0' := (W16_of_ne m ρ c main_arg26 (by decide)).trans (L15_main_arg26 m ρ c V0' hag)

theorem L16_main_v80 (hag : Agree m ρ c V0') : W16 m ρ c (Proc.devRef .tc main_v80) = Cert.ReferenceIdeal.Value.res_main_v98 V0' := (W16_of_ne m ρ c main_v80 (by decide)).trans (L15_main_v80 m ρ c V0' hag)

theorem L16_main_v52 (hag : Agree m ρ c V0') : W16 m ρ c (Proc.devRef .tc main_v52) = Cert.ReferenceIdeal.Value.res_main_v61 V0' := (W16_of_ne m ρ c main_v52 (by decide)).trans (L15_main_v52 m ρ c V0' hag)

theorem L16_main_v82 (hag : Agree m ρ c V0') : W16 m ρ c (Proc.devRef .tc main_v82) = Cert.ReferenceIdeal.Value.res_main_v100 V0' := (W16_of_ne m ρ c main_v82 (by decide)).trans (L15_main_v82 m ρ c V0' hag)

theorem L16_main_v84 (hag : Agree m ρ c V0') : W16 m ρ c (Proc.devRef .tc main_v84) = Cert.ReferenceIdeal.Value.res_main_v102 V0' := (W16_of_ne m ρ c main_v84 (by decide)).trans (L15_main_v84 m ρ c V0' hag)

theorem L16_main_arg27 (hag : Agree m ρ c V0') : W16 m ρ c (Proc.devRef .tc main_arg27) = Cert.ReferenceIdeal.RefValue.a27 V0' := (W16_of_ne m ρ c main_arg27 (by decide)).trans (L15_main_arg27 m ρ c V0' hag)

theorem L16_main_arg28 (hag : Agree m ρ c V0') : W16 m ρ c (Proc.devRef .tc main_arg28) = Cert.ReferenceIdeal.RefValue.a28 V0' := (W16_of_ne m ρ c main_arg28 (by decide)).trans (L15_main_arg28 m ρ c V0' hag)

theorem L16_main_arg29 (hag : Agree m ρ c V0') : W16 m ρ c (Proc.devRef .tc main_arg29) = Cert.ReferenceIdeal.RefValue.a29 V0' := (W16_of_ne m ρ c main_arg29 (by decide)).trans (L15_main_arg29 m ρ c V0' hag)

theorem L16_main_v300 (hag : Agree m ρ c V0') : W16 m ρ c (Proc.devRef .tc main_v300) = Cert.ReferenceIdeal.Value.res_main_v346 V0' := (W16_of_ne m ρ c main_v300 (by decide)).trans (L15_main_v300 m ρ c V0' hag)

theorem L16_main_v378 (hag : Agree m ρ c V0') : W16 m ρ c (Proc.devRef .tc main_v378) = Cert.ReferenceIdeal.Value.res_main_v438 V0' := by
  refine (W16_arr m ρ c 5).trans ?_
  refine (final7 (V15 m ρ) c).trans ?_
  unfold G7
  have h0 : V15 m ρ c main_v375 = Cert.ReferenceIdeal.RefValue.t_main_v428 V0' := (L15_main_v375 m ρ c V0' hag)
  have hW0 : V15 m ρ c main_v314 = Cert.ReferenceIdeal.RefValue.t_main_v360 V0' := (L15_main_v314 m ρ c V0' hag)
  have hb0 : Cert.LibRowBias.rowOf (V15 m ρ c main_v376) = Cert.ReferenceIdeal.RefValue.t_main_v362 V0' := by
    rw [show V15 m ρ c main_v376 = shapeCast _ (Cert.ReferenceIdeal.RefValue.t_main_v362 V0') shapeCasts_S64_S1x64 from (L15_main_v376 m ρ c V0' hag)]
    exact Cert.LibRowBias.rowOf_shapeCast _ _
  have hW1 : V15 m ρ c main_v318 = Cert.ReferenceIdeal.RefValue.t_main_v364 V0' := (L15_main_v318 m ρ c V0' hag)
  have hb1 : Cert.LibRowBias.rowOf (V15 m ρ c main_v377) = Cert.ReferenceIdeal.RefValue.t_main_v366 V0' := by
    rw [show V15 m ρ c main_v377 = shapeCast _ (Cert.ReferenceIdeal.RefValue.t_main_v366 V0') shapeCasts_S64_S1x64 from (L15_main_v377 m ρ c V0' hag)]
    exact Cert.LibRowBias.rowOf_shapeCast _ _
  rw [h0, hW0, hb0, hW1, hb1]
  exact (Cert.ReferenceIdeal.RefValue.stage7_ref V0').symm

theorem L16_main_arg31 (hag : Agree m ρ c V0') : W16 m ρ c (Proc.devRef .tc main_arg31) = Cert.ReferenceIdeal.RefValue.a31 V0' := (W16_of_ne m ρ c main_arg31 (by decide)).trans (L15_main_arg31 m ρ c V0' hag)

theorem L16_main_arg33 (hag : Agree m ρ c V0') : W16 m ρ c (Proc.devRef .tc main_arg33) = Cert.ReferenceIdeal.RefValue.a33 V0' := (W16_of_ne m ρ c main_arg33 (by decide)).trans (L15_main_arg33 m ρ c V0' hag)

theorem L16_main_arg35 (hag : Agree m ρ c V0') : W16 m ρ c (Proc.devRef .tc main_arg35) = Cert.ReferenceIdeal.RefValue.a35 V0' := (W16_of_ne m ρ c main_arg35 (by decide)).trans (L15_main_arg35 m ρ c V0' hag)

theorem L16_main_arg30 (hag : Agree m ρ c V0') : W16 m ρ c (Proc.devRef .tc main_arg30) = Cert.ReferenceIdeal.RefValue.a30 V0' := (W16_of_ne m ρ c main_arg30 (by decide)).trans (L15_main_arg30 m ρ c V0' hag)

theorem L16_main_arg32 (hag : Agree m ρ c V0') : W16 m ρ c (Proc.devRef .tc main_arg32) = Cert.ReferenceIdeal.RefValue.a32 V0' := (W16_of_ne m ρ c main_arg32 (by decide)).trans (L15_main_arg32 m ρ c V0' hag)

theorem L16_main_arg34 (hag : Agree m ρ c V0') : W16 m ρ c (Proc.devRef .tc main_arg34) = Cert.ReferenceIdeal.RefValue.a34 V0' := (W16_of_ne m ρ c main_arg34 (by decide)).trans (L15_main_arg34 m ρ c V0' hag)

/-! ## Boundary 17 -/

theorem L17_main_v80 (hag : Agree m ρ c V0') : W17 m ρ c (Proc.devRef .tc main_v80) = Cert.ReferenceIdeal.Value.res_main_v98 V0' := (W17_of m ρ c main_v80 (by decide)).trans (L16_main_v80 m ρ c V0' hag)

theorem L17_main_v84 (hag : Agree m ρ c V0') : W17 m ρ c (Proc.devRef .tc main_v84) = Cert.ReferenceIdeal.Value.res_main_v102 V0' := (W17_of m ρ c main_v84 (by decide)).trans (L16_main_v84 m ρ c V0' hag)

theorem L17_main_arg27 (hag : Agree m ρ c V0') : W17 m ρ c (Proc.devRef .tc main_arg27) = Cert.ReferenceIdeal.RefValue.a27 V0' := (W17_of m ρ c main_arg27 (by decide)).trans (L16_main_arg27 m ρ c V0' hag)

theorem L17_main_arg28 (hag : Agree m ρ c V0') : W17 m ρ c (Proc.devRef .tc main_arg28) = Cert.ReferenceIdeal.RefValue.a28 V0' := (W17_of m ρ c main_arg28 (by decide)).trans (L16_main_arg28 m ρ c V0' hag)

theorem L17_main_arg29 (hag : Agree m ρ c V0') : W17 m ρ c (Proc.devRef .tc main_arg29) = Cert.ReferenceIdeal.RefValue.a29 V0' := (W17_of m ρ c main_arg29 (by decide)).trans (L16_main_arg29 m ρ c V0' hag)

theorem L17_main_v300 (hag : Agree m ρ c V0') : W17 m ρ c (Proc.devRef .tc main_v300) = Cert.ReferenceIdeal.Value.res_main_v346 V0' := (W17_of m ρ c main_v300 (by decide)).trans (L16_main_v300 m ρ c V0' hag)

theorem L17_main_v378 (hag : Agree m ρ c V0') : W17 m ρ c (Proc.devRef .tc main_v378) = Cert.ReferenceIdeal.Value.res_main_v438 V0' := (W17_of m ρ c main_v378 (by decide)).trans (L16_main_v378 m ρ c V0' hag)

theorem L17_main_v413 (hag : Agree m ρ c V0') : W17 m ρ c (Proc.devRef .tc main_v413) = Cert.ReferenceIdeal.RefValue.t_main_v473 V0' := s8_main_v413 (W16 m ρ c) V0' (L16_main_v82 m ρ c V0' hag) (L16_main_v378 m ρ c V0' hag) (L16_main_v52 m ρ c V0' hag) (L16_main_v84 m ρ c V0' hag) (L16_main_v300 m ρ c V0' hag)

theorem L17_main_v380 (hag : Agree m ρ c V0') : W17 m ρ c (Proc.devRef .tc main_v380) = Cert.ReferenceIdeal.RefValue.t_main_v440 V0' := s8_main_v380 (W16 m ρ c) V0' (L16_main_arg17 m ρ c V0' hag)

theorem L17_main_v414 (hag : Agree m ρ c V0') : W17 m ρ c (Proc.devRef .tc main_v414) = shapeCast _ (Cert.ReferenceIdeal.RefValue.t_main_v442 V0') shapeCasts_S64_S1x64 := s8_main_v414 (W16 m ρ c) V0' (L16_main_arg18 m ρ c V0' hag)

theorem L17_main_v384 (hag : Agree m ρ c V0') : W17 m ρ c (Proc.devRef .tc main_v384) = Cert.ReferenceIdeal.RefValue.t_main_v444 V0' := s8_main_v384 (W16 m ρ c) V0' (L16_main_arg19 m ρ c V0' hag)

theorem L17_main_v415 (hag : Agree m ρ c V0') : W17 m ρ c (Proc.devRef .tc main_v415) = shapeCast _ (Cert.ReferenceIdeal.RefValue.t_main_v446 V0') shapeCasts_S64_S1x64 := s8_main_v415 (W16 m ρ c) V0' (L16_main_arg20 m ρ c V0' hag)

theorem L17_main_v388 (hag : Agree m ρ c V0') : W17 m ρ c (Proc.devRef .tc main_v388) = Cert.ReferenceIdeal.RefValue.t_main_v448 V0' := s8_main_v388 (W16 m ρ c) V0' (L16_main_arg21 m ρ c V0' hag)

theorem L17_main_v390 (hag : Agree m ρ c V0') : W17 m ρ c (Proc.devRef .tc main_v390) = Cert.ReferenceIdeal.RefValue.t_main_v450 V0' := s8_main_v390 (W16 m ρ c) V0' (L16_main_arg22 m ρ c V0' hag)

theorem L17_main_v394 (hag : Agree m ρ c V0') : W17 m ρ c (Proc.devRef .tc main_v394) = Cert.ReferenceIdeal.RefValue.t_main_v454 V0' := s8_main_v394 (W16 m ρ c) V0' (L16_main_arg24 m ρ c V0' hag)

theorem L17_main_v398 (hag : Agree m ρ c V0') : W17 m ρ c (Proc.devRef .tc main_v398) = Cert.ReferenceIdeal.RefValue.t_main_v458 V0' := s8_main_v398 (W16 m ρ c) V0' (L16_main_arg26 m ρ c V0' hag)

theorem L17_main_v392 (hag : Agree m ρ c V0') : W17 m ρ c (Proc.devRef .tc main_v392) = Cert.ReferenceIdeal.RefValue.t_main_v452 V0' := s8_main_v392 (W16 m ρ c) V0' (L16_main_arg23 m ρ c V0' hag)

theorem L17_main_v396 (hag : Agree m ρ c V0') : W17 m ρ c (Proc.devRef .tc main_v396) = Cert.ReferenceIdeal.RefValue.t_main_v456 V0' := s8_main_v396 (W16 m ρ c) V0' (L16_main_arg25 m ρ c V0' hag)

theorem L17_main_arg31 (hag : Agree m ρ c V0') : W17 m ρ c (Proc.devRef .tc main_arg31) = Cert.ReferenceIdeal.RefValue.a31 V0' := (W17_of m ρ c main_arg31 (by decide)).trans (L16_main_arg31 m ρ c V0' hag)

theorem L17_main_arg33 (hag : Agree m ρ c V0') : W17 m ρ c (Proc.devRef .tc main_arg33) = Cert.ReferenceIdeal.RefValue.a33 V0' := (W17_of m ρ c main_arg33 (by decide)).trans (L16_main_arg33 m ρ c V0' hag)

theorem L17_main_arg35 (hag : Agree m ρ c V0') : W17 m ρ c (Proc.devRef .tc main_arg35) = Cert.ReferenceIdeal.RefValue.a35 V0' := (W17_of m ρ c main_arg35 (by decide)).trans (L16_main_arg35 m ρ c V0' hag)

theorem L17_main_arg30 (hag : Agree m ρ c V0') : W17 m ρ c (Proc.devRef .tc main_arg30) = Cert.ReferenceIdeal.RefValue.a30 V0' := (W17_of m ρ c main_arg30 (by decide)).trans (L16_main_arg30 m ρ c V0' hag)

theorem L17_main_arg32 (hag : Agree m ρ c V0') : W17 m ρ c (Proc.devRef .tc main_arg32) = Cert.ReferenceIdeal.RefValue.a32 V0' := (W17_of m ρ c main_arg32 (by decide)).trans (L16_main_arg32 m ρ c V0' hag)

theorem L17_main_arg34 (hag : Agree m ρ c V0') : W17 m ρ c (Proc.devRef .tc main_arg34) = Cert.ReferenceIdeal.RefValue.a34 V0' := (W17_of m ρ c main_arg34 (by decide)).trans (L16_main_arg34 m ρ c V0' hag)

end Cert.KernelIdeal.Frm

end
-- ==== Proof.IdealFinal8.lean ====
/-
  What region 8 leaves in its output array, at the extended reals: the rectified layer followed by a layer of the
  WHOLE input array. Point t loads rows 10000·t … 10000·t + 9999 of the input and the whole weight matrices and one-row biases,
  and writes back the stage of that block of rows; row p of a stage depends only on row p of its input, so what point t
  writes back is rows 10000·t … of the stage of the whole array; the 60 blocks tile the 600000 rows.
-/
import proofs.«181157_j5506148073958_2_alg».proof.Proof.IdealRegion8
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz8 : (![0, 0] : Fin 2 → Nat) = fun _ => 0 := funext fun a => by fin_cases a <;> rfl

/-- The stage of the whole arrays as the region finds them. -/
def G8 (c : Dev nD) : S600000x64.Idx → EReal :=
  ra (V c main_v413) (V c main_v380) (rowOf (V c main_v414)) (V c main_v384) (rowOf (V c main_v415))

/-- The printed index maps, decided over the grid: the input rows' window moves with the output's, every other window
    stays at block 0, and the output's block index stays in range. -/
theorem idx_facts8 : ∀ t : Fin cfg8.N, win8_0.index t (0 : Fin 2) = win8_5.index t (0 : Fin 2)
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (1 : Fin 2) = 0
    ∧ win8_5.index t (0 : Fin 2) ≤ 59 :=
  (by decide +kernel : ∀ t : Fin grid8.N, _)

/-- Every block of rows is some point's. -/
theorem idx_onto8 : ∀ q0 : Fin 60, ∃ t : Fin cfg8.N, win8_5.index t = ![q0.val, 0] :=
  (by decide +kernel : ∀ q0 : Fin 60, ∃ t : Fin grid8.N, win8_5.index t = ![q0.val, 0])

/-- What point t writes back is block t of the stage of the whole arrays. -/
theorem flushed8_eq (c : Dev nD) (t : Fin cfg8.N) :
    (dat8 (F := Ideal) V c).flushed 5 t = ((cfg8.win 5).blk t).view.read (Elt Ideal) (G8 V c) := by
  show (cfg8.win 5).cut (grid8.coords t) ((dat8 (F := Ideal) V c).after 5 t) = _
  rw [after8_5]
  unfold out8_5
  rw [View.canon_unit_zero hz8]
  simp only [View.ld_unit_zero (S := S10000x129) hz8, View.ld_unit_zero (S := S129x64) hz8, View.ld_unit_zero (S := S1x64) hz8, View.ld_unit_zero (S := S64x64) hz8]
  obtain ⟨e0, e1, e2, e3, e4, e5, e6, e7, e8, e9, e10, e11⟩ := idx_facts8 t
  have hw1 : iblk8 V c 1 t = V c main_v380 := by
    funext y
    show V c main_v380 (((cfg8.win 1).blk t).view.emb y) = V c main_v380 y
    refine congrArg _ ?_
    funext a; apply Fin.ext
    match a with
    | ⟨0, _⟩ => show win8_1.index t (0 : Fin 2) * 129 + 1 * (y 0).val = (y 0).val; omega
    | ⟨1, _⟩ => show win8_1.index t (1 : Fin 2) * 64 + 1 * (y 1).val = (y 1).val; omega
  have hw2 : iblk8 V c 2 t = V c main_v414 := by
    funext y
    show V c main_v414 (((cfg8.win 2).blk t).view.emb y) = V c main_v414 y
    refine congrArg _ ?_
    funext a; apply Fin.ext
    match a with
    | ⟨0, _⟩ => show win8_2.index t (0 : Fin 2) * 1 + 1 * (y 0).val = (y 0).val; omega
    | ⟨1, _⟩ => show win8_2.index t (1 : Fin 2) * 64 + 1 * (y 1).val = (y 1).val; omega
  have hw3 : iblk8 V c 3 t = V c main_v384 := by
    funext y
    show V c main_v384 (((cfg8.win 3).blk t).view.emb y) = V c main_v384 y
    refine congrArg _ ?_
    funext a; apply Fin.ext
    match a with
    | ⟨0, _⟩ => show win8_3.index t (0 : Fin 2) * 64 + 1 * (y 0).val = (y 0).val; omega
    | ⟨1, _⟩ => show win8_3.index t (1 : Fin 2) * 64 + 1 * (y 1).val = (y 1).val; omega
  have hw4 : iblk8 V c 4 t = V c main_v415 := by
    funext y
    show V c main_v415 (((cfg8.win 4).blk t).view.emb y) = V c main_v415 y
    refine congrArg _ ?_
    funext a; apply Fin.ext
    match a with
    | ⟨0, _⟩ => show win8_4.index t (0 : Fin 2) * 1 + 1 * (y 0).val = (y 0).val; omega
    | ⟨1, _⟩ => show win8_4.index t (1 : Fin 2) * 64 + 1 * (y 1).val = (y 1).val; omega
  funext j
  obtain ⟨p, q, rfl⟩ : ∃ (p : Fin 10000) (q : Fin 64), j = ix2 p q := ⟨j 0, j 1, eq_ix2 j⟩
  refine (pay8_apply (iblk8 V c 0 t) (iblk8 V c 1 t) (iblk8 V c 2 t) (iblk8 V c 3 t) (iblk8 V c 4 t) p q).trans ?_
  rw [hw1, hw2, hw3, hw4]
  have hp : p.val < 10000 := p.isLt
  have hrow : win8_5.index t (0 : Fin 2) * 10000 + p.val < 600000 := by omega
  have hemb : ((cfg8.win 5).blk t).view.emb (ix2 p q) = ix2 (⟨win8_5.index t (0 : Fin 2) * 10000 + p.val, hrow⟩ : Fin 600000) q := by
    funext a; apply Fin.ext
    match a with
    | ⟨0, _⟩ => show win8_5.index t (0 : Fin 2) * 10000 + 1 * p.val = win8_5.index t (0 : Fin 2) * 10000 + p.val; omega
    | ⟨1, _⟩ => show win8_5.index t (1 : Fin 2) * 64 + 1 * q.val = q.val; omega
  show ra (iblk8 V c 0 t) _ _ _ _ (ix2 p q) = G8 V c (((cfg8.win 5).blk t).view.emb (ix2 p q))
  rw [hemb]
  refine ra_row _ _ _ _ _ _ p _ (fun k => ?_) q
  show V c main_v413 (((cfg8.win 0).blk t).view.emb (ix2 p k)) = V c main_v413 (ix2 (⟨win8_5.index t (0 : Fin 2) * 10000 + p.val, hrow⟩ : Fin 600000) k)
  refine congrArg _ ?_
  funext a; apply Fin.ext
  match a with
  | ⟨0, _⟩ => show win8_0.index t (0 : Fin 2) * 10000 + 1 * p.val = win8_5.index t (0 : Fin 2) * 10000 + p.val; omega
  | ⟨1, _⟩ => show win8_0.index t (1 : Fin 2) * 129 + 1 * k.val = k.val; omega

/-- An index of the output array is in point t's block iff its row is in the block's range. -/
theorem mem_blk8 (t : Fin cfg8.N) (i : S600000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v416).slice (win8_5.rect t)).set ↔ _
  rw [View.set_slice_whole, Rect.mem_set_unit]
  exact Iff.rfl

/-- The blocks cover the output array. -/
theorem cover8 (i : S600000x64.Idx) :
    ∃ t : Fin cfg8.N, (cfg8.win 5).flush t = true ∧ i ∈ ((cfg8.win 5).blk t).view.set := by
  have hi0 : (i 0).val < 600000 := (i 0).isLt
  have hi1 : (i 1).val < 64 := (i 1).isLt
  obtain ⟨t, ht⟩ := idx_onto8 ⟨(i 0).val / 10000, by omega⟩
  have q0 : win8_5.index t (0 : Fin 2) = (i 0).val / 10000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 64 ≤ (i 1).val ∧ (i 1).val < win8_5.index t (1 : Fin 2) * 64 + 64; omega

/-- The output array after the region: the stage of the whole arrays. -/
theorem final8 (c : Dev nD) : (dat8 (F := Ideal) V c).arrAt 5 cfg8.N = G8 V c :=
  (dat8 (F := Ideal) V c).arrAt_eq_of_cover 5 (G8 V c) (fun t _ => flushed8_eq V c t) (cover8)

end Cert.KernelIdeal.Frm

end
-- ==== Proof.IdealStretch9.lean ====
/-
  Host stretch 9 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v453`, as a function of its two operands. -/
def cat_main_v453 : (⟨S50000x64, .f32⟩ : BufTy).Contents (Elt F) → (⟨S50000x64, .f32⟩ : BufTy).Contents (Elt F) → (⟨S50000x128, .f32⟩ : BufTy).Contents (Elt F) :=
  fun a b => concatenate S50000x128 1 [⟨S50000x64, a⟩, ⟨S50000x64, b⟩] concatenates_S50000x64_S50000x64_S50000x128_d1

/-- The stretch's operations with each concatenation's function named (evaluation then goes on into a concatenation's
    operands instead of stopping at the list of pairs that holds them). -/
abbrev hostOps9n : List (HloOp τ sig (Elt F)) :=
  ( StableHlo.nullary main_cst_66 (constant S_ .f32 0x00000000#32)
  :: StableHlo.unary main_cst_66 main_v417 (broadcastInDim S50000x64 ![] bcast_S_S50000x64 : (⟨S_, .f32⟩ : BufTy).Contents (Elt F) → (⟨S50000x64, .f32⟩ : BufTy).Contents (Elt F))
  :: StableHlo.unary main_v84 main_v418 (broadcastInDim S600000x1 ![0] bcast_S600000_S600000x1_0 : (⟨S600000, .i32⟩ : BufTy).Contents (Elt F) → (⟨S600000x1, .i32⟩ : BufTy).Contents (Elt F))
  :: StableHlo.ternary main_v417 main_v418 main_v416 main_v419 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F))
  :: StableHlo.nullary main_cst_67 (constant S_ .f32 0x3F800000#32)
  :: StableHlo.unary main_cst_67 main_v420 (broadcastInDim S600000x1 ![] bcast_S_S600000x1 : (⟨S_, .f32⟩ : BufTy).Contents (Elt F) → (⟨S600000x1, .f32⟩ : BufTy).Contents (Elt F))
  :: StableHlo.nullary main_cst_68 (constant S_ .f32 0x00000000#32)
  :: StableHlo.unary main_cst_68 main_v421 (broadcastInDim S50000x1 ![] bcast_S_S50000x1 : (⟨S_, .f32⟩ : BufTy).Contents (Elt F) → (⟨S50000x1, .f32⟩ : BufTy).Contents (Elt F))
  :: StableHlo.unary main_v84 main_v422 (broadcastInDim S600000x1 ![0] bcast_S600000_S600000x1_0 : (⟨S600000, .i32⟩ : BufTy).Contents (Elt F) → (⟨S600000x1, .i32⟩ : BufTy).Contents (Elt F))
  :: StableHlo.ternary main_v421 main_v422 main_v420 main_v423 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F))
  :: StableHlo.nullary main_cst_69 (constant S_ .f32 0x3F800000#32)
  :: StableHlo.unary main_cst_69 main_v424 (broadcastInDim S50000x1 ![] bcast_S_S50000x1 : (⟨S_, .f32⟩ : BufTy).Contents (Elt F) → (⟨S50000x1, .f32⟩ : BufTy).Contents (Elt F))
  :: StableHlo.binary main_v423 main_v424 main_v425 (maximumf : (⟨S50000x1, .f32⟩ : BufTy).Contents (Elt F) → (⟨S50000x1, .f32⟩ : BufTy).Contents (Elt F) → (⟨S50000x1, .f32⟩ : BufTy).Contents (Elt F))
  :: StableHlo.unary main_v425 main_v426 (broadcastInDim S50000x64 ![0, 1] bcast_S50000x1_S50000x64_0_1 : (⟨S50000x1, .f32⟩ : BufTy).Contents (Elt F) → (⟨S50000x64, .f32⟩ : BufTy).Contents (Elt F))
  :: StableHlo.binary main_v419 main_v426 main_v427 (Host.divf : (⟨S50000x64, .f32⟩ : BufTy).Contents (Elt F) → (⟨S50000x64, .f32⟩ : BufTy).Contents (Elt F) → (⟨S50000x64, .f32⟩ : BufTy).Contents (Elt F))
  :: StableHlo.nullary main_cst_70 (constant S_ .f32 0x00000000#32)
  :: StableHlo.binary main_v427 main_cst_70 main_v428 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_71 (constant S_ .f32 0x47435000#32)
  :: StableHlo.unary main_cst_71 main_v429 (broadcastInDim S64 ![] bcast_S_S64 : (⟨S_, .f32⟩ : BufTy).Contents (Elt F) → (⟨S64, .f32⟩ : BufTy).Contents (Elt F))
  :: StableHlo.binary main_v428 main_v429 main_v430 (Host.divf : (⟨S64, .f32⟩ : BufTy).Contents (Elt F) → (⟨S64, .f32⟩ : BufTy).Contents (Elt F) → (⟨S64, .f32⟩ : BufTy).Contents (Elt F))
  :: StableHlo.unary main_v430 main_v431 (broadcastInDim S1x64 ![1] bcast_S64_S1x64_1 : (⟨S64, .f32⟩ : BufTy).Contents (Elt F) → (⟨S1x64, .f32⟩ : BufTy).Contents (Elt F))
  :: StableHlo.unary main_v431 main_v432 (broadcastInDim S50000x64 ![0, 1] bcast_S1x64_S50000x64_0_1 : (⟨S1x64, .f32⟩ : BufTy).Contents (Elt F) → (⟨S50000x64, .f32⟩ : BufTy).Contents (Elt F))
  :: StableHlo.binary main_v427 main_v432 main_v433 (subf : (⟨S50000x64, .f32⟩ : BufTy).Contents (Elt F) → (⟨S50000x64, .f32⟩ : BufTy).Contents (Elt F) → (⟨S50000x64, .f32⟩ : BufTy).Contents (Elt F))
  :: StableHlo.binary main_v433 main_v433 main_v434 (mulf : (⟨S50000x64, .f32⟩ : BufTy).Contents (Elt F) → (⟨S50000x64, .f32⟩ : BufTy).Contents (Elt F) → (⟨S50000x64, .f32⟩ : BufTy).Contents (Elt F))
  :: StableHlo.nullary main_cst_72 (constant S_ .f32 0x00000000#32)
  :: StableHlo.binary main_v434 main_cst_72 main_v435 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.nullary main_cst_73 (constant S_ .f32 0x47435000#32)
  :: StableHlo.unary main_cst_73 main_v436 (broadcastInDim S64 ![] bcast_S_S64 : (⟨S_, .f32⟩ : BufTy).Contents (Elt F) → (⟨S64, .f32⟩ : BufTy).Contents (Elt F))
  :: StableHlo.binary main_v435 main_v436 main_v437 (Host.divf : (⟨S64, .f32⟩ : BufTy).Contents (Elt F) → (⟨S64, .f32⟩ : BufTy).Contents (Elt F) → (⟨S64, .f32⟩ : BufTy).Contents (Elt F))
  :: StableHlo.unary main_v430 main_v438 (broadcastInDim S1x64 ![1] bcast_S64_S1x64_1 : (⟨S64, .f32⟩ : BufTy).Contents (Elt F) → (⟨S1x64, .f32⟩ : BufTy).Contents (Elt F))
  :: StableHlo.unary main_v438 main_v439 (broadcastInDim S50000x64 ![0, 1] bcast_S1x64_S50000x64_0_1 : (⟨S1x64, .f32⟩ : BufTy).Contents (Elt F) → (⟨S50000x64, .f32⟩ : BufTy).Contents (Elt F))
  :: StableHlo.binary main_v427 main_v439 main_v440 (subf : (⟨S50000x64, .f32⟩ : BufTy).Contents (Elt F) → (⟨S50000x64, .f32⟩ : BufTy).Contents (Elt F) → (⟨S50000x64, .f32⟩ : BufTy).Contents (Elt F))
  :: StableHlo.nullary main_cst_74 (constant S_ .f32 0x3727C5AC#32)
  :: StableHlo.unary main_cst_74 main_v441 (broadcastInDim S64 ![] bcast_S_S64 : (⟨S_, .f32⟩ : BufTy).Contents (Elt F) → (⟨S64, .f32⟩ : BufTy).Contents (Elt F))
  :: StableHlo.binary main_v437 main_v441 main_v442 (addf : (⟨S64, .f32⟩ : BufTy).Contents (Elt F) → (⟨S64, .f32⟩ : BufTy).Contents (Elt F) → (⟨S64, .f32⟩ : BufTy).Contents (Elt F))
  :: StableHlo.unary main_v442 main_v443 (Host.rsqrt : (⟨S64, .f32⟩ : BufTy).Contents (Elt F) → (⟨S64, .f32⟩ : BufTy).Contents (Elt F))
  :: StableHlo.unary main_v443 main_v444 (broadcastInDim S1x64 ![1] bcast_S64_S1x64_1 : (⟨S64, .f32⟩ : BufTy).Contents (Elt F) → (⟨S1x64, .f32⟩ : BufTy).Contents (Elt F))
  :: StableHlo.unary main_v444 main_v445 (broadcastInDim S50000x64 ![0, 1] bcast_S1x64_S50000x64_0_1 : (⟨S1x64, .f32⟩ : BufTy).Contents (Elt F) → (⟨S50000x64, .f32⟩ : BufTy).Contents (Elt F))
  :: StableHlo.binary main_v440 main_v445 main_v446 (mulf : (⟨S50000x64, .f32⟩ : BufTy).Contents (Elt F) → (⟨S50000x64, .f32⟩ : BufTy).Contents (Elt F) → (⟨S50000x64, .f32⟩ : BufTy).Contents (Elt F))
  :: StableHlo.unary main_v388 main_v447 (broadcastInDim S1x64 ![1] bcast_S64_S1x64_1 : (⟨S64, .f32⟩ : BufTy).Contents (Elt F) → (⟨S1x64, .f32⟩ : BufTy).Contents (Elt F))
  :: StableHlo.unary main_v447 main_v448 (broadcastInDim S50000x64 ![0, 1] bcast_S1x64_S50000x64_0_1 : (⟨S1x64, .f32⟩ : BufTy).Contents (Elt F) → (⟨S50000x64, .f32⟩ : BufTy).Contents (Elt F))
  :: StableHlo.binary main_v446 main_v448 main_v449 (mulf : (⟨S50000x64, .f32⟩ : BufTy).Contents (Elt F) → (⟨S50000x64, .f32⟩ : BufTy).Contents (Elt F) → (⟨S50000x64, .f32⟩ : BufTy).Contents (Elt F))
  :: StableHlo.unary main_v390 main_v450 (broadcastInDim S1x64 ![1] bcast_S64_S1x64_1 : (⟨S64, .f32⟩ : BufTy).Contents (Elt F) → (⟨S1x64, .f32⟩ : BufTy).Contents (Elt F))
  :: StableHlo.unary main_v450 main_v451 (broadcastInDim S50000x64 ![0, 1] bcast_S1x64_S50000x64_0_1 : (⟨S1x64, .f32⟩ : BufTy).Contents (Elt F) → (⟨S50000x64, .f32⟩ : BufTy).Contents (Elt F))
  :: StableHlo.binary main_v449 main_v451 main_v452 (addf : (⟨S50000x64, .f32⟩ : BufTy).Contents (Elt F) → (⟨S50000x64, .f32⟩ : BufTy).Contents (Elt F) → (⟨S50000x64, .f32⟩ : BufTy).Contents (Elt F))
  :: StableHlo.binary main_v452 main_v300 main_v453 (cat_main_v453 : (⟨S50000x64, .f32⟩ : BufTy).Contents (Elt F) → (⟨S50000x64, .f32⟩ : BufTy).Contents (Elt F) → (⟨S50000x128, .f32⟩ : BufTy).Contents (Elt F))
  :: StableHlo.reshape main_v394 main_v454 rfl shapeCasts_S64_S1x64
  :: StableHlo.reshape main_v398 main_v455 rfl shapeCasts_S64_S1x64
  :: [] )

theorem hostOps9n_eq : (hostOps9 (F := F)) = hostOps9n := rfl

set_option maxHeartbeats 4000000 in
/-- `main_v453` after the stretch, from the live-in buffers' values. -/
theorem s9_main_v453 (W : Valuation τ sig (Elt Ideal)) (V0' : Valuation Cert.ReferenceIdeal.τ Cert.ReferenceIdeal.sig (Elt Ideal))
    (h_main_v300 : W (Proc.devRef .tc main_v300) = Cert.ReferenceIdeal.Value.res_main_v346 V0')
    (h_main_v390 : W (Proc.devRef .tc main_v390) = Cert.ReferenceIdeal.RefValue.t_main_v450 V0')
    (h_main_v388 : W (Proc.devRef .tc main_v388) = Cert.ReferenceIdeal.RefValue.t_main_v448 V0')
    (h_main_v84 : W (Proc.devRef .tc main_v84) = Cert.ReferenceIdeal.Value.res_main_v102 V0')
    (h_main_v416 : W (Proc.devRef .tc main_v416) = Cert.ReferenceIdeal.RefValue.t_main_v483 V0') :
    StableHlo.after (hostOps9 (F := Ideal)) W (Proc.devRef .tc main_v453) = Cert.ReferenceIdeal.RefValue.t_main_v520 V0' := by
  rw [hostOps9n_eq]
  simp only [hostOps9n]
  after_results_simp
  try dsimp only [Matrix.cons_val]
  try after_results_simp
  simp only [h_main_v300, h_main_v390, h_main_v388, h_main_v84, h_main_v416] <;> rfl

set_option maxHeartbeats 4000000 in
/-- `main_v454` after the stretch, from the live-in buffers' values. -/
theorem s9_main_v454 (W : Valuation τ sig (Elt Ideal)) (V0' : Valuation Cert.ReferenceIdeal.τ Cert.ReferenceIdeal.sig (Elt Ideal))
    (h_main_v394 : W (Proc.devRef .tc main_v394) = Cert.ReferenceIdeal.RefValue.t_main_v454 V0') :
    StableHlo.after (hostOps9 (F := Ideal)) W (Proc.devRef .tc main_v454) = shapeCast _ (Cert.ReferenceIdeal.RefValue.t_main_v454 V0') shapeCasts_S64_S1x64 := by
  rw [hostOps9n_eq]
  simp only [hostOps9n]
  after_results_simp
  try dsimp only [Matrix.cons_val]
  try after_results_simp
  simp only [h_main_v394] <;> rfl

set_option maxHeartbeats 4000000 in
/-- `main_v455` after the stretch, from the live-in buffers' values. -/
theorem s9_main_v455 (W : Valuation τ sig (Elt Ideal)) (V0' : Valuation Cert.ReferenceIdeal.τ Cert.ReferenceIdeal.sig (Elt Ideal))
    (h_main_v398 : W (Proc.devRef .tc main_v398) = Cert.ReferenceIdeal.RefValue.t_main_v458 V0') :
    StableHlo.after (hostOps9 (F := Ideal)) W (Proc.devRef .tc main_v455) = shapeCast _ (Cert.ReferenceIdeal.RefValue.t_main_v458 V0') shapeCasts_S64_S1x64 := by
  rw [hostOps9n_eq]
  simp only [hostOps9n]
  after_results_simp
  try dsimp only [Matrix.cons_val]
  try after_results_simp
  simp only [h_main_v398] <;> rfl

end Cert.KernelIdeal.Frm

end
-- ==== Proof.IdealChain9.lean ====
/-
  The kernel's buffers at the boundaries 18 and 19 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain8
import proofs.«181157_j5506148073958_2_alg».proof.Proof.IdealFinal8
import proofs.«181157_j5506148073958_2_alg».proof.Proof.IdealStretch9

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 18 -/

theorem L18_main_v80 (hag : Agree m ρ c V0') : W18 m ρ c (Proc.devRef .tc main_v80) = Cert.ReferenceIdeal.Value.res_main_v98 V0' := (W18_of_ne m ρ c main_v80 (by decide)).trans (L17_main_v80 m ρ c V0' hag)

theorem L18_main_v84 (hag : Agree m ρ c V0') : W18 m ρ c (Proc.devRef .tc main_v84) = Cert.ReferenceIdeal.Value.res_main_v102 V0' := (W18_of_ne m ρ c main_v84 (by decide)).trans (L17_main_v84 m ρ c V0' hag)

theorem L18_main_arg27 (hag : Agree m ρ c V0') : W18 m ρ c (Proc.devRef .tc main_arg27) = Cert.ReferenceIdeal.RefValue.a27 V0' := (W18_of_ne m ρ c main_arg27 (by decide)).trans (L17_main_arg27 m ρ c V0' hag)

theorem L18_main_arg28 (hag : Agree m ρ c V0') : W18 m ρ c (Proc.devRef .tc main_arg28) = Cert.ReferenceIdeal.RefValue.a28 V0' := (W18_of_ne m ρ c main_arg28 (by decide)).trans (L17_main_arg28 m ρ c V0' hag)

theorem L18_main_arg29 (hag : Agree m ρ c V0') : W18 m ρ c (Proc.devRef .tc main_arg29) = Cert.ReferenceIdeal.RefValue.a29 V0' := (W18_of_ne m ρ c main_arg29 (by decide)).trans (L17_main_arg29 m ρ c V0' hag)

theorem L18_main_v300 (hag : Agree m ρ c V0') : W18 m ρ c (Proc.devRef .tc main_v300) = Cert.ReferenceIdeal.Value.res_main_v346 V0' := (W18_of_ne m ρ c main_v300 (by decide)).trans (L17_main_v300 m ρ c V0' hag)

theorem L18_main_v378 (hag : Agree m ρ c V0') : W18 m ρ c (Proc.devRef .tc main_v378) = Cert.ReferenceIdeal.Value.res_main_v438 V0' := (W18_of_ne m ρ c main_v378 (by decide)).trans (L17_main_v378 m ρ c V0' hag)

theorem L18_main_v416 (hag : Agree m ρ c V0') : W18 m ρ c (Proc.devRef .tc main_v416) = Cert.ReferenceIdeal.RefValue.t_main_v483 V0' := by
  refine (W18_arr m ρ c 5).trans ?_
  refine (final8 (V17 m ρ) c).trans ?_
  unfold G8
  have h0 : V17 m ρ c main_v413 = Cert.ReferenceIdeal.RefValue.t_main_v473 V0' := (L17_main_v413 m ρ c V0' hag)
  have hW0 : V17 m ρ c main_v380 = Cert.ReferenceIdeal.RefValue.t_main_v440 V0' := (L17_main_v380 m ρ c V0' hag)
  have hb0 : Cert.LibRowBias.rowOf (V17 m ρ c main_v414) = Cert.ReferenceIdeal.RefValue.t_main_v442 V0' := by
    rw [show V17 m ρ c main_v414 = shapeCast _ (Cert.ReferenceIdeal.RefValue.t_main_v442 V0') shapeCasts_S64_S1x64 from (L17_main_v414 m ρ c V0' hag)]
    exact Cert.LibRowBias.rowOf_shapeCast _ _
  have hW1 : V17 m ρ c main_v384 = Cert.ReferenceIdeal.RefValue.t_main_v444 V0' := (L17_main_v384 m ρ c V0' hag)
  have hb1 : Cert.LibRowBias.rowOf (V17 m ρ c main_v415) = Cert.ReferenceIdeal.RefValue.t_main_v446 V0' := by
    rw [show V17 m ρ c main_v415 = shapeCast _ (Cert.ReferenceIdeal.RefValue.t_main_v446 V0') shapeCasts_S64_S1x64 from (L17_main_v415 m ρ c V0' hag)]
    exact Cert.LibRowBias.rowOf_shapeCast _ _
  rw [h0, hW0, hb0, hW1, hb1]
  exact (Cert.ReferenceIdeal.RefValue.stage8_ref V0').symm

theorem L18_main_v388 (hag : Agree m ρ c V0') : W18 m ρ c (Proc.devRef .tc main_v388) = Cert.ReferenceIdeal.RefValue.t_main_v448 V0' := (W18_of_ne m ρ c main_v388 (by decide)).trans (L17_main_v388 m ρ c V0' hag)

theorem L18_main_v390 (hag : Agree m ρ c V0') : W18 m ρ c (Proc.devRef .tc main_v390) = Cert.ReferenceIdeal.RefValue.t_main_v450 V0' := (W18_of_ne m ρ c main_v390 (by decide)).trans (L17_main_v390 m ρ c V0' hag)

theorem L18_main_v394 (hag : Agree m ρ c V0') : W18 m ρ c (Proc.devRef .tc main_v394) = Cert.ReferenceIdeal.RefValue.t_main_v454 V0' := (W18_of_ne m ρ c main_v394 (by decide)).trans (L17_main_v394 m ρ c V0' hag)

theorem L18_main_v398 (hag : Agree m ρ c V0') : W18 m ρ c (Proc.devRef .tc main_v398) = Cert.ReferenceIdeal.RefValue.t_main_v458 V0' := (W18_of_ne m ρ c main_v398 (by decide)).trans (L17_main_v398 m ρ c V0' hag)

theorem L18_main_v392 (hag : Agree m ρ c V0') : W18 m ρ c (Proc.devRef .tc main_v392) = Cert.ReferenceIdeal.RefValue.t_main_v452 V0' := (W18_of_ne m ρ c main_v392 (by decide)).trans (L17_main_v392 m ρ c V0' hag)

theorem L18_main_v396 (hag : Agree m ρ c V0') : W18 m ρ c (Proc.devRef .tc main_v396) = Cert.ReferenceIdeal.RefValue.t_main_v456 V0' := (W18_of_ne m ρ c main_v396 (by decide)).trans (L17_main_v396 m ρ c V0' hag)

theorem L18_main_arg31 (hag : Agree m ρ c V0') : W18 m ρ c (Proc.devRef .tc main_arg31) = Cert.ReferenceIdeal.RefValue.a31 V0' := (W18_of_ne m ρ c main_arg31 (by decide)).trans (L17_main_arg31 m ρ c V0' hag)

theorem L18_main_arg33 (hag : Agree m ρ c V0') : W18 m ρ c (Proc.devRef .tc main_arg33) = Cert.ReferenceIdeal.RefValue.a33 V0' := (W18_of_ne m ρ c main_arg33 (by decide)).trans (L17_main_arg33 m ρ c V0' hag)

theorem L18_main_arg35 (hag : Agree m ρ c V0') : W18 m ρ c (Proc.devRef .tc main_arg35) = Cert.ReferenceIdeal.RefValue.a35 V0' := (W18_of_ne m ρ c main_arg35 (by decide)).trans (L17_main_arg35 m ρ c V0' hag)

theorem L18_main_arg30 (hag : Agree m ρ c V0') : W18 m ρ c (Proc.devRef .tc main_arg30) = Cert.ReferenceIdeal.RefValue.a30 V0' := (W18_of_ne m ρ c main_arg30 (by decide)).trans (L17_main_arg30 m ρ c V0' hag)

theorem L18_main_arg32 (hag : Agree m ρ c V0') : W18 m ρ c (Proc.devRef .tc main_arg32) = Cert.ReferenceIdeal.RefValue.a32 V0' := (W18_of_ne m ρ c main_arg32 (by decide)).trans (L17_main_arg32 m ρ c V0' hag)

theorem L18_main_arg34 (hag : Agree m ρ c V0') : W18 m ρ c (Proc.devRef .tc main_arg34) = Cert.ReferenceIdeal.RefValue.a34 V0' := (W18_of_ne m ρ c main_arg34 (by decide)).trans (L17_main_arg34 m ρ c V0' hag)

/-! ## Boundary 19 -/

theorem L19_main_v80 (hag : Agree m ρ c V0') : W19 m ρ c (Proc.devRef .tc main_v80) = Cert.ReferenceIdeal.Value.res_main_v98 V0' := (W19_of m ρ c main_v80 (by decide)).trans (L18_main_v80 m ρ c V0' hag)

theorem L19_main_arg27 (hag : Agree m ρ c V0') : W19 m ρ c (Proc.devRef .tc main_arg27) = Cert.ReferenceIdeal.RefValue.a27 V0' := (W19_of m ρ c main_arg27 (by decide)).trans (L18_main_arg27 m ρ c V0' hag)

theorem L19_main_arg28 (hag : Agree m ρ c V0') : W19 m ρ c (Proc.devRef .tc main_arg28) = Cert.ReferenceIdeal.RefValue.a28 V0' := (W19_of m ρ c main_arg28 (by decide)).trans (L18_main_arg28 m ρ c V0' hag)

theorem L19_main_arg29 (hag : Agree m ρ c V0') : W19 m ρ c (Proc.devRef .tc main_arg29) = Cert.ReferenceIdeal.RefValue.a29 V0' := (W19_of m ρ c main_arg29 (by decide)).trans (L18_main_arg29 m ρ c V0' hag)

theorem L19_main_v300 (hag : Agree m ρ c V0') : W19 m ρ c (Proc.devRef .tc main_v300) = Cert.ReferenceIdeal.Value.res_main_v346 V0' := (W19_of m ρ c main_v300 (by decide)).trans (L18_main_v300 m ρ c V0' hag)

theorem L19_main_v378 (hag : Agree m ρ c V0') : W19 m ρ c (Proc.devRef .tc main_v378) = Cert.ReferenceIdeal.Value.res_main_v438 V0' := (W19_of m ρ c main_v378 (by decide)).trans (L18_main_v378 m ρ c V0' hag)

theorem L19_main_v453 (hag : Agree m ρ c V0') : W19 m ρ c (Proc.devRef .tc main_v453) = Cert.ReferenceIdeal.RefValue.t_main_v520 V0' := s9_main_v453 (W18 m ρ c) V0' (L18_main_v300 m ρ c V0' hag) (L18_main_v390 m ρ c V0' hag) (L18_main_v388 m ρ c V0' hag) (L18_main_v84 m ρ c V0' hag) (L18_main_v416 m ρ c V0' hag)

theorem L19_main_v392 (hag : Agree m ρ c V0') : W19 m ρ c (Proc.devRef .tc main_v392) = Cert.ReferenceIdeal.RefValue.t_main_v452 V0' := (W19_of m ρ c main_v392 (by decide)).trans (L18_main_v392 m ρ c V0' hag)

theorem L19_main_v454 (hag : Agree m ρ c V0') : W19 m ρ c (Proc.devRef .tc main_v454) = shapeCast _ (Cert.ReferenceIdeal.RefValue.t_main_v454 V0') shapeCasts_S64_S1x64 := s9_main_v454 (W18 m ρ c) V0' (L18_main_v394 m ρ c V0' hag)

theorem L19_main_v396 (hag : Agree m ρ c V0') : W19 m ρ c (Proc.devRef .tc main_v396) = Cert.ReferenceIdeal.RefValue.t_main_v456 V0' := (W19_of m ρ c main_v396 (by decide)).trans (L18_main_v396 m ρ c V0' hag)

theorem L19_main_v455 (hag : Agree m ρ c V0') : W19 m ρ c (Proc.devRef .tc main_v455) = shapeCast _ (Cert.ReferenceIdeal.RefValue.t_main_v458 V0') shapeCasts_S64_S1x64 := s9_main_v455 (W18 m ρ c) V0' (L18_main_v398 m ρ c V0' hag)

theorem L19_main_arg31 (hag : Agree m ρ c V0') : W19 m ρ c (Proc.devRef .tc main_arg31) = Cert.ReferenceIdeal.RefValue.a31 V0' := (W19_of m ρ c main_arg31 (by decide)).trans (L18_main_arg31 m ρ c V0' hag)

theorem L19_main_arg33 (hag : Agree m ρ c V0') : W19 m ρ c (Proc.devRef .tc main_arg33) = Cert.ReferenceIdeal.RefValue.a33 V0' := (W19_of m ρ c main_arg33 (by decide)).trans (L18_main_arg33 m ρ c V0' hag)

theorem L19_main_arg35 (hag : Agree m ρ c V0') : W19 m ρ c (Proc.devRef .tc main_arg35) = Cert.ReferenceIdeal.RefValue.a35 V0' := (W19_of m ρ c main_arg35 (by decide)).trans (L18_main_arg35 m ρ c V0' hag)

theorem L19_main_arg30 (hag : Agree m ρ c V0') : W19 m ρ c (Proc.devRef .tc main_arg30) = Cert.ReferenceIdeal.RefValue.a30 V0' := (W19_of m ρ c main_arg30 (by decide)).trans (L18_main_arg30 m ρ c V0' hag)

theorem L19_main_arg32 (hag : Agree m ρ c V0') : W19 m ρ c (Proc.devRef .tc main_arg32) = Cert.ReferenceIdeal.RefValue.a32 V0' := (W19_of m ρ c main_arg32 (by decide)).trans (L18_main_arg32 m ρ c V0' hag)

theorem L19_main_arg34 (hag : Agree m ρ c V0') : W19 m ρ c (Proc.devRef .tc main_arg34) = Cert.ReferenceIdeal.RefValue.a34 V0' := (W19_of m ρ c main_arg34 (by decide)).trans (L18_main_arg34 m ρ c V0' hag)

end Cert.KernelIdeal.Frm

end
-- ==== Proof.IdealFinal9.lean ====
/-
  What region 9 leaves in its output array, at the extended reals: the rectified layer followed by a layer of the
  WHOLE input array. Point t loads rows 5000·t … 5000·t + 4999 of the input and the whole weight matrices and one-row biases,
  and writes back the stage of that block of rows; row p of a stage depends only on row p of its input, so what point t
  writes back is rows 5000·t … of the stage of the whole array; the 10 blocks tile the 50000 rows.
-/
import proofs.«181157_j5506148073958_2_alg».proof.Proof.IdealRegion9
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz9 : (![0, 0] : Fin 2 → Nat) = fun _ => 0 := funext fun a => by fin_cases a <;> rfl

/-- The stage of the whole arrays as the region finds them. -/
def G9 (c : Dev nD) : S50000x64.Idx → EReal :=
  ra (V c main_v453) (V c main_v392) (rowOf (V c main_v454)) (V c main_v396) (rowOf (V c main_v455))

/-- The printed index maps, decided over the grid: the input rows' window moves with the output's, every other window
    stays at block 0, and the output's block index stays in range. -/
theorem idx_facts9 : ∀ t : Fin cfg9.N, win9_0.index t (0 : Fin 2) = win9_5.index t (0 : Fin 2)
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (1 : Fin 2) = 0
    ∧ win9_5.index t (0 : Fin 2) ≤ 9 :=
  (by decide +kernel : ∀ t : Fin grid9.N, _)

/-- Every block of rows is some point's. -/
theorem idx_onto9 : ∀ q0 : Fin 10, ∃ t : Fin cfg9.N, win9_5.index t = ![q0.val, 0] :=
  (by decide +kernel : ∀ q0 : Fin 10, ∃ t : Fin grid9.N, win9_5.index t = ![q0.val, 0])

/-- What point t writes back is block t of the stage of the whole arrays. -/
theorem flushed9_eq (c : Dev nD) (t : Fin cfg9.N) :
    (dat9 (F := Ideal) V c).flushed 5 t = ((cfg9.win 5).blk t).view.read (Elt Ideal) (G9 V c) := by
  show (cfg9.win 5).cut (grid9.coords t) ((dat9 (F := Ideal) V c).after 5 t) = _
  rw [after9_5]
  unfold out9_5
  rw [View.canon_unit_zero hz9]
  simp only [View.ld_unit_zero (S := S5000x128) hz9, View.ld_unit_zero (S := S128x64) hz9, View.ld_unit_zero (S := S1x64) hz9, View.ld_unit_zero (S := S64x64) hz9]
  obtain ⟨e0, e1, e2, e3, e4, e5, e6, e7, e8, e9, e10, e11⟩ := idx_facts9 t
  have hw1 : iblk9 V c 1 t = V c main_v392 := by
    funext y
    show V c main_v392 (((cfg9.win 1).blk t).view.emb y) = V c main_v392 y
    refine congrArg _ ?_
    funext a; apply Fin.ext
    match a with
    | ⟨0, _⟩ => show win9_1.index t (0 : Fin 2) * 128 + 1 * (y 0).val = (y 0).val; omega
    | ⟨1, _⟩ => show win9_1.index t (1 : Fin 2) * 64 + 1 * (y 1).val = (y 1).val; omega
  have hw2 : iblk9 V c 2 t = V c main_v454 := by
    funext y
    show V c main_v454 (((cfg9.win 2).blk t).view.emb y) = V c main_v454 y
    refine congrArg _ ?_
    funext a; apply Fin.ext
    match a with
    | ⟨0, _⟩ => show win9_2.index t (0 : Fin 2) * 1 + 1 * (y 0).val = (y 0).val; omega
    | ⟨1, _⟩ => show win9_2.index t (1 : Fin 2) * 64 + 1 * (y 1).val = (y 1).val; omega
  have hw3 : iblk9 V c 3 t = V c main_v396 := by
    funext y
    show V c main_v396 (((cfg9.win 3).blk t).view.emb y) = V c main_v396 y
    refine congrArg _ ?_
    funext a; apply Fin.ext
    match a with
    | ⟨0, _⟩ => show win9_3.index t (0 : Fin 2) * 64 + 1 * (y 0).val = (y 0).val; omega
    | ⟨1, _⟩ => show win9_3.index t (1 : Fin 2) * 64 + 1 * (y 1).val = (y 1).val; omega
  have hw4 : iblk9 V c 4 t = V c main_v455 := by
    funext y
    show V c main_v455 (((cfg9.win 4).blk t).view.emb y) = V c main_v455 y
    refine congrArg _ ?_
    funext a; apply Fin.ext
    match a with
    | ⟨0, _⟩ => show win9_4.index t (0 : Fin 2) * 1 + 1 * (y 0).val = (y 0).val; omega
    | ⟨1, _⟩ => show win9_4.index t (1 : Fin 2) * 64 + 1 * (y 1).val = (y 1).val; omega
  funext j
  obtain ⟨p, q, rfl⟩ : ∃ (p : Fin 5000) (q : Fin 64), j = ix2 p q := ⟨j 0, j 1, eq_ix2 j⟩
  refine (pay9_apply (iblk9 V c 0 t) (iblk9 V c 1 t) (iblk9 V c 2 t) (iblk9 V c 3 t) (iblk9 V c 4 t) p q).trans ?_
  rw [hw1, hw2, hw3, hw4]
  have hp : p.val < 5000 := p.isLt
  have hrow : win9_5.index t (0 : Fin 2) * 5000 + p.val < 50000 := by omega
  have hemb : ((cfg9.win 5).blk t).view.emb (ix2 p q) = ix2 (⟨win9_5.index t (0 : Fin 2) * 5000 + p.val, hrow⟩ : Fin 50000) q := by
    funext a; apply Fin.ext
    match a with
    | ⟨0, _⟩ => show win9_5.index t (0 : Fin 2) * 5000 + 1 * p.val = win9_5.index t (0 : Fin 2) * 5000 + p.val; omega
    | ⟨1, _⟩ => show win9_5.index t (1 : Fin 2) * 64 + 1 * q.val = q.val; omega
  show ra (iblk9 V c 0 t) _ _ _ _ (ix2 p q) = G9 V c (((cfg9.win 5).blk t).view.emb (ix2 p q))
  rw [hemb]
  refine ra_row _ _ _ _ _ _ p _ (fun k => ?_) q
  show V c main_v453 (((cfg9.win 0).blk t).view.emb (ix2 p k)) = V c main_v453 (ix2 (⟨win9_5.index t (0 : Fin 2) * 5000 + p.val, hrow⟩ : Fin 50000) k)
  refine congrArg _ ?_
  funext a; apply Fin.ext
  match a with
  | ⟨0, _⟩ => show win9_0.index t (0 : Fin 2) * 5000 + 1 * p.val = win9_5.index t (0 : Fin 2) * 5000 + p.val; omega
  | ⟨1, _⟩ => show win9_0.index t (1 : Fin 2) * 128 + 1 * k.val = k.val; omega

/-- An index of the output array is in point t's block iff its row is in the block's range. -/
theorem mem_blk9 (t : Fin cfg9.N) (i : S50000x64.Idx) :
    i ∈ ((cfg9.win 5).blk t).view.set ↔ ∀ a : Fin 2, win9_5.index t a * S5000x64.size a ≤ (i a).val ∧ (i a).val < win9_5.index t a * S5000x64.size a + S5000x64.size a := by
  show i ∈ ((View.whole main_v456).slice (win9_5.rect t)).set ↔ _
  rw [View.set_slice_whole, Rect.mem_set_unit]
  exact Iff.rfl

/-- The blocks cover the output array. -/
theorem cover9 (i : S50000x64.Idx) :
    ∃ t : Fin cfg9.N, (cfg9.win 5).flush t = true ∧ i ∈ ((cfg9.win 5).blk t).view.set := by
  have hi0 : (i 0).val < 50000 := (i 0).isLt
  have hi1 : (i 1).val < 64 := (i 1).isLt
  obtain ⟨t, ht⟩ := idx_onto9 ⟨(i 0).val / 5000, by omega⟩
  have q0 : win9_5.index t (0 : Fin 2) = (i 0).val / 5000 := congrFun ht 0
  have q1 : win9_5.index t (1 : Fin 2) = 0 := congrFun ht 1
  refine ⟨t, flush9_5 t, ?_⟩
  rw [mem_blk9]
  intro a
  match a with
  | ⟨0, _⟩ => show win9_5.index t (0 : Fin 2) * 5000 ≤ (i 0).val ∧ (i 0).val < win9_5.index t (0 : Fin 2) * 5000 + 5000; omega
  | ⟨1, _⟩ => show win9_5.index t (1 : Fin 2) * 64 ≤ (i 1).val ∧ (i 1).val < win9_5.index t (1 : Fin 2) * 64 + 64; omega

/-- The output array after the region: the stage of the whole arrays. -/
theorem final9 (c : Dev nD) : (dat9 (F := Ideal) V c).arrAt 5 cfg9.N = G9 V c :=
  (dat9 (F := Ideal) V c).arrAt_eq_of_cover 5 (G9 V c) (fun t _ => flushed9_eq V c t) (cover9)

end Cert.KernelIdeal.Frm

end
-- ==== Proof.IdealStretch10.lean ====
/-
  Host stretch 10 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

variable {F : FTy → Type} [FloatOps F]

/-- The concatenation that writes `main_v517`, as a function of its 3 operands. -/
def cat_main_v517 (a : (main_v80 : Ref sig .tc).ty.Contents (Elt F)) (b : (main_v300 : Ref sig .tc).ty.Contents (Elt F)) (c : (main_v516 : Ref sig .tc).ty.Contents (Elt F)) : (main_v517 : Ref sig .tc).ty.Contents (Elt F) :=
  concatenate S50000x192 1 [⟨S50000x64, a⟩, ⟨S50000x64, b⟩, ⟨S50000x64, c⟩] concatenates_S50000x64_S50000x64_S50000x64_S50000x192_d1

/-- The stretch's operations with each concatenation's function named (evaluation then goes on into a concatenation's
    operands instead of stopping at the list of pairs that holds them). -/
abbrev hostOps10n : List (HloOp τ sig (Elt F)) :=
  ( StableHlo.unary main_arg27 main_v457 ((extractStridedSlice S1x64 ![2, 0] · slices_S4x64_S1x64_2_0) : (⟨S4x64, .f32⟩ : BufTy).Contents (Elt F) → (⟨S1x64, .f32⟩ : BufTy).Contents (Elt F))
  :: StableHlo.reshape main_v457 main_v458 rfl shapeCasts_S1x64_S64
  :: StableHlo.unary main_arg28 main_v459 ((extractStridedSlice S1x64 ![2, 0] · slices_S4x64_S1x64_2_0) : (⟨S4x64, .f32⟩ : BufTy).Contents (Elt F) → (⟨S1x64, .f32⟩ : BufTy).Contents (Elt F))
  :: StableHlo.reshape main_v459 main_v460 rfl shapeCasts_S1x64_S64
  :: StableHlo.unary main_arg29 main_v461 ((extractStridedSlice S1x64 ![2, 0] · slices_S4x64_S1x64_2_0) : (⟨S4x64, .f32⟩ : BufTy).Contents (Elt F) → (⟨S1x64, .f32⟩ : BufTy).Contents (Elt F))
  :: StableHlo.reshape main_v461 main_v462 rfl shapeCasts_S1x64_S64
  :: StableHlo.nullary main_cst_75 (constant S_ .f32 0x00000000#32)
  :: StableHlo.binary main_v378 main_cst_75 main_v463 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v463 main_v464 (broadcastInDim S1x64 ![1] bcast_S64_S1x64_1 : (⟨S64, .f32⟩ : BufTy).Contents (Elt F) → (⟨S1x64, .f32⟩ : BufTy).Contents (Elt F))
  :: StableHlo.nullary main_cst_76 (constant S_ .f32 0x47435000#32)
  :: StableHlo.unary main_cst_76 main_v465 (broadcastInDim S1x64 ![] bcast_S_S1x64 : (⟨S_, .f32⟩ : BufTy).Contents (Elt F) → (⟨S1x64, .f32⟩ : BufTy).Contents (Elt F))
  :: StableHlo.binary main_v464 main_v465 main_v466 (Host.divf : (⟨S1x64, .f32⟩ : BufTy).Contents (Elt F) → (⟨S1x64, .f32⟩ : BufTy).Contents (Elt F) → (⟨S1x64, .f32⟩ : BufTy).Contents (Elt F))
  :: StableHlo.unary main_v462 main_v467 (broadcastInDim S1x64 ![1] bcast_S64_S1x64_1 : (⟨S64, .f32⟩ : BufTy).Contents (Elt F) → (⟨S1x64, .f32⟩ : BufTy).Contents (Elt F))
  :: StableHlo.binary main_v467 main_v466 main_v468 (mulf : (⟨S1x64, .f32⟩ : BufTy).Contents (Elt F) → (⟨S1x64, .f32⟩ : BufTy).Contents (Elt F) → (⟨S1x64, .f32⟩ : BufTy).Contents (Elt F))
  :: StableHlo.unary main_v468 main_v469 (broadcastInDim S50000x64 ![0, 1] bcast_S1x64_S50000x64_0_1 : (⟨S1x64, .f32⟩ : BufTy).Contents (Elt F) → (⟨S50000x64, .f32⟩ : BufTy).Contents (Elt F))
  :: StableHlo.binary main_v378 main_v469 main_v470 (subf : (⟨S50000x64, .f32⟩ : BufTy).Contents (Elt F) → (⟨S50000x64, .f32⟩ : BufTy).Contents (Elt F) → (⟨S50000x64, .f32⟩ : BufTy).Contents (Elt F))
  :: StableHlo.binary main_v470 main_v470 main_v471 (mulf : (⟨S50000x64, .f32⟩ : BufTy).Contents (Elt F) → (⟨S50000x64, .f32⟩ : BufTy).Contents (Elt F) → (⟨S50000x64, .f32⟩ : BufTy).Contents (Elt F))
  :: StableHlo.nullary main_cst_77 (constant S_ .f32 0x00000000#32)
  :: StableHlo.binary main_v471 main_cst_77 main_v472 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v472 main_v473 (broadcastInDim S1x64 ![1] bcast_S64_S1x64_1 : (⟨S64, .f32⟩ : BufTy).Contents (Elt F) → (⟨S1x64, .f32⟩ : BufTy).Contents (Elt F))
  :: StableHlo.nullary main_cst_78 (constant S_ .f32 0x47435000#32)
  :: StableHlo.unary main_cst_78 main_v474 (broadcastInDim S1x64 ![] bcast_S_S1x64 : (⟨S_, .f32⟩ : BufTy).Contents (Elt F) → (⟨S1x64, .f32⟩ : BufTy).Contents (Elt F))
  :: StableHlo.binary main_v473 main_v474 main_v475 (Host.divf : (⟨S1x64, .f32⟩ : BufTy).Contents (Elt F) → (⟨S1x64, .f32⟩ : BufTy).Contents (Elt F) → (⟨S1x64, .f32⟩ : BufTy).Contents (Elt F))
  :: StableHlo.unary main_v458 main_v476 (broadcastInDim S1x64 ![1] bcast_S64_S1x64_1 : (⟨S64, .f32⟩ : BufTy).Contents (Elt F) → (⟨S1x64, .f32⟩ : BufTy).Contents (Elt F))
  :: StableHlo.unary main_v476 main_v477 (broadcastInDim S50000x64 ![0, 1] bcast_S1x64_S50000x64_0_1 : (⟨S1x64, .f32⟩ : BufTy).Contents (Elt F) → (⟨S50000x64, .f32⟩ : BufTy).Contents (Elt F))
  :: StableHlo.binary main_v477 main_v470 main_v478 (mulf : (⟨S50000x64, .f32⟩ : BufTy).Contents (Elt F) → (⟨S50000x64, .f32⟩ : BufTy).Contents (Elt F) → (⟨S50000x64, .f32⟩ : BufTy).Contents (Elt F))
  :: StableHlo.nullary main_cst_79 (constant S_ .f32 0x3727C5AC#32)
  :: StableHlo.unary main_cst_79 main_v479 (broadcastInDim S1x64 ![] bcast_S_S1x64 : (⟨S_, .f32⟩ : BufTy).Contents (Elt F) → (⟨S1x64, .f32⟩ : BufTy).Contents (Elt F))
  :: StableHlo.binary main_v475 main_v479 main_v480 (addf : (⟨S1x64, .f32⟩ : BufTy).Contents (Elt F) → (⟨S1x64, .f32⟩ : BufTy).Contents (Elt F) → (⟨S1x64, .f32⟩ : BufTy).Contents (Elt F))
  :: StableHlo.unary main_v480 main_v481 (Host.rsqrt : (⟨S1x64, .f32⟩ : BufTy).Contents (Elt F) → (⟨S1x64, .f32⟩ : BufTy).Contents (Elt F))
  :: StableHlo.unary main_v481 main_v482 (broadcastInDim S50000x64 ![0, 1] bcast_S1x64_S50000x64_0_1 : (⟨S1x64, .f32⟩ : BufTy).Contents (Elt F) → (⟨S50000x64, .f32⟩ : BufTy).Contents (Elt F))
  :: StableHlo.binary main_v478 main_v482 main_v483 (mulf : (⟨S50000x64, .f32⟩ : BufTy).Contents (Elt F) → (⟨S50000x64, .f32⟩ : BufTy).Contents (Elt F) → (⟨S50000x64, .f32⟩ : BufTy).Contents (Elt F))
  :: StableHlo.unary main_v460 main_v484 (broadcastInDim S1x64 ![1] bcast_S64_S1x64_1 : (⟨S64, .f32⟩ : BufTy).Contents (Elt F) → (⟨S1x64, .f32⟩ : BufTy).Contents (Elt F))
  :: StableHlo.unary main_v484 main_v485 (broadcastInDim S50000x64 ![0, 1] bcast_S1x64_S50000x64_0_1 : (⟨S1x64, .f32⟩ : BufTy).Contents (Elt F) → (⟨S50000x64, .f32⟩ : BufTy).Contents (Elt F))
  :: StableHlo.binary main_v483 main_v485 main_v486 (addf : (⟨S50000x64, .f32⟩ : BufTy).Contents (Elt F) → (⟨S50000x64, .f32⟩ : BufTy).Contents (Elt F) → (⟨S50000x64, .f32⟩ : BufTy).Contents (Elt F))
  :: StableHlo.unary main_arg27 main_v487 ((extractStridedSlice S1x64 ![3, 0] · slices_S4x64_S1x64_3_0) : (⟨S4x64, .f32⟩ : BufTy).Contents (Elt F) → (⟨S1x64, .f32⟩ : BufTy).Contents (Elt F))
  :: StableHlo.reshape main_v487 main_v488 rfl shapeCasts_S1x64_S64
  :: StableHlo.unary main_arg28 main_v489 ((extractStridedSlice S1x64 ![3, 0] · slices_S4x64_S1x64_3_0) : (⟨S4x64, .f32⟩ : BufTy).Contents (Elt F) → (⟨S1x64, .f32⟩ : BufTy).Contents (Elt F))
  :: StableHlo.reshape main_v489 main_v490 rfl shapeCasts_S1x64_S64
  :: StableHlo.unary main_arg29 main_v491 ((extractStridedSlice S1x64 ![3, 0] · slices_S4x64_S1x64_3_0) : (⟨S4x64, .f32⟩ : BufTy).Contents (Elt F) → (⟨S1x64, .f32⟩ : BufTy).Contents (Elt F))
  :: StableHlo.reshape main_v491 main_v492 rfl shapeCasts_S1x64_S64
  :: StableHlo.nullary main_cst_80 (constant S_ .f32 0x00000000#32)
  :: StableHlo.binary main_v456 main_cst_80 main_v493 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v493 main_v494 (broadcastInDim S1x64 ![1] bcast_S64_S1x64_1 : (⟨S64, .f32⟩ : BufTy).Contents (Elt F) → (⟨S1x64, .f32⟩ : BufTy).Contents (Elt F))
  :: StableHlo.nullary main_cst_81 (constant S_ .f32 0x47435000#32)
  :: StableHlo.unary main_cst_81 main_v495 (broadcastInDim S1x64 ![] bcast_S_S1x64 : (⟨S_, .f32⟩ : BufTy).Contents (Elt F) → (⟨S1x64, .f32⟩ : BufTy).Contents (Elt F))
  :: StableHlo.binary main_v494 main_v495 main_v496 (Host.divf : (⟨S1x64, .f32⟩ : BufTy).Contents (Elt F) → (⟨S1x64, .f32⟩ : BufTy).Contents (Elt F) → (⟨S1x64, .f32⟩ : BufTy).Contents (Elt F))
  :: StableHlo.unary main_v492 main_v497 (broadcastInDim S1x64 ![1] bcast_S64_S1x64_1 : (⟨S64, .f32⟩ : BufTy).Contents (Elt F) → (⟨S1x64, .f32⟩ : BufTy).Contents (Elt F))
  :: StableHlo.binary main_v497 main_v496 main_v498 (mulf : (⟨S1x64, .f32⟩ : BufTy).Contents (Elt F) → (⟨S1x64, .f32⟩ : BufTy).Contents (Elt F) → (⟨S1x64, .f32⟩ : BufTy).Contents (Elt F))
  :: StableHlo.unary main_v498 main_v499 (broadcastInDim S50000x64 ![0, 1] bcast_S1x64_S50000x64_0_1 : (⟨S1x64, .f32⟩ : BufTy).Contents (Elt F) → (⟨S50000x64, .f32⟩ : BufTy).Contents (Elt F))
  :: StableHlo.binary main_v456 main_v499 main_v500 (subf : (⟨S50000x64, .f32⟩ : BufTy).Contents (Elt F) → (⟨S50000x64, .f32⟩ : BufTy).Contents (Elt F) → (⟨S50000x64, .f32⟩ : BufTy).Contents (Elt F))
  :: StableHlo.binary main_v500 main_v500 main_v501 (mulf : (⟨S50000x64, .f32⟩ : BufTy).Contents (Elt F) → (⟨S50000x64, .f32⟩ : BufTy).Contents (Elt F) → (⟨S50000x64, .f32⟩ : BufTy).Contents (Elt F))
  :: StableHlo.nullary main_cst_82 (constant S_ .f32 0x00000000#32)
  :: StableHlo.binary main_v501 main_cst_82 main_v502 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F))
  :: StableHlo.unary main_v502 main_v503 (broadcastInDim S1x64 ![1] bcast_S64_S1x64_1 : (⟨S64, .f32⟩ : BufTy).Contents (Elt F) → (⟨S1x64, .f32⟩ : BufTy).Contents (Elt F))
  :: StableHlo.nullary main_cst_83 (constant S_ .f32 0x47435000#32)
  :: StableHlo.unary main_cst_83 main_v504 (broadcastInDim S1x64 ![] bcast_S_S1x64 : (⟨S_, .f32⟩ : BufTy).Contents (Elt F) → (⟨S1x64, .f32⟩ : BufTy).Contents (Elt F))
  :: StableHlo.binary main_v503 main_v504 main_v505 (Host.divf : (⟨S1x64, .f32⟩ : BufTy).Contents (Elt F) → (⟨S1x64, .f32⟩ : BufTy).Contents (Elt F) → (⟨S1x64, .f32⟩ : BufTy).Contents (Elt F))
  :: StableHlo.unary main_v488 main_v506 (broadcastInDim S1x64 ![1] bcast_S64_S1x64_1 : (⟨S64, .f32⟩ : BufTy).Contents (Elt F) → (⟨S1x64, .f32⟩ : BufTy).Contents (Elt F))
  :: StableHlo.unary main_v506 main_v507 (broadcastInDim S50000x64 ![0, 1] bcast_S1x64_S50000x64_0_1 : (⟨S1x64, .f32⟩ : BufTy).Contents (Elt F) → (⟨S50000x64, .f32⟩ : BufTy).Contents (Elt F))
  :: StableHlo.binary main_v507 main_v500 main_v508 (mulf : (⟨S50000x64, .f32⟩ : BufTy).Contents (Elt F) → (⟨S50000x64, .f32⟩ : BufTy).Contents (Elt F) → (⟨S50000x64, .f32⟩ : BufTy).Contents (Elt F))
  :: StableHlo.nullary main_cst_84 (constant S_ .f32 0x3727C5AC#32)
  :: StableHlo.unary main_cst_84 main_v509 (broadcastInDim S1x64 ![] bcast_S_S1x64 : (⟨S_, .f32⟩ : BufTy).Contents (Elt F) → (⟨S1x64, .f32⟩ : BufTy).Contents (Elt F))
  :: StableHlo.binary main_v505 main_v509 main_v510 (addf : (⟨S1x64, .f32⟩ : BufTy).Contents (Elt F) → (⟨S1x64, .f32⟩ : BufTy).Contents (Elt F) → (⟨S1x64, .f32⟩ : BufTy).Contents (Elt F))
  :: StableHlo.unary main_v510 main_v511 (Host.rsqrt : (⟨S1x64, .f32⟩ : BufTy).Contents (Elt F) → (⟨S1x64, .f32⟩ : BufTy).Contents (Elt F))
  :: StableHlo.unary main_v511 main_v512 (broadcastInDim S50000x64 ![0, 1] bcast_S1x64_S50000x64_0_1 : (⟨S1x64, .f32⟩ : BufTy).Contents (Elt F) → (⟨S50000x64, .f32⟩ : BufTy).Contents (Elt F))
  :: StableHlo.binary main_v508 main_v512 main_v513 (mulf : (⟨S50000x64, .f32⟩ : BufTy).Contents (Elt F) → (⟨S50000x64, .f32⟩ : BufTy).Contents (Elt F) → (⟨S50000x64, .f32⟩ : BufTy).Contents (Elt F))
  :: StableHlo.unary main_v490 main_v514 (broadcastInDim S1x64 ![1] bcast_S64_S1x64_1 : (⟨S64, .f32⟩ : BufTy).Contents (Elt F) → (⟨S1x64, .f32⟩ : BufTy).Contents (Elt F))
  :: StableHlo.unary main_v514 main_v515 (broadcastInDim S50000x64 ![0, 1] bcast_S1x64_S50000x64_0_1 : (⟨S1x64, .f32⟩ : BufTy).Contents (Elt F) → (⟨S50000x64, .f32⟩ : BufTy).Contents (Elt F))
  :: StableHlo.binary main_v513 main_v515 main_v516 (addf : (⟨S50000x64, .f32⟩ : BufTy).Contents (Elt F) → (⟨S50000x64, .f32⟩ : BufTy).Contents (Elt F) → (⟨S50000x64, .f32⟩ : BufTy).Contents (Elt F))
  :: StableHlo.nary ![main_v80, main_v300, main_v516] main_v517 (fun u => cat_main_v517 (u 0) (u 1) (u 2))
  :: StableHlo.reshape main_arg31 main_v518 rfl shapeCasts_S512_S1x512
  :: StableHlo.reshape main_arg33 main_v519 rfl shapeCasts_S128_S1x128
  :: StableHlo.reshape main_arg35 main_v520 rfl shapeCasts_S1_S1x1
  :: [] )
set_option maxHeartbeats 40000000 in  -- a long stretch: its list (or the term over it) exceeds the default budget

theorem hostOps10n_eq : (hostOps10 (F := F)) = hostOps10n := rfl

set_option maxHeartbeats 4000000 in
/-- `main_v517` after the stretch, from the live-in buffers' values. -/
theorem s10_main_v517 (W : Valuation τ sig (Elt Ideal)) (V0' : Valuation Cert.ReferenceIdeal.τ Cert.ReferenceIdeal.sig (Elt Ideal))
    (h_main_arg28 : W (Proc.devRef .tc main_arg28) = Cert.ReferenceIdeal.RefValue.a28 V0')
    (h_main_v456 : W (Proc.devRef .tc main_v456) = Cert.ReferenceIdeal.Value.res_main_v530 V0')
    (h_main_arg29 : W (Proc.devRef .tc main_arg29) = Cert.ReferenceIdeal.RefValue.a29 V0')
    (h_main_arg27 : W (Proc.devRef .tc main_arg27) = Cert.ReferenceIdeal.RefValue.a27 V0')
    (h_main_v300 : W (Proc.devRef .tc main_v300) = Cert.ReferenceIdeal.Value.res_main_v346 V0')
    (h_main_v80 : W (Proc.devRef .tc main_v80) = Cert.ReferenceIdeal.Value.res_main_v98 V0') :
    StableHlo.after (hostOps10 (F := Ideal)) W (Proc.devRef .tc main_v517) = Cert.ReferenceIdeal.RefValue.t_main_v591 V0' := by
  rw [hostOps10n_eq]
  simp only [hostOps10n]
  after_results_simp
  try dsimp only [Matrix.cons_val]
  try after_results_simp
  simp only [h_main_arg28, h_main_v456, h_main_arg29, h_main_arg27, h_main_v300, h_main_v80] <;> rfl

set_option maxHeartbeats 4000000 in
/-- `main_v518` after the stretch, from the live-in buffers' values. -/
theorem s10_main_v518 (W : Valuation τ sig (Elt Ideal)) (V0' : Valuation Cert.ReferenceIdeal.τ Cert.ReferenceIdeal.sig (Elt Ideal))
    (h_main_arg31 : W (Proc.devRef .tc main_arg31) = Cert.ReferenceIdeal.RefValue.a31 V0') :
    StableHlo.after (hostOps10 (F := Ideal)) W (Proc.devRef .tc main_v518) = shapeCast _ (Cert.ReferenceIdeal.RefValue.a31 V0') shapeCasts_S512_S1x512 := by
  rw [hostOps10n_eq]
  simp only [hostOps10n]
  after_results_simp
  try dsimp only [Matrix.cons_val]
  try after_results_simp
  simp only [h_main_arg31] <;> rfl

set_option maxHeartbeats 4000000 in
/-- `main_v519` after the stretch, from the live-in buffers' values. -/
theorem s10_main_v519 (W : Valuation τ sig (Elt Ideal)) (V0' : Valuation Cert.ReferenceIdeal.τ Cert.ReferenceIdeal.sig (Elt Ideal))
    (h_main_arg33 : W (Proc.devRef .tc main_arg33) = Cert.ReferenceIdeal.RefValue.a33 V0') :
    StableHlo.after (hostOps10 (F := Ideal)) W (Proc.devRef .tc main_v519) = shapeCast _ (Cert.ReferenceIdeal.RefValue.a33 V0') shapeCasts_S128_S1x128 := by
  rw [hostOps10n_eq]
  simp only [hostOps10n]
  after_results_simp
  try dsimp only [Matrix.cons_val]
  try after_results_simp
  simp only [h_main_arg33] <;> rfl

set_option maxHeartbeats 4000000 in
/-- `main_v520` after the stretch, from the live-in buffers' values. -/
theorem s10_main_v520 (W : Valuation τ sig (Elt Ideal)) (V0' : Valuation Cert.ReferenceIdeal.τ Cert.ReferenceIdeal.sig (Elt Ideal))
    (h_main_arg35 : W (Proc.devRef .tc main_arg35) = Cert.ReferenceIdeal.RefValue.a35 V0') :
    StableHlo.after (hostOps10 (F := Ideal)) W (Proc.devRef .tc main_v520) = shapeCast _ (Cert.ReferenceIdeal.RefValue.a35 V0') shapeCasts_S1_S1x1 := by
  rw [hostOps10n_eq]
  simp only [hostOps10n]
  after_results_simp
  try dsimp only [Matrix.cons_val]
  try after_results_simp
  simp only [h_main_arg35] <;> rfl

end Cert.KernelIdeal.Frm

end
-- ==== Proof.IdealChain10.lean ====
/-
  The kernel's buffers at the boundaries 20 and 21 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain9
import proofs.«181157_j5506148073958_2_alg».proof.Proof.IdealFinal9
import proofs.«181157_j5506148073958_2_alg».proof.Proof.IdealStretch10

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 20 -/

theorem L20_main_v80 (hag : Agree m ρ c V0') : W20 m ρ c (Proc.devRef .tc main_v80) = Cert.ReferenceIdeal.Value.res_main_v98 V0' := (W20_of_ne m ρ c main_v80 (by decide)).trans (L19_main_v80 m ρ c V0' hag)

theorem L20_main_arg27 (hag : Agree m ρ c V0') : W20 m ρ c (Proc.devRef .tc main_arg27) = Cert.ReferenceIdeal.RefValue.a27 V0' := (W20_of_ne m ρ c main_arg27 (by decide)).trans (L19_main_arg27 m ρ c V0' hag)

theorem L20_main_arg28 (hag : Agree m ρ c V0') : W20 m ρ c (Proc.devRef .tc main_arg28) = Cert.ReferenceIdeal.RefValue.a28 V0' := (W20_of_ne m ρ c main_arg28 (by decide)).trans (L19_main_arg28 m ρ c V0' hag)

theorem L20_main_arg29 (hag : Agree m ρ c V0') : W20 m ρ c (Proc.devRef .tc main_arg29) = Cert.ReferenceIdeal.RefValue.a29 V0' := (W20_of_ne m ρ c main_arg29 (by decide)).trans (L19_main_arg29 m ρ c V0' hag)

theorem L20_main_v300 (hag : Agree m ρ c V0') : W20 m ρ c (Proc.devRef .tc main_v300) = Cert.ReferenceIdeal.Value.res_main_v346 V0' := (W20_of_ne m ρ c main_v300 (by decide)).trans (L19_main_v300 m ρ c V0' hag)

theorem L20_main_v378 (hag : Agree m ρ c V0') : W20 m ρ c (Proc.devRef .tc main_v378) = Cert.ReferenceIdeal.Value.res_main_v438 V0' := (W20_of_ne m ρ c main_v378 (by decide)).trans (L19_main_v378 m ρ c V0' hag)

theorem L20_main_v456 (hag : Agree m ρ c V0') : W20 m ρ c (Proc.devRef .tc main_v456) = Cert.ReferenceIdeal.Value.res_main_v530 V0' := by
  refine (W20_arr m ρ c 5).trans ?_
  refine (final9 (V19 m ρ) c).trans ?_
  unfold G9
  have h0 : V19 m ρ c main_v453 = Cert.ReferenceIdeal.RefValue.t_main_v520 V0' := (L19_main_v453 m ρ c V0' hag)
  have hW0 : V19 m ρ c main_v392 = Cert.ReferenceIdeal.RefValue.t_main_v452 V0' := (L19_main_v392 m ρ c V0' hag)
  have hb0 : Cert.LibRowBias.rowOf (V19 m ρ c main_v454) = Cert.ReferenceIdeal.RefValue.t_main_v454 V0' := by
    rw [show V19 m ρ c main_v454 = shapeCast _ (Cert.ReferenceIdeal.RefValue.t_main_v454 V0') shapeCasts_S64_S1x64 from (L19_main_v454 m ρ c V0' hag)]
    exact Cert.LibRowBias.rowOf_shapeCast _ _
  have hW1 : V19 m ρ c main_v396 = Cert.ReferenceIdeal.RefValue.t_main_v456 V0' := (L19_main_v396 m ρ c V0' hag)
  have hb1 : Cert.LibRowBias.rowOf (V19 m ρ c main_v455) = Cert.ReferenceIdeal.RefValue.t_main_v458 V0' := by
    rw [show V19 m ρ c main_v455 = shapeCast _ (Cert.ReferenceIdeal.RefValue.t_main_v458 V0') shapeCasts_S64_S1x64 from (L19_main_v455 m ρ c V0' hag)]
    exact Cert.LibRowBias.rowOf_shapeCast _ _
  rw [h0, hW0, hb0, hW1, hb1]
  exact (Cert.ReferenceIdeal.RefValue.stage9_ref V0').symm

theorem L20_main_arg31 (hag : Agree m ρ c V0') : W20 m ρ c (Proc.devRef .tc main_arg31) = Cert.ReferenceIdeal.RefValue.a31 V0' := (W20_of_ne m ρ c main_arg31 (by decide)).trans (L19_main_arg31 m ρ c V0' hag)

theorem L20_main_arg33 (hag : Agree m ρ c V0') : W20 m ρ c (Proc.devRef .tc main_arg33) = Cert.ReferenceIdeal.RefValue.a33 V0' := (W20_of_ne m ρ c main_arg33 (by decide)).trans (L19_main_arg33 m ρ c V0' hag)

theorem L20_main_arg35 (hag : Agree m ρ c V0') : W20 m ρ c (Proc.devRef .tc main_arg35) = Cert.ReferenceIdeal.RefValue.a35 V0' := (W20_of_ne m ρ c main_arg35 (by decide)).trans (L19_main_arg35 m ρ c V0' hag)

theorem L20_main_arg30 (hag : Agree m ρ c V0') : W20 m ρ c (Proc.devRef .tc main_arg30) = Cert.ReferenceIdeal.RefValue.a30 V0' := (W20_of_ne m ρ c main_arg30 (by decide)).trans (L19_main_arg30 m ρ c V0' hag)

theorem L20_main_arg32 (hag : Agree m ρ c V0') : W20 m ρ c (Proc.devRef .tc main_arg32) = Cert.ReferenceIdeal.RefValue.a32 V0' := (W20_of_ne m ρ c main_arg32 (by decide)).trans (L19_main_arg32 m ρ c V0' hag)

theorem L20_main_arg34 (hag : Agree m ρ c V0') : W20 m ρ c (Proc.devRef .tc main_arg34) = Cert.ReferenceIdeal.RefValue.a34 V0' := (W20_of_ne m ρ c main_arg34 (by decide)).trans (L19_main_arg34 m ρ c V0' hag)

/-! ## Boundary 21 -/

theorem L21_main_v517 (hag : Agree m ρ c V0') : W21 m ρ c (Proc.devRef .tc main_v517) = Cert.ReferenceIdeal.RefValue.t_main_v591 V0' := s10_main_v517 (W20 m ρ c) V0' (L20_main_arg28 m ρ c V0' hag) (L20_main_v456 m ρ c V0' hag) (L20_main_arg29 m ρ c V0' hag) (L20_main_arg27 m ρ c V0' hag) (L20_main_v300 m ρ c V0' hag) (L20_main_v80 m ρ c V0' hag)

theorem L21_main_arg30 (hag : Agree m ρ c V0') : W21 m ρ c (Proc.devRef .tc main_arg30) = Cert.ReferenceIdeal.RefValue.a30 V0' := (W21_of m ρ c main_arg30 (by decide)).trans (L20_main_arg30 m ρ c V0' hag)

theorem L21_main_v518 (hag : Agree m ρ c V0') : W21 m ρ c (Proc.devRef .tc main_v518) = shapeCast _ (Cert.ReferenceIdeal.RefValue.a31 V0') shapeCasts_S512_S1x512 := s10_main_v518 (W20 m ρ c) V0' (L20_main_arg31 m ρ c V0' hag)

theorem L21_main_arg32 (hag : Agree m ρ c V0') : W21 m ρ c (Proc.devRef .tc main_arg32) = Cert.ReferenceIdeal.RefValue.a32 V0' := (W21_of m ρ c main_arg32 (by decide)).trans (L20_main_arg32 m ρ c V0' hag)

theorem L21_main_v519 (hag : Agree m ρ c V0') : W21 m ρ c (Proc.devRef .tc main_v519) = shapeCast _ (Cert.ReferenceIdeal.RefValue.a33 V0') shapeCasts_S128_S1x128 := s10_main_v519 (W20 m ρ c) V0' (L20_main_arg33 m ρ c V0' hag)

theorem L21_main_arg34 (hag : Agree m ρ c V0') : W21 m ρ c (Proc.devRef .tc main_arg34) = Cert.ReferenceIdeal.RefValue.a34 V0' := (W21_of m ρ c main_arg34 (by decide)).trans (L20_main_arg34 m ρ c V0' hag)

theorem L21_main_v520 (hag : Agree m ρ c V0') : W21 m ρ c (Proc.devRef .tc main_v520) = shapeCast _ (Cert.ReferenceIdeal.RefValue.a35 V0') shapeCasts_S1_S1x1 := s10_main_v520 (W20 m ρ c) V0' (L20_main_arg35 m ρ c V0' hag)

end Cert.KernelIdeal.Frm

end
-- ==== Proof.IdealFinal10.lean ====
/-
  What region 10 leaves in its output array, at the extended reals: the two rectified layers followed by a layer of the
  WHOLE input array. Point t loads rows 2000·t … 2000·t + 1999 of the input and the whole weight matrices and one-row biases,
  and writes back the stage of that block of rows; row p of a stage depends only on row p of its input, so what point t
  writes back is rows 2000·t … of the stage of the whole array; the 25 blocks tile the 50000 rows.
-/
import proofs.«181157_j5506148073958_2_alg».proof.Proof.IdealRegion10
import proofs.«181157_j5506148073958_2_alg».proof.Proof.Stages
import proofs.«181157_j5506148073958_2_alg».proof.Proof.IdealStagePay
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDenseLayers Cert.LibRowBias Cert.Stages

variable (V : (c : Dev nD) → (b : Ref sig .tc) → Buf (Elt Ideal) ((c : Thread nD τ).loc b))

theorem hz10 : (![0, 0] : Fin 2 → Nat) = fun _ => 0 := funext fun a => by fin_cases a <;> rfl

/-- The stage of the whole arrays as the region finds them. -/
def G10 (c : Dev nD) : S50000x1.Idx → EReal :=
  rra (V c main_v517) (V c main_arg30) (rowOf (V c main_v518)) (V c main_arg32) (rowOf (V c main_v519)) (V c main_arg34) (rowOf (V c main_v520))

/-- The printed index maps, decided over the grid: the input rows' window moves with the output's, every other window
    stays at block 0, and the output's block index stays in range. -/
theorem idx_facts10 : ∀ t : Fin cfg10.N, win10_0.index t (0 : Fin 2) = win10_7.index t (0 : Fin 2)
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0
    ∧ win10_6.index t (0 : Fin 2) = 0
    ∧ win10_6.index t (1 : Fin 2) = 0
    ∧ win10_7.index t (1 : Fin 2) = 0
    ∧ win10_7.index t (0 : Fin 2) ≤ 24 :=
  (by decide +kernel : ∀ t : Fin grid10.N, _)

/-- Every block of rows is some point's. -/
theorem idx_onto10 : ∀ q0 : Fin 25, ∃ t : Fin cfg10.N, win10_7.index t = ![q0.val, 0] :=
  (by decide +kernel : ∀ q0 : Fin 25, ∃ t : Fin grid10.N, win10_7.index t = ![q0.val, 0])

/-- What point t writes back is block t of the stage of the whole arrays. -/
theorem flushed10_eq (c : Dev nD) (t : Fin cfg10.N) :
    (dat10 (F := Ideal) V c).flushed 7 t = ((cfg10.win 7).blk t).view.read (Elt Ideal) (G10 V c) := by
  show (cfg10.win 7).cut (grid10.coords t) ((dat10 (F := Ideal) V c).after 7 t) = _
  rw [after10_7]
  unfold out10_7
  rw [View.canon_unit_zero hz10]
  simp only [View.ld_unit_zero (S := S2000x192) hz10, View.ld_unit_zero (S := S192x512) hz10, View.ld_unit_zero (S := S1x512) hz10, View.ld_unit_zero (S := S512x128) hz10, View.ld_unit_zero (S := S1x128) hz10, View.ld_unit_zero (S := S128x1) hz10, View.ld_unit_zero (S := S1x1) hz10]
  obtain ⟨e0, e1, e2, e3, e4, e5, e6, e7, e8, e9, e10, e11, e12, e13, e14, e15⟩ := idx_facts10 t
  have hw1 : iblk10 V c 1 t = V c main_arg30 := by
    funext y
    show V c main_arg30 (((cfg10.win 1).blk t).view.emb y) = V c main_arg30 y
    refine congrArg _ ?_
    funext a; apply Fin.ext
    match a with
    | ⟨0, _⟩ => show win10_1.index t (0 : Fin 2) * 192 + 1 * (y 0).val = (y 0).val; omega
    | ⟨1, _⟩ => show win10_1.index t (1 : Fin 2) * 512 + 1 * (y 1).val = (y 1).val; omega
  have hw2 : iblk10 V c 2 t = V c main_v518 := by
    funext y
    show V c main_v518 (((cfg10.win 2).blk t).view.emb y) = V c main_v518 y
    refine congrArg _ ?_
    funext a; apply Fin.ext
    match a with
    | ⟨0, _⟩ => show win10_2.index t (0 : Fin 2) * 1 + 1 * (y 0).val = (y 0).val; omega
    | ⟨1, _⟩ => show win10_2.index t (1 : Fin 2) * 512 + 1 * (y 1).val = (y 1).val; omega
  have hw3 : iblk10 V c 3 t = V c main_arg32 := by
    funext y
    show V c main_arg32 (((cfg10.win 3).blk t).view.emb y) = V c main_arg32 y
    refine congrArg _ ?_
    funext a; apply Fin.ext
    match a with
    | ⟨0, _⟩ => show win10_3.index t (0 : Fin 2) * 512 + 1 * (y 0).val = (y 0).val; omega
    | ⟨1, _⟩ => show win10_3.index t (1 : Fin 2) * 128 + 1 * (y 1).val = (y 1).val; omega
  have hw4 : iblk10 V c 4 t = V c main_v519 := by
    funext y
    show V c main_v519 (((cfg10.win 4).blk t).view.emb y) = V c main_v519 y
    refine congrArg _ ?_
    funext a; apply Fin.ext
    match a with
    | ⟨0, _⟩ => show win10_4.index t (0 : Fin 2) * 1 + 1 * (y 0).val = (y 0).val; omega
    | ⟨1, _⟩ => show win10_4.index t (1 : Fin 2) * 128 + 1 * (y 1).val = (y 1).val; omega
  have hw5 : iblk10 V c 5 t = V c main_arg34 := by
    funext y
    show V c main_arg34 (((cfg10.win 5).blk t).view.emb y) = V c main_arg34 y
    refine congrArg _ ?_
    funext a; apply Fin.ext
    match a with
    | ⟨0, _⟩ => show win10_5.index t (0 : Fin 2) * 128 + 1 * (y 0).val = (y 0).val; omega
    | ⟨1, _⟩ => show win10_5.index t (1 : Fin 2) * 1 + 1 * (y 1).val = (y 1).val; omega
  have hw6 : iblk10 V c 6 t = V c main_v520 := by
    funext y
    show V c main_v520 (((cfg10.win 6).blk t).view.emb y) = V c main_v520 y
    refine congrArg _ ?_
    funext a; apply Fin.ext
    match a with
    | ⟨0, _⟩ => show win10_6.index t (0 : Fin 2) * 1 + 1 * (y 0).val = (y 0).val; omega
    | ⟨1, _⟩ => show win10_6.index t (1 : Fin 2) * 1 + 1 * (y 1).val = (y 1).val; omega
  funext j
  obtain ⟨p, q, rfl⟩ : ∃ (p : Fin 2000) (q : Fin 1), j = ix2 p q := ⟨j 0, j 1, eq_ix2 j⟩
  refine (pay10_apply (iblk10 V c 0 t) (iblk10 V c 1 t) (iblk10 V c 2 t) (iblk10 V c 3 t) (iblk10 V c 4 t) (iblk10 V c 5 t) (iblk10 V c 6 t) p q).trans ?_
  rw [hw1, hw2, hw3, hw4, hw5, hw6]
  have hp : p.val < 2000 := p.isLt
  have hrow : win10_7.index t (0 : Fin 2) * 2000 + p.val < 50000 := by omega
  have hemb : ((cfg10.win 7).blk t).view.emb (ix2 p q) = ix2 (⟨win10_7.index t (0 : Fin 2) * 2000 + p.val, hrow⟩ : Fin 50000) q := by
    funext a; apply Fin.ext
    match a with
    | ⟨0, _⟩ => show win10_7.index t (0 : Fin 2) * 2000 + 1 * p.val = win10_7.index t (0 : Fin 2) * 2000 + p.val; omega
    | ⟨1, _⟩ => show win10_7.index t (1 : Fin 2) * 1 + 1 * q.val = q.val; omega
  show rra (iblk10 V c 0 t) _ _ _ _ _ _ (ix2 p q) = G10 V c (((cfg10.win 7).blk t).view.emb (ix2 p q))
  rw [hemb]
  refine rra_row _ _ _ _ _ _ _ _ p _ (fun k => ?_) q
  show V c main_v517 (((cfg10.win 0).blk t).view.emb (ix2 p k)) = V c main_v517 (ix2 (⟨win10_7.index t (0 : Fin 2) * 2000 + p.val, hrow⟩ : Fin 50000) k)
  refine congrArg _ ?_
  funext a; apply Fin.ext
  match a with
  | ⟨0, _⟩ => show win10_0.index t (0 : Fin 2) * 2000 + 1 * p.val = win10_7.index t (0 : Fin 2) * 2000 + p.val; omega
  | ⟨1, _⟩ => show win10_0.index t (1 : Fin 2) * 192 + 1 * k.val = k.val; omega

/-- An index of the output array is in point t's block iff its row is in the block's range. -/
theorem mem_blk10 (t : Fin cfg10.N) (i : S50000x1.Idx) :
    i ∈ ((cfg10.win 7).blk t).view.set ↔ ∀ a : Fin 2, win10_7.index t a * S2000x1.size a ≤ (i a).val ∧ (i a).val < win10_7.index t a * S2000x1.size a + S2000x1.size a := by
  show i ∈ ((View.whole main_v521).slice (win10_7.rect t)).set ↔ _
  rw [View.set_slice_whole, Rect.mem_set_unit]
  exact Iff.rfl

/-- The blocks cover the output array. -/
theorem cover10 (i : S50000x1.Idx) :
    ∃ t : Fin cfg10.N, (cfg10.win 7).flush t = true ∧ i ∈ ((cfg10.win 7).blk t).view.set := by
  have hi0 : (i 0).val < 50000 := (i 0).isLt
  have hi1 : (i 1).val < 1 := (i 1).isLt
  obtain ⟨t, ht⟩ := idx_onto10 ⟨(i 0).val / 2000, by omega⟩
  have q0 : win10_7.index t (0 : Fin 2) = (i 0).val / 2000 := congrFun ht 0
  have q1 : win10_7.index t (1 : Fin 2) = 0 := congrFun ht 1
  refine ⟨t, flush10_7 t, ?_⟩
  rw [mem_blk10]
  intro a
  match a with
  | ⟨0, _⟩ => show win10_7.index t (0 : Fin 2) * 2000 ≤ (i 0).val ∧ (i 0).val < win10_7.index t (0 : Fin 2) * 2000 + 2000; omega
  | ⟨1, _⟩ => show win10_7.index t (1 : Fin 2) * 1 ≤ (i 1).val ∧ (i 1).val < win10_7.index t (1 : Fin 2) * 1 + 1; omega

/-- The output array after the region: the stage of the whole arrays. -/
theorem final10 (c : Dev nD) : (dat10 (F := Ideal) V c).arrAt 7 cfg10.N = G10 V c :=
  (dat10 (F := Ideal) V c).arrAt_eq_of_cover 7 (G10 V c) (fun t _ => flushed10_eq V c t) (cover10)

end Cert.KernelIdeal.Frm

end
-- ==== Proof.IdealStretch11.lean ====
/-
  Host stretch 11 of the kernel's program, value by value: each buffer the stretch writes that a later region or stretch reads
  holds, after the stretch, the reference's value of the corresponding buffer — given that the buffers the stretch reads from
  before it hold the reference's values. The stretch's operations are the reference's own, on other buffers: evaluating
  them one by one and substituting the live-in values gives the reference's composed term.
-/
import proofs.«181157_j5506148073958_2_alg».proof.Proof.IdealBounds
import proofs.«181157_j5506148073958_2_alg».proof.Proof.RefValue

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem

set_option maxHeartbeats 4000000 in
/-- `main_v522` after the stretch, from the live-in buffers' values. -/
theorem s11_main_v522 (W : Valuation τ sig (Elt Ideal)) (V0' : Valuation Cert.ReferenceIdeal.τ Cert.ReferenceIdeal.sig (Elt Ideal))
    (h_main_v521 : W (Proc.devRef .tc main_v521) = Cert.ReferenceIdeal.RefValue.t_main_v607 V0') :
    StableHlo.after (hostOps11 (F := Ideal)) W (Proc.devRef .tc main_v522) = Cert.ReferenceIdeal.RefValue.t_main_v608 V0' := by
  simp only [hostOps11]
  after_results_simp
  try dsimp only [Matrix.cons_val]
  try after_results_simp
  simp only [h_main_v521] <;> rfl

end Cert.KernelIdeal.Frm

end
-- ==== Proof.IdealChain11.lean ====
/-
  The kernel's buffers at the boundaries 22 and 23 of its run hold the reference's values: each buffer that a later stretch or
  region reads holds there the reference's value of the corresponding buffer. A value made by a host stretch is the
  stretch's lemma at the values before it; a region's output is the region's stage of its inputs' values, which is the
  reference's value of its output; a value made earlier is kept by a stretch that does not write it and by a region that
  does not write it (an input array of the region ends as entered).
-/
import proofs.«181157_j5506148073958_2_alg».proof.Proof.IdealChain10
import proofs.«181157_j5506148073958_2_alg».proof.Proof.IdealFinal10
import proofs.«181157_j5506148073958_2_alg».proof.Proof.IdealStretch11

set_option maxRecDepth 16384

noncomputable section

namespace Cert.KernelIdeal.Frm

open Cert.KernelIdeal Cert.KernelIdeal.Gen
open Idealize.ShloMosaic Idealize.ShloMosaic.TcCoe Idealize.ShloMosaic.StableHlo
open Idealize.SL Idealize.SL.Sem
open Cert.Stages

variable (m : (ℓ : Loc nD τ sig) → Buf (Elt Ideal) ℓ) (ρ : Dev nD → PrngReg) (c : Dev nD)
  (V0' : Valuation Cert.ReferenceIdeal.τ Cert.ReferenceIdeal.sig (Elt Ideal))

/-! ## Boundary 22 -/

theorem L22_main_v521 (hag : Agree m ρ c V0') : W22 m ρ c (Proc.devRef .tc main_v521) = Cert.ReferenceIdeal.RefValue.t_main_v607 V0' := by
  refine (W22_arr m ρ c 7).trans ?_
  refine (final10 (V21 m ρ) c).trans ?_
  unfold G10
  have h0 : V21 m ρ c main_v517 = Cert.ReferenceIdeal.RefValue.t_main_v591 V0' := (L21_main_v517 m ρ c V0' hag)
  have hW0 : V21 m ρ c main_arg30 = Cert.ReferenceIdeal.RefValue.a30 V0' := (L21_main_arg30 m ρ c V0' hag)
  have hb0 : Cert.LibRowBias.rowOf (V21 m ρ c main_v518) = Cert.ReferenceIdeal.RefValue.a31 V0' := by
    rw [show V21 m ρ c main_v518 = shapeCast _ (Cert.ReferenceIdeal.RefValue.a31 V0') shapeCasts_S512_S1x512 from (L21_main_v518 m ρ c V0' hag)]
    exact Cert.LibRowBias.rowOf_shapeCast _ _
  have hW1 : V21 m ρ c main_arg32 = Cert.ReferenceIdeal.RefValue.a32 V0' := (L21_main_arg32 m ρ c V0' hag)
  have hb1 : Cert.LibRowBias.rowOf (V21 m ρ c main_v519) = Cert.ReferenceIdeal.RefValue.a33 V0' := by
    rw [show V21 m ρ c main_v519 = shapeCast _ (Cert.ReferenceIdeal.RefValue.a33 V0') shapeCasts_S128_S1x128 from (L21_main_v519 m ρ c V0' hag)]
    exact Cert.LibRowBias.rowOf_shapeCast _ _
  have hW2 : V21 m ρ c main_arg34 = Cert.ReferenceIdeal.RefValue.a34 V0' := (L21_main_arg34 m ρ c V0' hag)
  have hb2 : Cert.LibRowBias.rowOf (V21 m ρ c main_v520) = Cert.ReferenceIdeal.RefValue.a35 V0' := by
    rw [show V21 m ρ c main_v520 = shapeCast _ (Cert.ReferenceIdeal.RefValue.a35 V0') shapeCasts_S1_S1x1 from (L21_main_v520 m ρ c V0' hag)]
    exact Cert.LibRowBias.rowOf_shapeCast _ _
  rw [h0, hW0, hb0, hW1, hb1, hW2, hb2]
  exact (Cert.ReferenceIdeal.RefValue.stage10_ref V0').symm

/-! ## Boundary 23 -/

theorem L23_main_v522 (hag : Agree m ρ c V0') : W23 m ρ c (Proc.devRef .tc main_v522) = Cert.ReferenceIdeal.RefValue.t_main_v608 V0' := s11_main_v522 (W22 m ρ c) V0' (L22_main_v521 m ρ c V0' hag)

end Cert.KernelIdeal.Frm

end
-- ==== Proof.RefFrame.lean ====
/-
  The reference's frame. The reference has no kernel: its @main is a line of host operations, and its generated run says
  that every execution terminates with the result at the operations' composed value and every argument unchanged; the
  frame keeps the second half.
-/
import proofs.«181157_j5506148073958_2_alg».proof.Proof.RefRunPatched
import proofs.«181157_j5506148073958_2_alg».proof.Proof.Gen.ReferenceIdeal
import proofs.«181157_j5506148073958_2_alg».proof.Defs

noncomputable section

namespace Cert.ReferenceIdeal.Frm

open Idealize.ShloMosaic Idealize.SL.Sem

end Cert.ReferenceIdeal.Frm

end
-- ==== Proof.lean ====
/-
  The five claims.

  Frames. The kernel's program is eleven regions among twelve stretches of host operations; each region's body loads its
  blocks, computes, and stores one whole output block, so the launch theorem for a list of segments gives: every weakly
  fair execution terminates, nothing faults, and every unscoped buffer ends at the fold of the boundaries' contents; no
  stretch and no region writes an argument. The same text proves it for the word-level program and for its idealization
  (the idealization rewrote nothing, so preserves is trivial). The reference has no kernel: its frame is its run.

  Equal results at the extended reals. The two programs apply the same host operations to the same arguments; they differ
  only where the kernel's program calls a region and the reference spells the region's layers out. A region's output array
  is, block of rows by block of rows, the layers' stage of the block — and row p of a stage depends only on row p of its
  input, so the array is the stage of the whole input array, which is what the reference's spelling computes (a product
  into zero plus a one-row bias, and dot_general plus a broadcast bias, are both h · W + b; narrowing a product's operands
  to a shorter float format is no change on extended reals). Boundary by boundary the kernel's buffers therefore hold the
  reference's values, and at the end the result buffers agree. No finiteness of the inputs is used.
-/
import proofs.«181157_j5506148073958_2_alg».proof.Defs
import proofs.«181157_j5506148073958_2_alg».proof.Proof.Gen.Kernel
import proofs.«181157_j5506148073958_2_alg».proof.Proof.Gen.KernelIdeal
import proofs.«181157_j5506148073958_2_alg».proof.Proof.Gen.ReferenceIdeal
import proofs.«181157_j5506148073958_2_alg».proof.Proof.Gen.Pre_finite_inputs
import proofs.«181157_j5506148073958_2_alg».proof.Proof.BitsFrame
import proofs.«181157_j5506148073958_2_alg».proof.Proof.IdealValueRun
import proofs.«181157_j5506148073958_2_alg».proof.Proof.IdealChain11
import proofs.«181157_j5506148073958_2_alg».proof.Proof.RefFrame

set_option maxRecDepth 16384

noncomputable section

namespace Cert.Proof

open Idealize.ShloMosaic Idealize.ShloMosaic.TcCoe Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

set_option maxHeartbeats 4000000 in
theorem algebraic : Cert.algebraic_KernelIdeal_ReferenceIdeal := by
  intro m g m' g' _ hagree
  refine ⟨fun c => Cert.KernelIdeal.Frm.W23 m g c (Proc.devRef .tc Cert.KernelIdeal.main_v522), Cert.KernelIdeal.Frm.run_value m g, ?_⟩
  have hag : ∀ c, Cert.KernelIdeal.Frm.Agree m g c (StableHlo.launchContents m' c) := fun c =>
    ⟨(hagree c).1.symm,
     (hagree c).2.1.symm,
     (hagree c).2.2.1.symm,
     (hagree c).2.2.2.1.symm,
     (hagree c).2.2.2.2.1.symm,
     (hagree c).2.2.2.2.2.1.symm,
     (hagree c).2.2.2.2.2.2.1.symm,
     (hagree c).2.2.2.2.2.2.2.1.symm,
     (hagree c).2.2.2.2.2.2.2.2.1.symm,
     (hagree c).2.2.2.2.2.2.2.2.2.1.symm,
     (hagree c).2.2.2.2.2.2.2.2.2.2.1.symm,
     (hagree c).2.2.2.2.2.2.2.2.2.2.2.1.symm,
     (hagree c).2.2.2.2.2.2.2.2.2.2.2.2.1.symm,
     (hagree c).2.2.2.2.2.2.2.2.2.2.2.2.2.1.symm,
     (hagree c).2.2.2.2.2.2.2.2.2.2.2.2.2.2.1.symm,
     (hagree c).2.2.2.2.2.2.2.2.2.2.2.2.2.2.2.1.symm,
     (hagree c).2.2.2.2.2.2.2.2.2.2.2.2.2.2.2.2.1.symm,
     (hagree c).2.2.2.2.2.2.2.2.2.2.2.2.2.2.2.2.2.1.symm,
     (hagree c).2.2.2.2.2.2.2.2.2.2.2.2.2.2.2.2.2.2.1.symm,
     (hagree c).2.2.2.2.2.2.2.2.2.2.2.2.2.2.2.2.2.2.2.1.symm,
     (hagree c).2.2.2.2.2.2.2.2.2.2.2.2.2.2.2.2.2.2.2.2.1.symm,
     (hagree c).2.2.2.2.2.2.2.2.2.2.2.2.2.2.2.2.2.2.2.2.2.1.symm,
     (hagree c).2.2.2.2.2.2.2.2.2.2.2.2.2.2.2.2.2.2.2.2.2.2.1.symm,
     (hagree c).2.2.2.2.2.2.2.2.2.2.2.2.2.2.2.2.2.2.2.2.2.2.2.1.symm,
     (hagree c).2.2.2.2.2.2.2.2.2.2.2.2.2.2.2.2.2.2.2.2.2.2.2.2.1.symm,
     (hagree c).2.2.2.2.2.2.2.2.2.2.2.2.2.2.2.2.2.2.2.2.2.2.2.2.2.1.symm,
     (hagree c).2.2.2.2.2.2.2.2.2.2.2.2.2.2.2.2.2.2.2.2.2.2.2.2.2.2.1.symm,
     (hagree c).2.2.2.2.2.2.2.2.2.2.2.2.2.2.2.2.2.2.2.2.2.2.2.2.2.2.2.1.symm,
     (hagree c).2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.2.2.2.2.2.2.1.symm,
     (hagree c).2.2.2.2.2.2.2.2.2.2.2.2.2.2.2.2.2.2.2.2.2.2.2.2.2.2.2.2.2.2.2.2.2.2.2.2.symm⟩
  refine (θ_run Cert.ReferenceIdeal.defs _ _).mono (fun r h c => ⟨(h c).1.trans ?_, (h c).2⟩) (Cert.ReferenceIdeal.Value.run (F := Ideal) m' g')
  -- the kernel's result holds the reference's named value; that name, unfolded (the last region's layers spelt as the
  -- reference spells them, its input the concatenation), is the term the reference's run states
  refine Eq.trans ?_ (Cert.KernelIdeal.Frm.L23_main_v522 m g c (StableHlo.launchContents m' c) (hag c)).symm
  unfold Cert.ReferenceIdeal.RefValue.t_main_v608 Cert.ReferenceIdeal.RefValue.t_main_v607 Cert.ReferenceIdeal.RefValue.hostRRA_50000_192 Cert.ReferenceIdeal.RefValue.t_main_v591 Cert.ReferenceIdeal.Value.fn_main_v591
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
